-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v206) = v0 c
          ∧ r.2.mem ((c.tc : Thread Cert.ReferenceIdeal.nD Cert.ReferenceIdeal.τ).loc Cert.ReferenceIdeal.main_v215) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x16 : Shape := ⟨2, ![50000, 16]⟩
abbrev S2x800000 : Shape := ⟨2, ![2, 800000]⟩
abbrev S800000x3 : Shape := ⟨2, ![800000, 3]⟩
abbrev S16x64 : Shape := ⟨2, ![16, 64]⟩
abbrev S64 : Shape := ⟨1, ![64]⟩
abbrev S3x67x32 : Shape := ⟨3, ![3, 67, 32]⟩
abbrev S3x32 : Shape := ⟨2, ![3, 32]⟩
abbrev S3x32x64 : Shape := ⟨3, ![3, 32, 64]⟩
abbrev S3x64 : Shape := ⟨2, ![3, 64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S32x2 : Shape := ⟨2, ![32, 2]⟩
abbrev S2 : Shape := ⟨1, ![2]⟩
abbrev S_ : Shape := ⟨0, ![]⟩

class Facts : Prop where
  bcast_S_S50000x16 : S_.BroadcastsInDim S50000x16 (![] : Fin 0 → Fin S50000x16.rank)
  reducesTo_S50000x16_S_d0_1 : S50000x16.ReducesTo [0, 1] S_
  h_S_ : 0 < S_.numel
  bcast_S_S800000x3 : S_.BroadcastsInDim S800000x3 (![] : Fin 0 → Fin S800000x3.rank)
  reducesTo_S800000x3_S_d0_1 : S800000x3.ReducesTo [0, 1] S_
  bcast_S_S16x64 : S_.BroadcastsInDim S16x64 (![] : Fin 0 → Fin S16x64.rank)
  reducesTo_S16x64_S_d0_1 : S16x64.ReducesTo [0, 1] S_
  bcast_S_S64 : S_.BroadcastsInDim S64 (![] : Fin 0 → Fin S64.rank)
  reducesTo_S64_S_d0 : S64.ReducesTo [0] S_
  bcast_S_S3x67x32 : S_.BroadcastsInDim S3x67x32 (![] : Fin 0 → Fin S3x67x32.rank)
  reducesTo_S3x67x32_S_d0_1_2 : S3x67x32.ReducesTo [0, 1, 2] S_
  bcast_S_S3x32 : S_.BroadcastsInDim S3x32 (![] : Fin 0 → Fin S3x32.rank)
  reducesTo_S3x32_S_d0_1 : S3x32.ReducesTo [0, 1] S_
  bcast_S_S3x32x64 : S_.BroadcastsInDim S3x32x64 (![] : Fin 0 → Fin S3x32x64.rank)
  reducesTo_S3x32x64_S_d0_1_2 : S3x32x64.ReducesTo [0, 1, 2] S_
  bcast_S_S3x64 : S_.BroadcastsInDim S3x64 (![] : Fin 0 → Fin S3x64.rank)
  reducesTo_S3x64_S_d0_1 : S3x64.ReducesTo [0, 1] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_
  bcast_S_S32x2 : S_.BroadcastsInDim S32x2 (![] : Fin 0 → Fin S32x2.rank)
  reducesTo_S32x2_S_d0_1 : S32x2.ReducesTo [0, 1] S_
  bcast_S_S2 : S_.BroadcastsInDim S2 (![] : Fin 0 → Fin S2.rank)
  reducesTo_S2_S_d0 : S2.ReducesTo [0] S_

variable [Facts]

def fn_part5 {F : FTy → Type} [FloatOps F] (main_arg19 : FVec F S32x2 .f32) (main_arg20 : FVec F S2 .f32) (main_v83 : IVec S_ 1) (main_v84 : FVec F S32 .f32) (main_cst_32 : FVec F S_ .f32) : IVec S_ 1 :=
  let main_v85 : FVec F S32 .f32 := broadcastInDim S32 ![] bcast_S_S32 main_cst_32
  let main_v86 : IVec S32 1 := cmpf .olt main_v84 main_v85
  let main_c_33 : IVec S_ 1 := constantI S_ 1 1#1
  let main_v87 : IVec S_ 1 := (fun x v => Host.reduce IntOp.andi x v reducesTo_S32_S_d0 h_S_) main_v86 main_c_33
  let main_v88 : IVec S_ 1 := andi main_v83 main_v87
  let main_v89 : FVec F S32x2 .f32 := Host.absf main_arg19
  let main_cst_34 : FVec F S_ .f32 := constant S_ .f32 0x7F800000#32
  let main_v90 : FVec F S32x2 .f32 := broadcastInDim S32x2 ![] bcast_S_S32x2 main_cst_34
  let main_v91 : IVec S32x2 1 := cmpf .olt main_v89 main_v90
  let main_c_35 : IVec S_ 1 := constantI S_ 1 1#1
  let main_v92 : IVec S_ 1 := (fun x v => Host.reduce IntOp.andi x v reducesTo_S32x2_S_d0_1 h_S_) main_v91 main_c_35
  let main_v93 : IVec S_ 1 := andi main_v88 main_v92
  let main_v94 : FVec F S2 .f32 := Host.absf main_arg20
  let main_cst_36 : FVec F S_ .f32 := constant S_ .f32 0x7F800000#32
  let main_v95 : FVec F S2 .f32 := broadcastInDim S2 ![] bcast_S_S2 main_cst_36
  let main_v96 : IVec S2 1 := cmpf .olt main_v94 main_v95
  let main_c_37 : IVec S_ 1 := constantI S_ 1 1#1
  let main_v97 : IVec S_ 1 := (fun x v => Host.reduce IntOp.andi x v reducesTo_S2_S_d0 h_S_) main_v96 main_c_37
  let main_v98 : IVec S_ 1 := andi main_v93 main_v97
  main_v98

def fn_part4 {F : FTy → Type} [FloatOps F] (main_arg15 : FVec F S32x1 .f32) (main_arg16 : FVec F S1 .f32) (main_arg17 : FVec F S64x32 .f32) (main_arg18 : FVec F S32 .f32) (main_arg19 : FVec F S32x2 .f32) (main_arg20 : FVec F S2 .f32) (main_v63 : IVec S_ 1) (main_v67 : IVec S_ 1) : IVec S_ 1 :=
  let main_v68 : IVec S_ 1 := andi main_v63 main_v67
  let main_v69 : FVec F S32x1 .f32 := Host.absf main_arg15
  let main_cst_26 : FVec F S_ .f32 := constant S_ .f32 0x7F800000#32
  let main_v70 : FVec F S32x1 .f32 := broadcastInDim S32x1 ![] bcast_S_S32x1 main_cst_26
  let main_v71 : IVec S32x1 1 := cmpf .olt main_v69 main_v70
  let main_c_27 : IVec S_ 1 := constantI S_ 1 1#1
  let main_v72 : IVec S_ 1 := (fun x v => Host.reduce IntOp.andi x v reducesTo_S32x1_S_d0_1 h_S_) main_v71 main_c_27
  let main_v73 : IVec S_ 1 := andi main_v68 main_v72
  let main_v74 : FVec F S1 .f32 := Host.absf main_arg16
  let main_cst_28 : FVec F S_ .f32 := constant S_ .f32 0x7F800000#32
  let main_v75 : FVec F S1 .f32 := broadcastInDim S1 ![] bcast_S_S1 main_cst_28
  let main_v76 : IVec S1 1 := cmpf .olt main_v74 main_v75
  let main_c_29 : IVec S_ 1 := constantI S_ 1 1#1
  let main_v77 : IVec S_ 1 := (fun x v => Host.reduce IntOp.andi x v reducesTo_S1_S_d0 h_S_) main_v76 main_c_29
  let main_v78 : IVec S_ 1 := andi main_v73 main_v77
  let main_v79 : FVec F S64x32 .f32 := Host.absf main_arg17
  let main_cst_30 : FVec F S_ .f32 := constant S_ .f32 0x7F800000#32
  let main_v80 : FVec F S64x32 .f32 := broadcastInDim S64x32 ![] bcast_S_S64x32 main_cst_30
  let main_v81 : IVec S64x32 1 := cmpf .olt main_v79 main_v80
  let main_c_31 : IVec S_ 1 := constantI S_ 1 1#1
  let main_v82 : IVec S_ 1 := (fun x v => Host.reduce IntOp.andi x v reducesTo_S64x32_S_d0_1 h_S_) main_v81 main_c_31
  let main_v83 : IVec S_ 1 := andi main_v78 main_v82
  let main_v84 : FVec F S32 .f32 := Host.absf main_arg18
  let main_cst_32 : FVec F S_ .f32 := constant S_ .f32 0x7F800000#32
  fn_part5 (F := F) main_arg19 main_arg20 main_v83 main_v84 main_cst_32

def fn_part3 {F : FTy → Type} [FloatOps F] (main_arg12 : FVec F S3x64 .f32) (main_arg13 : FVec F S64x32 .f32) (main_arg14 : FVec F S32 .f32) (main_arg15 : FVec F S32x1 .f32) (main_arg16 : FVec F S1 .f32) (main_arg17 : FVec F S64x32 .f32) (main_arg18 : FVec F S32 .f32) (main_arg19 : FVec F S32x2 .f32) (main_arg20 : FVec F S2 .f32) (main_v48 : IVec S_ 1) (main_v49 : FVec F S3x64 .f32) (main_v50 : FVec F S3x64 .f32) : IVec S_ 1 :=
  let main_v51 : IVec S3x64 1 := cmpf .olt main_v49 main_v50
  let main_c_19 : IVec S_ 1 := constantI S_ 1 1#1
  let main_v52 : IVec S_ 1 := (fun x v => Host.reduce IntOp.andi x v reducesTo_S3x64_S_d0_1 h_S_) main_v51 main_c_19
  let main_v53 : IVec S_ 1 := andi main_v48 main_v52
  let main_v54 : FVec F S3x64 .f32 := Host.absf main_arg12
  let main_cst_20 : FVec F S_ .f32 := constant S_ .f32 0x7F800000#32
  let main_v55 : FVec F S3x64 .f32 := broadcastInDim S3x64 ![] bcast_S_S3x64 main_cst_20
  let main_v56 : IVec S3x64 1 := cmpf .olt main_v54 main_v55
  let main_c_21 : IVec S_ 1 := constantI S_ 1 1#1
  let main_v57 : IVec S_ 1 := (fun x v => Host.reduce IntOp.andi x v reducesTo_S3x64_S_d0_1 h_S_) main_v56 main_c_21
  let main_v58 : IVec S_ 1 := andi main_v53 main_v57
  let main_v59 : FVec F S64x32 .f32 := Host.absf main_arg13
  let main_cst_22 : FVec F S_ .f32 := constant S_ .f32 0x7F800000#32
  let main_v60 : FVec F S64x32 .f32 := broadcastInDim S64x32 ![] bcast_S_S64x32 main_cst_22
  let main_v61 : IVec S64x32 1 := cmpf .olt main_v59 main_v60
  let main_c_23 : IVec S_ 1 := constantI S_ 1 1#1
  let main_v62 : IVec S_ 1 := (fun x v => Host.reduce IntOp.andi x v reducesTo_S64x32_S_d0_1 h_S_) main_v61 main_c_23
  let main_v63 : IVec S_ 1 := andi main_v58 main_v62
  let main_v64 : FVec F S32 .f32 := Host.absf main_arg14
  let main_cst_24 : FVec F S_ .f32 := constant S_ .f32 0x7F800000#32
  let main_v65 : FVec F S32 .f32 := broadcastInDim S32 ![] bcast_S_S32 main_cst_24
  let main_v66 : IVec S32 1 := cmpf .olt main_v64 main_v65
  let main_c_25 : IVec S_ 1 := constantI S_ 1 1#1
  let main_v67 : IVec S_ 1 := (fun x v => Host.reduce IntOp.andi x v reducesTo_S32_S_d0 h_S_) main_v66 main_c_25
  fn_part4 (F := F) main_arg15 main_arg16 main_arg17 main_arg18 main_arg19 main_arg20 main_v63 main_v67

def fn_part2 {F : FTy → Type} [FloatOps F] (main_arg8 : FVec F S3x32 .f32) (main_arg9 : FVec F S3x32x64 .f32) (main_arg10 : FVec F S3x64 .f32) (main_arg11 : FVec F S3x64 .f32) (main_arg12 : FVec F S3x64 .f32) (main_arg13 : FVec F S64x32 .f32) (main_arg14 : FVec F S32 .f32) (main_arg15 : FVec F S32x1 .f32) (main_arg16 : FVec F S1 .f32) (main_arg17 : FVec F S64x32 .f32) (main_arg18 : FVec F S32 .f32) (main_arg19 : FVec F S32x2 .f32) (main_arg20 : FVec F S2 .f32) (main_v33 : IVec S_ 1) : IVec S_ 1 :=
  let main_v34 : FVec F S3x32 .f32 := Host.absf main_arg8
  let main_cst_12 : FVec F S_ .f32 := constant S_ .f32 0x7F800000#32
  let main_v35 : FVec F S3x32 .f32 := broadcastInDim S3x32 ![] bcast_S_S3x32 main_cst_12
  let main_v36 : IVec S3x32 1 := cmpf .olt main_v34 main_v35
  let main_c_13 : IVec S_ 1 := constantI S_ 1 1#1
  let main_v37 : IVec S_ 1 := (fun x v => Host.reduce IntOp.andi x v reducesTo_S3x32_S_d0_1 h_S_) main_v36 main_c_13
  let main_v38 : IVec S_ 1 := andi main_v33 main_v37
  let main_v39 : FVec F S3x32x64 .f32 := Host.absf main_arg9
  let main_cst_14 : FVec F S_ .f32 := constant S_ .f32 0x7F800000#32
  let main_v40 : FVec F S3x32x64 .f32 := broadcastInDim S3x32x64 ![] bcast_S_S3x32x64 main_cst_14
  let main_v41 : IVec S3x32x64 1 := cmpf .olt main_v39 main_v40
  let main_c_15 : IVec S_ 1 := constantI S_ 1 1#1
  let main_v42 : IVec S_ 1 := (fun x v => Host.reduce IntOp.andi x v reducesTo_S3x32x64_S_d0_1_2 h_S_) main_v41 main_c_15
  let main_v43 : IVec S_ 1 := andi main_v38 main_v42
  let main_v44 : FVec F S3x64 .f32 := Host.absf main_arg10
  let main_cst_16 : FVec F S_ .f32 := constant S_ .f32 0x7F800000#32
  let main_v45 : FVec F S3x64 .f32 := broadcastInDim S3x64 ![] bcast_S_S3x64 main_cst_16
  let main_v46 : IVec S3x64 1 := cmpf .olt main_v44 main_v45
  let main_c_17 : IVec S_ 1 := constantI S_ 1 1#1
  let main_v47 : IVec S_ 1 := (fun x v => Host.reduce IntOp.andi x v reducesTo_S3x64_S_d0_1 h_S_) main_v46 main_c_17
  let main_v48 : IVec S_ 1 := andi main_v43 main_v47
  let main_v49 : FVec F S3x64 .f32 := Host.absf main_arg11
  let main_cst_18 : FVec F S_ .f32 := constant S_ .f32 0x7F800000#32
  let main_v50 : FVec F S3x64 .f32 := broadcastInDim S3x64 ![] bcast_S_S3x64 main_cst_18
  fn_part3 (F := F) main_arg12 main_arg13 main_arg14 main_arg15 main_arg16 main_arg17 main_arg18 main_arg19 main_arg20 main_v48 main_v49 main_v50

def fn_part1 {F : FTy → Type} [FloatOps F] (main_arg5 : FVec F S64 .f32) (main_arg6 : FVec F S64 .f32) (main_arg7 : FVec F S3x67x32 .f32) (main_arg8 : FVec F S3x32 .f32) (main_arg9 : FVec F S3x32x64 .f32) (main_arg10 : FVec F S3x64 .f32) (main_arg11 : FVec F S3x64 .f32) (main_arg12 : FVec F S3x64 .f32) (main_arg13 : FVec F S64x32 .f32) (main_arg14 : FVec F S32 .f32) (main_arg15 : FVec F S32x1 .f32) (main_arg16 : FVec F S1 .f32) (main_arg17 : FVec F S64x32 .f32) (main_arg18 : FVec F S32 .f32) (main_arg19 : FVec F S32x2 .f32) (main_arg20 : FVec F S2 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S3x67x32 .f32 := Host.absf main_arg7
  let main_cst_10 : FVec F S_ .f32 := constant S_ .f32 0x7F800000#32
  let main_v30 : FVec F S3x67x32 .f32 := broadcastInDim S3x67x32 ![] bcast_S_S3x67x32 main_cst_10
  let main_v31 : IVec S3x67x32 1 := cmpf .olt main_v29 main_v30
  let main_c_11 : IVec S_ 1 := constantI S_ 1 1#1
  let main_v32 : IVec S_ 1 := (fun x v => Host.reduce IntOp.andi x v reducesTo_S3x67x32_S_d0_1_2 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_arg19 main_arg20 main_v33

def fn {F : FTy → Type} [FloatOps F] (main_arg0 : FVec F S50000x16 .f32) (main_arg1 : IVec S2x800000 32) (main_arg2 : FVec F S800000x3 .f32) (main_arg3 : FVec F S16x64 .f32) (main_arg4 : FVec F S64 .f32) (main_arg5 : FVec F S64 .f32) (main_arg6 : FVec F S64 .f32) (main_arg7 : FVec F S3x67x32 .f32) (main_arg8 : FVec F S3x32 .f32) (main_arg9 : FVec F S3x32x64 .f32) (main_arg10 : FVec F S3x64 .f32) (main_arg11 : FVec F S3x64 .f32) (main_arg12 : FVec F S3x64 .f32) (main_arg13 : FVec F S64x32 .f32) (main_arg14 : FVec F S32 .f32) (main_arg15 : FVec F S32x1 .f32) (main_arg16 : FVec F S1 .f32) (main_arg17 : FVec F S64x32 .f32) (main_arg18 : FVec F S32 .f32) (main_arg19 : FVec F S32x2 .f32) (main_arg20 : FVec F S2 .f32) : IVec S_ 1 :=
  let main_v0 : FVec F S50000x16 .f32 := Host.absf main_arg0
  let main_cst : FVec F S_ .f32 := constant S_ .f32 0x7F800000#32
  let main_v1 : FVec F S50000x16 .f32 := broadcastInDim S50000x16 ![] bcast_S_S50000x16 main_cst
  let main_v2 : IVec S50000x16 1 := cmpf .olt main_v0 main_v1
  let main_c : IVec S_ 1 := constantI S_ 1 1#1
  let main_v3 : IVec S_ 1 := (fun x v => Host.reduce IntOp.andi x v reducesTo_S50000x16_S_d0_1 h_S_) main_v2 main_c
  let main_v4 : FVec F S800000x3 .f32 := Host.absf main_arg2
  let main_cst_0 : FVec F S_ .f32 := constant S_ .f32 0x7F800000#32
  let main_v5 : FVec F S800000x3 .f32 := broadcastInDim S800000x3 ![] bcast_S_S800000x3 main_cst_0
  let main_v6 : IVec S800000x3 1 := cmpf .olt main_v4 main_v5
  let main_c_1 : IVec S_ 1 := constantI S_ 1 1#1
  let main_v7 : IVec S_ 1 := (fun x v => Host.reduce IntOp.andi x v reducesTo_S800000x3_S_d0_1 h_S_) main_v6 main_c_1
  let main_v8 : IVec S_ 1 := andi main_v3 main_v7
  let main_v9 : FVec F S16x64 .f32 := Host.absf main_arg3
  let main_cst_2 : FVec F S_ .f32 := constant S_ .f32 0x7F800000#32
  let main_v10 : FVec F S16x64 .f32 := broadcastInDim S16x64 ![] bcast_S_S16x64 main_cst_2
  let main_v11 : IVec S16x64 1 := cmpf .olt main_v9 main_v10
  let main_c_3 : IVec S_ 1 := constantI S_ 1 1#1
  let main_v12 : IVec S_ 1 := (fun x v => Host.reduce IntOp.andi x v reducesTo_S16x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_arg9 main_arg10 main_arg11 main_arg12 main_arg13 main_arg14 main_arg15 main_arg16 main_arg17 main_arg18 main_arg19 main_arg20 main_v13 main_v16
-- ==== Kernel.lean ====
abbrev S50000x16 : Shape := ⟨2, ![50000, 16]⟩
abbrev S2x800000 : Shape := ⟨2, ![2, 800000]⟩
abbrev S800000x3 : Shape := ⟨2, ![800000, 3]⟩
abbrev S16x64 : Shape := ⟨2, ![16, 64]⟩
abbrev S64 : Shape := ⟨1, ![64]⟩
abbrev S3x67x32 : Shape := ⟨3, ![3, 67, 32]⟩
abbrev S3x32 : Shape := ⟨2, ![3, 32]⟩
abbrev S3x32x64 : Shape := ⟨3, ![3, 32, 64]⟩
abbrev S3x64 : Shape := ⟨2, ![3, 64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S32x2 : Shape := ⟨2, ![32, 2]⟩
abbrev S2 : Shape := ⟨1, ![2]⟩
abbrev S1x800000 : Shape := ⟨2, ![1, 800000]⟩
abbrev S800000 : Shape := ⟨1, ![800000]⟩
abbrev S1x64 : Shape := ⟨2, ![1, 64]⟩
abbrev S50000x64 : Shape := ⟨2, ![50000, 64]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x64 : Shape := ⟨2, ![800000, 64]⟩
abbrev S800000x67 : Shape := ⟨2, ![800000, 67]⟩
abbrev S1x32 : Shape := ⟨2, ![1, 32]⟩
abbrev S1x67x32 : Shape := ⟨3, ![1, 67, 32]⟩
abbrev S67x32 : Shape := ⟨2, ![67, 32]⟩
abbrev S1x32x64 : Shape := ⟨3, ![1, 32, 64]⟩
abbrev S32x64 : Shape := ⟨2, ![32, 64]⟩
abbrev S1x1 : Shape := ⟨2, ![1, 1]⟩
abbrev S1x2 : Shape := ⟨2, ![1, 2]⟩
abbrev S50000x2 : Shape := ⟨2, ![50000, 2]⟩
abbrev S5000x16 : Shape := ⟨2, ![5000, 16]⟩
abbrev S5000x64 : Shape := ⟨2, ![5000, 64]⟩
abbrev S5000 : Shape := ⟨1, ![5000]⟩
abbrev S5000x1 : Shape := ⟨2, ![5000, 1]⟩
abbrev S16000x67 : Shape := ⟨2, ![16000, 67]⟩
abbrev S16000x64 : Shape := ⟨2, ![16000, 64]⟩
abbrev S16000x32 : Shape := ⟨2, ![16000, 32]⟩
abbrev S10000x64 : Shape := ⟨2, ![10000, 64]⟩
abbrev S10000 : Shape := ⟨1, ![10000]⟩
abbrev S10000x1 : Shape := ⟨2, ![10000, 1]⟩
abbrev S10000x2 : Shape := ⟨2, ![10000, 2]⟩
abbrev S10000x32 : Shape := ⟨2, ![10000, 32]⟩

abbrev nBuf : Space → Nat
  | .hbm => 157
  | .vmem => 70
  | .smem => 0
  | _ => 0

abbrev hbmTy0_0 (i : Nat) : BufTy := match i % 128 with
  | 0 => ⟨S50000x16, .f32⟩
  | 1 => ⟨S2x800000, .i32⟩
  | 2 => ⟨S800000x3, .f32⟩
  | 3 => ⟨S16x64, .f32⟩
  | 4 => ⟨S64, .f32⟩
  | 5 => ⟨S64, .f32⟩
  | 6 => ⟨S64, .f32⟩
  | 7 => ⟨S3x67x32, .f32⟩
  | 8 => ⟨S3x32, .f32⟩
  | 9 => ⟨S3x32x64, .f32⟩
  | 10 => ⟨S3x64, .f32⟩
  | 11 => ⟨S3x64, .f32⟩
  | 12 => ⟨S3x64, .f32⟩
  | 13 => ⟨S64x32, .f32⟩
  | 14 => ⟨S32, .f32⟩
  | 15 => ⟨S32x1, .f32⟩
  | 16 => ⟨S1, .f32⟩
  | 17 => ⟨S64x32, .f32⟩
  | 18 => ⟨S32, .f32⟩
  | 19 => ⟨S32x2, .f32⟩
  | 20 => ⟨S2, .f32⟩
  | 21 => ⟨S1x800000, .i32⟩
  | 22 => ⟨S800000, .i32⟩
  | 23 => ⟨S1x800000, .i32⟩
  | 24 => ⟨S800000, .i32⟩
  | 25 => ⟨S1x64, .f32⟩
  | 26 => ⟨S1x64, .f32⟩
  | 27 => ⟨S1x64, .f32⟩
  | 28 => ⟨S50000x64, .f32⟩
  | 29 => ⟨S_, .f32⟩
  | 30 => ⟨S800000, .f32⟩
  | 31 => ⟨S_, .f32⟩
  | 32 => ⟨S50000, .f32⟩
  | 33 => ⟨S800000x1, .i32⟩
  | 34 => ⟨S50000, .f32⟩
  | 35 => ⟨S_, .f32⟩
  | 36 => ⟨S50000, .f32⟩
  | 37 => ⟨S50000, .i1⟩
  | 38 => ⟨S_, .f32⟩
  | 39 => ⟨S50000, .f32⟩
  | 40 => ⟨S50000, .f32⟩
  | 41 => ⟨S_, .f32⟩
  | 42 => ⟨S50000, .f32⟩
  | 43 => ⟨S50000, .f32⟩
  | 44 => ⟨S_, .f32⟩
  | 45 => ⟨S_, .f32⟩
  | 46 => ⟨S50000, .f32⟩
  | 47 => ⟨S50000, .f32⟩
  | 48 => ⟨S50000x1, .f32⟩
  | 49 => ⟨S_, .i32⟩
  | 50 => ⟨S800000, .i32⟩
  | 51 => ⟨S800000, .i1⟩
  | 52 => ⟨S_, .i32⟩
  | 53 => ⟨S800000, .i32⟩
  | 54 => ⟨S800000, .i32⟩
  | 55 => ⟨S800000, .i32⟩
  | 56 => ⟨S800000x1, .i32⟩
  | 57 => ⟨S800000x64, .f32⟩
  | 58 => ⟨S800000x67, .f32⟩
  | 59 => ⟨S1x32, .f32⟩
  | 60 => ⟨S32, .f32⟩
  | 61 => ⟨S1x32, .f32⟩
  | 62 => ⟨S1x64, .f32⟩
  | 63 => ⟨S64, .f32⟩
  | 64 => ⟨S1x64, .f32⟩
  | 65 => ⟨S1x67x32, .f32⟩
  | 66 => ⟨S67x32, .f32⟩
  | 67 => ⟨S1x32x64, .f32⟩
  | 68 => ⟨S32x64, .f32⟩
  | 69 => ⟨S800000x64, .f32⟩
  | 70 => ⟨S_, .f32⟩
  | 71 => ⟨S50000x64, .f32⟩
  | 72 => ⟨S800000x1, .i32⟩
  | 73 => ⟨S50000x64, .f32⟩
  | 74 => ⟨S50000x64, .f32⟩
  | 75 => ⟨S50000x64, .f32⟩
  | 76 => ⟨S1x64, .f32⟩
  | 77 => ⟨S64, .f32⟩
  | 78 => ⟨S1x64, .f32⟩
  | 79 => ⟨S1x64, .f32⟩
  | 80 => ⟨S64, .f32⟩
  | 81 => ⟨S1x64, .f32⟩
  | 82 => ⟨S50000x64, .f32⟩
  | 83 => ⟨S_, .i32⟩
  | 84 => ⟨S800000, .i32⟩
  | 85 => ⟨S800000, .i1⟩
  | 86 => ⟨S_, .i32⟩
  | 87 => ⟨S800000, .i32⟩
  | 88 => ⟨S800000, .i32⟩
  | 89 => ⟨S800000, .i32⟩
  | 90 => ⟨S800000x1, .i32⟩
  | 91 => ⟨S800000x64, .f32⟩
  | 92 => ⟨S800000x67, .f32⟩
  | 93 => ⟨S1x32, .f32⟩
  | 94 => ⟨S32, .f32⟩
  | 95 => ⟨S1x32, .f32⟩
  | 96 => ⟨S1x64, .f32⟩
  | 97 => ⟨S64, .f32⟩
  | 98 => ⟨S1x64, .f32⟩
  | 99 => ⟨S1x67x32, .f32⟩
  | 100 => ⟨S67x32, .f32⟩
  | 101 => ⟨S1x32x64, .f32⟩
  | 102 => ⟨S32x64, .f32⟩
  | 103 => ⟨S800000x64, .f32⟩
  | 104 => ⟨S_, .f32⟩
  | 105 => ⟨S50000x64, .f32⟩
  | 106 => ⟨S800000x1, .i32⟩
  | 107 => ⟨S50000x64, .f32⟩
  | 108 => ⟨S50000x64, .f32⟩
  | 109 => ⟨S50000x64, .f32⟩
  | 110 => ⟨S1x64, .f32⟩
  | 111 => ⟨S64, .f32⟩
  | 112 => ⟨S1x64, .f32⟩
  | 113 => ⟨S1x64, .f32⟩
  | 114 => ⟨S64, .f32⟩
  | 115 => ⟨S1x64, .f32⟩
  | 116 => ⟨S50000x64, .f32⟩
  | 117 => ⟨S_, .i32⟩
  | 118 => ⟨S800000, .i32⟩
  | 119 => ⟨S800000, .i1⟩
  | 120 => ⟨S_, .i32⟩
  | 121 => ⟨S800000, .i32⟩
  | 122 => ⟨S800000, .i32⟩
  | 123 => ⟨S800000, .i32⟩
  | 124 => ⟨S800000x1, .i32⟩
  | 125 => ⟨S800000x64, .f32⟩
  | 126 => ⟨S800000x67, .f32⟩
  | 127 => ⟨S1x32, .f32⟩
  | _ => ⟨S50000x16, .f32⟩

abbrev hbmTy0_1 (i : Nat) : BufTy := match i % 128 with
  | 0 => ⟨S32, .f32⟩
  | 1 => ⟨S1x32, .f32⟩
  | 2 => ⟨S1x64, .f32⟩
  | 3 => ⟨S64, .f32⟩
  | 4 => ⟨S1x64, .f32⟩
  | 5 => ⟨S1x67x32, .f32⟩
  | 6 => ⟨S67x32, .f32⟩
  | 7 => ⟨S1x32x64, .f32⟩
  | 8 => ⟨S32x64, .f32⟩
  | 9 => ⟨S800000x64, .f32⟩
  | 10 => ⟨S_, .f32⟩
  | 11 => ⟨S50000x64, .f32⟩
  | 12 => ⟨S800000x1, .i32⟩
  | 13 => ⟨S50000x64, .f32⟩
  | 14 => ⟨S50000x64, .f32⟩
  | 15 => ⟨S50000x64, .f32⟩
  | 16 => ⟨S1x64, .f32⟩
  | 17 => ⟨S64, .f32⟩
  | 18 => ⟨S1x64, .f32⟩
  | 19 => ⟨S1x64, .f32⟩
  | 20 => ⟨S64, .f32⟩
  | 21 => ⟨S1x64, .f32⟩
  | 22 => ⟨S50000x64, .f32⟩
  | 23 => ⟨S1x32, .f32⟩
  | 24 => ⟨S1x1, .f32⟩
  | 25 => ⟨S1x32, .f32⟩
  | 26 => ⟨S1x2, .f32⟩
  | 27 => ⟨S50000x1, .f32⟩
  | 28 => ⟨S50000x2, .f32⟩
  | _ => ⟨S50000x16, .f32⟩

abbrev hbmTy (i : Nat) : BufTy := match i / 128 with
  | 0 => hbmTy0_0 i
  | 1 => hbmTy0_1 i
  | _ => ⟨S50000x16, .f32⟩

abbrev bufTy : (tb : Table) → Fin (tcTables nBuf tb) → BufTy
  | .hbm, ⟨i, _⟩ => hbmTy i
  | .local _ .vmem, ⟨0, _⟩ => ⟨S5000x16, .f32⟩
  | .local _ .vmem, ⟨1, _⟩ => ⟨S5000x16, .f32⟩
  | .local _ .vmem, ⟨2, _⟩ => ⟨S16x64, .f32⟩
  | .local _ .vmem, ⟨3, _⟩ => ⟨S1x64, .f32⟩
  | .local _ .vmem, ⟨4, _⟩ => ⟨S1x64, .f32⟩
  | .local _ .vmem, ⟨5, _⟩ => ⟨S1x64, .f32⟩
  | .local _ .vmem, ⟨6, _⟩ => ⟨S5000x64, .f32⟩
  | .local _ .vmem, ⟨7, _⟩ => ⟨S5000x64, .f32⟩
  | .local _ .vmem, ⟨8, _⟩ => ⟨S16000x67, .f32⟩
  | .local _ .vmem, ⟨9, _⟩ => ⟨S16000x67, .f32⟩
  | .local _ .vmem, ⟨10, _⟩ => ⟨S67x32, .f32⟩
  | .local _ .vmem, ⟨11, _⟩ => ⟨S1x32, .f32⟩
  | .local _ .vmem, ⟨12, _⟩ => ⟨S32x64, .f32⟩
  | .local _ .vmem, ⟨13, _⟩ => ⟨S1x64, .f32⟩
  | .local _ .vmem, ⟨14, _⟩ => ⟨S16000x64, .f32⟩
  | .local _ .vmem, ⟨15, _⟩ => ⟨S16000x64, .f32⟩
  | .local _ .vmem, ⟨16, _⟩ => ⟨S10000x64, .f32⟩
  | .local _ .vmem, ⟨17, _⟩ => ⟨S10000x64, .f32⟩
  | .local _ .vmem, ⟨18, _⟩ => ⟨S10000x64, .f32⟩
  | .local _ .vmem, ⟨19, _⟩ => ⟨S10000x64, .f32⟩
  | .local _ .vmem, ⟨20, _⟩ => ⟨S1x64, .f32⟩
  | .local _ .vmem, ⟨21, _⟩ => ⟨S1x64, .f32⟩
  | .local _ .vmem, ⟨22, _⟩ => ⟨S10000x64, .f32⟩
  | .local _ .vmem, ⟨23, _⟩ => ⟨S10000x64, .f32⟩
  | .local _ .vmem, ⟨24, _⟩ => ⟨S16000x67, .f32⟩
  | .local _ .vmem, ⟨25, _⟩ => ⟨S16000x67, .f32⟩
  | .local _ .vmem, ⟨26, _⟩ => ⟨S67x32, .f32⟩
  | .local _ .vmem, ⟨27, _⟩ => ⟨S1x32, .f32⟩
  | .local _ .vmem, ⟨28, _⟩ => ⟨S32x64, .f32⟩
  | .local _ .vmem, ⟨29, _⟩ => ⟨S1x64, .f32⟩
  | .local _ .vmem, ⟨30, _⟩ => ⟨S16000x64, .f32⟩
  | .local _ .vmem, ⟨31, _⟩ => ⟨S16000x64, .f32⟩
  | .local _ .vmem, ⟨32, _⟩ => ⟨S10000x64, .f32⟩
  | .local _ .vmem, ⟨33, _⟩ => ⟨S10000x64, .f32⟩
  | .local _ .vmem, ⟨34, _⟩ => ⟨S10000x64, .f32⟩
  | .local _ .vmem, ⟨35, _⟩ => ⟨S10000x64, .f32⟩
  | .local _ .vmem, ⟨36, _⟩ => ⟨S1x64, .f32⟩
  | .local _ .vmem, ⟨37, _⟩ => ⟨S1x64, .f32⟩
  | .local _ .vmem, ⟨38, _⟩ => ⟨S10000x64, .f32⟩
  | .local _ .vmem, ⟨39, _⟩ => ⟨S10000x64, .f32⟩
  | .local _ .vmem, ⟨40, _⟩ => ⟨S16000x67, .f32⟩
  | .local _ .vmem, ⟨41, _⟩ => ⟨S16000x67, .f32⟩
  | .local _ .vmem, ⟨42, _⟩ => ⟨S67x32, .f32⟩
  | .local _ .vmem, ⟨43, _⟩ => ⟨S1x32, .f32⟩
  | .local _ .vmem, ⟨44, _⟩ => ⟨S32x64, .f32⟩
  | .local _ .vmem, ⟨45, _⟩ => ⟨S1x64, .f32⟩
  | .local _ .vmem, ⟨46, _⟩ => ⟨S16000x64, .f32⟩
  | .local _ .vmem, ⟨47, _⟩ => ⟨S16000x64, .f32⟩
  | .local _ .vmem, ⟨48, _⟩ => ⟨S10000x64, .f32⟩
  | .local _ .vmem, ⟨49, _⟩ => ⟨S10000x64, .f32⟩
  | .local _ .vmem, ⟨50, _⟩ => ⟨S10000x64, .f32⟩
  | .local _ .vmem, ⟨51, _⟩ => ⟨S10000x64, .f32⟩
  | .local _ .vmem, ⟨52, _⟩ => ⟨S1x64, .f32⟩
  | .local _ .vmem, ⟨53, _⟩ => ⟨S1x64, .f32⟩
  | .local _ .vmem, ⟨54, _⟩ => ⟨S10000x64, .f32⟩
  | .local _ .vmem, ⟨55, _⟩ => ⟨S10000x64, .f32⟩
  | .local _ .vmem, ⟨56, _⟩ => ⟨S10000x64, .f32⟩
  | .local _ .vmem, ⟨57, _⟩ => ⟨S10000x64, .f32⟩
  | .local _ .vmem, ⟨58, _⟩ => ⟨S64x32, .f32⟩
  | .local _ .vmem, ⟨59, _⟩ => ⟨S1x32, .f32⟩
  | .local _ .vmem, ⟨60, _⟩ => ⟨S32x1, .f32⟩
  | .local _ .vmem, ⟨61, _⟩ => ⟨S1x1, .f32⟩
  | .local _ .vmem, ⟨62, _⟩ => ⟨S64x32, .f32⟩
  | .local _ .vmem, ⟨63, _⟩ => ⟨S1x32, .f32⟩
  | .local _ .vmem, ⟨64, _⟩ => ⟨S32x2, .f32⟩
  | .local _ .vmem, ⟨65, _⟩ => ⟨S1x2, .f32⟩
  | .local _ .vmem, ⟨66, _⟩ => ⟨S10000x1, .f32⟩
  | .local _ .vmem, ⟨67, _⟩ => ⟨S10000x1, .f32⟩
  | .local _ .vmem, ⟨68, _⟩ => ⟨S10000x2, .f32⟩
  | .local _ .vmem, ⟨69, _⟩ => ⟨S10000x2, .f32⟩
  | _, _ => ⟨S50000x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | _, _ => false

abbrev semScoped : Fin 0 → Bool
  | ⟨_, h⟩ => absurd h (Nat.not_lt_zero _)

abbrev dmaSemScoped : Fin 70 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | _ => false

abbrev sig : RefSig :=
  ofTc nBuf bufTy 0 70 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_call0_v6 : Ref sig .tc := ⟨.hbm, 27, rfl⟩
abbrev main_call0_v7 : Ref sig .tc := ⟨.hbm, 28, rfl⟩
abbrev main_call0_cst : Ref sig .tc := ⟨.hbm, 29, rfl⟩
abbrev main_call0_v8 : Ref sig .tc := ⟨.hbm, 30, rfl⟩
abbrev main_call0_cst_0 : Ref sig .tc := ⟨.hbm, 31, rfl⟩
abbrev main_call0_v9 : Ref sig .tc := ⟨.hbm, 32, rfl⟩
abbrev main_call0_v10 : Ref sig .tc := ⟨.hbm, 33, rfl⟩
abbrev main_call0_v11 : Ref sig .tc := ⟨.hbm, 34, rfl⟩
abbrev main_call0_cst_1 : Ref sig .tc := ⟨.hbm, 35, rfl⟩
abbrev main_call0_v12 : Ref sig .tc := ⟨.hbm, 36, rfl⟩
abbrev main_call0_v13 : Ref sig .tc := ⟨.hbm, 37, rfl⟩
abbrev main_call0_cst_2 : Ref sig .tc := ⟨.hbm, 38, rfl⟩
abbrev main_call0_v14 : Ref sig .tc := ⟨.hbm, 39, rfl⟩
abbrev main_call0_v15 : Ref sig .tc := ⟨.hbm, 40, rfl⟩
abbrev main_call0_cst_3 : Ref sig .tc := ⟨.hbm, 41, rfl⟩
abbrev main_call0_v16 : Ref sig .tc := ⟨.hbm, 42, rfl⟩
abbrev main_call0_v17 : Ref sig .tc := ⟨.hbm, 43, rfl⟩
abbrev main_call0_cst_4 : Ref sig .tc := ⟨.hbm, 44, rfl⟩
abbrev main_call0_call0_v0 : Ref sig .tc := ⟨.hbm, 45, rfl⟩
abbrev main_call0_call0_v1 : Ref sig .tc := ⟨.hbm, 46, rfl⟩
abbrev main_call0_v18 : Ref sig .tc := ⟨.hbm, 47, rfl⟩
abbrev main_call0_v19 : Ref sig .tc := ⟨.hbm, 48, rfl⟩
abbrev main_call0_c : Ref sig .tc := ⟨.hbm, 49, rfl⟩
abbrev main_call0_v20 : Ref sig .tc := ⟨.hbm, 50, rfl⟩
abbrev main_call0_v21 : Ref sig .tc := ⟨.hbm, 51, rfl⟩
abbrev main_call0_c_5 : Ref sig .tc := ⟨.hbm, 52, rfl⟩
abbrev main_call0_v22 : Ref sig .tc := ⟨.hbm, 53, rfl⟩
abbrev main_call0_v23 : Ref sig .tc := ⟨.hbm, 54, rfl⟩
abbrev main_call0_v24 : Ref sig .tc := ⟨.hbm, 55, rfl⟩
abbrev main_call0_v25 : Ref sig .tc := ⟨.hbm, 56, rfl⟩
abbrev main_call0_v26 : Ref sig .tc := ⟨.hbm, 57, rfl⟩
abbrev main_call0_v27 : Ref sig .tc := ⟨.hbm, 58, rfl⟩
abbrev main_call0_v28 : Ref sig .tc := ⟨.hbm, 59, rfl⟩
abbrev main_call0_v29 : Ref sig .tc := ⟨.hbm, 60, rfl⟩
abbrev main_call0_v30 : Ref sig .tc := ⟨.hbm, 61, rfl⟩
abbrev main_call0_v31 : Ref sig .tc := ⟨.hbm, 62, rfl⟩
abbrev main_call0_v32 : Ref sig .tc := ⟨.hbm, 63, rfl⟩
abbrev main_call0_v33 : Ref sig .tc := ⟨.hbm, 64, rfl⟩
abbrev main_call0_v34 : Ref sig .tc := ⟨.hbm, 65, rfl⟩
abbrev main_call0_v35 : Ref sig .tc := ⟨.hbm, 66, rfl⟩
abbrev main_call0_v36 : Ref sig .tc := ⟨.hbm, 67, rfl⟩
abbrev main_call0_v37 : Ref sig .tc := ⟨.hbm, 68, rfl⟩
abbrev main_call0_v38 : Ref sig .tc := ⟨.hbm, 69, rfl⟩
abbrev main_call0_cst_6 : Ref sig .tc := ⟨.hbm, 70, rfl⟩
abbrev main_call0_v39 : Ref sig .tc := ⟨.hbm, 71, rfl⟩
abbrev main_call0_v40 : Ref sig .tc := ⟨.hbm, 72, rfl⟩
abbrev main_call0_v41 : Ref sig .tc := ⟨.hbm, 73, rfl⟩
abbrev main_call0_v42 : Ref sig .tc := ⟨.hbm, 74, rfl⟩
abbrev main_call0_v43 : Ref sig .tc := ⟨.hbm, 75, rfl⟩
abbrev main_call0_v44 : Ref sig .tc := ⟨.hbm, 76, rfl⟩
abbrev main_call0_v45 : Ref sig .tc := ⟨.hbm, 77, rfl⟩
abbrev main_call0_v46 : Ref sig .tc := ⟨.hbm, 78, rfl⟩
abbrev main_call0_v47 : Ref sig .tc := ⟨.hbm, 79, rfl⟩
abbrev main_call0_v48 : Ref sig .tc := ⟨.hbm, 80, rfl⟩
abbrev main_call0_v49 : Ref sig .tc := ⟨.hbm, 81, rfl⟩
abbrev main_call0_v50 : Ref sig .tc := ⟨.hbm, 82, rfl⟩
abbrev main_call0_c_7 : Ref sig .tc := ⟨.hbm, 83, rfl⟩
abbrev main_call0_v51 : Ref sig .tc := ⟨.hbm, 84, rfl⟩
abbrev main_call0_v52 : Ref sig .tc := ⟨.hbm, 85, rfl⟩
abbrev main_call0_c_8 : Ref sig .tc := ⟨.hbm, 86, rfl⟩
abbrev main_call0_v53 : Ref sig .tc := ⟨.hbm, 87, rfl⟩
abbrev main_call0_v54 : Ref sig .tc := ⟨.hbm, 88, rfl⟩
abbrev main_call0_v55 : Ref sig .tc := ⟨.hbm, 89, rfl⟩
abbrev main_call0_v56 : Ref sig .tc := ⟨.hbm, 90, rfl⟩
abbrev main_call0_v57 : Ref sig .tc := ⟨.hbm, 91, rfl⟩
abbrev main_call0_v58 : Ref sig .tc := ⟨.hbm, 92, rfl⟩
abbrev main_call0_v59 : Ref sig .tc := ⟨.hbm, 93, rfl⟩
abbrev main_call0_v60 : Ref sig .tc := ⟨.hbm, 94, rfl⟩
abbrev main_call0_v61 : Ref sig .tc := ⟨.hbm, 95, rfl⟩
abbrev main_call0_v62 : Ref sig .tc := ⟨.hbm, 96, rfl⟩
abbrev main_call0_v63 : Ref sig .tc := ⟨.hbm, 97, rfl⟩
abbrev main_call0_v64 : Ref sig .tc := ⟨.hbm, 98, rfl⟩
abbrev main_call0_v65 : Ref sig .tc := ⟨.hbm, 99, rfl⟩
abbrev main_call0_v66 : Ref sig .tc := ⟨.hbm, 100, rfl⟩
abbrev main_call0_v67 : Ref sig .tc := ⟨.hbm, 101, rfl⟩
abbrev main_call0_v68 : Ref sig .tc := ⟨.hbm, 102, rfl⟩
abbrev main_call0_v69 : Ref sig .tc := ⟨.hbm, 103, rfl⟩
abbrev main_call0_cst_9 : Ref sig .tc := ⟨.hbm, 104, rfl⟩
abbrev main_call0_v70 : Ref sig .tc := ⟨.hbm, 105, rfl⟩
abbrev main_call0_v71 : Ref sig .tc := ⟨.hbm, 106, rfl⟩
abbrev main_call0_v72 : Ref sig .tc := ⟨.hbm, 107, rfl⟩
abbrev main_call0_v73 : Ref sig .tc := ⟨.hbm, 108, rfl⟩
abbrev main_call0_v74 : Ref sig .tc := ⟨.hbm, 109, rfl⟩
abbrev main_call0_v75 : Ref sig .tc := ⟨.hbm, 110, rfl⟩
abbrev main_call0_v76 : Ref sig .tc := ⟨.hbm, 111, rfl⟩
abbrev main_call0_v77 : Ref sig .tc := ⟨.hbm, 112, rfl⟩
abbrev main_call0_v78 : Ref sig .tc := ⟨.hbm, 113, rfl⟩
abbrev main_call0_v79 : Ref sig .tc := ⟨.hbm, 114, rfl⟩
abbrev main_call0_v80 : Ref sig .tc := ⟨.hbm, 115, rfl⟩
abbrev main_call0_v81 : Ref sig .tc := ⟨.hbm, 116, rfl⟩
abbrev main_call0_c_10 : Ref sig .tc := ⟨.hbm, 117, rfl⟩
abbrev main_call0_v82 : Ref sig .tc := ⟨.hbm, 118, rfl⟩
abbrev main_call0_v83 : Ref sig .tc := ⟨.hbm, 119, rfl⟩
abbrev main_call0_c_11 : Ref sig .tc := ⟨.hbm, 120, rfl⟩
abbrev main_call0_v84 : Ref sig .tc := ⟨.hbm, 121, rfl⟩
abbrev main_call0_v85 : Ref sig .tc := ⟨.hbm, 122, rfl⟩
abbrev main_call0_v86 : Ref sig .tc := ⟨.hbm, 123, rfl⟩
abbrev main_call0_v87 : Ref sig .tc := ⟨.hbm, 124, rfl⟩
abbrev main_call0_v88 : Ref sig .tc := ⟨.hbm, 125, rfl⟩
abbrev main_call0_v89 : Ref sig .tc := ⟨.hbm, 126, rfl⟩
abbrev main_call0_v90 : Ref sig .tc := ⟨.hbm, 127, rfl⟩
abbrev main_call0_v91 : Ref sig .tc := ⟨.hbm, 128, rfl⟩
abbrev main_call0_v92 : Ref sig .tc := ⟨.hbm, 129, rfl⟩
abbrev main_call0_v93 : Ref sig .tc := ⟨.hbm, 130, rfl⟩
abbrev main_call0_v94 : Ref sig .tc := ⟨.hbm, 131, rfl⟩
abbrev main_call0_v95 : Ref sig .tc := ⟨.hbm, 132, rfl⟩
abbrev main_call0_v96 : Ref sig .tc := ⟨.hbm, 133, rfl⟩
abbrev main_call0_v97 : Ref sig .tc := ⟨.hbm, 134, rfl⟩
abbrev main_call0_v98 : Ref sig .tc := ⟨.hbm, 135, rfl⟩
abbrev main_call0_v99 : Ref sig .tc := ⟨.hbm, 136, rfl⟩
abbrev main_call0_v100 : Ref sig .tc := ⟨.hbm, 137, rfl⟩
abbrev main_call0_cst_12 : Ref sig .tc := ⟨.hbm, 138, rfl⟩
abbrev main_call0_v101 : Ref sig .tc := ⟨.hbm, 139, rfl⟩
abbrev main_call0_v102 : Ref sig .tc := ⟨.hbm, 140, rfl⟩
abbrev main_call0_v103 : Ref sig .tc := ⟨.hbm, 141, rfl⟩
abbrev main_call0_v104 : Ref sig .tc := ⟨.hbm, 142, rfl⟩
abbrev main_call0_v105 : Ref sig .tc := ⟨.hbm, 143, rfl⟩
abbrev main_call0_v106 : Ref sig .tc := ⟨.hbm, 144, rfl⟩
abbrev main_call0_v107 : Ref sig .tc := ⟨.hbm, 145, rfl⟩
abbrev main_call0_v108 : Ref sig .tc := ⟨.hbm, 146, rfl⟩
abbrev main_call0_v109 : Ref sig .tc := ⟨.hbm, 147, rfl⟩
abbrev main_call0_v110 : Ref sig .tc := ⟨.hbm, 148, rfl⟩
abbrev main_call0_v111 : Ref sig .tc := ⟨.hbm, 149, rfl⟩
abbrev main_call0_v112 : Ref sig .tc := ⟨.hbm, 150, rfl⟩
abbrev main_call0_v113 : Ref sig .tc := ⟨.hbm, 151, rfl⟩
abbrev main_call0_v114 : Ref sig .tc := ⟨.hbm, 152, rfl⟩
abbrev main_call0_v115 : Ref sig .tc := ⟨.hbm, 153, rfl⟩
abbrev main_call0_v116 : Ref sig .tc := ⟨.hbm, 154, rfl⟩
abbrev main_v0_0 : Ref sig .tc := ⟨.hbm, 155, rfl⟩
abbrev main_v0_1 : Ref sig .tc := ⟨.hbm, 156, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg4_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg2_0 : Ref sig .tc := ⟨.vmem, 27, rfl⟩
abbrev cc3_stg3_0 : Ref sig .tc := ⟨.vmem, 28, rfl⟩
abbrev cc3_stg4_0 : Ref sig .tc := ⟨.vmem, 29, rfl⟩
abbrev cc3_stg5_0 : Ref sig .tc := ⟨.vmem, 30, rfl⟩
abbrev cc3_stg5_1 : Ref sig .tc := ⟨.vmem, 31, rfl⟩
abbrev cc4_stg0_0 : Ref sig .tc := ⟨.vmem, 32, rfl⟩
abbrev cc4_stg0_1 : Ref sig .tc := ⟨.vmem, 33, rfl⟩
abbrev cc4_stg1_0 : Ref sig .tc := ⟨.vmem, 34, rfl⟩
abbrev cc4_stg1_1 : Ref sig .tc := ⟨.vmem, 35, rfl⟩
abbrev cc4_stg2_0 : Ref sig .tc := ⟨.vmem, 36, rfl⟩
abbrev cc4_stg3_0 : Ref sig .tc := ⟨.vmem, 37, rfl⟩
abbrev cc4_stg4_0 : Ref sig .tc := ⟨.vmem, 38, rfl⟩
abbrev cc4_stg4_1 : Ref sig .tc := ⟨.vmem, 39, rfl⟩
abbrev cc5_stg0_0 : Ref sig .tc := ⟨.vmem, 40, rfl⟩
abbrev cc5_stg0_1 : Ref sig .tc := ⟨.vmem, 41, rfl⟩
abbrev cc5_stg1_0 : Ref sig .tc := ⟨.vmem, 42, rfl⟩
abbrev cc5_stg2_0 : Ref sig .tc := ⟨.vmem, 43, rfl⟩
abbrev cc5_stg3_0 : Ref sig .tc := ⟨.vmem, 44, rfl⟩
abbrev cc5_stg4_0 : Ref sig .tc := ⟨.vmem, 45, rfl⟩
abbrev cc5_stg5_0 : Ref sig .tc := ⟨.vmem, 46, rfl⟩
abbrev cc5_stg5_1 : Ref sig .tc := ⟨.vmem, 47, rfl⟩
abbrev cc6_stg0_0 : Ref sig .tc := ⟨.vmem, 48, rfl⟩
abbrev cc6_stg0_1 : Ref sig .tc := ⟨.vmem, 49, rfl⟩
abbrev cc6_stg1_0 : Ref sig .tc := ⟨.vmem, 50, rfl⟩
abbrev cc6_stg1_1 : Ref sig .tc := ⟨.vmem, 51, rfl⟩
abbrev cc6_stg2_0 : Ref sig .tc := ⟨.vmem, 52, rfl⟩
abbrev cc6_stg3_0 : Ref sig .tc := ⟨.vmem, 53, rfl⟩
abbrev cc6_stg4_0 : Ref sig .tc := ⟨.vmem, 54, rfl⟩
abbrev cc6_stg4_1 : Ref sig .tc := ⟨.vmem, 55, rfl⟩
abbrev cc7_stg0_0 : Ref sig .tc := ⟨.vmem, 56, rfl⟩
abbrev cc7_stg0_1 : Ref sig .tc := ⟨.vmem, 57, rfl⟩
abbrev cc7_stg1_0 : Ref sig .tc := ⟨.vmem, 58, rfl⟩
abbrev cc7_stg2_0 : Ref sig .tc := ⟨.vmem, 59, rfl⟩
abbrev cc7_stg3_0 : Ref sig .tc := ⟨.vmem, 60, rfl⟩
abbrev cc7_stg4_0 : Ref sig .tc := ⟨.vmem, 61, rfl⟩
abbrev cc7_stg5_0 : Ref sig .tc := ⟨.vmem, 62, rfl⟩
abbrev cc7_stg6_0 : Ref sig .tc := ⟨.vmem, 63, rfl⟩
abbrev cc7_stg7_0 : Ref sig .tc := ⟨.vmem, 64, rfl⟩
abbrev cc7_stg8_0 : Ref sig .tc := ⟨.vmem, 65, rfl⟩
abbrev cc7_stg9_0 : Ref sig .tc := ⟨.vmem, 66, rfl⟩
abbrev cc7_stg9_1 : Ref sig .tc := ⟨.vmem, 67, rfl⟩
abbrev cc7_stg10_0 : Ref sig .tc := ⟨.vmem, 68, rfl⟩
abbrev cc7_stg10_1 : Ref sig .tc := ⟨.vmem, 69, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem5_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem3_0 : DmaSem sig := 21
abbrev cc2_sem4_0 : DmaSem sig := 22
abbrev cc2_sem4_1 : DmaSem sig := 23
abbrev cc3_sem0_0 : DmaSem sig := 24
abbrev cc3_sem0_1 : DmaSem sig := 25
abbrev cc3_sem1_0 : DmaSem sig := 26
abbrev cc3_sem2_0 : DmaSem sig := 27
abbrev cc3_sem3_0 : DmaSem sig := 28
abbrev cc3_sem4_0 : DmaSem sig := 29
abbrev cc3_sem5_0 : DmaSem sig := 30
abbrev cc3_sem5_1 : DmaSem sig := 31
abbrev cc4_sem0_0 : DmaSem sig := 32
abbrev cc4_sem0_1 : DmaSem sig := 33
abbrev cc4_sem1_0 : DmaSem sig := 34
abbrev cc4_sem1_1 : DmaSem sig := 35
abbrev cc4_sem2_0 : DmaSem sig := 36
abbrev cc4_sem3_0 : DmaSem sig := 37
abbrev cc4_sem4_0 : DmaSem sig := 38
abbrev cc4_sem4_1 : DmaSem sig := 39
abbrev cc5_sem0_0 : DmaSem sig := 40
abbrev cc5_sem0_1 : DmaSem sig := 41
abbrev cc5_sem1_0 : DmaSem sig := 42
abbrev cc5_sem2_0 : DmaSem sig := 43
abbrev cc5_sem3_0 : DmaSem sig := 44
abbrev cc5_sem4_0 : DmaSem sig := 45
abbrev cc5_sem5_0 : DmaSem sig := 46
abbrev cc5_sem5_1 : DmaSem sig := 47
abbrev cc6_sem0_0 : DmaSem sig := 48
abbrev cc6_sem0_1 : DmaSem sig := 49
abbrev cc6_sem1_0 : DmaSem sig := 50
abbrev cc6_sem1_1 : DmaSem sig := 51
abbrev cc6_sem2_0 : DmaSem sig := 52
abbrev cc6_sem3_0 : DmaSem sig := 53
abbrev cc6_sem4_0 : DmaSem sig := 54
abbrev cc6_sem4_1 : DmaSem sig := 55
abbrev cc7_sem0_0 : DmaSem sig := 56
abbrev cc7_sem0_1 : DmaSem sig := 57
abbrev cc7_sem1_0 : DmaSem sig := 58
abbrev cc7_sem2_0 : DmaSem sig := 59
abbrev cc7_sem3_0 : DmaSem sig := 60
abbrev cc7_sem4_0 : DmaSem sig := 61
abbrev cc7_sem5_0 : DmaSem sig := 62
abbrev cc7_sem6_0 : DmaSem sig := 63
abbrev cc7_sem7_0 : DmaSem sig := 64
abbrev cc7_sem8_0 : DmaSem sig := 65
abbrev cc7_sem9_0 : DmaSem sig := 66
abbrev cc7_sem9_1 : DmaSem sig := 67
abbrev cc7_sem10_0 : DmaSem sig := 68
abbrev cc7_sem10_1 : DmaSem sig := 69

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S16000x67 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S67x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S32x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S16000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S10000x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S16000x67 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S67x32 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x32 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S32x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S16000x64 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![5], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S10000x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S1x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S10000x64 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev grid5 : Pipeline.Grid := ⟨1, ![50], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S16000x67 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S67x32 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x32 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S32x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x64 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S16000x64 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![5], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S10000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S10000x64 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S1x64 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x64 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 2 → Memref sig .tc .vmem S10000x64 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

abbrev grid7 : Pipeline.Grid := ⟨1, ![5], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_6 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_7 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_8 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_9 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_10 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S10000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S64x32 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x32 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S32x1 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x1 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 1 → Memref sig .tc .vmem S64x32 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev stage7_6 : Fin 1 → Memref sig .tc .vmem S1x32 .f32 := fun | 0 => Memref.whole cc7_stg6_0 | ⟨_ + 1, h⟩ => absurd h (Nat.not_lt.2 (Nat.le_add_left _ _))
abbrev sem7_6 : Fin 1 → DmaSem sig := fun | 0 => cc7_sem6_0 | ⟨_ + 1, h⟩ => absurd h (Nat.not_lt.2 (Nat.le_add_left _ _))
abbrev reads7_6 : Fin grid7.rank → Bool := ![false]

abbrev stage7_7 : Fin 1 → Memref sig .tc .vmem S32x2 .f32 := fun | 0 => Memref.whole cc7_stg7_0 | ⟨_ + 1, h⟩ => absurd h (Nat.not_lt.2 (Nat.le_add_left _ _))
abbrev sem7_7 : Fin 1 → DmaSem sig := fun | 0 => cc7_sem7_0 | ⟨_ + 1, h⟩ => absurd h (Nat.not_lt.2 (Nat.le_add_left _ _))
abbrev reads7_7 : Fin grid7.rank → Bool := ![false]

abbrev stage7_8 : Fin 1 → Memref sig .tc .vmem S1x2 .f32 := fun | 0 => Memref.whole cc7_stg8_0 | ⟨_ + 1, h⟩ => absurd h (Nat.not_lt.2 (Nat.le_add_left _ _))
abbrev sem7_8 : Fin 1 → DmaSem sig := fun | 0 => cc7_sem8_0 | ⟨_ + 1, h⟩ => absurd h (Nat.not_lt.2 (Nat.le_add_left _ _))
abbrev reads7_8 : Fin grid7.rank → Bool := ![false]

abbrev stage7_9 : Fin 2 → Memref sig .tc .vmem S10000x1 .f32 := fun | 0 => Memref.whole cc7_stg9_0 | 1 => Memref.whole cc7_stg9_1 | ⟨_ + 2, h⟩ => absurd h (Nat.not_lt.2 (Nat.le_add_left _ _))
abbrev sem7_9 : Fin 2 → DmaSem sig := fun | 0 => cc7_sem9_0 | 1 => cc7_sem9_1 | ⟨_ + 2, h⟩ => absurd h (Nat.not_lt.2 (Nat.le_add_left _ _))
abbrev reads7_9 : Fin grid7.rank → Bool := ![true]

abbrev stage7_10 : Fin 2 → Memref sig .tc .vmem S10000x2 .f32 := fun | 0 => Memref.whole cc7_stg10_0 | 1 => Memref.whole cc7_stg10_1 | ⟨_ + 2, h⟩ => absurd h (Nat.not_lt.2 (Nat.le_add_left _ _))
abbrev sem7_10 : Fin 2 → DmaSem sig := fun | 0 => cc7_sem10_0 | 1 => cc7_sem10_1 | ⟨_ + 2, h⟩ => absurd h (Nat.not_lt.2 (Nat.le_add_left _ _))
abbrev reads7_10 : Fin grid7.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  shapeCasts_S64_S1x64 : S64.ShapeCasts S1x64
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  concatenates_S800000x64_S800000x3_S800000x67_d1 : Shape.Concatenates [S800000x64, S800000x3] S800000x67 1
  slices_S3x32_S1x32_0_0 : S3x32.Slices ![0, 0] S1x32
  shapeCasts_S1x32_S32 : S1x32.ShapeCasts S32
  shapeCasts_S32_S1x32 : S32.ShapeCasts S1x32
  slices_S3x64_S1x64_0_0 : S3x64.Slices ![0, 0] S1x64
  shapeCasts_S1x64_S64 : S1x64.ShapeCasts S64
  slices_S3x67x32_S1x67x32_0_0_0 : S3x67x32.Slices ![0, 0, 0] S1x67x32
  shapeCasts_S1x67x32_S67x32 : S1x67x32.ShapeCasts S67x32
  slices_S3x32x64_S1x32x64_0_0_0 : S3x32x64.Slices ![0, 0, 0] S1x32x64
  shapeCasts_S1x32x64_S32x64 : S1x32x64.ShapeCasts S32x64
  bcast_S_S50000x64 : S_.BroadcastsInDim S50000x64 (![] : Fin 0 → Fin S50000x64.rank)
  bcast_S50000x1_S50000x64_0_1 : S50000x1.BroadcastsInDim S50000x64 (![0, 1] : Fin 2 → Fin S50000x64.rank)
  slices_S3x32_S1x32_1_0 : S3x32.Slices ![1, 0] S1x32
  slices_S3x64_S1x64_1_0 : S3x64.Slices ![1, 0] S1x64
  slices_S3x67x32_S1x67x32_1_0_0 : S3x67x32.Slices ![1, 0, 0] S1x67x32
  slices_S3x32x64_S1x32x64_1_0_0 : S3x32x64.Slices ![1, 0, 0] S1x32x64
  slices_S3x32_S1x32_2_0 : S3x32.Slices ![2, 0] S1x32
  slices_S3x64_S1x64_2_0 : S3x64.Slices ![2, 0] S1x64
  slices_S3x67x32_S1x67x32_2_0_0 : S3x67x32.Slices ![2, 0, 0] S1x67x32
  slices_S3x32x64_S1x32x64_2_0_0 : S3x32x64.Slices ![2, 0, 0] S1x32x64
  shapeCasts_S1_S1x1 : S1.ShapeCasts S1x1
  shapeCasts_S2_S1x2 : S2.ShapeCasts S1x2
  inb_S5000x16_S5000x16_0_0 : ∀ a, (![0, 0] : Fin 2 → Nat) a + S5000x16.size a ≤ S5000x16.size a
  h_S5000x16 : 0 < S5000x16.numel
  bitsLt_bf16_f32 : FTy.bits .bf16 < FTy.bits .f32
  inb_S16x64_S16x64_0_0 : ∀ a, (![0, 0] : Fin 2 → Nat) a + S16x64.size a ≤ S16x64.size a
  h_S16x64 : 0 < S16x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  reduces_S5000x64_S5000 : S5000x64.Reduces [1] S5000
  shapeCasts_S5000_S5000x1 : S5000.ShapeCasts S5000x1
  broadcasts_S5000x1_S5000x64 : S5000x1.Broadcasts S5000x64
  inb_S5000x64_S5000x64_0_0 : ∀ a, (![0, 0] : Fin 2 → Nat) a + S5000x64.size a ≤ S5000x64.size a
  h_S5000x64 : 0 < S5000x64.numel
  inb_S16000x67_S16000x67_0_0 : ∀ a, (![0, 0] : Fin 2 → Nat) a + S16000x67.size a ≤ S16000x67.size a
  h_S16000x67 : 0 < S16000x67.numel
  shapeCasts_S16000x67_S16000x67 : S16000x67.ShapeCasts S16000x67
  inb_S67x32_S67x32_0_0 : ∀ a, (![0, 0] : Fin 2 → Nat) a + S67x32.size a ≤ S67x32.size a
  h_S67x32 : 0 < S67x32.numel
  shapeCasts_S67x32_S67x32 : S67x32.ShapeCasts S67x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S16000x32 : S1x32.Broadcasts S16000x32
  inb_S32x64_S32x64_0_0 : ∀ a, (![0, 0] : Fin 2 → Nat) a + S32x64.size a ≤ S32x64.size a
  h_S32x64 : 0 < S32x64.numel
  shapeCasts_S32x64_S32x64 : S32x64.ShapeCasts S32x64
  broadcasts_S1x64_S16000x64 : S1x64.Broadcasts S16000x64
  inb_S16000x64_S16000x64_0_0 : ∀ a, (![0, 0] : Fin 2 → Nat) a + S16000x64.size a ≤ S16000x64.size a
  h_S16000x64 : 0 < S16000x64.numel
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  reduces_S10000x64_S10000 : S10000x64.Reduces [1] S10000
  shapeCasts_S10000_S10000x1 : S10000.ShapeCasts S10000x1
  broadcasts_S10000x1_S10000x64 : S10000x1.Broadcasts S10000x64
  broadcasts_S1x64_S10000x64 : S1x64.Broadcasts S10000x64
  inb_S64x32_S64x32_0_0 : ∀ a, (![0, 0] : Fin 2 → Nat) a + S64x32.size a ≤ S64x32.size a
  h_S64x32 : 0 < S64x32.numel
  broadcasts_S1x32_S10000x32 : S1x32.Broadcasts S10000x32
  inb_S32x1_S32x1_0_0 : ∀ a, (![0, 0] : Fin 2 → Nat) a + S32x1.size a ≤ S32x1.size a
  h_S32x1 : 0 < S32x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S10000x1 : S1x1.Broadcasts S10000x1
  inb_S10000x1_S10000x1_0_0 : ∀ a, (![0, 0] : Fin 2 → Nat) a + S10000x1.size a ≤ S10000x1.size a
  h_S10000x1 : 0 < S10000x1.numel
  inb_S32x2_S32x2_0_0 : ∀ a, (![0, 0] : Fin 2 → Nat) a + S32x2.size a ≤ S32x2.size a
  h_S32x2 : 0 < S32x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S10000x2 : S1x2.Broadcasts S10000x2
  inb_S10000x2_S10000x2_0_0 : ∀ a, (![0, 0] : Fin 2 → Nat) a + S10000x2.size a ≤ S10000x2.size a
  h_S10000x2 : 0 < S10000x2.numel
  scatter_S50000_S800000x1_S800000_n_0_0_1_wf : ScatterDims.WF S50000 S800000x1 S800000 [] [0] [0] 1
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S5000x16_S16x64_S5000x64_1_0_0_1_n_n_wf : DotDims.WF S5000x16 S16x64 S5000x64 [1] [0] [0] [1] [] []
  dot_S16000x67_S67x32_S16000x32_1_0_0_1_n_n_wf : DotDims.WF S16000x67 S67x32 S16000x32 [1] [0] [0] [1] [] []
  dot_S16000x32_S32x64_S16000x64_1_0_0_1_n_n_wf : DotDims.WF S16000x32 S32x64 S16000x64 [1] [0] [0] [1] [] []
  dot_S10000x64_S64x32_S10000x32_1_0_0_1_n_n_wf : DotDims.WF S10000x64 S64x32 S10000x32 [1] [0] [0] [1] [] []
  dot_S10000x32_S32x1_S10000x1_1_0_0_1_n_n_wf : DotDims.WF S10000x32 S32x1 S10000x1 [1] [0] [0] [1] [] []
  dot_S10000x32_S32x2_S10000x2_1_0_0_1_n_n_wf : DotDims.WF S10000x32 S32x2 S10000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x16.size a ≤ S50000x16.size a
  hwx0_0 : ∀ i : grid0.Coords, EltTy.bits .f32 = 32 ∨ (Rect.block (s := S50000x16) S5000x16.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x64.size a ≤ S16x64.size a
  hwx0_1 : ∀ i : grid0.Coords, EltTy.bits .f32 = 32 ∨ (Rect.block (s := S16x64) S16x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x64.size a ≤ S50000x64.size a
  hwx0_5 : ∀ i : grid0.Coords, EltTy.bits .f32 = 32 ∨ (Rect.block (s := S50000x64) S5000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S16000x67.size a ≤ S800000x67.size a
  hwx1_0 : ∀ i : grid1.Coords, EltTy.bits .f32 = 32 ∨ (Rect.block (s := S800000x67) S16000x67.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S67x32.size a ≤ S67x32.size a
  hwx1_1 : ∀ i : grid1.Coords, EltTy.bits .f32 = 32 ∨ (Rect.block (s := S67x32) S67x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x32.size a ≤ S1x32.size a
  hwx1_2 : ∀ i : grid1.Coords, EltTy.bits .f32 = 32 ∨ (Rect.block (s := S1x32) S1x32.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S32x64.size a ≤ S32x64.size a
  hwx1_3 : ∀ i : grid1.Coords, EltTy.bits .f32 = 32 ∨ (Rect.block (s := S32x64) S32x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S16000x64.size a ≤ S800000x64.size a
  hwx1_5 : ∀ i : grid1.Coords, EltTy.bits .f32 = 32 ∨ (Rect.block (s := S800000x64) S16000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S50000x64.size a
  hwx2_0 : ∀ i : grid2.Coords, EltTy.bits .f32 = 32 ∨ (Rect.block (s := S50000x64) S10000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x64.size a ≤ S50000x64.size a
  hwx2_1 : ∀ i : grid2.Coords, EltTy.bits .f32 = 32 ∨ (Rect.block (s := S50000x64) S10000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S10000x64.size a ≤ S50000x64.size a
  hwx2_4 : ∀ i : grid2.Coords, EltTy.bits .f32 = 32 ∨ (Rect.block (s := S50000x64) S10000x64.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S16000x67.size a ≤ S800000x67.size a
  hwx3_0 : ∀ i : grid3.Coords, EltTy.bits .f32 = 32 ∨ (Rect.block (s := S800000x67) S16000x67.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S67x32.size a ≤ S67x32.size a
  hwx3_1 : ∀ i : grid3.Coords, EltTy.bits .f32 = 32 ∨ (Rect.block (s := S67x32) S67x32.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x32.size a ≤ S1x32.size a
  hwx3_2 : ∀ i : grid3.Coords, EltTy.bits .f32 = 32 ∨ (Rect.block (s := S1x32) S1x32.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S32x64.size a ≤ S32x64.size a
  hwx3_3 : ∀ i : grid3.Coords, EltTy.bits .f32 = 32 ∨ (Rect.block (s := S32x64) S32x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S16000x64.size a ≤ S800000x64.size a
  hwx3_5 : ∀ i : grid3.Coords, EltTy.bits .f32 = 32 ∨ (Rect.block (s := S800000x64) S16000x64.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x64.size a ≤ S50000x64.size a
  hwx4_0 : ∀ i : grid4.Coords, EltTy.bits .f32 = 32 ∨ (Rect.block (s := S50000x64) S10000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S10000x64.size a ≤ S50000x64.size a
  hwx4_1 : ∀ i : grid4.Coords, EltTy.bits .f32 = 32 ∨ (Rect.block (s := S50000x64) S10000x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x64.size a ≤ S1x64.size a
  hwx4_2 : ∀ i : grid4.Coords, EltTy.bits .f32 = 32 ∨ (Rect.block (s := S1x64) S1x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x64.size a ≤ S1x64.size a
  hwx4_3 : ∀ i : grid4.Coords, EltTy.bits .f32 = 32 ∨ (Rect.block (s := S1x64) S1x64.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S10000x64.size a ≤ S50000x64.size a
  hwx4_4 : ∀ i : grid4.Coords, EltTy.bits .f32 = 32 ∨ (Rect.block (s := S50000x64) S10000x64.size (cc4_transform_4 i) (hinb4_4 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S16000x67.size a ≤ S800000x67.size a
  hwx5_0 : ∀ i : grid5.Coords, EltTy.bits .f32 = 32 ∨ (Rect.block (s := S800000x67) S16000x67.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S67x32.size a ≤ S67x32.size a
  hwx5_1 : ∀ i : grid5.Coords, EltTy.bits .f32 = 32 ∨ (Rect.block (s := S67x32) S67x32.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x32.size a ≤ S1x32.size a
  hwx5_2 : ∀ i : grid5.Coords, EltTy.bits .f32 = 32 ∨ (Rect.block (s := S1x32) S1x32.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S32x64.size a ≤ S32x64.size a
  hwx5_3 : ∀ i : grid5.Coords, EltTy.bits .f32 = 32 ∨ (Rect.block (s := S32x64) S32x64.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x64.size a ≤ S1x64.size a
  hwx5_4 : ∀ i : grid5.Coords, EltTy.bits .f32 = 32 ∨ (Rect.block (s := S1x64) S1x64.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S16000x64.size a ≤ S800000x64.size a
  hwx5_5 : ∀ i : grid5.Coords, EltTy.bits .f32 = 32 ∨ (Rect.block (s := S800000x64) S16000x64.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S10000x64.size a ≤ S50000x64.size a
  hwx6_0 : ∀ i : grid6.Coords, EltTy.bits .f32 = 32 ∨ (Rect.block (s := S50000x64) S10000x64.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S10000x64.size a ≤ S50000x64.size a
  hwx6_1 : ∀ i : grid6.Coords, EltTy.bits .f32 = 32 ∨ (Rect.block (s := S50000x64) S10000x64.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x64.size a ≤ S1x64.size a
  hwx6_2 : ∀ i : grid6.Coords, EltTy.bits .f32 = 32 ∨ (Rect.block (s := S1x64) S1x64.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x64.size a ≤ S1x64.size a
  hwx6_3 : ∀ i : grid6.Coords, EltTy.bits .f32 = 32 ∨ (Rect.block (s := S1x64) S1x64.size (cc6_transform_3 i) (hinb6_3 i)).WholeWords (EltTy.packing .f32)
  hstage6_4 : ∀ j, (stage6_4 j).IsWhole
  nbuf6_4 : grid6.bufCount reads6_4 false = 2
  hreads6_4 : ∀ i i' : grid6.Coords, (∀ a, reads6_4 a = true → i a = i' a) → cc6_transform_4 i = cc6_transform_4 i'
  hinb6_4 : ∀ (i : grid6.Coords) a, (cc6_transform_4 i a + 1) * S10000x64.size a ≤ S50000x64.size a
  hwx6_4 : ∀ i : grid6.Coords, EltTy.bits .f32 = 32 ∨ (Rect.block (s := S50000x64) S10000x64.size (cc6_transform_4 i) (hinb6_4 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S10000x64.size a ≤ S50000x64.size a
  hwx7_0 : ∀ i : grid7.Coords, EltTy.bits .f32 = 32 ∨ (Rect.block (s := S50000x64) S10000x64.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S64x32.size a ≤ S64x32.size a
  hwx7_1 : ∀ i : grid7.Coords, EltTy.bits .f32 = 32 ∨ (Rect.block (s := S64x32) S64x32.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x32.size a ≤ S1x32.size a
  hwx7_2 : ∀ i : grid7.Coords, EltTy.bits .f32 = 32 ∨ (Rect.block (s := S1x32) S1x32.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S32x1.size a ≤ S32x1.size a
  hwx7_3 : ∀ i : grid7.Coords, EltTy.bits .f32 = 32 ∨ (Rect.block (s := S32x1) S32x1.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x1.size a ≤ S1x1.size a
  hwx7_4 : ∀ i : grid7.Coords, EltTy.bits .f32 = 32 ∨ (Rect.block (s := S1x1) S1x1.size (cc7_transform_4 i) (hinb7_4 i)).WholeWords (EltTy.packing .f32)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S64x32.size a ≤ S64x32.size a
  hwx7_5 : ∀ i : grid7.Coords, EltTy.bits .f32 = 32 ∨ (Rect.block (s := S64x32) S64x32.size (cc7_transform_5 i) (hinb7_5 i)).WholeWords (EltTy.packing .f32)
  hstage7_6 : ∀ j, (stage7_6 j).IsWhole
  nbuf7_6 : grid7.bufCount reads7_6 true = 1
  hreads7_6 : ∀ i i' : grid7.Coords, (∀ a, reads7_6 a = true → i a = i' a) → cc7_transform_6 i = cc7_transform_6 i'
  hinb7_6 : ∀ (i : grid7.Coords) a, (cc7_transform_6 i a + 1) * S1x32.size a ≤ S1x32.size a
  hwx7_6 : ∀ i : grid7.Coords, EltTy.bits .f32 = 32 ∨ (Rect.block (s := S1x32) S1x32.size (cc7_transform_6 i) (hinb7_6 i)).WholeWords (EltTy.packing .f32)
  hstage7_7 : ∀ j, (stage7_7 j).IsWhole
  nbuf7_7 : grid7.bufCount reads7_7 true = 1
  hreads7_7 : ∀ i i' : grid7.Coords, (∀ a, reads7_7 a = true → i a = i' a) → cc7_transform_7 i = cc7_transform_7 i'
  hinb7_7 : ∀ (i : grid7.Coords) a, (cc7_transform_7 i a + 1) * S32x2.size a ≤ S32x2.size a
  hwx7_7 : ∀ i : grid7.Coords, EltTy.bits .f32 = 32 ∨ (Rect.block (s := S32x2) S32x2.size (cc7_transform_7 i) (hinb7_7 i)).WholeWords (EltTy.packing .f32)
  hstage7_8 : ∀ j, (stage7_8 j).IsWhole
  nbuf7_8 : grid7.bufCount reads7_8 true = 1
  hreads7_8 : ∀ i i' : grid7.Coords, (∀ a, reads7_8 a = true → i a = i' a) → cc7_transform_8 i = cc7_transform_8 i'
  hinb7_8 : ∀ (i : grid7.Coords) a, (cc7_transform_8 i a + 1) * S1x2.size a ≤ S1x2.size a
  hwx7_8 : ∀ i : grid7.Coords, EltTy.bits .f32 = 32 ∨ (Rect.block (s := S1x2) S1x2.size (cc7_transform_8 i) (hinb7_8 i)).WholeWords (EltTy.packing .f32)
  hstage7_9 : ∀ j, (stage7_9 j).IsWhole
  nbuf7_9 : grid7.bufCount reads7_9 false = 2
  hreads7_9 : ∀ i i' : grid7.Coords, (∀ a, reads7_9 a = true → i a = i' a) → cc7_transform_9 i = cc7_transform_9 i'
  hinb7_9 : ∀ (i : grid7.Coords) a, (cc7_transform_9 i a + 1) * S10000x1.size a ≤ S50000x1.size a
  hwx7_9 : ∀ i : grid7.Coords, EltTy.bits .f32 = 32 ∨ (Rect.block (s := S50000x1) S10000x1.size (cc7_transform_9 i) (hinb7_9 i)).WholeWords (EltTy.packing .f32)
  hstage7_10 : ∀ j, (stage7_10 j).IsWhole
  nbuf7_10 : grid7.bufCount reads7_10 false = 2
  hreads7_10 : ∀ i i' : grid7.Coords, (∀ a, reads7_10 a = true → i a = i' a) → cc7_transform_10 i = cc7_transform_10 i'
  hinb7_10 : ∀ (i : grid7.Coords) a, (cc7_transform_10 i a + 1) * S10000x2.size a ≤ S50000x2.size a
  hwx7_10 : ∀ i : grid7.Coords, EltTy.bits .f32 = 32 ∨ (Rect.block (s := S50000x2) S10000x2.size (cc7_transform_10 i) (hinb7_10 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S5000x16_S16x64_S5000x64_1_0_0_1_n_n : DotDims S5000x16 S16x64 S5000x64 where
  lhsContracting := [1]
  rhsContracting := [0]
  lhsNonContracting := [0]
  rhsNonContracting := [1]
  lhsBatch := []
  rhsBatch := []
  wf := dot_S5000x16_S16x64_S5000x64_1_0_0_1_n_n_wf
def dot_S16000x67_S67x32_S16000x32_1_0_0_1_n_n : DotDims S16000x67 S67x32 S16000x32 where
  lhsContracting := [1]
  rhsContracting := [0]
  lhsNonContracting := [0]
  rhsNonContracting := [1]
  lhsBatch := []
  rhsBatch := []
  wf := dot_S16000x67_S67x32_S16000x32_1_0_0_1_n_n_wf
def dot_S16000x32_S32x64_S16000x64_1_0_0_1_n_n : DotDims S16000x32 S32x64 S16000x64 where
  lhsContracting := [1]
  rhsContracting := [0]
  lhsNonContracting := [0]
  rhsNonContracting := [1]
  lhsBatch := []
  rhsBatch := []
  wf := dot_S16000x32_S32x64_S16000x64_1_0_0_1_n_n_wf
def dot_S10000x64_S64x32_S10000x32_1_0_0_1_n_n : DotDims S10000x64 S64x32 S10000x32 where
  lhsContracting := [1]
  rhsContracting := [0]
  lhsNonContracting := [0]
  rhsNonContracting := [1]
  lhsBatch := []
  rhsBatch := []
  wf := dot_S10000x64_S64x32_S10000x32_1_0_0_1_n_n_wf
def dot_S10000x32_S32x1_S10000x1_1_0_0_1_n_n : DotDims S10000x32 S32x1 S10000x1 where
  lhsContracting := [1]
  rhsContracting := [0]
  lhsNonContracting := [0]
  rhsNonContracting := [1]
  lhsBatch := []
  rhsBatch := []
  wf := dot_S10000x32_S32x1_S10000x1_1_0_0_1_n_n_wf
def dot_S10000x32_S32x2_S10000x2_1_0_0_1_n_n : DotDims S10000x32 S32x2 S10000x2 where
  lhsContracting := [1]
  rhsContracting := [0]
  lhsNonContracting := [0]
  rhsNonContracting := [1]
  lhsBatch := []
  rhsBatch := []
  wf := dot_S10000x32_S32x2_S10000x2_1_0_0_1_n_n_wf

abbrev win0_0 : Pipeline.Window sig grid0 :=
  Pipeline.Window.ofSpec (Memref.whole main_arg0) S5000x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S16x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v4) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v5) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v6) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v7) S5000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_call0_v27) S16000x67.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v35) S67x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_call0_v30) S1x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_call0_v37) S32x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_call0_v33) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_call0_v38) S16000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_call0_v7) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_call0_v43) S10000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_call0_v46) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_call0_v49) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_call0_v50) S10000x64.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_call0_v58) S16000x67.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_call0_v66) S67x32.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_call0_v61) S1x32.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_call0_v68) S32x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_call0_v64) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_call0_v69) S16000x64.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_call0_v50) S10000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_call0_v74) S10000x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_call0_v77) S1x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_call0_v80) S1x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_call0_v81) S10000x64.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_call0_v89) S16000x67.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_call0_v97) S67x32.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_call0_v92) S1x32.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_call0_v99) S32x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_call0_v95) S1x64.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_call0_v100) S16000x64.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_call0_v81) S10000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_call0_v105) S10000x64.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_call0_v108) S1x64.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_call0_v111) S1x64.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_call0_v112) S10000x64.size cc6_transform_4 reads6_4 true false 2 stage6_4 sem6_4
    hrank6 hreads6_4 hinb6_4 nbuf6_4 (Memref.isWhole_whole _) hwx6_4 hstage6_4

abbrev win6 : Fin 5 → Pipeline.Window sig grid6 := fun | 0 => win6_0 | 1 => win6_1 | 2 => win6_2 | 3 => win6_3 | 4 => win6_4 | ⟨_ + 5, h⟩ => absurd h (Nat.not_lt.2 (Nat.le_add_left _ _))
abbrev spec6 : Fin 5 → Pipeline.WinSpec sig grid6.rank := fun w => (win6 w).toWinSpec

abbrev win7_0 : Pipeline.Window sig grid7 :=
  Pipeline.Window.ofSpec (Memref.whole main_call0_v112) S10000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_arg13) S64x32.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_call0_v113) S1x32.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_arg15) S32x1.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_call0_v114) S1x1.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_arg17) S64x32.size cc7_transform_5 reads7_5 false true 1 stage7_5 sem7_5
    hrank7 hreads7_5 hinb7_5 nbuf7_5 (Memref.isWhole_whole _) hwx7_5 hstage7_5

abbrev win7_6 : Pipeline.Window sig grid7 :=
  Pipeline.Window.ofSpec (Memref.whole main_call0_v115) S1x32.size cc7_transform_6 reads7_6 false true 1 stage7_6 sem7_6
    hrank7 hreads7_6 hinb7_6 nbuf7_6 (Memref.isWhole_whole _) hwx7_6 hstage7_6

abbrev win7_7 : Pipeline.Window sig grid7 :=
  Pipeline.Window.ofSpec (Memref.whole main_arg19) S32x2.size cc7_transform_7 reads7_7 false true 1 stage7_7 sem7_7
    hrank7 hreads7_7 hinb7_7 nbuf7_7 (Memref.isWhole_whole _) hwx7_7 hstage7_7

abbrev win7_8 : Pipeline.Window sig grid7 :=
  Pipeline.Window.ofSpec (Memref.whole main_call0_v116) S1x2.size cc7_transform_8 reads7_8 false true 1 stage7_8 sem7_8
    hrank7 hreads7_8 hinb7_8 nbuf7_8 (Memref.isWhole_whole _) hwx7_8 hstage7_8

abbrev win7_9 : Pipeline.Window sig grid7 :=
  Pipeline.Window.ofSpec (Memref.whole main_v0_0) S10000x1.size cc7_transform_9 reads7_9 true false 2 stage7_9 sem7_9
    hrank7 hreads7_9 hinb7_9 nbuf7_9 (Memref.isWhole_whole _) hwx7_9 hstage7_9

abbrev win7_10 : Pipeline.Window sig grid7 :=
  Pipeline.Window.ofSpec (Memref.whole main_v0_1) S10000x2.size cc7_transform_10 reads7_10 true false 2 stage7_10 sem7_10
    hrank7 hreads7_10 hinb7_10 nbuf7_10 (Memref.isWhole_whole _) hwx7_10 hstage7_10

abbrev win7 : Fin 11 → Pipeline.Window sig grid7 := fun | 0 => win7_0 | 1 => win7_1 | 2 => win7_2 | 3 => win7_3 | 4 => win7_4 | 5 => win7_5 | 6 => win7_6 | 7 => win7_7 | 8 => win7_8 | 9 => win7_9 | 10 => win7_10 | ⟨_ + 11, h⟩ => absurd h (Nat.not_lt.2 (Nat.le_add_left _ _))
abbrev spec7 : Fin 11 → Pipeline.WinSpec sig grid7.rank := fun w => (win7 w).toWinSpec

class Facts : Prop extends Facts₀ where

variable [Facts]
-- ==== ReferenceIdeal.lean ====
abbrev S50000x16 : Shape := ⟨2, ![50000, 16]⟩
abbrev S2x800000 : Shape := ⟨2, ![2, 800000]⟩
abbrev S800000x3 : Shape := ⟨2, ![800000, 3]⟩
abbrev S16x64 : Shape := ⟨2, ![16, 64]⟩
abbrev S64 : Shape := ⟨1, ![64]⟩
abbrev S3x67x32 : Shape := ⟨3, ![3, 67, 32]⟩
abbrev S3x32 : Shape := ⟨2, ![3, 32]⟩
abbrev S3x32x64 : Shape := ⟨3, ![3, 32, 64]⟩
abbrev S3x64 : Shape := ⟨2, ![3, 64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S32x2 : Shape := ⟨2, ![32, 2]⟩
abbrev S2 : Shape := ⟨1, ![2]⟩
abbrev S1x800000 : Shape := ⟨2, ![1, 800000]⟩
abbrev S800000 : Shape := ⟨1, ![800000]⟩
abbrev S50000x64 : Shape := ⟨2, ![50000, 64]⟩
abbrev S1x64 : Shape := ⟨2, ![1, 64]⟩
abbrev S_ : Shape := ⟨0, ![]⟩
abbrev S50000 : Shape := ⟨1, ![50000]⟩
abbrev S50000x1 : Shape := ⟨2, ![50000, 1]⟩
abbrev S800000x1 : Shape := ⟨2, ![800000, 1]⟩
abbrev S800000x64 : Shape := ⟨2, ![800000, 64]⟩
abbrev S800000x67 : Shape := ⟨2, ![800000, 67]⟩
abbrev S1x67x32 : Shape := ⟨3, ![1, 67, 32]⟩
abbrev S67x32 : Shape := ⟨2, ![67, 32]⟩
abbrev S800000x32 : Shape := ⟨2, ![800000, 32]⟩
abbrev S1x32 : Shape := ⟨2, ![1, 32]⟩
abbrev S1x32x64 : Shape := ⟨3, ![1, 32, 64]⟩
abbrev S32x64 : Shape := ⟨2, ![32, 64]⟩
abbrev S50000x32 : Shape := ⟨2, ![50000, 32]⟩
abbrev S1x1 : Shape := ⟨2, ![1, 1]⟩
abbrev S50000x2 : Shape := ⟨2, ![50000, 2]⟩
abbrev S1x2 : Shape := ⟨2, ![1, 2]⟩

abbrev nBuf : Space → Nat
  | .hbm => 370
  | .vmem => 0
  | .smem => 0
  | _ => 0

abbrev hbmTy0_0 (i : Nat) : BufTy := match i % 128 with
  | 0 => ⟨S50000x16, .f32⟩
  | 1 => ⟨S2x800000, .i32⟩
  | 2 => ⟨S800000x3, .f32⟩
  | 3 => ⟨S16x64, .f32⟩
  | 4 => ⟨S64, .f32⟩
  | 5 => ⟨S64, .f32⟩
  | 6 => ⟨S64, .f32⟩
  | 7 => ⟨S3x67x32, .f32⟩
  | 8 => ⟨S3x32, .f32⟩
  | 9 => ⟨S3x32x64, .f32⟩
  | 10 => ⟨S3x64, .f32⟩
  | 11 => ⟨S3x64, .f32⟩
  | 12 => ⟨S3x64, .f32⟩
  | 13 => ⟨S64x32, .f32⟩
  | 14 => ⟨S32, .f32⟩
  | 15 => ⟨S32x1, .f32⟩
  | 16 => ⟨S1, .f32⟩
  | 17 => ⟨S64x32, .f32⟩
  | 18 => ⟨S32, .f32⟩
  | 19 => ⟨S32x2, .f32⟩
  | 20 => ⟨S2, .f32⟩
  | 21 => ⟨S1x800000, .i32⟩
  | 22 => ⟨S800000, .i32⟩
  | 23 => ⟨S1x800000, .i32⟩
  | 24 => ⟨S800000, .i32⟩
  | 25 => ⟨S50000x64, .f32⟩
  | 26 => ⟨S1x64, .f32⟩
  | 27 => ⟨S50000x64, .f32⟩
  | 28 => ⟨S50000x64, .f32⟩
  | 29 => ⟨S_, .f32⟩
  | 30 => ⟨S50000, .f32⟩
  | 31 => ⟨S50000x1, .f32⟩
  | 32 => ⟨S_, .f32⟩
  | 33 => ⟨S50000x1, .f32⟩
  | 34 => ⟨S50000x1, .f32⟩
  | 35 => ⟨S_, .i32⟩
  | 36 => ⟨S_, .f32⟩
  | 37 => ⟨S50000, .f32⟩
  | 38 => ⟨S50000x1, .f32⟩
  | 39 => ⟨S_, .f32⟩
  | 40 => ⟨S50000x1, .f32⟩
  | 41 => ⟨S50000x1, .f32⟩
  | 42 => ⟨S50000x64, .f32⟩
  | 43 => ⟨S50000x64, .f32⟩
  | 44 => ⟨S50000x64, .f32⟩
  | 45 => ⟨S_, .f32⟩
  | 46 => ⟨S_, .f32⟩
  | 47 => ⟨S_, .f32⟩
  | 48 => ⟨S_, .f32⟩
  | 49 => ⟨S50000, .f32⟩
  | 50 => ⟨S50000x1, .f32⟩
  | 51 => ⟨S50000x1, .f32⟩
  | 52 => ⟨S50000x1, .f32⟩
  | 53 => ⟨S_, .f32⟩
  | 54 => ⟨S_, .i1⟩
  | 55 => ⟨S_, .f32⟩
  | 56 => ⟨S_, .f32⟩
  | 57 => ⟨S50000x1, .f32⟩
  | 58 => ⟨S50000x1, .f32⟩
  | 59 => ⟨S50000x64, .f32⟩
  | 60 => ⟨S50000x64, .f32⟩
  | 61 => ⟨S_, .f32⟩
  | 62 => ⟨S50000x1, .f32⟩
  | 63 => ⟨S50000x1, .f32⟩
  | 64 => ⟨S50000x1, .f32⟩
  | 65 => ⟨S50000x64, .f32⟩
  | 66 => ⟨S50000x64, .f32⟩
  | 67 => ⟨S1x64, .f32⟩
  | 68 => ⟨S50000x64, .f32⟩
  | 69 => ⟨S50000x64, .f32⟩
  | 70 => ⟨S1x64, .f32⟩
  | 71 => ⟨S50000x64, .f32⟩
  | 72 => ⟨S50000x64, .f32⟩
  | 73 => ⟨S_, .f32⟩
  | 74 => ⟨S50000x64, .f32⟩
  | 75 => ⟨S50000x64, .f32⟩
  | 76 => ⟨S_, .f32⟩
  | 77 => ⟨S800000, .f32⟩
  | 78 => ⟨S_, .f32⟩
  | 79 => ⟨S50000, .f32⟩
  | 80 => ⟨S800000x1, .i32⟩
  | 81 => ⟨S50000, .f32⟩
  | 82 => ⟨S_, .f32⟩
  | 83 => ⟨S50000, .f32⟩
  | 84 => ⟨S50000, .i1⟩
  | 85 => ⟨S_, .f32⟩
  | 86 => ⟨S50000, .f32⟩
  | 87 => ⟨S50000, .f32⟩
  | 88 => ⟨S_, .f32⟩
  | 89 => ⟨S50000, .f32⟩
  | 90 => ⟨S50000, .f32⟩
  | 91 => ⟨S_, .f32⟩
  | 92 => ⟨S_, .f32⟩
  | 93 => ⟨S50000, .f32⟩
  | 94 => ⟨S50000, .f32⟩
  | 95 => ⟨S50000x1, .f32⟩
  | 96 => ⟨S_, .i32⟩
  | 97 => ⟨S800000, .i32⟩
  | 98 => ⟨S800000, .i1⟩
  | 99 => ⟨S_, .i32⟩
  | 100 => ⟨S800000, .i32⟩
  | 101 => ⟨S800000, .i32⟩
  | 102 => ⟨S800000, .i32⟩
  | 103 => ⟨S800000x1, .i32⟩
  | 104 => ⟨S800000x64, .f32⟩
  | 105 => ⟨S800000x67, .f32⟩
  | 106 => ⟨S1x67x32, .f32⟩
  | 107 => ⟨S67x32, .f32⟩
  | 108 => ⟨S800000x32, .f32⟩
  | 109 => ⟨S1x32, .f32⟩
  | 110 => ⟨S32, .f32⟩
  | 111 => ⟨S1x32, .f32⟩
  | 112 => ⟨S800000x32, .f32⟩
  | 113 => ⟨S800000x32, .f32⟩
  | 114 => ⟨S_, .f32⟩
  | 115 => ⟨S800000x32, .f32⟩
  | 116 => ⟨S800000x32, .f32⟩
  | 117 => ⟨S1x32x64, .f32⟩
  | 118 => ⟨S32x64, .f32⟩
  | 119 => ⟨S800000x64, .f32⟩
  | 120 => ⟨S1x64, .f32⟩
  | 121 => ⟨S64, .f32⟩
  | 122 => ⟨S1x64, .f32⟩
  | 123 => ⟨S800000x64, .f32⟩
  | 124 => ⟨S800000x64, .f32⟩
  | 125 => ⟨S_, .f32⟩
  | 126 => ⟨S50000x64, .f32⟩
  | 127 => ⟨S800000x1, .i32⟩
  | _ => ⟨S50000x16, .f32⟩

abbrev hbmTy0_1 (i : Nat) : BufTy := match i % 128 with
  | 0 => ⟨S50000x64, .f32⟩
  | 1 => ⟨S50000x64, .f32⟩
  | 2 => ⟨S50000x64, .f32⟩
  | 3 => ⟨S50000x64, .f32⟩
  | 4 => ⟨S1x64, .f32⟩
  | 5 => ⟨S64, .f32⟩
  | 6 => ⟨S1x64, .f32⟩
  | 7 => ⟨S64, .f32⟩
  | 8 => ⟨S_, .f32⟩
  | 9 => ⟨S50000, .f32⟩
  | 10 => ⟨S50000x1, .f32⟩
  | 11 => ⟨S_, .f32⟩
  | 12 => ⟨S50000x1, .f32⟩
  | 13 => ⟨S50000x1, .f32⟩
  | 14 => ⟨S_, .i32⟩
  | 15 => ⟨S_, .f32⟩
  | 16 => ⟨S50000, .f32⟩
  | 17 => ⟨S50000x1, .f32⟩
  | 18 => ⟨S_, .f32⟩
  | 19 => ⟨S50000x1, .f32⟩
  | 20 => ⟨S50000x1, .f32⟩
  | 21 => ⟨S50000x64, .f32⟩
  | 22 => ⟨S50000x64, .f32⟩
  | 23 => ⟨S50000x64, .f32⟩
  | 24 => ⟨S_, .f32⟩
  | 25 => ⟨S_, .f32⟩
  | 26 => ⟨S_, .f32⟩
  | 27 => ⟨S_, .f32⟩
  | 28 => ⟨S50000, .f32⟩
  | 29 => ⟨S50000x1, .f32⟩
  | 30 => ⟨S50000x1, .f32⟩
  | 31 => ⟨S50000x1, .f32⟩
  | 32 => ⟨S_, .f32⟩
  | 33 => ⟨S_, .i1⟩
  | 34 => ⟨S_, .f32⟩
  | 35 => ⟨S_, .f32⟩
  | 36 => ⟨S50000x1, .f32⟩
  | 37 => ⟨S50000x1, .f32⟩
  | 38 => ⟨S50000x64, .f32⟩
  | 39 => ⟨S50000x64, .f32⟩
  | 40 => ⟨S_, .f32⟩
  | 41 => ⟨S50000x1, .f32⟩
  | 42 => ⟨S50000x1, .f32⟩
  | 43 => ⟨S50000x1, .f32⟩
  | 44 => ⟨S50000x64, .f32⟩
  | 45 => ⟨S50000x64, .f32⟩
  | 46 => ⟨S1x64, .f32⟩
  | 47 => ⟨S50000x64, .f32⟩
  | 48 => ⟨S50000x64, .f32⟩
  | 49 => ⟨S1x64, .f32⟩
  | 50 => ⟨S50000x64, .f32⟩
  | 51 => ⟨S50000x64, .f32⟩
  | 52 => ⟨S_, .i32⟩
  | 53 => ⟨S800000, .i32⟩
  | 54 => ⟨S800000, .i1⟩
  | 55 => ⟨S_, .i32⟩
  | 56 => ⟨S800000, .i32⟩
  | 57 => ⟨S800000, .i32⟩
  | 58 => ⟨S800000, .i32⟩
  | 59 => ⟨S800000x1, .i32⟩
  | 60 => ⟨S800000x64, .f32⟩
  | 61 => ⟨S800000x67, .f32⟩
  | 62 => ⟨S1x67x32, .f32⟩
  | 63 => ⟨S67x32, .f32⟩
  | 64 => ⟨S800000x32, .f32⟩
  | 65 => ⟨S1x32, .f32⟩
  | 66 => ⟨S32, .f32⟩
  | 67 => ⟨S1x32, .f32⟩
  | 68 => ⟨S800000x32, .f32⟩
  | 69 => ⟨S800000x32, .f32⟩
  | 70 => ⟨S_, .f32⟩
  | 71 => ⟨S800000x32, .f32⟩
  | 72 => ⟨S800000x32, .f32⟩
  | 73 => ⟨S1x32x64, .f32⟩
  | 74 => ⟨S32x64, .f32⟩
  | 75 => ⟨S800000x64, .f32⟩
  | 76 => ⟨S1x64, .f32⟩
  | 77 => ⟨S64, .f32⟩
  | 78 => ⟨S1x64, .f32⟩
  | 79 => ⟨S800000x64, .f32⟩
  | 80 => ⟨S800000x64, .f32⟩
  | 81 => ⟨S_, .f32⟩
  | 82 => ⟨S50000x64, .f32⟩
  | 83 => ⟨S800000x1, .i32⟩
  | 84 => ⟨S50000x64, .f32⟩
  | 85 => ⟨S50000x64, .f32⟩
  | 86 => ⟨S50000x64, .f32⟩
  | 87 => ⟨S50000x64, .f32⟩
  | 88 => ⟨S1x64, .f32⟩
  | 89 => ⟨S64, .f32⟩
  | 90 => ⟨S1x64, .f32⟩
  | 91 => ⟨S64, .f32⟩
  | 92 => ⟨S_, .f32⟩
  | 93 => ⟨S50000, .f32⟩
  | 94 => ⟨S50000x1, .f32⟩
  | 95 => ⟨S_, .f32⟩
  | 96 => ⟨S50000x1, .f32⟩
  | 97 => ⟨S50000x1, .f32⟩
  | 98 => ⟨S_, .i32⟩
  | 99 => ⟨S_, .f32⟩
  | 100 => ⟨S50000, .f32⟩
  | 101 => ⟨S50000x1, .f32⟩
  | 102 => ⟨S_, .f32⟩
  | 103 => ⟨S50000x1, .f32⟩
  | 104 => ⟨S50000x1, .f32⟩
  | 105 => ⟨S50000x64, .f32⟩
  | 106 => ⟨S50000x64, .f32⟩
  | 107 => ⟨S50000x64, .f32⟩
  | 108 => ⟨S_, .f32⟩
  | 109 => ⟨S_, .f32⟩
  | 110 => ⟨S_, .f32⟩
  | 111 => ⟨S_, .f32⟩
  | 112 => ⟨S50000, .f32⟩
  | 113 => ⟨S50000x1, .f32⟩
  | 114 => ⟨S50000x1, .f32⟩
  | 115 => ⟨S50000x1, .f32⟩
  | 116 => ⟨S_, .f32⟩
  | 117 => ⟨S_, .i1⟩
  | 118 => ⟨S_, .f32⟩
  | 119 => ⟨S_, .f32⟩
  | 120 => ⟨S50000x1, .f32⟩
  | 121 => ⟨S50000x1, .f32⟩
  | 122 => ⟨S50000x64, .f32⟩
  | 123 => ⟨S50000x64, .f32⟩
  | 124 => ⟨S_, .f32⟩
  | 125 => ⟨S50000x1, .f32⟩
  | 126 => ⟨S50000x1, .f32⟩
  | 127 => ⟨S50000x1, .f32⟩
  | _ => ⟨S50000x16, .f32⟩

abbrev hbmTy0_2 (i : Nat) : BufTy := match i % 128 with
  | 0 => ⟨S50000x64, .f32⟩
  | 1 => ⟨S50000x64, .f32⟩
  | 2 => ⟨S1x64, .f32⟩
  | 3 => ⟨S50000x64, .f32⟩
  | 4 => ⟨S50000x64, .f32⟩
  | 5 => ⟨S1x64, .f32⟩
  | 6 => ⟨S50000x64, .f32⟩
  | 7 => ⟨S50000x64, .f32⟩
  | 8 => ⟨S_, .i32⟩
  | 9 => ⟨S800000, .i32⟩
  | 10 => ⟨S800000, .i1⟩
  | 11 => ⟨S_, .i32⟩
  | 12 => ⟨S800000, .i32⟩
  | 13 => ⟨S800000, .i32⟩
  | 14 => ⟨S800000, .i32⟩
  | 15 => ⟨S800000x1, .i32⟩
  | 16 => ⟨S800000x64, .f32⟩
  | 17 => ⟨S800000x67, .f32⟩
  | 18 => ⟨S1x67x32, .f32⟩
  | 19 => ⟨S67x32, .f32⟩
  | 20 => ⟨S800000x32, .f32⟩
  | 21 => ⟨S1x32, .f32⟩
  | 22 => ⟨S32, .f32⟩
  | 23 => ⟨S1x32, .f32⟩
  | 24 => ⟨S800000x32, .f32⟩
  | 25 => ⟨S800000x32, .f32⟩
  | 26 => ⟨S_, .f32⟩
  | 27 => ⟨S800000x32, .f32⟩
  | 28 => ⟨S800000x32, .f32⟩
  | 29 => ⟨S1x32x64, .f32⟩
  | 30 => ⟨S32x64, .f32⟩
  | 31 => ⟨S800000x64, .f32⟩
  | 32 => ⟨S1x64, .f32⟩
  | 33 => ⟨S64, .f32⟩
  | 34 => ⟨S1x64, .f32⟩
  | 35 => ⟨S800000x64, .f32⟩
  | 36 => ⟨S800000x64, .f32⟩
  | 37 => ⟨S_, .f32⟩
  | 38 => ⟨S50000x64, .f32⟩
  | 39 => ⟨S800000x1, .i32⟩
  | 40 => ⟨S50000x64, .f32⟩
  | 41 => ⟨S50000x64, .f32⟩
  | 42 => ⟨S50000x64, .f32⟩
  | 43 => ⟨S50000x64, .f32⟩
  | 44 => ⟨S1x64, .f32⟩
  | 45 => ⟨S64, .f32⟩
  | 46 => ⟨S1x64, .f32⟩
  | 47 => ⟨S64, .f32⟩
  | 48 => ⟨S_, .f32⟩
  | 49 => ⟨S50000, .f32⟩
  | 50 => ⟨S50000x1, .f32⟩
  | 51 => ⟨S_, .f32⟩
  | 52 => ⟨S50000x1, .f32⟩
  | 53 => ⟨S50000x1, .f32⟩
  | 54 => ⟨S_, .i32⟩
  | 55 => ⟨S_, .f32⟩
  | 56 => ⟨S50000, .f32⟩
  | 57 => ⟨S50000x1, .f32⟩
  | 58 => ⟨S_, .f32⟩
  | 59 => ⟨S50000x1, .f32⟩
  | 60 => ⟨S50000x1, .f32⟩
  | 61 => ⟨S50000x64, .f32⟩
  | 62 => ⟨S50000x64, .f32⟩
  | 63 => ⟨S50000x64, .f32⟩
  | 64 => ⟨S_, .f32⟩
  | 65 => ⟨S_, .f32⟩
  | 66 => ⟨S_, .f32⟩
  | 67 => ⟨S_, .f32⟩
  | 68 => ⟨S50000, .f32⟩
  | 69 => ⟨S50000x1, .f32⟩
  | 70 => ⟨S50000x1, .f32⟩
  | 71 => ⟨S50000x1, .f32⟩
  | 72 => ⟨S_, .f32⟩
  | 73 => ⟨S_, .i1⟩
  | 74 => ⟨S_, .f32⟩
  | 75 => ⟨S_, .f32⟩
  | 76 => ⟨S50000x1, .f32⟩
  | 77 => ⟨S50000x1, .f32⟩
  | 78 => ⟨S50000x64, .f32⟩
  | 79 => ⟨S50000x64, .f32⟩
  | 80 => ⟨S_, .f32⟩
  | 81 => ⟨S50000x1, .f32⟩
  | 82 => ⟨S50000x1, .f32⟩
  | 83 => ⟨S50000x1, .f32⟩
  | 84 => ⟨S50000x64, .f32⟩
  | 85 => ⟨S50000x64, .f32⟩
  | 86 => ⟨S1x64, .f32⟩
  | 87 => ⟨S50000x64, .f32⟩
  | 88 => ⟨S50000x64, .f32⟩
  | 89 => ⟨S1x64, .f32⟩
  | 90 => ⟨S50000x64, .f32⟩
  | 91 => ⟨S50000x64, .f32⟩
  | 92 => ⟨S50000x32, .f32⟩
  | 93 => ⟨S1x32, .f32⟩
  | 94 => ⟨S50000x32, .f32⟩
  | 95 => ⟨S50000x32, .f32⟩
  | 96 => ⟨S_, .f32⟩
  | 97 => ⟨S50000x32, .f32⟩
  | 98 => ⟨S50000x32, .f32⟩
  | 99 => ⟨S50000x1, .f32⟩
  | 100 => ⟨S1x1, .f32⟩
  | 101 => ⟨S50000x1, .f32⟩
  | 102 => ⟨S50000x1, .f32⟩
  | 103 => ⟨S50000x32, .f32⟩
  | 104 => ⟨S1x32, .f32⟩
  | 105 => ⟨S50000x32, .f32⟩
  | 106 => ⟨S50000x32, .f32⟩
  | 107 => ⟨S_, .f32⟩
  | 108 => ⟨S50000x32, .f32⟩
  | 109 => ⟨S50000x32, .f32⟩
  | 110 => ⟨S50000x2, .f32⟩
  | 111 => ⟨S1x2, .f32⟩
  | 112 => ⟨S50000x2, .f32⟩
  | 113 => ⟨S50000x2, .f32⟩
  | _ => ⟨S50000x16, .f32⟩

abbrev hbmTy (i : Nat) : BufTy := match i / 128 with
  | 0 => hbmTy0_0 i
  | 1 => hbmTy0_1 i
  | 2 => hbmTy0_2 i
  | _ => ⟨S50000x16, .f32⟩

abbrev bufTy : (tb : Table) → Fin (tcTables nBuf tb) → BufTy
  | .hbm, ⟨i, _⟩ => hbmTy i
  | _, _ => ⟨S50000x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_cst : Ref sig .tc := ⟨.hbm, 29, rfl⟩
abbrev main_v8 : Ref sig .tc := ⟨.hbm, 30, rfl⟩
abbrev main_v9 : Ref sig .tc := ⟨.hbm, 31, rfl⟩
abbrev main_cst_0 : Ref sig .tc := ⟨.hbm, 32, rfl⟩
abbrev main_v10 : Ref sig .tc := ⟨.hbm, 33, rfl⟩
abbrev main_v11 : Ref sig .tc := ⟨.hbm, 34, rfl⟩
abbrev main_c : Ref sig .tc := ⟨.hbm, 35, rfl⟩
abbrev main_call0_cst : Ref sig .tc := ⟨.hbm, 36, rfl⟩
abbrev main_call0_v0 : Ref sig .tc := ⟨.hbm, 37, rfl⟩
abbrev main_call0_v1 : Ref sig .tc := ⟨.hbm, 38, rfl⟩
abbrev main_call0_cst_0 : Ref sig .tc := ⟨.hbm, 39, rfl⟩
abbrev main_call0_v2 : Ref sig .tc := ⟨.hbm, 40, rfl⟩
abbrev main_call0_v3 : Ref sig .tc := ⟨.hbm, 41, rfl⟩
abbrev main_call0_v4 : Ref sig .tc := ⟨.hbm, 42, rfl⟩
abbrev main_call0_v5 : Ref sig .tc := ⟨.hbm, 43, rfl⟩
abbrev main_call0_v6 : Ref sig .tc := ⟨.hbm, 44, rfl⟩
abbrev main_call0_v7 : Ref sig .tc := ⟨.hbm, 45, rfl⟩
abbrev main_call0_cst_1 : Ref sig .tc := ⟨.hbm, 46, rfl⟩
abbrev main_call0_v8 : Ref sig .tc := ⟨.hbm, 47, rfl⟩
abbrev main_call0_cst_2 : Ref sig .tc := ⟨.hbm, 48, rfl⟩
abbrev main_call0_v9 : Ref sig .tc := ⟨.hbm, 49, rfl⟩
abbrev main_call0_v10 : Ref sig .tc := ⟨.hbm, 50, rfl⟩
abbrev main_call0_v11 : Ref sig .tc := ⟨.hbm, 51, rfl⟩
abbrev main_call0_v12 : Ref sig .tc := ⟨.hbm, 52, rfl⟩
abbrev main_call0_cst_3 : Ref sig .tc := ⟨.hbm, 53, rfl⟩
abbrev main_call0_v13 : Ref sig .tc := ⟨.hbm, 54, rfl⟩
abbrev main_call0_cst_4 : Ref sig .tc := ⟨.hbm, 55, rfl⟩
abbrev main_call0_call0_v0 : Ref sig .tc := ⟨.hbm, 56, rfl⟩
abbrev main_call0_call0_v1 : Ref sig .tc := ⟨.hbm, 57, rfl⟩
abbrev main_v12 : Ref sig .tc := ⟨.hbm, 58, rfl⟩
abbrev main_v13 : Ref sig .tc := ⟨.hbm, 59, rfl⟩
abbrev main_v14 : Ref sig .tc := ⟨.hbm, 60, rfl⟩
abbrev main_cst_1 : Ref sig .tc := ⟨.hbm, 61, rfl⟩
abbrev main_v15 : Ref sig .tc := ⟨.hbm, 62, rfl⟩
abbrev main_v16 : Ref sig .tc := ⟨.hbm, 63, rfl⟩
abbrev main_v17 : Ref sig .tc := ⟨.hbm, 64, rfl⟩
abbrev main_v18 : Ref sig .tc := ⟨.hbm, 65, rfl⟩
abbrev main_v19 : Ref sig .tc := ⟨.hbm, 66, rfl⟩
abbrev main_v20 : Ref sig .tc := ⟨.hbm, 67, rfl⟩
abbrev main_v21 : Ref sig .tc := ⟨.hbm, 68, rfl⟩
abbrev main_v22 : Ref sig .tc := ⟨.hbm, 69, rfl⟩
abbrev main_v23 : Ref sig .tc := ⟨.hbm, 70, rfl⟩
abbrev main_v24 : Ref sig .tc := ⟨.hbm, 71, rfl⟩
abbrev main_v25 : Ref sig .tc := ⟨.hbm, 72, rfl⟩
abbrev main_call1_cst : Ref sig .tc := ⟨.hbm, 73, rfl⟩
abbrev main_call1_v0 : Ref sig .tc := ⟨.hbm, 74, rfl⟩
abbrev main_v26 : Ref sig .tc := ⟨.hbm, 75, rfl⟩
abbrev main_cst_2 : Ref sig .tc := ⟨.hbm, 76, rfl⟩
abbrev main_v27 : Ref sig .tc := ⟨.hbm, 77, rfl⟩
abbrev main_cst_3 : Ref sig .tc := ⟨.hbm, 78, rfl⟩
abbrev main_v28 : Ref sig .tc := ⟨.hbm, 79, rfl⟩
abbrev main_v29 : Ref sig .tc := ⟨.hbm, 80, rfl⟩
abbrev main_v30 : Ref sig .tc := ⟨.hbm, 81, rfl⟩
abbrev main_cst_4 : Ref sig .tc := ⟨.hbm, 82, rfl⟩
abbrev main_v31 : Ref sig .tc := ⟨.hbm, 83, rfl⟩
abbrev main_v32 : Ref sig .tc := ⟨.hbm, 84, rfl⟩
abbrev main_cst_5 : Ref sig .tc := ⟨.hbm, 85, rfl⟩
abbrev main_v33 : Ref sig .tc := ⟨.hbm, 86, rfl⟩
abbrev main_v34 : Ref sig .tc := ⟨.hbm, 87, rfl⟩
abbrev main_cst_6 : Ref sig .tc := ⟨.hbm, 88, rfl⟩
abbrev main_v35 : Ref sig .tc := ⟨.hbm, 89, rfl⟩
abbrev main_v36 : Ref sig .tc := ⟨.hbm, 90, rfl⟩
abbrev main_cst_7 : Ref sig .tc := ⟨.hbm, 91, rfl⟩
abbrev main_call2_v0 : Ref sig .tc := ⟨.hbm, 92, rfl⟩
abbrev main_call2_v1 : Ref sig .tc := ⟨.hbm, 93, rfl⟩
abbrev main_v37 : Ref sig .tc := ⟨.hbm, 94, rfl⟩
abbrev main_v38 : Ref sig .tc := ⟨.hbm, 95, rfl⟩
abbrev main_c_8 : Ref sig .tc := ⟨.hbm, 96, rfl⟩
abbrev main_v39 : Ref sig .tc := ⟨.hbm, 97, rfl⟩
abbrev main_v40 : Ref sig .tc := ⟨.hbm, 98, rfl⟩
abbrev main_c_9 : Ref sig .tc := ⟨.hbm, 99, rfl⟩
abbrev main_v41 : Ref sig .tc := ⟨.hbm, 100, rfl⟩
abbrev main_v42 : Ref sig .tc := ⟨.hbm, 101, rfl⟩
abbrev main_v43 : Ref sig .tc := ⟨.hbm, 102, rfl⟩
abbrev main_v44 : Ref sig .tc := ⟨.hbm, 103, rfl⟩
abbrev main_v45 : Ref sig .tc := ⟨.hbm, 104, rfl⟩
abbrev main_v46 : Ref sig .tc := ⟨.hbm, 105, rfl⟩
abbrev main_v47 : Ref sig .tc := ⟨.hbm, 106, rfl⟩
abbrev main_v48 : Ref sig .tc := ⟨.hbm, 107, rfl⟩
abbrev main_v49 : Ref sig .tc := ⟨.hbm, 108, rfl⟩
abbrev main_v50 : Ref sig .tc := ⟨.hbm, 109, rfl⟩
abbrev main_v51 : Ref sig .tc := ⟨.hbm, 110, rfl⟩
abbrev main_v52 : Ref sig .tc := ⟨.hbm, 111, rfl⟩
abbrev main_v53 : Ref sig .tc := ⟨.hbm, 112, rfl⟩
abbrev main_v54 : Ref sig .tc := ⟨.hbm, 113, rfl⟩
abbrev main_call3_cst : Ref sig .tc := ⟨.hbm, 114, rfl⟩
abbrev main_call3_v0 : Ref sig .tc := ⟨.hbm, 115, rfl⟩
abbrev main_v55 : Ref sig .tc := ⟨.hbm, 116, rfl⟩
abbrev main_v56 : Ref sig .tc := ⟨.hbm, 117, rfl⟩
abbrev main_v57 : Ref sig .tc := ⟨.hbm, 118, rfl⟩
abbrev main_v58 : Ref sig .tc := ⟨.hbm, 119, rfl⟩
abbrev main_v59 : Ref sig .tc := ⟨.hbm, 120, rfl⟩
abbrev main_v60 : Ref sig .tc := ⟨.hbm, 121, rfl⟩
abbrev main_v61 : Ref sig .tc := ⟨.hbm, 122, rfl⟩
abbrev main_v62 : Ref sig .tc := ⟨.hbm, 123, rfl⟩
abbrev main_v63 : Ref sig .tc := ⟨.hbm, 124, rfl⟩
abbrev main_cst_10 : Ref sig .tc := ⟨.hbm, 125, rfl⟩
abbrev main_v64 : Ref sig .tc := ⟨.hbm, 126, rfl⟩
abbrev main_v65 : Ref sig .tc := ⟨.hbm, 127, rfl⟩
abbrev main_v66 : Ref sig .tc := ⟨.hbm, 128, rfl⟩
abbrev main_v67 : Ref sig .tc := ⟨.hbm, 129, rfl⟩
abbrev main_v68 : Ref sig .tc := ⟨.hbm, 130, rfl⟩
abbrev main_v69 : Ref sig .tc := ⟨.hbm, 131, rfl⟩
abbrev main_v70 : Ref sig .tc := ⟨.hbm, 132, rfl⟩
abbrev main_v71 : Ref sig .tc := ⟨.hbm, 133, rfl⟩
abbrev main_v72 : Ref sig .tc := ⟨.hbm, 134, rfl⟩
abbrev main_v73 : Ref sig .tc := ⟨.hbm, 135, rfl⟩
abbrev main_cst_11 : Ref sig .tc := ⟨.hbm, 136, rfl⟩
abbrev main_v74 : Ref sig .tc := ⟨.hbm, 137, rfl⟩
abbrev main_v75 : Ref sig .tc := ⟨.hbm, 138, rfl⟩
abbrev main_cst_12 : Ref sig .tc := ⟨.hbm, 139, rfl⟩
abbrev main_v76 : Ref sig .tc := ⟨.hbm, 140, rfl⟩
abbrev main_v77 : Ref sig .tc := ⟨.hbm, 141, rfl⟩
abbrev main_c_13 : Ref sig .tc := ⟨.hbm, 142, rfl⟩
abbrev main_call4_cst : Ref sig .tc := ⟨.hbm, 143, rfl⟩
abbrev main_call4_v0 : Ref sig .tc := ⟨.hbm, 144, rfl⟩
abbrev main_call4_v1 : Ref sig .tc := ⟨.hbm, 145, rfl⟩
abbrev main_call4_cst_0 : Ref sig .tc := ⟨.hbm, 146, rfl⟩
abbrev main_call4_v2 : Ref sig .tc := ⟨.hbm, 147, rfl⟩
abbrev main_call4_v3 : Ref sig .tc := ⟨.hbm, 148, rfl⟩
abbrev main_call4_v4 : Ref sig .tc := ⟨.hbm, 149, rfl⟩
abbrev main_call4_v5 : Ref sig .tc := ⟨.hbm, 150, rfl⟩
abbrev main_call4_v6 : Ref sig .tc := ⟨.hbm, 151, rfl⟩
abbrev main_call4_v7 : Ref sig .tc := ⟨.hbm, 152, rfl⟩
abbrev main_call4_cst_1 : Ref sig .tc := ⟨.hbm, 153, rfl⟩
abbrev main_call4_v8 : Ref sig .tc := ⟨.hbm, 154, rfl⟩
abbrev main_call4_cst_2 : Ref sig .tc := ⟨.hbm, 155, rfl⟩
abbrev main_call4_v9 : Ref sig .tc := ⟨.hbm, 156, rfl⟩
abbrev main_call4_v10 : Ref sig .tc := ⟨.hbm, 157, rfl⟩
abbrev main_call4_v11 : Ref sig .tc := ⟨.hbm, 158, rfl⟩
abbrev main_call4_v12 : Ref sig .tc := ⟨.hbm, 159, rfl⟩
abbrev main_call4_cst_3 : Ref sig .tc := ⟨.hbm, 160, rfl⟩
abbrev main_call4_v13 : Ref sig .tc := ⟨.hbm, 161, rfl⟩
abbrev main_call4_cst_4 : Ref sig .tc := ⟨.hbm, 162, rfl⟩
abbrev main_call4_call0_v0 : Ref sig .tc := ⟨.hbm, 163, rfl⟩
abbrev main_call4_call0_v1 : Ref sig .tc := ⟨.hbm, 164, rfl⟩
abbrev main_v78 : Ref sig .tc := ⟨.hbm, 165, rfl⟩
abbrev main_v79 : Ref sig .tc := ⟨.hbm, 166, rfl⟩
abbrev main_v80 : Ref sig .tc := ⟨.hbm, 167, rfl⟩
abbrev main_cst_14 : Ref sig .tc := ⟨.hbm, 168, rfl⟩
abbrev main_v81 : Ref sig .tc := ⟨.hbm, 169, rfl⟩
abbrev main_v82 : Ref sig .tc := ⟨.hbm, 170, rfl⟩
abbrev main_v83 : Ref sig .tc := ⟨.hbm, 171, rfl⟩
abbrev main_v84 : Ref sig .tc := ⟨.hbm, 172, rfl⟩
abbrev main_v85 : Ref sig .tc := ⟨.hbm, 173, rfl⟩
abbrev main_v86 : Ref sig .tc := ⟨.hbm, 174, rfl⟩
abbrev main_v87 : Ref sig .tc := ⟨.hbm, 175, rfl⟩
abbrev main_v88 : Ref sig .tc := ⟨.hbm, 176, rfl⟩
abbrev main_v89 : Ref sig .tc := ⟨.hbm, 177, rfl⟩
abbrev main_v90 : Ref sig .tc := ⟨.hbm, 178, rfl⟩
abbrev main_v91 : Ref sig .tc := ⟨.hbm, 179, rfl⟩
abbrev main_c_15 : Ref sig .tc := ⟨.hbm, 180, rfl⟩
abbrev main_v92 : Ref sig .tc := ⟨.hbm, 181, rfl⟩
abbrev main_v93 : Ref sig .tc := ⟨.hbm, 182, rfl⟩
abbrev main_c_16 : Ref sig .tc := ⟨.hbm, 183, rfl⟩
abbrev main_v94 : Ref sig .tc := ⟨.hbm, 184, rfl⟩
abbrev main_v95 : Ref sig .tc := ⟨.hbm, 185, rfl⟩
abbrev main_v96 : Ref sig .tc := ⟨.hbm, 186, rfl⟩
abbrev main_v97 : Ref sig .tc := ⟨.hbm, 187, rfl⟩
abbrev main_v98 : Ref sig .tc := ⟨.hbm, 188, rfl⟩
abbrev main_v99 : Ref sig .tc := ⟨.hbm, 189, rfl⟩
abbrev main_v100 : Ref sig .tc := ⟨.hbm, 190, rfl⟩
abbrev main_v101 : Ref sig .tc := ⟨.hbm, 191, rfl⟩
abbrev main_v102 : Ref sig .tc := ⟨.hbm, 192, rfl⟩
abbrev main_v103 : Ref sig .tc := ⟨.hbm, 193, rfl⟩
abbrev main_v104 : Ref sig .tc := ⟨.hbm, 194, rfl⟩
abbrev main_v105 : Ref sig .tc := ⟨.hbm, 195, rfl⟩
abbrev main_v106 : Ref sig .tc := ⟨.hbm, 196, rfl⟩
abbrev main_v107 : Ref sig .tc := ⟨.hbm, 197, rfl⟩
abbrev main_call5_cst : Ref sig .tc := ⟨.hbm, 198, rfl⟩
abbrev main_call5_v0 : Ref sig .tc := ⟨.hbm, 199, rfl⟩
abbrev main_v108 : Ref sig .tc := ⟨.hbm, 200, rfl⟩
abbrev main_v109 : Ref sig .tc := ⟨.hbm, 201, rfl⟩
abbrev main_v110 : Ref sig .tc := ⟨.hbm, 202, rfl⟩
abbrev main_v111 : Ref sig .tc := ⟨.hbm, 203, rfl⟩
abbrev main_v112 : Ref sig .tc := ⟨.hbm, 204, rfl⟩
abbrev main_v113 : Ref sig .tc := ⟨.hbm, 205, rfl⟩
abbrev main_v114 : Ref sig .tc := ⟨.hbm, 206, rfl⟩
abbrev main_v115 : Ref sig .tc := ⟨.hbm, 207, rfl⟩
abbrev main_v116 : Ref sig .tc := ⟨.hbm, 208, rfl⟩
abbrev main_cst_17 : Ref sig .tc := ⟨.hbm, 209, rfl⟩
abbrev main_v117 : Ref sig .tc := ⟨.hbm, 210, rfl⟩
abbrev main_v118 : Ref sig .tc := ⟨.hbm, 211, rfl⟩
abbrev main_v119 : Ref sig .tc := ⟨.hbm, 212, rfl⟩
abbrev main_v120 : Ref sig .tc := ⟨.hbm, 213, rfl⟩
abbrev main_v121 : Ref sig .tc := ⟨.hbm, 214, rfl⟩
abbrev main_v122 : Ref sig .tc := ⟨.hbm, 215, rfl⟩
abbrev main_v123 : Ref sig .tc := ⟨.hbm, 216, rfl⟩
abbrev main_v124 : Ref sig .tc := ⟨.hbm, 217, rfl⟩
abbrev main_v125 : Ref sig .tc := ⟨.hbm, 218, rfl⟩
abbrev main_v126 : Ref sig .tc := ⟨.hbm, 219, rfl⟩
abbrev main_cst_18 : Ref sig .tc := ⟨.hbm, 220, rfl⟩
abbrev main_v127 : Ref sig .tc := ⟨.hbm, 221, rfl⟩
abbrev main_v128 : Ref sig .tc := ⟨.hbm, 222, rfl⟩
abbrev main_cst_19 : Ref sig .tc := ⟨.hbm, 223, rfl⟩
abbrev main_v129 : Ref sig .tc := ⟨.hbm, 224, rfl⟩
abbrev main_v130 : Ref sig .tc := ⟨.hbm, 225, rfl⟩
abbrev main_c_20 : Ref sig .tc := ⟨.hbm, 226, rfl⟩
abbrev main_call6_cst : Ref sig .tc := ⟨.hbm, 227, rfl⟩
abbrev main_call6_v0 : Ref sig .tc := ⟨.hbm, 228, rfl⟩
abbrev main_call6_v1 : Ref sig .tc := ⟨.hbm, 229, rfl⟩
abbrev main_call6_cst_0 : Ref sig .tc := ⟨.hbm, 230, rfl⟩
abbrev main_call6_v2 : Ref sig .tc := ⟨.hbm, 231, rfl⟩
abbrev main_call6_v3 : Ref sig .tc := ⟨.hbm, 232, rfl⟩
abbrev main_call6_v4 : Ref sig .tc := ⟨.hbm, 233, rfl⟩
abbrev main_call6_v5 : Ref sig .tc := ⟨.hbm, 234, rfl⟩
abbrev main_call6_v6 : Ref sig .tc := ⟨.hbm, 235, rfl⟩
abbrev main_call6_v7 : Ref sig .tc := ⟨.hbm, 236, rfl⟩
abbrev main_call6_cst_1 : Ref sig .tc := ⟨.hbm, 237, rfl⟩
abbrev main_call6_v8 : Ref sig .tc := ⟨.hbm, 238, rfl⟩
abbrev main_call6_cst_2 : Ref sig .tc := ⟨.hbm, 239, rfl⟩
abbrev main_call6_v9 : Ref sig .tc := ⟨.hbm, 240, rfl⟩
abbrev main_call6_v10 : Ref sig .tc := ⟨.hbm, 241, rfl⟩
abbrev main_call6_v11 : Ref sig .tc := ⟨.hbm, 242, rfl⟩
abbrev main_call6_v12 : Ref sig .tc := ⟨.hbm, 243, rfl⟩
abbrev main_call6_cst_3 : Ref sig .tc := ⟨.hbm, 244, rfl⟩
abbrev main_call6_v13 : Ref sig .tc := ⟨.hbm, 245, rfl⟩
abbrev main_call6_cst_4 : Ref sig .tc := ⟨.hbm, 246, rfl⟩
abbrev main_call6_call0_v0 : Ref sig .tc := ⟨.hbm, 247, rfl⟩
abbrev main_call6_call0_v1 : Ref sig .tc := ⟨.hbm, 248, rfl⟩
abbrev main_v131 : Ref sig .tc := ⟨.hbm, 249, rfl⟩
abbrev main_v132 : Ref sig .tc := ⟨.hbm, 250, rfl⟩
abbrev main_v133 : Ref sig .tc := ⟨.hbm, 251, rfl⟩
abbrev main_cst_21 : Ref sig .tc := ⟨.hbm, 252, rfl⟩
abbrev main_v134 : Ref sig .tc := ⟨.hbm, 253, rfl⟩
abbrev main_v135 : Ref sig .tc := ⟨.hbm, 254, rfl⟩
abbrev main_v136 : Ref sig .tc := ⟨.hbm, 255, rfl⟩
abbrev main_v137 : Ref sig .tc := ⟨.hbm, 256, rfl⟩
abbrev main_v138 : Ref sig .tc := ⟨.hbm, 257, rfl⟩
abbrev main_v139 : Ref sig .tc := ⟨.hbm, 258, rfl⟩
abbrev main_v140 : Ref sig .tc := ⟨.hbm, 259, rfl⟩
abbrev main_v141 : Ref sig .tc := ⟨.hbm, 260, rfl⟩
abbrev main_v142 : Ref sig .tc := ⟨.hbm, 261, rfl⟩
abbrev main_v143 : Ref sig .tc := ⟨.hbm, 262, rfl⟩
abbrev main_v144 : Ref sig .tc := ⟨.hbm, 263, rfl⟩
abbrev main_c_22 : Ref sig .tc := ⟨.hbm, 264, rfl⟩
abbrev main_v145 : Ref sig .tc := ⟨.hbm, 265, rfl⟩
abbrev main_v146 : Ref sig .tc := ⟨.hbm, 266, rfl⟩
abbrev main_c_23 : Ref sig .tc := ⟨.hbm, 267, rfl⟩
abbrev main_v147 : Ref sig .tc := ⟨.hbm, 268, rfl⟩
abbrev main_v148 : Ref sig .tc := ⟨.hbm, 269, rfl⟩
abbrev main_v149 : Ref sig .tc := ⟨.hbm, 270, rfl⟩
abbrev main_v150 : Ref sig .tc := ⟨.hbm, 271, rfl⟩
abbrev main_v151 : Ref sig .tc := ⟨.hbm, 272, rfl⟩
abbrev main_v152 : Ref sig .tc := ⟨.hbm, 273, rfl⟩
abbrev main_v153 : Ref sig .tc := ⟨.hbm, 274, rfl⟩
abbrev main_v154 : Ref sig .tc := ⟨.hbm, 275, rfl⟩
abbrev main_v155 : Ref sig .tc := ⟨.hbm, 276, rfl⟩
abbrev main_v156 : Ref sig .tc := ⟨.hbm, 277, rfl⟩
abbrev main_v157 : Ref sig .tc := ⟨.hbm, 278, rfl⟩
abbrev main_v158 : Ref sig .tc := ⟨.hbm, 279, rfl⟩
abbrev main_v159 : Ref sig .tc := ⟨.hbm, 280, rfl⟩
abbrev main_v160 : Ref sig .tc := ⟨.hbm, 281, rfl⟩
abbrev main_call7_cst : Ref sig .tc := ⟨.hbm, 282, rfl⟩
abbrev main_call7_v0 : Ref sig .tc := ⟨.hbm, 283, rfl⟩
abbrev main_v161 : Ref sig .tc := ⟨.hbm, 284, rfl⟩
abbrev main_v162 : Ref sig .tc := ⟨.hbm, 285, rfl⟩
abbrev main_v163 : Ref sig .tc := ⟨.hbm, 286, rfl⟩
abbrev main_v164 : Ref sig .tc := ⟨.hbm, 287, rfl⟩
abbrev main_v165 : Ref sig .tc := ⟨.hbm, 288, rfl⟩
abbrev main_v166 : Ref sig .tc := ⟨.hbm, 289, rfl⟩
abbrev main_v167 : Ref sig .tc := ⟨.hbm, 290, rfl⟩
abbrev main_v168 : Ref sig .tc := ⟨.hbm, 291, rfl⟩
abbrev main_v169 : Ref sig .tc := ⟨.hbm, 292, rfl⟩
abbrev main_cst_24 : Ref sig .tc := ⟨.hbm, 293, rfl⟩
abbrev main_v170 : Ref sig .tc := ⟨.hbm, 294, rfl⟩
abbrev main_v171 : Ref sig .tc := ⟨.hbm, 295, rfl⟩
abbrev main_v172 : Ref sig .tc := ⟨.hbm, 296, rfl⟩
abbrev main_v173 : Ref sig .tc := ⟨.hbm, 297, rfl⟩
abbrev main_v174 : Ref sig .tc := ⟨.hbm, 298, rfl⟩
abbrev main_v175 : Ref sig .tc := ⟨.hbm, 299, rfl⟩
abbrev main_v176 : Ref sig .tc := ⟨.hbm, 300, rfl⟩
abbrev main_v177 : Ref sig .tc := ⟨.hbm, 301, rfl⟩
abbrev main_v178 : Ref sig .tc := ⟨.hbm, 302, rfl⟩
abbrev main_v179 : Ref sig .tc := ⟨.hbm, 303, rfl⟩
abbrev main_cst_25 : Ref sig .tc := ⟨.hbm, 304, rfl⟩
abbrev main_v180 : Ref sig .tc := ⟨.hbm, 305, rfl⟩
abbrev main_v181 : Ref sig .tc := ⟨.hbm, 306, rfl⟩
abbrev main_cst_26 : Ref sig .tc := ⟨.hbm, 307, rfl⟩
abbrev main_v182 : Ref sig .tc := ⟨.hbm, 308, rfl⟩
abbrev main_v183 : Ref sig .tc := ⟨.hbm, 309, rfl⟩
abbrev main_c_27 : Ref sig .tc := ⟨.hbm, 310, rfl⟩
abbrev main_call8_cst : Ref sig .tc := ⟨.hbm, 311, rfl⟩
abbrev main_call8_v0 : Ref sig .tc := ⟨.hbm, 312, rfl⟩
abbrev main_call8_v1 : Ref sig .tc := ⟨.hbm, 313, rfl⟩
abbrev main_call8_cst_0 : Ref sig .tc := ⟨.hbm, 314, rfl⟩
abbrev main_call8_v2 : Ref sig .tc := ⟨.hbm, 315, rfl⟩
abbrev main_call8_v3 : Ref sig .tc := ⟨.hbm, 316, rfl⟩
abbrev main_call8_v4 : Ref sig .tc := ⟨.hbm, 317, rfl⟩
abbrev main_call8_v5 : Ref sig .tc := ⟨.hbm, 318, rfl⟩
abbrev main_call8_v6 : Ref sig .tc := ⟨.hbm, 319, rfl⟩
abbrev main_call8_v7 : Ref sig .tc := ⟨.hbm, 320, rfl⟩
abbrev main_call8_cst_1 : Ref sig .tc := ⟨.hbm, 321, rfl⟩
abbrev main_call8_v8 : Ref sig .tc := ⟨.hbm, 322, rfl⟩
abbrev main_call8_cst_2 : Ref sig .tc := ⟨.hbm, 323, rfl⟩
abbrev main_call8_v9 : Ref sig .tc := ⟨.hbm, 324, rfl⟩
abbrev main_call8_v10 : Ref sig .tc := ⟨.hbm, 325, rfl⟩
abbrev main_call8_v11 : Ref sig .tc := ⟨.hbm, 326, rfl⟩
abbrev main_call8_v12 : Ref sig .tc := ⟨.hbm, 327, rfl⟩
abbrev main_call8_cst_3 : Ref sig .tc := ⟨.hbm, 328, rfl⟩
abbrev main_call8_v13 : Ref sig .tc := ⟨.hbm, 329, rfl⟩
abbrev main_call8_cst_4 : Ref sig .tc := ⟨.hbm, 330, rfl⟩
abbrev main_call8_call0_v0 : Ref sig .tc := ⟨.hbm, 331, rfl⟩
abbrev main_call8_call0_v1 : Ref sig .tc := ⟨.hbm, 332, rfl⟩
abbrev main_v184 : Ref sig .tc := ⟨.hbm, 333, rfl⟩
abbrev main_v185 : Ref sig .tc := ⟨.hbm, 334, rfl⟩
abbrev main_v186 : Ref sig .tc := ⟨.hbm, 335, rfl⟩
abbrev main_cst_28 : Ref sig .tc := ⟨.hbm, 336, rfl⟩
abbrev main_v187 : Ref sig .tc := ⟨.hbm, 337, rfl⟩
abbrev main_v188 : Ref sig .tc := ⟨.hbm, 338, rfl⟩
abbrev main_v189 : Ref sig .tc := ⟨.hbm, 339, rfl⟩
abbrev main_v190 : Ref sig .tc := ⟨.hbm, 340, rfl⟩
abbrev main_v191 : Ref sig .tc := ⟨.hbm, 341, rfl⟩
abbrev main_v192 : Ref sig .tc := ⟨.hbm, 342, rfl⟩
abbrev main_v193 : Ref sig .tc := ⟨.hbm, 343, rfl⟩
abbrev main_v194 : Ref sig .tc := ⟨.hbm, 344, rfl⟩
abbrev main_v195 : Ref sig .tc := ⟨.hbm, 345, rfl⟩
abbrev main_v196 : Ref sig .tc := ⟨.hbm, 346, rfl⟩
abbrev main_v197 : Ref sig .tc := ⟨.hbm, 347, rfl⟩
abbrev main_v198 : Ref sig .tc := ⟨.hbm, 348, rfl⟩
abbrev main_v199 : Ref sig .tc := ⟨.hbm, 349, rfl⟩
abbrev main_v200 : Ref sig .tc := ⟨.hbm, 350, rfl⟩
abbrev main_v201 : Ref sig .tc := ⟨.hbm, 351, rfl⟩
abbrev main_call9_cst : Ref sig .tc := ⟨.hbm, 352, rfl⟩
abbrev main_call9_v0 : Ref sig .tc := ⟨.hbm, 353, rfl⟩
abbrev main_v202 : Ref sig .tc := ⟨.hbm, 354, rfl⟩
abbrev main_v203 : Ref sig .tc := ⟨.hbm, 355, rfl⟩
abbrev main_v204 : Ref sig .tc := ⟨.hbm, 356, rfl⟩
abbrev main_v205 : Ref sig .tc := ⟨.hbm, 357, rfl⟩
abbrev main_v206 : Ref sig .tc := ⟨.hbm, 358, rfl⟩
abbrev main_v207 : Ref sig .tc := ⟨.hbm, 359, rfl⟩
abbrev main_v208 : Ref sig .tc := ⟨.hbm, 360, rfl⟩
abbrev main_v209 : Ref sig .tc := ⟨.hbm, 361, rfl⟩
abbrev main_v210 : Ref sig .tc := ⟨.hbm, 362, rfl⟩
abbrev main_call10_cst : Ref sig .tc := ⟨.hbm, 363, rfl⟩
abbrev main_call10_v0 : Ref sig .tc := ⟨.hbm, 364, rfl⟩
abbrev main_v211 : Ref sig .tc := ⟨.hbm, 365, rfl⟩
abbrev main_v212 : Ref sig .tc := ⟨.hbm, 366, rfl⟩
abbrev main_v213 : Ref sig .tc := ⟨.hbm, 367, rfl⟩
abbrev main_v214 : Ref sig .tc := ⟨.hbm, 368, rfl⟩
abbrev main_v215 : Ref sig .tc := ⟨.hbm, 369, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  reducesTo_S50000x64_S50000_d1 : S50000x64.ReducesTo [1] S50000
  h_S_ : 0 < S_.numel
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x64_0_1 : S50000x1.BroadcastsInDim S50000x64 (![0, 1] : Fin 2 → Fin S50000x64.rank)
  bcast_S_S50000x64 : S_.BroadcastsInDim S50000x64 (![] : Fin 0 → Fin S50000x64.rank)
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  concatenates_S800000x64_S800000x3_S800000x67_d1 : Shape.Concatenates [S800000x64, S800000x3] S800000x67 1
  slices_S3x67x32_S1x67x32_0_0_0 : S3x67x32.Slices ![0, 0, 0] S1x67x32
  shapeCasts_S1x67x32_S67x32 : S1x67x32.ShapeCasts S67x32
  slices_S3x32_S1x32_0_0 : S3x32.Slices ![0, 0] S1x32
  shapeCasts_S1x32_S32 : S1x32.ShapeCasts S32
  bcast_S32_S1x32_1 : S32.BroadcastsInDim S1x32 (![1] : Fin 1 → Fin S1x32.rank)
  bcast_S1x32_S800000x32_0_1 : S1x32.BroadcastsInDim S800000x32 (![0, 1] : Fin 2 → Fin S800000x32.rank)
  bcast_S_S800000x32 : S_.BroadcastsInDim S800000x32 (![] : Fin 0 → Fin S800000x32.rank)
  slices_S3x32x64_S1x32x64_0_0_0 : S3x32x64.Slices ![0, 0, 0] S1x32x64
  shapeCasts_S1x32x64_S32x64 : S1x32x64.ShapeCasts S32x64
  slices_S3x64_S1x64_0_0 : S3x64.Slices ![0, 0] S1x64
  shapeCasts_S1x64_S64 : S1x64.ShapeCasts S64
  bcast_S1x64_S800000x64_0_1 : S1x64.BroadcastsInDim S800000x64 (![0, 1] : Fin 2 → Fin S800000x64.rank)
  slices_S3x67x32_S1x67x32_1_0_0 : S3x67x32.Slices ![1, 0, 0] S1x67x32
  slices_S3x32_S1x32_1_0 : S3x32.Slices ![1, 0] S1x32
  slices_S3x32x64_S1x32x64_1_0_0 : S3x32x64.Slices ![1, 0, 0] S1x32x64
  slices_S3x64_S1x64_1_0 : S3x64.Slices ![1, 0] S1x64
  slices_S3x67x32_S1x67x32_2_0_0 : S3x67x32.Slices ![2, 0, 0] S1x67x32
  slices_S3x32_S1x32_2_0 : S3x32.Slices ![2, 0] S1x32
  slices_S3x32x64_S1x32x64_2_0_0 : S3x32x64.Slices ![2, 0, 0] S1x32x64
  slices_S3x64_S1x64_2_0 : S3x64.Slices ![2, 0] S1x64
  bcast_S1x32_S50000x32_0_1 : S1x32.BroadcastsInDim S50000x32 (![0, 1] : Fin 2 → Fin S50000x32.rank)
  bcast_S_S50000x32 : S_.BroadcastsInDim S50000x32 (![] : Fin 0 → Fin S50000x32.rank)
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  bcast_S2_S1x2_1 : S2.BroadcastsInDim S1x2 (![1] : Fin 1 → Fin S1x2.rank)
  bcast_S1x2_S50000x2_0_1 : S1x2.BroadcastsInDim S50000x2 (![0, 1] : Fin 2 → Fin S50000x2.rank)
  dot_S50000x16_S16x64_S50000x64_1_0_0_1_n_n_wf : DotDims.WF S50000x16 S16x64 S50000x64 [1] [0] [0] [1] [] []
  scatter_S50000_S800000x1_S800000_n_0_0_1_wf : ScatterDims.WF S50000 S800000x1 S800000 [] [0] [0] 1
  gather_S50000x64_S800000x1_S800000x64_1_0_n_n_0_1_164_wf : GatherDims.WF S50000x64 S800000x1 S800000x64 [1] [0] [] [0] [] 1 ![1, 64]
  dot_S800000x67_S67x32_S800000x32_1_0_0_1_n_n_wf : DotDims.WF S800000x67 S67x32 S800000x32 [1] [0] [0] [1] [] []
  dot_S800000x32_S32x64_S800000x64_1_0_0_1_n_n_wf : DotDims.WF S800000x32 S32x64 S800000x64 [1] [0] [0] [1] [] []
  scatter_S50000x64_S800000x1_S800000x64_1_0_0_1_wf : ScatterDims.WF S50000x64 S800000x1 S800000x64 [1] [0] [0] 1
  dot_S50000x64_S64x32_S50000x32_1_0_0_1_n_n_wf : DotDims.WF S50000x64 S64x32 S50000x32 [1] [0] [0] [1] [] []
  dot_S50000x32_S32x1_S50000x1_1_0_0_1_n_n_wf : DotDims.WF S50000x32 S32x1 S50000x1 [1] [0] [0] [1] [] []
  dot_S50000x32_S32x2_S50000x2_1_0_0_1_n_n_wf : DotDims.WF S50000x32 S32x2 S50000x2 [1] [0] [0] [1] [] []

variable [Facts₀]

def dot_S50000x16_S16x64_S50000x64_1_0_0_1_n_n : DotDims S50000x16 S16x64 S50000x64 where
  lhsContracting := [1]
  rhsContracting := [0]
  lhsNonContracting := [0]
  rhsNonContracting := [1]
  lhsBatch := []
  rhsBatch := []
  wf := dot_S50000x16_S16x64_S50000x64_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S800000x67_S67x32_S800000x32_1_0_0_1_n_n : DotDims S800000x67 S67x32 S800000x32 where
  lhsContracting := [1]
  rhsContracting := [0]
  lhsNonContracting := [0]
  rhsNonContracting := [1]
  lhsBatch := []
  rhsBatch := []
  wf := dot_S800000x67_S67x32_S800000x32_1_0_0_1_n_n_wf
def dot_S800000x32_S32x64_S800000x64_1_0_0_1_n_n : DotDims S800000x32 S32x64 S800000x64 where
  lhsContracting := [1]
  rhsContracting := [0]
  lhsNonContracting := [0]
  rhsNonContracting := [1]
  lhsBatch := []
  rhsBatch := []
  wf := dot_S800000x32_S32x64_S800000x64_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x32_S50000x32_1_0_0_1_n_n : DotDims S50000x64 S64x32 S50000x32 where
  lhsContracting := [1]
  rhsContracting := [0]
  lhsNonContracting := [0]
  rhsNonContracting := [1]
  lhsBatch := []
  rhsBatch := []
  wf := dot_S50000x64_S64x32_S50000x32_1_0_0_1_n_n_wf
def dot_S50000x32_S32x1_S50000x1_1_0_0_1_n_n : DotDims S50000x32 S32x1 S50000x1 where
  lhsContracting := [1]
  rhsContracting := [0]
  lhsNonContracting := [0]
  rhsNonContracting := [1]
  lhsBatch := []
  rhsBatch := []
  wf := dot_S50000x32_S32x1_S50000x1_1_0_0_1_n_n_wf
def dot_S50000x32_S32x2_S50000x2_1_0_0_1_n_n : DotDims S50000x32 S32x2 S50000x2 where
  lhsContracting := [1]
  rhsContracting := [0]
  lhsNonContracting := [0]
  rhsNonContracting := [1]
  lhsBatch := []
  rhsBatch := []
  wf := dot_S50000x32_S32x2_S50000x2_1_0_0_1_n_n_wf

class Facts : Prop extends Facts₀ where

variable [Facts]
-- ==== Proof.KerRun.lean ====
/-
  The kernel program's run, with every unscoped buffer read at the end.

  From any memory with zero counters, every weakly fair execution of the program on the TensorCores terminates, nothing
  faulting, and in the final state every unscoped buffer of core `c` holds the last boundary's contents `W16 m ρ c`: the
  launch memory carried through the eight stretches of host operations and the eight regions' write-backs.
-/
import proofs.«104585_j29386166239380_1_alg».proof.Proof.Gen.KernelIdeal.Frame

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, its final state read buffer by buffer against the last boundary's contents. -/
theorem run_W16 : θ_run defs (onTc (τ := τ) (main (F := F))) ⟨m, fun _ => 0, ρ⟩ (fun r => ∀ c : Dev nD,
      ∀ b ∈ Pipeline.ucRefs τ sig, r.2.mem (((c : Thread nD τ)).1, b) = W16 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W16 m ρ c b)
    (hfin := fun c s' => by
      iintro ⟨⟨Hh, -⟩, HSI⟩
      unfold StableHlo.held
      imodintro
      iapply (pointsTo_read_all (Pipeline.ucRefs τ sig) (fun b => (((c : Thread nD τ)).1, b)) (W16 m ρ c) s')
      isplitl [Hh] <;> iassumption)
    (hQ := fun _ h => h)

end Cert.KernelIdeal.RunValue

end
-- ==== Proof.LibDenseBlock.lean ====
/-
  A weight matrix times a block, read at an index.

  A `tpu.matmul` of a `[K, N]` left operand with an `[N, Q]` right operand, contracting the left's second axis with the
  right's first, into a zero accumulator: over the extended reals entry `(k, q)` of the result is the plain sum
  `Σ n, l (k, n) * r (n, q)`.
-/
import Idealize.ShloMosaic.Lib.ValueIdx
import Idealize.ShloMosaic.PureOps.Ideal.Laws

noncomputable section

namespace Idealize.ShloMosaic.DenseBlock

open Idealize.ShloMosaic Idealize.ShloMosaic.ValueIdx

/-- The dimension numbers of `[K, N] · [N, Q] → [K, Q]`. -/
abbrev mmDims (K N Q : Nat)
    (wf : DotDims.WF ⟨2, ![K, N]⟩ ⟨2, ![N, Q]⟩ ⟨2, ![K, Q]⟩ [1] [0] [0] [1] [] []) :
    DotDims ⟨2, ![K, N]⟩ ⟨2, ![N, Q]⟩ ⟨2, ![K, Q]⟩ where
  lhsContracting := [1]
  rhsContracting := [0]
  lhsNonContracting := [0]
  rhsNonContracting := [1]
  lhsBatch := []
  rhsBatch := []
  wf := wf

section
variable {K N Q : Nat} (wf : DotDims.WF ⟨2, ![K, N]⟩ ⟨2, ![N, Q]⟩ ⟨2, ![K, Q]⟩ [1] [0] [0] [1] [] [])

/-- The left operand's row is the result's row. -/
theorem lhs_row (j : (⟨2, ![K, Q]⟩ : Shape).Idx) (c : (mmDims K N Q wf).contr.Idx) :
    ((mmDims K N Q wf).lhsIdx j c (0 : Fin 2)).val = (j 0).val := by
  unfold DotDims.lhsIdx
  rw [dif_neg (show ¬ (0 : Fin 2) ∈ (mmDims K N Q wf).lhsBatch from List.not_mem_nil),
    dif_pos (show (0 : Fin 2) ∈ (mmDims K N Q wf).lhsNonContracting from List.mem_singleton.mpr rfl)]
  rfl

/-- The left operand's column is the contraction position. -/
theorem lhs_col (j : (⟨2, ![K, Q]⟩ : Shape).Idx) (c : (mmDims K N Q wf).contr.Idx) :
    ((mmDims K N Q wf).lhsIdx j c (1 : Fin 2)).val = (c ⟨0, Nat.one_pos⟩).val :=
  (mmDims K N Q wf).lhsIdx_val_of_single rfl j c

/-- The right operand's row is the contraction position. -/
theorem rhs_row (j : (⟨2, ![K, Q]⟩ : Shape).Idx) (c : (mmDims K N Q wf).contr.Idx) :
    ((mmDims K N Q wf).rhsIdx j c (0 : Fin 2)).val = (c ⟨0, Nat.one_pos⟩).val :=
  (mmDims K N Q wf).rhsIdx_val_of_single rfl j c

/-- The right operand's column is the result's column. -/
theorem rhs_col (j : (⟨2, ![K, Q]⟩ : Shape).Idx) (c : (mmDims K N Q wf).contr.Idx) :
    ((mmDims K N Q wf).rhsIdx j c (1 : Fin 2)).val = (j 1).val := by
  unfold DotDims.rhsIdx
  rw [dif_neg (show ¬ (1 : Fin 2) ∈ (mmDims K N Q wf).rhsBatch from List.not_mem_nil),
    dif_pos (show (1 : Fin 2) ∈ (mmDims K N Q wf).rhsNonContracting from List.mem_singleton.mpr rfl)]
  rfl

/-- Entry `(k, q)` of the product into a zero accumulator is `Σ n, l (k, n) * r (n, q)`. -/
theorem matmul_zero_apply {φ₁ φ₂ : FTy} (l : FVec Ideal ⟨2, ![K, N]⟩ φ₁) (r : FVec Ideal ⟨2, ![N, Q]⟩ φ₂)
    (k : Fin K) (q : Fin Q) :
    FloatOps.matmul (mmDims K N Q wf) none l r (constant ⟨2, ![K, Q]⟩ .f32 0x00000000#32) (ix2 k q)
      = ∑ n : Fin N, l (ix2 k n) * r (ix2 n q) := by
  rw [Ideal.matmul_constant_zero_apply, ← Equiv.sum_comp (contrEquiv1 (mmDims K N Q wf) N rfl rfl).symm]
  refine Finset.sum_congr rfl fun n _ => ?_
  have hn := contrEquiv1_symm_val (mmDims K N Q wf) N rfl rfl n
  have el : (mmDims K N Q wf).lhsIdx (ix2 k q) ((contrEquiv1 (mmDims K N Q wf) N rfl rfl).symm n) = ix2 k n :=
    funext fun a => Fin.ext (by
      match a with
      | ⟨0, _⟩ => exact lhs_row wf _ _
      | ⟨1, _⟩ => exact (lhs_col wf _ _).trans hn)
  have er : (mmDims K N Q wf).rhsIdx (ix2 k q) ((contrEquiv1 (mmDims K N Q wf) N rfl rfl).symm n) = ix2 n q :=
    funext fun a => Fin.ext (by
      match a with
      | ⟨0, _⟩ => exact (rhs_row wf _ _).trans hn
      | ⟨1, _⟩ => exact rhs_col wf _ _)
  rw [el, er]

end

end Idealize.ShloMosaic.DenseBlock

end
-- ==== Proof.LibDenseHost.lean ====
/-
  The host's matrix product, read at an index.

  A `dot_general` of a `[K, N]` left operand with an `[N, Q]` right operand, contracting the left's second axis with
  the right's first: over the extended reals entry `(k, q)` of the result is the plain sum `Σ n, l (k, n) * r (n, q)`,
  whatever the schedule — the same sum a matrix unit accumulates into zero, so a product computed block of rows by
  block of rows and a product computed whole agree entry by entry.
-/
import proofs.«104585_j29386166239380_1_alg».proof.Proof.LibDenseBlock

noncomputable section

namespace Idealize.ShloMosaic.DenseBlock

open Idealize.ShloMosaic Idealize.ShloMosaic.ValueIdx

variable {K N Q : Nat} (wf : DotDims.WF ⟨2, ![K, N]⟩ ⟨2, ![N, Q]⟩ ⟨2, ![K, Q]⟩ [1] [0] [0] [1] [] [])

/-- Entry `(k, q)` of the host's product is `Σ n, l (k, n) * r (n, q)`. -/
theorem dotGeneral_apply_ix2 {φ₁ φ₂ : FTy} (sched : HostSchedule) (l : FVec Ideal ⟨2, ![K, N]⟩ φ₁)
    (r : FVec Ideal ⟨2, ![N, Q]⟩ φ₂) (k : Fin K) (q : Fin Q) :
    FloatOps.dotGeneral (mmDims K N Q wf) none sched l r (ix2 k q) = ∑ n : Fin N, l (ix2 k n) * r (ix2 n q) := by
  rw [Ideal.dotGeneral_apply, ← Equiv.sum_comp (contrEquiv1 (mmDims K N Q wf) N rfl rfl).symm]
  refine Finset.sum_congr rfl fun n _ => ?_
  have hn := contrEquiv1_symm_val (mmDims K N Q wf) N rfl rfl n
  have el : (mmDims K N Q wf).lhsIdx (ix2 k q) ((contrEquiv1 (mmDims K N Q wf) N rfl rfl).symm n) = ix2 k n :=
    funext fun a => Fin.ext (by
      match a with
      | ⟨0, _⟩ => exact lhs_row wf _ _
      | ⟨1, _⟩ => exact (lhs_col wf _ _).trans hn)
  have er : (mmDims K N Q wf).rhsIdx (ix2 k q) ((contrEquiv1 (mmDims K N Q wf) N rfl rfl).symm n) = ix2 n q :=
    funext fun a => Fin.ext (by
      match a with
      | ⟨0, _⟩ => exact (rhs_row wf _ _).trans hn
      | ⟨1, _⟩ => exact rhs_col wf _ _)
  rw [el, er]

end Idealize.ShloMosaic.DenseBlock

end
-- ==== Proof.LibDenseLayer.lean ====
/-
  A dense layer inside a kernel, read at an index.

  A kernel computes a layer on a block of `K` rows as a product of the block `[K, N]` with the weights laid out
  `[N, Q]`, into a zero accumulator, plus the bias, one row `[1, Q]` laid along every row of the block; a clamp
  between two constants may follow.  Over the extended reals entry `(p, q)` of the result is
  `Σ n, X (p, n) * Wt (n, q) + bias (0, q)`, clamped.
-/
import proofs.«104585_j29386166239380_1_alg».proof.Proof.LibDenseBlock
import Idealize.ShloMosaic.Lib.ValueLayout

noncomputable section

namespace Idealize.ShloMosaic.DenseLayer

open Idealize.ShloMosaic Idealize.ShloMosaic.ValueIdx Idealize.ShloMosaic.DenseBlock

variable {K N Q : Nat} (wf : DotDims.WF ⟨2, ![K, N]⟩ ⟨2, ![N, Q]⟩ ⟨2, ![K, Q]⟩ [1] [0] [0] [1] [] [])

/-- Entry `(p, q)` of `X · Wt + bias`, the bias one row laid along every row. -/
theorem affine_apply {φ₁ φ₂ : FTy} (X : FVec Ideal ⟨2, ![K, N]⟩ φ₁) (Wt : FVec Ideal ⟨2, ![N, Q]⟩ φ₂)
    (bias : FVec Ideal ⟨2, ![1, Q]⟩ .f32) (hb : (⟨2, ![1, Q]⟩ : Shape).Broadcasts ⟨2, ![K, Q]⟩) (p : Fin K) (q : Fin Q) :
    addf (matmul (mmDims K N Q wf) none X Wt (constant ⟨2, ![K, Q]⟩ .f32 0x00000000#32))
        (broadcastTo ⟨2, ![K, Q]⟩ bias hb) (ix2 p q)
      = (∑ n : Fin N, X (ix2 p n) * Wt (ix2 n q)) + bias (ix2 (0 : Fin 1) q) := by
  show FloatOps.matmul (mmDims K N Q wf) none X Wt (constant ⟨2, ![K, Q]⟩ .f32 0x00000000#32) (ix2 p q)
      + broadcastTo ⟨2, ![K, Q]⟩ bias hb (ix2 p q) = _
  rw [matmul_zero_apply wf X Wt p q, broadcastTo_1b_ab_apply bias hb p q]

/-- The same, clamped from below by the splat of `lo` and then from above by the splat of `hi`. -/
theorem affine_clamped_apply {φ₁ φ₂ : FTy} (X : FVec Ideal ⟨2, ![K, N]⟩ φ₁) (Wt : FVec Ideal ⟨2, ![N, Q]⟩ φ₂)
    (bias : FVec Ideal ⟨2, ![1, Q]⟩ .f32) (hb : (⟨2, ![1, Q]⟩ : Shape).Broadcasts ⟨2, ![K, Q]⟩) (lo hi : BitVec 32)
    (p : Fin K) (q : Fin Q) :
    minimumf (broadcast ⟨2, ![K, Q]⟩ (Scalar.ofBits (F := Ideal) .f32 hi))
        (maximumf (broadcast ⟨2, ![K, Q]⟩ (Scalar.ofBits (F := Ideal) .f32 lo))
          (addf (matmul (mmDims K N Q wf) none X Wt (constant ⟨2, ![K, Q]⟩ .f32 0x00000000#32))
            (broadcastTo ⟨2, ![K, Q]⟩ bias hb))) (ix2 p q)
      = min (Ideal.ofBits .f32 hi) (max (Ideal.ofBits .f32 lo)
          ((∑ n : Fin N, X (ix2 p n) * Wt (ix2 n q)) + bias (ix2 (0 : Fin 1) q))) := by
  show min (Ideal.ofBits .f32 hi) (max (Ideal.ofBits .f32 lo)
      (addf (matmul (mmDims K N Q wf) none X Wt (constant ⟨2, ![K, Q]⟩ .f32 0x00000000#32))
        (broadcastTo ⟨2, ![K, Q]⟩ bias hb) (ix2 p q))) = _
  rw [affine_apply wf X Wt bias hb p q]

end Idealize.ShloMosaic.DenseLayer

end
-- ==== Proof.LibRowLayout.lean ====
/-
  A vector laid out as a column or as a row.

  Reshaping a vector `[n]` to a column `[n, 1]` moves no entry: entry `(i, 0)` of the column is entry `i` of the
  vector, which is also what broadcasting the vector along a new trailing unit axis gives. Likewise a vector `[q]`
  reshaped to a row `[1, q]` is the vector broadcast along a new leading unit axis. Any element type.
-/
import Idealize.ShloMosaic.Lib.ValueIdx
import Idealize.ShloMosaic.Lib.ValueLayout
import Idealize.ShloMosaic.Lib.Pipeline.Value

noncomputable section

namespace Idealize.ShloMosaic.RowLayout

open Idealize.ShloMosaic Idealize.ShloMosaic.ValueIdx

variable {α : Type}

/-- Entry `(i, 0)` of a vector reshaped to a column is entry `i` of the vector. -/
theorem reshape_col_apply {n : ℕ} (x : (⟨1, ![n]⟩ : Shape).Idx → α)
    (hc : (⟨1, ![n]⟩ : Shape).ShapeCasts ⟨2, ![n, 1]⟩) (j : (⟨2, ![n, 1]⟩ : Shape).Idx) :
    shapeCast ⟨2, ![n, 1]⟩ x hc j = x (ix1 (j 0)) := by
  have h1 : (j 1).val < 1 := (j 1).isLt
  refine shapeCast_apply x hc j (ix1 (j 0)) ?_
  rw [Shape.rowMajor_val_two, Shape.rowMajor_val_one]
  show (j 0).val = (j 0).val * 1 + (j 1).val
  omega

/-- Entry `(i, 0)` of a vector broadcast along a new trailing unit axis is entry `i` of the vector. -/
theorem broadcast_col_apply {n : ℕ} (x : (⟨1, ![n]⟩ : Shape).Idx → α)
    (hb : (⟨1, ![n]⟩ : Shape).BroadcastsInDim ⟨2, ![n, 1]⟩ ![0]) (j : (⟨2, ![n, 1]⟩ : Shape).Idx) :
    broadcastInDim ⟨2, ![n, 1]⟩ ![0] hb x j = x (ix1 (j 0)) := by
  have h0 : (j 0).val < n := (j 0).isLt
  refine broadcastInDim_apply ![0] hb x j (ix1 (j 0)) fun a => ?_
  match a with
  | ⟨0, _⟩ =>
    show (j 0).val = if n = 1 then 0 else (j 0).val
    split
    · omega
    · rfl

/-- A vector reshaped to a column is the vector broadcast along a new trailing unit axis. -/
theorem reshape_col_eq_broadcast {n : ℕ} (x : (⟨1, ![n]⟩ : Shape).Idx → α)
    (hc : (⟨1, ![n]⟩ : Shape).ShapeCasts ⟨2, ![n, 1]⟩)
    (hb : (⟨1, ![n]⟩ : Shape).BroadcastsInDim ⟨2, ![n, 1]⟩ ![0]) :
    shapeCast ⟨2, ![n, 1]⟩ x hc = broadcastInDim ⟨2, ![n, 1]⟩ ![0] hb x :=
  funext fun j => (reshape_col_apply x hc j).trans (broadcast_col_apply x hb j).symm

/-- Entry `(0, i)` of a vector reshaped to a row is entry `i` of the vector. -/
theorem reshape_row_apply {q : ℕ} (x : (⟨1, ![q]⟩ : Shape).Idx → α)
    (hc : (⟨1, ![q]⟩ : Shape).ShapeCasts ⟨2, ![1, q]⟩) (j : (⟨2, ![1, q]⟩ : Shape).Idx) :
    shapeCast ⟨2, ![1, q]⟩ x hc j = x (ix1 (j 1)) := by
  have h0 : (j 0).val < 1 := (j 0).isLt
  refine shapeCast_apply x hc j (ix1 (j 1)) ?_
  rw [Shape.rowMajor_val_two, Shape.rowMajor_val_one]
  show (j 1).val = (j 0).val * q + (j 1).val
  have : (j 0).val = 0 := by omega
  rw [this, Nat.zero_mul, Nat.zero_add]

/-- Entry `(0, i)` of a vector broadcast along a new leading unit axis is entry `i` of the vector. -/
theorem broadcast_row_apply {q : ℕ} (x : (⟨1, ![q]⟩ : Shape).Idx → α)
    (hb : (⟨1, ![q]⟩ : Shape).BroadcastsInDim ⟨2, ![1, q]⟩ ![1]) (j : (⟨2, ![1, q]⟩ : Shape).Idx) :
    broadcastInDim ⟨2, ![1, q]⟩ ![1] hb x j = x (ix1 (j 1)) := by
  have h1 : (j 1).val < q := (j 1).isLt
  refine broadcastInDim_apply ![1] hb x j (ix1 (j 1)) fun a => ?_
  match a with
  | ⟨0, _⟩ =>
    show (j 1).val = if q = 1 then 0 else (j 1).val
    split
    · omega
    · rfl

/-- A vector reshaped to a row is the vector broadcast along a new leading unit axis. -/
theorem reshape_row_eq_broadcast {q : ℕ} (x : (⟨1, ![q]⟩ : Shape).Idx → α)
    (hc : (⟨1, ![q]⟩ : Shape).ShapeCasts ⟨2, ![1, q]⟩)
    (hb : (⟨1, ![q]⟩ : Shape).BroadcastsInDim ⟨2, ![1, q]⟩ ![1]) :
    shapeCast ⟨2, ![1, q]⟩ x hc = broadcastInDim ⟨2, ![1, q]⟩ ![1] hb x :=
  funext fun j => (reshape_row_apply x hc j).trans (broadcast_row_apply x hb j).symm

end Idealize.ShloMosaic.RowLayout

end
-- ==== Proof.LibRowLocal.lean ====
/-
  Layers that act row by row.

  A dense layer `X · W`, a bias row added to every row, a rectifier and a row-wise log-softmax all compute row `i`
  of their result from row `i` of their operand alone.  So the rows `B·t … B·t + B − 1` of the result are the same
  layer applied to those rows of the operand: a computation carried out block of rows by block of rows agrees with
  the computation carried out on the whole array.  The layers are stated entry by entry over the extended reals, and
  a matrix unit's product into a zero accumulator, the host's product, and the two ways of adding a bias row or
  taking a maximum with zero are each shown to be the entrywise layer.
-/
import proofs.«104585_j29386166239380_1_alg».proof.Proof.LibDenseHost
import proofs.«104585_j29386166239380_1_alg».proof.Proof.LibDenseLayer
import proofs.«104585_j29386166239380_1_alg».proof.Proof.LibRowLayout

noncomputable section

namespace Idealize.ShloMosaic.RowLocal

open Idealize.ShloMosaic Idealize.ShloMosaic.ValueIdx Idealize.ShloMosaic.DenseBlock

/-- A `K × Q` array of extended reals. -/
abbrev Mat (K Q : ℕ) : Type := (⟨2, ![K, Q]⟩ : Shape).Idx → EReal

/-- `X · W`: entry `(i, q)` is `Σ n, X (i, n) · W (n, q)`. -/
def dense {K N Q : ℕ} (X : Mat K N) (W : Mat N Q) : Mat K Q :=
  fun i => ∑ n : Fin N, X (ix2 (i 0) n) * W (ix2 n (i 1))

/-- The row `R` added to every row of `A`. -/
def biased {K Q : ℕ} (A : Mat K Q) (R : Mat 1 Q) : Mat K Q :=
  fun i => A i + R (ix2 (0 : Fin 1) (i 1))

/-- The maximum of every entry with zero. -/
def relu {K Q : ℕ} (A : Mat K Q) : Mat K Q :=
  fun i => max (A i) (Ideal.ofBits .f32 0x00000000#32)

/-- Rows `B·t … B·t + B − 1` of an array. -/
def rowsOf {K Q : ℕ} (B t : ℕ) (hB : ∀ p : Fin B, B * t + p.val < K) (X : Mat K Q) : Mat B Q :=
  fun j => X (ix2 ⟨B * t + (j 0).val, hB (j 0)⟩ (j 1))

section Locality
variable {K N Q : ℕ} (B t : ℕ) (hB : ∀ p : Fin B, B * t + p.val < K)

/-- A block of rows of a product is the product of that block of rows. -/
theorem rowsOf_dense (X : Mat K N) (W : Mat N Q) : rowsOf B t hB (dense X W) = dense (rowsOf B t hB X) W := rfl

/-- A block of rows of a biased array is that block of rows, biased. -/
theorem rowsOf_biased (A : Mat K Q) (R : Mat 1 Q) : rowsOf B t hB (biased A R) = biased (rowsOf B t hB A) R := rfl

/-- A block of rows of a rectified array is that block of rows, rectified. -/
theorem rowsOf_relu (A : Mat K Q) : rowsOf B t hB (relu A) = relu (rowsOf B t hB A) := rfl

end Locality

section Readings
variable {K N Q : ℕ}

/-- A matrix unit's product into a zero accumulator is the entrywise product. -/
theorem matmul_eq_dense (wf : DotDims.WF ⟨2, ![K, N]⟩ ⟨2, ![N, Q]⟩ ⟨2, ![K, Q]⟩ [1] [0] [0] [1] [] []) {φ₁ φ₂ : FTy}
    (X : FVec Ideal ⟨2, ![K, N]⟩ φ₁) (W : FVec Ideal ⟨2, ![N, Q]⟩ φ₂) :
    FloatOps.matmul (mmDims K N Q wf) none X W (constant ⟨2, ![K, Q]⟩ .f32 0x00000000#32) = dense (K := K) X W := by
  funext i
  obtain ⟨k, q, rfl⟩ : ∃ (k : Fin K) (q : Fin Q), i = ix2 k q := ⟨i 0, i 1, eq_ix2 i⟩
  exact matmul_zero_apply wf X W k q

/-- The host's product is the entrywise product. -/
theorem hostDot_eq_dense (wf : DotDims.WF ⟨2, ![K, N]⟩ ⟨2, ![N, Q]⟩ ⟨2, ![K, Q]⟩ [1] [0] [0] [1] [] []) {φ₁ φ₂ : FTy}
    (X : FVec Ideal ⟨2, ![K, N]⟩ φ₁) (W : FVec Ideal ⟨2, ![N, Q]⟩ φ₂) :
    (Host.dotGeneral (mmDims K N Q wf) none X W : FVec Ideal ⟨2, ![K, Q]⟩ .f32) = dense (K := K) X W := by
  funext i
  obtain ⟨k, q, rfl⟩ : ∃ (k : Fin K) (q : Fin Q), i = ix2 k q := ⟨i 0, i 1, eq_ix2 i⟩
  simp only [Host.dotGeneral]
  exact dotGeneral_apply_ix2 wf _ X W k q

/-- Adding a `[1, Q]` row broadcast along the rows (a vector broadcast) is `biased`. -/
theorem addRow_eq_biased (A : FVec Ideal ⟨2, ![K, Q]⟩ .f32) (R : FVec Ideal ⟨2, ![1, Q]⟩ .f32)
    (hb : (⟨2, ![1, Q]⟩ : Shape).Broadcasts ⟨2, ![K, Q]⟩) :
    addf A (broadcastTo ⟨2, ![K, Q]⟩ R hb) = biased (K := K) A R := by
  funext i
  obtain ⟨p, q, rfl⟩ : ∃ (p : Fin K) (q : Fin Q), i = ix2 p q := ⟨i 0, i 1, eq_ix2 i⟩
  show A (ix2 p q) + broadcastTo ⟨2, ![K, Q]⟩ R hb (ix2 p q) = A (ix2 p q) + R (ix2 (0 : Fin 1) q)
  rw [broadcastTo_1b_ab_apply]

/-- A `[1, Q]` row broadcast along the rows by the host, read at an entry. -/
theorem hostRow_apply {α : Type} (R : (⟨2, ![1, Q]⟩ : Shape).Idx → α)
    (hb : (⟨2, ![1, Q]⟩ : Shape).BroadcastsInDim ⟨2, ![K, Q]⟩ ![0, 1]) (p : Fin K) (q : Fin Q) :
    broadcastInDim ⟨2, ![K, Q]⟩ ![0, 1] hb R (ix2 p q) = R (ix2 (0 : Fin 1) q) := by
  refine broadcastInDim_apply ![0, 1] hb R (ix2 p q) (ix2 (0 : Fin 1) q) fun a => ?_
  match a with
  | ⟨0, _⟩ => exact (if_pos rfl).symm
  | ⟨1, _⟩ =>
    show q.val = if Q = 1 then 0 else q.val
    split
    · have := q.isLt; omega
    · rfl

/-- Adding a `[1, Q]` row broadcast along the rows by the host is `biased`. -/
theorem hostAddRow_eq_biased (A : FVec Ideal ⟨2, ![K, Q]⟩ .f32) (R : FVec Ideal ⟨2, ![1, Q]⟩ .f32)
    (hb : (⟨2, ![1, Q]⟩ : Shape).BroadcastsInDim ⟨2, ![K, Q]⟩ ![0, 1]) :
    addf A (broadcastInDim ⟨2, ![K, Q]⟩ ![0, 1] hb R) = biased (K := K) A R := by
  funext i
  obtain ⟨p, q, rfl⟩ : ∃ (p : Fin K) (q : Fin Q), i = ix2 p q := ⟨i 0, i 1, eq_ix2 i⟩
  show A (ix2 p q) + broadcastInDim ⟨2, ![K, Q]⟩ ![0, 1] hb R (ix2 p q) = A (ix2 p q) + R (ix2 (0 : Fin 1) q)
  rw [hostRow_apply]

/-- The maximum with a splat of the zero word is `relu`. -/
theorem maxZero_eq_relu (A : FVec Ideal ⟨2, ![K, Q]⟩ .f32) :
    maximumf A (broadcast ⟨2, ![K, Q]⟩ (Scalar.ofBits (F := Ideal) .f32 0x00000000#32)) = relu (K := K) A := rfl

/-- The maximum with the host's broadcast of the zero constant is `relu`. -/
theorem hostMaxZero_eq_relu (A : FVec Ideal ⟨2, ![K, Q]⟩ .f32)
    (h0 : (⟨0, ![]⟩ : Shape).BroadcastsInDim ⟨2, ![K, Q]⟩ ![]) :
    maximumf A (broadcastInDim ⟨2, ![K, Q]⟩ ![] h0 (constant (F := Ideal) ⟨0, ![]⟩ .f32 0x00000000#32)) = relu (K := K) A := by
  funext i
  show max (A i) (broadcastInDim ⟨2, ![K, Q]⟩ ![] h0 (constant (F := Ideal) ⟨0, ![]⟩ .f32 0x00000000#32) i) = max (A i) _
  rw [broadcastInDim_apply ![] h0 _ i ix0 (fun a => a.elim0)]
  rfl

end Readings

end Idealize.ShloMosaic.RowLocal

end
-- ==== Proof.LibRowNorm.lean ====
/-
  Layer normalisation as a layer that acts row by row.

  For a row `v` of `Q` extended reals, with `n` the value of a word (the row length as a float) and `ε` the value
  of another: the mean is `(Σ v) / n`, the centred row is `v − mean`, the variance is `(Σ (v − mean)²) / n`, and the
  normalised row is `(v − mean) · rsqrt (variance + ε) · γ + β` for a scale row `γ` and a shift row `β`.  Every entry
  of row `i` of the result is computed from row `i` of the operand alone, so a block of rows of the result is the same
  layer applied to that block of rows.
-/
import proofs.«104585_j29386166239380_1_alg».proof.Proof.LibRowLocal

noncomputable section

namespace Idealize.ShloMosaic.RowNorm

open Idealize.ShloMosaic Idealize.ShloMosaic.ValueIdx Idealize.ShloMosaic.RowLocal

variable {K Q : ℕ}

/-- The mean of row `p`: the row's sum divided by the value of the word `nW`. -/
def rowMean (nW : BitVec 32) (A : Mat K Q) (p : Fin K) : EReal :=
  Ideal.div (∑ q : Fin Q, A (ix2 p q)) (Ideal.ofBits .f32 nW)

/-- Every entry minus its row's mean. -/
def centred (nW : BitVec 32) (A : Mat K Q) : Mat K Q :=
  fun i => A i - rowMean nW A (i 0)

/-- The variance of row `p`: the mean of the squares of the centred row. -/
def rowVar (nW : BitVec 32) (A : Mat K Q) (p : Fin K) : EReal :=
  Ideal.div (∑ q : Fin Q, centred nW A (ix2 p q) * centred nW A (ix2 p q)) (Ideal.ofBits .f32 nW)

/-- The normalised array: centred, scaled by the reciprocal square root of variance plus `ε`, then by the row `G`,
    and shifted by the row `Bt`. -/
def lnorm (nW eW : BitVec 32) (A : Mat K Q) (G Bt : Mat 1 Q) : Mat K Q :=
  fun i => centred nW A i * Ideal.rsqrt (rowVar nW A (i 0) + Ideal.ofBits .f32 eW) * G (ix2 (0 : Fin 1) (i 1))
    + Bt (ix2 (0 : Fin 1) (i 1))

/-- The entrywise sum of two arrays. -/
def plus (A C : Mat K Q) : Mat K Q := fun i => A i + C i

section Locality
variable (B t : ℕ) (hB : ∀ p : Fin B, B * t + p.val < K)

/-- A block of rows of a normalised array is that block of rows, normalised. -/
theorem rowsOf_lnorm (nW eW : BitVec 32) (A : Mat K Q) (G Bt : Mat 1 Q) :
    rowsOf B t hB (lnorm nW eW A G Bt) = lnorm nW eW (rowsOf B t hB A) G Bt := rfl

/-- A block of rows of a sum is the sum of the blocks of rows. -/
theorem rowsOf_plus (A C : Mat K Q) : rowsOf B t hB (plus A C) = plus (rowsOf B t hB A) (rowsOf B t hB C) := rfl

end Locality

end Idealize.ShloMosaic.RowNorm

end
-- ==== Proof.Layers.lean ====
/-
  The layers of the message-passing network, entry by entry over the extended reals.

  A parameter vector `b` of length `Q` is used as the one-row array `rowVec b`; layer `l` of a stacked parameter is
  `sliceMat l` (a matrix out of `[L, N, Q]`) or `sliceVec l` (a vector out of `[L, Q]`).
  * the encoder: `relu (lnorm (X · W + b) γ β)`;
  * the message network on the rows of `M`: `relu (M · W₁ + b₁) · W₂ + b₂` (the output heads have the same form);
  * the node update: `lnorm (H + A) γ β`.
  Each acts row by row, so a block of rows of a layer's result is the layer of that block of rows.
-/
import proofs.«104585_j29386166239380_1_alg».proof.Proof.LibRowNorm

noncomputable section

namespace Cert.Layers

open Idealize.ShloMosaic Idealize.ShloMosaic.ValueIdx Idealize.ShloMosaic.RowLocal Idealize.ShloMosaic.RowNorm

/-- A vector of `Q` extended reals. -/
abbrev Vct (Q : ℕ) : Type := (⟨1, ![Q]⟩ : Shape).Idx → EReal

/-- A vector as a one-row array. -/
def rowVec {Q : ℕ} (b : Vct Q) : Mat 1 Q := fun i => b (ix1 (i 1))

/-- Matrix `l` of a stack `[L, N, Q]`. -/
def sliceMat {L N Q : ℕ} (l : Fin L) (w : (⟨3, ![L, N, Q]⟩ : Shape).Idx → EReal) : Mat N Q :=
  fun j => w (ix3 l (j 0) (j 1))

/-- Vector `l` of a stack `[L, Q]`. -/
def sliceVec {L Q : ℕ} (l : Fin L) (b : Mat L Q) : Vct Q := fun j => b (ix2 l (j 0))

/-- The word of `64.0` and the word of the variance's `ε`. -/
abbrev w64 : BitVec 32 := 0x42800000#32
abbrev wEps : BitVec 32 := 0x3727C5AC#32

variable {K : ℕ}

/-- The encoder on the rows of `X`, its bias, scale and shift given as one-row arrays. -/
def encodeR (X : Mat K 16) (W : Mat 16 64) (Rb Rg Rbe : Mat 1 64) : Mat K 64 :=
  relu (lnorm w64 wEps (biased (dense X W) Rb) Rg Rbe)

/-- A two-layer network on the rows of `M`, `relu (M · W₁ + R₁) · W₂ + R₂`, the biases given as one-row arrays. -/
def mlpR {N P Q : ℕ} (M : Mat K N) (W1 : Mat N P) (R1 : Mat 1 P) (W2 : Mat P Q) (R2 : Mat 1 Q) : Mat K Q :=
  biased (dense (relu (biased (dense M W1) R1)) W2) R2

/-- The node update on the rows of `H` and `A`, scale and shift given as one-row arrays. -/
def nodeR (H A : Mat K 64) (Rg Rbe : Mat 1 64) : Mat K 64 :=
  lnorm w64 wEps (plus H A) Rg Rbe

/-- The encoder on the rows of `X`. -/
def encodeL (X : Mat K 16) (W : Mat 16 64) (b g be : Vct 64) : Mat K 64 :=
  encodeR X W (rowVec b) (rowVec g) (rowVec be)

/-- A two-layer network on the rows of `M`: `relu (M · W₁ + b₁) · W₂ + b₂`. -/
def mlpL {N P Q : ℕ} (M : Mat K N) (W1 : Mat N P) (b1 : Vct P) (W2 : Mat P Q) (b2 : Vct Q) : Mat K Q :=
  mlpR M W1 (rowVec b1) W2 (rowVec b2)

/-- The node update on the rows of `H` and `A`. -/
def nodeL (H A : Mat K 64) (g be : Vct 64) : Mat K 64 :=
  nodeR H A (rowVec g) (rowVec be)

section Locality
variable (B t : ℕ) (hB : ∀ p : Fin B, B * t + p.val < K)

theorem rowsOf_encodeR (X : Mat K 16) (W : Mat 16 64) (Rb Rg Rbe : Mat 1 64) :
    rowsOf B t hB (encodeR X W Rb Rg Rbe) = encodeR (rowsOf B t hB X) W Rb Rg Rbe := rfl

theorem rowsOf_mlpR {N P Q : ℕ} (M : Mat K N) (W1 : Mat N P) (R1 : Mat 1 P) (W2 : Mat P Q) (R2 : Mat 1 Q) :
    rowsOf B t hB (mlpR M W1 R1 W2 R2) = mlpR (rowsOf B t hB M) W1 R1 W2 R2 := rfl

theorem rowsOf_nodeR (H A : Mat K 64) (Rg Rbe : Mat 1 64) :
    rowsOf B t hB (nodeR H A Rg Rbe) = nodeR (rowsOf B t hB H) (rowsOf B t hB A) Rg Rbe := rfl

theorem rowsOf_encodeL (X : Mat K 16) (W : Mat 16 64) (b g be : Vct 64) :
    rowsOf B t hB (encodeL X W b g be) = encodeL (rowsOf B t hB X) W b g be := rfl

theorem rowsOf_mlpL {N P Q : ℕ} (M : Mat K N) (W1 : Mat N P) (b1 : Vct P) (W2 : Mat P Q) (b2 : Vct Q) :
    rowsOf B t hB (mlpL M W1 b1 W2 b2) = mlpL (rowsOf B t hB M) W1 b1 W2 b2 := rfl

theorem rowsOf_nodeL (H A : Mat K 64) (g be : Vct 64) :
    rowsOf B t hB (nodeL H A g be) = nodeL (rowsOf B t hB H) (rowsOf B t hB A) g be := rfl

end Locality

end Cert.Layers

end
-- ==== Proof.LibStackSlice.lean ====
/-
  One layer of a stack of parameters.

  Layer `l` of a stack `[L, Q]` of vectors, taken as the slice `[l : l + 1]` of shape `[1, Q]`, flattened to `[Q]` and
  written again as the one row `[1, Q]`, holds at `(0, q)` the stack's entry `(l, q)`.  Layer `l` of a stack `[L, N, Q]`
  of matrices, taken as the slice of shape `[1, N, Q]` and written as `[N, Q]`, holds at `(n, q)` the stack's entry
  `(l, n, q)`.  Both are the row-major positions of the two shapes compared, and the slice's offset added on its axis.
-/
import Idealize.ShloMosaic.Lib.Pipeline.Value
import Idealize.ShloMosaic.Lib.ValueIdx

namespace Idealize.ShloMosaic.StackSlice

open Idealize.ShloMosaic Idealize.ShloMosaic.ValueIdx

variable {α : Type}

/-- Row `l` of an `[L, Q]` array, sliced out, flattened and written as one row: entry `(0, q)` is entry `(l, q)`. -/
theorem sliceRow_apply {L Q : ℕ} (l : ℕ) (hl : l < L) (b : (⟨2, ![L, Q]⟩ : Shape).Idx → α)
    (hs : (⟨2, ![L, Q]⟩ : Shape).Slices ![l, 0] ⟨2, ![1, Q]⟩)
    (h1 : (⟨2, ![1, Q]⟩ : Shape).ShapeCasts ⟨1, ![Q]⟩) (h2 : (⟨1, ![Q]⟩ : Shape).ShapeCasts ⟨2, ![1, Q]⟩)
    (j : (⟨2, ![1, Q]⟩ : Shape).Idx) :
    shapeCast ⟨2, ![1, Q]⟩ (shapeCast ⟨1, ![Q]⟩ (extractStridedSlice ⟨2, ![1, Q]⟩ ![l, 0] b hs) h1) h2 j
      = b (ix2 ⟨l, hl⟩ (j 1)) := by
  have h0 : (j 0).val < 1 := (j 0).isLt
  refine (shapeCast_apply _ h2 j (ix1 (j 1)) ?_).trans ?_
  · rw [Shape.rowMajor_val_two, Shape.rowMajor_val_one]
    show (j 1).val = (j 0).val * Q + (j 1).val
    have : (j 0).val = 0 := by omega
    rw [this, Nat.zero_mul, Nat.zero_add]
  refine (shapeCast_apply _ h1 (ix1 (j 1)) (ix2 (0 : Fin 1) (j 1)) ?_).trans ?_
  · rw [Shape.rowMajor_val_two, Shape.rowMajor_val_one]
    show (0 : ℕ) * Q + (j 1).val = (j 1).val
    rw [Nat.zero_mul, Nat.zero_add]
  refine extractStridedSlice_apply _ b hs _ (ix2 ⟨l, hl⟩ (j 1)) fun a => ?_
  match a with
  | ⟨0, _⟩ => rfl
  | ⟨1, _⟩ => exact (Nat.zero_add _).symm

/-- Matrix `l` of an `[L, N, Q]` array, sliced out and written as `[N, Q]`: entry `(n, q)` is entry `(l, n, q)`. -/
theorem sliceMat_apply {L N Q : ℕ} (l : ℕ) (hl : l < L) (w : (⟨3, ![L, N, Q]⟩ : Shape).Idx → α)
    (hs : (⟨3, ![L, N, Q]⟩ : Shape).Slices ![l, 0, 0] ⟨3, ![1, N, Q]⟩)
    (h : (⟨3, ![1, N, Q]⟩ : Shape).ShapeCasts ⟨2, ![N, Q]⟩) (j : (⟨2, ![N, Q]⟩ : Shape).Idx) :
    shapeCast ⟨2, ![N, Q]⟩ (extractStridedSlice ⟨3, ![1, N, Q]⟩ ![l, 0, 0] w hs) h j = w (ix3 ⟨l, hl⟩ (j 0) (j 1)) := by
  refine (shapeCast_apply _ h j (ix3 (0 : Fin 1) (j 0) (j 1)) ?_).trans ?_
  · rw [Shape.rowMajor_val_three, Shape.rowMajor_val_two]
    show ((0 : ℕ) * N + (j 0).val) * Q + (j 1).val = (j 0).val * Q + (j 1).val
    rw [Nat.zero_mul, Nat.zero_add]
  refine extractStridedSlice_apply _ w hs _ (ix3 ⟨l, hl⟩ (j 0) (j 1)) fun a => ?_
  match a with
  | ⟨0, _⟩ => rfl
  | ⟨1, _⟩ => exact (Nat.zero_add _).symm
  | ⟨2, _⟩ => exact (Nat.zero_add _).symm

end Idealize.ShloMosaic.StackSlice
-- ==== Proof.KerGlue.lean ====
/-
  The host operations between the regions, as functions of arrays, and the readings of the parameters.

  Between two regions the program runs a stretch of host operations.  Three computations in those stretches act on
  full-size arrays: the reciprocal of every node's in-degree (`invCntK`: ones added up by destination, the count
  compared with zero, its maximum with one inverted, zero where the count is zero, written as a column), the rows of the
  node array gathered by source and joined to the edge attributes (`gatherCatK`: a negative index is first moved up by
  the number of nodes), and the messages added up by destination and multiplied by the column of reciprocals
  (`aggK`).  Each is written here once, as the composition of the operations in the order the program applies them,
  and is used as one function from then on.

  The remaining operations only re-lay parameters: a vector `[Q]` written as one row is `rowVec`; layer `l` of a stack
  of vectors, sliced out, flattened and written as one row, is `rowVec (sliceVec l ·)`; layer `l` of a stack of matrices,
  sliced out and written as a matrix, is `sliceMat l ·`.

  `netDepthK` and `netVelocityK` are the whole network over these: the encoder, three layers of message passing, and
  the two output heads.
-/
import proofs.«104585_j29386166239380_1_alg».proof.Proof.Gen.KernelIdeal.Launch
import proofs.«104585_j29386166239380_1_alg».proof.Proof.Layers
import proofs.«104585_j29386166239380_1_alg».proof.Proof.LibStackSlice

noncomputable section

namespace Cert.KernelIdeal.FoldValue

open Idealize.ShloMosaic Idealize.ShloMosaic.ValueIdx Idealize.ShloMosaic.RowLocal Idealize.ShloMosaic.RowLayout
open Idealize.ShloMosaic.StackSlice
open Cert.Layers Cert.KernelIdeal Cert.KernelIdeal.Gen

/-! ## The index rows -/

/-- Row 0 of the pair of index rows (the sources), as a vector. -/
def srcRowK (ei : IVec S2x800000 32) : IVec S800000 32 :=
  shapeCast S800000 (extractStridedSlice S1x800000 ![0, 0] ei slices_S2x800000_S1x800000_0_0) shapeCasts_S1x800000_S800000

/-- Row 1 of the pair of index rows (the destinations), as a vector. -/
def dstRowK (ei : IVec S2x800000 32) : IVec S800000 32 :=
  shapeCast S800000 (extractStridedSlice S1x800000 ![1, 0] ei slices_S2x800000_S1x800000_1_0) shapeCasts_S1x800000_S800000

/-! ## The three computations on full-size arrays -/

/-- The column of reciprocal in-degrees, from the row of destinations. -/
def invCntRowK (dst : IVec S800000 32) : FVec Ideal S50000x1 .f32 :=
  broadcastInDim S50000x1 ![0] bcast_S50000_S50000x1_0
    (select
      (cmpf (F := Ideal) .ogt
        (Host.scatterAdd (F := Ideal) scatter_S50000_S800000x1_S800000_n_0_0_1
          (broadcastInDim S50000 ![] bcast_S_S50000 (constant (F := Ideal) S_ .f32 0x00000000#32))
          (broadcastInDim S800000x1 ![0] bcast_S800000_S800000x1_0 dst)
          (broadcastInDim S800000 ![] bcast_S_S800000 (constant (F := Ideal) S_ .f32 0x3F800000#32)))
        (broadcastInDim S50000 ![] bcast_S_S50000 (constant (F := Ideal) S_ .f32 0x00000000#32)))
      (Host.divf (F := Ideal) (broadcastInDim S50000 ![] bcast_S_S50000 (constant (F := Ideal) S_ .f32 0x3F800000#32))
        (maximumf (F := Ideal)
          (Host.scatterAdd (F := Ideal) scatter_S50000_S800000x1_S800000_n_0_0_1
            (broadcastInDim S50000 ![] bcast_S_S50000 (constant (F := Ideal) S_ .f32 0x00000000#32))
            (broadcastInDim S800000x1 ![0] bcast_S800000_S800000x1_0 dst)
            (broadcastInDim S800000 ![] bcast_S_S800000 (constant (F := Ideal) S_ .f32 0x3F800000#32)))
          (broadcastInDim S50000 ![] bcast_S_S50000 (constant (F := Ideal) S_ .f32 0x3F800000#32))))
      (broadcastInDim S50000 ![] bcast_S_S50000 (id (constant (F := Ideal) S_ .f32 0x00000000#32))))

/-- The column of reciprocal in-degrees, from the pair of index rows. -/
def invCntK (ei : IVec S2x800000 32) : FVec Ideal S50000x1 .f32 := invCntRowK (dstRowK ei)

/-- The rows of `h` gathered by source, joined to the edge attributes; from the row of sources. -/
def gatherCatRowK (h : FVec Ideal S50000x64 .f32) (src : IVec S800000 32) (ea : FVec Ideal S800000x3 .f32) :
    FVec Ideal S800000x67 .f32 :=
  concatenate S800000x67 1
    [⟨S800000x64, Host.gather gather_S50000x64_S800000x1_S800000x64_1_0_n_n_0_1_164 h
        (broadcastInDim S800000x1 ![0] bcast_S800000_S800000x1_0
          (select (cmpi .slt src (broadcastInDim S800000 ![] bcast_S_S800000 (constantI S_ 32 0#32)))
            (addi src (broadcastInDim S800000 ![] bcast_S_S800000 (constantI S_ 32 50000#32)))
            src))⟩,
     ⟨S800000x3, ea⟩] concatenates_S800000x64_S800000x3_S800000x67_d1

/-- The rows of `h` gathered by source, joined to the edge attributes; from the pair of index rows. -/
def gatherCatK (h : FVec Ideal S50000x64 .f32) (ei : IVec S2x800000 32) (ea : FVec Ideal S800000x3 .f32) :
    FVec Ideal S800000x67 .f32 := gatherCatRowK h (srcRowK ei) ea

/-- The messages added up by destination, times the column of reciprocals; from the row of destinations. -/
def aggRowK (msg : FVec Ideal S800000x64 .f32) (dst : IVec S800000 32) (invc : FVec Ideal S50000x1 .f32) :
    FVec Ideal S50000x64 .f32 :=
  mulf (F := Ideal)
    (Host.scatterAdd (F := Ideal) scatter_S50000x64_S800000x1_S800000x64_1_0_0_1
      (broadcastInDim S50000x64 ![] bcast_S_S50000x64 (constant (F := Ideal) S_ .f32 0x00000000#32))
      (broadcastInDim S800000x1 ![0] bcast_S800000_S800000x1_0 dst)
      msg)
    (broadcastInDim S50000x64 ![0, 1] bcast_S50000x1_S50000x64_0_1 invc)

/-- The messages added up by destination, times the column of reciprocals; from the pair of index rows. -/
def aggK (msg : FVec Ideal S800000x64 .f32) (ei : IVec S2x800000 32) (invc : FVec Ideal S50000x1 .f32) :
    FVec Ideal S50000x64 .f32 := aggRowK msg (dstRowK ei) invc

/-! ## The readings of the parameters -/

/-- A vector written as one row. -/
theorem reshape_eq_rowVec {Q : ℕ} (b : Vct Q) (hc : (⟨1, ![Q]⟩ : Shape).ShapeCasts ⟨2, ![1, Q]⟩) :
    shapeCast ⟨2, ![1, Q]⟩ b hc = rowVec b :=
  funext fun j => reshape_row_apply b hc j

/-- Layer `l` of a stack of vectors, sliced out, flattened and written as one row. -/
theorem sliceRow_eq {L Q : ℕ} (l : ℕ) (hl : l < L) (b : Mat L Q)
    (hs : (⟨2, ![L, Q]⟩ : Shape).Slices ![l, 0] ⟨2, ![1, Q]⟩)
    (h1 : (⟨2, ![1, Q]⟩ : Shape).ShapeCasts ⟨1, ![Q]⟩) (h2 : (⟨1, ![Q]⟩ : Shape).ShapeCasts ⟨2, ![1, Q]⟩) :
    shapeCast ⟨2, ![1, Q]⟩ (shapeCast ⟨1, ![Q]⟩ (extractStridedSlice ⟨2, ![1, Q]⟩ ![l, 0] b hs) h1) h2
      = rowVec (sliceVec ⟨l, hl⟩ b) :=
  funext fun j => sliceRow_apply l hl b hs h1 h2 j

/-- Layer `l` of a stack of matrices, sliced out and written as a matrix. -/
theorem sliceMat_eq {L N Q : ℕ} (l : ℕ) (hl : l < L) (w : (⟨3, ![L, N, Q]⟩ : Shape).Idx → EReal)
    (hs : (⟨3, ![L, N, Q]⟩ : Shape).Slices ![l, 0, 0] ⟨3, ![1, N, Q]⟩)
    (h : (⟨3, ![1, N, Q]⟩ : Shape).ShapeCasts ⟨2, ![N, Q]⟩) :
    shapeCast ⟨2, ![N, Q]⟩ (extractStridedSlice ⟨3, ![1, N, Q]⟩ ![l, 0, 0] w hs) h = sliceMat ⟨l, hl⟩ w :=
  funext fun j => sliceMat_apply l hl w hs h j

/-! ## The network -/

section Net

variable (a0 : Mat 50000 16) (a1 : IVec S2x800000 32) (a2 : Mat 800000 3) (a3 : Mat 16 64) (a4 a5 a6 : Vct 64)
  (a7 : (⟨3, ![3, 67, 32]⟩ : Shape).Idx → EReal) (a8 : Mat 3 32) (a9 : (⟨3, ![3, 32, 64]⟩ : Shape).Idx → EReal)
  (a10 a11 a12 : Mat 3 64)
  (a13 : Mat 64 32) (a14 : Vct 32) (a15 : Mat 32 1) (a16 : Vct 1)
  (a17 : Mat 64 32) (a18 : Vct 32) (a19 : Mat 32 2) (a20 : Vct 2)

/-- The encoder's output. -/
def encK : Mat 50000 64 := encodeR a0 a3 (rowVec a4) (rowVec a5) (rowVec a6)

/-- The messages of layer `l` from the node array `h`. -/
def msgK (l : Fin 3) (h : Mat 50000 64) : Mat 800000 64 :=
  mlpR (gatherCatK h a1 a2) (sliceMat l a7) (rowVec (sliceVec l a8)) (sliceMat l a9) (rowVec (sliceVec l a10))

/-- Layer `l` of message passing applied to the node array `h`. -/
def layerK (l : Fin 3) (h : Mat 50000 64) : Mat 50000 64 :=
  nodeR h (aggK (msgK a1 a2 a7 a8 a9 a10 l h) a1 (invCntK a1)) (rowVec (sliceVec l a11)) (rowVec (sliceVec l a12))

/-- The node array after the three layers. -/
def trunkK : Mat 50000 64 :=
  layerK a1 a2 a7 a8 a9 a10 a11 a12 2
    (layerK a1 a2 a7 a8 a9 a10 a11 a12 1
      (layerK a1 a2 a7 a8 a9 a10 a11 a12 0 (encK a0 a3 a4 a5 a6)))

/-- The first output head. -/
def netDepthK : Mat 50000 1 :=
  mlpR (trunkK a0 a1 a2 a3 a4 a5 a6 a7 a8 a9 a10 a11 a12) a13 (rowVec a14) a15 (rowVec a16)

/-- The second output head. -/
def netVelocityK : Mat 50000 2 :=
  mlpR (trunkK a0 a1 a2 a3 a4 a5 a6 a7 a8 a9 a10 a11 a12) a17 (rowVec a18) a19 (rowVec a20)

end Net

end Cert.KernelIdeal.FoldValue

end
-- ==== Proof.LibHostEval.lean ====
/-
  Reading a buffer after a line of host operations, when the line joins two or three arrays.

  A host line that takes a family of operands (a `concatenate`) is printed `nary ![a, b] …` or `nary ![a, b, c] …`. What
  its result buffer holds afterwards is its function of the operands' contents, operand `k` read at the reference
  `![a, b, c] k`: a lookup in a literal vector, not yet a literal reference, so a pass that computes a buffer's contents
  operation by operation has nothing to say about what the EARLIER lines left there and stops. Computing the lookup
  (`![a, b, c] 1` is `b`, by definition) gives the literal reference back. The joined pieces themselves sit in a list of
  (shape, array) pairs whose shapes also type the join's side condition, where a rewriting pass does not descend; written
  as a plain function of its pieces (`join2`, `join3`: the same array, by definition) the join lets the pass through.
  `host_line_results` alternates the lookups and the pass until the contents are a term over the launch contents of the
  arguments.
-/
import Idealize.ShloMosaic.Lib.StableHlo.Run

noncomputable section

namespace Idealize.ShloMosaic.StableHlo

/-! A literal vector of two or three entries, read at a literal position: the entry there, by definition. -/

theorem vec2_at0 {α : Type _} (a b : α) : (![a, b] : Fin 2 → α) 0 = a := rfl
theorem vec2_at1 {α : Type _} (a b : α) : (![a, b] : Fin 2 → α) 1 = b := rfl
theorem vec3_at0 {α : Type _} (a b c : α) : (![a, b, c] : Fin 3 → α) 0 = a := rfl
theorem vec3_at1 {α : Type _} (a b c : α) : (![a, b, c] : Fin 3 → α) 1 = b := rfl
theorem vec3_at2 {α : Type _} (a b c : α) : (![a, b, c] : Fin 3 → α) 2 = c := rfl

/-! Two or three arrays joined along an axis, as a function of the pieces. -/

/-- Two arrays joined along axis `a`. -/
def join2 {α : Type _} (t : Shape) (a : Fin t.rank) (s0 s1 : Shape) (h : Shape.Concatenates [s0, s1] t a)
    (x0 : s0.Idx → α) (x1 : s1.Idx → α) : t.Idx → α :=
  concatenate t a [⟨s0, x0⟩, ⟨s1, x1⟩] h

/-- Three arrays joined along axis `a`. -/
def join3 {α : Type _} (t : Shape) (a : Fin t.rank) (s0 s1 s2 : Shape) (h : Shape.Concatenates [s0, s1, s2] t a)
    (x0 : s0.Idx → α) (x1 : s1.Idx → α) (x2 : s2.Idx → α) : t.Idx → α :=
  concatenate t a [⟨s0, x0⟩, ⟨s1, x1⟩, ⟨s2, x2⟩] h

theorem join2_fold {α : Type _} (t : Shape) (a : Fin t.rank) (s0 s1 : Shape) (h : Shape.Concatenates [s0, s1] t a)
    (x0 : s0.Idx → α) (x1 : s1.Idx → α) : concatenate t a [⟨s0, x0⟩, ⟨s1, x1⟩] h = join2 t a s0 s1 h x0 x1 := rfl

theorem join3_fold {α : Type _} (t : Shape) (a : Fin t.rank) (s0 s1 s2 : Shape) (h : Shape.Concatenates [s0, s1, s2] t a)
    (x0 : s0.Idx → α) (x1 : s1.Idx → α) (x2 : s2.Idx → α) :
    concatenate t a [⟨s0, x0⟩, ⟨s1, x1⟩, ⟨s2, x2⟩] h = join3 t a s0 s1 s2 h x0 x1 x2 := rfl

/-- One pass: each operation's result at its own buffer is its function of its operands' contents, and at any other
    buffer what was there (the two references told apart by `decide`); a join of two or three pieces is written as the
    function of its pieces. -/
macro "host_line_pass" : tactic =>
  `(tactic| (simp (disch := decide) only [after_cons, after_nil,
      nullary_result', unary_result', binary_result', ternary_result', quaternary_result', reshape_result',
      nary_result', unaryIndexed_result', binaryIndexed_result',
      nullary_result_ne', unary_result_ne', binary_result_ne', ternary_result_ne', quaternary_result_ne', reshape_result_ne',
      nary_result_ne', unaryIndexed_result_ne', binaryIndexed_result_ne', join2_fold, join3_fold]))

/-- The contents of one buffer after a literal line of operations: the pass, then, as long as a family's operand is
    still read through a literal vector, that lookup computed and the pass again. -/
macro "host_line_results" : tactic =>
  `(tactic| (host_line_pass
             repeat (dsimp only [vec2_at0, vec2_at1, vec3_at0, vec3_at1, vec3_at2]; host_line_pass)))

end Idealize.ShloMosaic.StableHlo

end
-- ==== Proof.LibHostCast.lean ====
/-
  A value stored through a typed buffer reference and read back.

  A host operation's builder transports a value at the operation's stated type to the buffer's own type, and an
  operand's contents back; the two types are equal, so reading back what was stored gives the value.
-/
import Idealize.ShloMosaic.Lib.StableHlo

noncomputable section

namespace Idealize.ShloMosaic.HostCast

open Idealize.ShloMosaic Idealize.ShloMosaic.StableHlo

/-- Stored, then read back: the value. -/
theorem ofBuf_toBuf {sg : RefSig} {Val : EltTy → Type} {T : BufTy} (x : TRef sg T) (v : T.Contents Val) :
    x.ofBuf (x.toBuf v) = v := by
  obtain ⟨r, h, _, _⟩ := x
  subst h
  rfl

end Idealize.ShloMosaic.HostCast

end
-- ==== Proof.KerFoldHost.lean ====
/-
  What each stretch of host operations leaves in the buffers the regions read.

  For any contents `V` of the buffers when a stretch begins, the buffer a region will read holds afterwards the
  stretch's function of `V` at the stretch's operands: one of the three computations on full-size arrays
  (`invCntRowK`, `gatherCatRowK`, `aggRowK`), a row of the pair of index rows, or a re-laid parameter.
-/
import proofs.«104585_j29386166239380_1_alg».proof.Proof.Gen.KernelIdeal.Frame
import proofs.«104585_j29386166239380_1_alg».proof.Proof.KerGlue
import proofs.«104585_j29386166239380_1_alg».proof.Proof.LibHostEval
import proofs.«104585_j29386166239380_1_alg».proof.Proof.LibHostCast

set_option maxRecDepth 16384
set_option maxHeartbeats 1000000

noncomputable section

namespace Cert.KernelIdeal.FoldValue

open Idealize.ShloMosaic Idealize.ShloMosaic.TcCoe Idealize.ShloMosaic.Tactic Idealize.ShloMosaic.StableHlo
open Idealize.ShloMosaic.ValueIdx Idealize.ShloMosaic.RowLocal Idealize.ShloMosaic.RowNorm Idealize.ShloMosaic.HostCast
open Cert.Layers Cert.KernelIdeal Cert.KernelIdeal.Gen

/-- A value of one operand carried through typed references whose types are the buffers' own: the value. -/
theorem peel1 (x y : Ref sig .tc) (hx1 hx2 hy1 hy2)
    (f : x.ty.Contents (Elt Ideal) → y.ty.Contents (Elt Ideal)) (u : x.ty.Contents (Elt Ideal)) :
    (TRef.of (T := y.ty) y rfl hy1 hy2).toBuf (f ((TRef.of (T := x.ty) x rfl hx1 hx2).ofBuf u)) = f u := rfl

/-- The same for three operands. -/
theorem peel3 (x1 x2 x3 y : Ref sig .tc) (h11 h12 h21 h22 h31 h32 hy1 hy2)
    (f : x1.ty.Contents (Elt Ideal) → x2.ty.Contents (Elt Ideal) → x3.ty.Contents (Elt Ideal) → y.ty.Contents (Elt Ideal))
    (u1 : x1.ty.Contents (Elt Ideal)) (u2 : x2.ty.Contents (Elt Ideal)) (u3 : x3.ty.Contents (Elt Ideal)) :
    (TRef.of (T := y.ty) y rfl hy1 hy2).toBuf
      (f ((TRef.of (T := x1.ty) x1 rfl h11 h12).ofBuf u1) ((TRef.of (T := x2.ty) x2 rfl h21 h22).ofBuf u2)
        ((TRef.of (T := x3.ty) x3 rfl h31 h32).ofBuf u3)) = f u1 u2 u3 := rfl

variable (V : Valuation τ sig (Elt Ideal))

/-! ## Stretch 0 -/

theorem host0_v1 : StableHlo.after (hostOps0 (F := Ideal)) V (Proc.devRef .tc main_call0_v1) = srcRowK (V (Proc.devRef .tc main_arg1)) := by
  host_line_results
  rfl

theorem host0_v3 : StableHlo.after (hostOps0 (F := Ideal)) V (Proc.devRef .tc main_call0_v3) = dstRowK (V (Proc.devRef .tc main_arg1)) := by
  host_line_results
  rfl

theorem host0_v4 : StableHlo.after (hostOps0 (F := Ideal)) V (Proc.devRef .tc main_call0_v4) = rowVec (V (Proc.devRef .tc main_arg4)) := by
  host_line_results
  exact reshape_eq_rowVec (V (Proc.devRef .tc main_arg4)) shapeCasts_S64_S1x64

theorem host0_v5 : StableHlo.after (hostOps0 (F := Ideal)) V (Proc.devRef .tc main_call0_v5) = rowVec (V (Proc.devRef .tc main_arg5)) := by
  host_line_results
  exact reshape_eq_rowVec (V (Proc.devRef .tc main_arg5)) shapeCasts_S64_S1x64

theorem host0_v6 : StableHlo.after (hostOps0 (F := Ideal)) V (Proc.devRef .tc main_call0_v6) = rowVec (V (Proc.devRef .tc main_arg6)) := by
  host_line_results
  exact reshape_eq_rowVec (V (Proc.devRef .tc main_arg6)) shapeCasts_S64_S1x64

/-! ## Stretch 1 -/

theorem host1_v27 : StableHlo.after (hostOps1 (F := Ideal)) V (Proc.devRef .tc main_call0_v27)
    = gatherCatRowK (V (Proc.devRef .tc main_call0_v7)) (V (Proc.devRef .tc main_call0_v1)) (V (Proc.devRef .tc main_arg2)) := by
  have e : StableHlo.after (hostOps1 (F := Ideal)) V (Proc.devRef .tc main_call0_v27)
      = (TRef.of main_call0_v27 : TRef sig ⟨S800000x67, .f32⟩).toBuf
          (gatherCatRowK ((TRef.of main_call0_v7 : TRef sig ⟨S50000x64, .f32⟩).ofBuf (V (Proc.devRef .tc main_call0_v7)))
            ((TRef.of main_call0_v1 : TRef sig ⟨S800000, .i32⟩).ofBuf (V (Proc.devRef .tc main_call0_v1)))
            ((TRef.of main_arg2 : TRef sig ⟨S800000x3, .f32⟩).ofBuf (V (Proc.devRef .tc main_arg2)))) := by
    host_line_results
    simp only [ofBuf_toBuf]
    rfl
  exact e.trans (peel3 main_call0_v7 main_call0_v1 main_arg2 main_call0_v27 (by decide) rfl (by decide) rfl (by decide) rfl (by decide) rfl gatherCatRowK _ _ _)

theorem host1_v19 : StableHlo.after (hostOps1 (F := Ideal)) V (Proc.devRef .tc main_call0_v19)
    = invCntRowK (V (Proc.devRef .tc main_call0_v3)) := by
  have e : StableHlo.after (hostOps1 (F := Ideal)) V (Proc.devRef .tc main_call0_v19)
      = (TRef.of main_call0_v19 : TRef sig ⟨S50000x1, .f32⟩).toBuf
          (invCntRowK ((TRef.of main_call0_v3 : TRef sig ⟨S800000, .i32⟩).ofBuf (V (Proc.devRef .tc main_call0_v3)))) := by
    host_line_results
    simp only [ofBuf_toBuf]
    rfl
  exact e.trans (peel1 main_call0_v3 main_call0_v19 (by decide) rfl (by decide) rfl invCntRowK _)

theorem host1_v30 : StableHlo.after (hostOps1 (F := Ideal)) V (Proc.devRef .tc main_call0_v30)
    = rowVec (sliceVec 0 (V (Proc.devRef .tc main_arg8))) := by
  host_line_results
  exact sliceRow_eq 0 (by decide) (V (Proc.devRef .tc main_arg8)) slices_S3x32_S1x32_0_0 shapeCasts_S1x32_S32 shapeCasts_S32_S1x32

theorem host1_v33 : StableHlo.after (hostOps1 (F := Ideal)) V (Proc.devRef .tc main_call0_v33)
    = rowVec (sliceVec 0 (V (Proc.devRef .tc main_arg10))) := by
  host_line_results
  exact sliceRow_eq 0 (by decide) (V (Proc.devRef .tc main_arg10)) slices_S3x64_S1x64_0_0 shapeCasts_S1x64_S64 shapeCasts_S64_S1x64

theorem host1_v35 : StableHlo.after (hostOps1 (F := Ideal)) V (Proc.devRef .tc main_call0_v35)
    = sliceMat 0 (V (Proc.devRef .tc main_arg7)) := by
  host_line_results
  exact sliceMat_eq 0 (by decide) (V (Proc.devRef .tc main_arg7)) slices_S3x67x32_S1x67x32_0_0_0 shapeCasts_S1x67x32_S67x32

theorem host1_v37 : StableHlo.after (hostOps1 (F := Ideal)) V (Proc.devRef .tc main_call0_v37)
    = sliceMat 0 (V (Proc.devRef .tc main_arg9)) := by
  host_line_results
  exact sliceMat_eq 0 (by decide) (V (Proc.devRef .tc main_arg9)) slices_S3x32x64_S1x32x64_0_0_0 shapeCasts_S1x32x64_S32x64

/-! ## Stretch 2 -/

theorem host2_v43 : StableHlo.after (hostOps2 (F := Ideal)) V (Proc.devRef .tc main_call0_v43)
    = aggRowK (V (Proc.devRef .tc main_call0_v38)) (V (Proc.devRef .tc main_call0_v3)) (V (Proc.devRef .tc main_call0_v19)) := by
  have e : StableHlo.after (hostOps2 (F := Ideal)) V (Proc.devRef .tc main_call0_v43)
      = (TRef.of main_call0_v43 : TRef sig ⟨S50000x64, .f32⟩).toBuf
          (aggRowK ((TRef.of main_call0_v38 : TRef sig ⟨S800000x64, .f32⟩).ofBuf (V (Proc.devRef .tc main_call0_v38)))
            ((TRef.of main_call0_v3 : TRef sig ⟨S800000, .i32⟩).ofBuf (V (Proc.devRef .tc main_call0_v3)))
            ((TRef.of main_call0_v19 : TRef sig ⟨S50000x1, .f32⟩).ofBuf (V (Proc.devRef .tc main_call0_v19)))) := by
    host_line_results
    simp only [ofBuf_toBuf]
    rfl
  exact e.trans (peel3 main_call0_v38 main_call0_v3 main_call0_v19 main_call0_v43 (by decide) rfl (by decide) rfl (by decide) rfl (by decide) rfl aggRowK _ _ _)

theorem host2_v46 : StableHlo.after (hostOps2 (F := Ideal)) V (Proc.devRef .tc main_call0_v46)
    = rowVec (sliceVec 0 (V (Proc.devRef .tc main_arg11))) := by
  host_line_results
  exact sliceRow_eq 0 (by decide) (V (Proc.devRef .tc main_arg11)) slices_S3x64_S1x64_0_0 shapeCasts_S1x64_S64 shapeCasts_S64_S1x64

theorem host2_v49 : StableHlo.after (hostOps2 (F := Ideal)) V (Proc.devRef .tc main_call0_v49)
    = rowVec (sliceVec 0 (V (Proc.devRef .tc main_arg12))) := by
  host_line_results
  exact sliceRow_eq 0 (by decide) (V (Proc.devRef .tc main_arg12)) slices_S3x64_S1x64_0_0 shapeCasts_S1x64_S64 shapeCasts_S64_S1x64

/-! ## Stretch 3 -/

theorem host3_v58 : StableHlo.after (hostOps3 (F := Ideal)) V (Proc.devRef .tc main_call0_v58)
    = gatherCatRowK (V (Proc.devRef .tc main_call0_v50)) (V (Proc.devRef .tc main_call0_v1)) (V (Proc.devRef .tc main_arg2)) := by
  have e : StableHlo.after (hostOps3 (F := Ideal)) V (Proc.devRef .tc main_call0_v58)
      = (TRef.of main_call0_v58 : TRef sig ⟨S800000x67, .f32⟩).toBuf
          (gatherCatRowK ((TRef.of main_call0_v50 : TRef sig ⟨S50000x64, .f32⟩).ofBuf (V (Proc.devRef .tc main_call0_v50)))
            ((TRef.of main_call0_v1 : TRef sig ⟨S800000, .i32⟩).ofBuf (V (Proc.devRef .tc main_call0_v1)))
            ((TRef.of main_arg2 : TRef sig ⟨S800000x3, .f32⟩).ofBuf (V (Proc.devRef .tc main_arg2)))) := by
    host_line_results
    simp only [ofBuf_toBuf]
    rfl
  exact e.trans (peel3 main_call0_v50 main_call0_v1 main_arg2 main_call0_v58 (by decide) rfl (by decide) rfl (by decide) rfl (by decide) rfl gatherCatRowK _ _ _)

theorem host3_v61 : StableHlo.after (hostOps3 (F := Ideal)) V (Proc.devRef .tc main_call0_v61)
    = rowVec (sliceVec 1 (V (Proc.devRef .tc main_arg8))) := by
  host_line_results
  exact sliceRow_eq 1 (by decide) (V (Proc.devRef .tc main_arg8)) slices_S3x32_S1x32_1_0 shapeCasts_S1x32_S32 shapeCasts_S32_S1x32

theorem host3_v64 : StableHlo.after (hostOps3 (F := Ideal)) V (Proc.devRef .tc main_call0_v64)
    = rowVec (sliceVec 1 (V (Proc.devRef .tc main_arg10))) := by
  host_line_results
  exact sliceRow_eq 1 (by decide) (V (Proc.devRef .tc main_arg10)) slices_S3x64_S1x64_1_0 shapeCasts_S1x64_S64 shapeCasts_S64_S1x64

theorem host3_v66 : StableHlo.after (hostOps3 (F := Ideal)) V (Proc.devRef .tc main_call0_v66)
    = sliceMat 1 (V (Proc.devRef .tc main_arg7)) := by
  host_line_results
  exact sliceMat_eq 1 (by decide) (V (Proc.devRef .tc main_arg7)) slices_S3x67x32_S1x67x32_1_0_0 shapeCasts_S1x67x32_S67x32

theorem host3_v68 : StableHlo.after (hostOps3 (F := Ideal)) V (Proc.devRef .tc main_call0_v68)
    = sliceMat 1 (V (Proc.devRef .tc main_arg9)) := by
  host_line_results
  exact sliceMat_eq 1 (by decide) (V (Proc.devRef .tc main_arg9)) slices_S3x32x64_S1x32x64_1_0_0 shapeCasts_S1x32x64_S32x64

/-! ## Stretch 4 -/

theorem host4_v74 : StableHlo.after (hostOps4 (F := Ideal)) V (Proc.devRef .tc main_call0_v74)
    = aggRowK (V (Proc.devRef .tc main_call0_v69)) (V (Proc.devRef .tc main_call0_v3)) (V (Proc.devRef .tc main_call0_v19)) := by
  have e : StableHlo.after (hostOps4 (F := Ideal)) V (Proc.devRef .tc main_call0_v74)
      = (TRef.of main_call0_v74 : TRef sig ⟨S50000x64, .f32⟩).toBuf
          (aggRowK ((TRef.of main_call0_v69 : TRef sig ⟨S800000x64, .f32⟩).ofBuf (V (Proc.devRef .tc main_call0_v69)))
            ((TRef.of main_call0_v3 : TRef sig ⟨S800000, .i32⟩).ofBuf (V (Proc.devRef .tc main_call0_v3)))
            ((TRef.of main_call0_v19 : TRef sig ⟨S50000x1, .f32⟩).ofBuf (V (Proc.devRef .tc main_call0_v19)))) := by
    host_line_results
    simp only [ofBuf_toBuf]
    rfl
  exact e.trans (peel3 main_call0_v69 main_call0_v3 main_call0_v19 main_call0_v74 (by decide) rfl (by decide) rfl (by decide) rfl (by decide) rfl aggRowK _ _ _)

theorem host4_v77 : StableHlo.after (hostOps4 (F := Ideal)) V (Proc.devRef .tc main_call0_v77)
    = rowVec (sliceVec 1 (V (Proc.devRef .tc main_arg11))) := by
  host_line_results
  exact sliceRow_eq 1 (by decide) (V (Proc.devRef .tc main_arg11)) slices_S3x64_S1x64_1_0 shapeCasts_S1x64_S64 shapeCasts_S64_S1x64

theorem host4_v80 : StableHlo.after (hostOps4 (F := Ideal)) V (Proc.devRef .tc main_call0_v80)
    = rowVec (sliceVec 1 (V (Proc.devRef .tc main_arg12))) := by
  host_line_results
  exact sliceRow_eq 1 (by decide) (V (Proc.devRef .tc main_arg12)) slices_S3x64_S1x64_1_0 shapeCasts_S1x64_S64 shapeCasts_S64_S1x64

/-! ## Stretch 5 -/

theorem host5_v89 : StableHlo.after (hostOps5 (F := Ideal)) V (Proc.devRef .tc main_call0_v89)
    = gatherCatRowK (V (Proc.devRef .tc main_call0_v81)) (V (Proc.devRef .tc main_call0_v1)) (V (Proc.devRef .tc main_arg2)) := by
  have e : StableHlo.after (hostOps5 (F := Ideal)) V (Proc.devRef .tc main_call0_v89)
      = (TRef.of main_call0_v89 : TRef sig ⟨S800000x67, .f32⟩).toBuf
          (gatherCatRowK ((TRef.of main_call0_v81 : TRef sig ⟨S50000x64, .f32⟩).ofBuf (V (Proc.devRef .tc main_call0_v81)))
            ((TRef.of main_call0_v1 : TRef sig ⟨S800000, .i32⟩).ofBuf (V (Proc.devRef .tc main_call0_v1)))
            ((TRef.of main_arg2 : TRef sig ⟨S800000x3, .f32⟩).ofBuf (V (Proc.devRef .tc main_arg2)))) := by
    host_line_results
    simp only [ofBuf_toBuf]
    rfl
  exact e.trans (peel3 main_call0_v81 main_call0_v1 main_arg2 main_call0_v89 (by decide) rfl (by decide) rfl (by decide) rfl (by decide) rfl gatherCatRowK _ _ _)

theorem host5_v92 : StableHlo.after (hostOps5 (F := Ideal)) V (Proc.devRef .tc main_call0_v92)
    = rowVec (sliceVec 2 (V (Proc.devRef .tc main_arg8))) := by
  host_line_results
  exact sliceRow_eq 2 (by decide) (V (Proc.devRef .tc main_arg8)) slices_S3x32_S1x32_2_0 shapeCasts_S1x32_S32 shapeCasts_S32_S1x32

theorem host5_v95 : StableHlo.after (hostOps5 (F := Ideal)) V (Proc.devRef .tc main_call0_v95)
    = rowVec (sliceVec 2 (V (Proc.devRef .tc main_arg10))) := by
  host_line_results
  exact sliceRow_eq 2 (by decide) (V (Proc.devRef .tc main_arg10)) slices_S3x64_S1x64_2_0 shapeCasts_S1x64_S64 shapeCasts_S64_S1x64

theorem host5_v97 : StableHlo.after (hostOps5 (F := Ideal)) V (Proc.devRef .tc main_call0_v97)
    = sliceMat 2 (V (Proc.devRef .tc main_arg7)) := by
  host_line_results
  exact sliceMat_eq 2 (by decide) (V (Proc.devRef .tc main_arg7)) slices_S3x67x32_S1x67x32_2_0_0 shapeCasts_S1x67x32_S67x32

theorem host5_v99 : StableHlo.after (hostOps5 (F := Ideal)) V (Proc.devRef .tc main_call0_v99)
    = sliceMat 2 (V (Proc.devRef .tc main_arg9)) := by
  host_line_results
  exact sliceMat_eq 2 (by decide) (V (Proc.devRef .tc main_arg9)) slices_S3x32x64_S1x32x64_2_0_0 shapeCasts_S1x32x64_S32x64

/-! ## Stretch 6 -/

theorem host6_v105 : StableHlo.after (hostOps6 (F := Ideal)) V (Proc.devRef .tc main_call0_v105)
    = aggRowK (V (Proc.devRef .tc main_call0_v100)) (V (Proc.devRef .tc main_call0_v3)) (V (Proc.devRef .tc main_call0_v19)) := by
  have e : StableHlo.after (hostOps6 (F := Ideal)) V (Proc.devRef .tc main_call0_v105)
      = (TRef.of main_call0_v105 : TRef sig ⟨S50000x64, .f32⟩).toBuf
          (aggRowK ((TRef.of main_call0_v100 : TRef sig ⟨S800000x64, .f32⟩).ofBuf (V (Proc.devRef .tc main_call0_v100)))
            ((TRef.of main_call0_v3 : TRef sig ⟨S800000, .i32⟩).ofBuf (V (Proc.devRef .tc main_call0_v3)))
            ((TRef.of main_call0_v19 : TRef sig ⟨S50000x1, .f32⟩).ofBuf (V (Proc.devRef .tc main_call0_v19)))) := by
    host_line_results
    simp only [ofBuf_toBuf]
    rfl
  exact e.trans (peel3 main_call0_v100 main_call0_v3 main_call0_v19 main_call0_v105 (by decide) rfl (by decide) rfl (by decide) rfl (by decide) rfl aggRowK _ _ _)

theorem host6_v108 : StableHlo.after (hostOps6 (F := Ideal)) V (Proc.devRef .tc main_call0_v108)
    = rowVec (sliceVec 2 (V (Proc.devRef .tc main_arg11))) := by
  host_line_results
  exact sliceRow_eq 2 (by decide) (V (Proc.devRef .tc main_arg11)) slices_S3x64_S1x64_2_0 shapeCasts_S1x64_S64 shapeCasts_S64_S1x64

theorem host6_v111 : StableHlo.after (hostOps6 (F := Ideal)) V (Proc.devRef .tc main_call0_v111)
    = rowVec (sliceVec 2 (V (Proc.devRef .tc main_arg12))) := by
  host_line_results
  exact sliceRow_eq 2 (by decide) (V (Proc.devRef .tc main_arg12)) slices_S3x64_S1x64_2_0 shapeCasts_S1x64_S64 shapeCasts_S64_S1x64

/-! ## Stretch 7 -/

theorem host7_v113 : StableHlo.after (hostOps7 (F := Ideal)) V (Proc.devRef .tc main_call0_v113) = rowVec (V (Proc.devRef .tc main_arg14)) := by
  host_line_results
  exact reshape_eq_rowVec (V (Proc.devRef .tc main_arg14)) shapeCasts_S32_S1x32

theorem host7_v114 : StableHlo.after (hostOps7 (F := Ideal)) V (Proc.devRef .tc main_call0_v114) = rowVec (V (Proc.devRef .tc main_arg16)) := by
  host_line_results
  exact reshape_eq_rowVec (V (Proc.devRef .tc main_arg16)) shapeCasts_S1_S1x1

theorem host7_v115 : StableHlo.after (hostOps7 (F := Ideal)) V (Proc.devRef .tc main_call0_v115) = rowVec (V (Proc.devRef .tc main_arg18)) := by
  host_line_results
  exact reshape_eq_rowVec (V (Proc.devRef .tc main_arg18)) shapeCasts_S32_S1x32

theorem host7_v116 : StableHlo.after (hostOps7 (F := Ideal)) V (Proc.devRef .tc main_call0_v116) = rowVec (V (Proc.devRef .tc main_arg20)) := by
  host_line_results
  exact reshape_eq_rowVec (V (Proc.devRef .tc main_arg20)) shapeCasts_S2_S1x2

end Cert.KernelIdeal.FoldValue

end
-- ==== Proof.KerFoldSteps.lean ====
/-
  A buffer that a stretch of host operations does not write keeps its contents.

  For each of the eight stretches of host operations between the regions, the list of the buffers the stretch writes
  (one per operation, its result), and the statement that any other buffer holds afterwards what it held before.
-/
import proofs.«104585_j29386166239380_1_alg».proof.Proof.Gen.KernelIdeal.Frame

set_option maxRecDepth 16384

noncomputable section

namespace Cert.KernelIdeal.FoldValue

open Idealize.ShloMosaic Idealize.ShloMosaic.TcCoe Idealize.ShloMosaic.StableHlo
open Cert.KernelIdeal Cert.KernelIdeal.Gen

variable {F : FTy → Type} [FloatOps F]

/-- The buffers stretch 0 writes. -/
def wr0 : List (Ref sig .tc) := [main_call0_v0, main_call0_v1, main_call0_v2, main_call0_v3, main_call0_v4, main_call0_v5, main_call0_v6]

theorem wr0_sub : (hostOps0 (F := F)).Forall fun op => op.writes ⊆ (wr0.map (Proc.devRef (τ := τ) .tc)).toFinset := by
  simp only [hostOps0, List.Forall, StableHlo.nullary_writes, StableHlo.unary_writes, StableHlo.binary_writes, StableHlo.ternary_writes, StableHlo.quaternary_writes, StableHlo.reshape_writes, StableHlo.binaryIndexed_writes, Finset.singleton_subset_iff, List.mem_toFinset]
  repeat' apply And.intro
  all_goals exact List.mem_map_of_mem (by decide)

/-- A buffer stretch 0 does not write holds afterwards what it held before. -/
theorem hstep0 (V : Valuation τ sig (Elt F)) (r : Ref sig .tc) (hr : r ∉ wr0) :
    StableHlo.after (hostOps0 (F := F)) V (Proc.devRef .tc r) = V (Proc.devRef .tc r) :=
  StableHlo.after_of_writes_sub _ V wr0_sub hr

/-- The buffers stretch 1 writes. -/
def wr1 : List (Ref sig .tc) := [main_call0_cst, main_call0_v8, main_call0_cst_0, main_call0_v9, main_call0_v10, main_call0_v11, main_call0_cst_1, main_call0_v12, main_call0_v13, main_call0_cst_2, main_call0_v14, main_call0_v15, main_call0_cst_3, main_call0_v16, main_call0_v17, main_call0_cst_4, main_call0_call0_v0, main_call0_call0_v1, main_call0_v18, main_call0_v19, main_call0_c, main_call0_v20, main_call0_v21, main_call0_c_5, main_call0_v22, main_call0_v23, main_call0_v24, main_call0_v25, main_call0_v26, main_call0_v27, main_call0_v28, main_call0_v29, main_call0_v30, main_call0_v31, main_call0_v32, main_call0_v33, main_call0_v34, main_call0_v35, main_call0_v36, main_call0_v37]

theorem wr1_sub : (hostOps1 (F := F)).Forall fun op => op.writes ⊆ (wr1.map (Proc.devRef (τ := τ) .tc)).toFinset := by
  simp only [hostOps1, List.Forall, StableHlo.nullary_writes, StableHlo.unary_writes, StableHlo.binary_writes, StableHlo.ternary_writes, StableHlo.quaternary_writes, StableHlo.reshape_writes, StableHlo.binaryIndexed_writes, Finset.singleton_subset_iff, List.mem_toFinset]
  repeat' apply And.intro
  all_goals exact List.mem_map_of_mem (by decide)

/-- A buffer stretch 1 does not write holds afterwards what it held before. -/
theorem hstep1 (V : Valuation τ sig (Elt F)) (r : Ref sig .tc) (hr : r ∉ wr1) :
    StableHlo.after (hostOps1 (F := F)) V (Proc.devRef .tc r) = V (Proc.devRef .tc r) :=
  StableHlo.after_of_writes_sub _ V wr1_sub hr

/-- The buffers stretch 2 writes. -/
def wr2 : List (Ref sig .tc) := [main_call0_cst_6, main_call0_v39, main_call0_v40, main_call0_v41, main_call0_v42, main_call0_v43, main_call0_v44, main_call0_v45, main_call0_v46, main_call0_v47, main_call0_v48, main_call0_v49]

theorem wr2_sub : (hostOps2 (F := F)).Forall fun op => op.writes ⊆ (wr2.map (Proc.devRef (τ := τ) .tc)).toFinset := by
  simp only [hostOps2, List.Forall, StableHlo.nullary_writes, StableHlo.unary_writes, StableHlo.binary_writes, StableHlo.ternary_writes, StableHlo.quaternary_writes, StableHlo.reshape_writes, StableHlo.binaryIndexed_writes, Finset.singleton_subset_iff, List.mem_toFinset]
  repeat' apply And.intro
  all_goals exact List.mem_map_of_mem (by decide)

/-- A buffer stretch 2 does not write holds afterwards what it held before. -/
theorem hstep2 (V : Valuation τ sig (Elt F)) (r : Ref sig .tc) (hr : r ∉ wr2) :
    StableHlo.after (hostOps2 (F := F)) V (Proc.devRef .tc r) = V (Proc.devRef .tc r) :=
  StableHlo.after_of_writes_sub _ V wr2_sub hr

/-- The buffers stretch 3 writes. -/
def wr3 : List (Ref sig .tc) := [main_call0_c_7, main_call0_v51, main_call0_v52, main_call0_c_8, main_call0_v53, main_call0_v54, main_call0_v55, main_call0_v56, main_call0_v57, main_call0_v58, main_call0_v59, main_call0_v60, main_call0_v61, main_call0_v62, main_call0_v63, main_call0_v64, main_call0_v65, main_call0_v66, main_call0_v67, main_call0_v68]

theorem wr3_sub : (hostOps3 (F := F)).Forall fun op => op.writes ⊆ (wr3.map (Proc.devRef (τ := τ) .tc)).toFinset := by
  simp only [hostOps3, List.Forall, StableHlo.nullary_writes, StableHlo.unary_writes, StableHlo.binary_writes, StableHlo.ternary_writes, StableHlo.quaternary_writes, StableHlo.reshape_writes, StableHlo.binaryIndexed_writes, Finset.singleton_subset_iff, List.mem_toFinset]
  repeat' apply And.intro
  all_goals exact List.mem_map_of_mem (by decide)

/-- A buffer stretch 3 does not write holds afterwards what it held before. -/
theorem hstep3 (V : Valuation τ sig (Elt F)) (r : Ref sig .tc) (hr : r ∉ wr3) :
    StableHlo.after (hostOps3 (F := F)) V (Proc.devRef .tc r) = V (Proc.devRef .tc r) :=
  StableHlo.after_of_writes_sub _ V wr3_sub hr

/-- The buffers stretch 4 writes. -/
def wr4 : List (Ref sig .tc) := [main_call0_cst_9, main_call0_v70, main_call0_v71, main_call0_v72, main_call0_v73, main_call0_v74, main_call0_v75, main_call0_v76, main_call0_v77, main_call0_v78, main_call0_v79, main_call0_v80]

theorem wr4_sub : (hostOps4 (F := F)).Forall fun op => op.writes ⊆ (wr4.map (Proc.devRef (τ := τ) .tc)).toFinset := by
  simp only [hostOps4, List.Forall, StableHlo.nullary_writes, StableHlo.unary_writes, StableHlo.binary_writes, StableHlo.ternary_writes, StableHlo.quaternary_writes, StableHlo.reshape_writes, StableHlo.binaryIndexed_writes, Finset.singleton_subset_iff, List.mem_toFinset]
  repeat' apply And.intro
  all_goals exact List.mem_map_of_mem (by decide)

/-- A buffer stretch 4 does not write holds afterwards what it held before. -/
theorem hstep4 (V : Valuation τ sig (Elt F)) (r : Ref sig .tc) (hr : r ∉ wr4) :
    StableHlo.after (hostOps4 (F := F)) V (Proc.devRef .tc r) = V (Proc.devRef .tc r) :=
  StableHlo.after_of_writes_sub _ V wr4_sub hr

/-- The buffers stretch 5 writes. -/
def wr5 : List (Ref sig .tc) := [main_call0_c_10, main_call0_v82, main_call0_v83, main_call0_c_11, main_call0_v84, main_call0_v85, main_call0_v86, main_call0_v87, main_call0_v88, main_call0_v89, main_call0_v90, main_call0_v91, main_call0_v92, main_call0_v93, main_call0_v94, main_call0_v95, main_call0_v96, main_call0_v97, main_call0_v98, main_call0_v99]

theorem wr5_sub : (hostOps5 (F := F)).Forall fun op => op.writes ⊆ (wr5.map (Proc.devRef (τ := τ) .tc)).toFinset := by
  simp only [hostOps5, List.Forall, StableHlo.nullary_writes, StableHlo.unary_writes, StableHlo.binary_writes, StableHlo.ternary_writes, StableHlo.quaternary_writes, StableHlo.reshape_writes, StableHlo.binaryIndexed_writes, Finset.singleton_subset_iff, List.mem_toFinset]
  repeat' apply And.intro
  all_goals exact List.mem_map_of_mem (by decide)

/-- A buffer stretch 5 does not write holds afterwards what it held before. -/
theorem hstep5 (V : Valuation τ sig (Elt F)) (r : Ref sig .tc) (hr : r ∉ wr5) :
    StableHlo.after (hostOps5 (F := F)) V (Proc.devRef .tc r) = V (Proc.devRef .tc r) :=
  StableHlo.after_of_writes_sub _ V wr5_sub hr

/-- The buffers stretch 6 writes. -/
def wr6 : List (Ref sig .tc) := [main_call0_cst_12, main_call0_v101, main_call0_v102, main_call0_v103, main_call0_v104, main_call0_v105, main_call0_v106, main_call0_v107, main_call0_v108, main_call0_v109, main_call0_v110, main_call0_v111]

theorem wr6_sub : (hostOps6 (F := F)).Forall fun op => op.writes ⊆ (wr6.map (Proc.devRef (τ := τ) .tc)).toFinset := by
  simp only [hostOps6, List.Forall, StableHlo.nullary_writes, StableHlo.unary_writes, StableHlo.binary_writes, StableHlo.ternary_writes, StableHlo.quaternary_writes, StableHlo.reshape_writes, StableHlo.binaryIndexed_writes, Finset.singleton_subset_iff, List.mem_toFinset]
  repeat' apply And.intro
  all_goals exact List.mem_map_of_mem (by decide)

/-- A buffer stretch 6 does not write holds afterwards what it held before. -/
theorem hstep6 (V : Valuation τ sig (Elt F)) (r : Ref sig .tc) (hr : r ∉ wr6) :
    StableHlo.after (hostOps6 (F := F)) V (Proc.devRef .tc r) = V (Proc.devRef .tc r) :=
  StableHlo.after_of_writes_sub _ V wr6_sub hr

/-- The buffers stretch 7 writes. -/
def wr7 : List (Ref sig .tc) := [main_call0_v113, main_call0_v114, main_call0_v115, main_call0_v116]

theorem wr7_sub : (hostOps7 (F := F)).Forall fun op => op.writes ⊆ (wr7.map (Proc.devRef (τ := τ) .tc)).toFinset := by
  simp only [hostOps7, List.Forall, StableHlo.nullary_writes, StableHlo.unary_writes, StableHlo.binary_writes, StableHlo.ternary_writes, StableHlo.quaternary_writes, StableHlo.reshape_writes, StableHlo.binaryIndexed_writes, Finset.singleton_subset_iff, List.mem_toFinset]
  repeat' apply And.intro
  all_goals exact List.mem_map_of_mem (by decide)

/-- A buffer stretch 7 does not write holds afterwards what it held before. -/
theorem hstep7 (V : Valuation τ sig (Elt F)) (r : Ref sig .tc) (hr : r ∉ wr7) :
    StableHlo.after (hostOps7 (F := F)) V (Proc.devRef .tc r) = V (Proc.devRef .tc r) :=
  StableHlo.after_of_writes_sub _ V wr7_sub hr

end Cert.KernelIdeal.FoldValue

end
-- ==== Proof.KerFold0.lean ====
/-
  The encoder and the first layer of message passing, read off the program's run.

  The contents of the buffers at each boundary between a stretch of host operations and a region are a fold from the
  launch memory.  Given what each region leaves in its output array (`Finals`), the buffers that matter at each
  boundary are computed here as functions of the program's argument arrays at launch (`argAt`): after the first
  stretch the rows of indices and the encoder's parameters as rows; after the encoder's region the encoded node array;
  after the next stretch the gathered and joined edge array, the column of reciprocal in-degrees and the layer's
  parameters; after the message region the messages; after the next stretch the aggregated messages; after the node
  region the updated node array.
-/
import proofs.«104585_j29386166239380_1_alg».proof.Proof.KerFoldHost
import proofs.«104585_j29386166239380_1_alg».proof.Proof.KerFoldSteps

set_option maxRecDepth 16384
set_option maxHeartbeats 1000000

noncomputable section

namespace Cert.KernelIdeal.FoldValue

open Idealize.ShloMosaic Idealize.ShloMosaic.TcCoe Idealize.ShloMosaic.Tactic Idealize.ShloMosaic.StableHlo
open Idealize.ShloMosaic.ValueIdx Idealize.ShloMosaic.RowLocal Idealize.ShloMosaic.RowNorm Idealize.ShloMosaic.HostCast
open Cert.Layers Cert.KernelIdeal Cert.KernelIdeal.Gen

/-- What each region leaves in its output array, as the layer of the contents its input arrays had when the region was
    entered: the nine facts about the regions that the reading of the whole program rests on. -/
structure Finals : Prop where
  final0 : ∀ (V : (c : Dev nD) → (b : Ref sig .tc) → Buf (Elt Ideal) ((c : Thread nD τ).loc b)) (c : Dev nD),
    (dat0 (F := Ideal) V c).arrAt 5 cfg0.N = encodeR (V c (Pipeline.arrRef spec0 0)) (V c (Pipeline.arrRef spec0 1)) (V c (Pipeline.arrRef spec0 2)) (V c (Pipeline.arrRef spec0 3)) (V c (Pipeline.arrRef spec0 4))
  final1 : ∀ (V : (c : Dev nD) → (b : Ref sig .tc) → Buf (Elt Ideal) ((c : Thread nD τ).loc b)) (c : Dev nD),
    (dat1 (F := Ideal) V c).arrAt 5 cfg1.N = mlpR (V c (Pipeline.arrRef spec1 0)) (V c (Pipeline.arrRef spec1 1)) (V c (Pipeline.arrRef spec1 2)) (V c (Pipeline.arrRef spec1 3)) (V c (Pipeline.arrRef spec1 4))
  final3 : ∀ (V : (c : Dev nD) → (b : Ref sig .tc) → Buf (Elt Ideal) ((c : Thread nD τ).loc b)) (c : Dev nD),
    (dat3 (F := Ideal) V c).arrAt 5 cfg3.N = mlpR (V c (Pipeline.arrRef spec3 0)) (V c (Pipeline.arrRef spec3 1)) (V c (Pipeline.arrRef spec3 2)) (V c (Pipeline.arrRef spec3 3)) (V c (Pipeline.arrRef spec3 4))
  final5 : ∀ (V : (c : Dev nD) → (b : Ref sig .tc) → Buf (Elt Ideal) ((c : Thread nD τ).loc b)) (c : Dev nD),
    (dat5 (F := Ideal) V c).arrAt 5 cfg5.N = mlpR (V c (Pipeline.arrRef spec5 0)) (V c (Pipeline.arrRef spec5 1)) (V c (Pipeline.arrRef spec5 2)) (V c (Pipeline.arrRef spec5 3)) (V c (Pipeline.arrRef spec5 4))
  final2 : ∀ (V : (c : Dev nD) → (b : Ref sig .tc) → Buf (Elt Ideal) ((c : Thread nD τ).loc b)) (c : Dev nD),
    (dat2 (F := Ideal) V c).arrAt 4 cfg2.N = nodeR (V c (Pipeline.arrRef spec2 0)) (V c (Pipeline.arrRef spec2 1)) (V c (Pipeline.arrRef spec2 2)) (V c (Pipeline.arrRef spec2 3))
  final4 : ∀ (V : (c : Dev nD) → (b : Ref sig .tc) → Buf (Elt Ideal) ((c : Thread nD τ).loc b)) (c : Dev nD),
    (dat4 (F := Ideal) V c).arrAt 4 cfg4.N = nodeR (V c (Pipeline.arrRef spec4 0)) (V c (Pipeline.arrRef spec4 1)) (V c (Pipeline.arrRef spec4 2)) (V c (Pipeline.arrRef spec4 3))
  final6 : ∀ (V : (c : Dev nD) → (b : Ref sig .tc) → Buf (Elt Ideal) ((c : Thread nD τ).loc b)) (c : Dev nD),
    (dat6 (F := Ideal) V c).arrAt 4 cfg6.N = nodeR (V c (Pipeline.arrRef spec6 0)) (V c (Pipeline.arrRef spec6 1)) (V c (Pipeline.arrRef spec6 2)) (V c (Pipeline.arrRef spec6 3))
  final7_9 : ∀ (V : (c : Dev nD) → (b : Ref sig .tc) → Buf (Elt Ideal) ((c : Thread nD τ).loc b)) (c : Dev nD),
    (dat7 (F := Ideal) V c).arrAt 9 cfg7.N = mlpR (V c (Pipeline.arrRef spec7 0)) (V c (Pipeline.arrRef spec7 1)) (V c (Pipeline.arrRef spec7 2)) (V c (Pipeline.arrRef spec7 3)) (V c (Pipeline.arrRef spec7 4))
  final7_10 : ∀ (V : (c : Dev nD) → (b : Ref sig .tc) → Buf (Elt Ideal) ((c : Thread nD τ).loc b)) (c : Dev nD),
    (dat7 (F := Ideal) V c).arrAt 10 cfg7.N = mlpR (V c (Pipeline.arrRef spec7 0)) (V c (Pipeline.arrRef spec7 5)) (V c (Pipeline.arrRef spec7 6)) (V c (Pipeline.arrRef spec7 7)) (V c (Pipeline.arrRef spec7 8))

variable (fin : Finals) (m : (ℓ : Loc nD τ sig) → Buf (Elt Ideal) ℓ) (ρ : Dev nD → PrngReg) (c : Dev nD)

/-- An argument array of the program, at launch. -/
abbrev argAt (b : Ref sig .tc) : Buf (Elt Ideal) ((c : Thread nD τ).loc b) := m ((c : Thread nD τ).loc b)

/-- The encoder's output, of the arguments at launch. -/
def encA : Mat 50000 64 := encK (argAt m c main_arg0) (argAt m c main_arg3) (argAt m c main_arg4) (argAt m c main_arg5) (argAt m c main_arg6)

/-- The messages of layer `l` from the node array `h`, with the arguments at launch. -/
def msgA (l : Fin 3) (h : Mat 50000 64) : Mat 800000 64 := msgK (argAt m c main_arg1) (argAt m c main_arg2) (argAt m c main_arg7) (argAt m c main_arg8) (argAt m c main_arg9) (argAt m c main_arg10) l h

/-- Layer `l` applied to the node array `h`, with the arguments at launch. -/
def layerA (l : Fin 3) (h : Mat 50000 64) : Mat 50000 64 := layerK (argAt m c main_arg1) (argAt m c main_arg2) (argAt m c main_arg7) (argAt m c main_arg8) (argAt m c main_arg9) (argAt m c main_arg10) (argAt m c main_arg11) (argAt m c main_arg12) l h

/-! ## After stretch 0 -/

theorem keep_arg0_1_0 : W1 (F := Ideal) m ρ c (Proc.devRef .tc main_arg0) = m ((c : Thread nD τ).loc main_arg0) :=
  (hstep0 (W0 m ρ c) main_arg0 (by decide))

theorem keep_arg3_1_0 : W1 (F := Ideal) m ρ c (Proc.devRef .tc main_arg3) = m ((c : Thread nD τ).loc main_arg3) :=
  (hstep0 (W0 m ρ c) main_arg3 (by decide))

theorem W1_v1 : W1 (F := Ideal) m ρ c (Proc.devRef .tc main_call0_v1) = srcRowK (argAt m c main_arg1) := host0_v1 (W0 m ρ c)

theorem W1_v3 : W1 (F := Ideal) m ρ c (Proc.devRef .tc main_call0_v3) = dstRowK (argAt m c main_arg1) := host0_v3 (W0 m ρ c)

theorem W1_v4 : W1 (F := Ideal) m ρ c (Proc.devRef .tc main_call0_v4) = rowVec (argAt m c main_arg4) := host0_v4 (W0 m ρ c)

theorem W1_v5 : W1 (F := Ideal) m ρ c (Proc.devRef .tc main_call0_v5) = rowVec (argAt m c main_arg5) := host0_v5 (W0 m ρ c)

theorem W1_v6 : W1 (F := Ideal) m ρ c (Proc.devRef .tc main_call0_v6) = rowVec (argAt m c main_arg6) := host0_v6 (W0 m ρ c)

/-! ## Region 0 leaves the encoded node array -/

include fin in
theorem W2_v7 : W2 (F := Ideal) m ρ c (Proc.devRef .tc main_call0_v7) = encA m c := by
  refine (W2_arr m ρ c 5).trans ((fin.final0 (V1 m ρ) c).trans ?_)
  show encodeR (W1 m ρ c (Proc.devRef .tc main_arg0)) (W1 m ρ c (Proc.devRef .tc main_arg3)) (W1 m ρ c (Proc.devRef .tc main_call0_v4))
    (W1 m ρ c (Proc.devRef .tc main_call0_v5)) (W1 m ρ c (Proc.devRef .tc main_call0_v6)) = _
  rw [keep_arg0_1_0, keep_arg3_1_0, W1_v4, W1_v5, W1_v6]
  rfl

/-! ## What the buffers read in layer 0 kept from where they were last written -/

theorem keep_v1_2_1 : W2 (F := Ideal) m ρ c (Proc.devRef .tc main_call0_v1) = W1 m ρ c (Proc.devRef .tc main_call0_v1) :=
  (W2_of_ne m ρ c main_call0_v1 (by decide))

theorem keep_arg2_2_0 : W2 (F := Ideal) m ρ c (Proc.devRef .tc main_arg2) = m ((c : Thread nD τ).loc main_arg2) :=
  ((W2_of_ne m ρ c main_arg2 (by decide)).trans (hstep0 (W0 m ρ c) main_arg2 (by decide)))

theorem keep_arg8_2_0 : W2 (F := Ideal) m ρ c (Proc.devRef .tc main_arg8) = m ((c : Thread nD τ).loc main_arg8) :=
  ((W2_of_ne m ρ c main_arg8 (by decide)).trans (hstep0 (W0 m ρ c) main_arg8 (by decide)))

theorem keep_arg10_2_0 : W2 (F := Ideal) m ρ c (Proc.devRef .tc main_arg10) = m ((c : Thread nD τ).loc main_arg10) :=
  ((W2_of_ne m ρ c main_arg10 (by decide)).trans (hstep0 (W0 m ρ c) main_arg10 (by decide)))

theorem keep_arg7_2_0 : W2 (F := Ideal) m ρ c (Proc.devRef .tc main_arg7) = m ((c : Thread nD τ).loc main_arg7) :=
  ((W2_of_ne m ρ c main_arg7 (by decide)).trans (hstep0 (W0 m ρ c) main_arg7 (by decide)))

theorem keep_arg9_2_0 : W2 (F := Ideal) m ρ c (Proc.devRef .tc main_arg9) = m ((c : Thread nD τ).loc main_arg9) :=
  ((W2_of_ne m ρ c main_arg9 (by decide)).trans (hstep0 (W0 m ρ c) main_arg9 (by decide)))

theorem keep_v3_4_1 : W4 (F := Ideal) m ρ c (Proc.devRef .tc main_call0_v3) = W1 m ρ c (Proc.devRef .tc main_call0_v3) :=
  ((W4_of_ne m ρ c main_call0_v3 (by decide)).trans ((hstep1 (W2 m ρ c) main_call0_v3 (by decide)).trans (W2_of_ne m ρ c main_call0_v3 (by decide))))

theorem keep_arg11_4_0 : W4 (F := Ideal) m ρ c (Proc.devRef .tc main_arg11) = m ((c : Thread nD τ).loc main_arg11) :=
  ((W4_of_ne m ρ c main_arg11 (by decide)).trans ((hstep1 (W2 m ρ c) main_arg11 (by decide)).trans ((W2_of_ne m ρ c main_arg11 (by decide)).trans (hstep0 (W0 m ρ c) main_arg11 (by decide)))))

theorem keep_arg12_4_0 : W4 (F := Ideal) m ρ c (Proc.devRef .tc main_arg12) = m ((c : Thread nD τ).loc main_arg12) :=
  ((W4_of_ne m ρ c main_arg12 (by decide)).trans ((hstep1 (W2 m ρ c) main_arg12 (by decide)).trans ((W2_of_ne m ρ c main_arg12 (by decide)).trans (hstep0 (W0 m ρ c) main_arg12 (by decide)))))

theorem keep_v7_5_2 : W5 (F := Ideal) m ρ c (Proc.devRef .tc main_call0_v7) = W2 m ρ c (Proc.devRef .tc main_call0_v7) :=
  ((hstep2 (W4 m ρ c) main_call0_v7 (by decide)).trans ((W4_of_ne m ρ c main_call0_v7 (by decide)).trans (hstep1 (W2 m ρ c) main_call0_v7 (by decide))))

theorem keep_v3_2_1 : W2 (F := Ideal) m ρ c (Proc.devRef .tc main_call0_v3) = W1 m ρ c (Proc.devRef .tc main_call0_v3) :=
  (W2_of_ne m ρ c main_call0_v3 (by decide))

theorem keep_v19_4_3 : W4 (F := Ideal) m ρ c (Proc.devRef .tc main_call0_v19) = W3 m ρ c (Proc.devRef .tc main_call0_v19) :=
  (W4_of_ne m ρ c main_call0_v19 (by decide))

/-! ## Layer 0: after stretch 1 -/

include fin in
theorem W3_v27 : W3 (F := Ideal) m ρ c (Proc.devRef .tc main_call0_v27) = gatherCatK (encA m c) (argAt m c main_arg1) (argAt m c main_arg2) := by
  refine (host1_v27 (W2 m ρ c)).trans ?_
  rw [W2_v7 fin, keep_v1_2_1, W1_v1, keep_arg2_2_0]
  rfl

theorem W3_v19 : W3 (F := Ideal) m ρ c (Proc.devRef .tc main_call0_v19) = invCntK (argAt m c main_arg1) := by
  refine (host1_v19 (W2 m ρ c)).trans ?_
  rw [keep_v3_2_1, W1_v3]
  rfl

theorem W3_v30 : W3 (F := Ideal) m ρ c (Proc.devRef .tc main_call0_v30) = rowVec (sliceVec 0 (argAt m c main_arg8)) := by
  refine (host1_v30 (W2 m ρ c)).trans ?_
  rw [keep_arg8_2_0]

theorem W3_v33 : W3 (F := Ideal) m ρ c (Proc.devRef .tc main_call0_v33) = rowVec (sliceVec 0 (argAt m c main_arg10)) := by
  refine (host1_v33 (W2 m ρ c)).trans ?_
  rw [keep_arg10_2_0]

theorem W3_v35 : W3 (F := Ideal) m ρ c (Proc.devRef .tc main_call0_v35) = sliceMat 0 (argAt m c main_arg7) := by
  refine (host1_v35 (W2 m ρ c)).trans ?_
  rw [keep_arg7_2_0]

theorem W3_v37 : W3 (F := Ideal) m ρ c (Proc.devRef .tc main_call0_v37) = sliceMat 0 (argAt m c main_arg9) := by
  refine (host1_v37 (W2 m ρ c)).trans ?_
  rw [keep_arg9_2_0]

/-! ## Layer 0: region 1 leaves the messages -/

include fin in
theorem W4_v38 : W4 (F := Ideal) m ρ c (Proc.devRef .tc main_call0_v38) = msgA m c 0 (encA m c) := by
  refine (W4_arr m ρ c 5).trans ((fin.final1 (V3 m ρ) c).trans ?_)
  show mlpR (W3 m ρ c (Proc.devRef .tc main_call0_v27)) (W3 m ρ c (Proc.devRef .tc main_call0_v35)) (W3 m ρ c (Proc.devRef .tc main_call0_v30))
    (W3 m ρ c (Proc.devRef .tc main_call0_v37)) (W3 m ρ c (Proc.devRef .tc main_call0_v33)) = _
  rw [W3_v27 fin, W3_v35, W3_v30, W3_v37, W3_v33]
  rfl

/-! ## Layer 0: after stretch 2 -/

include fin in
theorem W5_v43 : W5 (F := Ideal) m ρ c (Proc.devRef .tc main_call0_v43) = aggK (msgA m c 0 (encA m c)) (argAt m c main_arg1) (invCntK (argAt m c main_arg1)) := by
  refine (host2_v43 (W4 m ρ c)).trans ?_
  rw [W4_v38 fin, keep_v3_4_1, W1_v3, keep_v19_4_3, W3_v19]
  rfl

theorem W5_v46 : W5 (F := Ideal) m ρ c (Proc.devRef .tc main_call0_v46) = rowVec (sliceVec 0 (argAt m c main_arg11)) := by
  refine (host2_v46 (W4 m ρ c)).trans ?_
  rw [keep_arg11_4_0]

theorem W5_v49 : W5 (F := Ideal) m ρ c (Proc.devRef .tc main_call0_v49) = rowVec (sliceVec 0 (argAt m c main_arg12)) := by
  refine (host2_v49 (W4 m ρ c)).trans ?_
  rw [keep_arg12_4_0]

include fin in
theorem W5_v7 : W5 (F := Ideal) m ρ c (Proc.devRef .tc main_call0_v7) = (encA m c) :=
  (keep_v7_5_2 m ρ c).trans (W2_v7 fin m ρ c)

/-! ## Layer 0: region 2 leaves the updated node array -/

include fin in
theorem W6_v50 : W6 (F := Ideal) m ρ c (Proc.devRef .tc main_call0_v50) = layerA m c 0 (encA m c) := by
  refine (W6_arr m ρ c 4).trans ((fin.final2 (V5 m ρ) c).trans ?_)
  show nodeR (W5 m ρ c (Proc.devRef .tc main_call0_v7)) (W5 m ρ c (Proc.devRef .tc main_call0_v43)) (W5 m ρ c (Proc.devRef .tc main_call0_v46)) (W5 m ρ c (Proc.devRef .tc main_call0_v49)) = _
  rw [W5_v7 fin, W5_v43 fin, W5_v46, W5_v49]
  rfl

end Cert.KernelIdeal.FoldValue

end
-- ==== Proof.KerFold1.lean ====
/-
  Layer 1 of message passing, read off the program's run.

  With the node array entering the layer known as a function of the argument arrays at launch, the buffers that matter at
  the next four boundaries are computed the same way as for the first layer: the gathered and joined edge array and the
  layer's parameters, the messages the message region leaves, the aggregated messages, and the updated node array the
  node region leaves.
-/
import proofs.«104585_j29386166239380_1_alg».proof.Proof.KerFold0

set_option maxRecDepth 16384
set_option maxHeartbeats 1000000

noncomputable section

namespace Cert.KernelIdeal.FoldValue

open Idealize.ShloMosaic Idealize.ShloMosaic.TcCoe Idealize.ShloMosaic.Tactic Idealize.ShloMosaic.StableHlo
open Idealize.ShloMosaic.ValueIdx Idealize.ShloMosaic.RowLocal Idealize.ShloMosaic.RowNorm Idealize.ShloMosaic.HostCast
open Cert.Layers Cert.KernelIdeal Cert.KernelIdeal.Gen

variable (fin : Finals) (m : (ℓ : Loc nD τ sig) → Buf (Elt Ideal) ℓ) (ρ : Dev nD → PrngReg) (c : Dev nD)

/-! ## What the buffers read in layer 1 kept from where they were last written -/

theorem keep_v1_6_1 : W6 (F := Ideal) m ρ c (Proc.devRef .tc main_call0_v1) = W1 m ρ c (Proc.devRef .tc main_call0_v1) :=
  ((W6_of_ne m ρ c main_call0_v1 (by decide)).trans ((hstep2 (W4 m ρ c) main_call0_v1 (by decide)).trans ((W4_of_ne m ρ c main_call0_v1 (by decide)).trans ((hstep1 (W2 m ρ c) main_call0_v1 (by decide)).trans (W2_of_ne m ρ c main_call0_v1 (by decide))))))

theorem keep_arg2_6_0 : W6 (F := Ideal) m ρ c (Proc.devRef .tc main_arg2) = m ((c : Thread nD τ).loc main_arg2) :=
  ((W6_of_ne m ρ c main_arg2 (by decide)).trans ((hstep2 (W4 m ρ c) main_arg2 (by decide)).trans ((W4_of_ne m ρ c main_arg2 (by decide)).trans ((hstep1 (W2 m ρ c) main_arg2 (by decide)).trans ((W2_of_ne m ρ c main_arg2 (by decide)).trans (hstep0 (W0 m ρ c) main_arg2 (by decide)))))))

theorem keep_arg8_6_0 : W6 (F := Ideal) m ρ c (Proc.devRef .tc main_arg8) = m ((c : Thread nD τ).loc main_arg8) :=
  ((W6_of_ne m ρ c main_arg8 (by decide)).trans ((hstep2 (W4 m ρ c) main_arg8 (by decide)).trans ((W4_of_ne m ρ c main_arg8 (by decide)).trans ((hstep1 (W2 m ρ c) main_arg8 (by decide)).trans ((W2_of_ne m ρ c main_arg8 (by decide)).trans (hstep0 (W0 m ρ c) main_arg8 (by decide)))))))

theorem keep_arg10_6_0 : W6 (F := Ideal) m ρ c (Proc.devRef .tc main_arg10) = m ((c : Thread nD τ).loc main_arg10) :=
  ((W6_of_ne m ρ c main_arg10 (by decide)).trans ((hstep2 (W4 m ρ c) main_arg10 (by decide)).trans ((W4_of_ne m ρ c main_arg10 (by decide)).trans ((hstep1 (W2 m ρ c) main_arg10 (by decide)).trans ((W2_of_ne m ρ c main_arg10 (by decide)).trans (hstep0 (W0 m ρ c) main_arg10 (by decide)))))))

theorem keep_arg7_6_0 : W6 (F := Ideal) m ρ c (Proc.devRef .tc main_arg7) = m ((c : Thread nD τ).loc main_arg7) :=
  ((W6_of_ne m ρ c main_arg7 (by decide)).trans ((hstep2 (W4 m ρ c) main_arg7 (by decide)).trans ((W4_of_ne m ρ c main_arg7 (by decide)).trans ((hstep1 (W2 m ρ c) main_arg7 (by decide)).trans ((W2_of_ne m ρ c main_arg7 (by decide)).trans (hstep0 (W0 m ρ c) main_arg7 (by decide)))))))

theorem keep_arg9_6_0 : W6 (F := Ideal) m ρ c (Proc.devRef .tc main_arg9) = m ((c : Thread nD τ).loc main_arg9) :=
  ((W6_of_ne m ρ c main_arg9 (by decide)).trans ((hstep2 (W4 m ρ c) main_arg9 (by decide)).trans ((W4_of_ne m ρ c main_arg9 (by decide)).trans ((hstep1 (W2 m ρ c) main_arg9 (by decide)).trans ((W2_of_ne m ρ c main_arg9 (by decide)).trans (hstep0 (W0 m ρ c) main_arg9 (by decide)))))))

theorem keep_v3_8_1 : W8 (F := Ideal) m ρ c (Proc.devRef .tc main_call0_v3) = W1 m ρ c (Proc.devRef .tc main_call0_v3) :=
  ((W8_of_ne m ρ c main_call0_v3 (by decide)).trans ((hstep3 (W6 m ρ c) main_call0_v3 (by decide)).trans ((W6_of_ne m ρ c main_call0_v3 (by decide)).trans ((hstep2 (W4 m ρ c) main_call0_v3 (by decide)).trans ((W4_of_ne m ρ c main_call0_v3 (by decide)).trans ((hstep1 (W2 m ρ c) main_call0_v3 (by decide)).trans (W2_of_ne m ρ c main_call0_v3 (by decide))))))))

theorem keep_arg11_8_0 : W8 (F := Ideal) m ρ c (Proc.devRef .tc main_arg11) = m ((c : Thread nD τ).loc main_arg11) :=
  ((W8_of_ne m ρ c main_arg11 (by decide)).trans ((hstep3 (W6 m ρ c) main_arg11 (by decide)).trans ((W6_of_ne m ρ c main_arg11 (by decide)).trans ((hstep2 (W4 m ρ c) main_arg11 (by decide)).trans ((W4_of_ne m ρ c main_arg11 (by decide)).trans ((hstep1 (W2 m ρ c) main_arg11 (by decide)).trans ((W2_of_ne m ρ c main_arg11 (by decide)).trans (hstep0 (W0 m ρ c) main_arg11 (by decide)))))))))

theorem keep_arg12_8_0 : W8 (F := Ideal) m ρ c (Proc.devRef .tc main_arg12) = m ((c : Thread nD τ).loc main_arg12) :=
  ((W8_of_ne m ρ c main_arg12 (by decide)).trans ((hstep3 (W6 m ρ c) main_arg12 (by decide)).trans ((W6_of_ne m ρ c main_arg12 (by decide)).trans ((hstep2 (W4 m ρ c) main_arg12 (by decide)).trans ((W4_of_ne m ρ c main_arg12 (by decide)).trans ((hstep1 (W2 m ρ c) main_arg12 (by decide)).trans ((W2_of_ne m ρ c main_arg12 (by decide)).trans (hstep0 (W0 m ρ c) main_arg12 (by decide)))))))))

theorem keep_v50_9_6 : W9 (F := Ideal) m ρ c (Proc.devRef .tc main_call0_v50) = W6 m ρ c (Proc.devRef .tc main_call0_v50) :=
  ((hstep4 (W8 m ρ c) main_call0_v50 (by decide)).trans ((W8_of_ne m ρ c main_call0_v50 (by decide)).trans (hstep3 (W6 m ρ c) main_call0_v50 (by decide))))

theorem keep_v19_8_3 : W8 (F := Ideal) m ρ c (Proc.devRef .tc main_call0_v19) = W3 m ρ c (Proc.devRef .tc main_call0_v19) :=
  ((W8_of_ne m ρ c main_call0_v19 (by decide)).trans ((hstep3 (W6 m ρ c) main_call0_v19 (by decide)).trans ((W6_of_ne m ρ c main_call0_v19 (by decide)).trans ((hstep2 (W4 m ρ c) main_call0_v19 (by decide)).trans (W4_of_ne m ρ c main_call0_v19 (by decide))))))

/-! ## Layer 1: after stretch 3 -/

include fin in
theorem W7_v58 : W7 (F := Ideal) m ρ c (Proc.devRef .tc main_call0_v58) = gatherCatK (layerA m c 0 (encA m c)) (argAt m c main_arg1) (argAt m c main_arg2) := by
  refine (host3_v58 (W6 m ρ c)).trans ?_
  rw [W6_v50 fin, keep_v1_6_1, W1_v1, keep_arg2_6_0]
  rfl

theorem W7_v61 : W7 (F := Ideal) m ρ c (Proc.devRef .tc main_call0_v61) = rowVec (sliceVec 1 (argAt m c main_arg8)) := by
  refine (host3_v61 (W6 m ρ c)).trans ?_
  rw [keep_arg8_6_0]

theorem W7_v64 : W7 (F := Ideal) m ρ c (Proc.devRef .tc main_call0_v64) = rowVec (sliceVec 1 (argAt m c main_arg10)) := by
  refine (host3_v64 (W6 m ρ c)).trans ?_
  rw [keep_arg10_6_0]

theorem W7_v66 : W7 (F := Ideal) m ρ c (Proc.devRef .tc main_call0_v66) = sliceMat 1 (argAt m c main_arg7) := by
  refine (host3_v66 (W6 m ρ c)).trans ?_
  rw [keep_arg7_6_0]

theorem W7_v68 : W7 (F := Ideal) m ρ c (Proc.devRef .tc main_call0_v68) = sliceMat 1 (argAt m c main_arg9) := by
  refine (host3_v68 (W6 m ρ c)).trans ?_
  rw [keep_arg9_6_0]

/-! ## Layer 1: region 3 leaves the messages -/

include fin in
theorem W8_v69 : W8 (F := Ideal) m ρ c (Proc.devRef .tc main_call0_v69) = msgA m c 1 (layerA m c 0 (encA m c)) := by
  refine (W8_arr m ρ c 5).trans ((fin.final3 (V7 m ρ) c).trans ?_)
  show mlpR (W7 m ρ c (Proc.devRef .tc main_call0_v58)) (W7 m ρ c (Proc.devRef .tc main_call0_v66)) (W7 m ρ c (Proc.devRef .tc main_call0_v61))
    (W7 m ρ c (Proc.devRef .tc main_call0_v68)) (W7 m ρ c (Proc.devRef .tc main_call0_v64)) = _
  rw [W7_v58 fin, W7_v66, W7_v61, W7_v68, W7_v64]
  rfl

/-! ## Layer 1: after stretch 4 -/

include fin in
theorem W9_v74 : W9 (F := Ideal) m ρ c (Proc.devRef .tc main_call0_v74) = aggK (msgA m c 1 (layerA m c 0 (encA m c))) (argAt m c main_arg1) (invCntK (argAt m c main_arg1)) := by
  refine (host4_v74 (W8 m ρ c)).trans ?_
  rw [W8_v69 fin, keep_v3_8_1, W1_v3, keep_v19_8_3, W3_v19]
  rfl

theorem W9_v77 : W9 (F := Ideal) m ρ c (Proc.devRef .tc main_call0_v77) = rowVec (sliceVec 1 (argAt m c main_arg11)) := by
  refine (host4_v77 (W8 m ρ c)).trans ?_
  rw [keep_arg11_8_0]

theorem W9_v80 : W9 (F := Ideal) m ρ c (Proc.devRef .tc main_call0_v80) = rowVec (sliceVec 1 (argAt m c main_arg12)) := by
  refine (host4_v80 (W8 m ρ c)).trans ?_
  rw [keep_arg12_8_0]

include fin in
theorem W9_v50 : W9 (F := Ideal) m ρ c (Proc.devRef .tc main_call0_v50) = (layerA m c 0 (encA m c)) :=
  (keep_v50_9_6 m ρ c).trans (W6_v50 fin m ρ c)

/-! ## Layer 1: region 4 leaves the updated node array -/

include fin in
theorem W10_v81 : W10 (F := Ideal) m ρ c (Proc.devRef .tc main_call0_v81) = layerA m c 1 (layerA m c 0 (encA m c)) := by
  refine (W10_arr m ρ c 4).trans ((fin.final4 (V9 m ρ) c).trans ?_)
  show nodeR (W9 m ρ c (Proc.devRef .tc main_call0_v50)) (W9 m ρ c (Proc.devRef .tc main_call0_v74)) (W9 m ρ c (Proc.devRef .tc main_call0_v77)) (W9 m ρ c (Proc.devRef .tc main_call0_v80)) = _
  rw [W9_v50 fin, W9_v74 fin, W9_v77, W9_v80]
  rfl

end Cert.KernelIdeal.FoldValue

end
-- ==== Proof.KerFold2.lean ====
/-
  Layer 2 of message passing, read off the program's run.

  With the node array entering the layer known as a function of the argument arrays at launch, the buffers that matter at
  the next four boundaries are computed the same way as for the first layer: the gathered and joined edge array and the
  layer's parameters, the messages the message region leaves, the aggregated messages, and the updated node array the
  node region leaves.
-/
import proofs.«104585_j29386166239380_1_alg».proof.Proof.KerFold1

set_option maxRecDepth 16384
set_option maxHeartbeats 1000000

noncomputable section

namespace Cert.KernelIdeal.FoldValue

open Idealize.ShloMosaic Idealize.ShloMosaic.TcCoe Idealize.ShloMosaic.Tactic Idealize.ShloMosaic.StableHlo
open Idealize.ShloMosaic.ValueIdx Idealize.ShloMosaic.RowLocal Idealize.ShloMosaic.RowNorm Idealize.ShloMosaic.HostCast
open Cert.Layers Cert.KernelIdeal Cert.KernelIdeal.Gen

variable (fin : Finals) (m : (ℓ : Loc nD τ sig) → Buf (Elt Ideal) ℓ) (ρ : Dev nD → PrngReg) (c : Dev nD)

/-! ## What the buffers read in layer 2 kept from where they were last written -/

theorem keep_v1_10_1 : W10 (F := Ideal) m ρ c (Proc.devRef .tc main_call0_v1) = W1 m ρ c (Proc.devRef .tc main_call0_v1) :=
  ((W10_of_ne m ρ c main_call0_v1 (by decide)).trans ((hstep4 (W8 m ρ c) main_call0_v1 (by decide)).trans ((W8_of_ne m ρ c main_call0_v1 (by decide)).trans ((hstep3 (W6 m ρ c) main_call0_v1 (by decide)).trans ((W6_of_ne m ρ c main_call0_v1 (by decide)).trans ((hstep2 (W4 m ρ c) main_call0_v1 (by decide)).trans ((W4_of_ne m ρ c main_call0_v1 (by decide)).trans ((hstep1 (W2 m ρ c) main_call0_v1 (by decide)).trans (W2_of_ne m ρ c main_call0_v1 (by decide))))))))))

theorem keep_arg2_10_0 : W10 (F := Ideal) m ρ c (Proc.devRef .tc main_arg2) = m ((c : Thread nD τ).loc main_arg2) :=
  ((W10_of_ne m ρ c main_arg2 (by decide)).trans ((hstep4 (W8 m ρ c) main_arg2 (by decide)).trans ((W8_of_ne m ρ c main_arg2 (by decide)).trans ((hstep3 (W6 m ρ c) main_arg2 (by decide)).trans ((W6_of_ne m ρ c main_arg2 (by decide)).trans ((hstep2 (W4 m ρ c) main_arg2 (by decide)).trans ((W4_of_ne m ρ c main_arg2 (by decide)).trans ((hstep1 (W2 m ρ c) main_arg2 (by decide)).trans ((W2_of_ne m ρ c main_arg2 (by decide)).trans (hstep0 (W0 m ρ c) main_arg2 (by decide)))))))))))

theorem keep_arg8_10_0 : W10 (F := Ideal) m ρ c (Proc.devRef .tc main_arg8) = m ((c : Thread nD τ).loc main_arg8) :=
  ((W10_of_ne m ρ c main_arg8 (by decide)).trans ((hstep4 (W8 m ρ c) main_arg8 (by decide)).trans ((W8_of_ne m ρ c main_arg8 (by decide)).trans ((hstep3 (W6 m ρ c) main_arg8 (by decide)).trans ((W6_of_ne m ρ c main_arg8 (by decide)).trans ((hstep2 (W4 m ρ c) main_arg8 (by decide)).trans ((W4_of_ne m ρ c main_arg8 (by decide)).trans ((hstep1 (W2 m ρ c) main_arg8 (by decide)).trans ((W2_of_ne m ρ c main_arg8 (by decide)).trans (hstep0 (W0 m ρ c) main_arg8 (by decide)))))))))))

theorem keep_arg10_10_0 : W10 (F := Ideal) m ρ c (Proc.devRef .tc main_arg10) = m ((c : Thread nD τ).loc main_arg10) :=
  ((W10_of_ne m ρ c main_arg10 (by decide)).trans ((hstep4 (W8 m ρ c) main_arg10 (by decide)).trans ((W8_of_ne m ρ c main_arg10 (by decide)).trans ((hstep3 (W6 m ρ c) main_arg10 (by decide)).trans ((W6_of_ne m ρ c main_arg10 (by decide)).trans ((hstep2 (W4 m ρ c) main_arg10 (by decide)).trans ((W4_of_ne m ρ c main_arg10 (by decide)).trans ((hstep1 (W2 m ρ c) main_arg10 (by decide)).trans ((W2_of_ne m ρ c main_arg10 (by decide)).trans (hstep0 (W0 m ρ c) main_arg10 (by decide)))))))))))

theorem keep_arg7_10_0 : W10 (F := Ideal) m ρ c (Proc.devRef .tc main_arg7) = m ((c : Thread nD τ).loc main_arg7) :=
  ((W10_of_ne m ρ c main_arg7 (by decide)).trans ((hstep4 (W8 m ρ c) main_arg7 (by decide)).trans ((W8_of_ne m ρ c main_arg7 (by decide)).trans ((hstep3 (W6 m ρ c) main_arg7 (by decide)).trans ((W6_of_ne m ρ c main_arg7 (by decide)).trans ((hstep2 (W4 m ρ c) main_arg7 (by decide)).trans ((W4_of_ne m ρ c main_arg7 (by decide)).trans ((hstep1 (W2 m ρ c) main_arg7 (by decide)).trans ((W2_of_ne m ρ c main_arg7 (by decide)).trans (hstep0 (W0 m ρ c) main_arg7 (by decide)))))))))))

theorem keep_arg9_10_0 : W10 (F := Ideal) m ρ c (Proc.devRef .tc main_arg9) = m ((c : Thread nD τ).loc main_arg9) :=
  ((W10_of_ne m ρ c main_arg9 (by decide)).trans ((hstep4 (W8 m ρ c) main_arg9 (by decide)).trans ((W8_of_ne m ρ c main_arg9 (by decide)).trans ((hstep3 (W6 m ρ c) main_arg9 (by decide)).trans ((W6_of_ne m ρ c main_arg9 (by decide)).trans ((hstep2 (W4 m ρ c) main_arg9 (by decide)).trans ((W4_of_ne m ρ c main_arg9 (by decide)).trans ((hstep1 (W2 m ρ c) main_arg9 (by decide)).trans ((W2_of_ne m ρ c main_arg9 (by decide)).trans (hstep0 (W0 m ρ c) main_arg9 (by decide)))))))))))

theorem keep_v3_12_1 : W12 (F := Ideal) m ρ c (Proc.devRef .tc main_call0_v3) = W1 m ρ c (Proc.devRef .tc main_call0_v3) :=
  ((W12_of_ne m ρ c main_call0_v3 (by decide)).trans ((hstep5 (W10 m ρ c) main_call0_v3 (by decide)).trans ((W10_of_ne m ρ c main_call0_v3 (by decide)).trans ((hstep4 (W8 m ρ c) main_call0_v3 (by decide)).trans ((W8_of_ne m ρ c main_call0_v3 (by decide)).trans ((hstep3 (W6 m ρ c) main_call0_v3 (by decide)).trans ((W6_of_ne m ρ c main_call0_v3 (by decide)).trans ((hstep2 (W4 m ρ c) main_call0_v3 (by decide)).trans ((W4_of_ne m ρ c main_call0_v3 (by decide)).trans ((hstep1 (W2 m ρ c) main_call0_v3 (by decide)).trans (W2_of_ne m ρ c main_call0_v3 (by decide))))))))))))

theorem keep_arg11_12_0 : W12 (F := Ideal) m ρ c (Proc.devRef .tc main_arg11) = m ((c : Thread nD τ).loc main_arg11) :=
  ((W12_of_ne m ρ c main_arg11 (by decide)).trans ((hstep5 (W10 m ρ c) main_arg11 (by decide)).trans ((W10_of_ne m ρ c main_arg11 (by decide)).trans ((hstep4 (W8 m ρ c) main_arg11 (by decide)).trans ((W8_of_ne m ρ c main_arg11 (by decide)).trans ((hstep3 (W6 m ρ c) main_arg11 (by decide)).trans ((W6_of_ne m ρ c main_arg11 (by decide)).trans ((hstep2 (W4 m ρ c) main_arg11 (by decide)).trans ((W4_of_ne m ρ c main_arg11 (by decide)).trans ((hstep1 (W2 m ρ c) main_arg11 (by decide)).trans ((W2_of_ne m ρ c main_arg11 (by decide)).trans (hstep0 (W0 m ρ c) main_arg11 (by decide)))))))))))))

theorem keep_arg12_12_0 : W12 (F := Ideal) m ρ c (Proc.devRef .tc main_arg12) = m ((c : Thread nD τ).loc main_arg12) :=
  ((W12_of_ne m ρ c main_arg12 (by decide)).trans ((hstep5 (W10 m ρ c) main_arg12 (by decide)).trans ((W10_of_ne m ρ c main_arg12 (by decide)).trans ((hstep4 (W8 m ρ c) main_arg12 (by decide)).trans ((W8_of_ne m ρ c main_arg12 (by decide)).trans ((hstep3 (W6 m ρ c) main_arg12 (by decide)).trans ((W6_of_ne m ρ c main_arg12 (by decide)).trans ((hstep2 (W4 m ρ c) main_arg12 (by decide)).trans ((W4_of_ne m ρ c main_arg12 (by decide)).trans ((hstep1 (W2 m ρ c) main_arg12 (by decide)).trans ((W2_of_ne m ρ c main_arg12 (by decide)).trans (hstep0 (W0 m ρ c) main_arg12 (by decide)))))))))))))

theorem keep_v81_13_10 : W13 (F := Ideal) m ρ c (Proc.devRef .tc main_call0_v81) = W10 m ρ c (Proc.devRef .tc main_call0_v81) :=
  ((hstep6 (W12 m ρ c) main_call0_v81 (by decide)).trans ((W12_of_ne m ρ c main_call0_v81 (by decide)).trans (hstep5 (W10 m ρ c) main_call0_v81 (by decide))))

theorem keep_v19_12_3 : W12 (F := Ideal) m ρ c (Proc.devRef .tc main_call0_v19) = W3 m ρ c (Proc.devRef .tc main_call0_v19) :=
  ((W12_of_ne m ρ c main_call0_v19 (by decide)).trans ((hstep5 (W10 m ρ c) main_call0_v19 (by decide)).trans ((W10_of_ne m ρ c main_call0_v19 (by decide)).trans ((hstep4 (W8 m ρ c) main_call0_v19 (by decide)).trans ((W8_of_ne m ρ c main_call0_v19 (by decide)).trans ((hstep3 (W6 m ρ c) main_call0_v19 (by decide)).trans ((W6_of_ne m ρ c main_call0_v19 (by decide)).trans ((hstep2 (W4 m ρ c) main_call0_v19 (by decide)).trans (W4_of_ne m ρ c main_call0_v19 (by decide))))))))))

/-! ## Layer 2: after stretch 5 -/

include fin in
theorem W11_v89 : W11 (F := Ideal) m ρ c (Proc.devRef .tc main_call0_v89) = gatherCatK (layerA m c 1 (layerA m c 0 (encA m c))) (argAt m c main_arg1) (argAt m c main_arg2) := by
  refine (host5_v89 (W10 m ρ c)).trans ?_
  rw [W10_v81 fin, keep_v1_10_1, W1_v1, keep_arg2_10_0]
  rfl

theorem W11_v92 : W11 (F := Ideal) m ρ c (Proc.devRef .tc main_call0_v92) = rowVec (sliceVec 2 (argAt m c main_arg8)) := by
  refine (host5_v92 (W10 m ρ c)).trans ?_
  rw [keep_arg8_10_0]

theorem W11_v95 : W11 (F := Ideal) m ρ c (Proc.devRef .tc main_call0_v95) = rowVec (sliceVec 2 (argAt m c main_arg10)) := by
  refine (host5_v95 (W10 m ρ c)).trans ?_
  rw [keep_arg10_10_0]

theorem W11_v97 : W11 (F := Ideal) m ρ c (Proc.devRef .tc main_call0_v97) = sliceMat 2 (argAt m c main_arg7) := by
  refine (host5_v97 (W10 m ρ c)).trans ?_
  rw [keep_arg7_10_0]

theorem W11_v99 : W11 (F := Ideal) m ρ c (Proc.devRef .tc main_call0_v99) = sliceMat 2 (argAt m c main_arg9) := by
  refine (host5_v99 (W10 m ρ c)).trans ?_
  rw [keep_arg9_10_0]

/-! ## Layer 2: region 5 leaves the messages -/

include fin in
theorem W12_v100 : W12 (F := Ideal) m ρ c (Proc.devRef .tc main_call0_v100) = msgA m c 2 (layerA m c 1 (layerA m c 0 (encA m c))) := by
  refine (W12_arr m ρ c 5).trans ((fin.final5 (V11 m ρ) c).trans ?_)
  show mlpR (W11 m ρ c (Proc.devRef .tc main_call0_v89)) (W11 m ρ c (Proc.devRef .tc main_call0_v97)) (W11 m ρ c (Proc.devRef .tc main_call0_v92))
    (W11 m ρ c (Proc.devRef .tc main_call0_v99)) (W11 m ρ c (Proc.devRef .tc main_call0_v95)) = _
  rw [W11_v89 fin, W11_v97, W11_v92, W11_v99, W11_v95]
  rfl

/-! ## Layer 2: after stretch 6 -/

include fin in
theorem W13_v105 : W13 (F := Ideal) m ρ c (Proc.devRef .tc main_call0_v105) = aggK (msgA m c 2 (layerA m c 1 (layerA m c 0 (encA m c)))) (argAt m c main_arg1) (invCntK (argAt m c main_arg1)) := by
  refine (host6_v105 (W12 m ρ c)).trans ?_
  rw [W12_v100 fin, keep_v3_12_1, W1_v3, keep_v19_12_3, W3_v19]
  rfl

theorem W13_v108 : W13 (F := Ideal) m ρ c (Proc.devRef .tc main_call0_v108) = rowVec (sliceVec 2 (argAt m c main_arg11)) := by
  refine (host6_v108 (W12 m ρ c)).trans ?_
  rw [keep_arg11_12_0]

theorem W13_v111 : W13 (F := Ideal) m ρ c (Proc.devRef .tc main_call0_v111) = rowVec (sliceVec 2 (argAt m c main_arg12)) := by
  refine (host6_v111 (W12 m ρ c)).trans ?_
  rw [keep_arg12_12_0]

include fin in
theorem W13_v81 : W13 (F := Ideal) m ρ c (Proc.devRef .tc main_call0_v81) = (layerA m c 1 (layerA m c 0 (encA m c))) :=
  (keep_v81_13_10 m ρ c).trans (W10_v81 fin m ρ c)

/-! ## Layer 2: region 6 leaves the updated node array -/

include fin in
theorem W14_v112 : W14 (F := Ideal) m ρ c (Proc.devRef .tc main_call0_v112) = layerA m c 2 (layerA m c 1 (layerA m c 0 (encA m c))) := by
  refine (W14_arr m ρ c 4).trans ((fin.final6 (V13 m ρ) c).trans ?_)
  show nodeR (W13 m ρ c (Proc.devRef .tc main_call0_v81)) (W13 m ρ c (Proc.devRef .tc main_call0_v105)) (W13 m ρ c (Proc.devRef .tc main_call0_v108)) (W13 m ρ c (Proc.devRef .tc main_call0_v111)) = _
  rw [W13_v81 fin, W13_v105 fin, W13_v108, W13_v111]
  rfl

end Cert.KernelIdeal.FoldValue

end
-- ==== Proof.KerFold.lean ====
/-
  The two output heads, and the program's results.

  After the last stretch of host operations the heads' biases are rows; the last region leaves, in the program's two
  result arrays, the two heads applied to the node array after the three layers.  So each result of the program is the
  whole network (`netDepthK`, `netVelocityK`) of the argument arrays at launch.
-/
import proofs.«104585_j29386166239380_1_alg».proof.Proof.KerFold2

set_option maxRecDepth 16384
set_option maxHeartbeats 1000000

noncomputable section

namespace Cert.KernelIdeal.FoldValue

open Idealize.ShloMosaic Idealize.ShloMosaic.TcCoe Idealize.ShloMosaic.Tactic Idealize.ShloMosaic.StableHlo
open Idealize.ShloMosaic.ValueIdx Idealize.ShloMosaic.RowLocal Idealize.ShloMosaic.RowNorm Idealize.ShloMosaic.HostCast
open Cert.Layers Cert.KernelIdeal Cert.KernelIdeal.Gen

variable (fin : Finals) (m : (ℓ : Loc nD τ sig) → Buf (Elt Ideal) ℓ) (ρ : Dev nD → PrngReg) (c : Dev nD)

/-! ## What the buffers read by the heads kept from where they were last written -/

theorem keep_arg14_14_0 : W14 (F := Ideal) m ρ c (Proc.devRef .tc main_arg14) = m ((c : Thread nD τ).loc main_arg14) :=
  ((W14_of_ne m ρ c main_arg14 (by decide)).trans ((hstep6 (W12 m ρ c) main_arg14 (by decide)).trans ((W12_of_ne m ρ c main_arg14 (by decide)).trans ((hstep5 (W10 m ρ c) main_arg14 (by decide)).trans ((W10_of_ne m ρ c main_arg14 (by decide)).trans ((hstep4 (W8 m ρ c) main_arg14 (by decide)).trans ((W8_of_ne m ρ c main_arg14 (by decide)).trans ((hstep3 (W6 m ρ c) main_arg14 (by decide)).trans ((W6_of_ne m ρ c main_arg14 (by decide)).trans ((hstep2 (W4 m ρ c) main_arg14 (by decide)).trans ((W4_of_ne m ρ c main_arg14 (by decide)).trans ((hstep1 (W2 m ρ c) main_arg14 (by decide)).trans ((W2_of_ne m ρ c main_arg14 (by decide)).trans (hstep0 (W0 m ρ c) main_arg14 (by decide)))))))))))))))

theorem keep_arg16_14_0 : W14 (F := Ideal) m ρ c (Proc.devRef .tc main_arg16) = m ((c : Thread nD τ).loc main_arg16) :=
  ((W14_of_ne m ρ c main_arg16 (by decide)).trans ((hstep6 (W12 m ρ c) main_arg16 (by decide)).trans ((W12_of_ne m ρ c main_arg16 (by decide)).trans ((hstep5 (W10 m ρ c) main_arg16 (by decide)).trans ((W10_of_ne m ρ c main_arg16 (by decide)).trans ((hstep4 (W8 m ρ c) main_arg16 (by decide)).trans ((W8_of_ne m ρ c main_arg16 (by decide)).trans ((hstep3 (W6 m ρ c) main_arg16 (by decide)).trans ((W6_of_ne m ρ c main_arg16 (by decide)).trans ((hstep2 (W4 m ρ c) main_arg16 (by decide)).trans ((W4_of_ne m ρ c main_arg16 (by decide)).trans ((hstep1 (W2 m ρ c) main_arg16 (by decide)).trans ((W2_of_ne m ρ c main_arg16 (by decide)).trans (hstep0 (W0 m ρ c) main_arg16 (by decide)))))))))))))))

theorem keep_arg18_14_0 : W14 (F := Ideal) m ρ c (Proc.devRef .tc main_arg18) = m ((c : Thread nD τ).loc main_arg18) :=
  ((W14_of_ne m ρ c main_arg18 (by decide)).trans ((hstep6 (W12 m ρ c) main_arg18 (by decide)).trans ((W12_of_ne m ρ c main_arg18 (by decide)).trans ((hstep5 (W10 m ρ c) main_arg18 (by decide)).trans ((W10_of_ne m ρ c main_arg18 (by decide)).trans ((hstep4 (W8 m ρ c) main_arg18 (by decide)).trans ((W8_of_ne m ρ c main_arg18 (by decide)).trans ((hstep3 (W6 m ρ c) main_arg18 (by decide)).trans ((W6_of_ne m ρ c main_arg18 (by decide)).trans ((hstep2 (W4 m ρ c) main_arg18 (by decide)).trans ((W4_of_ne m ρ c main_arg18 (by decide)).trans ((hstep1 (W2 m ρ c) main_arg18 (by decide)).trans ((W2_of_ne m ρ c main_arg18 (by decide)).trans (hstep0 (W0 m ρ c) main_arg18 (by decide)))))))))))))))

theorem keep_arg20_14_0 : W14 (F := Ideal) m ρ c (Proc.devRef .tc main_arg20) = m ((c : Thread nD τ).loc main_arg20) :=
  ((W14_of_ne m ρ c main_arg20 (by decide)).trans ((hstep6 (W12 m ρ c) main_arg20 (by decide)).trans ((W12_of_ne m ρ c main_arg20 (by decide)).trans ((hstep5 (W10 m ρ c) main_arg20 (by decide)).trans ((W10_of_ne m ρ c main_arg20 (by decide)).trans ((hstep4 (W8 m ρ c) main_arg20 (by decide)).trans ((W8_of_ne m ρ c main_arg20 (by decide)).trans ((hstep3 (W6 m ρ c) main_arg20 (by decide)).trans ((W6_of_ne m ρ c main_arg20 (by decide)).trans ((hstep2 (W4 m ρ c) main_arg20 (by decide)).trans ((W4_of_ne m ρ c main_arg20 (by decide)).trans ((hstep1 (W2 m ρ c) main_arg20 (by decide)).trans ((W2_of_ne m ρ c main_arg20 (by decide)).trans (hstep0 (W0 m ρ c) main_arg20 (by decide)))))))))))))))

theorem keep_arg13_15_0 : W15 (F := Ideal) m ρ c (Proc.devRef .tc main_arg13) = m ((c : Thread nD τ).loc main_arg13) :=
  ((hstep7 (W14 m ρ c) main_arg13 (by decide)).trans ((W14_of_ne m ρ c main_arg13 (by decide)).trans ((hstep6 (W12 m ρ c) main_arg13 (by decide)).trans ((W12_of_ne m ρ c main_arg13 (by decide)).trans ((hstep5 (W10 m ρ c) main_arg13 (by decide)).trans ((W10_of_ne m ρ c main_arg13 (by decide)).trans ((hstep4 (W8 m ρ c) main_arg13 (by decide)).trans ((W8_of_ne m ρ c main_arg13 (by decide)).trans ((hstep3 (W6 m ρ c) main_arg13 (by decide)).trans ((W6_of_ne m ρ c main_arg13 (by decide)).trans ((hstep2 (W4 m ρ c) main_arg13 (by decide)).trans ((W4_of_ne m ρ c main_arg13 (by decide)).trans ((hstep1 (W2 m ρ c) main_arg13 (by decide)).trans ((W2_of_ne m ρ c main_arg13 (by decide)).trans (hstep0 (W0 m ρ c) main_arg13 (by decide))))))))))))))))

theorem keep_arg15_15_0 : W15 (F := Ideal) m ρ c (Proc.devRef .tc main_arg15) = m ((c : Thread nD τ).loc main_arg15) :=
  ((hstep7 (W14 m ρ c) main_arg15 (by decide)).trans ((W14_of_ne m ρ c main_arg15 (by decide)).trans ((hstep6 (W12 m ρ c) main_arg15 (by decide)).trans ((W12_of_ne m ρ c main_arg15 (by decide)).trans ((hstep5 (W10 m ρ c) main_arg15 (by decide)).trans ((W10_of_ne m ρ c main_arg15 (by decide)).trans ((hstep4 (W8 m ρ c) main_arg15 (by decide)).trans ((W8_of_ne m ρ c main_arg15 (by decide)).trans ((hstep3 (W6 m ρ c) main_arg15 (by decide)).trans ((W6_of_ne m ρ c main_arg15 (by decide)).trans ((hstep2 (W4 m ρ c) main_arg15 (by decide)).trans ((W4_of_ne m ρ c main_arg15 (by decide)).trans ((hstep1 (W2 m ρ c) main_arg15 (by decide)).trans ((W2_of_ne m ρ c main_arg15 (by decide)).trans (hstep0 (W0 m ρ c) main_arg15 (by decide))))))))))))))))

theorem keep_arg17_15_0 : W15 (F := Ideal) m ρ c (Proc.devRef .tc main_arg17) = m ((c : Thread nD τ).loc main_arg17) :=
  ((hstep7 (W14 m ρ c) main_arg17 (by decide)).trans ((W14_of_ne m ρ c main_arg17 (by decide)).trans ((hstep6 (W12 m ρ c) main_arg17 (by decide)).trans ((W12_of_ne m ρ c main_arg17 (by decide)).trans ((hstep5 (W10 m ρ c) main_arg17 (by decide)).trans ((W10_of_ne m ρ c main_arg17 (by decide)).trans ((hstep4 (W8 m ρ c) main_arg17 (by decide)).trans ((W8_of_ne m ρ c main_arg17 (by decide)).trans ((hstep3 (W6 m ρ c) main_arg17 (by decide)).trans ((W6_of_ne m ρ c main_arg17 (by decide)).trans ((hstep2 (W4 m ρ c) main_arg17 (by decide)).trans ((W4_of_ne m ρ c main_arg17 (by decide)).trans ((hstep1 (W2 m ρ c) main_arg17 (by decide)).trans ((W2_of_ne m ρ c main_arg17 (by decide)).trans (hstep0 (W0 m ρ c) main_arg17 (by decide))))))))))))))))

theorem keep_arg19_15_0 : W15 (F := Ideal) m ρ c (Proc.devRef .tc main_arg19) = m ((c : Thread nD τ).loc main_arg19) :=
  ((hstep7 (W14 m ρ c) main_arg19 (by decide)).trans ((W14_of_ne m ρ c main_arg19 (by decide)).trans ((hstep6 (W12 m ρ c) main_arg19 (by decide)).trans ((W12_of_ne m ρ c main_arg19 (by decide)).trans ((hstep5 (W10 m ρ c) main_arg19 (by decide)).trans ((W10_of_ne m ρ c main_arg19 (by decide)).trans ((hstep4 (W8 m ρ c) main_arg19 (by decide)).trans ((W8_of_ne m ρ c main_arg19 (by decide)).trans ((hstep3 (W6 m ρ c) main_arg19 (by decide)).trans ((W6_of_ne m ρ c main_arg19 (by decide)).trans ((hstep2 (W4 m ρ c) main_arg19 (by decide)).trans ((W4_of_ne m ρ c main_arg19 (by decide)).trans ((hstep1 (W2 m ρ c) main_arg19 (by decide)).trans ((W2_of_ne m ρ c main_arg19 (by decide)).trans (hstep0 (W0 m ρ c) main_arg19 (by decide))))))))))))))))

theorem keep_v112_15_14 : W15 (F := Ideal) m ρ c (Proc.devRef .tc main_call0_v112) = W14 m ρ c (Proc.devRef .tc main_call0_v112) :=
  (hstep7 (W14 m ρ c) main_call0_v112 (by decide))

/-! ## After stretch 7 -/

theorem W15_v113 : W15 (F := Ideal) m ρ c (Proc.devRef .tc main_call0_v113) = rowVec (argAt m c main_arg14) := by
  refine (host7_v113 (W14 m ρ c)).trans ?_
  rw [keep_arg14_14_0]

theorem W15_v114 : W15 (F := Ideal) m ρ c (Proc.devRef .tc main_call0_v114) = rowVec (argAt m c main_arg16) := by
  refine (host7_v114 (W14 m ρ c)).trans ?_
  rw [keep_arg16_14_0]

theorem W15_v115 : W15 (F := Ideal) m ρ c (Proc.devRef .tc main_call0_v115) = rowVec (argAt m c main_arg18) := by
  refine (host7_v115 (W14 m ρ c)).trans ?_
  rw [keep_arg18_14_0]

theorem W15_v116 : W15 (F := Ideal) m ρ c (Proc.devRef .tc main_call0_v116) = rowVec (argAt m c main_arg20) := by
  refine (host7_v116 (W14 m ρ c)).trans ?_
  rw [keep_arg20_14_0]

include fin in
theorem W15_v112 : W15 (F := Ideal) m ρ c (Proc.devRef .tc main_call0_v112) = (layerA m c 2 (layerA m c 1 (layerA m c 0 (encA m c)))) :=
  (keep_v112_15_14 m ρ c).trans (W14_v112 fin m ρ c)

/-! ## Region 7 leaves the two heads: the program's results -/

include fin in
/-- The program's first result is the first head of the network of the argument arrays at launch. -/
theorem result_depth : W16 (F := Ideal) m ρ c (Proc.devRef .tc main_v0_0)
    = netDepthK (argAt m c main_arg0) (argAt m c main_arg1) (argAt m c main_arg2) (argAt m c main_arg3) (argAt m c main_arg4) (argAt m c main_arg5) (argAt m c main_arg6) (argAt m c main_arg7) (argAt m c main_arg8) (argAt m c main_arg9) (argAt m c main_arg10) (argAt m c main_arg11) (argAt m c main_arg12) (argAt m c main_arg13) (argAt m c main_arg14) (argAt m c main_arg15) (argAt m c main_arg16) := by
  refine (W16_arr m ρ c 9).trans ((fin.final7_9 (V15 m ρ) c).trans ?_)
  show mlpR (W15 m ρ c (Proc.devRef .tc main_call0_v112)) (W15 m ρ c (Proc.devRef .tc main_arg13)) (W15 m ρ c (Proc.devRef .tc main_call0_v113))
    (W15 m ρ c (Proc.devRef .tc main_arg15)) (W15 m ρ c (Proc.devRef .tc main_call0_v114)) = _
  rw [W15_v112 fin, keep_arg13_15_0, W15_v113, keep_arg15_15_0, W15_v114]
  rfl

include fin in
/-- The program's second result is the second head of the network of the argument arrays at launch. -/
theorem result_velocity : W16 (F := Ideal) m ρ c (Proc.devRef .tc main_v0_1)
    = netVelocityK (argAt m c main_arg0) (argAt m c main_arg1) (argAt m c main_arg2) (argAt m c main_arg3) (argAt m c main_arg4) (argAt m c main_arg5) (argAt m c main_arg6) (argAt m c main_arg7) (argAt m c main_arg8) (argAt m c main_arg9) (argAt m c main_arg10) (argAt m c main_arg11) (argAt m c main_arg12) (argAt m c main_arg17) (argAt m c main_arg18) (argAt m c main_arg19) (argAt m c main_arg20) := by
  refine (W16_arr m ρ c 10).trans ((fin.final7_10 (V15 m ρ) c).trans ?_)
  show mlpR (W15 m ρ c (Proc.devRef .tc main_call0_v112)) (W15 m ρ c (Proc.devRef .tc main_arg17)) (W15 m ρ c (Proc.devRef .tc main_call0_v115))
    (W15 m ρ c (Proc.devRef .tc main_arg19)) (W15 m ρ c (Proc.devRef .tc main_call0_v116)) = _
  rw [W15_v112 fin, keep_arg17_15_0, W15_v115, keep_arg19_15_0, W15_v116]
  rfl

end Cert.KernelIdeal.FoldValue

end
-- ==== Proof.LibColumn.lean ====
/-
  A vector laid out as a column, read at an index.

  An [a] array reshaped to [a, 1] reads, at (i, u), the operand at i, whatever the unit coordinate u: both indices have
  the same position in row-major order.
-/
import Idealize.ShloMosaic.Lib.Pipeline.Value
import Idealize.ShloMosaic.Lib.ValueIdx

namespace Idealize.ShloMosaic.ValueIdx

open Idealize.ShloMosaic

variable {α : Type}

/-- An `[a]` array cast to `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Idealize.ShloMosaic.ValueIdx
-- ==== Proof.LibKerNorm.lean ====
/-
  A vector unit's layer normalisation of a `[K, Q]` block IS the entrywise layer normalisation.

  The chain: the lane sum of every row kept as a column `[K, 1]`, divided by the splat of a word `nW` (the mean);
  the column laid back along the rows and subtracted (the centred block); the lane sum of its squares, again a column,
  divided by the same splat (the variance); the splat of a word `eW` added; the reciprocal square root; that column
  laid along the rows and multiplied in; a `[1, Q]` scale row laid along the rows and multiplied in; a `[1, Q]` shift
  row added.  Read at `(p, q)` this is `(A (p,q) − mean p) · rsqrt (var p + ε) · G (0,q) + Bt (0,q)`.
-/
import proofs.«104585_j29386166239380_1_alg».proof.Proof.LibRowNorm
import proofs.«104585_j29386166239380_1_alg».proof.Proof.LibColumn
import Idealize.ShloMosaic.Lib.ValueLayout
import Idealize.ShloMosaic.PureOps.Ideal.Laws

noncomputable section

namespace Idealize.ShloMosaic.KerNorm

open Idealize.ShloMosaic Idealize.ShloMosaic.ValueIdx Idealize.ShloMosaic.RowLocal Idealize.ShloMosaic.RowNorm

/-- A `[a, 1]` column broadcast to `[a, b]` reads, at `(p, c)`, the operand's row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

section
variable {K Q : ℕ} (nW eW : BitVec 32)
  (hr : (⟨2, ![K, Q]⟩ : Shape).Reduces [1] ⟨1, ![K]⟩) (hφ : FKind.Formats .f32)
  (hacc : (0x00000000#32 : BitVec 32) = FKind.add.neutral .f32 hφ)
  (hc : (⟨1, ![K]⟩ : Shape).ShapeCasts ⟨2, ![K, 1]⟩)
  (hb : (⟨2, ![K, 1]⟩ : Shape).Broadcasts ⟨2, ![K, Q]⟩) (hbr : (⟨2, ![1, Q]⟩ : Shape).Broadcasts ⟨2, ![K, Q]⟩)

/-- A lane sum of a `[K, Q]` block kept as a column, read at row `p`: the sum of that row. -/
theorem laneSum_col_apply (A : FVec Ideal ⟨2, ![K, Q]⟩ .f32) (p : Fin K) :
    shapeCast ⟨2, ![K, 1]⟩ (multiReduction .add [1] ⟨1, ![K]⟩ A 0x00000000#32 hr hφ hacc) hc (ix2 p (0 : Fin 1))
      = ∑ q : Fin Q, A (ix2 p q) := by
  rw [shapeCast_a_a1_apply, Ideal.multiReduction_add_single]
  refine Finset.sum_congr rfl fun q _ => congrArg A (funext fun a => Fin.ext ?_)
  match a with
  | ⟨0, _⟩ => rfl
  | ⟨1, _⟩ => rfl

/-- The column of row means. -/
def kerMean (A : FVec Ideal ⟨2, ![K, Q]⟩ .f32) : FVec Ideal ⟨2, ![K, 1]⟩ .f32 :=
  divf (shapeCast ⟨2, ![K, 1]⟩ (multiReduction .add [1] ⟨1, ![K]⟩ A 0x00000000#32 hr hφ hacc) hc)
    (broadcast ⟨2, ![K, 1]⟩ (Scalar.ofBits (F := Ideal) .f32 nW))

/-- The block minus its row means. -/
def kerCentred (A : FVec Ideal ⟨2, ![K, Q]⟩ .f32) : FVec Ideal ⟨2, ![K, Q]⟩ .f32 :=
  subf A (broadcastTo ⟨2, ![K, Q]⟩ (kerMean nW hr hφ hacc hc A) hb)

/-- The column of row variances. -/
def kerVar (A : FVec Ideal ⟨2, ![K, Q]⟩ .f32) : FVec Ideal ⟨2, ![K, 1]⟩ .f32 :=
  divf (shapeCast ⟨2, ![K, 1]⟩ (multiReduction .add [1] ⟨1, ![K]⟩
      (mulf (kerCentred nW hr hφ hacc hc hb A) (kerCentred nW hr hφ hacc hc hb A)) 0x00000000#32 hr hφ hacc) hc)
    (broadcast ⟨2, ![K, 1]⟩ (Scalar.ofBits (F := Ideal) .f32 nW))

/-- The vector unit's normalisation of the block `A` with scale row `G` and shift row `Bt`. -/
def kerNorm (A : FVec Ideal ⟨2, ![K, Q]⟩ .f32) (G Bt : FVec Ideal ⟨2, ![1, Q]⟩ .f32) : FVec Ideal ⟨2, ![K, Q]⟩ .f32 :=
  addf (mulf (mulf (kerCentred nW hr hφ hacc hc hb A)
      (broadcastTo ⟨2, ![K, Q]⟩ (rsqrt (addf (kerVar nW hr hφ hacc hc hb A)
        (broadcast ⟨2, ![K, 1]⟩ (Scalar.ofBits (F := Ideal) .f32 eW)))) hb))
      (broadcastTo ⟨2, ![K, Q]⟩ G hbr)) (broadcastTo ⟨2, ![K, Q]⟩ Bt hbr)

theorem kerMean_apply (A : FVec Ideal ⟨2, ![K, Q]⟩ .f32) (p : Fin K) :
    kerMean nW hr hφ hacc hc A (ix2 p (0 : Fin 1)) = rowMean nW A p := by
  show Ideal.div (shapeCast ⟨2, ![K, 1]⟩ (multiReduction .add [1] ⟨1, ![K]⟩ A 0x00000000#32 hr hφ hacc) hc (ix2 p (0 : Fin 1)))
    (Ideal.ofBits .f32 nW) = _
  rw [laneSum_col_apply]
  rfl

theorem kerCentred_apply (A : FVec Ideal ⟨2, ![K, Q]⟩ .f32) (p : Fin K) (q : Fin Q) :
    kerCentred nW hr hφ hacc hc hb A (ix2 p q) = centred nW A (ix2 p q) := by
  show A (ix2 p q) - broadcastTo ⟨2, ![K, Q]⟩ (kerMean nW hr hφ hacc hc A) hb (ix2 p q) = A (ix2 p q) - rowMean nW A p
  rw [broadcastTo_a1_ab_apply, kerMean_apply]

theorem kerVar_apply (A : FVec Ideal ⟨2, ![K, Q]⟩ .f32) (p : Fin K) :
    kerVar nW hr hφ hacc hc hb A (ix2 p (0 : Fin 1)) = rowVar nW A p := by
  show Ideal.div (shapeCast ⟨2, ![K, 1]⟩ (multiReduction .add [1] ⟨1, ![K]⟩
      (mulf (kerCentred nW hr hφ hacc hc hb A) (kerCentred nW hr hφ hacc hc hb A)) 0x00000000#32 hr hφ hacc) hc (ix2 p (0 : Fin 1)))
    (Ideal.ofBits .f32 nW) = Ideal.div (∑ q : Fin Q, centred nW A (ix2 p q) * centred nW A (ix2 p q)) (Ideal.ofBits .f32 nW)
  rw [laneSum_col_apply]
  refine congrArg (fun s => Ideal.div s (Ideal.ofBits .f32 nW)) (Finset.sum_congr rfl fun q _ => ?_)
  show kerCentred nW hr hφ hacc hc hb A (ix2 p q) * kerCentred nW hr hφ hacc hc hb A (ix2 p q) = _
  rw [kerCentred_apply]

/-- The vector unit's normalisation is the entrywise one. -/
theorem kerNorm_eq (A : FVec Ideal ⟨2, ![K, Q]⟩ .f32) (G Bt : FVec Ideal ⟨2, ![1, Q]⟩ .f32) :
    kerNorm nW eW hr hφ hacc hc hb hbr A G Bt = lnorm (K := K) nW eW A G Bt := by
  funext i
  obtain ⟨p, q, rfl⟩ : ∃ (p : Fin K) (q : Fin Q), i = ix2 p q := ⟨i 0, i 1, eq_ix2 i⟩
  show kerCentred nW hr hφ hacc hc hb A (ix2 p q)
        * broadcastTo ⟨2, ![K, Q]⟩ (rsqrt (addf (kerVar nW hr hφ hacc hc hb A)
            (broadcast ⟨2, ![K, 1]⟩ (Scalar.ofBits (F := Ideal) .f32 eW)))) hb (ix2 p q)
        * broadcastTo ⟨2, ![K, Q]⟩ G hbr (ix2 p q) + broadcastTo ⟨2, ![K, Q]⟩ Bt hbr (ix2 p q)
      = centred nW A (ix2 p q) * Ideal.rsqrt (rowVar nW A p + Ideal.ofBits .f32 eW) * G (ix2 (0 : Fin 1) q)
        + Bt (ix2 (0 : Fin 1) q)
  rw [broadcastTo_a1_ab_apply, broadcastTo_1b_ab_apply, broadcastTo_1b_ab_apply, kerCentred_apply]
  show _ * Ideal.rsqrt (kerVar nW hr hφ hacc hc hb A (ix2 p (0 : Fin 1)) + Ideal.ofBits .f32 eW) * _ + _ = _
  rw [kerVar_apply]

end

end Idealize.ShloMosaic.KerNorm

end
-- ==== Proof.KerLayers.lean ====
/-
  The kernel bodies' arithmetic, read as the entrywise layers on a block of rows.

  Each body computes its stored block from the blocks it loads by matrix-unit products into zero accumulators, bias rows laid
  along the rows, maxima with zero, and (encoder, node update) the vector unit's layer normalisation.  At the extended reals a
  change of float format is the identity, so each is the layer of Layers.lean applied to the loaded block of rows.
-/
import proofs.«104585_j29386166239380_1_alg».proof.Proof.Gen.KernelIdeal.Skeleton
import proofs.«104585_j29386166239380_1_alg».proof.Proof.Layers
import proofs.«104585_j29386166239380_1_alg».proof.Proof.LibKerNorm
import Idealize.ShloMosaic.Lib.Pipeline.Value

noncomputable section

namespace Cert.KernelIdeal.RegionValue

open Idealize.ShloMosaic Idealize.ShloMosaic.ValueIdx Idealize.ShloMosaic.RowLocal Idealize.ShloMosaic.RowNorm
open Idealize.ShloMosaic.KerNorm Idealize.ShloMosaic.DenseBlock Cert.Layers Cert.KernelIdeal Cert.KernelIdeal.Gen

theorem dims_16000_67_32 : dot_S16000x67_S67x32_S16000x32_1_0_0_1_n_n
    = mmDims 16000 67 32 dot_S16000x67_S67x32_S16000x32_1_0_0_1_n_n_wf := rfl
theorem dims_16000_32_64 : dot_S16000x32_S32x64_S16000x64_1_0_0_1_n_n
    = mmDims 16000 32 64 dot_S16000x32_S32x64_S16000x64_1_0_0_1_n_n_wf := rfl
theorem dims_5000_16_64 : dot_S5000x16_S16x64_S5000x64_1_0_0_1_n_n
    = mmDims 5000 16 64 dot_S5000x16_S16x64_S5000x64_1_0_0_1_n_n_wf := rfl
theorem dims_10000_64_32 : dot_S10000x64_S64x32_S10000x32_1_0_0_1_n_n
    = mmDims 10000 64 32 dot_S10000x64_S64x32_S10000x32_1_0_0_1_n_n_wf := rfl
theorem dims_10000_32_1 : dot_S10000x32_S32x1_S10000x1_1_0_0_1_n_n
    = mmDims 10000 32 1 dot_S10000x32_S32x1_S10000x1_1_0_0_1_n_n_wf := rfl
theorem dims_10000_32_2 : dot_S10000x32_S32x2_S10000x2_1_0_0_1_n_n
    = mmDims 10000 32 2 dot_S10000x32_S32x2_S10000x2_1_0_0_1_n_n_wf := rfl

/-- The encoder's body (region 0) on a block of 5000 rows. -/
theorem encode_pay0 (x0 : Vec Ideal S5000x16 .f32) (x1 : Vec Ideal S16x64 .f32) (x2 x3 x4 : Vec Ideal S1x64 .f32) :
    k0_pay1 (F := Ideal) x0 x1 x2 x3 x4 = encodeR (K := 5000) x0 x1 x2 x3 x4 := by
  unfold k0_pay1
  simp only [shapeCast_self, Idealize.ShloMosaic.matmul]
  rw [dims_5000_16_64, matmul_eq_dense, addRow_eq_biased _ x2, maxZero_eq_relu]
  refine Eq.trans (congrArg (relu (K := 5000) (Q := 64)) (kerNorm_eq w64 wEps reduces_S5000x64_S5000 (.inl rfl) rfl
    shapeCasts_S5000_S5000x1 broadcasts_S5000x1_S5000x64 broadcasts_S1x64_S5000x64 _ x3 x4)) ?_
  rfl

/-- The per-edge network's body (region 1) on a block of 16000 rows. -/
theorem edge_pay1 (x0 : Vec Ideal S16000x67 .f32) (x1 : Vec Ideal S67x32 .f32) (x2 : Vec Ideal S1x32 .f32)
    (x3 : Vec Ideal S32x64 .f32) (x4 : Vec Ideal S1x64 .f32) :
    k1_pay1 (F := Ideal) x0 x1 x2 x3 x4 = mlpR (K := 16000) x0 x1 x2 x3 x4 := by
  unfold k1_pay1
  simp only [shapeCast_self, Idealize.ShloMosaic.matmul]
  rw [dims_16000_67_32, dims_16000_32_64, matmul_eq_dense, addRow_eq_biased, maxZero_eq_relu, matmul_eq_dense,
    addRow_eq_biased]
  rfl

/-- The per-edge network's body (region 3) on a block of 16000 rows. -/
theorem edge_pay3 (x0 : Vec Ideal S16000x67 .f32) (x1 : Vec Ideal S67x32 .f32) (x2 : Vec Ideal S1x32 .f32)
    (x3 : Vec Ideal S32x64 .f32) (x4 : Vec Ideal S1x64 .f32) :
    k3_pay1 (F := Ideal) x0 x1 x2 x3 x4 = mlpR (K := 16000) x0 x1 x2 x3 x4 := by
  unfold k3_pay1
  simp only [shapeCast_self, Idealize.ShloMosaic.matmul]
  rw [dims_16000_67_32, dims_16000_32_64, matmul_eq_dense, addRow_eq_biased, maxZero_eq_relu, matmul_eq_dense,
    addRow_eq_biased]
  rfl

/-- The per-edge network's body (region 5) on a block of 16000 rows. -/
theorem edge_pay5 (x0 : Vec Ideal S16000x67 .f32) (x1 : Vec Ideal S67x32 .f32) (x2 : Vec Ideal S1x32 .f32)
    (x3 : Vec Ideal S32x64 .f32) (x4 : Vec Ideal S1x64 .f32) :
    k5_pay1 (F := Ideal) x0 x1 x2 x3 x4 = mlpR (K := 16000) x0 x1 x2 x3 x4 := by
  unfold k5_pay1
  simp only [shapeCast_self, Idealize.ShloMosaic.matmul]
  rw [dims_16000_67_32, dims_16000_32_64, matmul_eq_dense, addRow_eq_biased, maxZero_eq_relu, matmul_eq_dense,
    addRow_eq_biased]
  rfl

/-- The node update's body (region 2) on a block of 10000 rows. -/
theorem node_pay2 (x0 x1 : Vec Ideal S10000x64 .f32) (x2 x3 : Vec Ideal S1x64 .f32) :
    k2_pay1 (F := Ideal) x0 x1 x2 x3 = nodeR (K := 10000) x0 x1 x2 x3 := by
  unfold k2_pay1
  simp only [shapeCast_self]
  exact kerNorm_eq w64 wEps reduces_S10000x64_S10000 (.inl rfl) rfl shapeCasts_S10000_S10000x1
    broadcasts_S10000x1_S10000x64 broadcasts_S1x64_S10000x64 (addf x0 x1) x2 x3

/-- The node update's body (region 4) on a block of 10000 rows. -/
theorem node_pay4 (x0 x1 : Vec Ideal S10000x64 .f32) (x2 x3 : Vec Ideal S1x64 .f32) :
    k4_pay1 (F := Ideal) x0 x1 x2 x3 = nodeR (K := 10000) x0 x1 x2 x3 := by
  unfold k4_pay1
  simp only [shapeCast_self]
  exact kerNorm_eq w64 wEps reduces_S10000x64_S10000 (.inl rfl) rfl shapeCasts_S10000_S10000x1
    broadcasts_S10000x1_S10000x64 broadcasts_S1x64_S10000x64 (addf x0 x1) x2 x3

/-- The node update's body (region 6) on a block of 10000 rows. -/
theorem node_pay6 (x0 x1 : Vec Ideal S10000x64 .f32) (x2 x3 : Vec Ideal S1x64 .f32) :
    k6_pay1 (F := Ideal) x0 x1 x2 x3 = nodeR (K := 10000) x0 x1 x2 x3 := by
  unfold k6_pay1
  simp only [shapeCast_self]
  exact kerNorm_eq w64 wEps reduces_S10000x64_S10000 (.inl rfl) rfl shapeCasts_S10000_S10000x1
    broadcasts_S10000x1_S10000x64 broadcasts_S1x64_S10000x64 (addf x0 x1) x2 x3

/-- The depth head's body (region 7, output window 9) on a block of 10000 rows. -/
theorem depth_pay7 (x0 : Vec Ideal S10000x64 .f32) (x1 : Vec Ideal S64x32 .f32) (x2 : Vec Ideal S1x32 .f32)
    (x3 : Vec Ideal S32x1 .f32) (x4 : Vec Ideal S1x1 .f32) :
    k7_pay3 (F := Ideal) x0 x1 x2 x3 x4 = mlpR (K := 10000) x0 x1 x2 x3 x4 := by
  unfold k7_pay3 k7_pay2
  simp only [shapeCast_self, Idealize.ShloMosaic.matmul]
  rw [dims_10000_64_32, dims_10000_32_1, matmul_eq_dense, addRow_eq_biased, maxZero_eq_relu, matmul_eq_dense,
    addRow_eq_biased]
  rfl

/-- The velocity head's body (region 7, output window 10) on a block of 10000 rows. -/
theorem velocity_pay7 (x0 : Vec Ideal S10000x64 .f32) (x5 : Vec Ideal S64x32 .f32) (x6 : Vec Ideal S1x32 .f32)
    (x7 : Vec Ideal S32x2 .f32) (x8 : Vec Ideal S1x2 .f32) :
    k7_pay1 (F := Ideal) (k7_pay4 (F := Ideal) x0 x5 x6 x7) x8 = mlpR (K := 10000) x0 x5 x6 x7 x8 := by
  unfold k7_pay1 k7_pay4 k7_pay2
  simp only [shapeCast_self, Idealize.ShloMosaic.matmul]
  rw [dims_10000_64_32, dims_10000_32_2, matmul_eq_dense, addRow_eq_biased, maxZero_eq_relu, matmul_eq_dense,
    addRow_eq_biased]
  rfl

end Cert.KernelIdeal.RegionValue

end
-- ==== Proof.RegionBase.lean ====
/-
  The zero offset of a rank-2 block, as the constant function.
-/
import Mathlib.Data.Fin.VecNotation

namespace Cert.KernelIdeal.RegionValue

theorem hz2 : (![0, 0] : Fin 2 → Nat) = fun _ => 0 := funext fun a => by
  match a with
  | ⟨0, _⟩ => rfl
  | ⟨1, _⟩ => rfl

end Cert.KernelIdeal.RegionValue
-- ==== Proof.Region0.lean ====
/-
  Region 0 (the encoder): its result array is the encoder applied to the arrays it found.
  Every grid point stages a block of rows of each row-blocked array and the whole of each parameter array, runs the body,
  and writes back a block of rows of the result.  The body's value on a block is the layer of that block (KerLayers.lean),
  the layer acts row by row, and the blocks of rows tile the result array: so the array ends holding the layer of the whole arrays.
-/
import proofs.«104585_j29386166239380_1_alg».proof.Proof.Gen.KernelIdeal.Frame
import proofs.«104585_j29386166239380_1_alg».proof.Proof.KerLayers
import proofs.«104585_j29386166239380_1_alg».proof.Proof.RegionBase

set_option maxRecDepth 16384

noncomputable section

namespace Cert.KernelIdeal.RegionValue

open Idealize.ShloMosaic Idealize.ShloMosaic.TcCoe Idealize.ShloMosaic.ValueIdx Idealize.ShloMosaic.RowLocal
open Idealize.ShloMosaic.RowNorm Cert.Layers Cert.KernelIdeal Cert.KernelIdeal.Gen Idealize.SL.Sem

variable (V : (c : Dev nD) → (b : Ref sig .tc) → Buf (Elt Ideal) ((c : Thread nD τ).loc b))

/-- The printed index maps over the 10 grid points: a row-blocked window sits at block `t` of axis 0, every parameter
    window at block 0. -/
theorem idx0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

theorem lt0 (t : Fin cfg0.N) : t.val < 10 := lt_of_lt_of_eq t.isLt N_0

theorem rows0 (t : Fin cfg0.N) : ∀ p : Fin 5000, 5000 * t.val + p.val < 50000 := fun p => by
  have := lt0 t; have := p.isLt; omega

/-- Row-blocked window 0's block at point `t` is rows `5000·t …` of its array. -/
theorem blk0_0 (c : Dev nD) (t : Fin cfg0.N) :
    iblk0 V c 0 t = rowsOf (K := 50000) (Q := 16) 5000 t.val (rows0 t) (V c (Pipeline.arrRef spec0 0)) := by
  have e := idx0 t
  funext j
  show V c (Pipeline.arrRef spec0 0) (((cfg0.win 0).blk t).view.emb j)
    = V c (Pipeline.arrRef spec0 0) (ix2 ⟨5000 * t.val + (j 0).val, rows0 t (j 0)⟩ (j 1))
  refine congrArg _ (funext fun a => Fin.ext ?_)
  match a with
  | ⟨0, _⟩ => show win0_0.index t (0 : Fin 2) * 5000 + 1 * (j 0).val = 5000 * t.val + (j 0).val; omega
  | ⟨1, _⟩ => show win0_0.index t (1 : Fin 2) * 16 + 1 * (j 1).val = (j 1).val; omega

/-- Parameter window 1's block at every point is its whole array. -/
theorem blk0_1 (c : Dev nD) (t : Fin cfg0.N) : iblk0 V c 1 t = V c (Pipeline.arrRef spec0 1) := by
  have e := idx0 t
  funext j
  show V c (Pipeline.arrRef spec0 1) (((cfg0.win 1).blk t).view.emb j) = V c (Pipeline.arrRef spec0 1) j
  refine congrArg _ (funext fun a => Fin.ext ?_)
  match a with
  | ⟨0, _⟩ => show win0_1.index t (0 : Fin 2) * 16 + 1 * (j 0).val = (j 0).val; omega
  | ⟨1, _⟩ => show win0_1.index t (1 : Fin 2) * 64 + 1 * (j 1).val = (j 1).val; omega

/-- Parameter window 2's block at every point is its whole array. -/
theorem blk0_2 (c : Dev nD) (t : Fin cfg0.N) : iblk0 V c 2 t = V c (Pipeline.arrRef spec0 2) := by
  have e := idx0 t
  funext j
  show V c (Pipeline.arrRef spec0 2) (((cfg0.win 2).blk t).view.emb j) = V c (Pipeline.arrRef spec0 2) j
  refine congrArg _ (funext fun a => Fin.ext ?_)
  match a with
  | ⟨0, _⟩ => show win0_2.index t (0 : Fin 2) * 1 + 1 * (j 0).val = (j 0).val; omega
  | ⟨1, _⟩ => show win0_2.index t (1 : Fin 2) * 64 + 1 * (j 1).val = (j 1).val; omega

/-- Parameter window 3's block at every point is its whole array. -/
theorem blk0_3 (c : Dev nD) (t : Fin cfg0.N) : iblk0 V c 3 t = V c (Pipeline.arrRef spec0 3) := by
  have e := idx0 t
  funext j
  show V c (Pipeline.arrRef spec0 3) (((cfg0.win 3).blk t).view.emb j) = V c (Pipeline.arrRef spec0 3) j
  refine congrArg _ (funext fun a => Fin.ext ?_)
  match a with
  | ⟨0, _⟩ => show win0_3.index t (0 : Fin 2) * 1 + 1 * (j 0).val = (j 0).val; omega
  | ⟨1, _⟩ => show win0_3.index t (1 : Fin 2) * 64 + 1 * (j 1).val = (j 1).val; omega

/-- Parameter window 4's block at every point is its whole array. -/
theorem blk0_4 (c : Dev nD) (t : Fin cfg0.N) : iblk0 V c 4 t = V c (Pipeline.arrRef spec0 4) := by
  have e := idx0 t
  funext j
  show V c (Pipeline.arrRef spec0 4) (((cfg0.win 4).blk t).view.emb j) = V c (Pipeline.arrRef spec0 4) j
  refine congrArg _ (funext fun a => Fin.ext ?_)
  match a with
  | ⟨0, _⟩ => show win0_4.index t (0 : Fin 2) * 1 + 1 * (j 0).val = (j 0).val; omega
  | ⟨1, _⟩ => show win0_4.index t (1 : Fin 2) * 64 + 1 * (j 1).val = (j 1).val; omega

set_option maxHeartbeats 4000000 in
/-- What point `t` writes back to window 5 is block `t` of the layer applied to the whole arrays. -/
theorem flushed0 (c : Dev nD) (t : Fin cfg0.N) :
    (dat0 (F := Ideal) V c).flushed 5 t = ((cfg0.win 5).blk t).view.read (Elt Ideal)
      (encodeR (K := 50000) (V c (Pipeline.arrRef spec0 0)) (V c (Pipeline.arrRef spec0 1)) (V c (Pipeline.arrRef spec0 2)) (V c (Pipeline.arrRef spec0 3)) (V c (Pipeline.arrRef spec0 4))) := by
  show (cfg0.win 5).cut (grid0.coords t) ((dat0 V c).after 5 t) = _
  rw [after0_5]
  unfold out0_5
  rw [View.canon_unit_zero hz2]
  simp only [View.ld_unit_zero (S := S5000x16) hz2, View.ld_unit_zero (S := S16x64) hz2, View.ld_unit_zero (S := S1x64) hz2]
  rw [encode_pay0]
  rw [blk0_0]
  rw [blk0_1]
  rw [blk0_2]
  rw [blk0_3]
  rw [blk0_4]
  rw [← rowsOf_encodeR]
  have e := idx0 t
  funext j
  show (encodeR (K := 50000) (V c (Pipeline.arrRef spec0 0)) (V c (Pipeline.arrRef spec0 1)) (V c (Pipeline.arrRef spec0 2)) (V c (Pipeline.arrRef spec0 3)) (V c (Pipeline.arrRef spec0 4))) (ix2 ⟨5000 * t.val + (j 0).val, rows0 t (j 0)⟩ (j 1))
    = (encodeR (K := 50000) (V c (Pipeline.arrRef spec0 0)) (V c (Pipeline.arrRef spec0 1)) (V c (Pipeline.arrRef spec0 2)) (V c (Pipeline.arrRef spec0 3)) (V c (Pipeline.arrRef spec0 4))) (((cfg0.win 5).blk t).view.emb j)
  refine congrArg _ (funext fun a => Fin.ext ?_)
  match a with
  | ⟨0, _⟩ => show 5000 * t.val + (j 0).val = win0_5.index t (0 : Fin 2) * 5000 + 1 * (j 0).val; omega
  | ⟨1, _⟩ => show (j 1).val = win0_5.index t (1 : Fin 2) * 64 + 1 * (j 1).val; omega

/-- An index of window 5's array is in point `t`'s block iff each coordinate is in the block's range. -/
theorem mem_blk0 (t : Fin cfg0.N) (i : S50000x64.Idx) :
    i ∈ ((cfg0.win 5).blk t).view.set ↔ ∀ a : Fin 2, win0_5.index t a * S5000x64.size a ≤ (i a).val
      ∧ (i a).val < win0_5.index t a * S5000x64.size a + S5000x64.size a := by
  show i ∈ ((View.whole (Pipeline.arrRef spec0 5)).slice (win0_5.rect t)).set ↔ _
  rw [View.set_slice_whole, Rect.mem_set_unit]
  exact Iff.rfl

/-- Every row lies in the block of the point `row / 5000`. -/
theorem cover0 (i : S50000x64.Idx) :
    ∃ t : Fin cfg0.N, (cfg0.win 5).flush t = true ∧ i ∈ ((cfg0.win 5).blk t).view.set := by
  have hi0 : (i 0).val < 50000 := (i 0).isLt
  have hi1 : (i 1).val < 64 := (i 1).isLt
  let t : Fin cfg0.N := ⟨(i 0).val / 5000, by rw [show cfg0.N = 10 from N_0]; omega⟩
  have ht : t.val = (i 0).val / 5000 := rfl
  have e := idx0 t
  refine ⟨t, flush0_5 t, ?_⟩
  rw [mem_blk0]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 64 ≤ (i 1).val ∧ (i 1).val < win0_5.index t (1 : Fin 2) * 64 + 64; omega

/-- Region 0 leaves in window 5's array the layer applied to the arrays it found. -/
theorem final0 (c : Dev nD) :
    (dat0 (F := Ideal) V c).arrAt 5 cfg0.N
      = encodeR (K := 50000) (V c (Pipeline.arrRef spec0 0)) (V c (Pipeline.arrRef spec0 1)) (V c (Pipeline.arrRef spec0 2)) (V c (Pipeline.arrRef spec0 3)) (V c (Pipeline.arrRef spec0 4)) :=
  (dat0 V c).arrAt_eq_of_cover 5 _ (fun t _ => flushed0 V c t) cover0

end Cert.KernelIdeal.RegionValue

end
-- ==== Proof.Region1.lean ====
/-
  Region 1 (the per-edge network of layer 0): its result array is the network applied to the arrays it found.
  Every grid point stages a block of rows of each row-blocked array and the whole of each parameter array, runs the body,
  and writes back a block of rows of the result.  The body's value on a block is the layer of that block (KerLayers.lean),
  the layer acts row by row, and the blocks of rows tile the result array: so the array ends holding the layer of the whole arrays.
-/
import proofs.«104585_j29386166239380_1_alg».proof.Proof.Gen.KernelIdeal.Frame
import proofs.«104585_j29386166239380_1_alg».proof.Proof.KerLayers
import proofs.«104585_j29386166239380_1_alg».proof.Proof.RegionBase

set_option maxRecDepth 16384

noncomputable section

namespace Cert.KernelIdeal.RegionValue

open Idealize.ShloMosaic Idealize.ShloMosaic.TcCoe Idealize.ShloMosaic.ValueIdx Idealize.ShloMosaic.RowLocal
open Idealize.ShloMosaic.RowNorm Cert.Layers Cert.KernelIdeal Cert.KernelIdeal.Gen Idealize.SL.Sem

variable (V : (c : Dev nD) → (b : Ref sig .tc) → Buf (Elt Ideal) ((c : Thread nD τ).loc b))

/-- The printed index maps over the 50 grid points: a row-blocked window sits at block `t` of axis 0, every parameter
    window at block 0. -/
theorem idx1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

theorem lt1 (t : Fin cfg1.N) : t.val < 50 := lt_of_lt_of_eq t.isLt N_1

theorem rows1 (t : Fin cfg1.N) : ∀ p : Fin 16000, 16000 * t.val + p.val < 800000 := fun p => by
  have := lt1 t; have := p.isLt; omega

/-- Row-blocked window 0's block at point `t` is rows `16000·t …` of its array. -/
theorem blk1_0 (c : Dev nD) (t : Fin cfg1.N) :
    iblk1 V c 0 t = rowsOf (K := 800000) (Q := 67) 16000 t.val (rows1 t) (V c (Pipeline.arrRef spec1 0)) := by
  have e := idx1 t
  funext j
  show V c (Pipeline.arrRef spec1 0) (((cfg1.win 0).blk t).view.emb j)
    = V c (Pipeline.arrRef spec1 0) (ix2 ⟨16000 * t.val + (j 0).val, rows1 t (j 0)⟩ (j 1))
  refine congrArg _ (funext fun a => Fin.ext ?_)
  match a with
  | ⟨0, _⟩ => show win1_0.index t (0 : Fin 2) * 16000 + 1 * (j 0).val = 16000 * t.val + (j 0).val; omega
  | ⟨1, _⟩ => show win1_0.index t (1 : Fin 2) * 67 + 1 * (j 1).val = (j 1).val; omega

/-- Parameter window 1's block at every point is its whole array. -/
theorem blk1_1 (c : Dev nD) (t : Fin cfg1.N) : iblk1 V c 1 t = V c (Pipeline.arrRef spec1 1) := by
  have e := idx1 t
  funext j
  show V c (Pipeline.arrRef spec1 1) (((cfg1.win 1).blk t).view.emb j) = V c (Pipeline.arrRef spec1 1) j
  refine congrArg _ (funext fun a => Fin.ext ?_)
  match a with
  | ⟨0, _⟩ => show win1_1.index t (0 : Fin 2) * 67 + 1 * (j 0).val = (j 0).val; omega
  | ⟨1, _⟩ => show win1_1.index t (1 : Fin 2) * 32 + 1 * (j 1).val = (j 1).val; omega

/-- Parameter window 2's block at every point is its whole array. -/
theorem blk1_2 (c : Dev nD) (t : Fin cfg1.N) : iblk1 V c 2 t = V c (Pipeline.arrRef spec1 2) := by
  have e := idx1 t
  funext j
  show V c (Pipeline.arrRef spec1 2) (((cfg1.win 2).blk t).view.emb j) = V c (Pipeline.arrRef spec1 2) j
  refine congrArg _ (funext fun a => Fin.ext ?_)
  match a with
  | ⟨0, _⟩ => show win1_2.index t (0 : Fin 2) * 1 + 1 * (j 0).val = (j 0).val; omega
  | ⟨1, _⟩ => show win1_2.index t (1 : Fin 2) * 32 + 1 * (j 1).val = (j 1).val; omega

/-- Parameter window 3's block at every point is its whole array. -/
theorem blk1_3 (c : Dev nD) (t : Fin cfg1.N) : iblk1 V c 3 t = V c (Pipeline.arrRef spec1 3) := by
  have e := idx1 t
  funext j
  show V c (Pipeline.arrRef spec1 3) (((cfg1.win 3).blk t).view.emb j) = V c (Pipeline.arrRef spec1 3) j
  refine congrArg _ (funext fun a => Fin.ext ?_)
  match a with
  | ⟨0, _⟩ => show win1_3.index t (0 : Fin 2) * 32 + 1 * (j 0).val = (j 0).val; omega
  | ⟨1, _⟩ => show win1_3.index t (1 : Fin 2) * 64 + 1 * (j 1).val = (j 1).val; omega

/-- Parameter window 4's block at every point is its whole array. -/
theorem blk1_4 (c : Dev nD) (t : Fin cfg1.N) : iblk1 V c 4 t = V c (Pipeline.arrRef spec1 4) := by
  have e := idx1 t
  funext j
  show V c (Pipeline.arrRef spec1 4) (((cfg1.win 4).blk t).view.emb j) = V c (Pipeline.arrRef spec1 4) j
  refine congrArg _ (funext fun a => Fin.ext ?_)
  match a with
  | ⟨0, _⟩ => show win1_4.index t (0 : Fin 2) * 1 + 1 * (j 0).val = (j 0).val; omega
  | ⟨1, _⟩ => show win1_4.index t (1 : Fin 2) * 64 + 1 * (j 1).val = (j 1).val; omega

set_option maxHeartbeats 4000000 in
/-- What point `t` writes back to window 5 is block `t` of the layer applied to the whole arrays. -/
theorem flushed1 (c : Dev nD) (t : Fin cfg1.N) :
    (dat1 (F := Ideal) V c).flushed 5 t = ((cfg1.win 5).blk t).view.read (Elt Ideal)
      (mlpR (K := 800000) (V c (Pipeline.arrRef spec1 0)) (V c (Pipeline.arrRef spec1 1)) (V c (Pipeline.arrRef spec1 2)) (V c (Pipeline.arrRef spec1 3)) (V c (Pipeline.arrRef spec1 4))) := by
  show (cfg1.win 5).cut (grid1.coords t) ((dat1 V c).after 5 t) = _
  rw [after1_5]
  unfold out1_5
  rw [View.canon_unit_zero hz2]
  simp only [View.ld_unit_zero (S := S16000x67) hz2, View.ld_unit_zero (S := S67x32) hz2, View.ld_unit_zero (S := S1x32) hz2, View.ld_unit_zero (S := S32x64) hz2, View.ld_unit_zero (S := S1x64) hz2]
  rw [edge_pay1]
  rw [blk1_0]
  rw [blk1_1]
  rw [blk1_2]
  rw [blk1_3]
  rw [blk1_4]
  rw [← rowsOf_mlpR]
  have e := idx1 t
  funext j
  show (mlpR (K := 800000) (V c (Pipeline.arrRef spec1 0)) (V c (Pipeline.arrRef spec1 1)) (V c (Pipeline.arrRef spec1 2)) (V c (Pipeline.arrRef spec1 3)) (V c (Pipeline.arrRef spec1 4))) (ix2 ⟨16000 * t.val + (j 0).val, rows1 t (j 0)⟩ (j 1))
    = (mlpR (K := 800000) (V c (Pipeline.arrRef spec1 0)) (V c (Pipeline.arrRef spec1 1)) (V c (Pipeline.arrRef spec1 2)) (V c (Pipeline.arrRef spec1 3)) (V c (Pipeline.arrRef spec1 4))) (((cfg1.win 5).blk t).view.emb j)
  refine congrArg _ (funext fun a => Fin.ext ?_)
  match a with
  | ⟨0, _⟩ => show 16000 * t.val + (j 0).val = win1_5.index t (0 : Fin 2) * 16000 + 1 * (j 0).val; omega
  | ⟨1, _⟩ => show (j 1).val = win1_5.index t (1 : Fin 2) * 64 + 1 * (j 1).val; omega

/-- An index of window 5's array is in point `t`'s block iff each coordinate is in the block's range. -/
theorem mem_blk1 (t : Fin cfg1.N) (i : S800000x64.Idx) :
    i ∈ ((cfg1.win 5).blk t).view.set ↔ ∀ a : Fin 2, win1_5.index t a * S16000x64.size a ≤ (i a).val
      ∧ (i a).val < win1_5.index t a * S16000x64.size a + S16000x64.size a := by
  show i ∈ ((View.whole (Pipeline.arrRef spec1 5)).slice (win1_5.rect t)).set ↔ _
  rw [View.set_slice_whole, Rect.mem_set_unit]
  exact Iff.rfl

/-- Every row lies in the block of the point `row / 16000`. -/
theorem cover1 (i : S800000x64.Idx) :
    ∃ t : Fin cfg1.N, (cfg1.win 5).flush t = true ∧ i ∈ ((cfg1.win 5).blk t).view.set := by
  have hi0 : (i 0).val < 800000 := (i 0).isLt
  have hi1 : (i 1).val < 64 := (i 1).isLt
  let t : Fin cfg1.N := ⟨(i 0).val / 16000, by rw [show cfg1.N = 50 from N_1]; omega⟩
  have ht : t.val = (i 0).val / 16000 := rfl
  have e := idx1 t
  refine ⟨t, flush1_5 t, ?_⟩
  rw [mem_blk1]
  intro a
  match a with
  | ⟨0, _⟩ => show win1_5.index t (0 : Fin 2) * 16000 ≤ (i 0).val ∧ (i 0).val < win1_5.index t (0 : Fin 2) * 16000 + 16000; omega
  | ⟨1, _⟩ => show win1_5.index t (1 : Fin 2) * 64 ≤ (i 1).val ∧ (i 1).val < win1_5.index t (1 : Fin 2) * 64 + 64; omega

/-- Region 1 leaves in window 5's array the layer applied to the arrays it found. -/
theorem final1 (c : Dev nD) :
    (dat1 (F := Ideal) V c).arrAt 5 cfg1.N
      = mlpR (K := 800000) (V c (Pipeline.arrRef spec1 0)) (V c (Pipeline.arrRef spec1 1)) (V c (Pipeline.arrRef spec1 2)) (V c (Pipeline.arrRef spec1 3)) (V c (Pipeline.arrRef spec1 4)) :=
  (dat1 V c).arrAt_eq_of_cover 5 _ (fun t _ => flushed1 V c t) cover1

end Cert.KernelIdeal.RegionValue

end
-- ==== Proof.Region2.lean ====
/-
  Region 2 (the node update of layer 0): its result array is the update applied to the arrays it found.
  Every grid point stages a block of rows of each row-blocked array and the whole of each parameter array, runs the body,
  and writes back a block of rows of the result.  The body's value on a block is the layer of that block (KerLayers.lean),
  the layer acts row by row, and the blocks of rows tile the result array: so the array ends holding the layer of the whole arrays.
-/
import proofs.«104585_j29386166239380_1_alg».proof.Proof.Gen.KernelIdeal.Frame
import proofs.«104585_j29386166239380_1_alg».proof.Proof.KerLayers
import proofs.«104585_j29386166239380_1_alg».proof.Proof.RegionBase

set_option maxRecDepth 16384

noncomputable section

namespace Cert.KernelIdeal.RegionValue

open Idealize.ShloMosaic Idealize.ShloMosaic.TcCoe Idealize.ShloMosaic.ValueIdx Idealize.ShloMosaic.RowLocal
open Idealize.ShloMosaic.RowNorm Cert.Layers Cert.KernelIdeal Cert.KernelIdeal.Gen Idealize.SL.Sem

variable (V : (c : Dev nD) → (b : Ref sig .tc) → Buf (Elt Ideal) ((c : Thread nD τ).loc b))

/-- The printed index maps over the 5 grid points: a row-blocked window sits at block `t` of axis 0, every parameter
    window at block 0. -/
theorem idx2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

theorem lt2 (t : Fin cfg2.N) : t.val < 5 := lt_of_lt_of_eq t.isLt N_2

theorem rows2 (t : Fin cfg2.N) : ∀ p : Fin 10000, 10000 * t.val + p.val < 50000 := fun p => by
  have := lt2 t; have := p.isLt; omega

/-- Row-blocked window 0's block at point `t` is rows `10000·t …` of its array. -/
theorem blk2_0 (c : Dev nD) (t : Fin cfg2.N) :
    iblk2 V c 0 t = rowsOf (K := 50000) (Q := 64) 10000 t.val (rows2 t) (V c (Pipeline.arrRef spec2 0)) := by
  have e := idx2 t
  funext j
  show V c (Pipeline.arrRef spec2 0) (((cfg2.win 0).blk t).view.emb j)
    = V c (Pipeline.arrRef spec2 0) (ix2 ⟨10000 * t.val + (j 0).val, rows2 t (j 0)⟩ (j 1))
  refine congrArg _ (funext fun a => Fin.ext ?_)
  match a with
  | ⟨0, _⟩ => show win2_0.index t (0 : Fin 2) * 10000 + 1 * (j 0).val = 10000 * t.val + (j 0).val; omega
  | ⟨1, _⟩ => show win2_0.index t (1 : Fin 2) * 64 + 1 * (j 1).val = (j 1).val; omega

/-- Row-blocked window 1's block at point `t` is rows `10000·t …` of its array. -/
theorem blk2_1 (c : Dev nD) (t : Fin cfg2.N) :
    iblk2 V c 1 t = rowsOf (K := 50000) (Q := 64) 10000 t.val (rows2 t) (V c (Pipeline.arrRef spec2 1)) := by
  have e := idx2 t
  funext j
  show V c (Pipeline.arrRef spec2 1) (((cfg2.win 1).blk t).view.emb j)
    = V c (Pipeline.arrRef spec2 1) (ix2 ⟨10000 * t.val + (j 0).val, rows2 t (j 0)⟩ (j 1))
  refine congrArg _ (funext fun a => Fin.ext ?_)
  match a with
  | ⟨0, _⟩ => show win2_1.index t (0 : Fin 2) * 10000 + 1 * (j 0).val = 10000 * t.val + (j 0).val; omega
  | ⟨1, _⟩ => show win2_1.index t (1 : Fin 2) * 64 + 1 * (j 1).val = (j 1).val; omega

/-- Parameter window 2's block at every point is its whole array. -/
theorem blk2_2 (c : Dev nD) (t : Fin cfg2.N) : iblk2 V c 2 t = V c (Pipeline.arrRef spec2 2) := by
  have e := idx2 t
  funext j
  show V c (Pipeline.arrRef spec2 2) (((cfg2.win 2).blk t).view.emb j) = V c (Pipeline.arrRef spec2 2) j
  refine congrArg _ (funext fun a => Fin.ext ?_)
  match a with
  | ⟨0, _⟩ => show win2_2.index t (0 : Fin 2) * 1 + 1 * (j 0).val = (j 0).val; omega
  | ⟨1, _⟩ => show win2_2.index t (1 : Fin 2) * 64 + 1 * (j 1).val = (j 1).val; omega

/-- Parameter window 3's block at every point is its whole array. -/
theorem blk2_3 (c : Dev nD) (t : Fin cfg2.N) : iblk2 V c 3 t = V c (Pipeline.arrRef spec2 3) := by
  have e := idx2 t
  funext j
  show V c (Pipeline.arrRef spec2 3) (((cfg2.win 3).blk t).view.emb j) = V c (Pipeline.arrRef spec2 3) j
  refine congrArg _ (funext fun a => Fin.ext ?_)
  match a with
  | ⟨0, _⟩ => show win2_3.index t (0 : Fin 2) * 1 + 1 * (j 0).val = (j 0).val; omega
  | ⟨1, _⟩ => show win2_3.index t (1 : Fin 2) * 64 + 1 * (j 1).val = (j 1).val; omega

set_option maxHeartbeats 4000000 in
/-- What point `t` writes back to window 4 is block `t` of the layer applied to the whole arrays. -/
theorem flushed2 (c : Dev nD) (t : Fin cfg2.N) :
    (dat2 (F := Ideal) V c).flushed 4 t = ((cfg2.win 4).blk t).view.read (Elt Ideal)
      (nodeR (K := 50000) (V c (Pipeline.arrRef spec2 0)) (V c (Pipeline.arrRef spec2 1)) (V c (Pipeline.arrRef spec2 2)) (V c (Pipeline.arrRef spec2 3))) := by
  show (cfg2.win 4).cut (grid2.coords t) ((dat2 V c).after 4 t) = _
  rw [after2_4]
  unfold out2_4
  rw [View.canon_unit_zero hz2]
  simp only [View.ld_unit_zero (S := S10000x64) hz2, View.ld_unit_zero (S := S1x64) hz2]
  rw [node_pay2]
  rw [blk2_0]
  rw [blk2_1]
  rw [blk2_2]
  rw [blk2_3]
  rw [← rowsOf_nodeR]
  have e := idx2 t
  funext j
  show (nodeR (K := 50000) (V c (Pipeline.arrRef spec2 0)) (V c (Pipeline.arrRef spec2 1)) (V c (Pipeline.arrRef spec2 2)) (V c (Pipeline.arrRef spec2 3))) (ix2 ⟨10000 * t.val + (j 0).val, rows2 t (j 0)⟩ (j 1))
    = (nodeR (K := 50000) (V c (Pipeline.arrRef spec2 0)) (V c (Pipeline.arrRef spec2 1)) (V c (Pipeline.arrRef spec2 2)) (V c (Pipeline.arrRef spec2 3))) (((cfg2.win 4).blk t).view.emb j)
  refine congrArg _ (funext fun a => Fin.ext ?_)
  match a with
  | ⟨0, _⟩ => show 10000 * t.val + (j 0).val = win2_4.index t (0 : Fin 2) * 10000 + 1 * (j 0).val; omega
  | ⟨1, _⟩ => show (j 1).val = win2_4.index t (1 : Fin 2) * 64 + 1 * (j 1).val; omega

/-- An index of window 4's array is in point `t`'s block iff each coordinate is in the block's range. -/
theorem mem_blk2 (t : Fin cfg2.N) (i : S50000x64.Idx) :
    i ∈ ((cfg2.win 4).blk t).view.set ↔ ∀ a : Fin 2, win2_4.index t a * S10000x64.size a ≤ (i a).val
      ∧ (i a).val < win2_4.index t a * S10000x64.size a + S10000x64.size a := by
  show i ∈ ((View.whole (Pipeline.arrRef spec2 4)).slice (win2_4.rect t)).set ↔ _
  rw [View.set_slice_whole, Rect.mem_set_unit]
  exact Iff.rfl

/-- Every row lies in the block of the point `row / 10000`. -/
theorem cover2 (i : S50000x64.Idx) :
    ∃ t : Fin cfg2.N, (cfg2.win 4).flush t = true ∧ i ∈ ((cfg2.win 4).blk t).view.set := by
  have hi0 : (i 0).val < 50000 := (i 0).isLt
  have hi1 : (i 1).val < 64 := (i 1).isLt
  let t : Fin cfg2.N := ⟨(i 0).val / 10000, by rw [show cfg2.N = 5 from N_2]; omega⟩
  have ht : t.val = (i 0).val / 10000 := rfl
  have e := idx2 t
  refine ⟨t, flush2_4 t, ?_⟩
  rw [mem_blk2]
  intro a
  match a with
  | ⟨0, _⟩ => show win2_4.index t (0 : Fin 2) * 10000 ≤ (i 0).val ∧ (i 0).val < win2_4.index t (0 : Fin 2) * 10000 + 10000; omega
  | ⟨1, _⟩ => show win2_4.index t (1 : Fin 2) * 64 ≤ (i 1).val ∧ (i 1).val < win2_4.index t (1 : Fin 2) * 64 + 64; omega

/-- Region 2 leaves in window 4's array the layer applied to the arrays it found. -/
theorem final2 (c : Dev nD) :
    (dat2 (F := Ideal) V c).arrAt 4 cfg2.N
      = nodeR (K := 50000) (V c (Pipeline.arrRef spec2 0)) (V c (Pipeline.arrRef spec2 1)) (V c (Pipeline.arrRef spec2 2)) (V c (Pipeline.arrRef spec2 3)) :=
  (dat2 V c).arrAt_eq_of_cover 4 _ (fun t _ => flushed2 V c t) cover2

end Cert.KernelIdeal.RegionValue

end
-- ==== Proof.Region3.lean ====
/-
  Region 3 (the per-edge network of layer 1): its result array is the network applied to the arrays it found.
  Every grid point stages a block of rows of each row-blocked array and the whole of each parameter array, runs the body,
  and writes back a block of rows of the result.  The body's value on a block is the layer of that block (KerLayers.lean),
  the layer acts row by row, and the blocks of rows tile the result array: so the array ends holding the layer of the whole arrays.
-/
import proofs.«104585_j29386166239380_1_alg».proof.Proof.Gen.KernelIdeal.Frame
import proofs.«104585_j29386166239380_1_alg».proof.Proof.KerLayers
import proofs.«104585_j29386166239380_1_alg».proof.Proof.RegionBase

set_option maxRecDepth 16384

noncomputable section

namespace Cert.KernelIdeal.RegionValue

open Idealize.ShloMosaic Idealize.ShloMosaic.TcCoe Idealize.ShloMosaic.ValueIdx Idealize.ShloMosaic.RowLocal
open Idealize.ShloMosaic.RowNorm Cert.Layers Cert.KernelIdeal Cert.KernelIdeal.Gen Idealize.SL.Sem

variable (V : (c : Dev nD) → (b : Ref sig .tc) → Buf (Elt Ideal) ((c : Thread nD τ).loc b))

/-- The printed index maps over the 50 grid points: a row-blocked window sits at block `t` of axis 0, every parameter
    window at block 0. -/
theorem idx3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

theorem lt3 (t : Fin cfg3.N) : t.val < 50 := lt_of_lt_of_eq t.isLt N_3

theorem rows3 (t : Fin cfg3.N) : ∀ p : Fin 16000, 16000 * t.val + p.val < 800000 := fun p => by
  have := lt3 t; have := p.isLt; omega

/-- Row-blocked window 0's block at point `t` is rows `16000·t …` of its array. -/
theorem blk3_0 (c : Dev nD) (t : Fin cfg3.N) :
    iblk3 V c 0 t = rowsOf (K := 800000) (Q := 67) 16000 t.val (rows3 t) (V c (Pipeline.arrRef spec3 0)) := by
  have e := idx3 t
  funext j
  show V c (Pipeline.arrRef spec3 0) (((cfg3.win 0).blk t).view.emb j)
    = V c (Pipeline.arrRef spec3 0) (ix2 ⟨16000 * t.val + (j 0).val, rows3 t (j 0)⟩ (j 1))
  refine congrArg _ (funext fun a => Fin.ext ?_)
  match a with
  | ⟨0, _⟩ => show win3_0.index t (0 : Fin 2) * 16000 + 1 * (j 0).val = 16000 * t.val + (j 0).val; omega
  | ⟨1, _⟩ => show win3_0.index t (1 : Fin 2) * 67 + 1 * (j 1).val = (j 1).val; omega

/-- Parameter window 1's block at every point is its whole array. -/
theorem blk3_1 (c : Dev nD) (t : Fin cfg3.N) : iblk3 V c 1 t = V c (Pipeline.arrRef spec3 1) := by
  have e := idx3 t
  funext j
  show V c (Pipeline.arrRef spec3 1) (((cfg3.win 1).blk t).view.emb j) = V c (Pipeline.arrRef spec3 1) j
  refine congrArg _ (funext fun a => Fin.ext ?_)
  match a with
  | ⟨0, _⟩ => show win3_1.index t (0 : Fin 2) * 67 + 1 * (j 0).val = (j 0).val; omega
  | ⟨1, _⟩ => show win3_1.index t (1 : Fin 2) * 32 + 1 * (j 1).val = (j 1).val; omega

/-- Parameter window 2's block at every point is its whole array. -/
theorem blk3_2 (c : Dev nD) (t : Fin cfg3.N) : iblk3 V c 2 t = V c (Pipeline.arrRef spec3 2) := by
  have e := idx3 t
  funext j
  show V c (Pipeline.arrRef spec3 2) (((cfg3.win 2).blk t).view.emb j) = V c (Pipeline.arrRef spec3 2) j
  refine congrArg _ (funext fun a => Fin.ext ?_)
  match a with
  | ⟨0, _⟩ => show win3_2.index t (0 : Fin 2) * 1 + 1 * (j 0).val = (j 0).val; omega
  | ⟨1, _⟩ => show win3_2.index t (1 : Fin 2) * 32 + 1 * (j 1).val = (j 1).val; omega

/-- Parameter window 3's block at every point is its whole array. -/
theorem blk3_3 (c : Dev nD) (t : Fin cfg3.N) : iblk3 V c 3 t = V c (Pipeline.arrRef spec3 3) := by
  have e := idx3 t
  funext j
  show V c (Pipeline.arrRef spec3 3) (((cfg3.win 3).blk t).view.emb j) = V c (Pipeline.arrRef spec3 3) j
  refine congrArg _ (funext fun a => Fin.ext ?_)
  match a with
  | ⟨0, _⟩ => show win3_3.index t (0 : Fin 2) * 32 + 1 * (j 0).val = (j 0).val; omega
  | ⟨1, _⟩ => show win3_3.index t (1 : Fin 2) * 64 + 1 * (j 1).val = (j 1).val; omega

/-- Parameter window 4's block at every point is its whole array. -/
theorem blk3_4 (c : Dev nD) (t : Fin cfg3.N) : iblk3 V c 4 t = V c (Pipeline.arrRef spec3 4) := by
  have e := idx3 t
  funext j
  show V c (Pipeline.arrRef spec3 4) (((cfg3.win 4).blk t).view.emb j) = V c (Pipeline.arrRef spec3 4) j
  refine congrArg _ (funext fun a => Fin.ext ?_)
  match a with
  | ⟨0, _⟩ => show win3_4.index t (0 : Fin 2) * 1 + 1 * (j 0).val = (j 0).val; omega
  | ⟨1, _⟩ => show win3_4.index t (1 : Fin 2) * 64 + 1 * (j 1).val = (j 1).val; omega

set_option maxHeartbeats 4000000 in
/-- What point `t` writes back to window 5 is block `t` of the layer applied to the whole arrays. -/
theorem flushed3 (c : Dev nD) (t : Fin cfg3.N) :
    (dat3 (F := Ideal) V c).flushed 5 t = ((cfg3.win 5).blk t).view.read (Elt Ideal)
      (mlpR (K := 800000) (V c (Pipeline.arrRef spec3 0)) (V c (Pipeline.arrRef spec3 1)) (V c (Pipeline.arrRef spec3 2)) (V c (Pipeline.arrRef spec3 3)) (V c (Pipeline.arrRef spec3 4))) := by
  show (cfg3.win 5).cut (grid3.coords t) ((dat3 V c).after 5 t) = _
  rw [after3_5]
  unfold out3_5
  rw [View.canon_unit_zero hz2]
  simp only [View.ld_unit_zero (S := S16000x67) hz2, View.ld_unit_zero (S := S67x32) hz2, View.ld_unit_zero (S := S1x32) hz2, View.ld_unit_zero (S := S32x64) hz2, View.ld_unit_zero (S := S1x64) hz2]
  rw [edge_pay3]
  rw [blk3_0]
  rw [blk3_1]
  rw [blk3_2]
  rw [blk3_3]
  rw [blk3_4]
  rw [← rowsOf_mlpR]
  have e := idx3 t
  funext j
  show (mlpR (K := 800000) (V c (Pipeline.arrRef spec3 0)) (V c (Pipeline.arrRef spec3 1)) (V c (Pipeline.arrRef spec3 2)) (V c (Pipeline.arrRef spec3 3)) (V c (Pipeline.arrRef spec3 4))) (ix2 ⟨16000 * t.val + (j 0).val, rows3 t (j 0)⟩ (j 1))
    = (mlpR (K := 800000) (V c (Pipeline.arrRef spec3 0)) (V c (Pipeline.arrRef spec3 1)) (V c (Pipeline.arrRef spec3 2)) (V c (Pipeline.arrRef spec3 3)) (V c (Pipeline.arrRef spec3 4))) (((cfg3.win 5).blk t).view.emb j)
  refine congrArg _ (funext fun a => Fin.ext ?_)
  match a with
  | ⟨0, _⟩ => show 16000 * t.val + (j 0).val = win3_5.index t (0 : Fin 2) * 16000 + 1 * (j 0).val; omega
  | ⟨1, _⟩ => show (j 1).val = win3_5.index t (1 : Fin 2) * 64 + 1 * (j 1).val; omega

/-- An index of window 5's array is in point `t`'s block iff each coordinate is in the block's range. -/
theorem mem_blk3 (t : Fin cfg3.N) (i : S800000x64.Idx) :
    i ∈ ((cfg3.win 5).blk t).view.set ↔ ∀ a : Fin 2, win3_5.index t a * S16000x64.size a ≤ (i a).val
      ∧ (i a).val < win3_5.index t a * S16000x64.size a + S16000x64.size a := by
  show i ∈ ((View.whole (Pipeline.arrRef spec3 5)).slice (win3_5.rect t)).set ↔ _
  rw [View.set_slice_whole, Rect.mem_set_unit]
  exact Iff.rfl

/-- Every row lies in the block of the point `row / 16000`. -/
theorem cover3 (i : S800000x64.Idx) :
    ∃ t : Fin cfg3.N, (cfg3.win 5).flush t = true ∧ i ∈ ((cfg3.win 5).blk t).view.set := by
  have hi0 : (i 0).val < 800000 := (i 0).isLt
  have hi1 : (i 1).val < 64 := (i 1).isLt
  let t : Fin cfg3.N := ⟨(i 0).val / 16000, by rw [show cfg3.N = 50 from N_3]; omega⟩
  have ht : t.val = (i 0).val / 16000 := rfl
  have e := idx3 t
  refine ⟨t, flush3_5 t, ?_⟩
  rw [mem_blk3]
  intro a
  match a with
  | ⟨0, _⟩ => show win3_5.index t (0 : Fin 2) * 16000 ≤ (i 0).val ∧ (i 0).val < win3_5.index t (0 : Fin 2) * 16000 + 16000; omega
  | ⟨1, _⟩ => show win3_5.index t (1 : Fin 2) * 64 ≤ (i 1).val ∧ (i 1).val < win3_5.index t (1 : Fin 2) * 64 + 64; omega

/-- Region 3 leaves in window 5's array the layer applied to the arrays it found. -/
theorem final3 (c : Dev nD) :
    (dat3 (F := Ideal) V c).arrAt 5 cfg3.N
      = mlpR (K := 800000) (V c (Pipeline.arrRef spec3 0)) (V c (Pipeline.arrRef spec3 1)) (V c (Pipeline.arrRef spec3 2)) (V c (Pipeline.arrRef spec3 3)) (V c (Pipeline.arrRef spec3 4)) :=
  (dat3 V c).arrAt_eq_of_cover 5 _ (fun t _ => flushed3 V c t) cover3

end Cert.KernelIdeal.RegionValue

end
-- ==== Proof.Region4.lean ====
/-
  Region 4 (the node update of layer 1): its result array is the update applied to the arrays it found.
  Every grid point stages a block of rows of each row-blocked array and the whole of each parameter array, runs the body,
  and writes back a block of rows of the result.  The body's value on a block is the layer of that block (KerLayers.lean),
  the layer acts row by row, and the blocks of rows tile the result array: so the array ends holding the layer of the whole arrays.
-/
import proofs.«104585_j29386166239380_1_alg».proof.Proof.Gen.KernelIdeal.Frame
import proofs.«104585_j29386166239380_1_alg».proof.Proof.KerLayers
import proofs.«104585_j29386166239380_1_alg».proof.Proof.RegionBase

set_option maxRecDepth 16384

noncomputable section

namespace Cert.KernelIdeal.RegionValue

open Idealize.ShloMosaic Idealize.ShloMosaic.TcCoe Idealize.ShloMosaic.ValueIdx Idealize.ShloMosaic.RowLocal
open Idealize.ShloMosaic.RowNorm Cert.Layers Cert.KernelIdeal Cert.KernelIdeal.Gen Idealize.SL.Sem

variable (V : (c : Dev nD) → (b : Ref sig .tc) → Buf (Elt Ideal) ((c : Thread nD τ).loc b))

/-- The printed index maps over the 5 grid points: a row-blocked window sits at block `t` of axis 0, every parameter
    window at block 0. -/
theorem idx4 : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = t.val ∧ win4_4.index t (1 : Fin 2) = 0 :=
  (by decide +kernel : ∀ t : Fin grid4.N, _)

theorem lt4 (t : Fin cfg4.N) : t.val < 5 := lt_of_lt_of_eq t.isLt N_4

theorem rows4 (t : Fin cfg4.N) : ∀ p : Fin 10000, 10000 * t.val + p.val < 50000 := fun p => by
  have := lt4 t; have := p.isLt; omega

/-- Row-blocked window 0's block at point `t` is rows `10000·t …` of its array. -/
theorem blk4_0 (c : Dev nD) (t : Fin cfg4.N) :
    iblk4 V c 0 t = rowsOf (K := 50000) (Q := 64) 10000 t.val (rows4 t) (V c (Pipeline.arrRef spec4 0)) := by
  have e := idx4 t
  funext j
  show V c (Pipeline.arrRef spec4 0) (((cfg4.win 0).blk t).view.emb j)
    = V c (Pipeline.arrRef spec4 0) (ix2 ⟨10000 * t.val + (j 0).val, rows4 t (j 0)⟩ (j 1))
  refine congrArg _ (funext fun a => Fin.ext ?_)
  match a with
  | ⟨0, _⟩ => show win4_0.index t (0 : Fin 2) * 10000 + 1 * (j 0).val = 10000 * t.val + (j 0).val; omega
  | ⟨1, _⟩ => show win4_0.index t (1 : Fin 2) * 64 + 1 * (j 1).val = (j 1).val; omega

/-- Row-blocked window 1's block at point `t` is rows `10000·t …` of its array. -/
theorem blk4_1 (c : Dev nD) (t : Fin cfg4.N) :
    iblk4 V c 1 t = rowsOf (K := 50000) (Q := 64) 10000 t.val (rows4 t) (V c (Pipeline.arrRef spec4 1)) := by
  have e := idx4 t
  funext j
  show V c (Pipeline.arrRef spec4 1) (((cfg4.win 1).blk t).view.emb j)
    = V c (Pipeline.arrRef spec4 1) (ix2 ⟨10000 * t.val + (j 0).val, rows4 t (j 0)⟩ (j 1))
  refine congrArg _ (funext fun a => Fin.ext ?_)
  match a with
  | ⟨0, _⟩ => show win4_1.index t (0 : Fin 2) * 10000 + 1 * (j 0).val = 10000 * t.val + (j 0).val; omega
  | ⟨1, _⟩ => show win4_1.index t (1 : Fin 2) * 64 + 1 * (j 1).val = (j 1).val; omega

/-- Parameter window 2's block at every point is its whole array. -/
theorem blk4_2 (c : Dev nD) (t : Fin cfg4.N) : iblk4 V c 2 t = V c (Pipeline.arrRef spec4 2) := by
  have e := idx4 t
  funext j
  show V c (Pipeline.arrRef spec4 2) (((cfg4.win 2).blk t).view.emb j) = V c (Pipeline.arrRef spec4 2) j
  refine congrArg _ (funext fun a => Fin.ext ?_)
  match a with
  | ⟨0, _⟩ => show win4_2.index t (0 : Fin 2) * 1 + 1 * (j 0).val = (j 0).val; omega
  | ⟨1, _⟩ => show win4_2.index t (1 : Fin 2) * 64 + 1 * (j 1).val = (j 1).val; omega

/-- Parameter window 3's block at every point is its whole array. -/
theorem blk4_3 (c : Dev nD) (t : Fin cfg4.N) : iblk4 V c 3 t = V c (Pipeline.arrRef spec4 3) := by
  have e := idx4 t
  funext j
  show V c (Pipeline.arrRef spec4 3) (((cfg4.win 3).blk t).view.emb j) = V c (Pipeline.arrRef spec4 3) j
  refine congrArg _ (funext fun a => Fin.ext ?_)
  match a with
  | ⟨0, _⟩ => show win4_3.index t (0 : Fin 2) * 1 + 1 * (j 0).val = (j 0).val; omega
  | ⟨1, _⟩ => show win4_3.index t (1 : Fin 2) * 64 + 1 * (j 1).val = (j 1).val; omega

set_option maxHeartbeats 4000000 in
/-- What point `t` writes back to window 4 is block `t` of the layer applied to the whole arrays. -/
theorem flushed4 (c : Dev nD) (t : Fin cfg4.N) :
    (dat4 (F := Ideal) V c).flushed 4 t = ((cfg4.win 4).blk t).view.read (Elt Ideal)
      (nodeR (K := 50000) (V c (Pipeline.arrRef spec4 0)) (V c (Pipeline.arrRef spec4 1)) (V c (Pipeline.arrRef spec4 2)) (V c (Pipeline.arrRef spec4 3))) := by
  show (cfg4.win 4).cut (grid4.coords t) ((dat4 V c).after 4 t) = _
  rw [after4_4]
  unfold out4_4
  rw [View.canon_unit_zero hz2]
  simp only [View.ld_unit_zero (S := S10000x64) hz2, View.ld_unit_zero (S := S1x64) hz2]
  rw [node_pay4]
  rw [blk4_0]
  rw [blk4_1]
  rw [blk4_2]
  rw [blk4_3]
  rw [← rowsOf_nodeR]
  have e := idx4 t
  funext j
  show (nodeR (K := 50000) (V c (Pipeline.arrRef spec4 0)) (V c (Pipeline.arrRef spec4 1)) (V c (Pipeline.arrRef spec4 2)) (V c (Pipeline.arrRef spec4 3))) (ix2 ⟨10000 * t.val + (j 0).val, rows4 t (j 0)⟩ (j 1))
    = (nodeR (K := 50000) (V c (Pipeline.arrRef spec4 0)) (V c (Pipeline.arrRef spec4 1)) (V c (Pipeline.arrRef spec4 2)) (V c (Pipeline.arrRef spec4 3))) (((cfg4.win 4).blk t).view.emb j)
  refine congrArg _ (funext fun a => Fin.ext ?_)
  match a with
  | ⟨0, _⟩ => show 10000 * t.val + (j 0).val = win4_4.index t (0 : Fin 2) * 10000 + 1 * (j 0).val; omega
  | ⟨1, _⟩ => show (j 1).val = win4_4.index t (1 : Fin 2) * 64 + 1 * (j 1).val; omega

/-- An index of window 4's array is in point `t`'s block iff each coordinate is in the block's range. -/
theorem mem_blk4 (t : Fin cfg4.N) (i : S50000x64.Idx) :
    i ∈ ((cfg4.win 4).blk t).view.set ↔ ∀ a : Fin 2, win4_4.index t a * S10000x64.size a ≤ (i a).val
      ∧ (i a).val < win4_4.index t a * S10000x64.size a + S10000x64.size a := by
  show i ∈ ((View.whole (Pipeline.arrRef spec4 4)).slice (win4_4.rect t)).set ↔ _
  rw [View.set_slice_whole, Rect.mem_set_unit]
  exact Iff.rfl

/-- Every row lies in the block of the point `row / 10000`. -/
theorem cover4 (i : S50000x64.Idx) :
    ∃ t : Fin cfg4.N, (cfg4.win 4).flush t = true ∧ i ∈ ((cfg4.win 4).blk t).view.set := by
  have hi0 : (i 0).val < 50000 := (i 0).isLt
  have hi1 : (i 1).val < 64 := (i 1).isLt
  let t : Fin cfg4.N := ⟨(i 0).val / 10000, by rw [show cfg4.N = 5 from N_4]; omega⟩
  have ht : t.val = (i 0).val / 10000 := rfl
  have e := idx4 t
  refine ⟨t, flush4_4 t, ?_⟩
  rw [mem_blk4]
  intro a
  match a with
  | ⟨0, _⟩ => show win4_4.index t (0 : Fin 2) * 10000 ≤ (i 0).val ∧ (i 0).val < win4_4.index t (0 : Fin 2) * 10000 + 10000; omega
  | ⟨1, _⟩ => show win4_4.index t (1 : Fin 2) * 64 ≤ (i 1).val ∧ (i 1).val < win4_4.index t (1 : Fin 2) * 64 + 64; omega

/-- Region 4 leaves in window 4's array the layer applied to the arrays it found. -/
theorem final4 (c : Dev nD) :
    (dat4 (F := Ideal) V c).arrAt 4 cfg4.N
      = nodeR (K := 50000) (V c (Pipeline.arrRef spec4 0)) (V c (Pipeline.arrRef spec4 1)) (V c (Pipeline.arrRef spec4 2)) (V c (Pipeline.arrRef spec4 3)) :=
  (dat4 V c).arrAt_eq_of_cover 4 _ (fun t _ => flushed4 V c t) cover4

end Cert.KernelIdeal.RegionValue

end
-- ==== Proof.Region5.lean ====
/-
  Region 5 (the per-edge network of layer 2): its result array is the network applied to the arrays it found.
  Every grid point stages a block of rows of each row-blocked array and the whole of each parameter array, runs the body,
  and writes back a block of rows of the result.  The body's value on a block is the layer of that block (KerLayers.lean),
  the layer acts row by row, and the blocks of rows tile the result array: so the array ends holding the layer of the whole arrays.
-/
import proofs.«104585_j29386166239380_1_alg».proof.Proof.Gen.KernelIdeal.Frame
import proofs.«104585_j29386166239380_1_alg».proof.Proof.KerLayers
import proofs.«104585_j29386166239380_1_alg».proof.Proof.RegionBase

set_option maxRecDepth 16384

noncomputable section

namespace Cert.KernelIdeal.RegionValue

open Idealize.ShloMosaic Idealize.ShloMosaic.TcCoe Idealize.ShloMosaic.ValueIdx Idealize.ShloMosaic.RowLocal
open Idealize.ShloMosaic.RowNorm Cert.Layers Cert.KernelIdeal Cert.KernelIdeal.Gen Idealize.SL.Sem

variable (V : (c : Dev nD) → (b : Ref sig .tc) → Buf (Elt Ideal) ((c : Thread nD τ).loc b))

/-- The printed index maps over the 50 grid points: a row-blocked window sits at block `t` of axis 0, every parameter
    window at block 0. -/
theorem idx5 : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = t.val ∧ win5_5.index t (1 : Fin 2) = 0 :=
  (by decide +kernel : ∀ t : Fin grid5.N, _)

theorem lt5 (t : Fin cfg5.N) : t.val < 50 := lt_of_lt_of_eq t.isLt N_5

theorem rows5 (t : Fin cfg5.N) : ∀ p : Fin 16000, 16000 * t.val + p.val < 800000 := fun p => by
  have := lt5 t; have := p.isLt; omega

/-- Row-blocked window 0's block at point `t` is rows `16000·t …` of its array. -/
theorem blk5_0 (c : Dev nD) (t : Fin cfg5.N) :
    iblk5 V c 0 t = rowsOf (K := 800000) (Q := 67) 16000 t.val (rows5 t) (V c (Pipeline.arrRef spec5 0)) := by
  have e := idx5 t
  funext j
  show V c (Pipeline.arrRef spec5 0) (((cfg5.win 0).blk t).view.emb j)
    = V c (Pipeline.arrRef spec5 0) (ix2 ⟨16000 * t.val + (j 0).val, rows5 t (j 0)⟩ (j 1))
  refine congrArg _ (funext fun a => Fin.ext ?_)
  match a with
  | ⟨0, _⟩ => show win5_0.index t (0 : Fin 2) * 16000 + 1 * (j 0).val = 16000 * t.val + (j 0).val; omega
  | ⟨1, _⟩ => show win5_0.index t (1 : Fin 2) * 67 + 1 * (j 1).val = (j 1).val; omega

/-- Parameter window 1's block at every point is its whole array. -/
theorem blk5_1 (c : Dev nD) (t : Fin cfg5.N) : iblk5 V c 1 t = V c (Pipeline.arrRef spec5 1) := by
  have e := idx5 t
  funext j
  show V c (Pipeline.arrRef spec5 1) (((cfg5.win 1).blk t).view.emb j) = V c (Pipeline.arrRef spec5 1) j
  refine congrArg _ (funext fun a => Fin.ext ?_)
  match a with
  | ⟨0, _⟩ => show win5_1.index t (0 : Fin 2) * 67 + 1 * (j 0).val = (j 0).val; omega
  | ⟨1, _⟩ => show win5_1.index t (1 : Fin 2) * 32 + 1 * (j 1).val = (j 1).val; omega

/-- Parameter window 2's block at every point is its whole array. -/
theorem blk5_2 (c : Dev nD) (t : Fin cfg5.N) : iblk5 V c 2 t = V c (Pipeline.arrRef spec5 2) := by
  have e := idx5 t
  funext j
  show V c (Pipeline.arrRef spec5 2) (((cfg5.win 2).blk t).view.emb j) = V c (Pipeline.arrRef spec5 2) j
  refine congrArg _ (funext fun a => Fin.ext ?_)
  match a with
  | ⟨0, _⟩ => show win5_2.index t (0 : Fin 2) * 1 + 1 * (j 0).val = (j 0).val; omega
  | ⟨1, _⟩ => show win5_2.index t (1 : Fin 2) * 32 + 1 * (j 1).val = (j 1).val; omega

/-- Parameter window 3's block at every point is its whole array. -/
theorem blk5_3 (c : Dev nD) (t : Fin cfg5.N) : iblk5 V c 3 t = V c (Pipeline.arrRef spec5 3) := by
  have e := idx5 t
  funext j
  show V c (Pipeline.arrRef spec5 3) (((cfg5.win 3).blk t).view.emb j) = V c (Pipeline.arrRef spec5 3) j
  refine congrArg _ (funext fun a => Fin.ext ?_)
  match a with
  | ⟨0, _⟩ => show win5_3.index t (0 : Fin 2) * 32 + 1 * (j 0).val = (j 0).val; omega
  | ⟨1, _⟩ => show win5_3.index t (1 : Fin 2) * 64 + 1 * (j 1).val = (j 1).val; omega

/-- Parameter window 4's block at every point is its whole array. -/
theorem blk5_4 (c : Dev nD) (t : Fin cfg5.N) : iblk5 V c 4 t = V c (Pipeline.arrRef spec5 4) := by
  have e := idx5 t
  funext j
  show V c (Pipeline.arrRef spec5 4) (((cfg5.win 4).blk t).view.emb j) = V c (Pipeline.arrRef spec5 4) j
  refine congrArg _ (funext fun a => Fin.ext ?_)
  match a with
  | ⟨0, _⟩ => show win5_4.index t (0 : Fin 2) * 1 + 1 * (j 0).val = (j 0).val; omega
  | ⟨1, _⟩ => show win5_4.index t (1 : Fin 2) * 64 + 1 * (j 1).val = (j 1).val; omega

set_option maxHeartbeats 4000000 in
/-- What point `t` writes back to window 5 is block `t` of the layer applied to the whole arrays. -/
theorem flushed5 (c : Dev nD) (t : Fin cfg5.N) :
    (dat5 (F := Ideal) V c).flushed 5 t = ((cfg5.win 5).blk t).view.read (Elt Ideal)
      (mlpR (K := 800000) (V c (Pipeline.arrRef spec5 0)) (V c (Pipeline.arrRef spec5 1)) (V c (Pipeline.arrRef spec5 2)) (V c (Pipeline.arrRef spec5 3)) (V c (Pipeline.arrRef spec5 4))) := by
  show (cfg5.win 5).cut (grid5.coords t) ((dat5 V c).after 5 t) = _
  rw [after5_5]
  unfold out5_5
  rw [View.canon_unit_zero hz2]
  simp only [View.ld_unit_zero (S := S16000x67) hz2, View.ld_unit_zero (S := S67x32) hz2, View.ld_unit_zero (S := S1x32) hz2, View.ld_unit_zero (S := S32x64) hz2, View.ld_unit_zero (S := S1x64) hz2]
  rw [edge_pay5]
  rw [blk5_0]
  rw [blk5_1]
  rw [blk5_2]
  rw [blk5_3]
  rw [blk5_4]
  rw [← rowsOf_mlpR]
  have e := idx5 t
  funext j
  show (mlpR (K := 800000) (V c (Pipeline.arrRef spec5 0)) (V c (Pipeline.arrRef spec5 1)) (V c (Pipeline.arrRef spec5 2)) (V c (Pipeline.arrRef spec5 3)) (V c (Pipeline.arrRef spec5 4))) (ix2 ⟨16000 * t.val + (j 0).val, rows5 t (j 0)⟩ (j 1))
    = (mlpR (K := 800000) (V c (Pipeline.arrRef spec5 0)) (V c (Pipeline.arrRef spec5 1)) (V c (Pipeline.arrRef spec5 2)) (V c (Pipeline.arrRef spec5 3)) (V c (Pipeline.arrRef spec5 4))) (((cfg5.win 5).blk t).view.emb j)
  refine congrArg _ (funext fun a => Fin.ext ?_)
  match a with
  | ⟨0, _⟩ => show 16000 * t.val + (j 0).val = win5_5.index t (0 : Fin 2) * 16000 + 1 * (j 0).val; omega
  | ⟨1, _⟩ => show (j 1).val = win5_5.index t (1 : Fin 2) * 64 + 1 * (j 1).val; omega

/-- An index of window 5's array is in point `t`'s block iff each coordinate is in the block's range. -/
theorem mem_blk5 (t : Fin cfg5.N) (i : S800000x64.Idx) :
    i ∈ ((cfg5.win 5).blk t).view.set ↔ ∀ a : Fin 2, win5_5.index t a * S16000x64.size a ≤ (i a).val
      ∧ (i a).val < win5_5.index t a * S16000x64.size a + S16000x64.size a := by
  show i ∈ ((View.whole (Pipeline.arrRef spec5 5)).slice (win5_5.rect t)).set ↔ _
  rw [View.set_slice_whole, Rect.mem_set_unit]
  exact Iff.rfl

/-- Every row lies in the block of the point `row / 16000`. -/
theorem cover5 (i : S800000x64.Idx) :
    ∃ t : Fin cfg5.N, (cfg5.win 5).flush t = true ∧ i ∈ ((cfg5.win 5).blk t).view.set := by
  have hi0 : (i 0).val < 800000 := (i 0).isLt
  have hi1 : (i 1).val < 64 := (i 1).isLt
  let t : Fin cfg5.N := ⟨(i 0).val / 16000, by rw [show cfg5.N = 50 from N_5]; omega⟩
  have ht : t.val = (i 0).val / 16000 := rfl
  have e := idx5 t
  refine ⟨t, flush5_5 t, ?_⟩
  rw [mem_blk5]
  intro a
  match a with
  | ⟨0, _⟩ => show win5_5.index t (0 : Fin 2) * 16000 ≤ (i 0).val ∧ (i 0).val < win5_5.index t (0 : Fin 2) * 16000 + 16000; omega
  | ⟨1, _⟩ => show win5_5.index t (1 : Fin 2) * 64 ≤ (i 1).val ∧ (i 1).val < win5_5.index t (1 : Fin 2) * 64 + 64; omega

/-- Region 5 leaves in window 5's array the layer applied to the arrays it found. -/
theorem final5 (c : Dev nD) :
    (dat5 (F := Ideal) V c).arrAt 5 cfg5.N
      = mlpR (K := 800000) (V c (Pipeline.arrRef spec5 0)) (V c (Pipeline.arrRef spec5 1)) (V c (Pipeline.arrRef spec5 2)) (V c (Pipeline.arrRef spec5 3)) (V c (Pipeline.arrRef spec5 4)) :=
  (dat5 V c).arrAt_eq_of_cover 5 _ (fun t _ => flushed5 V c t) cover5

end Cert.KernelIdeal.RegionValue

end
-- ==== Proof.Region6.lean ====
/-
  Region 6 (the node update of layer 2): its result array is the update applied to the arrays it found.
  Every grid point stages a block of rows of each row-blocked array and the whole of each parameter array, runs the body,
  and writes back a block of rows of the result.  The body's value on a block is the layer of that block (KerLayers.lean),
  the layer acts row by row, and the blocks of rows tile the result array: so the array ends holding the layer of the whole arrays.
-/
import proofs.«104585_j29386166239380_1_alg».proof.Proof.Gen.KernelIdeal.Frame
import proofs.«104585_j29386166239380_1_alg».proof.Proof.KerLayers
import proofs.«104585_j29386166239380_1_alg».proof.Proof.RegionBase

set_option maxRecDepth 16384

noncomputable section

namespace Cert.KernelIdeal.RegionValue

open Idealize.ShloMosaic Idealize.ShloMosaic.TcCoe Idealize.ShloMosaic.ValueIdx Idealize.ShloMosaic.RowLocal
open Idealize.ShloMosaic.RowNorm Cert.Layers Cert.KernelIdeal Cert.KernelIdeal.Gen Idealize.SL.Sem

variable (V : (c : Dev nD) → (b : Ref sig .tc) → Buf (Elt Ideal) ((c : Thread nD τ).loc b))

/-- The printed index maps over the 5 grid points: a row-blocked window sits at block `t` of axis 0, every parameter
    window at block 0. -/
theorem idx6 : ∀ t : Fin cfg6.N,
    win6_0.index t (0 : Fin 2) = t.val ∧ win6_0.index t (1 : Fin 2) = 0
    ∧ win6_1.index t (0 : Fin 2) = t.val ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = t.val ∧ win6_4.index t (1 : Fin 2) = 0 :=
  (by decide +kernel : ∀ t : Fin grid6.N, _)

theorem lt6 (t : Fin cfg6.N) : t.val < 5 := lt_of_lt_of_eq t.isLt N_6

theorem rows6 (t : Fin cfg6.N) : ∀ p : Fin 10000, 10000 * t.val + p.val < 50000 := fun p => by
  have := lt6 t; have := p.isLt; omega

/-- Row-blocked window 0's block at point `t` is rows `10000·t …` of its array. -/
theorem blk6_0 (c : Dev nD) (t : Fin cfg6.N) :
    iblk6 V c 0 t = rowsOf (K := 50000) (Q := 64) 10000 t.val (rows6 t) (V c (Pipeline.arrRef spec6 0)) := by
  have e := idx6 t
  funext j
  show V c (Pipeline.arrRef spec6 0) (((cfg6.win 0).blk t).view.emb j)
    = V c (Pipeline.arrRef spec6 0) (ix2 ⟨10000 * t.val + (j 0).val, rows6 t (j 0)⟩ (j 1))
  refine congrArg _ (funext fun a => Fin.ext ?_)
  match a with
  | ⟨0, _⟩ => show win6_0.index t (0 : Fin 2) * 10000 + 1 * (j 0).val = 10000 * t.val + (j 0).val; omega
  | ⟨1, _⟩ => show win6_0.index t (1 : Fin 2) * 64 + 1 * (j 1).val = (j 1).val; omega

/-- Row-blocked window 1's block at point `t` is rows `10000·t …` of its array. -/
theorem blk6_1 (c : Dev nD) (t : Fin cfg6.N) :
    iblk6 V c 1 t = rowsOf (K := 50000) (Q := 64) 10000 t.val (rows6 t) (V c (Pipeline.arrRef spec6 1)) := by
  have e := idx6 t
  funext j
  show V c (Pipeline.arrRef spec6 1) (((cfg6.win 1).blk t).view.emb j)
    = V c (Pipeline.arrRef spec6 1) (ix2 ⟨10000 * t.val + (j 0).val, rows6 t (j 0)⟩ (j 1))
  refine congrArg _ (funext fun a => Fin.ext ?_)
  match a with
  | ⟨0, _⟩ => show win6_1.index t (0 : Fin 2) * 10000 + 1 * (j 0).val = 10000 * t.val + (j 0).val; omega
  | ⟨1, _⟩ => show win6_1.index t (1 : Fin 2) * 64 + 1 * (j 1).val = (j 1).val; omega

/-- Parameter window 2's block at every point is its whole array. -/
theorem blk6_2 (c : Dev nD) (t : Fin cfg6.N) : iblk6 V c 2 t = V c (Pipeline.arrRef spec6 2) := by
  have e := idx6 t
  funext j
  show V c (Pipeline.arrRef spec6 2) (((cfg6.win 2).blk t).view.emb j) = V c (Pipeline.arrRef spec6 2) j
  refine congrArg _ (funext fun a => Fin.ext ?_)
  match a with
  | ⟨0, _⟩ => show win6_2.index t (0 : Fin 2) * 1 + 1 * (j 0).val = (j 0).val; omega
  | ⟨1, _⟩ => show win6_2.index t (1 : Fin 2) * 64 + 1 * (j 1).val = (j 1).val; omega

/-- Parameter window 3's block at every point is its whole array. -/
theorem blk6_3 (c : Dev nD) (t : Fin cfg6.N) : iblk6 V c 3 t = V c (Pipeline.arrRef spec6 3) := by
  have e := idx6 t
  funext j
  show V c (Pipeline.arrRef spec6 3) (((cfg6.win 3).blk t).view.emb j) = V c (Pipeline.arrRef spec6 3) j
  refine congrArg _ (funext fun a => Fin.ext ?_)
  match a with
  | ⟨0, _⟩ => show win6_3.index t (0 : Fin 2) * 1 + 1 * (j 0).val = (j 0).val; omega
  | ⟨1, _⟩ => show win6_3.index t (1 : Fin 2) * 64 + 1 * (j 1).val = (j 1).val; omega

set_option maxHeartbeats 4000000 in
/-- What point `t` writes back to window 4 is block `t` of the layer applied to the whole arrays. -/
theorem flushed6 (c : Dev nD) (t : Fin cfg6.N) :
    (dat6 (F := Ideal) V c).flushed 4 t = ((cfg6.win 4).blk t).view.read (Elt Ideal)
      (nodeR (K := 50000) (V c (Pipeline.arrRef spec6 0)) (V c (Pipeline.arrRef spec6 1)) (V c (Pipeline.arrRef spec6 2)) (V c (Pipeline.arrRef spec6 3))) := by
  show (cfg6.win 4).cut (grid6.coords t) ((dat6 V c).after 4 t) = _
  rw [after6_4]
  unfold out6_4
  rw [View.canon_unit_zero hz2]
  simp only [View.ld_unit_zero (S := S10000x64) hz2, View.ld_unit_zero (S := S1x64) hz2]
  rw [node_pay6]
  rw [blk6_0]
  rw [blk6_1]
  rw [blk6_2]
  rw [blk6_3]
  rw [← rowsOf_nodeR]
  have e := idx6 t
  funext j
  show (nodeR (K := 50000) (V c (Pipeline.arrRef spec6 0)) (V c (Pipeline.arrRef spec6 1)) (V c (Pipeline.arrRef spec6 2)) (V c (Pipeline.arrRef spec6 3))) (ix2 ⟨10000 * t.val + (j 0).val, rows6 t (j 0)⟩ (j 1))
    = (nodeR (K := 50000) (V c (Pipeline.arrRef spec6 0)) (V c (Pipeline.arrRef spec6 1)) (V c (Pipeline.arrRef spec6 2)) (V c (Pipeline.arrRef spec6 3))) (((cfg6.win 4).blk t).view.emb j)
  refine congrArg _ (funext fun a => Fin.ext ?_)
  match a with
  | ⟨0, _⟩ => show 10000 * t.val + (j 0).val = win6_4.index t (0 : Fin 2) * 10000 + 1 * (j 0).val; omega
  | ⟨1, _⟩ => show (j 1).val = win6_4.index t (1 : Fin 2) * 64 + 1 * (j 1).val; omega

/-- An index of window 4's array is in point `t`'s block iff each coordinate is in the block's range. -/
theorem mem_blk6 (t : Fin cfg6.N) (i : S50000x64.Idx) :
    i ∈ ((cfg6.win 4).blk t).view.set ↔ ∀ a : Fin 2, win6_4.index t a * S10000x64.size a ≤ (i a).val
      ∧ (i a).val < win6_4.index t a * S10000x64.size a + S10000x64.size a := by
  show i ∈ ((View.whole (Pipeline.arrRef spec6 4)).slice (win6_4.rect t)).set ↔ _
  rw [View.set_slice_whole, Rect.mem_set_unit]
  exact Iff.rfl

/-- Every row lies in the block of the point `row / 10000`. -/
theorem cover6 (i : S50000x64.Idx) :
    ∃ t : Fin cfg6.N, (cfg6.win 4).flush t = true ∧ i ∈ ((cfg6.win 4).blk t).view.set := by
  have hi0 : (i 0).val < 50000 := (i 0).isLt
  have hi1 : (i 1).val < 64 := (i 1).isLt
  let t : Fin cfg6.N := ⟨(i 0).val / 10000, by rw [show cfg6.N = 5 from N_6]; omega⟩
  have ht : t.val = (i 0).val / 10000 := rfl
  have e := idx6 t
  refine ⟨t, flush6_4 t, ?_⟩
  rw [mem_blk6]
  intro a
  match a with
  | ⟨0, _⟩ => show win6_4.index t (0 : Fin 2) * 10000 ≤ (i 0).val ∧ (i 0).val < win6_4.index t (0 : Fin 2) * 10000 + 10000; omega
  | ⟨1, _⟩ => show win6_4.index t (1 : Fin 2) * 64 ≤ (i 1).val ∧ (i 1).val < win6_4.index t (1 : Fin 2) * 64 + 64; omega

/-- Region 6 leaves in window 4's array the layer applied to the arrays it found. -/
theorem final6 (c : Dev nD) :
    (dat6 (F := Ideal) V c).arrAt 4 cfg6.N
      = nodeR (K := 50000) (V c (Pipeline.arrRef spec6 0)) (V c (Pipeline.arrRef spec6 1)) (V c (Pipeline.arrRef spec6 2)) (V c (Pipeline.arrRef spec6 3)) :=
  (dat6 V c).arrAt_eq_of_cover 4 _ (fun t _ => flushed6 V c t) cover6

end Cert.KernelIdeal.RegionValue

end
-- ==== Proof.Region7.lean ====
/-
  Region 7 (the output heads): each result array is its head applied to the arrays it found.
  Every grid point stages a block of rows of each row-blocked array and the whole of each parameter array, runs the body,
  and writes back a block of rows of the result.  The body's value on a block is the layer of that block (KerLayers.lean),
  the layer acts row by row, and the blocks of rows tile the result array: so the array ends holding the layer of the whole arrays.
-/
import proofs.«104585_j29386166239380_1_alg».proof.Proof.Gen.KernelIdeal.Frame
import proofs.«104585_j29386166239380_1_alg».proof.Proof.KerLayers
import proofs.«104585_j29386166239380_1_alg».proof.Proof.RegionBase

set_option maxRecDepth 16384

noncomputable section

namespace Cert.KernelIdeal.RegionValue

open Idealize.ShloMosaic Idealize.ShloMosaic.TcCoe Idealize.ShloMosaic.ValueIdx Idealize.ShloMosaic.RowLocal
open Idealize.ShloMosaic.RowNorm Cert.Layers Cert.KernelIdeal Cert.KernelIdeal.Gen Idealize.SL.Sem

variable (V : (c : Dev nD) → (b : Ref sig .tc) → Buf (Elt Ideal) ((c : Thread nD τ).loc b))

/-- The printed index maps over the 5 grid points: a row-blocked window sits at block `t` of axis 0, every parameter
    window at block 0. -/
theorem idx7 : ∀ t : Fin cfg7.N,
    win7_0.index t (0 : Fin 2) = t.val ∧ win7_0.index t (1 : Fin 2) = 0
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) = 0 ∧ win7_3.index t (1 : Fin 2) = 0
    ∧ win7_4.index t (0 : Fin 2) = 0 ∧ win7_4.index t (1 : Fin 2) = 0
    ∧ win7_5.index t (0 : Fin 2) = 0 ∧ win7_5.index t (1 : Fin 2) = 0
    ∧ win7_6.index t (0 : Fin 2) = 0 ∧ win7_6.index t (1 : Fin 2) = 0
    ∧ win7_7.index t (0 : Fin 2) = 0 ∧ win7_7.index t (1 : Fin 2) = 0
    ∧ win7_8.index t (0 : Fin 2) = 0 ∧ win7_8.index t (1 : Fin 2) = 0
    ∧ win7_9.index t (0 : Fin 2) = t.val ∧ win7_9.index t (1 : Fin 2) = 0
    ∧ win7_10.index t (0 : Fin 2) = t.val ∧ win7_10.index t (1 : Fin 2) = 0 :=
  (by decide +kernel : ∀ t : Fin grid7.N, _)

theorem lt7 (t : Fin cfg7.N) : t.val < 5 := lt_of_lt_of_eq t.isLt N_7

theorem rows7 (t : Fin cfg7.N) : ∀ p : Fin 10000, 10000 * t.val + p.val < 50000 := fun p => by
  have := lt7 t; have := p.isLt; omega

/-- Row-blocked window 0's block at point `t` is rows `10000·t …` of its array. -/
theorem blk7_0 (c : Dev nD) (t : Fin cfg7.N) :
    iblk7 V c 0 t = rowsOf (K := 50000) (Q := 64) 10000 t.val (rows7 t) (V c (Pipeline.arrRef spec7 0)) := by
  have e := idx7 t
  funext j
  show V c (Pipeline.arrRef spec7 0) (((cfg7.win 0).blk t).view.emb j)
    = V c (Pipeline.arrRef spec7 0) (ix2 ⟨10000 * t.val + (j 0).val, rows7 t (j 0)⟩ (j 1))
  refine congrArg _ (funext fun a => Fin.ext ?_)
  match a with
  | ⟨0, _⟩ => show win7_0.index t (0 : Fin 2) * 10000 + 1 * (j 0).val = 10000 * t.val + (j 0).val; omega
  | ⟨1, _⟩ => show win7_0.index t (1 : Fin 2) * 64 + 1 * (j 1).val = (j 1).val; omega

/-- Parameter window 1's block at every point is its whole array. -/
theorem blk7_1 (c : Dev nD) (t : Fin cfg7.N) : iblk7 V c 1 t = V c (Pipeline.arrRef spec7 1) := by
  have e := idx7 t
  funext j
  show V c (Pipeline.arrRef spec7 1) (((cfg7.win 1).blk t).view.emb j) = V c (Pipeline.arrRef spec7 1) j
  refine congrArg _ (funext fun a => Fin.ext ?_)
  match a with
  | ⟨0, _⟩ => show win7_1.index t (0 : Fin 2) * 64 + 1 * (j 0).val = (j 0).val; omega
  | ⟨1, _⟩ => show win7_1.index t (1 : Fin 2) * 32 + 1 * (j 1).val = (j 1).val; omega

/-- Parameter window 2's block at every point is its whole array. -/
theorem blk7_2 (c : Dev nD) (t : Fin cfg7.N) : iblk7 V c 2 t = V c (Pipeline.arrRef spec7 2) := by
  have e := idx7 t
  funext j
  show V c (Pipeline.arrRef spec7 2) (((cfg7.win 2).blk t).view.emb j) = V c (Pipeline.arrRef spec7 2) j
  refine congrArg _ (funext fun a => Fin.ext ?_)
  match a with
  | ⟨0, _⟩ => show win7_2.index t (0 : Fin 2) * 1 + 1 * (j 0).val = (j 0).val; omega
  | ⟨1, _⟩ => show win7_2.index t (1 : Fin 2) * 32 + 1 * (j 1).val = (j 1).val; omega

/-- Parameter window 3's block at every point is its whole array. -/
theorem blk7_3 (c : Dev nD) (t : Fin cfg7.N) : iblk7 V c 3 t = V c (Pipeline.arrRef spec7 3) := by
  have e := idx7 t
  funext j
  show V c (Pipeline.arrRef spec7 3) (((cfg7.win 3).blk t).view.emb j) = V c (Pipeline.arrRef spec7 3) j
  refine congrArg _ (funext fun a => Fin.ext ?_)
  match a with
  | ⟨0, _⟩ => show win7_3.index t (0 : Fin 2) * 32 + 1 * (j 0).val = (j 0).val; omega
  | ⟨1, _⟩ => show win7_3.index t (1 : Fin 2) * 1 + 1 * (j 1).val = (j 1).val; omega

/-- Parameter window 4's block at every point is its whole array. -/
theorem blk7_4 (c : Dev nD) (t : Fin cfg7.N) : iblk7 V c 4 t = V c (Pipeline.arrRef spec7 4) := by
  have e := idx7 t
  funext j
  show V c (Pipeline.arrRef spec7 4) (((cfg7.win 4).blk t).view.emb j) = V c (Pipeline.arrRef spec7 4) j
  refine congrArg _ (funext fun a => Fin.ext ?_)
  match a with
  | ⟨0, _⟩ => show win7_4.index t (0 : Fin 2) * 1 + 1 * (j 0).val = (j 0).val; omega
  | ⟨1, _⟩ => show win7_4.index t (1 : Fin 2) * 1 + 1 * (j 1).val = (j 1).val; omega

/-- Parameter window 5's block at every point is its whole array. -/
theorem blk7_5 (c : Dev nD) (t : Fin cfg7.N) : iblk7 V c 5 t = V c (Pipeline.arrRef spec7 5) := by
  have e := idx7 t
  funext j
  show V c (Pipeline.arrRef spec7 5) (((cfg7.win 5).blk t).view.emb j) = V c (Pipeline.arrRef spec7 5) j
  refine congrArg _ (funext fun a => Fin.ext ?_)
  match a with
  | ⟨0, _⟩ => show win7_5.index t (0 : Fin 2) * 64 + 1 * (j 0).val = (j 0).val; omega
  | ⟨1, _⟩ => show win7_5.index t (1 : Fin 2) * 32 + 1 * (j 1).val = (j 1).val; omega

/-- Parameter window 6's block at every point is its whole array. -/
theorem blk7_6 (c : Dev nD) (t : Fin cfg7.N) : iblk7 V c 6 t = V c (Pipeline.arrRef spec7 6) := by
  have e := idx7 t
  funext j
  show V c (Pipeline.arrRef spec7 6) (((cfg7.win 6).blk t).view.emb j) = V c (Pipeline.arrRef spec7 6) j
  refine congrArg _ (funext fun a => Fin.ext ?_)
  match a with
  | ⟨0, _⟩ => show win7_6.index t (0 : Fin 2) * 1 + 1 * (j 0).val = (j 0).val; omega
  | ⟨1, _⟩ => show win7_6.index t (1 : Fin 2) * 32 + 1 * (j 1).val = (j 1).val; omega

/-- Parameter window 7's block at every point is its whole array. -/
theorem blk7_7 (c : Dev nD) (t : Fin cfg7.N) : iblk7 V c 7 t = V c (Pipeline.arrRef spec7 7) := by
  have e := idx7 t
  funext j
  show V c (Pipeline.arrRef spec7 7) (((cfg7.win 7).blk t).view.emb j) = V c (Pipeline.arrRef spec7 7) j
  refine congrArg _ (funext fun a => Fin.ext ?_)
  match a with
  | ⟨0, _⟩ => show win7_7.index t (0 : Fin 2) * 32 + 1 * (j 0).val = (j 0).val; omega
  | ⟨1, _⟩ => show win7_7.index t (1 : Fin 2) * 2 + 1 * (j 1).val = (j 1).val; omega

/-- Parameter window 8's block at every point is its whole array. -/
theorem blk7_8 (c : Dev nD) (t : Fin cfg7.N) : iblk7 V c 8 t = V c (Pipeline.arrRef spec7 8) := by
  have e := idx7 t
  funext j
  show V c (Pipeline.arrRef spec7 8) (((cfg7.win 8).blk t).view.emb j) = V c (Pipeline.arrRef spec7 8) j
  refine congrArg _ (funext fun a => Fin.ext ?_)
  match a with
  | ⟨0, _⟩ => show win7_8.index t (0 : Fin 2) * 1 + 1 * (j 0).val = (j 0).val; omega
  | ⟨1, _⟩ => show win7_8.index t (1 : Fin 2) * 2 + 1 * (j 1).val = (j 1).val; omega

set_option maxHeartbeats 4000000 in
/-- What point `t` writes back to window 9 is block `t` of the layer applied to the whole arrays. -/
theorem flushed7_9 (c : Dev nD) (t : Fin cfg7.N) :
    (dat7 (F := Ideal) V c).flushed 9 t = ((cfg7.win 9).blk t).view.read (Elt Ideal)
      (mlpR (K := 50000) (V c (Pipeline.arrRef spec7 0)) (V c (Pipeline.arrRef spec7 1)) (V c (Pipeline.arrRef spec7 2)) (V c (Pipeline.arrRef spec7 3)) (V c (Pipeline.arrRef spec7 4))) := by
  show (cfg7.win 9).cut (grid7.coords t) ((dat7 V c).after 9 t) = _
  rw [after7_9]
  unfold out7_9
  rw [View.canon_unit_zero hz2]
  simp only [View.ld_unit_zero (S := S10000x64) hz2, View.ld_unit_zero (S := S64x32) hz2, View.ld_unit_zero (S := S1x32) hz2, View.ld_unit_zero (S := S32x1) hz2, View.ld_unit_zero (S := S1x1) hz2, View.ld_unit_zero (S := S32x2) hz2, View.ld_unit_zero (S := S1x2) hz2]
  rw [depth_pay7]
  rw [blk7_0]
  rw [blk7_1]
  rw [blk7_2]
  rw [blk7_3]
  rw [blk7_4]
  rw [← rowsOf_mlpR]
  have e := idx7 t
  funext j
  show (mlpR (K := 50000) (V c (Pipeline.arrRef spec7 0)) (V c (Pipeline.arrRef spec7 1)) (V c (Pipeline.arrRef spec7 2)) (V c (Pipeline.arrRef spec7 3)) (V c (Pipeline.arrRef spec7 4))) (ix2 ⟨10000 * t.val + (j 0).val, rows7 t (j 0)⟩ (j 1))
    = (mlpR (K := 50000) (V c (Pipeline.arrRef spec7 0)) (V c (Pipeline.arrRef spec7 1)) (V c (Pipeline.arrRef spec7 2)) (V c (Pipeline.arrRef spec7 3)) (V c (Pipeline.arrRef spec7 4))) (((cfg7.win 9).blk t).view.emb j)
  refine congrArg _ (funext fun a => Fin.ext ?_)
  match a with
  | ⟨0, _⟩ => show 10000 * t.val + (j 0).val = win7_9.index t (0 : Fin 2) * 10000 + 1 * (j 0).val; omega
  | ⟨1, _⟩ => show (j 1).val = win7_9.index t (1 : Fin 2) * 1 + 1 * (j 1).val; omega

/-- An index of window 9's array is in point `t`'s block iff each coordinate is in the block's range. -/
theorem mem_blk7_9 (t : Fin cfg7.N) (i : S50000x1.Idx) :
    i ∈ ((cfg7.win 9).blk t).view.set ↔ ∀ a : Fin 2, win7_9.index t a * S10000x1.size a ≤ (i a).val
      ∧ (i a).val < win7_9.index t a * S10000x1.size a + S10000x1.size a := by
  show i ∈ ((View.whole (Pipeline.arrRef spec7 9)).slice (win7_9.rect t)).set ↔ _
  rw [View.set_slice_whole, Rect.mem_set_unit]
  exact Iff.rfl

/-- Every row lies in the block of the point `row / 10000`. -/
theorem cover7_9 (i : S50000x1.Idx) :
    ∃ t : Fin cfg7.N, (cfg7.win 9).flush t = true ∧ i ∈ ((cfg7.win 9).blk t).view.set := by
  have hi0 : (i 0).val < 50000 := (i 0).isLt
  have hi1 : (i 1).val < 1 := (i 1).isLt
  let t : Fin cfg7.N := ⟨(i 0).val / 10000, by rw [show cfg7.N = 5 from N_7]; omega⟩
  have ht : t.val = (i 0).val / 10000 := rfl
  have e := idx7 t
  refine ⟨t, flush7_9 t, ?_⟩
  rw [mem_blk7_9]
  intro a
  match a with
  | ⟨0, _⟩ => show win7_9.index t (0 : Fin 2) * 10000 ≤ (i 0).val ∧ (i 0).val < win7_9.index t (0 : Fin 2) * 10000 + 10000; omega
  | ⟨1, _⟩ => show win7_9.index t (1 : Fin 2) * 1 ≤ (i 1).val ∧ (i 1).val < win7_9.index t (1 : Fin 2) * 1 + 1; omega

/-- Region 7 leaves in window 9's array the layer applied to the arrays it found. -/
theorem final7_9 (c : Dev nD) :
    (dat7 (F := Ideal) V c).arrAt 9 cfg7.N
      = mlpR (K := 50000) (V c (Pipeline.arrRef spec7 0)) (V c (Pipeline.arrRef spec7 1)) (V c (Pipeline.arrRef spec7 2)) (V c (Pipeline.arrRef spec7 3)) (V c (Pipeline.arrRef spec7 4)) :=
  (dat7 V c).arrAt_eq_of_cover 9 _ (fun t _ => flushed7_9 V c t) cover7_9

set_option maxHeartbeats 4000000 in
/-- What point `t` writes back to window 10 is block `t` of the layer applied to the whole arrays. -/
theorem flushed7_10 (c : Dev nD) (t : Fin cfg7.N) :
    (dat7 (F := Ideal) V c).flushed 10 t = ((cfg7.win 10).blk t).view.read (Elt Ideal)
      (mlpR (K := 50000) (V c (Pipeline.arrRef spec7 0)) (V c (Pipeline.arrRef spec7 5)) (V c (Pipeline.arrRef spec7 6)) (V c (Pipeline.arrRef spec7 7)) (V c (Pipeline.arrRef spec7 8))) := by
  show (cfg7.win 10).cut (grid7.coords t) ((dat7 V c).after 10 t) = _
  rw [after7_10]
  unfold out7_10
  rw [View.canon_unit_zero hz2]
  simp only [View.ld_unit_zero (S := S10000x64) hz2, View.ld_unit_zero (S := S64x32) hz2, View.ld_unit_zero (S := S1x32) hz2, View.ld_unit_zero (S := S32x1) hz2, View.ld_unit_zero (S := S1x1) hz2, View.ld_unit_zero (S := S32x2) hz2, View.ld_unit_zero (S := S1x2) hz2]
  rw [velocity_pay7]
  rw [blk7_0]
  rw [blk7_5]
  rw [blk7_6]
  rw [blk7_7]
  rw [blk7_8]
  rw [← rowsOf_mlpR]
  have e := idx7 t
  funext j
  show (mlpR (K := 50000) (V c (Pipeline.arrRef spec7 0)) (V c (Pipeline.arrRef spec7 5)) (V c (Pipeline.arrRef spec7 6)) (V c (Pipeline.arrRef spec7 7)) (V c (Pipeline.arrRef spec7 8))) (ix2 ⟨10000 * t.val + (j 0).val, rows7 t (j 0)⟩ (j 1))
    = (mlpR (K := 50000) (V c (Pipeline.arrRef spec7 0)) (V c (Pipeline.arrRef spec7 5)) (V c (Pipeline.arrRef spec7 6)) (V c (Pipeline.arrRef spec7 7)) (V c (Pipeline.arrRef spec7 8))) (((cfg7.win 10).blk t).view.emb j)
  refine congrArg _ (funext fun a => Fin.ext ?_)
  match a with
  | ⟨0, _⟩ => show 10000 * t.val + (j 0).val = win7_10.index t (0 : Fin 2) * 10000 + 1 * (j 0).val; omega
  | ⟨1, _⟩ => show (j 1).val = win7_10.index t (1 : Fin 2) * 2 + 1 * (j 1).val; omega

/-- An index of window 10's array is in point `t`'s block iff each coordinate is in the block's range. -/
theorem mem_blk7_10 (t : Fin cfg7.N) (i : S50000x2.Idx) :
    i ∈ ((cfg7.win 10).blk t).view.set ↔ ∀ a : Fin 2, win7_10.index t a * S10000x2.size a ≤ (i a).val
      ∧ (i a).val < win7_10.index t a * S10000x2.size a + S10000x2.size a := by
  show i ∈ ((View.whole (Pipeline.arrRef spec7 10)).slice (win7_10.rect t)).set ↔ _
  rw [View.set_slice_whole, Rect.mem_set_unit]
  exact Iff.rfl

/-- Every row lies in the block of the point `row / 10000`. -/
theorem cover7_10 (i : S50000x2.Idx) :
    ∃ t : Fin cfg7.N, (cfg7.win 10).flush t = true ∧ i ∈ ((cfg7.win 10).blk t).view.set := by
  have hi0 : (i 0).val < 50000 := (i 0).isLt
  have hi1 : (i 1).val < 2 := (i 1).isLt
  let t : Fin cfg7.N := ⟨(i 0).val / 10000, by rw [show cfg7.N = 5 from N_7]; omega⟩
  have ht : t.val = (i 0).val / 10000 := rfl
  have e := idx7 t
  refine ⟨t, flush7_10 t, ?_⟩
  rw [mem_blk7_10]
  intro a
  match a with
  | ⟨0, _⟩ => show win7_10.index t (0 : Fin 2) * 10000 ≤ (i 0).val ∧ (i 0).val < win7_10.index t (0 : Fin 2) * 10000 + 10000; omega
  | ⟨1, _⟩ => show win7_10.index t (1 : Fin 2) * 2 ≤ (i 1).val ∧ (i 1).val < win7_10.index t (1 : Fin 2) * 2 + 2; omega

/-- Region 7 leaves in window 10's array the layer applied to the arrays it found. -/
theorem final7_10 (c : Dev nD) :
    (dat7 (F := Ideal) V c).arrAt 10 cfg7.N
      = mlpR (K := 50000) (V c (Pipeline.arrRef spec7 0)) (V c (Pipeline.arrRef spec7 5)) (V c (Pipeline.arrRef spec7 6)) (V c (Pipeline.arrRef spec7 7)) (V c (Pipeline.arrRef spec7 8)) :=
  (dat7 V c).arrAt_eq_of_cover 10 _ (fun t _ => flushed7_10 V c t) cover7_10

end Cert.KernelIdeal.RegionValue

end
-- ==== Proof.KerFoldClosed.lean ====
/-
  The program's results, with the facts about the eight regions supplied.

  Each region leaves in its output array the layer of its input arrays (the nine facts of `Finals`, proved region by
  region); so the program's two results are the two heads of the whole network of the argument arrays at launch.
-/
import proofs.«104585_j29386166239380_1_alg».proof.Proof.KerFold
import proofs.«104585_j29386166239380_1_alg».proof.Proof.Region0
import proofs.«104585_j29386166239380_1_alg».proof.Proof.Region1
import proofs.«104585_j29386166239380_1_alg».proof.Proof.Region2
import proofs.«104585_j29386166239380_1_alg».proof.Proof.Region3
import proofs.«104585_j29386166239380_1_alg».proof.Proof.Region4
import proofs.«104585_j29386166239380_1_alg».proof.Proof.Region5
import proofs.«104585_j29386166239380_1_alg».proof.Proof.Region6
import proofs.«104585_j29386166239380_1_alg».proof.Proof.Region7

set_option maxRecDepth 16384
set_option maxHeartbeats 1000000

noncomputable section

namespace Cert.KernelIdeal.FoldValue

open Idealize.ShloMosaic Idealize.ShloMosaic.TcCoe Idealize.ShloMosaic.Tactic Idealize.ShloMosaic.StableHlo
open Idealize.ShloMosaic.ValueIdx Idealize.ShloMosaic.RowLocal Idealize.ShloMosaic.RowNorm Idealize.ShloMosaic.HostCast
open Cert.Layers Cert.KernelIdeal Cert.KernelIdeal.Gen

open Cert.KernelIdeal.RegionValue

/-- What each region leaves in its output array: the nine facts. -/
theorem finals : Finals where
  final0 := final0
  final1 := final1
  final3 := final3
  final5 := final5
  final2 := final2
  final4 := final4
  final6 := final6
  final7_9 := final7_9
  final7_10 := final7_10

variable (m : (ℓ : Loc nD τ sig) → Buf (Elt Ideal) ℓ) (ρ : Dev nD → PrngReg) (c : Dev nD)

/-- The program's first result is the first head of the network of the argument arrays at launch. -/
theorem kernel_depth : W16 (F := Ideal) m ρ c (Proc.devRef .tc main_v0_0)
    = netDepthK (argAt m c main_arg0) (argAt m c main_arg1) (argAt m c main_arg2) (argAt m c main_arg3) (argAt m c main_arg4) (argAt m c main_arg5) (argAt m c main_arg6) (argAt m c main_arg7) (argAt m c main_arg8) (argAt m c main_arg9) (argAt m c main_arg10) (argAt m c main_arg11) (argAt m c main_arg12) (argAt m c main_arg13) (argAt m c main_arg14) (argAt m c main_arg15) (argAt m c main_arg16) :=
  result_depth finals m ρ c

/-- The program's second result is the second head of the network of the argument arrays at launch. -/
theorem kernel_velocity : W16 (F := Ideal) m ρ c (Proc.devRef .tc main_v0_1)
    = netVelocityK (argAt m c main_arg0) (argAt m c main_arg1) (argAt m c main_arg2) (argAt m c main_arg3) (argAt m c main_arg4) (argAt m c main_arg5) (argAt m c main_arg6) (argAt m c main_arg7) (argAt m c main_arg8) (argAt m c main_arg9) (argAt m c main_arg10) (argAt m c main_arg11) (argAt m c main_arg12) (argAt m c main_arg17) (argAt m c main_arg18) (argAt m c main_arg19) (argAt m c main_arg20) :=
  result_velocity finals m ρ c

end Cert.KernelIdeal.FoldValue

end
-- ==== Proof.RefStages.lean ====
/-
  The reference network, stage by stage, as functions of arrays.

  Each definition is the composition of host operations that computes one stage of the network from the arrays it reads:
  the encoder, the reciprocal in-degree, the gathered and joined edge inputs, the per-edge two-layer network, the mean
  aggregation, the node update and the two output heads; depthH and velocityH compose them over the 21 argument
  arrays (three message-passing layers, layer l reading slice l of every stacked parameter).
-/
import proofs.«104585_j29386166239380_1_alg».proof.Proof.Gen.ReferenceIdeal
import Idealize.ShloMosaic.PureOps.Ideal

noncomputable section

namespace Cert.RefStages

open Idealize.ShloMosaic Cert.ReferenceIdeal Cert.ReferenceIdeal.Facts₀ Cert.ReferenceIdeal.Facts

/-- Row 0 of the edge index: the source node of every edge. -/
def srcH (ei : IVec S2x800000 32) : IVec S800000 32 :=
  (shapeCast S800000 (((extractStridedSlice S1x800000 ![0, 0] · slices_S2x800000_S1x800000_0_0) : IVec S2x800000 32 → IVec S1x800000 32) ei) shapeCasts_S1x800000_S800000 : IVec S800000 32)

/-- Row 1 of the edge index: the target node of every edge. -/
def dstH (ei : IVec S2x800000 32) : IVec S800000 32 :=
  (shapeCast S800000 (((extractStridedSlice S1x800000 ![1, 0] · slices_S2x800000_S1x800000_1_0) : IVec S2x800000 32 → IVec S1x800000 32) ei) shapeCasts_S1x800000_S800000 : IVec S800000 32)

/-- The mean of every row of a [50000, 64] array, as a [50000, 1] column: the row sum from zero, divided by 64. -/
def meanH (z : FVec Ideal S50000x64 .f32) : FVec Ideal S50000x1 .f32 :=
  ((Host.divf : FVec Ideal S50000x1 .f32 → FVec Ideal S50000x1 .f32 → FVec Ideal S50000x1 .f32) ((broadcastInDim S50000x1 ![0] bcast_S50000_S50000x1_0 : FVec Ideal S50000 .f32 → FVec Ideal S50000x1 .f32) (((fun x v => Host.reduceAdd x v reducesTo_S50000x64_S50000_d1 h_S_) : FVec Ideal S50000x64 .f32 → FVec Ideal S_ .f32 → FVec Ideal S50000 .f32) z ((constant S_ .f32 0x00000000#32) : FVec Ideal S_ .f32))) ((broadcastInDim S50000x1 ![] bcast_S_S50000x1 : FVec Ideal S_ .f32 → FVec Ideal S50000x1 .f32) ((constant S_ .f32 0x42800000#32) : FVec Ideal S_ .f32)))

/-- The variance of every row, as a [50000, 1] column: the mean of the squared deviations from the row mean, taken where the count 64 − 0 is positive (and a fixed word otherwise). -/
def varH (z : FVec Ideal S50000x64 .f32) : FVec Ideal S50000x1 .f32 :=
  (((fun p a b => select (broadcastInDim S50000x1 ![] bcast_S_S50000x1 p) a b) : IVec S_ 1 → FVec Ideal S50000x1 .f32 → FVec Ideal S50000x1 .f32 → FVec Ideal S50000x1 .f32) (((cmpf .ogt) : FVec Ideal S_ .f32 → FVec Ideal S_ .f32 → IVec S_ 1) ((subf : FVec Ideal S_ .f32 → FVec Ideal S_ .f32 → FVec Ideal S_ .f32) ((constant S_ .f32 0x42800000#32) : FVec Ideal S_ .f32) (((sitofp .f32) : IVec S_ 32 → FVec Ideal S_ .f32) ((constantI S_ 32 0#32) : IVec S_ 32))) ((constant S_ .f32 0x00000000#32) : FVec Ideal S_ .f32)) ((Host.divf : FVec Ideal S50000x1 .f32 → FVec Ideal S50000x1 .f32 → FVec Ideal S50000x1 .f32) (((broadcastInDim S50000x1 ![0] bcast_S50000_S50000x1_0) : FVec Ideal S50000 .f32 → FVec Ideal S50000x1 .f32) (((fun x v => Host.reduceAdd x v reducesTo_S50000x64_S50000_d1 h_S_) : FVec Ideal S50000x64 .f32 → FVec Ideal S_ .f32 → FVec Ideal S50000 .f32) ((mulf : FVec Ideal S50000x64 .f32 → FVec Ideal S50000x64 .f32 → FVec Ideal S50000x64 .f32) ((subf : FVec Ideal S50000x64 .f32 → FVec Ideal S50000x64 .f32 → FVec Ideal S50000x64 .f32) z (((broadcastInDim S50000x64 ![0, 1] bcast_S50000x1_S50000x64_0_1) : FVec Ideal S50000x1 .f32 → FVec Ideal S50000x64 .f32) (meanH z))) ((subf : FVec Ideal S50000x64 .f32 → FVec Ideal S50000x64 .f32 → FVec Ideal S50000x64 .f32) z (((broadcastInDim S50000x64 ![0, 1] bcast_S50000x1_S50000x64_0_1) : FVec Ideal S50000x1 .f32 → FVec Ideal S50000x64 .f32) (meanH z)))) ((constant S_ .f32 0x00000000#32) : FVec Ideal S_ .f32))) (((broadcastInDim S50000x1 ![] bcast_S_S50000x1) : FVec Ideal S_ .f32 → FVec Ideal S50000x1 .f32) ((subf : FVec Ideal S_ .f32 → FVec Ideal S_ .f32 → FVec Ideal S_ .f32) ((constant S_ .f32 0x42800000#32) : FVec Ideal S_ .f32) (((sitofp .f32) : IVec S_ 32 → FVec Ideal S_ .f32) ((constantI S_ 32 0#32) : IVec S_ 32))))) (((broadcastInDim S50000x1 ![] bcast_S_S50000x1) : FVec Ideal S_ .f32 → FVec Ideal S50000x1 .f32) ((id : FVec Ideal S_ .f32 → FVec Ideal S_ .f32) ((constant S_ .f32 0x7FC00000#32) : FVec Ideal S_ .f32))))

/-- Layer normalisation of every row: (z − mean) · rsqrt (var + ε) · g + be, the scale g and the shift be broadcast along the rows. -/
def lnH (z : FVec Ideal S50000x64 .f32) (g : FVec Ideal S64 .f32) (be : FVec Ideal S64 .f32) : FVec Ideal S50000x64 .f32 :=
  ((addf : FVec Ideal S50000x64 .f32 → FVec Ideal S50000x64 .f32 → FVec Ideal S50000x64 .f32) ((mulf : FVec Ideal S50000x64 .f32 → FVec Ideal S50000x64 .f32 → FVec Ideal S50000x64 .f32) ((mulf : FVec Ideal S50000x64 .f32 → FVec Ideal S50000x64 .f32 → FVec Ideal S50000x64 .f32) ((subf : FVec Ideal S50000x64 .f32 → FVec Ideal S50000x64 .f32 → FVec Ideal S50000x64 .f32) z ((broadcastInDim S50000x64 ![0, 1] bcast_S50000x1_S50000x64_0_1 : FVec Ideal S50000x1 .f32 → FVec Ideal S50000x64 .f32) (meanH z))) ((broadcastInDim S50000x64 ![0, 1] bcast_S50000x1_S50000x64_0_1 : FVec Ideal S50000x1 .f32 → FVec Ideal S50000x64 .f32) ((Host.rsqrt : FVec Ideal S50000x1 .f32 → FVec Ideal S50000x1 .f32) ((addf : FVec Ideal S50000x1 .f32 → FVec Ideal S50000x1 .f32 → FVec Ideal S50000x1 .f32) (varH z) ((broadcastInDim S50000x1 ![] bcast_S_S50000x1 : FVec Ideal S_ .f32 → FVec Ideal S50000x1 .f32) ((constant S_ .f32 0x3727C5AC#32) : FVec Ideal S_ .f32)))))) ((broadcastInDim S50000x64 ![0, 1] bcast_S1x64_S50000x64_0_1 : FVec Ideal S1x64 .f32 → FVec Ideal S50000x64 .f32) ((broadcastInDim S1x64 ![1] bcast_S64_S1x64_1 : FVec Ideal S64 .f32 → FVec Ideal S1x64 .f32) g))) ((broadcastInDim S50000x64 ![0, 1] bcast_S1x64_S50000x64_0_1 : FVec Ideal S1x64 .f32 → FVec Ideal S50000x64 .f32) ((broadcastInDim S1x64 ![1] bcast_S64_S1x64_1 : FVec Ideal S64 .f32 → FVec Ideal S1x64 .f32) be)))

/-- The encoder: relu (layer normalisation of x · w + b). -/
def encodeH (x : FVec Ideal S50000x16 .f32) (w : FVec Ideal S16x64 .f32) (b : FVec Ideal S64 .f32) (g : FVec Ideal S64 .f32) (be : FVec Ideal S64 .f32) : FVec Ideal S50000x64 .f32 :=
  ((maximumf : FVec Ideal S50000x64 .f32 → FVec Ideal S50000x64 .f32 → FVec Ideal S50000x64 .f32) (lnH ((addf : FVec Ideal S50000x64 .f32 → FVec Ideal S50000x64 .f32 → FVec Ideal S50000x64 .f32) (((fun l r => Host.dotGeneral dot_S50000x16_S16x64_S50000x64_1_0_0_1_n_n none l r) : FVec Ideal S50000x16 .f32 → FVec Ideal S16x64 .f32 → FVec Ideal S50000x64 .f32) x w) ((broadcastInDim S50000x64 ![0, 1] bcast_S1x64_S50000x64_0_1 : FVec Ideal S1x64 .f32 → FVec Ideal S50000x64 .f32) ((broadcastInDim S1x64 ![1] bcast_S64_S1x64_1 : FVec Ideal S64 .f32 → FVec Ideal S1x64 .f32) b))) g be) (((broadcastInDim S50000x64 ![] bcast_S_S50000x64) : FVec Ideal S_ .f32 → FVec Ideal S50000x64 .f32) ((constant S_ .f32 0x00000000#32) : FVec Ideal S_ .f32)))

/-- From the target of every edge: per node, 1 / max (in-degree, 1) where the in-degree is positive and 0 elsewhere, as a [50000, 1] column. The in-degree is the scatter-add of ones into zeros. -/
def invCntOfH (dst : IVec S800000 32) : FVec Ideal S50000x1 .f32 :=
  ((broadcastInDim S50000x1 ![0] bcast_S50000_S50000x1_0 : FVec Ideal S50000 .f32 → FVec Ideal S50000x1 .f32) ((select : IVec S50000 1 → FVec Ideal S50000 .f32 → FVec Ideal S50000 .f32 → FVec Ideal S50000 .f32) ((cmpf .ogt : FVec Ideal S50000 .f32 → FVec Ideal S50000 .f32 → IVec S50000 1) (((fun x i u => Host.scatterAdd scatter_S50000_S800000x1_S800000_n_0_0_1 x i u) : FVec Ideal S50000 .f32 → IVec S800000x1 32 → FVec Ideal S800000 .f32 → FVec Ideal S50000 .f32) ((broadcastInDim S50000 ![] bcast_S_S50000 : FVec Ideal S_ .f32 → FVec Ideal S50000 .f32) ((constant S_ .f32 0x00000000#32) : FVec Ideal S_ .f32)) ((broadcastInDim S800000x1 ![0] bcast_S800000_S800000x1_0 : IVec S800000 32 → IVec S800000x1 32) dst) ((broadcastInDim S800000 ![] bcast_S_S800000 : FVec Ideal S_ .f32 → FVec Ideal S800000 .f32) ((constant S_ .f32 0x3F800000#32) : FVec Ideal S_ .f32))) ((broadcastInDim S50000 ![] bcast_S_S50000 : FVec Ideal S_ .f32 → FVec Ideal S50000 .f32) ((constant S_ .f32 0x00000000#32) : FVec Ideal S_ .f32))) ((Host.divf : FVec Ideal S50000 .f32 → FVec Ideal S50000 .f32 → FVec Ideal S50000 .f32) ((broadcastInDim S50000 ![] bcast_S_S50000 : FVec Ideal S_ .f32 → FVec Ideal S50000 .f32) ((constant S_ .f32 0x3F800000#32) : FVec Ideal S_ .f32)) ((maximumf : FVec Ideal S50000 .f32 → FVec Ideal S50000 .f32 → FVec Ideal S50000 .f32) (((fun x i u => Host.scatterAdd scatter_S50000_S800000x1_S800000_n_0_0_1 x i u) : FVec Ideal S50000 .f32 → IVec S800000x1 32 → FVec Ideal S800000 .f32 → FVec Ideal S50000 .f32) ((broadcastInDim S50000 ![] bcast_S_S50000 : FVec Ideal S_ .f32 → FVec Ideal S50000 .f32) ((constant S_ .f32 0x00000000#32) : FVec Ideal S_ .f32)) ((broadcastInDim S800000x1 ![0] bcast_S800000_S800000x1_0 : IVec S800000 32 → IVec S800000x1 32) dst) ((broadcastInDim S800000 ![] bcast_S_S800000 : FVec Ideal S_ .f32 → FVec Ideal S800000 .f32) ((constant S_ .f32 0x3F800000#32) : FVec Ideal S_ .f32))) ((broadcastInDim S50000 ![] bcast_S_S50000 : FVec Ideal S_ .f32 → FVec Ideal S50000 .f32) ((constant S_ .f32 0x3F800000#32) : FVec Ideal S_ .f32)))) (((broadcastInDim S50000 ![] bcast_S_S50000) : FVec Ideal S_ .f32 → FVec Ideal S50000 .f32) ((id : FVec Ideal S_ .f32 → FVec Ideal S_ .f32) ((constant S_ .f32 0x00000000#32) : FVec Ideal S_ .f32)))))

/-- For every edge the row of h at its source (an index below 0 first moved up by 50000), joined with the edge attributes: [800000, 67]. -/
def gatherCatOfH (h : FVec Ideal S50000x64 .f32) (src : IVec S800000 32) (ea : FVec Ideal S800000x3 .f32) : FVec Ideal S800000x67 .f32 :=
  (((fun a b => concatenate S800000x67 1 [⟨S800000x64, a⟩, ⟨S800000x3, b⟩] concatenates_S800000x64_S800000x3_S800000x67_d1) : FVec Ideal S800000x64 .f32 → FVec Ideal S800000x3 .f32 → FVec Ideal S800000x67 .f32) (((fun x i => Host.gather gather_S50000x64_S800000x1_S800000x64_1_0_n_n_0_1_164 x i) : FVec Ideal S50000x64 .f32 → IVec S800000x1 32 → FVec Ideal S800000x64 .f32) h ((broadcastInDim S800000x1 ![0] bcast_S800000_S800000x1_0 : IVec S800000 32 → IVec S800000x1 32) ((select : IVec S800000 1 → IVec S800000 32 → IVec S800000 32 → IVec S800000 32) ((cmpi .slt : IVec S800000 32 → IVec S800000 32 → IVec S800000 1) src ((broadcastInDim S800000 ![] bcast_S_S800000 : IVec S_ 32 → IVec S800000 32) ((constantI S_ 32 0#32) : IVec S_ 32))) ((addi : IVec S800000 32 → IVec S800000 32 → IVec S800000 32) src ((broadcastInDim S800000 ![] bcast_S_S800000 : IVec S_ 32 → IVec S800000 32) ((constantI S_ 32 50000#32) : IVec S_ 32))) src))) ea)

/-- The matrix at offset off of a [3, 67, 32] stack. -/
def sliceW1H (off : Fin S3x67x32.rank → ℕ) (hs : S3x67x32.Slices off S1x67x32) (p : FVec Ideal S3x67x32 .f32) : FVec Ideal S67x32 .f32 :=
  (shapeCast S67x32 (((extractStridedSlice S1x67x32 off · hs) : FVec Ideal S3x67x32 .f32 → FVec Ideal S1x67x32 .f32) p) shapeCasts_S1x67x32_S67x32 : FVec Ideal S67x32 .f32)

/-- The vector at offset off of a [3, 32] stack. -/
def sliceB1H (off : Fin S3x32.rank → ℕ) (hs : S3x32.Slices off S1x32) (p : FVec Ideal S3x32 .f32) : FVec Ideal S32 .f32 :=
  (shapeCast S32 (((extractStridedSlice S1x32 off · hs) : FVec Ideal S3x32 .f32 → FVec Ideal S1x32 .f32) p) shapeCasts_S1x32_S32 : FVec Ideal S32 .f32)

/-- The matrix at offset off of a [3, 32, 64] stack. -/
def sliceW2H (off : Fin S3x32x64.rank → ℕ) (hs : S3x32x64.Slices off S1x32x64) (p : FVec Ideal S3x32x64 .f32) : FVec Ideal S32x64 .f32 :=
  (shapeCast S32x64 (((extractStridedSlice S1x32x64 off · hs) : FVec Ideal S3x32x64 .f32 → FVec Ideal S1x32x64 .f32) p) shapeCasts_S1x32x64_S32x64 : FVec Ideal S32x64 .f32)

/-- The vector at offset off of a [3, 64] stack. -/
def slice64H (off : Fin S3x64.rank → ℕ) (hs : S3x64.Slices off S1x64) (p : FVec Ideal S3x64 .f32) : FVec Ideal S64 .f32 :=
  (shapeCast S64 (((extractStridedSlice S1x64 off · hs) : FVec Ideal S3x64 .f32 → FVec Ideal S1x64 .f32) p) shapeCasts_S1x64_S64 : FVec Ideal S64 .f32)

/-- The message network on every edge: relu (min · w1 + b1) · w2 + b2. -/
def edgeH (min : FVec Ideal S800000x67 .f32) (w1 : FVec Ideal S67x32 .f32) (b1 : FVec Ideal S32 .f32) (w2 : FVec Ideal S32x64 .f32) (b2 : FVec Ideal S64 .f32) : FVec Ideal S800000x64 .f32 :=
  ((addf : FVec Ideal S800000x64 .f32 → FVec Ideal S800000x64 .f32 → FVec Ideal S800000x64 .f32) (((fun l r => Host.dotGeneral dot_S800000x32_S32x64_S800000x64_1_0_0_1_n_n none l r) : FVec Ideal S800000x32 .f32 → FVec Ideal S32x64 .f32 → FVec Ideal S800000x64 .f32) ((maximumf : FVec Ideal S800000x32 .f32 → FVec Ideal S800000x32 .f32 → FVec Ideal S800000x32 .f32) ((addf : FVec Ideal S800000x32 .f32 → FVec Ideal S800000x32 .f32 → FVec Ideal S800000x32 .f32) (((fun l r => Host.dotGeneral dot_S800000x67_S67x32_S800000x32_1_0_0_1_n_n none l r) : FVec Ideal S800000x67 .f32 → FVec Ideal S67x32 .f32 → FVec Ideal S800000x32 .f32) min w1) ((broadcastInDim S800000x32 ![0, 1] bcast_S1x32_S800000x32_0_1 : FVec Ideal S1x32 .f32 → FVec Ideal S800000x32 .f32) ((broadcastInDim S1x32 ![1] bcast_S32_S1x32_1 : FVec Ideal S32 .f32 → FVec Ideal S1x32 .f32) b1))) (((broadcastInDim S800000x32 ![] bcast_S_S800000x32) : FVec Ideal S_ .f32 → FVec Ideal S800000x32 .f32) ((constant S_ .f32 0x00000000#32) : FVec Ideal S_ .f32))) w2) ((broadcastInDim S800000x64 ![0, 1] bcast_S1x64_S800000x64_0_1 : FVec Ideal S1x64 .f32 → FVec Ideal S800000x64 .f32) ((broadcastInDim S1x64 ![1] bcast_S64_S1x64_1 : FVec Ideal S64 .f32 → FVec Ideal S1x64 .f32) b2)))

/-- The messages added up at the target of every edge (scatter-add into zeros), every row then multiplied by the reciprocal count of its node. -/
def aggOfH (m : FVec Ideal S800000x64 .f32) (dst : IVec S800000 32) (invc : FVec Ideal S50000x1 .f32) : FVec Ideal S50000x64 .f32 :=
  ((mulf : FVec Ideal S50000x64 .f32 → FVec Ideal S50000x64 .f32 → FVec Ideal S50000x64 .f32) (((fun x i u => Host.scatterAdd scatter_S50000x64_S800000x1_S800000x64_1_0_0_1 x i u) : FVec Ideal S50000x64 .f32 → IVec S800000x1 32 → FVec Ideal S800000x64 .f32 → FVec Ideal S50000x64 .f32) ((broadcastInDim S50000x64 ![] bcast_S_S50000x64 : FVec Ideal S_ .f32 → FVec Ideal S50000x64 .f32) ((constant S_ .f32 0x00000000#32) : FVec Ideal S_ .f32)) ((broadcastInDim S800000x1 ![0] bcast_S800000_S800000x1_0 : IVec S800000 32 → IVec S800000x1 32) dst) m) ((broadcastInDim S50000x64 ![0, 1] bcast_S50000x1_S50000x64_0_1 : FVec Ideal S50000x1 .f32 → FVec Ideal S50000x64 .f32) invc))

/-- The node update: layer normalisation of h + agg. -/
def nodeH (h : FVec Ideal S50000x64 .f32) (agg : FVec Ideal S50000x64 .f32) (g : FVec Ideal S64 .f32) (be : FVec Ideal S64 .f32) : FVec Ideal S50000x64 .f32 :=
  (lnH ((addf : FVec Ideal S50000x64 .f32 → FVec Ideal S50000x64 .f32 → FVec Ideal S50000x64 .f32) h agg) g be)

/-- The depth head: relu (h · w1 + b1) · w2 + b2, one column. -/
def head1H (h : FVec Ideal S50000x64 .f32) (w1 : FVec Ideal S64x32 .f32) (b1 : FVec Ideal S32 .f32) (w2 : FVec Ideal S32x1 .f32) (b2 : FVec Ideal S1 .f32) : FVec Ideal S50000x1 .f32 :=
  ((addf : FVec Ideal S50000x1 .f32 → FVec Ideal S50000x1 .f32 → FVec Ideal S50000x1 .f32) (((fun l r => Host.dotGeneral dot_S50000x32_S32x1_S50000x1_1_0_0_1_n_n none l r) : FVec Ideal S50000x32 .f32 → FVec Ideal S32x1 .f32 → FVec Ideal S50000x1 .f32) ((maximumf : FVec Ideal S50000x32 .f32 → FVec Ideal S50000x32 .f32 → FVec Ideal S50000x32 .f32) ((addf : FVec Ideal S50000x32 .f32 → FVec Ideal S50000x32 .f32 → FVec Ideal S50000x32 .f32) (((fun l r => Host.dotGeneral dot_S50000x64_S64x32_S50000x32_1_0_0_1_n_n none l r) : FVec Ideal S50000x64 .f32 → FVec Ideal S64x32 .f32 → FVec Ideal S50000x32 .f32) h w1) ((broadcastInDim S50000x32 ![0, 1] bcast_S1x32_S50000x32_0_1 : FVec Ideal S1x32 .f32 → FVec Ideal S50000x32 .f32) ((broadcastInDim S1x32 ![1] bcast_S32_S1x32_1 : FVec Ideal S32 .f32 → FVec Ideal S1x32 .f32) b1))) (((broadcastInDim S50000x32 ![] bcast_S_S50000x32) : FVec Ideal S_ .f32 → FVec Ideal S50000x32 .f32) ((constant S_ .f32 0x00000000#32) : FVec Ideal S_ .f32))) w2) ((broadcastInDim S50000x1 ![0, 1] bcast_S1x1_S50000x1_0_1 : FVec Ideal S1x1 .f32 → FVec Ideal S50000x1 .f32) ((broadcastInDim S1x1 ![1] bcast_S1_S1x1_1 : FVec Ideal S1 .f32 → FVec Ideal S1x1 .f32) b2)))

/-- The velocity head: relu (h · w1 + b1) · w2 + b2, two columns. -/
def head2H (h : FVec Ideal S50000x64 .f32) (w1 : FVec Ideal S64x32 .f32) (b1 : FVec Ideal S32 .f32) (w2 : FVec Ideal S32x2 .f32) (b2 : FVec Ideal S2 .f32) : FVec Ideal S50000x2 .f32 :=
  ((addf : FVec Ideal S50000x2 .f32 → FVec Ideal S50000x2 .f32 → FVec Ideal S50000x2 .f32) (((fun l r => Host.dotGeneral dot_S50000x32_S32x2_S50000x2_1_0_0_1_n_n none l r) : FVec Ideal S50000x32 .f32 → FVec Ideal S32x2 .f32 → FVec Ideal S50000x2 .f32) ((maximumf : FVec Ideal S50000x32 .f32 → FVec Ideal S50000x32 .f32 → FVec Ideal S50000x32 .f32) ((addf : FVec Ideal S50000x32 .f32 → FVec Ideal S50000x32 .f32 → FVec Ideal S50000x32 .f32) (((fun l r => Host.dotGeneral dot_S50000x64_S64x32_S50000x32_1_0_0_1_n_n none l r) : FVec Ideal S50000x64 .f32 → FVec Ideal S64x32 .f32 → FVec Ideal S50000x32 .f32) h w1) ((broadcastInDim S50000x32 ![0, 1] bcast_S1x32_S50000x32_0_1 : FVec Ideal S1x32 .f32 → FVec Ideal S50000x32 .f32) ((broadcastInDim S1x32 ![1] bcast_S32_S1x32_1 : FVec Ideal S32 .f32 → FVec Ideal S1x32 .f32) b1))) (((broadcastInDim S50000x32 ![] bcast_S_S50000x32) : FVec Ideal S_ .f32 → FVec Ideal S50000x32 .f32) ((constant S_ .f32 0x00000000#32) : FVec Ideal S_ .f32))) w2) ((broadcastInDim S50000x2 ![0, 1] bcast_S1x2_S50000x2_0_1 : FVec Ideal S1x2 .f32 → FVec Ideal S50000x2 .f32) ((broadcastInDim S1x2 ![1] bcast_S2_S1x2_1 : FVec Ideal S2 .f32 → FVec Ideal S1x2 .f32) b2)))

/-- The reciprocal in-degree column, from the edge index. -/
def invCntH (ei : IVec S2x800000 32) : FVec Ideal S50000x1 .f32 := invCntOfH (dstH ei)

/-- The gathered and joined edge inputs, from the edge index. -/
def gatherCatH (h : FVec Ideal S50000x64 .f32) (ei : IVec S2x800000 32) (ea : FVec Ideal S800000x3 .f32) : FVec Ideal S800000x67 .f32 :=
  gatherCatOfH h (srcH ei) ea

/-- The mean aggregation, from the edge index. -/
def aggH (m : FVec Ideal S800000x64 .f32) (ei : IVec S2x800000 32) (invc : FVec Ideal S50000x1 .f32) : FVec Ideal S50000x64 .f32 :=
  aggOfH m (dstH ei) invc

/-- One message-passing layer over already-sliced parameters. -/
def layerH (h : FVec Ideal S50000x64 .f32) (ei : IVec S2x800000 32) (ea : FVec Ideal S800000x3 .f32) (w1 : FVec Ideal S67x32 .f32) (b1 : FVec Ideal S32 .f32)
    (w2 : FVec Ideal S32x64 .f32) (b2 : FVec Ideal S64 .f32) (g : FVec Ideal S64 .f32) (be : FVec Ideal S64 .f32) : FVec Ideal S50000x64 .f32 :=
  nodeH h (aggH (edgeH (gatherCatH h ei ea) w1 b1 w2 b2) ei (invCntH ei)) g be

/-- The node features after the encoder and the three layers. -/
def trunkH (x : FVec Ideal S50000x16 .f32) (ei : IVec S2x800000 32) (ea : FVec Ideal S800000x3 .f32) (ew : FVec Ideal S16x64 .f32) (eb : FVec Ideal S64 .f32) (eg : FVec Ideal S64 .f32) (ebe : FVec Ideal S64 .f32) (W1 : FVec Ideal S3x67x32 .f32) (B1 : FVec Ideal S3x32 .f32) (W2 : FVec Ideal S3x32x64 .f32) (B2 : FVec Ideal S3x64 .f32) (Gm : FVec Ideal S3x64 .f32) (Be : FVec Ideal S3x64 .f32) : FVec Ideal S50000x64 .f32 :=
  (layerH
    (layerH
    (layerH (encodeH x ew eb eg ebe) ei ea (sliceW1H ![0, 0, 0] slices_S3x67x32_S1x67x32_0_0_0 W1) (sliceB1H ![0, 0] slices_S3x32_S1x32_0_0 B1) (sliceW2H ![0, 0, 0] slices_S3x32x64_S1x32x64_0_0_0 W2) (slice64H ![0, 0] slices_S3x64_S1x64_0_0 B2) (slice64H ![0, 0] slices_S3x64_S1x64_0_0 Gm) (slice64H ![0, 0] slices_S3x64_S1x64_0_0 Be)) ei ea (sliceW1H ![1, 0, 0] slices_S3x67x32_S1x67x32_1_0_0 W1) (sliceB1H ![1, 0] slices_S3x32_S1x32_1_0 B1) (sliceW2H ![1, 0, 0] slices_S3x32x64_S1x32x64_1_0_0 W2) (slice64H ![1, 0] slices_S3x64_S1x64_1_0 B2) (slice64H ![1, 0] slices_S3x64_S1x64_1_0 Gm) (slice64H ![1, 0] slices_S3x64_S1x64_1_0 Be)) ei ea (sliceW1H ![2, 0, 0] slices_S3x67x32_S1x67x32_2_0_0 W1) (sliceB1H ![2, 0] slices_S3x32_S1x32_2_0 B1) (sliceW2H ![2, 0, 0] slices_S3x32x64_S1x32x64_2_0_0 W2) (slice64H ![2, 0] slices_S3x64_S1x64_2_0 B2) (slice64H ![2, 0] slices_S3x64_S1x64_2_0 Gm) (slice64H ![2, 0] slices_S3x64_S1x64_2_0 Be))

/-- The first result: the depth head on the trunk. -/
def depthH (x : FVec Ideal S50000x16 .f32) (ei : IVec S2x800000 32) (ea : FVec Ideal S800000x3 .f32) (ew : FVec Ideal S16x64 .f32) (eb : FVec Ideal S64 .f32) (eg : FVec Ideal S64 .f32) (ebe : FVec Ideal S64 .f32) (W1 : FVec Ideal S3x67x32 .f32) (B1 : FVec Ideal S3x32 .f32) (W2 : FVec Ideal S3x32x64 .f32) (B2 : FVec Ideal S3x64 .f32) (Gm : FVec Ideal S3x64 .f32) (Be : FVec Ideal S3x64 .f32) (dw1 : FVec Ideal S64x32 .f32) (db1 : FVec Ideal S32 .f32) (dw2 : FVec Ideal S32x1 .f32) (db2 : FVec Ideal S1 .f32) (vw1 : FVec Ideal S64x32 .f32) (vb1 : FVec Ideal S32 .f32) (vw2 : FVec Ideal S32x2 .f32) (vb2 : FVec Ideal S2 .f32) : FVec Ideal S50000x1 .f32 :=
  head1H (trunkH x ei ea ew eb eg ebe W1 B1 W2 B2 Gm Be) dw1 db1 dw2 db2

/-- The second result: the velocity head on the trunk. -/
def velocityH (x : FVec Ideal S50000x16 .f32) (ei : IVec S2x800000 32) (ea : FVec Ideal S800000x3 .f32) (ew : FVec Ideal S16x64 .f32) (eb : FVec Ideal S64 .f32) (eg : FVec Ideal S64 .f32) (ebe : FVec Ideal S64 .f32) (W1 : FVec Ideal S3x67x32 .f32) (B1 : FVec Ideal S3x32 .f32) (W2 : FVec Ideal S3x32x64 .f32) (B2 : FVec Ideal S3x64 .f32) (Gm : FVec Ideal S3x64 .f32) (Be : FVec Ideal S3x64 .f32) (dw1 : FVec Ideal S64x32 .f32) (db1 : FVec Ideal S32 .f32) (dw2 : FVec Ideal S32x1 .f32) (db2 : FVec Ideal S1 .f32) (vw1 : FVec Ideal S64x32 .f32) (vb1 : FVec Ideal S32 .f32) (vw2 : FVec Ideal S32x2 .f32) (vb2 : FVec Ideal S2 .f32) : FVec Ideal S50000x2 .f32 :=
  head2H (trunkH x ei ea ew eb eg ebe W1 B1 W2 B2 Gm Be) vw1 vb1 vw2 vb2

end Cert.RefStages

end
-- ==== Proof.LibHostNorm.lean ====
/-
  The host's layer normalisation, read entry by entry.

  On a `[K, Q]` array `A` the host computes a layer normalisation as a chain of whole-array operations: the row sums
  (a sum over the second axis from the constant zero) laid out as a column `[K, 1]` and divided by a constant `n` give
  the means; the means broadcast back along the rows and subtracted give the centred array; the row sums of its squares,
  divided by `n − c` for an integer constant `c` converted to a float and guarded by the comparison `n − c > 0`, give
  the variances; then the centred array times the reciprocal square root of variance plus `ε`, broadcast back, times a
  scale row, plus a shift row.  With `c = 0` and `n` positive the guard holds, `n − 0 = n`, and every entry of the
  result is the entry of `RowNorm.lnorm`: the host's chain and the entrywise layer are the same function.
-/
import proofs.«104585_j29386166239380_1_alg».proof.Proof.LibRowNorm
import Idealize.ShloMosaic.Lib.IdealHost

noncomputable section

namespace Idealize.ShloMosaic.HostNorm

open Idealize.ShloMosaic Idealize.ShloMosaic.ValueIdx Idealize.ShloMosaic.RowLocal Idealize.ShloMosaic.RowNorm

/-! ## Scalars -/

/-- The word `0x42800000` is sixty-four. -/
theorem ofBits_64_f32 : Ideal.ofBits .f32 0x42800000#32 = ((64 : ℝ) : EReal) := by
  simp [Ideal.ofBits, Ideal.ieee, -EReal.coe_mul]; norm_num

/-- Sixty-four is positive. -/
theorem ofBits_64_f32_pos : 0 < Ideal.ofBits .f32 0x42800000#32 := by
  rw [ofBits_64_f32]
  exact EReal.coe_pos.mpr (by norm_num)

/-- The integer zero converted to a float is zero. -/
theorem sitofp_zero : FloatOps.sitofp (F := Ideal) .f32 (0#32 : BitVec 32) = (0 : EReal) := by
  show (((0#32 : BitVec 32).toInt : ℝ) : EReal) = 0
  simp

/-- A strict comparison that holds is the word one. -/
theorem cmp_ogt_of_lt {x y : EReal} (h : y < x) : Ideal.cmp .ogt x y = 1#1 := by
  show BitVec.ofBool (decide (y < x)) = 1#1
  rw [decide_eq_true h]
  rfl

/-! ## Layout: a column broadcast along the columns -/

/-- A `[K, 1]` column broadcast along the columns by the host, read at an entry. -/
theorem hostCol_apply {α : Type} {K Q : ℕ} (C : (⟨2, ![K, 1]⟩ : Shape).Idx → α)
    (hb : (⟨2, ![K, 1]⟩ : Shape).BroadcastsInDim ⟨2, ![K, Q]⟩ ![0, 1]) (p : Fin K) (q : Fin Q) :
    broadcastInDim ⟨2, ![K, Q]⟩ ![0, 1] hb C (ix2 p q) = C (ix2 p (0 : Fin 1)) := by
  refine broadcastInDim_apply ![0, 1] hb C (ix2 p q) (ix2 p (0 : Fin 1)) fun a => ?_
  match a with
  | ⟨0, _⟩ =>
    show p.val = if K = 1 then 0 else p.val
    split
    · have := p.isLt; omega
    · rfl
  | ⟨1, _⟩ => exact (if_pos rfl).symm

/-- The host's sum over the second axis from the constant zero, at row `p`: the sum of the row. -/
theorem hostRowSum_apply {K Q : ℕ} (hred : (⟨2, ![K, Q]⟩ : Shape).ReducesTo [1] ⟨1, ![K]⟩) (hu : 0 < (⟨0, ![]⟩ : Shape).numel)
    (A : FVec Ideal ⟨2, ![K, Q]⟩ .f32) (p : Fin K) :
    Host.reduceAdd (F := Ideal) A (constant (F := Ideal) ⟨0, ![]⟩ .f32 0x00000000#32) hred hu (ix1 p)
      = ∑ q : Fin Q, A (ix2 p q) := by
  have h : (⟨2, ![K, Q]⟩ : Shape).Reduces [1] ⟨1, ![K]⟩ := ⟨hred.1, Nat.one_pos, hred.2⟩
  rw [hostReduceAdd_apply, Ideal.hostReduceAdd_single hred h]
  show Ideal.ofBits .f32 0x00000000#32 + _ = _
  rw [Ideal.ofBits_zero_f32, zero_add]
  refine Finset.sum_congr rfl fun q _ => congrArg A ?_
  funext c
  apply Fin.ext
  match c with
  | ⟨0, _⟩ => rfl
  | ⟨1, _⟩ => rfl

/-! ## The chain -/

section Chain
variable {K Q : ℕ}
  (hred : (⟨2, ![K, Q]⟩ : Shape).ReducesTo [1] ⟨1, ![K]⟩)
  (hu : 0 < (⟨0, ![]⟩ : Shape).numel)
  (hcol : (⟨1, ![K]⟩ : Shape).BroadcastsInDim ⟨2, ![K, 1]⟩ ![0])
  (h0 : (⟨0, ![]⟩ : Shape).BroadcastsInDim ⟨2, ![K, 1]⟩ ![])
  (hback : (⟨2, ![K, 1]⟩ : Shape).BroadcastsInDim ⟨2, ![K, Q]⟩ ![0, 1])
  (hrows : (⟨2, ![1, Q]⟩ : Shape).BroadcastsInDim ⟨2, ![K, Q]⟩ ![0, 1])

/-- The row sums of `A`, as a column. -/
def hostSumCol (A : FVec Ideal ⟨2, ![K, Q]⟩ .f32) : FVec Ideal ⟨2, ![K, 1]⟩ .f32 :=
  broadcastInDim ⟨2, ![K, 1]⟩ ![0] hcol
    (Host.reduceAdd (F := Ideal) A (constant (F := Ideal) ⟨0, ![]⟩ .f32 0x00000000#32) hred hu)

/-- The row means: the row sums divided by the constant `nW`. -/
def hostMean (nW : BitVec 32) (A : FVec Ideal ⟨2, ![K, Q]⟩ .f32) : FVec Ideal ⟨2, ![K, 1]⟩ .f32 :=
  Host.divf (F := Ideal) (hostSumCol hred hu hcol A)
    (broadcastInDim ⟨2, ![K, 1]⟩ ![] h0 (constant (F := Ideal) ⟨0, ![]⟩ .f32 nW))

/-- The array minus its row means broadcast back. -/
def hostCentred (nW : BitVec 32) (A : FVec Ideal ⟨2, ![K, Q]⟩ .f32) : FVec Ideal ⟨2, ![K, Q]⟩ .f32 :=
  subf A (broadcastInDim ⟨2, ![K, Q]⟩ ![0, 1] hback (hostMean hred hu hcol h0 nW A))

/-- The variance's divisor: the constant `nW` minus the integer `c` converted to a float. -/
def hostCount (nW : BitVec 32) (c : IVec ⟨0, ![]⟩ 32) : FVec Ideal ⟨0, ![]⟩ .f32 :=
  subf (constant (F := Ideal) ⟨0, ![]⟩ .f32 nW) (sitofp .f32 c)

/-- The row variances: where the divisor is positive, the row sums of the squares of the centred array divided by it;
    elsewhere the constant `nanW`. -/
def hostVar (nW nanW : BitVec 32) (A : FVec Ideal ⟨2, ![K, Q]⟩ .f32) (c : IVec ⟨0, ![]⟩ 32) :
    FVec Ideal ⟨2, ![K, 1]⟩ .f32 :=
  select
    (broadcastInDim ⟨2, ![K, 1]⟩ ![] h0
      (cmpf .ogt (hostCount nW c) (constant (F := Ideal) ⟨0, ![]⟩ .f32 0x00000000#32)))
    (Host.divf (F := Ideal)
      (hostSumCol hred hu hcol (mulf (hostCentred hred hu hcol h0 hback nW A) (hostCentred hred hu hcol h0 hback nW A)))
      (broadcastInDim ⟨2, ![K, 1]⟩ ![] h0 (hostCount nW c)))
    (broadcastInDim ⟨2, ![K, 1]⟩ ![] h0 (constant (F := Ideal) ⟨0, ![]⟩ .f32 nanW))

/-- The normalised array: centred, times the reciprocal square root of variance plus `eW` broadcast back, times the row
    `G`, plus the row `Bt`. -/
def hostLnorm (nW eW nanW : BitVec 32) (A : FVec Ideal ⟨2, ![K, Q]⟩ .f32) (G Bt : FVec Ideal ⟨2, ![1, Q]⟩ .f32) :
    FVec Ideal ⟨2, ![K, Q]⟩ .f32 :=
  addf
    (mulf
      (mulf (hostCentred hred hu hcol h0 hback nW A)
        (broadcastInDim ⟨2, ![K, Q]⟩ ![0, 1] hback
          (Host.rsqrt (F := Ideal)
            (addf (hostVar hred hu hcol h0 hback nW nanW A (constantI ⟨0, ![]⟩ 32 0#32))
              (broadcastInDim ⟨2, ![K, 1]⟩ ![] h0 (constant (F := Ideal) ⟨0, ![]⟩ .f32 eW))))))
      (broadcastInDim ⟨2, ![K, Q]⟩ ![0, 1] hrows G))
    (broadcastInDim ⟨2, ![K, Q]⟩ ![0, 1] hrows Bt)

/-- The column of row sums at `(p, u)` is the sum of row `p`. -/
theorem hostSumCol_apply (A : FVec Ideal ⟨2, ![K, Q]⟩ .f32) (p : Fin K) (u : Fin 1) :
    hostSumCol hred hu hcol A (ix2 p u) = ∑ q : Fin Q, A (ix2 p q) := by
  unfold hostSumCol
  rw [RowLayout.broadcast_col_apply]
  exact hostRowSum_apply hred hu A p

/-- The column of means at `(p, u)` is the mean of row `p`. -/
theorem hostMean_apply (nW : BitVec 32) (A : FVec Ideal ⟨2, ![K, Q]⟩ .f32) (p : Fin K) (u : Fin 1) :
    hostMean hred hu hcol h0 nW A (ix2 p u) = rowMean nW A p := by
  unfold hostMean
  rw [hostDivf_apply, hostSumCol_apply, broadcastInDim_scalar_apply]
  rfl

/-- The host's centred array is the entrywise one. -/
theorem hostCentred_eq (nW : BitVec 32) (A : FVec Ideal ⟨2, ![K, Q]⟩ .f32) :
    hostCentred hred hu hcol h0 hback nW A = centred nW A := by
  funext i
  obtain ⟨p, q, rfl⟩ : ∃ (p : Fin K) (q : Fin Q), i = ix2 p q := ⟨i 0, i 1, eq_ix2 i⟩
  unfold hostCentred
  rw [subf_apply, hostCol_apply, hostMean_apply]
  rfl

/-- With the integer zero the variance's divisor is the constant itself. -/
theorem hostCount_zero (nW : BitVec 32) (j : (⟨0, ![]⟩ : Shape).Idx) :
    hostCount nW (constantI ⟨0, ![]⟩ 32 0#32) j = Ideal.ofBits .f32 nW := by
  show Ideal.ofBits .f32 nW - FloatOps.sitofp (F := Ideal) .f32 (0#32 : BitVec 32) = _
  rw [sitofp_zero, sub_zero]

/-- With the integer zero and a positive constant, the column of variances at `(p, u)` is the variance of row `p`. -/
theorem hostVar_apply (nW nanW : BitVec 32) (hn : 0 < Ideal.ofBits .f32 nW) (A : FVec Ideal ⟨2, ![K, Q]⟩ .f32)
    (p : Fin K) (u : Fin 1) :
    hostVar hred hu hcol h0 hback nW nanW A (constantI ⟨0, ![]⟩ 32 0#32) (ix2 p u) = rowVar nW A p := by
  unfold hostVar
  rw [select_apply, broadcastInDim_scalar_apply, cmpf_apply, hostCount_zero, constant_apply, Ideal.ofBits_zero_f32]
  show Scalar.select (Ideal.cmp .ogt (Ideal.ofBits .f32 nW) 0) _ _ = _
  rw [cmp_ogt_of_lt hn, select_one, hostDivf_apply, hostSumCol_apply, broadcastInDim_scalar_apply, hostCount_zero,
    hostCentred_eq]
  rfl

/-- The host's layer normalisation is the entrywise one. -/
theorem hostLnorm_eq (nW eW nanW : BitVec 32) (hn : 0 < Ideal.ofBits .f32 nW) (A : FVec Ideal ⟨2, ![K, Q]⟩ .f32)
    (G Bt : FVec Ideal ⟨2, ![1, Q]⟩ .f32) :
    hostLnorm hred hu hcol h0 hback hrows nW eW nanW A G Bt = lnorm nW eW A G Bt := by
  funext i
  obtain ⟨p, q, rfl⟩ : ∃ (p : Fin K) (q : Fin Q), i = ix2 p q := ⟨i 0, i 1, eq_ix2 i⟩
  unfold hostLnorm
  rw [addf_apply, mulf_apply, mulf_apply, hostRow_apply, hostRow_apply, hostCol_apply, hostCentred_eq]
  show centred nW A (ix2 p q)
      * Ideal.rsqrt (hostVar hred hu hcol h0 hback nW nanW A (constantI ⟨0, ![]⟩ 32 0#32) (ix2 p (0 : Fin 1))
          + broadcastInDim ⟨2, ![K, 1]⟩ ![] h0 (constant (F := Ideal) ⟨0, ![]⟩ .f32 eW) (ix2 p (0 : Fin 1)))
      * G (ix2 (0 : Fin 1) q) + Bt (ix2 (0 : Fin 1) q) = _
  rw [hostVar_apply _ _ _ _ _ _ _ hn, broadcastInDim_scalar_apply]
  rfl

end Chain

end Idealize.ShloMosaic.HostNorm

end
-- ==== Proof.HostLayers.lean ====
/-
  The host's forms of the layers are the entrywise layers.

  The reference computes each dense stage of the network as a chain of whole-array host operations: a product and a
  bias vector broadcast first to one row and then along the rows; a maximum with the broadcast zero constant; the
  layer-normalisation chain of row sums, broadcasts, a division, a guarded variance and a reciprocal square root; and,
  for layer `l` of a stacked parameter, the slice `[l : l + 1]` with its unit axis dropped.  Over the extended reals
  each chain is, as a function of its operands, the layer stated entry by entry: the encoder `encodeL`, the two-layer
  networks `mlpL` (the message network and the two output heads), the node update `nodeL`, and the slices
  `sliceMat l` and `sliceVec l`.
-/
import proofs.«104585_j29386166239380_1_alg».proof.Proof.RefStages
import proofs.«104585_j29386166239380_1_alg».proof.Proof.Layers
import proofs.«104585_j29386166239380_1_alg».proof.Proof.LibHostNorm

noncomputable section

namespace Cert.HostLayers

open Idealize.ShloMosaic Idealize.ShloMosaic.ValueIdx Idealize.ShloMosaic.RowLocal Idealize.ShloMosaic.RowNorm
  Idealize.ShloMosaic.DenseBlock Idealize.ShloMosaic.HostNorm Cert.Layers

/-! ## The general forms -/
/-- A vector broadcast along a new leading unit axis is the vector as a one-row array. -/
theorem hostVecRow_eq {Q : ℕ} (b : FVec Ideal ⟨1, ![Q]⟩ .f32)
    (h1 : (⟨1, ![Q]⟩ : Shape).BroadcastsInDim ⟨2, ![1, Q]⟩ ![1]) :
    broadcastInDim ⟨2, ![1, Q]⟩ ![1] h1 b = rowVec b :=
  funext fun j => RowLayout.broadcast_row_apply b h1 j

/-- Matrix `l` of a stack, as the host takes it: the slice `[l : l + 1]` with its unit axis dropped. -/
theorem hostSliceMat_eq {L N Q : ℕ} (l : Fin L) (w : FVec Ideal ⟨3, ![L, N, Q]⟩ .f32)
    (hs : (⟨3, ![L, N, Q]⟩ : Shape).Slices ![l.val, 0, 0] ⟨3, ![1, N, Q]⟩)
    (hc : (⟨3, ![1, N, Q]⟩ : Shape).ShapeCasts ⟨2, ![N, Q]⟩) :
    shapeCast ⟨2, ![N, Q]⟩ (extractStridedSlice ⟨3, ![1, N, Q]⟩ ![l.val, 0, 0] w hs) hc = sliceMat l w := by
  funext j
  obtain ⟨n, q, rfl⟩ : ∃ (n : Fin N) (q : Fin Q), j = ix2 n q := ⟨j 0, j 1, eq_ix2 j⟩
  rw [shapeCast_1ab_ab_apply]
  refine extractStridedSlice_apply _ w hs _ (ix3 l n q) fun a => ?_
  match a with
  | ⟨0, _⟩ => rfl
  | ⟨1, _⟩ => exact (Nat.zero_add _).symm
  | ⟨2, _⟩ => exact (Nat.zero_add _).symm

/-- Vector `l` of a stack, as the host takes it: the slice `[l : l + 1]` with its unit axis dropped. -/
theorem hostSliceVec_eq {L Q : ℕ} (l : Fin L) (b : FVec Ideal ⟨2, ![L, Q]⟩ .f32)
    (hs : (⟨2, ![L, Q]⟩ : Shape).Slices ![l.val, 0] ⟨2, ![1, Q]⟩)
    (hc : (⟨2, ![1, Q]⟩ : Shape).ShapeCasts ⟨1, ![Q]⟩) :
    shapeCast ⟨1, ![Q]⟩ (extractStridedSlice ⟨2, ![1, Q]⟩ ![l.val, 0] b hs) hc = sliceVec l b := by
  funext j
  obtain ⟨q, rfl⟩ : ∃ q : Fin Q, j = ix1 q := ⟨j 0, eq_ix1 j⟩
  rw [shapeCast_1a_a_apply]
  refine extractStridedSlice_apply _ b hs _ (ix2 l q) fun a => ?_
  match a with
  | ⟨0, _⟩ => rfl
  | ⟨1, _⟩ => exact (Nat.zero_add _).symm

section Dense
variable {K N P Q : ℕ}

/-- The host's product plus a bias vector broadcast to a row and along the rows. -/
theorem hostAffine_eq (wf : DotDims.WF ⟨2, ![K, N]⟩ ⟨2, ![N, Q]⟩ ⟨2, ![K, Q]⟩ [1] [0] [0] [1] [] [])
    (X : FVec Ideal ⟨2, ![K, N]⟩ .f32) (W : FVec Ideal ⟨2, ![N, Q]⟩ .f32) (b : FVec Ideal ⟨1, ![Q]⟩ .f32)
    (h1 : (⟨1, ![Q]⟩ : Shape).BroadcastsInDim ⟨2, ![1, Q]⟩ ![1])
    (h2 : (⟨2, ![1, Q]⟩ : Shape).BroadcastsInDim ⟨2, ![K, Q]⟩ ![0, 1]) :
    addf (Host.dotGeneral (mmDims K N Q wf) none X W : FVec Ideal ⟨2, ![K, Q]⟩ .f32)
        (broadcastInDim ⟨2, ![K, Q]⟩ ![0, 1] h2 (broadcastInDim ⟨2, ![1, Q]⟩ ![1] h1 b))
      = biased (dense X W) (rowVec b) := by
  rw [hostAddRow_eq_biased, hostDot_eq_dense, hostVecRow_eq]

/-- The host's two-layer network. -/
theorem hostMlp_eq (wf1 : DotDims.WF ⟨2, ![K, N]⟩ ⟨2, ![N, P]⟩ ⟨2, ![K, P]⟩ [1] [0] [0] [1] [] [])
    (wf2 : DotDims.WF ⟨2, ![K, P]⟩ ⟨2, ![P, Q]⟩ ⟨2, ![K, Q]⟩ [1] [0] [0] [1] [] [])
    (M : FVec Ideal ⟨2, ![K, N]⟩ .f32) (W1 : FVec Ideal ⟨2, ![N, P]⟩ .f32) (b1 : FVec Ideal ⟨1, ![P]⟩ .f32)
    (W2 : FVec Ideal ⟨2, ![P, Q]⟩ .f32) (b2 : FVec Ideal ⟨1, ![Q]⟩ .f32)
    (h1P : (⟨1, ![P]⟩ : Shape).BroadcastsInDim ⟨2, ![1, P]⟩ ![1])
    (h2P : (⟨2, ![1, P]⟩ : Shape).BroadcastsInDim ⟨2, ![K, P]⟩ ![0, 1])
    (hzP : (⟨0, ![]⟩ : Shape).BroadcastsInDim ⟨2, ![K, P]⟩ ![])
    (h1Q : (⟨1, ![Q]⟩ : Shape).BroadcastsInDim ⟨2, ![1, Q]⟩ ![1])
    (h2Q : (⟨2, ![1, Q]⟩ : Shape).BroadcastsInDim ⟨2, ![K, Q]⟩ ![0, 1]) :
    addf (Host.dotGeneral (mmDims K P Q wf2) none
          (maximumf
            (addf (Host.dotGeneral (mmDims K N P wf1) none M W1 : FVec Ideal ⟨2, ![K, P]⟩ .f32)
              (broadcastInDim ⟨2, ![K, P]⟩ ![0, 1] h2P (broadcastInDim ⟨2, ![1, P]⟩ ![1] h1P b1)))
            (broadcastInDim ⟨2, ![K, P]⟩ ![] hzP (constant (F := Ideal) ⟨0, ![]⟩ .f32 0x00000000#32)))
          W2 : FVec Ideal ⟨2, ![K, Q]⟩ .f32)
        (broadcastInDim ⟨2, ![K, Q]⟩ ![0, 1] h2Q (broadcastInDim ⟨2, ![1, Q]⟩ ![1] h1Q b2))
      = mlpL M W1 b1 W2 b2 := by
  rw [hostAffine_eq, hostMaxZero_eq_relu, hostAffine_eq]
  rfl

end Dense

section Norm
variable {K : ℕ}
  (hred : (⟨2, ![K, 64]⟩ : Shape).ReducesTo [1] ⟨1, ![K]⟩)
  (hu : 0 < (⟨0, ![]⟩ : Shape).numel)
  (hcol : (⟨1, ![K]⟩ : Shape).BroadcastsInDim ⟨2, ![K, 1]⟩ ![0])
  (h0 : (⟨0, ![]⟩ : Shape).BroadcastsInDim ⟨2, ![K, 1]⟩ ![])
  (hback : (⟨2, ![K, 1]⟩ : Shape).BroadcastsInDim ⟨2, ![K, 64]⟩ ![0, 1])
  (hrows : (⟨2, ![1, 64]⟩ : Shape).BroadcastsInDim ⟨2, ![K, 64]⟩ ![0, 1])
  (h1 : (⟨1, ![64]⟩ : Shape).BroadcastsInDim ⟨2, ![1, 64]⟩ ![1])
  (hz : (⟨0, ![]⟩ : Shape).BroadcastsInDim ⟨2, ![K, 64]⟩ ![])

/-- The host's encoder: the product plus bias, normalised, rectified. -/
theorem hostEncode_eq (wf : DotDims.WF ⟨2, ![K, 16]⟩ ⟨2, ![16, 64]⟩ ⟨2, ![K, 64]⟩ [1] [0] [0] [1] [] []) (nanW : BitVec 32)
    (X : FVec Ideal ⟨2, ![K, 16]⟩ .f32) (W : FVec Ideal ⟨2, ![16, 64]⟩ .f32) (b g be : FVec Ideal ⟨1, ![64]⟩ .f32) :
    maximumf
        (hostLnorm hred hu hcol h0 hback hrows w64 wEps nanW
          (addf (Host.dotGeneral (mmDims K 16 64 wf) none X W : FVec Ideal ⟨2, ![K, 64]⟩ .f32)
            (broadcastInDim ⟨2, ![K, 64]⟩ ![0, 1] hrows (broadcastInDim ⟨2, ![1, 64]⟩ ![1] h1 b)))
          (broadcastInDim ⟨2, ![1, 64]⟩ ![1] h1 g) (broadcastInDim ⟨2, ![1, 64]⟩ ![1] h1 be))
        (broadcastInDim ⟨2, ![K, 64]⟩ ![] hz (constant (F := Ideal) ⟨0, ![]⟩ .f32 0x00000000#32))
      = encodeL X W b g be := by
  rw [hostMaxZero_eq_relu, hostLnorm_eq hred hu hcol h0 hback hrows w64 wEps nanW ofBits_64_f32_pos, hostAffine_eq,
    hostVecRow_eq, hostVecRow_eq]
  rfl

/-- The host's node update: the sum, normalised. -/
theorem hostNode_eq (nanW : BitVec 32) (H A : FVec Ideal ⟨2, ![K, 64]⟩ .f32) (g be : FVec Ideal ⟨1, ![64]⟩ .f32) :
    hostLnorm hred hu hcol h0 hback hrows w64 wEps nanW (addf H A)
        (broadcastInDim ⟨2, ![1, 64]⟩ ![1] h1 g) (broadcastInDim ⟨2, ![1, 64]⟩ ![1] h1 be)
      = nodeL H A g be := by
  rw [hostLnorm_eq hred hu hcol h0 hback hrows w64 wEps nanW ofBits_64_f32_pos, hostVecRow_eq, hostVecRow_eq]
  rfl

end Norm

/-! ## The reference's stages -/

section Stages
open Cert.RefStages Cert.ReferenceIdeal Cert.ReferenceIdeal.Facts₀ Cert.ReferenceIdeal.Facts

/-- The reference's layer-normalisation chain is the general host chain at `[50000, 64]`. -/
theorem lnH_eq_host (z : FVec Ideal S50000x64 .f32) (g be : FVec Ideal S64 .f32) :
    lnH z g be
      = hostLnorm reducesTo_S50000x64_S50000_d1 h_S_ bcast_S50000_S50000x1_0 bcast_S_S50000x1
          bcast_S50000x1_S50000x64_0_1 bcast_S1x64_S50000x64_0_1 w64 wEps 0x7FC00000#32 z
          (broadcastInDim S1x64 ![1] bcast_S64_S1x64_1 g) (broadcastInDim S1x64 ![1] bcast_S64_S1x64_1 be) := rfl

/-- The reference's layer normalisation is the entrywise one. -/
theorem lnH_eq (z : FVec Ideal S50000x64 .f32) (g be : FVec Ideal S64 .f32) :
    lnH z g be = lnorm w64 wEps z (rowVec g) (rowVec be) := by
  rw [lnH_eq_host, hostLnorm_eq _ _ _ _ _ _ w64 wEps _ ofBits_64_f32_pos, hostVecRow_eq, hostVecRow_eq]

/-- The reference's encoder is `encodeL`. -/
theorem encodeH_eq (x : FVec Ideal S50000x16 .f32) (w : FVec Ideal S16x64 .f32) (b g be : FVec Ideal S64 .f32) :
    encodeH x w b g be = encodeL x w b g be := by
  show maximumf
      (lnH (addf (Host.dotGeneral (mmDims 50000 16 64 dot_S50000x16_S16x64_S50000x64_1_0_0_1_n_n_wf) none x w
              : FVec Ideal S50000x64 .f32)
            (broadcastInDim S50000x64 ![0, 1] bcast_S1x64_S50000x64_0_1 (broadcastInDim S1x64 ![1] bcast_S64_S1x64_1 b)))
        g be)
      (broadcastInDim S50000x64 ![] bcast_S_S50000x64 (constant (F := Ideal) S_ .f32 0x00000000#32)) = _
  rw [lnH_eq, hostMaxZero_eq_relu, hostAffine_eq]
  rfl

/-- The reference's node update is `nodeL`. -/
theorem nodeH_eq (h agg : FVec Ideal S50000x64 .f32) (g be : FVec Ideal S64 .f32) :
    nodeH h agg g be = nodeL h agg g be := by
  show lnH (addf h agg) g be = _
  rw [lnH_eq]
  rfl

/-- The reference's message network is `mlpL`. -/
theorem edgeH_eq (min : FVec Ideal S800000x67 .f32) (w1 : FVec Ideal S67x32 .f32) (b1 : FVec Ideal S32 .f32)
    (w2 : FVec Ideal S32x64 .f32) (b2 : FVec Ideal S64 .f32) :
    edgeH min w1 b1 w2 b2 = mlpL min w1 b1 w2 b2 :=
  hostMlp_eq dot_S800000x67_S67x32_S800000x32_1_0_0_1_n_n_wf dot_S800000x32_S32x64_S800000x64_1_0_0_1_n_n_wf
    min w1 b1 w2 b2 bcast_S32_S1x32_1 bcast_S1x32_S800000x32_0_1 bcast_S_S800000x32 bcast_S64_S1x64_1
    bcast_S1x64_S800000x64_0_1

/-- The reference's depth head is `mlpL`. -/
theorem head1H_eq (h : FVec Ideal S50000x64 .f32) (w1 : FVec Ideal S64x32 .f32) (b1 : FVec Ideal S32 .f32)
    (w2 : FVec Ideal S32x1 .f32) (b2 : FVec Ideal S1 .f32) :
    head1H h w1 b1 w2 b2 = mlpL h w1 b1 w2 b2 :=
  hostMlp_eq dot_S50000x64_S64x32_S50000x32_1_0_0_1_n_n_wf dot_S50000x32_S32x1_S50000x1_1_0_0_1_n_n_wf
    h w1 b1 w2 b2 bcast_S32_S1x32_1 bcast_S1x32_S50000x32_0_1 bcast_S_S50000x32 bcast_S1_S1x1_1 bcast_S1x1_S50000x1_0_1

/-- The reference's velocity head is `mlpL`. -/
theorem head2H_eq (h : FVec Ideal S50000x64 .f32) (w1 : FVec Ideal S64x32 .f32) (b1 : FVec Ideal S32 .f32)
    (w2 : FVec Ideal S32x2 .f32) (b2 : FVec Ideal S2 .f32) :
    head2H h w1 b1 w2 b2 = mlpL h w1 b1 w2 b2 :=
  hostMlp_eq dot_S50000x64_S64x32_S50000x32_1_0_0_1_n_n_wf dot_S50000x32_S32x2_S50000x2_1_0_0_1_n_n_wf
    h w1 b1 w2 b2 bcast_S32_S1x32_1 bcast_S1x32_S50000x32_0_1 bcast_S_S50000x32 bcast_S2_S1x2_1 bcast_S1x2_S50000x2_0_1

/-- Layer `l` of the first message weights. -/
theorem sliceW1H_eq (l : Fin 3) (hs : S3x67x32.Slices ![l.val, 0, 0] S1x67x32) (p : FVec Ideal S3x67x32 .f32) :
    sliceW1H ![l.val, 0, 0] hs p = sliceMat l p :=
  hostSliceMat_eq l p hs shapeCasts_S1x67x32_S67x32

/-- Layer `l` of the first message biases. -/
theorem sliceB1H_eq (l : Fin 3) (hs : S3x32.Slices ![l.val, 0] S1x32) (p : FVec Ideal S3x32 .f32) :
    sliceB1H ![l.val, 0] hs p = sliceVec l p :=
  hostSliceVec_eq l p hs shapeCasts_S1x32_S32

/-- Layer `l` of the second message weights. -/
theorem sliceW2H_eq (l : Fin 3) (hs : S3x32x64.Slices ![l.val, 0, 0] S1x32x64) (p : FVec Ideal S3x32x64 .f32) :
    sliceW2H ![l.val, 0, 0] hs p = sliceMat l p :=
  hostSliceMat_eq l p hs shapeCasts_S1x32x64_S32x64

/-- Layer `l` of a stack of vectors of length 64. -/
theorem slice64H_eq (l : Fin 3) (hs : S3x64.Slices ![l.val, 0] S1x64) (p : FVec Ideal S3x64 .f32) :
    slice64H ![l.val, 0] hs p = sliceVec l p :=
  hostSliceVec_eq l p hs shapeCasts_S1x64_S64

/-! The same at the three literal offsets the reference uses. -/

theorem sliceW1H_0 (p : FVec Ideal S3x67x32 .f32) :
    sliceW1H ![0, 0, 0] slices_S3x67x32_S1x67x32_0_0_0 p = sliceMat (0 : Fin 3) p :=
  sliceW1H_eq (0 : Fin 3) slices_S3x67x32_S1x67x32_0_0_0 p

theorem sliceB1H_0 (p : FVec Ideal S3x32 .f32) :
    sliceB1H ![0, 0] slices_S3x32_S1x32_0_0 p = sliceVec (0 : Fin 3) p :=
  sliceB1H_eq (0 : Fin 3) slices_S3x32_S1x32_0_0 p

theorem sliceW2H_0 (p : FVec Ideal S3x32x64 .f32) :
    sliceW2H ![0, 0, 0] slices_S3x32x64_S1x32x64_0_0_0 p = sliceMat (0 : Fin 3) p :=
  sliceW2H_eq (0 : Fin 3) slices_S3x32x64_S1x32x64_0_0_0 p

theorem slice64H_0 (p : FVec Ideal S3x64 .f32) :
    slice64H ![0, 0] slices_S3x64_S1x64_0_0 p = sliceVec (0 : Fin 3) p :=
  slice64H_eq (0 : Fin 3) slices_S3x64_S1x64_0_0 p

theorem sliceW1H_1 (p : FVec Ideal S3x67x32 .f32) :
    sliceW1H ![1, 0, 0] slices_S3x67x32_S1x67x32_1_0_0 p = sliceMat (1 : Fin 3) p :=
  sliceW1H_eq (1 : Fin 3) slices_S3x67x32_S1x67x32_1_0_0 p

theorem sliceB1H_1 (p : FVec Ideal S3x32 .f32) :
    sliceB1H ![1, 0] slices_S3x32_S1x32_1_0 p = sliceVec (1 : Fin 3) p :=
  sliceB1H_eq (1 : Fin 3) slices_S3x32_S1x32_1_0 p

theorem sliceW2H_1 (p : FVec Ideal S3x32x64 .f32) :
    sliceW2H ![1, 0, 0] slices_S3x32x64_S1x32x64_1_0_0 p = sliceMat (1 : Fin 3) p :=
  sliceW2H_eq (1 : Fin 3) slices_S3x32x64_S1x32x64_1_0_0 p

theorem slice64H_1 (p : FVec Ideal S3x64 .f32) :
    slice64H ![1, 0] slices_S3x64_S1x64_1_0 p = sliceVec (1 : Fin 3) p :=
  slice64H_eq (1 : Fin 3) slices_S3x64_S1x64_1_0 p

theorem sliceW1H_2 (p : FVec Ideal S3x67x32 .f32) :
    sliceW1H ![2, 0, 0] slices_S3x67x32_S1x67x32_2_0_0 p = sliceMat (2 : Fin 3) p :=
  sliceW1H_eq (2 : Fin 3) slices_S3x67x32_S1x67x32_2_0_0 p

theorem sliceB1H_2 (p : FVec Ideal S3x32 .f32) :
    sliceB1H ![2, 0] slices_S3x32_S1x32_2_0 p = sliceVec (2 : Fin 3) p :=
  sliceB1H_eq (2 : Fin 3) slices_S3x32_S1x32_2_0 p

theorem sliceW2H_2 (p : FVec Ideal S3x32x64 .f32) :
    sliceW2H ![2, 0, 0] slices_S3x32x64_S1x32x64_2_0_0 p = sliceMat (2 : Fin 3) p :=
  sliceW2H_eq (2 : Fin 3) slices_S3x32x64_S1x32x64_2_0_0 p

theorem slice64H_2 (p : FVec Ideal S3x64 .f32) :
    slice64H ![2, 0] slices_S3x64_S1x64_2_0 p = sliceVec (2 : Fin 3) p :=
  slice64H_eq (2 : Fin 3) slices_S3x64_S1x64_2_0 p

end Stages

end Cert.HostLayers

end
-- ==== Proof.Network.lean ====
/-
  The whole network, its dense stages stated entry by entry.

  The reference's two results are the two output heads applied to the node features after the encoder and three
  message-passing layers.  Here the same composition is written with every dense stage as its entrywise layer — the
  encoder `encodeL`, the message network and the heads `mlpL`, the node update `nodeL`, layer `l` of a stacked
  parameter `sliceMat l` or `sliceVec l` — and with the gathering of the edge inputs, the aggregation at the
  targets and the reciprocal in-degree left as the reference's own functions of the edge index.  The two ways of
  writing the network are the same function of the twenty-one argument arrays.
-/
import proofs.«104585_j29386166239380_1_alg».proof.Proof.RefStages
import proofs.«104585_j29386166239380_1_alg».proof.Proof.Layers
import proofs.«104585_j29386166239380_1_alg».proof.Proof.HostLayers

noncomputable section

namespace Cert.Network

open Idealize.ShloMosaic Idealize.ShloMosaic.RowLocal Cert.Layers Cert.RefStages Cert.HostLayers Cert.ReferenceIdeal
  Cert.ReferenceIdeal.Facts₀ Cert.ReferenceIdeal.Facts

/-- Message-passing layer `l` over the stacked parameters: the message network on the gathered edge inputs, the mean
    aggregation at the targets, and the node update. -/
def layerN (l : Fin 3) (h : FVec Ideal S50000x64 .f32) (ei : IVec S2x800000 32) (ea : FVec Ideal S800000x3 .f32)
    (W1 : FVec Ideal S3x67x32 .f32) (B1 : FVec Ideal S3x32 .f32) (W2 : FVec Ideal S3x32x64 .f32) (B2 Gm Be : FVec Ideal S3x64 .f32) :
    FVec Ideal S50000x64 .f32 :=
  nodeL h
    (aggH (mlpL (gatherCatH h ei ea) (sliceMat l W1) (sliceVec l B1) (sliceMat l W2) (sliceVec l B2)) ei (invCntH ei))
    (sliceVec l Gm) (sliceVec l Be)

/-- The node features after the encoder and the three layers. -/
def trunkN (x : FVec Ideal S50000x16 .f32) (ei : IVec S2x800000 32) (ea : FVec Ideal S800000x3 .f32) (ew : FVec Ideal S16x64 .f32)
    (eb eg ebe : FVec Ideal S64 .f32) (W1 : FVec Ideal S3x67x32 .f32) (B1 : FVec Ideal S3x32 .f32) (W2 : FVec Ideal S3x32x64 .f32)
    (B2 Gm Be : FVec Ideal S3x64 .f32) :
    FVec Ideal S50000x64 .f32 :=
  layerN 2 (layerN 1 (layerN 0 (encodeL x ew eb eg ebe) ei ea W1 B1 W2 B2 Gm Be) ei ea W1 B1 W2 B2 Gm Be)
    ei ea W1 B1 W2 B2 Gm Be

/-- The first result: the depth head on the node features. -/
def depthN (x : FVec Ideal S50000x16 .f32) (ei : IVec S2x800000 32) (ea : FVec Ideal S800000x3 .f32) (ew : FVec Ideal S16x64 .f32)
    (eb eg ebe : FVec Ideal S64 .f32) (W1 : FVec Ideal S3x67x32 .f32) (B1 : FVec Ideal S3x32 .f32) (W2 : FVec Ideal S3x32x64 .f32)
    (B2 Gm Be : FVec Ideal S3x64 .f32)
    (dw1 : FVec Ideal S64x32 .f32) (db1 : FVec Ideal S32 .f32) (dw2 : FVec Ideal S32x1 .f32) (db2 : FVec Ideal S1 .f32)
    (vw1 : FVec Ideal S64x32 .f32) (vb1 : FVec Ideal S32 .f32) (vw2 : FVec Ideal S32x2 .f32) (vb2 : FVec Ideal S2 .f32) :
    FVec Ideal S50000x1 .f32 :=
  mlpL (trunkN x ei ea ew eb eg ebe W1 B1 W2 B2 Gm Be) dw1 db1 dw2 db2

/-- The second result: the velocity head on the node features. -/
def velocityN (x : FVec Ideal S50000x16 .f32) (ei : IVec S2x800000 32) (ea : FVec Ideal S800000x3 .f32) (ew : FVec Ideal S16x64 .f32)
    (eb eg ebe : FVec Ideal S64 .f32) (W1 : FVec Ideal S3x67x32 .f32) (B1 : FVec Ideal S3x32 .f32) (W2 : FVec Ideal S3x32x64 .f32)
    (B2 Gm Be : FVec Ideal S3x64 .f32)
    (dw1 : FVec Ideal S64x32 .f32) (db1 : FVec Ideal S32 .f32) (dw2 : FVec Ideal S32x1 .f32) (db2 : FVec Ideal S1 .f32)
    (vw1 : FVec Ideal S64x32 .f32) (vb1 : FVec Ideal S32 .f32) (vw2 : FVec Ideal S32x2 .f32) (vb2 : FVec Ideal S2 .f32) :
    FVec Ideal S50000x2 .f32 :=
  mlpL (trunkN x ei ea ew eb eg ebe W1 B1 W2 B2 Gm Be) vw1 vb1 vw2 vb2

/-- The reference's layer at the slices `[0 : 1]` of the stacked parameters is layer `0`. -/
theorem layerH_0 (h : FVec Ideal S50000x64 .f32) (ei : IVec S2x800000 32) (ea : FVec Ideal S800000x3 .f32)
    (W1 : FVec Ideal S3x67x32 .f32) (B1 : FVec Ideal S3x32 .f32) (W2 : FVec Ideal S3x32x64 .f32) (B2 Gm Be : FVec Ideal S3x64 .f32) :
    layerH h ei ea (sliceW1H ![0, 0, 0] slices_S3x67x32_S1x67x32_0_0_0 W1) (sliceB1H ![0, 0] slices_S3x32_S1x32_0_0 B1)
        (sliceW2H ![0, 0, 0] slices_S3x32x64_S1x32x64_0_0_0 W2) (slice64H ![0, 0] slices_S3x64_S1x64_0_0 B2)
        (slice64H ![0, 0] slices_S3x64_S1x64_0_0 Gm) (slice64H ![0, 0] slices_S3x64_S1x64_0_0 Be)
      = layerN 0 h ei ea W1 B1 W2 B2 Gm Be := by
  unfold layerH layerN
  rw [sliceW1H_0, sliceB1H_0, sliceW2H_0, slice64H_0 B2, slice64H_0 Gm, slice64H_0 Be, edgeH_eq, nodeH_eq]

/-- The reference's layer at the slices `[1 : 2]` of the stacked parameters is layer `1`. -/
theorem layerH_1 (h : FVec Ideal S50000x64 .f32) (ei : IVec S2x800000 32) (ea : FVec Ideal S800000x3 .f32)
    (W1 : FVec Ideal S3x67x32 .f32) (B1 : FVec Ideal S3x32 .f32) (W2 : FVec Ideal S3x32x64 .f32) (B2 Gm Be : FVec Ideal S3x64 .f32) :
    layerH h ei ea (sliceW1H ![1, 0, 0] slices_S3x67x32_S1x67x32_1_0_0 W1) (sliceB1H ![1, 0] slices_S3x32_S1x32_1_0 B1)
        (sliceW2H ![1, 0, 0] slices_S3x32x64_S1x32x64_1_0_0 W2) (slice64H ![1, 0] slices_S3x64_S1x64_1_0 B2)
        (slice64H ![1, 0] slices_S3x64_S1x64_1_0 Gm) (slice64H ![1, 0] slices_S3x64_S1x64_1_0 Be)
      = layerN 1 h ei ea W1 B1 W2 B2 Gm Be := by
  unfold layerH layerN
  rw [sliceW1H_1, sliceB1H_1, sliceW2H_1, slice64H_1 B2, slice64H_1 Gm, slice64H_1 Be, edgeH_eq, nodeH_eq]

/-- The reference's layer at the slices `[2 : 3]` of the stacked parameters is layer `2`. -/
theorem layerH_2 (h : FVec Ideal S50000x64 .f32) (ei : IVec S2x800000 32) (ea : FVec Ideal S800000x3 .f32)
    (W1 : FVec Ideal S3x67x32 .f32) (B1 : FVec Ideal S3x32 .f32) (W2 : FVec Ideal S3x32x64 .f32) (B2 Gm Be : FVec Ideal S3x64 .f32) :
    layerH h ei ea (sliceW1H ![2, 0, 0] slices_S3x67x32_S1x67x32_2_0_0 W1) (sliceB1H ![2, 0] slices_S3x32_S1x32_2_0 B1)
        (sliceW2H ![2, 0, 0] slices_S3x32x64_S1x32x64_2_0_0 W2) (slice64H ![2, 0] slices_S3x64_S1x64_2_0 B2)
        (slice64H ![2, 0] slices_S3x64_S1x64_2_0 Gm) (slice64H ![2, 0] slices_S3x64_S1x64_2_0 Be)
      = layerN 2 h ei ea W1 B1 W2 B2 Gm Be := by
  unfold layerH layerN
  rw [sliceW1H_2, sliceB1H_2, sliceW2H_2, slice64H_2 B2, slice64H_2 Gm, slice64H_2 Be, edgeH_eq, nodeH_eq]

/-- The reference's node features are `trunkN`. -/
theorem trunkH_eq (x : FVec Ideal S50000x16 .f32) (ei : IVec S2x800000 32) (ea : FVec Ideal S800000x3 .f32) (ew : FVec Ideal S16x64 .f32)
    (eb eg ebe : FVec Ideal S64 .f32) (W1 : FVec Ideal S3x67x32 .f32) (B1 : FVec Ideal S3x32 .f32) (W2 : FVec Ideal S3x32x64 .f32)
    (B2 Gm Be : FVec Ideal S3x64 .f32) :
    trunkH x ei ea ew eb eg ebe W1 B1 W2 B2 Gm Be = trunkN x ei ea ew eb eg ebe W1 B1 W2 B2 Gm Be := by
  unfold trunkH trunkN
  rw [layerH_2, layerH_1, layerH_0, encodeH_eq]

/-- The reference's first result is `depthN`. -/
theorem depthH_eq (x : FVec Ideal S50000x16 .f32) (ei : IVec S2x800000 32) (ea : FVec Ideal S800000x3 .f32) (ew : FVec Ideal S16x64 .f32)
    (eb eg ebe : FVec Ideal S64 .f32) (W1 : FVec Ideal S3x67x32 .f32) (B1 : FVec Ideal S3x32 .f32) (W2 : FVec Ideal S3x32x64 .f32)
    (B2 Gm Be : FVec Ideal S3x64 .f32)
    (dw1 : FVec Ideal S64x32 .f32) (db1 : FVec Ideal S32 .f32) (dw2 : FVec Ideal S32x1 .f32) (db2 : FVec Ideal S1 .f32)
    (vw1 : FVec Ideal S64x32 .f32) (vb1 : FVec Ideal S32 .f32) (vw2 : FVec Ideal S32x2 .f32) (vb2 : FVec Ideal S2 .f32) :
    depthH x ei ea ew eb eg ebe W1 B1 W2 B2 Gm Be dw1 db1 dw2 db2 vw1 vb1 vw2 vb2 = depthN x ei ea ew eb eg ebe W1 B1 W2 B2 Gm Be dw1 db1 dw2 db2 vw1 vb1 vw2 vb2 := by
  unfold depthH depthN
  rw [head1H_eq, trunkH_eq]

/-- The reference's second result is `velocityN`. -/
theorem velocityH_eq (x : FVec Ideal S50000x16 .f32) (ei : IVec S2x800000 32) (ea : FVec Ideal S800000x3 .f32) (ew : FVec Ideal S16x64 .f32)
    (eb eg ebe : FVec Ideal S64 .f32) (W1 : FVec Ideal S3x67x32 .f32) (B1 : FVec Ideal S3x32 .f32) (W2 : FVec Ideal S3x32x64 .f32)
    (B2 Gm Be : FVec Ideal S3x64 .f32)
    (dw1 : FVec Ideal S64x32 .f32) (db1 : FVec Ideal S32 .f32) (dw2 : FVec Ideal S32x1 .f32) (db2 : FVec Ideal S1 .f32)
    (vw1 : FVec Ideal S64x32 .f32) (vb1 : FVec Ideal S32 .f32) (vw2 : FVec Ideal S32x2 .f32) (vb2 : FVec Ideal S2 .f32) :
    velocityH x ei ea ew eb eg ebe W1 B1 W2 B2 Gm Be dw1 db1 dw2 db2 vw1 vb1 vw2 vb2 = velocityN x ei ea ew eb eg ebe W1 B1 W2 B2 Gm Be dw1 db1 dw2 db2 vw1 vb1 vw2 vb2 := by
  unfold velocityH velocityN
  rw [head2H_eq, trunkH_eq]

end Cert.Network

end
-- ==== Proof.KerNetwork.lean ====
/-
  The kernel program's network is the reference's network.

  Both programs apply the same operations for the three computations on full-size arrays that lie between the dense
  stages — the reciprocal in-degree of every node, the rows gathered by source and joined to the edge attributes, the
  messages added up by destination and scaled — so as functions they are equal, and the two ways of composing the
  dense layers with them give the same two results.
-/
import proofs.«104585_j29386166239380_1_alg».proof.Proof.KerGlue
import proofs.«104585_j29386166239380_1_alg».proof.Proof.Network

noncomputable section

namespace Cert.KerNetwork

open Idealize.ShloMosaic Idealize.ShloMosaic.RowLocal Cert.Layers Cert.KernelIdeal.FoldValue Cert.RefStages Cert.Network

/-- The two programs' reciprocal in-degree columns are the same function of the edge index. -/
theorem invCntK_eq : invCntK = invCntH := rfl

/-- The two programs' gathered and joined edge inputs are the same function. -/
theorem gatherCatK_eq : gatherCatK = gatherCatH := rfl

/-- The two programs' mean aggregations are the same function. -/
theorem aggK_eq : aggK = aggH := rfl

section Net
variable (a0 : Mat 50000 16) (a1 : IVec Cert.ReferenceIdeal.S2x800000 32) (a2 : Mat 800000 3) (a3 : Mat 16 64) (a4 a5 a6 : Vct 64)
  (a7 : (⟨3, ![3, 67, 32]⟩ : Shape).Idx → EReal) (a8 : Mat 3 32) (a9 : (⟨3, ![3, 32, 64]⟩ : Shape).Idx → EReal)
  (a10 a11 a12 : Mat 3 64)
  (a13 : Mat 64 32) (a14 : Vct 32) (a15 : Mat 32 1) (a16 : Vct 1)
  (a17 : Mat 64 32) (a18 : Vct 32) (a19 : Mat 32 2) (a20 : Vct 2)

/-- The encoders agree. -/
theorem encK_eq : encK a0 a3 a4 a5 a6 = encodeL a0 a3 a4 a5 a6 := rfl

/-- Layer `l` agrees. -/
theorem layerK_eq (l : Fin 3) (h : Mat 50000 64) :
    layerK a1 a2 a7 a8 a9 a10 a11 a12 l h = layerN l h a1 a2 a7 a8 a9 a10 a11 a12 := by
  unfold layerK layerN msgK nodeL mlpL
  rw [aggK_eq, gatherCatK_eq, invCntK_eq]

/-- The node arrays after the three layers agree. -/
theorem trunkK_eq :
    trunkK a0 a1 a2 a3 a4 a5 a6 a7 a8 a9 a10 a11 a12 = trunkN a0 a1 a2 a3 a4 a5 a6 a7 a8 a9 a10 a11 a12 := by
  unfold trunkK trunkN
  rw [layerK_eq, layerK_eq, layerK_eq, encK_eq]

/-- The first results agree. -/
theorem netDepthK_eq :
    netDepthK a0 a1 a2 a3 a4 a5 a6 a7 a8 a9 a10 a11 a12 a13 a14 a15 a16
      = depthN a0 a1 a2 a3 a4 a5 a6 a7 a8 a9 a10 a11 a12 a13 a14 a15 a16 a17 a18 a19 a20 := by
  unfold netDepthK depthN
  rw [trunkK_eq]
  rfl

/-- The second results agree. -/
theorem netVelocityK_eq :
    netVelocityK a0 a1 a2 a3 a4 a5 a6 a7 a8 a9 a10 a11 a12 a17 a18 a19 a20
      = velocityN a0 a1 a2 a3 a4 a5 a6 a7 a8 a9 a10 a11 a12 a13 a14 a15 a16 a17 a18 a19 a20 := by
  unfold netVelocityK velocityN
  rw [trunkK_eq]
  rfl

/-- The kernel program's first result is the reference's. -/
theorem netDepthK_eq_depthH :
    netDepthK a0 a1 a2 a3 a4 a5 a6 a7 a8 a9 a10 a11 a12 a13 a14 a15 a16
      = depthH a0 a1 a2 a3 a4 a5 a6 a7 a8 a9 a10 a11 a12 a13 a14 a15 a16 a17 a18 a19 a20 :=
  (netDepthK_eq a0 a1 a2 a3 a4 a5 a6 a7 a8 a9 a10 a11 a12 a13 a14 a15 a16 a17 a18 a19 a20).trans
    (depthH_eq a0 a1 a2 a3 a4 a5 a6 a7 a8 a9 a10 a11 a12 a13 a14 a15 a16 a17 a18 a19 a20).symm

/-- The kernel program's second result is the reference's. -/
theorem netVelocityK_eq_velocityH :
    netVelocityK a0 a1 a2 a3 a4 a5 a6 a7 a8 a9 a10 a11 a12 a17 a18 a19 a20
      = velocityH a0 a1 a2 a3 a4 a5 a6 a7 a8 a9 a10 a11 a12 a13 a14 a15 a16 a17 a18 a19 a20 :=
  (netVelocityK_eq a0 a1 a2 a3 a4 a5 a6 a7 a8 a9 a10 a11 a12 a13 a14 a15 a16 a17 a18 a19 a20).trans
    (velocityH_eq a0 a1 a2 a3 a4 a5 a6 a7 a8 a9 a10 a11 a12 a13 a14 a15 a16 a17 a18 a19 a20).symm

end Net

end Cert.KerNetwork

end
-- ==== Proof.RefRunOps.lean ====
/-
  The reference program as a list of host operations.

  The operations of the entry function, in order, with the operations of every called function listed where it is called,
  cut into consecutive segments; the whole list is their concatenation, and running the entry function is running the list.
  For every segment: the buffers it writes, that its operations stay inside the device buffers, and that each determines
  its results.
-/
import proofs.«104585_j29386166239380_1_alg».proof.Proof.Gen.ReferenceIdeal
import Idealize.ShloMosaic.Lib.StableHlo.Run
import Idealize.ShloMosaic.PureOps.Ideal

noncomputable section

namespace Cert.ReferenceIdeal.RefValue

open Idealize.ShloMosaic Idealize.ShloMosaic.TcCoe Idealize.SL.Sem Idealize.ShloMosaic.StableHlo
open Cert.ReferenceIdeal Cert.ReferenceIdeal.Facts₀ Cert.ReferenceIdeal.Facts

/-- A property of every element of two lists holds of every element of their concatenation. -/
theorem forall_app {α : Type _} {p : α → Prop} {l₁ l₂ : List α} (h₁ : l₁.Forall p) (h₂ : l₂.Forall p) : (l₁ ++ l₂).Forall p :=
  List.forall_iff_forall_mem.mpr fun x hx => (List.mem_append.mp hx).elim (List.forall_iff_forall_mem.mp h₁ x) (List.forall_iff_forall_mem.mp h₂ x)

/-- A property of every member of two lists holds of every member of their concatenation. -/
theorem mem_app {α : Type _} {p : α → Prop} {l₁ l₂ : List α} (h₁ : ∀ x ∈ l₁, p x) (h₂ : ∀ x ∈ l₂, p x) : ∀ x ∈ l₁ ++ l₂, p x :=
  fun x hx => (List.mem_append.mp hx).elim (h₁ x) (h₂ x)

/-- Operations 1 … 4 of 349. -/
abbrev seg0 : List (HloOp τ sig (Elt Ideal)) :=
  [ unary main_arg1 main_v0 ((extractStridedSlice S1x800000 ![0, 0] · slices_S2x800000_S1x800000_0_0) : IVec S2x800000 32 → IVec S1x800000 32),
    reshape main_v0 main_v1 rfl shapeCasts_S1x800000_S800000,
    unary main_arg1 main_v2 ((extractStridedSlice S1x800000 ![1, 0] · slices_S2x800000_S1x800000_1_0) : IVec S2x800000 32 → IVec S1x800000 32),
    reshape main_v2 main_v3 rfl shapeCasts_S1x800000_S800000 ]
/-- The buffers they write. -/
abbrev seg0_W : List (Ref sig .tc) := [main_v0, main_v1, main_v2, main_v3]
set_option maxRecDepth 8192 in
theorem seg0_writes : (seg0 : List (HloOp τ sig (Elt Ideal))).Forall fun op => op.writes ⊆ (seg0_W.map (Proc.devRef (τ := τ) .tc)).toFinset := by
  simp only [List.Forall]
  exact ⟨(by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide))⟩
theorem seg0_sub : (seg0 : List (HloOp τ sig (Elt Ideal))).Forall fun op => op.bufs ⊆ tcRefs τ sig :=
  ⟨unary_bufs_sub .., reshape_bufs_sub .., unary_bufs_sub .., reshape_bufs_sub ..⟩
theorem seg0_fresh : ∀ op ∈ (seg0 : List (HloOp τ sig (Elt Ideal))), op.fresh = ∅ := by
  intro _ h; (repeat (cases h with | head => rfl | tail _ h => ?_)); exact nomatch h

/-- Operations 5 … 55 of 349. -/
abbrev seg1 : List (HloOp τ sig (Elt Ideal)) :=
  [ binary main_arg0 main_arg3 main_v4 ((fun l r => Host.dotGeneral dot_S50000x16_S16x64_S50000x64_1_0_0_1_n_n none l r) : FVec Ideal S50000x16 .f32 → FVec Ideal S16x64 .f32 → FVec Ideal S50000x64 .f32),
    unary main_arg4 main_v5 (broadcastInDim S1x64 ![1] bcast_S64_S1x64_1 : FVec Ideal S64 .f32 → FVec Ideal S1x64 .f32),
    unary main_v5 main_v6 (broadcastInDim S50000x64 ![0, 1] bcast_S1x64_S50000x64_0_1 : FVec Ideal S1x64 .f32 → FVec Ideal S50000x64 .f32),
    binary main_v4 main_v6 main_v7 (addf : FVec Ideal S50000x64 .f32 → FVec Ideal S50000x64 .f32 → FVec Ideal S50000x64 .f32),
    nullary main_cst ((constant S_ .f32 0x00000000#32) : FVec Ideal S_ .f32),
    binary main_v7 main_cst main_v8 ((fun x v => Host.reduceAdd x v reducesTo_S50000x64_S50000_d1 h_S_) : FVec Ideal S50000x64 .f32 → FVec Ideal S_ .f32 → FVec Ideal S50000 .f32),
    unary main_v8 main_v9 (broadcastInDim S50000x1 ![0] bcast_S50000_S50000x1_0 : FVec Ideal S50000 .f32 → FVec Ideal S50000x1 .f32),
    nullary main_cst_0 ((constant S_ .f32 0x42800000#32) : FVec Ideal S_ .f32),
    unary main_cst_0 main_v10 (broadcastInDim S50000x1 ![] bcast_S_S50000x1 : FVec Ideal S_ .f32 → FVec Ideal S50000x1 .f32),
    binary main_v9 main_v10 main_v11 (Host.divf : FVec Ideal S50000x1 .f32 → FVec Ideal S50000x1 .f32 → FVec Ideal S50000x1 .f32),
    nullary main_c ((constantI S_ 32 0#32) : IVec S_ 32),
    nullary main_call0_cst ((constant S_ .f32 0x00000000#32) : FVec Ideal S_ .f32),
    binary main_v7 main_call0_cst main_call0_v0 ((fun x v => Host.reduceAdd x v reducesTo_S50000x64_S50000_d1 h_S_) : FVec Ideal S50000x64 .f32 → FVec Ideal S_ .f32 → FVec Ideal S50000 .f32),
    unary main_call0_v0 main_call0_v1 ((broadcastInDim S50000x1 ![0] bcast_S50000_S50000x1_0) : FVec Ideal S50000 .f32 → FVec Ideal S50000x1 .f32),
    nullary main_call0_cst_0 ((constant S_ .f32 0x42800000#32) : FVec Ideal S_ .f32),
    unary main_call0_cst_0 main_call0_v2 ((broadcastInDim S50000x1 ![] bcast_S_S50000x1) : FVec Ideal S_ .f32 → FVec Ideal S50000x1 .f32),
    binary main_call0_v1 main_call0_v2 main_call0_v3 (Host.divf : FVec Ideal S50000x1 .f32 → FVec Ideal S50000x1 .f32 → FVec Ideal S50000x1 .f32),
    unary main_call0_v3 main_call0_v4 ((broadcastInDim S50000x64 ![0, 1] bcast_S50000x1_S50000x64_0_1) : FVec Ideal S50000x1 .f32 → FVec Ideal S50000x64 .f32),
    binary main_v7 main_call0_v4 main_call0_v5 (subf : FVec Ideal S50000x64 .f32 → FVec Ideal S50000x64 .f32 → FVec Ideal S50000x64 .f32),
    binary main_call0_v5 main_call0_v5 main_call0_v6 (mulf : FVec Ideal S50000x64 .f32 → FVec Ideal S50000x64 .f32 → FVec Ideal S50000x64 .f32),
    unary main_c main_call0_v7 ((sitofp .f32) : IVec S_ 32 → FVec Ideal S_ .f32),
    nullary main_call0_cst_1 ((constant S_ .f32 0x42800000#32) : FVec Ideal S_ .f32),
    binary main_call0_cst_1 main_call0_v7 main_call0_v8 (subf : FVec Ideal S_ .f32 → FVec Ideal S_ .f32 → FVec Ideal S_ .f32),
    nullary main_call0_cst_2 ((constant S_ .f32 0x00000000#32) : FVec Ideal S_ .f32),
    binary main_call0_v6 main_call0_cst_2 main_call0_v9 ((fun x v => Host.reduceAdd x v reducesTo_S50000x64_S50000_d1 h_S_) : FVec Ideal S50000x64 .f32 → FVec Ideal S_ .f32 → FVec Ideal S50000 .f32),
    unary main_call0_v9 main_call0_v10 ((broadcastInDim S50000x1 ![0] bcast_S50000_S50000x1_0) : FVec Ideal S50000 .f32 → FVec Ideal S50000x1 .f32),
    unary main_call0_v8 main_call0_v11 ((broadcastInDim S50000x1 ![] bcast_S_S50000x1) : FVec Ideal S_ .f32 → FVec Ideal S50000x1 .f32),
    binary main_call0_v10 main_call0_v11 main_call0_v12 (Host.divf : FVec Ideal S50000x1 .f32 → FVec Ideal S50000x1 .f32 → FVec Ideal S50000x1 .f32),
    nullary main_call0_cst_3 ((constant S_ .f32 0x00000000#32) : FVec Ideal S_ .f32),
    binary main_call0_v8 main_call0_cst_3 main_call0_v13 ((cmpf .ogt) : FVec Ideal S_ .f32 → FVec Ideal S_ .f32 → IVec S_ 1),
    nullary main_call0_cst_4 ((constant S_ .f32 0x7FC00000#32) : FVec Ideal S_ .f32),
    unary main_call0_cst_4 main_call0_call0_v0 (id : FVec Ideal S_ .f32 → FVec Ideal S_ .f32),
    unary main_call0_call0_v0 main_call0_call0_v1 ((broadcastInDim S50000x1 ![] bcast_S_S50000x1) : FVec Ideal S_ .f32 → FVec Ideal S50000x1 .f32),
    ternary main_call0_v13 main_call0_v12 main_call0_call0_v1 main_v12 ((fun p a b => select (broadcastInDim S50000x1 ![] bcast_S_S50000x1 p) a b) : IVec S_ 1 → FVec Ideal S50000x1 .f32 → FVec Ideal S50000x1 .f32 → FVec Ideal S50000x1 .f32),
    unary main_v11 main_v13 (broadcastInDim S50000x64 ![0, 1] bcast_S50000x1_S50000x64_0_1 : FVec Ideal S50000x1 .f32 → FVec Ideal S50000x64 .f32),
    binary main_v7 main_v13 main_v14 (subf : FVec Ideal S50000x64 .f32 → FVec Ideal S50000x64 .f32 → FVec Ideal S50000x64 .f32),
    nullary main_cst_1 ((constant S_ .f32 0x3727C5AC#32) : FVec Ideal S_ .f32),
    unary main_cst_1 main_v15 (broadcastInDim S50000x1 ![] bcast_S_S50000x1 : FVec Ideal S_ .f32 → FVec Ideal S50000x1 .f32),
    binary main_v12 main_v15 main_v16 (addf : FVec Ideal S50000x1 .f32 → FVec Ideal S50000x1 .f32 → FVec Ideal S50000x1 .f32),
    unary main_v16 main_v17 (Host.rsqrt : FVec Ideal S50000x1 .f32 → FVec Ideal S50000x1 .f32),
    unary main_v17 main_v18 (broadcastInDim S50000x64 ![0, 1] bcast_S50000x1_S50000x64_0_1 : FVec Ideal S50000x1 .f32 → FVec Ideal S50000x64 .f32),
    binary main_v14 main_v18 main_v19 (mulf : FVec Ideal S50000x64 .f32 → FVec Ideal S50000x64 .f32 → FVec Ideal S50000x64 .f32),
    unary main_arg5 main_v20 (broadcastInDim S1x64 ![1] bcast_S64_S1x64_1 : FVec Ideal S64 .f32 → FVec Ideal S1x64 .f32),
    unary main_v20 main_v21 (broadcastInDim S50000x64 ![0, 1] bcast_S1x64_S50000x64_0_1 : FVec Ideal S1x64 .f32 → FVec Ideal S50000x64 .f32),
    binary main_v19 main_v21 main_v22 (mulf : FVec Ideal S50000x64 .f32 → FVec Ideal S50000x64 .f32 → FVec Ideal S50000x64 .f32),
    unary main_arg6 main_v23 (broadcastInDim S1x64 ![1] bcast_S64_S1x64_1 : FVec Ideal S64 .f32 → FVec Ideal S1x64 .f32),
    unary main_v23 main_v24 (broadcastInDim S50000x64 ![0, 1] bcast_S1x64_S50000x64_0_1 : FVec Ideal S1x64 .f32 → FVec Ideal S50000x64 .f32),
    binary main_v22 main_v24 main_v25 (addf : FVec Ideal S50000x64 .f32 → FVec Ideal S50000x64 .f32 → FVec Ideal S50000x64 .f32),
    nullary main_call1_cst ((constant S_ .f32 0x00000000#32) : FVec Ideal S_ .f32),
    unary main_call1_cst main_call1_v0 ((broadcastInDim S50000x64 ![] bcast_S_S50000x64) : FVec Ideal S_ .f32 → FVec Ideal S50000x64 .f32),
    binary main_v25 main_call1_v0 main_v26 (maximumf : FVec Ideal S50000x64 .f32 → FVec Ideal S50000x64 .f32 → FVec Ideal S50000x64 .f32) ]
/-- The buffers they write. -/
abbrev seg1_W : List (Ref sig .tc) := [main_v4, main_v5, main_v6, main_v7, main_cst, main_v8, main_v9, main_cst_0, main_v10, main_v11, main_c, main_call0_cst, main_call0_v0, main_call0_v1, main_call0_cst_0, main_call0_v2, main_call0_v3, main_call0_v4, main_call0_v5, main_call0_v6, main_call0_v7, main_call0_cst_1, main_call0_v8, main_call0_cst_2, main_call0_v9, main_call0_v10, main_call0_v11, main_call0_v12, main_call0_cst_3, main_call0_v13, main_call0_cst_4, main_call0_call0_v0, main_call0_call0_v1, main_v12, main_v13, main_v14, main_cst_1, main_v15, main_v16, main_v17, main_v18, main_v19, main_v20, main_v21, main_v22, main_v23, main_v24, main_v25, main_call1_cst, main_call1_v0, main_v26]
set_option maxRecDepth 8192 in
theorem seg1_writes : (seg1 : List (HloOp τ sig (Elt Ideal))).Forall fun op => op.writes ⊆ (seg1_W.map (Proc.devRef (τ := τ) .tc)).toFinset := by
  simp only [List.Forall]
  exact ⟨(by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide))⟩
theorem seg1_sub : (seg1 : List (HloOp τ sig (Elt Ideal))).Forall fun op => op.bufs ⊆ tcRefs τ sig :=
  ⟨binary_bufs_sub .., unary_bufs_sub .., unary_bufs_sub .., binary_bufs_sub .., nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub ..⟩
theorem seg1_fresh : ∀ op ∈ (seg1 : List (HloOp τ sig (Elt Ideal))), op.fresh = ∅ := by
  intro _ h; (repeat (cases h with | head => rfl | tail _ h => ?_)); exact nomatch h

/-- Operations 56 … 75 of 349. -/
abbrev seg2 : List (HloOp τ sig (Elt Ideal)) :=
  [ nullary main_cst_2 ((constant S_ .f32 0x3F800000#32) : FVec Ideal S_ .f32),
    unary main_cst_2 main_v27 (broadcastInDim S800000 ![] bcast_S_S800000 : FVec Ideal S_ .f32 → FVec Ideal S800000 .f32),
    nullary main_cst_3 ((constant S_ .f32 0x00000000#32) : FVec Ideal S_ .f32),
    unary main_cst_3 main_v28 (broadcastInDim S50000 ![] bcast_S_S50000 : FVec Ideal S_ .f32 → FVec Ideal S50000 .f32),
    unary main_v3 main_v29 (broadcastInDim S800000x1 ![0] bcast_S800000_S800000x1_0 : IVec S800000 32 → IVec S800000x1 32),
    ternary main_v28 main_v29 main_v27 main_v30 ((fun x i u => Host.scatterAdd scatter_S50000_S800000x1_S800000_n_0_0_1 x i u) : FVec Ideal S50000 .f32 → IVec S800000x1 32 → FVec Ideal S800000 .f32 → FVec Ideal S50000 .f32),
    nullary main_cst_4 ((constant S_ .f32 0x00000000#32) : FVec Ideal S_ .f32),
    unary main_cst_4 main_v31 (broadcastInDim S50000 ![] bcast_S_S50000 : FVec Ideal S_ .f32 → FVec Ideal S50000 .f32),
    binary main_v30 main_v31 main_v32 (cmpf .ogt : FVec Ideal S50000 .f32 → FVec Ideal S50000 .f32 → IVec S50000 1),
    nullary main_cst_5 ((constant S_ .f32 0x3F800000#32) : FVec Ideal S_ .f32),
    unary main_cst_5 main_v33 (broadcastInDim S50000 ![] bcast_S_S50000 : FVec Ideal S_ .f32 → FVec Ideal S50000 .f32),
    binary main_v30 main_v33 main_v34 (maximumf : FVec Ideal S50000 .f32 → FVec Ideal S50000 .f32 → FVec Ideal S50000 .f32),
    nullary main_cst_6 ((constant S_ .f32 0x3F800000#32) : FVec Ideal S_ .f32),
    unary main_cst_6 main_v35 (broadcastInDim S50000 ![] bcast_S_S50000 : FVec Ideal S_ .f32 → FVec Ideal S50000 .f32),
    binary main_v35 main_v34 main_v36 (Host.divf : FVec Ideal S50000 .f32 → FVec Ideal S50000 .f32 → FVec Ideal S50000 .f32),
    nullary main_cst_7 ((constant S_ .f32 0x00000000#32) : FVec Ideal S_ .f32),
    unary main_cst_7 main_call2_v0 (id : FVec Ideal S_ .f32 → FVec Ideal S_ .f32),
    unary main_call2_v0 main_call2_v1 ((broadcastInDim S50000 ![] bcast_S_S50000) : FVec Ideal S_ .f32 → FVec Ideal S50000 .f32),
    ternary main_v32 main_v36 main_call2_v1 main_v37 (select : IVec S50000 1 → FVec Ideal S50000 .f32 → FVec Ideal S50000 .f32 → FVec Ideal S50000 .f32),
    unary main_v37 main_v38 (broadcastInDim S50000x1 ![0] bcast_S50000_S50000x1_0 : FVec Ideal S50000 .f32 → FVec Ideal S50000x1 .f32) ]
/-- The buffers they write. -/
abbrev seg2_W : List (Ref sig .tc) := [main_cst_2, main_v27, main_cst_3, main_v28, main_v29, main_v30, main_cst_4, main_v31, main_v32, main_cst_5, main_v33, main_v34, main_cst_6, main_v35, main_v36, main_cst_7, main_call2_v0, main_call2_v1, main_v37, main_v38]
set_option maxRecDepth 8192 in
theorem seg2_writes : (seg2 : List (HloOp τ sig (Elt Ideal))).Forall fun op => op.writes ⊆ (seg2_W.map (Proc.devRef (τ := τ) .tc)).toFinset := by
  simp only [List.Forall]
  exact ⟨(by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide))⟩
theorem seg2_sub : (seg2 : List (HloOp τ sig (Elt Ideal))).Forall fun op => op.bufs ⊆ tcRefs τ sig :=
  ⟨nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub ..⟩
theorem seg2_fresh : ∀ op ∈ (seg2 : List (HloOp τ sig (Elt Ideal))), op.fresh = ∅ := by
  intro _ h; (repeat (cases h with | head => rfl | tail _ h => ?_)); exact nomatch h

/-- Operations 76 … 85 of 349. -/
abbrev seg3 : List (HloOp τ sig (Elt Ideal)) :=
  [ nullary main_c_8 ((constantI S_ 32 0#32) : IVec S_ 32),
    unary main_c_8 main_v39 (broadcastInDim S800000 ![] bcast_S_S800000 : IVec S_ 32 → IVec S800000 32),
    binary main_v1 main_v39 main_v40 (cmpi .slt : IVec S800000 32 → IVec S800000 32 → IVec S800000 1),
    nullary main_c_9 ((constantI S_ 32 50000#32) : IVec S_ 32),
    unary main_c_9 main_v41 (broadcastInDim S800000 ![] bcast_S_S800000 : IVec S_ 32 → IVec S800000 32),
    binary main_v1 main_v41 main_v42 (addi : IVec S800000 32 → IVec S800000 32 → IVec S800000 32),
    ternary main_v40 main_v42 main_v1 main_v43 (select : IVec S800000 1 → IVec S800000 32 → IVec S800000 32 → IVec S800000 32),
    unary main_v43 main_v44 (broadcastInDim S800000x1 ![0] bcast_S800000_S800000x1_0 : IVec S800000 32 → IVec S800000x1 32),
    binary main_v26 main_v44 main_v45 ((fun x i => Host.gather gather_S50000x64_S800000x1_S800000x64_1_0_n_n_0_1_164 x i) : FVec Ideal S50000x64 .f32 → IVec S800000x1 32 → FVec Ideal S800000x64 .f32),
    binary main_v45 main_arg2 main_v46 ((fun a b => concatenate S800000x67 1 [⟨S800000x64, a⟩, ⟨S800000x3, b⟩] concatenates_S800000x64_S800000x3_S800000x67_d1) : FVec Ideal S800000x64 .f32 → FVec Ideal S800000x3 .f32 → FVec Ideal S800000x67 .f32) ]
/-- The buffers they write. -/
abbrev seg3_W : List (Ref sig .tc) := [main_c_8, main_v39, main_v40, main_c_9, main_v41, main_v42, main_v43, main_v44, main_v45, main_v46]
set_option maxRecDepth 8192 in
theorem seg3_writes : (seg3 : List (HloOp τ sig (Elt Ideal))).Forall fun op => op.writes ⊆ (seg3_W.map (Proc.devRef (τ := τ) .tc)).toFinset := by
  simp only [List.Forall]
  exact ⟨(by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide))⟩
theorem seg3_sub : (seg3 : List (HloOp τ sig (Elt Ideal))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., binary_bufs_sub ..⟩
theorem seg3_fresh : ∀ op ∈ (seg3 : List (HloOp τ sig (Elt Ideal))), op.fresh = ∅ := by
  intro _ h; (repeat (cases h with | head => rfl | tail _ h => ?_)); exact nomatch h

/-- Operations 86 … 86 of 349. -/
abbrev seg4 : List (HloOp τ sig (Elt Ideal)) :=
  [ unary main_arg7 main_v47 ((extractStridedSlice S1x67x32 ![0, 0, 0] · slices_S3x67x32_S1x67x32_0_0_0) : FVec Ideal S3x67x32 .f32 → FVec Ideal S1x67x32 .f32) ]
/-- The buffers they write. -/
abbrev seg4_W : List (Ref sig .tc) := [main_v47]
set_option maxRecDepth 8192 in
theorem seg4_writes : (seg4 : List (HloOp τ sig (Elt Ideal))).Forall fun op => op.writes ⊆ (seg4_W.map (Proc.devRef (τ := τ) .tc)).toFinset := by
  simp only [List.Forall]
  exact (by simp only [nullary_writes, unary_writes, binary_writes, ternary_writes, reshape_writes, Finset.singleton_subset_iff, List.mem_toFinset]; exact List.mem_map_of_mem (by decide))
theorem seg4_sub : (seg4 : List (HloOp τ sig (Elt Ideal))).Forall fun op => op.bufs ⊆ tcRefs τ sig :=
  unary_bufs_sub ..
theorem seg4_fresh : ∀ op ∈ (seg4 : List (HloOp τ sig (Elt Ideal))), op.fresh = ∅ := by
  intro _ h; (repeat (cases h with | head => rfl | tail _ h => ?_)); exact nomatch h

/-- Operations 87 … 104 of 349. -/
abbrev seg5 : List (HloOp τ sig (Elt Ideal)) :=
  [ reshape main_v47 main_v48 rfl shapeCasts_S1x67x32_S67x32,
    binary main_v46 main_v48 main_v49 ((fun l r => Host.dotGeneral dot_S800000x67_S67x32_S800000x32_1_0_0_1_n_n none l r) : FVec Ideal S800000x67 .f32 → FVec Ideal S67x32 .f32 → FVec Ideal S800000x32 .f32),
    unary main_arg8 main_v50 ((extractStridedSlice S1x32 ![0, 0] · slices_S3x32_S1x32_0_0) : FVec Ideal S3x32 .f32 → FVec Ideal S1x32 .f32),
    reshape main_v50 main_v51 rfl shapeCasts_S1x32_S32,
    unary main_v51 main_v52 (broadcastInDim S1x32 ![1] bcast_S32_S1x32_1 : FVec Ideal S32 .f32 → FVec Ideal S1x32 .f32),
    unary main_v52 main_v53 (broadcastInDim S800000x32 ![0, 1] bcast_S1x32_S800000x32_0_1 : FVec Ideal S1x32 .f32 → FVec Ideal S800000x32 .f32),
    binary main_v49 main_v53 main_v54 (addf : FVec Ideal S800000x32 .f32 → FVec Ideal S800000x32 .f32 → FVec Ideal S800000x32 .f32),
    nullary main_call3_cst ((constant S_ .f32 0x00000000#32) : FVec Ideal S_ .f32),
    unary main_call3_cst main_call3_v0 ((broadcastInDim S800000x32 ![] bcast_S_S800000x32) : FVec Ideal S_ .f32 → FVec Ideal S800000x32 .f32),
    binary main_v54 main_call3_v0 main_v55 (maximumf : FVec Ideal S800000x32 .f32 → FVec Ideal S800000x32 .f32 → FVec Ideal S800000x32 .f32),
    unary main_arg9 main_v56 ((extractStridedSlice S1x32x64 ![0, 0, 0] · slices_S3x32x64_S1x32x64_0_0_0) : FVec Ideal S3x32x64 .f32 → FVec Ideal S1x32x64 .f32),
    reshape main_v56 main_v57 rfl shapeCasts_S1x32x64_S32x64,
    binary main_v55 main_v57 main_v58 ((fun l r => Host.dotGeneral dot_S800000x32_S32x64_S800000x64_1_0_0_1_n_n none l r) : FVec Ideal S800000x32 .f32 → FVec Ideal S32x64 .f32 → FVec Ideal S800000x64 .f32),
    unary main_arg10 main_v59 ((extractStridedSlice S1x64 ![0, 0] · slices_S3x64_S1x64_0_0) : FVec Ideal S3x64 .f32 → FVec Ideal S1x64 .f32),
    reshape main_v59 main_v60 rfl shapeCasts_S1x64_S64,
    unary main_v60 main_v61 (broadcastInDim S1x64 ![1] bcast_S64_S1x64_1 : FVec Ideal S64 .f32 → FVec Ideal S1x64 .f32),
    unary main_v61 main_v62 (broadcastInDim S800000x64 ![0, 1] bcast_S1x64_S800000x64_0_1 : FVec Ideal S1x64 .f32 → FVec Ideal S800000x64 .f32),
    binary main_v58 main_v62 main_v63 (addf : FVec Ideal S800000x64 .f32 → FVec Ideal S800000x64 .f32 → FVec Ideal S800000x64 .f32) ]
/-- The buffers they write. -/
abbrev seg5_W : List (Ref sig .tc) := [main_v48, main_v49, main_v50, main_v51, main_v52, main_v53, main_v54, main_call3_cst, main_call3_v0, main_v55, main_v56, main_v57, main_v58, main_v59, main_v60, main_v61, main_v62, main_v63]
set_option maxRecDepth 8192 in
theorem seg5_writes : (seg5 : List (HloOp τ sig (Elt Ideal))).Forall fun op => op.writes ⊆ (seg5_W.map (Proc.devRef (τ := τ) .tc)).toFinset := by
  simp only [List.Forall]
  exact ⟨(by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide))⟩
theorem seg5_sub : (seg5 : List (HloOp τ sig (Elt Ideal))).Forall fun op => op.bufs ⊆ tcRefs τ sig :=
  ⟨reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub ..⟩
theorem seg5_fresh : ∀ op ∈ (seg5 : List (HloOp τ sig (Elt Ideal))), op.fresh = ∅ := by
  intro _ h; (repeat (cases h with | head => rfl | tail _ h => ?_)); exact nomatch h

/-- Operations 105 … 110 of 349. -/
abbrev seg6 : List (HloOp τ sig (Elt Ideal)) :=
  [ nullary main_cst_10 ((constant S_ .f32 0x00000000#32) : FVec Ideal S_ .f32),
    unary main_cst_10 main_v64 (broadcastInDim S50000x64 ![] bcast_S_S50000x64 : FVec Ideal S_ .f32 → FVec Ideal S50000x64 .f32),
    unary main_v3 main_v65 (broadcastInDim S800000x1 ![0] bcast_S800000_S800000x1_0 : IVec S800000 32 → IVec S800000x1 32),
    ternary main_v64 main_v65 main_v63 main_v66 ((fun x i u => Host.scatterAdd scatter_S50000x64_S800000x1_S800000x64_1_0_0_1 x i u) : FVec Ideal S50000x64 .f32 → IVec S800000x1 32 → FVec Ideal S800000x64 .f32 → FVec Ideal S50000x64 .f32),
    unary main_v38 main_v67 (broadcastInDim S50000x64 ![0, 1] bcast_S50000x1_S50000x64_0_1 : FVec Ideal S50000x1 .f32 → FVec Ideal S50000x64 .f32),
    binary main_v66 main_v67 main_v68 (mulf : FVec Ideal S50000x64 .f32 → FVec Ideal S50000x64 .f32 → FVec Ideal S50000x64 .f32) ]
/-- The buffers they write. -/
abbrev seg6_W : List (Ref sig .tc) := [main_cst_10, main_v64, main_v65, main_v66, main_v67, main_v68]
set_option maxRecDepth 8192 in
theorem seg6_writes : (seg6 : List (HloOp τ sig (Elt Ideal))).Forall fun op => op.writes ⊆ (seg6_W.map (Proc.devRef (τ := τ) .tc)).toFinset := by
  simp only [List.Forall]
  exact ⟨(by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide))⟩
theorem seg6_sub : (seg6 : List (HloOp τ sig (Elt Ideal))).Forall fun op => op.bufs ⊆ tcRefs τ sig :=
  ⟨nullary_bufs_sub .., unary_bufs_sub .., unary_bufs_sub .., ternary_bufs_sub .., unary_bufs_sub .., binary_bufs_sub ..⟩
theorem seg6_fresh : ∀ op ∈ (seg6 : List (HloOp τ sig (Elt Ideal))), op.fresh = ∅ := by
  intro _ h; (repeat (cases h with | head => rfl | tail _ h => ?_)); exact nomatch h

/-- Operations 111 … 159 of 349. -/
abbrev seg7 : List (HloOp τ sig (Elt Ideal)) :=
  [ binary main_v26 main_v68 main_v69 (addf : FVec Ideal S50000x64 .f32 → FVec Ideal S50000x64 .f32 → FVec Ideal S50000x64 .f32),
    unary main_arg11 main_v70 ((extractStridedSlice S1x64 ![0, 0] · slices_S3x64_S1x64_0_0) : FVec Ideal S3x64 .f32 → FVec Ideal S1x64 .f32),
    reshape main_v70 main_v71 rfl shapeCasts_S1x64_S64,
    unary main_arg12 main_v72 ((extractStridedSlice S1x64 ![0, 0] · slices_S3x64_S1x64_0_0) : FVec Ideal S3x64 .f32 → FVec Ideal S1x64 .f32),
    reshape main_v72 main_v73 rfl shapeCasts_S1x64_S64,
    nullary main_cst_11 ((constant S_ .f32 0x00000000#32) : FVec Ideal S_ .f32),
    binary main_v69 main_cst_11 main_v74 ((fun x v => Host.reduceAdd x v reducesTo_S50000x64_S50000_d1 h_S_) : FVec Ideal S50000x64 .f32 → FVec Ideal S_ .f32 → FVec Ideal S50000 .f32),
    unary main_v74 main_v75 (broadcastInDim S50000x1 ![0] bcast_S50000_S50000x1_0 : FVec Ideal S50000 .f32 → FVec Ideal S50000x1 .f32),
    nullary main_cst_12 ((constant S_ .f32 0x42800000#32) : FVec Ideal S_ .f32),
    unary main_cst_12 main_v76 (broadcastInDim S50000x1 ![] bcast_S_S50000x1 : FVec Ideal S_ .f32 → FVec Ideal S50000x1 .f32),
    binary main_v75 main_v76 main_v77 (Host.divf : FVec Ideal S50000x1 .f32 → FVec Ideal S50000x1 .f32 → FVec Ideal S50000x1 .f32),
    nullary main_c_13 ((constantI S_ 32 0#32) : IVec S_ 32),
    nullary main_call4_cst ((constant S_ .f32 0x00000000#32) : FVec Ideal S_ .f32),
    binary main_v69 main_call4_cst main_call4_v0 ((fun x v => Host.reduceAdd x v reducesTo_S50000x64_S50000_d1 h_S_) : FVec Ideal S50000x64 .f32 → FVec Ideal S_ .f32 → FVec Ideal S50000 .f32),
    unary main_call4_v0 main_call4_v1 ((broadcastInDim S50000x1 ![0] bcast_S50000_S50000x1_0) : FVec Ideal S50000 .f32 → FVec Ideal S50000x1 .f32),
    nullary main_call4_cst_0 ((constant S_ .f32 0x42800000#32) : FVec Ideal S_ .f32),
    unary main_call4_cst_0 main_call4_v2 ((broadcastInDim S50000x1 ![] bcast_S_S50000x1) : FVec Ideal S_ .f32 → FVec Ideal S50000x1 .f32),
    binary main_call4_v1 main_call4_v2 main_call4_v3 (Host.divf : FVec Ideal S50000x1 .f32 → FVec Ideal S50000x1 .f32 → FVec Ideal S50000x1 .f32),
    unary main_call4_v3 main_call4_v4 ((broadcastInDim S50000x64 ![0, 1] bcast_S50000x1_S50000x64_0_1) : FVec Ideal S50000x1 .f32 → FVec Ideal S50000x64 .f32),
    binary main_v69 main_call4_v4 main_call4_v5 (subf : FVec Ideal S50000x64 .f32 → FVec Ideal S50000x64 .f32 → FVec Ideal S50000x64 .f32),
    binary main_call4_v5 main_call4_v5 main_call4_v6 (mulf : FVec Ideal S50000x64 .f32 → FVec Ideal S50000x64 .f32 → FVec Ideal S50000x64 .f32),
    unary main_c_13 main_call4_v7 ((sitofp .f32) : IVec S_ 32 → FVec Ideal S_ .f32),
    nullary main_call4_cst_1 ((constant S_ .f32 0x42800000#32) : FVec Ideal S_ .f32),
    binary main_call4_cst_1 main_call4_v7 main_call4_v8 (subf : FVec Ideal S_ .f32 → FVec Ideal S_ .f32 → FVec Ideal S_ .f32),
    nullary main_call4_cst_2 ((constant S_ .f32 0x00000000#32) : FVec Ideal S_ .f32),
    binary main_call4_v6 main_call4_cst_2 main_call4_v9 ((fun x v => Host.reduceAdd x v reducesTo_S50000x64_S50000_d1 h_S_) : FVec Ideal S50000x64 .f32 → FVec Ideal S_ .f32 → FVec Ideal S50000 .f32),
    unary main_call4_v9 main_call4_v10 ((broadcastInDim S50000x1 ![0] bcast_S50000_S50000x1_0) : FVec Ideal S50000 .f32 → FVec Ideal S50000x1 .f32),
    unary main_call4_v8 main_call4_v11 ((broadcastInDim S50000x1 ![] bcast_S_S50000x1) : FVec Ideal S_ .f32 → FVec Ideal S50000x1 .f32),
    binary main_call4_v10 main_call4_v11 main_call4_v12 (Host.divf : FVec Ideal S50000x1 .f32 → FVec Ideal S50000x1 .f32 → FVec Ideal S50000x1 .f32),
    nullary main_call4_cst_3 ((constant S_ .f32 0x00000000#32) : FVec Ideal S_ .f32),
    binary main_call4_v8 main_call4_cst_3 main_call4_v13 ((cmpf .ogt) : FVec Ideal S_ .f32 → FVec Ideal S_ .f32 → IVec S_ 1),
    nullary main_call4_cst_4 ((constant S_ .f32 0x7FC00000#32) : FVec Ideal S_ .f32),
    unary main_call4_cst_4 main_call4_call0_v0 (id : FVec Ideal S_ .f32 → FVec Ideal S_ .f32),
    unary main_call4_call0_v0 main_call4_call0_v1 ((broadcastInDim S50000x1 ![] bcast_S_S50000x1) : FVec Ideal S_ .f32 → FVec Ideal S50000x1 .f32),
    ternary main_call4_v13 main_call4_v12 main_call4_call0_v1 main_v78 ((fun p a b => select (broadcastInDim S50000x1 ![] bcast_S_S50000x1 p) a b) : IVec S_ 1 → FVec Ideal S50000x1 .f32 → FVec Ideal S50000x1 .f32 → FVec Ideal S50000x1 .f32),
    unary main_v77 main_v79 (broadcastInDim S50000x64 ![0, 1] bcast_S50000x1_S50000x64_0_1 : FVec Ideal S50000x1 .f32 → FVec Ideal S50000x64 .f32),
    binary main_v69 main_v79 main_v80 (subf : FVec Ideal S50000x64 .f32 → FVec Ideal S50000x64 .f32 → FVec Ideal S50000x64 .f32),
    nullary main_cst_14 ((constant S_ .f32 0x3727C5AC#32) : FVec Ideal S_ .f32),
    unary main_cst_14 main_v81 (broadcastInDim S50000x1 ![] bcast_S_S50000x1 : FVec Ideal S_ .f32 → FVec Ideal S50000x1 .f32),
    binary main_v78 main_v81 main_v82 (addf : FVec Ideal S50000x1 .f32 → FVec Ideal S50000x1 .f32 → FVec Ideal S50000x1 .f32),
    unary main_v82 main_v83 (Host.rsqrt : FVec Ideal S50000x1 .f32 → FVec Ideal S50000x1 .f32),
    unary main_v83 main_v84 (broadcastInDim S50000x64 ![0, 1] bcast_S50000x1_S50000x64_0_1 : FVec Ideal S50000x1 .f32 → FVec Ideal S50000x64 .f32),
    binary main_v80 main_v84 main_v85 (mulf : FVec Ideal S50000x64 .f32 → FVec Ideal S50000x64 .f32 → FVec Ideal S50000x64 .f32),
    unary main_v71 main_v86 (broadcastInDim S1x64 ![1] bcast_S64_S1x64_1 : FVec Ideal S64 .f32 → FVec Ideal S1x64 .f32),
    unary main_v86 main_v87 (broadcastInDim S50000x64 ![0, 1] bcast_S1x64_S50000x64_0_1 : FVec Ideal S1x64 .f32 → FVec Ideal S50000x64 .f32),
    binary main_v85 main_v87 main_v88 (mulf : FVec Ideal S50000x64 .f32 → FVec Ideal S50000x64 .f32 → FVec Ideal S50000x64 .f32),
    unary main_v73 main_v89 (broadcastInDim S1x64 ![1] bcast_S64_S1x64_1 : FVec Ideal S64 .f32 → FVec Ideal S1x64 .f32),
    unary main_v89 main_v90 (broadcastInDim S50000x64 ![0, 1] bcast_S1x64_S50000x64_0_1 : FVec Ideal S1x64 .f32 → FVec Ideal S50000x64 .f32),
    binary main_v88 main_v90 main_v91 (addf : FVec Ideal S50000x64 .f32 → FVec Ideal S50000x64 .f32 → FVec Ideal S50000x64 .f32) ]
/-- The buffers they write. -/
abbrev seg7_W : List (Ref sig .tc) := [main_v69, main_v70, main_v71, main_v72, main_v73, main_cst_11, main_v74, main_v75, main_cst_12, main_v76, main_v77, main_c_13, main_call4_cst, main_call4_v0, main_call4_v1, main_call4_cst_0, main_call4_v2, main_call4_v3, main_call4_v4, main_call4_v5, main_call4_v6, main_call4_v7, main_call4_cst_1, main_call4_v8, main_call4_cst_2, main_call4_v9, main_call4_v10, main_call4_v11, main_call4_v12, main_call4_cst_3, main_call4_v13, main_call4_cst_4, main_call4_call0_v0, main_call4_call0_v1, main_v78, main_v79, main_v80, main_cst_14, main_v81, main_v82, main_v83, main_v84, main_v85, main_v86, main_v87, main_v88, main_v89, main_v90, main_v91]
set_option maxRecDepth 8192 in
theorem seg7_writes : (seg7 : List (HloOp τ sig (Elt Ideal))).Forall fun op => op.writes ⊆ (seg7_W.map (Proc.devRef (τ := τ) .tc)).toFinset := by
  simp only [List.Forall]
  exact ⟨(by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide))⟩
theorem seg7_sub : (seg7 : List (HloOp τ sig (Elt Ideal))).Forall fun op => op.bufs ⊆ tcRefs τ sig :=
  ⟨binary_bufs_sub .., unary_bufs_sub .., reshape_bufs_sub .., unary_bufs_sub .., reshape_bufs_sub .., nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub ..⟩
theorem seg7_fresh : ∀ op ∈ (seg7 : List (HloOp τ sig (Elt Ideal))), op.fresh = ∅ := by
  intro _ h; (repeat (cases h with | head => rfl | tail _ h => ?_)); exact nomatch h

/-- Operations 160 … 169 of 349. -/
abbrev seg8 : List (HloOp τ sig (Elt Ideal)) :=
  [ nullary main_c_15 ((constantI S_ 32 0#32) : IVec S_ 32),
    unary main_c_15 main_v92 (broadcastInDim S800000 ![] bcast_S_S800000 : IVec S_ 32 → IVec S800000 32),
    binary main_v1 main_v92 main_v93 (cmpi .slt : IVec S800000 32 → IVec S800000 32 → IVec S800000 1),
    nullary main_c_16 ((constantI S_ 32 50000#32) : IVec S_ 32),
    unary main_c_16 main_v94 (broadcastInDim S800000 ![] bcast_S_S800000 : IVec S_ 32 → IVec S800000 32),
    binary main_v1 main_v94 main_v95 (addi : IVec S800000 32 → IVec S800000 32 → IVec S800000 32),
    ternary main_v93 main_v95 main_v1 main_v96 (select : IVec S800000 1 → IVec S800000 32 → IVec S800000 32 → IVec S800000 32),
    unary main_v96 main_v97 (broadcastInDim S800000x1 ![0] bcast_S800000_S800000x1_0 : IVec S800000 32 → IVec S800000x1 32),
    binary main_v91 main_v97 main_v98 ((fun x i => Host.gather gather_S50000x64_S800000x1_S800000x64_1_0_n_n_0_1_164 x i) : FVec Ideal S50000x64 .f32 → IVec S800000x1 32 → FVec Ideal S800000x64 .f32),
    binary main_v98 main_arg2 main_v99 ((fun a b => concatenate S800000x67 1 [⟨S800000x64, a⟩, ⟨S800000x3, b⟩] concatenates_S800000x64_S800000x3_S800000x67_d1) : FVec Ideal S800000x64 .f32 → FVec Ideal S800000x3 .f32 → FVec Ideal S800000x67 .f32) ]
/-- The buffers they write. -/
abbrev seg8_W : List (Ref sig .tc) := [main_c_15, main_v92, main_v93, main_c_16, main_v94, main_v95, main_v96, main_v97, main_v98, main_v99]
set_option maxRecDepth 8192 in
theorem seg8_writes : (seg8 : List (HloOp τ sig (Elt Ideal))).Forall fun op => op.writes ⊆ (seg8_W.map (Proc.devRef (τ := τ) .tc)).toFinset := by
  simp only [List.Forall]
  exact ⟨(by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide))⟩
theorem seg8_sub : (seg8 : List (HloOp τ sig (Elt Ideal))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., binary_bufs_sub ..⟩
theorem seg8_fresh : ∀ op ∈ (seg8 : List (HloOp τ sig (Elt Ideal))), op.fresh = ∅ := by
  intro _ h; (repeat (cases h with | head => rfl | tail _ h => ?_)); exact nomatch h

/-- Operations 170 … 170 of 349. -/
abbrev seg9 : List (HloOp τ sig (Elt Ideal)) :=
  [ unary main_arg7 main_v100 ((extractStridedSlice S1x67x32 ![1, 0, 0] · slices_S3x67x32_S1x67x32_1_0_0) : FVec Ideal S3x67x32 .f32 → FVec Ideal S1x67x32 .f32) ]
/-- The buffers they write. -/
abbrev seg9_W : List (Ref sig .tc) := [main_v100]
set_option maxRecDepth 8192 in
theorem seg9_writes : (seg9 : List (HloOp τ sig (Elt Ideal))).Forall fun op => op.writes ⊆ (seg9_W.map (Proc.devRef (τ := τ) .tc)).toFinset := by
  simp only [List.Forall]
  exact (by simp only [nullary_writes, unary_writes, binary_writes, ternary_writes, reshape_writes, Finset.singleton_subset_iff, List.mem_toFinset]; exact List.mem_map_of_mem (by decide))
theorem seg9_sub : (seg9 : List (HloOp τ sig (Elt Ideal))).Forall fun op => op.bufs ⊆ tcRefs τ sig :=
  unary_bufs_sub ..
theorem seg9_fresh : ∀ op ∈ (seg9 : List (HloOp τ sig (Elt Ideal))), op.fresh = ∅ := by
  intro _ h; (repeat (cases h with | head => rfl | tail _ h => ?_)); exact nomatch h

/-- Operations 171 … 188 of 349. -/
abbrev seg10 : List (HloOp τ sig (Elt Ideal)) :=
  [ reshape main_v100 main_v101 rfl shapeCasts_S1x67x32_S67x32,
    binary main_v99 main_v101 main_v102 ((fun l r => Host.dotGeneral dot_S800000x67_S67x32_S800000x32_1_0_0_1_n_n none l r) : FVec Ideal S800000x67 .f32 → FVec Ideal S67x32 .f32 → FVec Ideal S800000x32 .f32),
    unary main_arg8 main_v103 ((extractStridedSlice S1x32 ![1, 0] · slices_S3x32_S1x32_1_0) : FVec Ideal S3x32 .f32 → FVec Ideal S1x32 .f32),
    reshape main_v103 main_v104 rfl shapeCasts_S1x32_S32,
    unary main_v104 main_v105 (broadcastInDim S1x32 ![1] bcast_S32_S1x32_1 : FVec Ideal S32 .f32 → FVec Ideal S1x32 .f32),
    unary main_v105 main_v106 (broadcastInDim S800000x32 ![0, 1] bcast_S1x32_S800000x32_0_1 : FVec Ideal S1x32 .f32 → FVec Ideal S800000x32 .f32),
    binary main_v102 main_v106 main_v107 (addf : FVec Ideal S800000x32 .f32 → FVec Ideal S800000x32 .f32 → FVec Ideal S800000x32 .f32),
    nullary main_call5_cst ((constant S_ .f32 0x00000000#32) : FVec Ideal S_ .f32),
    unary main_call5_cst main_call5_v0 ((broadcastInDim S800000x32 ![] bcast_S_S800000x32) : FVec Ideal S_ .f32 → FVec Ideal S800000x32 .f32),
    binary main_v107 main_call5_v0 main_v108 (maximumf : FVec Ideal S800000x32 .f32 → FVec Ideal S800000x32 .f32 → FVec Ideal S800000x32 .f32),
    unary main_arg9 main_v109 ((extractStridedSlice S1x32x64 ![1, 0, 0] · slices_S3x32x64_S1x32x64_1_0_0) : FVec Ideal S3x32x64 .f32 → FVec Ideal S1x32x64 .f32),
    reshape main_v109 main_v110 rfl shapeCasts_S1x32x64_S32x64,
    binary main_v108 main_v110 main_v111 ((fun l r => Host.dotGeneral dot_S800000x32_S32x64_S800000x64_1_0_0_1_n_n none l r) : FVec Ideal S800000x32 .f32 → FVec Ideal S32x64 .f32 → FVec Ideal S800000x64 .f32),
    unary main_arg10 main_v112 ((extractStridedSlice S1x64 ![1, 0] · slices_S3x64_S1x64_1_0) : FVec Ideal S3x64 .f32 → FVec Ideal S1x64 .f32),
    reshape main_v112 main_v113 rfl shapeCasts_S1x64_S64,
    unary main_v113 main_v114 (broadcastInDim S1x64 ![1] bcast_S64_S1x64_1 : FVec Ideal S64 .f32 → FVec Ideal S1x64 .f32),
    unary main_v114 main_v115 (broadcastInDim S800000x64 ![0, 1] bcast_S1x64_S800000x64_0_1 : FVec Ideal S1x64 .f32 → FVec Ideal S800000x64 .f32),
    binary main_v111 main_v115 main_v116 (addf : FVec Ideal S800000x64 .f32 → FVec Ideal S800000x64 .f32 → FVec Ideal S800000x64 .f32) ]
/-- The buffers they write. -/
abbrev seg10_W : List (Ref sig .tc) := [main_v101, main_v102, main_v103, main_v104, main_v105, main_v106, main_v107, main_call5_cst, main_call5_v0, main_v108, main_v109, main_v110, main_v111, main_v112, main_v113, main_v114, main_v115, main_v116]
set_option maxRecDepth 8192 in
theorem seg10_writes : (seg10 : List (HloOp τ sig (Elt Ideal))).Forall fun op => op.writes ⊆ (seg10_W.map (Proc.devRef (τ := τ) .tc)).toFinset := by
  simp only [List.Forall]
  exact ⟨(by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide))⟩
theorem seg10_sub : (seg10 : List (HloOp τ sig (Elt Ideal))).Forall fun op => op.bufs ⊆ tcRefs τ sig :=
  ⟨reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub ..⟩
theorem seg10_fresh : ∀ op ∈ (seg10 : List (HloOp τ sig (Elt Ideal))), op.fresh = ∅ := by
  intro _ h; (repeat (cases h with | head => rfl | tail _ h => ?_)); exact nomatch h

/-- Operations 189 … 194 of 349. -/
abbrev seg11 : List (HloOp τ sig (Elt Ideal)) :=
  [ nullary main_cst_17 ((constant S_ .f32 0x00000000#32) : FVec Ideal S_ .f32),
    unary main_cst_17 main_v117 (broadcastInDim S50000x64 ![] bcast_S_S50000x64 : FVec Ideal S_ .f32 → FVec Ideal S50000x64 .f32),
    unary main_v3 main_v118 (broadcastInDim S800000x1 ![0] bcast_S800000_S800000x1_0 : IVec S800000 32 → IVec S800000x1 32),
    ternary main_v117 main_v118 main_v116 main_v119 ((fun x i u => Host.scatterAdd scatter_S50000x64_S800000x1_S800000x64_1_0_0_1 x i u) : FVec Ideal S50000x64 .f32 → IVec S800000x1 32 → FVec Ideal S800000x64 .f32 → FVec Ideal S50000x64 .f32),
    unary main_v38 main_v120 (broadcastInDim S50000x64 ![0, 1] bcast_S50000x1_S50000x64_0_1 : FVec Ideal S50000x1 .f32 → FVec Ideal S50000x64 .f32),
    binary main_v119 main_v120 main_v121 (mulf : FVec Ideal S50000x64 .f32 → FVec Ideal S50000x64 .f32 → FVec Ideal S50000x64 .f32) ]
/-- The buffers they write. -/
abbrev seg11_W : List (Ref sig .tc) := [main_cst_17, main_v117, main_v118, main_v119, main_v120, main_v121]
set_option maxRecDepth 8192 in
theorem seg11_writes : (seg11 : List (HloOp τ sig (Elt Ideal))).Forall fun op => op.writes ⊆ (seg11_W.map (Proc.devRef (τ := τ) .tc)).toFinset := by
  simp only [List.Forall]
  exact ⟨(by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide))⟩
theorem seg11_sub : (seg11 : List (HloOp τ sig (Elt Ideal))).Forall fun op => op.bufs ⊆ tcRefs τ sig :=
  ⟨nullary_bufs_sub .., unary_bufs_sub .., unary_bufs_sub .., ternary_bufs_sub .., unary_bufs_sub .., binary_bufs_sub ..⟩
theorem seg11_fresh : ∀ op ∈ (seg11 : List (HloOp τ sig (Elt Ideal))), op.fresh = ∅ := by
  intro _ h; (repeat (cases h with | head => rfl | tail _ h => ?_)); exact nomatch h

/-- Operations 195 … 243 of 349. -/
abbrev seg12 : List (HloOp τ sig (Elt Ideal)) :=
  [ binary main_v91 main_v121 main_v122 (addf : FVec Ideal S50000x64 .f32 → FVec Ideal S50000x64 .f32 → FVec Ideal S50000x64 .f32),
    unary main_arg11 main_v123 ((extractStridedSlice S1x64 ![1, 0] · slices_S3x64_S1x64_1_0) : FVec Ideal S3x64 .f32 → FVec Ideal S1x64 .f32),
    reshape main_v123 main_v124 rfl shapeCasts_S1x64_S64,
    unary main_arg12 main_v125 ((extractStridedSlice S1x64 ![1, 0] · slices_S3x64_S1x64_1_0) : FVec Ideal S3x64 .f32 → FVec Ideal S1x64 .f32),
    reshape main_v125 main_v126 rfl shapeCasts_S1x64_S64,
    nullary main_cst_18 ((constant S_ .f32 0x00000000#32) : FVec Ideal S_ .f32),
    binary main_v122 main_cst_18 main_v127 ((fun x v => Host.reduceAdd x v reducesTo_S50000x64_S50000_d1 h_S_) : FVec Ideal S50000x64 .f32 → FVec Ideal S_ .f32 → FVec Ideal S50000 .f32),
    unary main_v127 main_v128 (broadcastInDim S50000x1 ![0] bcast_S50000_S50000x1_0 : FVec Ideal S50000 .f32 → FVec Ideal S50000x1 .f32),
    nullary main_cst_19 ((constant S_ .f32 0x42800000#32) : FVec Ideal S_ .f32),
    unary main_cst_19 main_v129 (broadcastInDim S50000x1 ![] bcast_S_S50000x1 : FVec Ideal S_ .f32 → FVec Ideal S50000x1 .f32),
    binary main_v128 main_v129 main_v130 (Host.divf : FVec Ideal S50000x1 .f32 → FVec Ideal S50000x1 .f32 → FVec Ideal S50000x1 .f32),
    nullary main_c_20 ((constantI S_ 32 0#32) : IVec S_ 32),
    nullary main_call6_cst ((constant S_ .f32 0x00000000#32) : FVec Ideal S_ .f32),
    binary main_v122 main_call6_cst main_call6_v0 ((fun x v => Host.reduceAdd x v reducesTo_S50000x64_S50000_d1 h_S_) : FVec Ideal S50000x64 .f32 → FVec Ideal S_ .f32 → FVec Ideal S50000 .f32),
    unary main_call6_v0 main_call6_v1 ((broadcastInDim S50000x1 ![0] bcast_S50000_S50000x1_0) : FVec Ideal S50000 .f32 → FVec Ideal S50000x1 .f32),
    nullary main_call6_cst_0 ((constant S_ .f32 0x42800000#32) : FVec Ideal S_ .f32),
    unary main_call6_cst_0 main_call6_v2 ((broadcastInDim S50000x1 ![] bcast_S_S50000x1) : FVec Ideal S_ .f32 → FVec Ideal S50000x1 .f32),
    binary main_call6_v1 main_call6_v2 main_call6_v3 (Host.divf : FVec Ideal S50000x1 .f32 → FVec Ideal S50000x1 .f32 → FVec Ideal S50000x1 .f32),
    unary main_call6_v3 main_call6_v4 ((broadcastInDim S50000x64 ![0, 1] bcast_S50000x1_S50000x64_0_1) : FVec Ideal S50000x1 .f32 → FVec Ideal S50000x64 .f32),
    binary main_v122 main_call6_v4 main_call6_v5 (subf : FVec Ideal S50000x64 .f32 → FVec Ideal S50000x64 .f32 → FVec Ideal S50000x64 .f32),
    binary main_call6_v5 main_call6_v5 main_call6_v6 (mulf : FVec Ideal S50000x64 .f32 → FVec Ideal S50000x64 .f32 → FVec Ideal S50000x64 .f32),
    unary main_c_20 main_call6_v7 ((sitofp .f32) : IVec S_ 32 → FVec Ideal S_ .f32),
    nullary main_call6_cst_1 ((constant S_ .f32 0x42800000#32) : FVec Ideal S_ .f32),
    binary main_call6_cst_1 main_call6_v7 main_call6_v8 (subf : FVec Ideal S_ .f32 → FVec Ideal S_ .f32 → FVec Ideal S_ .f32),
    nullary main_call6_cst_2 ((constant S_ .f32 0x00000000#32) : FVec Ideal S_ .f32),
    binary main_call6_v6 main_call6_cst_2 main_call6_v9 ((fun x v => Host.reduceAdd x v reducesTo_S50000x64_S50000_d1 h_S_) : FVec Ideal S50000x64 .f32 → FVec Ideal S_ .f32 → FVec Ideal S50000 .f32),
    unary main_call6_v9 main_call6_v10 ((broadcastInDim S50000x1 ![0] bcast_S50000_S50000x1_0) : FVec Ideal S50000 .f32 → FVec Ideal S50000x1 .f32),
    unary main_call6_v8 main_call6_v11 ((broadcastInDim S50000x1 ![] bcast_S_S50000x1) : FVec Ideal S_ .f32 → FVec Ideal S50000x1 .f32),
    binary main_call6_v10 main_call6_v11 main_call6_v12 (Host.divf : FVec Ideal S50000x1 .f32 → FVec Ideal S50000x1 .f32 → FVec Ideal S50000x1 .f32),
    nullary main_call6_cst_3 ((constant S_ .f32 0x00000000#32) : FVec Ideal S_ .f32),
    binary main_call6_v8 main_call6_cst_3 main_call6_v13 ((cmpf .ogt) : FVec Ideal S_ .f32 → FVec Ideal S_ .f32 → IVec S_ 1),
    nullary main_call6_cst_4 ((constant S_ .f32 0x7FC00000#32) : FVec Ideal S_ .f32),
    unary main_call6_cst_4 main_call6_call0_v0 (id : FVec Ideal S_ .f32 → FVec Ideal S_ .f32),
    unary main_call6_call0_v0 main_call6_call0_v1 ((broadcastInDim S50000x1 ![] bcast_S_S50000x1) : FVec Ideal S_ .f32 → FVec Ideal S50000x1 .f32),
    ternary main_call6_v13 main_call6_v12 main_call6_call0_v1 main_v131 ((fun p a b => select (broadcastInDim S50000x1 ![] bcast_S_S50000x1 p) a b) : IVec S_ 1 → FVec Ideal S50000x1 .f32 → FVec Ideal S50000x1 .f32 → FVec Ideal S50000x1 .f32),
    unary main_v130 main_v132 (broadcastInDim S50000x64 ![0, 1] bcast_S50000x1_S50000x64_0_1 : FVec Ideal S50000x1 .f32 → FVec Ideal S50000x64 .f32),
    binary main_v122 main_v132 main_v133 (subf : FVec Ideal S50000x64 .f32 → FVec Ideal S50000x64 .f32 → FVec Ideal S50000x64 .f32),
    nullary main_cst_21 ((constant S_ .f32 0x3727C5AC#32) : FVec Ideal S_ .f32),
    unary main_cst_21 main_v134 (broadcastInDim S50000x1 ![] bcast_S_S50000x1 : FVec Ideal S_ .f32 → FVec Ideal S50000x1 .f32),
    binary main_v131 main_v134 main_v135 (addf : FVec Ideal S50000x1 .f32 → FVec Ideal S50000x1 .f32 → FVec Ideal S50000x1 .f32),
    unary main_v135 main_v136 (Host.rsqrt : FVec Ideal S50000x1 .f32 → FVec Ideal S50000x1 .f32),
    unary main_v136 main_v137 (broadcastInDim S50000x64 ![0, 1] bcast_S50000x1_S50000x64_0_1 : FVec Ideal S50000x1 .f32 → FVec Ideal S50000x64 .f32),
    binary main_v133 main_v137 main_v138 (mulf : FVec Ideal S50000x64 .f32 → FVec Ideal S50000x64 .f32 → FVec Ideal S50000x64 .f32),
    unary main_v124 main_v139 (broadcastInDim S1x64 ![1] bcast_S64_S1x64_1 : FVec Ideal S64 .f32 → FVec Ideal S1x64 .f32),
    unary main_v139 main_v140 (broadcastInDim S50000x64 ![0, 1] bcast_S1x64_S50000x64_0_1 : FVec Ideal S1x64 .f32 → FVec Ideal S50000x64 .f32),
    binary main_v138 main_v140 main_v141 (mulf : FVec Ideal S50000x64 .f32 → FVec Ideal S50000x64 .f32 → FVec Ideal S50000x64 .f32),
    unary main_v126 main_v142 (broadcastInDim S1x64 ![1] bcast_S64_S1x64_1 : FVec Ideal S64 .f32 → FVec Ideal S1x64 .f32),
    unary main_v142 main_v143 (broadcastInDim S50000x64 ![0, 1] bcast_S1x64_S50000x64_0_1 : FVec Ideal S1x64 .f32 → FVec Ideal S50000x64 .f32),
    binary main_v141 main_v143 main_v144 (addf : FVec Ideal S50000x64 .f32 → FVec Ideal S50000x64 .f32 → FVec Ideal S50000x64 .f32) ]
/-- The buffers they write. -/
abbrev seg12_W : List (Ref sig .tc) := [main_v122, main_v123, main_v124, main_v125, main_v126, main_cst_18, main_v127, main_v128, main_cst_19, main_v129, main_v130, main_c_20, main_call6_cst, main_call6_v0, main_call6_v1, main_call6_cst_0, main_call6_v2, main_call6_v3, main_call6_v4, main_call6_v5, main_call6_v6, main_call6_v7, main_call6_cst_1, main_call6_v8, main_call6_cst_2, main_call6_v9, main_call6_v10, main_call6_v11, main_call6_v12, main_call6_cst_3, main_call6_v13, main_call6_cst_4, main_call6_call0_v0, main_call6_call0_v1, main_v131, main_v132, main_v133, main_cst_21, main_v134, main_v135, main_v136, main_v137, main_v138, main_v139, main_v140, main_v141, main_v142, main_v143, main_v144]
set_option maxRecDepth 8192 in
theorem seg12_writes : (seg12 : List (HloOp τ sig (Elt Ideal))).Forall fun op => op.writes ⊆ (seg12_W.map (Proc.devRef (τ := τ) .tc)).toFinset := by
  simp only [List.Forall]
  exact ⟨(by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide))⟩
theorem seg12_sub : (seg12 : List (HloOp τ sig (Elt Ideal))).Forall fun op => op.bufs ⊆ tcRefs τ sig :=
  ⟨binary_bufs_sub .., unary_bufs_sub .., reshape_bufs_sub .., unary_bufs_sub .., reshape_bufs_sub .., nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub ..⟩
theorem seg12_fresh : ∀ op ∈ (seg12 : List (HloOp τ sig (Elt Ideal))), op.fresh = ∅ := by
  intro _ h; (repeat (cases h with | head => rfl | tail _ h => ?_)); exact nomatch h

/-- Operations 244 … 253 of 349. -/
abbrev seg13 : List (HloOp τ sig (Elt Ideal)) :=
  [ nullary main_c_22 ((constantI S_ 32 0#32) : IVec S_ 32),
    unary main_c_22 main_v145 (broadcastInDim S800000 ![] bcast_S_S800000 : IVec S_ 32 → IVec S800000 32),
    binary main_v1 main_v145 main_v146 (cmpi .slt : IVec S800000 32 → IVec S800000 32 → IVec S800000 1),
    nullary main_c_23 ((constantI S_ 32 50000#32) : IVec S_ 32),
    unary main_c_23 main_v147 (broadcastInDim S800000 ![] bcast_S_S800000 : IVec S_ 32 → IVec S800000 32),
    binary main_v1 main_v147 main_v148 (addi : IVec S800000 32 → IVec S800000 32 → IVec S800000 32),
    ternary main_v146 main_v148 main_v1 main_v149 (select : IVec S800000 1 → IVec S800000 32 → IVec S800000 32 → IVec S800000 32),
    unary main_v149 main_v150 (broadcastInDim S800000x1 ![0] bcast_S800000_S800000x1_0 : IVec S800000 32 → IVec S800000x1 32),
    binary main_v144 main_v150 main_v151 ((fun x i => Host.gather gather_S50000x64_S800000x1_S800000x64_1_0_n_n_0_1_164 x i) : FVec Ideal S50000x64 .f32 → IVec S800000x1 32 → FVec Ideal S800000x64 .f32),
    binary main_v151 main_arg2 main_v152 ((fun a b => concatenate S800000x67 1 [⟨S800000x64, a⟩, ⟨S800000x3, b⟩] concatenates_S800000x64_S800000x3_S800000x67_d1) : FVec Ideal S800000x64 .f32 → FVec Ideal S800000x3 .f32 → FVec Ideal S800000x67 .f32) ]
/-- The buffers they write. -/
abbrev seg13_W : List (Ref sig .tc) := [main_c_22, main_v145, main_v146, main_c_23, main_v147, main_v148, main_v149, main_v150, main_v151, main_v152]
set_option maxRecDepth 8192 in
theorem seg13_writes : (seg13 : List (HloOp τ sig (Elt Ideal))).Forall fun op => op.writes ⊆ (seg13_W.map (Proc.devRef (τ := τ) .tc)).toFinset := by
  simp only [List.Forall]
  exact ⟨(by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide))⟩
theorem seg13_sub : (seg13 : List (HloOp τ sig (Elt Ideal))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., binary_bufs_sub ..⟩
theorem seg13_fresh : ∀ op ∈ (seg13 : List (HloOp τ sig (Elt Ideal))), op.fresh = ∅ := by
  intro _ h; (repeat (cases h with | head => rfl | tail _ h => ?_)); exact nomatch h

/-- Operations 254 … 254 of 349. -/
abbrev seg14 : List (HloOp τ sig (Elt Ideal)) :=
  [ unary main_arg7 main_v153 ((extractStridedSlice S1x67x32 ![2, 0, 0] · slices_S3x67x32_S1x67x32_2_0_0) : FVec Ideal S3x67x32 .f32 → FVec Ideal S1x67x32 .f32) ]
/-- The buffers they write. -/
abbrev seg14_W : List (Ref sig .tc) := [main_v153]
set_option maxRecDepth 8192 in
theorem seg14_writes : (seg14 : List (HloOp τ sig (Elt Ideal))).Forall fun op => op.writes ⊆ (seg14_W.map (Proc.devRef (τ := τ) .tc)).toFinset := by
  simp only [List.Forall]
  exact (by simp only [nullary_writes, unary_writes, binary_writes, ternary_writes, reshape_writes, Finset.singleton_subset_iff, List.mem_toFinset]; exact List.mem_map_of_mem (by decide))
theorem seg14_sub : (seg14 : List (HloOp τ sig (Elt Ideal))).Forall fun op => op.bufs ⊆ tcRefs τ sig :=
  unary_bufs_sub ..
theorem seg14_fresh : ∀ op ∈ (seg14 : List (HloOp τ sig (Elt Ideal))), op.fresh = ∅ := by
  intro _ h; (repeat (cases h with | head => rfl | tail _ h => ?_)); exact nomatch h

/-- Operations 255 … 272 of 349. -/
abbrev seg15 : List (HloOp τ sig (Elt Ideal)) :=
  [ reshape main_v153 main_v154 rfl shapeCasts_S1x67x32_S67x32,
    binary main_v152 main_v154 main_v155 ((fun l r => Host.dotGeneral dot_S800000x67_S67x32_S800000x32_1_0_0_1_n_n none l r) : FVec Ideal S800000x67 .f32 → FVec Ideal S67x32 .f32 → FVec Ideal S800000x32 .f32),
    unary main_arg8 main_v156 ((extractStridedSlice S1x32 ![2, 0] · slices_S3x32_S1x32_2_0) : FVec Ideal S3x32 .f32 → FVec Ideal S1x32 .f32),
    reshape main_v156 main_v157 rfl shapeCasts_S1x32_S32,
    unary main_v157 main_v158 (broadcastInDim S1x32 ![1] bcast_S32_S1x32_1 : FVec Ideal S32 .f32 → FVec Ideal S1x32 .f32),
    unary main_v158 main_v159 (broadcastInDim S800000x32 ![0, 1] bcast_S1x32_S800000x32_0_1 : FVec Ideal S1x32 .f32 → FVec Ideal S800000x32 .f32),
    binary main_v155 main_v159 main_v160 (addf : FVec Ideal S800000x32 .f32 → FVec Ideal S800000x32 .f32 → FVec Ideal S800000x32 .f32),
    nullary main_call7_cst ((constant S_ .f32 0x00000000#32) : FVec Ideal S_ .f32),
    unary main_call7_cst main_call7_v0 ((broadcastInDim S800000x32 ![] bcast_S_S800000x32) : FVec Ideal S_ .f32 → FVec Ideal S800000x32 .f32),
    binary main_v160 main_call7_v0 main_v161 (maximumf : FVec Ideal S800000x32 .f32 → FVec Ideal S800000x32 .f32 → FVec Ideal S800000x32 .f32),
    unary main_arg9 main_v162 ((extractStridedSlice S1x32x64 ![2, 0, 0] · slices_S3x32x64_S1x32x64_2_0_0) : FVec Ideal S3x32x64 .f32 → FVec Ideal S1x32x64 .f32),
    reshape main_v162 main_v163 rfl shapeCasts_S1x32x64_S32x64,
    binary main_v161 main_v163 main_v164 ((fun l r => Host.dotGeneral dot_S800000x32_S32x64_S800000x64_1_0_0_1_n_n none l r) : FVec Ideal S800000x32 .f32 → FVec Ideal S32x64 .f32 → FVec Ideal S800000x64 .f32),
    unary main_arg10 main_v165 ((extractStridedSlice S1x64 ![2, 0] · slices_S3x64_S1x64_2_0) : FVec Ideal S3x64 .f32 → FVec Ideal S1x64 .f32),
    reshape main_v165 main_v166 rfl shapeCasts_S1x64_S64,
    unary main_v166 main_v167 (broadcastInDim S1x64 ![1] bcast_S64_S1x64_1 : FVec Ideal S64 .f32 → FVec Ideal S1x64 .f32),
    unary main_v167 main_v168 (broadcastInDim S800000x64 ![0, 1] bcast_S1x64_S800000x64_0_1 : FVec Ideal S1x64 .f32 → FVec Ideal S800000x64 .f32),
    binary main_v164 main_v168 main_v169 (addf : FVec Ideal S800000x64 .f32 → FVec Ideal S800000x64 .f32 → FVec Ideal S800000x64 .f32) ]
/-- The buffers they write. -/
abbrev seg15_W : List (Ref sig .tc) := [main_v154, main_v155, main_v156, main_v157, main_v158, main_v159, main_v160, main_call7_cst, main_call7_v0, main_v161, main_v162, main_v163, main_v164, main_v165, main_v166, main_v167, main_v168, main_v169]
set_option maxRecDepth 8192 in
theorem seg15_writes : (seg15 : List (HloOp τ sig (Elt Ideal))).Forall fun op => op.writes ⊆ (seg15_W.map (Proc.devRef (τ := τ) .tc)).toFinset := by
  simp only [List.Forall]
  exact ⟨(by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide))⟩
theorem seg15_sub : (seg15 : List (HloOp τ sig (Elt Ideal))).Forall fun op => op.bufs ⊆ tcRefs τ sig :=
  ⟨reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub ..⟩
theorem seg15_fresh : ∀ op ∈ (seg15 : List (HloOp τ sig (Elt Ideal))), op.fresh = ∅ := by
  intro _ h; (repeat (cases h with | head => rfl | tail _ h => ?_)); exact nomatch h

/-- Operations 273 … 278 of 349. -/
abbrev seg16 : List (HloOp τ sig (Elt Ideal)) :=
  [ nullary main_cst_24 ((constant S_ .f32 0x00000000#32) : FVec Ideal S_ .f32),
    unary main_cst_24 main_v170 (broadcastInDim S50000x64 ![] bcast_S_S50000x64 : FVec Ideal S_ .f32 → FVec Ideal S50000x64 .f32),
    unary main_v3 main_v171 (broadcastInDim S800000x1 ![0] bcast_S800000_S800000x1_0 : IVec S800000 32 → IVec S800000x1 32),
    ternary main_v170 main_v171 main_v169 main_v172 ((fun x i u => Host.scatterAdd scatter_S50000x64_S800000x1_S800000x64_1_0_0_1 x i u) : FVec Ideal S50000x64 .f32 → IVec S800000x1 32 → FVec Ideal S800000x64 .f32 → FVec Ideal S50000x64 .f32),
    unary main_v38 main_v173 (broadcastInDim S50000x64 ![0, 1] bcast_S50000x1_S50000x64_0_1 : FVec Ideal S50000x1 .f32 → FVec Ideal S50000x64 .f32),
    binary main_v172 main_v173 main_v174 (mulf : FVec Ideal S50000x64 .f32 → FVec Ideal S50000x64 .f32 → FVec Ideal S50000x64 .f32) ]
/-- The buffers they write. -/
abbrev seg16_W : List (Ref sig .tc) := [main_cst_24, main_v170, main_v171, main_v172, main_v173, main_v174]
set_option maxRecDepth 8192 in
theorem seg16_writes : (seg16 : List (HloOp τ sig (Elt Ideal))).Forall fun op => op.writes ⊆ (seg16_W.map (Proc.devRef (τ := τ) .tc)).toFinset := by
  simp only [List.Forall]
  exact ⟨(by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide))⟩
theorem seg16_sub : (seg16 : List (HloOp τ sig (Elt Ideal))).Forall fun op => op.bufs ⊆ tcRefs τ sig :=
  ⟨nullary_bufs_sub .., unary_bufs_sub .., unary_bufs_sub .., ternary_bufs_sub .., unary_bufs_sub .., binary_bufs_sub ..⟩
theorem seg16_fresh : ∀ op ∈ (seg16 : List (HloOp τ sig (Elt Ideal))), op.fresh = ∅ := by
  intro _ h; (repeat (cases h with | head => rfl | tail _ h => ?_)); exact nomatch h

/-- Operations 279 … 327 of 349. -/
abbrev seg17 : List (HloOp τ sig (Elt Ideal)) :=
  [ binary main_v144 main_v174 main_v175 (addf : FVec Ideal S50000x64 .f32 → FVec Ideal S50000x64 .f32 → FVec Ideal S50000x64 .f32),
    unary main_arg11 main_v176 ((extractStridedSlice S1x64 ![2, 0] · slices_S3x64_S1x64_2_0) : FVec Ideal S3x64 .f32 → FVec Ideal S1x64 .f32),
    reshape main_v176 main_v177 rfl shapeCasts_S1x64_S64,
    unary main_arg12 main_v178 ((extractStridedSlice S1x64 ![2, 0] · slices_S3x64_S1x64_2_0) : FVec Ideal S3x64 .f32 → FVec Ideal S1x64 .f32),
    reshape main_v178 main_v179 rfl shapeCasts_S1x64_S64,
    nullary main_cst_25 ((constant S_ .f32 0x00000000#32) : FVec Ideal S_ .f32),
    binary main_v175 main_cst_25 main_v180 ((fun x v => Host.reduceAdd x v reducesTo_S50000x64_S50000_d1 h_S_) : FVec Ideal S50000x64 .f32 → FVec Ideal S_ .f32 → FVec Ideal S50000 .f32),
    unary main_v180 main_v181 (broadcastInDim S50000x1 ![0] bcast_S50000_S50000x1_0 : FVec Ideal S50000 .f32 → FVec Ideal S50000x1 .f32),
    nullary main_cst_26 ((constant S_ .f32 0x42800000#32) : FVec Ideal S_ .f32),
    unary main_cst_26 main_v182 (broadcastInDim S50000x1 ![] bcast_S_S50000x1 : FVec Ideal S_ .f32 → FVec Ideal S50000x1 .f32),
    binary main_v181 main_v182 main_v183 (Host.divf : FVec Ideal S50000x1 .f32 → FVec Ideal S50000x1 .f32 → FVec Ideal S50000x1 .f32),
    nullary main_c_27 ((constantI S_ 32 0#32) : IVec S_ 32),
    nullary main_call8_cst ((constant S_ .f32 0x00000000#32) : FVec Ideal S_ .f32),
    binary main_v175 main_call8_cst main_call8_v0 ((fun x v => Host.reduceAdd x v reducesTo_S50000x64_S50000_d1 h_S_) : FVec Ideal S50000x64 .f32 → FVec Ideal S_ .f32 → FVec Ideal S50000 .f32),
    unary main_call8_v0 main_call8_v1 ((broadcastInDim S50000x1 ![0] bcast_S50000_S50000x1_0) : FVec Ideal S50000 .f32 → FVec Ideal S50000x1 .f32),
    nullary main_call8_cst_0 ((constant S_ .f32 0x42800000#32) : FVec Ideal S_ .f32),
    unary main_call8_cst_0 main_call8_v2 ((broadcastInDim S50000x1 ![] bcast_S_S50000x1) : FVec Ideal S_ .f32 → FVec Ideal S50000x1 .f32),
    binary main_call8_v1 main_call8_v2 main_call8_v3 (Host.divf : FVec Ideal S50000x1 .f32 → FVec Ideal S50000x1 .f32 → FVec Ideal S50000x1 .f32),
    unary main_call8_v3 main_call8_v4 ((broadcastInDim S50000x64 ![0, 1] bcast_S50000x1_S50000x64_0_1) : FVec Ideal S50000x1 .f32 → FVec Ideal S50000x64 .f32),
    binary main_v175 main_call8_v4 main_call8_v5 (subf : FVec Ideal S50000x64 .f32 → FVec Ideal S50000x64 .f32 → FVec Ideal S50000x64 .f32),
    binary main_call8_v5 main_call8_v5 main_call8_v6 (mulf : FVec Ideal S50000x64 .f32 → FVec Ideal S50000x64 .f32 → FVec Ideal S50000x64 .f32),
    unary main_c_27 main_call8_v7 ((sitofp .f32) : IVec S_ 32 → FVec Ideal S_ .f32),
    nullary main_call8_cst_1 ((constant S_ .f32 0x42800000#32) : FVec Ideal S_ .f32),
    binary main_call8_cst_1 main_call8_v7 main_call8_v8 (subf : FVec Ideal S_ .f32 → FVec Ideal S_ .f32 → FVec Ideal S_ .f32),
    nullary main_call8_cst_2 ((constant S_ .f32 0x00000000#32) : FVec Ideal S_ .f32),
    binary main_call8_v6 main_call8_cst_2 main_call8_v9 ((fun x v => Host.reduceAdd x v reducesTo_S50000x64_S50000_d1 h_S_) : FVec Ideal S50000x64 .f32 → FVec Ideal S_ .f32 → FVec Ideal S50000 .f32),
    unary main_call8_v9 main_call8_v10 ((broadcastInDim S50000x1 ![0] bcast_S50000_S50000x1_0) : FVec Ideal S50000 .f32 → FVec Ideal S50000x1 .f32),
    unary main_call8_v8 main_call8_v11 ((broadcastInDim S50000x1 ![] bcast_S_S50000x1) : FVec Ideal S_ .f32 → FVec Ideal S50000x1 .f32),
    binary main_call8_v10 main_call8_v11 main_call8_v12 (Host.divf : FVec Ideal S50000x1 .f32 → FVec Ideal S50000x1 .f32 → FVec Ideal S50000x1 .f32),
    nullary main_call8_cst_3 ((constant S_ .f32 0x00000000#32) : FVec Ideal S_ .f32),
    binary main_call8_v8 main_call8_cst_3 main_call8_v13 ((cmpf .ogt) : FVec Ideal S_ .f32 → FVec Ideal S_ .f32 → IVec S_ 1),
    nullary main_call8_cst_4 ((constant S_ .f32 0x7FC00000#32) : FVec Ideal S_ .f32),
    unary main_call8_cst_4 main_call8_call0_v0 (id : FVec Ideal S_ .f32 → FVec Ideal S_ .f32),
    unary main_call8_call0_v0 main_call8_call0_v1 ((broadcastInDim S50000x1 ![] bcast_S_S50000x1) : FVec Ideal S_ .f32 → FVec Ideal S50000x1 .f32),
    ternary main_call8_v13 main_call8_v12 main_call8_call0_v1 main_v184 ((fun p a b => select (broadcastInDim S50000x1 ![] bcast_S_S50000x1 p) a b) : IVec S_ 1 → FVec Ideal S50000x1 .f32 → FVec Ideal S50000x1 .f32 → FVec Ideal S50000x1 .f32),
    unary main_v183 main_v185 (broadcastInDim S50000x64 ![0, 1] bcast_S50000x1_S50000x64_0_1 : FVec Ideal S50000x1 .f32 → FVec Ideal S50000x64 .f32),
    binary main_v175 main_v185 main_v186 (subf : FVec Ideal S50000x64 .f32 → FVec Ideal S50000x64 .f32 → FVec Ideal S50000x64 .f32),
    nullary main_cst_28 ((constant S_ .f32 0x3727C5AC#32) : FVec Ideal S_ .f32),
    unary main_cst_28 main_v187 (broadcastInDim S50000x1 ![] bcast_S_S50000x1 : FVec Ideal S_ .f32 → FVec Ideal S50000x1 .f32),
    binary main_v184 main_v187 main_v188 (addf : FVec Ideal S50000x1 .f32 → FVec Ideal S50000x1 .f32 → FVec Ideal S50000x1 .f32),
    unary main_v188 main_v189 (Host.rsqrt : FVec Ideal S50000x1 .f32 → FVec Ideal S50000x1 .f32),
    unary main_v189 main_v190 (broadcastInDim S50000x64 ![0, 1] bcast_S50000x1_S50000x64_0_1 : FVec Ideal S50000x1 .f32 → FVec Ideal S50000x64 .f32),
    binary main_v186 main_v190 main_v191 (mulf : FVec Ideal S50000x64 .f32 → FVec Ideal S50000x64 .f32 → FVec Ideal S50000x64 .f32),
    unary main_v177 main_v192 (broadcastInDim S1x64 ![1] bcast_S64_S1x64_1 : FVec Ideal S64 .f32 → FVec Ideal S1x64 .f32),
    unary main_v192 main_v193 (broadcastInDim S50000x64 ![0, 1] bcast_S1x64_S50000x64_0_1 : FVec Ideal S1x64 .f32 → FVec Ideal S50000x64 .f32),
    binary main_v191 main_v193 main_v194 (mulf : FVec Ideal S50000x64 .f32 → FVec Ideal S50000x64 .f32 → FVec Ideal S50000x64 .f32),
    unary main_v179 main_v195 (broadcastInDim S1x64 ![1] bcast_S64_S1x64_1 : FVec Ideal S64 .f32 → FVec Ideal S1x64 .f32),
    unary main_v195 main_v196 (broadcastInDim S50000x64 ![0, 1] bcast_S1x64_S50000x64_0_1 : FVec Ideal S1x64 .f32 → FVec Ideal S50000x64 .f32),
    binary main_v194 main_v196 main_v197 (addf : FVec Ideal S50000x64 .f32 → FVec Ideal S50000x64 .f32 → FVec Ideal S50000x64 .f32) ]
/-- The buffers they write. -/
abbrev seg17_W : List (Ref sig .tc) := [main_v175, main_v176, main_v177, main_v178, main_v179, main_cst_25, main_v180, main_v181, main_cst_26, main_v182, main_v183, main_c_27, main_call8_cst, main_call8_v0, main_call8_v1, main_call8_cst_0, main_call8_v2, main_call8_v3, main_call8_v4, main_call8_v5, main_call8_v6, main_call8_v7, main_call8_cst_1, main_call8_v8, main_call8_cst_2, main_call8_v9, main_call8_v10, main_call8_v11, main_call8_v12, main_call8_cst_3, main_call8_v13, main_call8_cst_4, main_call8_call0_v0, main_call8_call0_v1, main_v184, main_v185, main_v186, main_cst_28, main_v187, main_v188, main_v189, main_v190, main_v191, main_v192, main_v193, main_v194, main_v195, main_v196, main_v197]
set_option maxRecDepth 8192 in
theorem seg17_writes : (seg17 : List (HloOp τ sig (Elt Ideal))).Forall fun op => op.writes ⊆ (seg17_W.map (Proc.devRef (τ := τ) .tc)).toFinset := by
  simp only [List.Forall]
  exact ⟨(by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide))⟩
theorem seg17_sub : (seg17 : List (HloOp τ sig (Elt Ideal))).Forall fun op => op.bufs ⊆ tcRefs τ sig :=
  ⟨binary_bufs_sub .., unary_bufs_sub .., reshape_bufs_sub .., unary_bufs_sub .., reshape_bufs_sub .., nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub ..⟩
theorem seg17_fresh : ∀ op ∈ (seg17 : List (HloOp τ sig (Elt Ideal))), op.fresh = ∅ := by
  intro _ h; (repeat (cases h with | head => rfl | tail _ h => ?_)); exact nomatch h

/-- Operations 328 … 338 of 349. -/
abbrev seg18 : List (HloOp τ sig (Elt Ideal)) :=
  [ binary main_v197 main_arg13 main_v198 ((fun l r => Host.dotGeneral dot_S50000x64_S64x32_S50000x32_1_0_0_1_n_n none l r) : FVec Ideal S50000x64 .f32 → FVec Ideal S64x32 .f32 → FVec Ideal S50000x32 .f32),
    unary main_arg14 main_v199 (broadcastInDim S1x32 ![1] bcast_S32_S1x32_1 : FVec Ideal S32 .f32 → FVec Ideal S1x32 .f32),
    unary main_v199 main_v200 (broadcastInDim S50000x32 ![0, 1] bcast_S1x32_S50000x32_0_1 : FVec Ideal S1x32 .f32 → FVec Ideal S50000x32 .f32),
    binary main_v198 main_v200 main_v201 (addf : FVec Ideal S50000x32 .f32 → FVec Ideal S50000x32 .f32 → FVec Ideal S50000x32 .f32),
    nullary main_call9_cst ((constant S_ .f32 0x00000000#32) : FVec Ideal S_ .f32),
    unary main_call9_cst main_call9_v0 ((broadcastInDim S50000x32 ![] bcast_S_S50000x32) : FVec Ideal S_ .f32 → FVec Ideal S50000x32 .f32),
    binary main_v201 main_call9_v0 main_v202 (maximumf : FVec Ideal S50000x32 .f32 → FVec Ideal S50000x32 .f32 → FVec Ideal S50000x32 .f32),
    binary main_v202 main_arg15 main_v203 ((fun l r => Host.dotGeneral dot_S50000x32_S32x1_S50000x1_1_0_0_1_n_n none l r) : FVec Ideal S50000x32 .f32 → FVec Ideal S32x1 .f32 → FVec Ideal S50000x1 .f32),
    unary main_arg16 main_v204 (broadcastInDim S1x1 ![1] bcast_S1_S1x1_1 : FVec Ideal S1 .f32 → FVec Ideal S1x1 .f32),
    unary main_v204 main_v205 (broadcastInDim S50000x1 ![0, 1] bcast_S1x1_S50000x1_0_1 : FVec Ideal S1x1 .f32 → FVec Ideal S50000x1 .f32),
    binary main_v203 main_v205 main_v206 (addf : FVec Ideal S50000x1 .f32 → FVec Ideal S50000x1 .f32 → FVec Ideal S50000x1 .f32) ]
/-- The buffers they write. -/
abbrev seg18_W : List (Ref sig .tc) := [main_v198, main_v199, main_v200, main_v201, main_call9_cst, main_call9_v0, main_v202, main_v203, main_v204, main_v205, main_v206]
set_option maxRecDepth 8192 in
theorem seg18_writes : (seg18 : List (HloOp τ sig (Elt Ideal))).Forall fun op => op.writes ⊆ (seg18_W.map (Proc.devRef (τ := τ) .tc)).toFinset := by
  simp only [List.Forall]
  exact ⟨(by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide))⟩
theorem seg18_sub : (seg18 : List (HloOp τ sig (Elt Ideal))).Forall fun op => op.bufs ⊆ tcRefs τ sig :=
  ⟨binary_bufs_sub .., unary_bufs_sub .., unary_bufs_sub .., binary_bufs_sub .., nullary_bufs_sub .., unary_bufs_sub .., binary_bufs_sub .., binary_bufs_sub .., unary_bufs_sub .., unary_bufs_sub .., binary_bufs_sub ..⟩
theorem seg18_fresh : ∀ op ∈ (seg18 : List (HloOp τ sig (Elt Ideal))), op.fresh = ∅ := by
  intro _ h; (repeat (cases h with | head => rfl | tail _ h => ?_)); exact nomatch h

/-- Operations 339 … 340 of 349. -/
abbrev seg19 : List (HloOp τ sig (Elt Ideal)) :=
  [ binary main_v197 main_arg17 main_v207 ((fun l r => Host.dotGeneral dot_S50000x64_S64x32_S50000x32_1_0_0_1_n_n none l r) : FVec Ideal S50000x64 .f32 → FVec Ideal S64x32 .f32 → FVec Ideal S50000x32 .f32),
    unary main_arg18 main_v208 (broadcastInDim S1x32 ![1] bcast_S32_S1x32_1 : FVec Ideal S32 .f32 → FVec Ideal S1x32 .f32) ]
/-- The buffers they write. -/
abbrev seg19_W : List (Ref sig .tc) := [main_v207, main_v208]
set_option maxRecDepth 8192 in
theorem seg19_writes : (seg19 : List (HloOp τ sig (Elt Ideal))).Forall fun op => op.writes ⊆ (seg19_W.map (Proc.devRef (τ := τ) .tc)).toFinset := by
  simp only [List.Forall]
  exact ⟨(by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide))⟩
theorem seg19_sub : (seg19 : List (HloOp τ sig (Elt Ideal))).Forall fun op => op.bufs ⊆ tcRefs τ sig :=
  ⟨binary_bufs_sub .., unary_bufs_sub ..⟩
theorem seg19_fresh : ∀ op ∈ (seg19 : List (HloOp τ sig (Elt Ideal))), op.fresh = ∅ := by
  intro _ h; (repeat (cases h with | head => rfl | tail _ h => ?_)); exact nomatch h

/-- Operations 341 … 349 of 349. -/
abbrev seg20 : List (HloOp τ sig (Elt Ideal)) :=
  [ unary main_v208 main_v209 (broadcastInDim S50000x32 ![0, 1] bcast_S1x32_S50000x32_0_1 : FVec Ideal S1x32 .f32 → FVec Ideal S50000x32 .f32),
    binary main_v207 main_v209 main_v210 (addf : FVec Ideal S50000x32 .f32 → FVec Ideal S50000x32 .f32 → FVec Ideal S50000x32 .f32),
    nullary main_call10_cst ((constant S_ .f32 0x00000000#32) : FVec Ideal S_ .f32),
    unary main_call10_cst main_call10_v0 ((broadcastInDim S50000x32 ![] bcast_S_S50000x32) : FVec Ideal S_ .f32 → FVec Ideal S50000x32 .f32),
    binary main_v210 main_call10_v0 main_v211 (maximumf : FVec Ideal S50000x32 .f32 → FVec Ideal S50000x32 .f32 → FVec Ideal S50000x32 .f32),
    binary main_v211 main_arg19 main_v212 ((fun l r => Host.dotGeneral dot_S50000x32_S32x2_S50000x2_1_0_0_1_n_n none l r) : FVec Ideal S50000x32 .f32 → FVec Ideal S32x2 .f32 → FVec Ideal S50000x2 .f32),
    unary main_arg20 main_v213 (broadcastInDim S1x2 ![1] bcast_S2_S1x2_1 : FVec Ideal S2 .f32 → FVec Ideal S1x2 .f32),
    unary main_v213 main_v214 (broadcastInDim S50000x2 ![0, 1] bcast_S1x2_S50000x2_0_1 : FVec Ideal S1x2 .f32 → FVec Ideal S50000x2 .f32),
    binary main_v212 main_v214 main_v215 (addf : FVec Ideal S50000x2 .f32 → FVec Ideal S50000x2 .f32 → FVec Ideal S50000x2 .f32) ]
/-- The buffers they write. -/
abbrev seg20_W : List (Ref sig .tc) := [main_v209, main_v210, main_call10_cst, main_call10_v0, main_v211, main_v212, main_v213, main_v214, main_v215]
set_option maxRecDepth 8192 in
theorem seg20_writes : (seg20 : List (HloOp τ sig (Elt Ideal))).Forall fun op => op.writes ⊆ (seg20_W.map (Proc.devRef (τ := τ) .tc)).toFinset := by
  simp only [List.Forall]
  exact ⟨(by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide)), (by simp only [nullary_writes, unary_writes, binary_writes, ternary_writes, reshape_writes, Finset.singleton_subset_iff, List.mem_toFinset]; exact List.mem_map_of_mem (by decide))⟩
theorem seg20_sub : (seg20 : List (HloOp τ sig (Elt Ideal))).Forall fun op => op.bufs ⊆ tcRefs τ sig :=
  ⟨unary_bufs_sub .., binary_bufs_sub .., nullary_bufs_sub .., unary_bufs_sub .., binary_bufs_sub .., binary_bufs_sub .., unary_bufs_sub .., unary_bufs_sub .., binary_bufs_sub ..⟩
theorem seg20_fresh : ∀ op ∈ (seg20 : List (HloOp τ sig (Elt Ideal))), op.fresh = ∅ := by
  intro _ h; (repeat (cases h with | head => rfl | tail _ h => ?_)); exact nomatch h

/-- The operations of window 0 of the entry function. -/
abbrev pops0 : List (HloOp τ sig (Elt Ideal)) := seg0 ++ seg1 ++ seg2 ++ seg3 ++ seg4
theorem pops0_sub : (pops0 : List (HloOp τ sig (Elt Ideal))).Forall fun op => op.bufs ⊆ tcRefs τ sig := forall_app (forall_app (forall_app (forall_app seg0_sub seg1_sub) seg2_sub) seg3_sub) seg4_sub
theorem pops0_fresh : ∀ op ∈ (pops0 : List (HloOp τ sig (Elt Ideal))), op.fresh = ∅ := mem_app (mem_app (mem_app (mem_app seg0_fresh seg1_fresh) seg2_fresh) seg3_fresh) seg4_fresh

/-- The operations of window 1 of the entry function. -/
abbrev pops1 : List (HloOp τ sig (Elt Ideal)) := seg5 ++ seg6 ++ seg7 ++ seg8 ++ seg9
theorem pops1_sub : (pops1 : List (HloOp τ sig (Elt Ideal))).Forall fun op => op.bufs ⊆ tcRefs τ sig := forall_app (forall_app (forall_app (forall_app seg5_sub seg6_sub) seg7_sub) seg8_sub) seg9_sub
theorem pops1_fresh : ∀ op ∈ (pops1 : List (HloOp τ sig (Elt Ideal))), op.fresh = ∅ := mem_app (mem_app (mem_app (mem_app seg5_fresh seg6_fresh) seg7_fresh) seg8_fresh) seg9_fresh

/-- The operations of window 2 of the entry function. -/
abbrev pops2 : List (HloOp τ sig (Elt Ideal)) := seg10 ++ seg11 ++ seg12 ++ seg13 ++ seg14
theorem pops2_sub : (pops2 : List (HloOp τ sig (Elt Ideal))).Forall fun op => op.bufs ⊆ tcRefs τ sig := forall_app (forall_app (forall_app (forall_app seg10_sub seg11_sub) seg12_sub) seg13_sub) seg14_sub
theorem pops2_fresh : ∀ op ∈ (pops2 : List (HloOp τ sig (Elt Ideal))), op.fresh = ∅ := mem_app (mem_app (mem_app (mem_app seg10_fresh seg11_fresh) seg12_fresh) seg13_fresh) seg14_fresh

/-- The operations of window 3 of the entry function. -/
abbrev pops3 : List (HloOp τ sig (Elt Ideal)) := seg15 ++ seg16 ++ seg17 ++ seg18 ++ seg19
theorem pops3_sub : (pops3 : List (HloOp τ sig (Elt Ideal))).Forall fun op => op.bufs ⊆ tcRefs τ sig := forall_app (forall_app (forall_app (forall_app seg15_sub seg16_sub) seg17_sub) seg18_sub) seg19_sub
theorem pops3_fresh : ∀ op ∈ (pops3 : List (HloOp τ sig (Elt Ideal))), op.fresh = ∅ := mem_app (mem_app (mem_app (mem_app seg15_fresh seg16_fresh) seg17_fresh) seg18_fresh) seg19_fresh

/-- The operations of window 4 of the entry function. -/
abbrev pops4 : List (HloOp τ sig (Elt Ideal)) := seg20
theorem pops4_sub : (pops4 : List (HloOp τ sig (Elt Ideal))).Forall fun op => op.bufs ⊆ tcRefs τ sig := seg20_sub
theorem pops4_fresh : ∀ op ∈ (pops4 : List (HloOp τ sig (Elt Ideal))), op.fresh = ∅ := seg20_fresh

/-- All the operations of the entry function, in order. -/
abbrev ops : List (HloOp τ sig (Elt Ideal)) := pops0 ++ pops1 ++ pops2 ++ pops3 ++ pops4
theorem ops_sub : (ops : List (HloOp τ sig (Elt Ideal))).Forall fun op => op.bufs ⊆ tcRefs τ sig := forall_app (forall_app (forall_app (forall_app pops0_sub pops1_sub) pops2_sub) pops3_sub) pops4_sub
theorem ops_fresh : ∀ op ∈ (ops : List (HloOp τ sig (Elt Ideal))), op.fresh = ∅ := mem_app (mem_app (mem_app (mem_app pops0_fresh pops1_fresh) pops2_fresh) pops3_fresh) pops4_fresh

theorem scopedRefs_eq : (Finset.univ.filter fun b : Ref sig .tc => b.isScoped) = ∅ := by decide
theorem scopedSems_eq : (Finset.univ.filter fun sm : SemLoc sig => sm.isScoped .tc) = ∅ := by decide

set_option maxRecDepth 16384 in
set_option maxHeartbeats 4000000 in
/-- Window 0 is its operations in sequence: the called functions unfolded where they are called, and sequencing reassociated. -/
theorem main_part0_eq (c : Dev nD) : main_part0 (F := Ideal) c = seq pops0 := by
  simp only [pops0, seg0, seg1, seg2, seg3, seg4, List.cons_append, List.nil_append, main_part0, fn_var.body, fn_where.body, fn_relu.body, fn_where_0.body, fn_relu_1.body, fn_relu_2.body, seq, bind_assoc, pure_bind] <;> rfl

set_option maxRecDepth 16384 in
set_option maxHeartbeats 4000000 in
/-- Window 1 is its operations in sequence: the called functions unfolded where they are called, and sequencing reassociated. -/
theorem main_part1_eq (c : Dev nD) : main_part1 (F := Ideal) c = seq pops1 := by
  simp only [pops1, seg5, seg6, seg7, seg8, seg9, List.cons_append, List.nil_append, main_part1, fn_var.body, fn_where.body, fn_relu.body, fn_where_0.body, fn_relu_1.body, fn_relu_2.body, seq, bind_assoc, pure_bind] <;> rfl

set_option maxRecDepth 16384 in
set_option maxHeartbeats 4000000 in
/-- Window 2 is its operations in sequence: the called functions unfolded where they are called, and sequencing reassociated. -/
theorem main_part2_eq (c : Dev nD) : main_part2 (F := Ideal) c = seq pops2 := by
  simp only [pops2, seg10, seg11, seg12, seg13, seg14, List.cons_append, List.nil_append, main_part2, fn_var.body, fn_where.body, fn_relu.body, fn_where_0.body, fn_relu_1.body, fn_relu_2.body, seq, bind_assoc, pure_bind] <;> rfl

set_option maxRecDepth 16384 in
set_option maxHeartbeats 4000000 in
/-- Window 3 is its operations in sequence: the called functions unfolded where they are called, and sequencing reassociated. -/
theorem main_part3_eq (c : Dev nD) : main_part3 (F := Ideal) c = seq pops3 := by
  simp only [pops3, seg15, seg16, seg17, seg18, seg19, List.cons_append, List.nil_append, main_part3, fn_var.body, fn_where.body, fn_relu.body, fn_where_0.body, fn_relu_1.body, fn_relu_2.body, seq, bind_assoc, pure_bind] <;> rfl

set_option maxRecDepth 16384 in
set_option maxHeartbeats 4000000 in
/-- Window 4 is its operations in sequence: the called functions unfolded where they are called, and sequencing reassociated. -/
theorem main_part4_eq (c : Dev nD) : main_part4 (F := Ideal) c = seq pops4 := by
  simp only [pops4, seg20, List.cons_append, List.nil_append, main_part4, fn_var.body, fn_where.body, fn_relu.body, fn_where_0.body, fn_relu_1.body, fn_relu_2.body, seq, bind_assoc, pure_bind] <;> rfl

/-- The entry function is the whole list in sequence. -/
theorem main_eq (c : Dev nD) : main (F := Ideal) c = seq ops := by
  simp only [ops, seq_append, ← main_part0_eq c, ← main_part1_eq c, ← main_part2_eq c, ← main_part3_eq c, ← main_part4_eq c]
  rfl

end Cert.ReferenceIdeal.RefValue

end
-- ==== Proof.RefRunVals.lean ====
/-
  What every buffer holds after each segment of the reference program.

  From any contents V0 of the device buffers, val k V0 is the contents after the first k segments. A buffer no operation of a
  segment writes keeps its contents through it; the buffer a stage of the network ends in holds that stage of the arrays the
  stage reads, and so, stage by stage, a composition of the stages over the argument arrays.
-/
import proofs.«104585_j29386166239380_1_alg».proof.Proof.RefRunOps
import proofs.«104585_j29386166239380_1_alg».proof.Proof.RefStages
import proofs.«104585_j29386166239380_1_alg».proof.Proof.LibHostEval

noncomputable section

namespace Cert.ReferenceIdeal.RefValue

open Idealize.ShloMosaic Idealize.ShloMosaic.TcCoe Idealize.SL.Sem Idealize.ShloMosaic.StableHlo
open Cert.ReferenceIdeal Cert.ReferenceIdeal.Facts₀ Cert.ReferenceIdeal.Facts

open Cert.RefStages

/-- The contents after two lists of operations in a row: after the second, from the contents after the first. -/
theorem after_app (l₁ l₂ : List (HloOp τ sig (Elt Ideal))) (V : Valuation τ sig (Elt Ideal)) : after (l₁ ++ l₂) V = after l₂ (after l₁ V) := by
  induction l₁ generalizing V with
  | nil => rfl
  | cons op l ih => simp only [List.cons_append, after_cons, ih]

/-- The contents before the first segment. -/
def val0 (V0 : Valuation τ sig (Elt Ideal)) : Valuation τ sig (Elt Ideal) := V0
theorem val0_main_arg0 (V0 : Valuation τ sig (Elt Ideal)) : val0 V0 (no_index (Proc.devRef .tc main_arg0)) = V0 (Proc.devRef .tc main_arg0) := rfl
theorem val0_main_arg1 (V0 : Valuation τ sig (Elt Ideal)) : val0 V0 (no_index (Proc.devRef .tc main_arg1)) = V0 (Proc.devRef .tc main_arg1) := rfl
theorem val0_main_arg2 (V0 : Valuation τ sig (Elt Ideal)) : val0 V0 (no_index (Proc.devRef .tc main_arg2)) = V0 (Proc.devRef .tc main_arg2) := rfl
theorem val0_main_arg3 (V0 : Valuation τ sig (Elt Ideal)) : val0 V0 (no_index (Proc.devRef .tc main_arg3)) = V0 (Proc.devRef .tc main_arg3) := rfl
theorem val0_main_arg4 (V0 : Valuation τ sig (Elt Ideal)) : val0 V0 (no_index (Proc.devRef .tc main_arg4)) = V0 (Proc.devRef .tc main_arg4) := rfl
theorem val0_main_arg5 (V0 : Valuation τ sig (Elt Ideal)) : val0 V0 (no_index (Proc.devRef .tc main_arg5)) = V0 (Proc.devRef .tc main_arg5) := rfl
theorem val0_main_arg6 (V0 : Valuation τ sig (Elt Ideal)) : val0 V0 (no_index (Proc.devRef .tc main_arg6)) = V0 (Proc.devRef .tc main_arg6) := rfl
theorem val0_main_arg7 (V0 : Valuation τ sig (Elt Ideal)) : val0 V0 (no_index (Proc.devRef .tc main_arg7)) = V0 (Proc.devRef .tc main_arg7) := rfl
theorem val0_main_arg8 (V0 : Valuation τ sig (Elt Ideal)) : val0 V0 (no_index (Proc.devRef .tc main_arg8)) = V0 (Proc.devRef .tc main_arg8) := rfl
theorem val0_main_arg9 (V0 : Valuation τ sig (Elt Ideal)) : val0 V0 (no_index (Proc.devRef .tc main_arg9)) = V0 (Proc.devRef .tc main_arg9) := rfl
theorem val0_main_arg10 (V0 : Valuation τ sig (Elt Ideal)) : val0 V0 (no_index (Proc.devRef .tc main_arg10)) = V0 (Proc.devRef .tc main_arg10) := rfl
theorem val0_main_arg11 (V0 : Valuation τ sig (Elt Ideal)) : val0 V0 (no_index (Proc.devRef .tc main_arg11)) = V0 (Proc.devRef .tc main_arg11) := rfl
theorem val0_main_arg12 (V0 : Valuation τ sig (Elt Ideal)) : val0 V0 (no_index (Proc.devRef .tc main_arg12)) = V0 (Proc.devRef .tc main_arg12) := rfl
theorem val0_main_arg13 (V0 : Valuation τ sig (Elt Ideal)) : val0 V0 (no_index (Proc.devRef .tc main_arg13)) = V0 (Proc.devRef .tc main_arg13) := rfl
theorem val0_main_arg14 (V0 : Valuation τ sig (Elt Ideal)) : val0 V0 (no_index (Proc.devRef .tc main_arg14)) = V0 (Proc.devRef .tc main_arg14) := rfl
theorem val0_main_arg15 (V0 : Valuation τ sig (Elt Ideal)) : val0 V0 (no_index (Proc.devRef .tc main_arg15)) = V0 (Proc.devRef .tc main_arg15) := rfl
theorem val0_main_arg16 (V0 : Valuation τ sig (Elt Ideal)) : val0 V0 (no_index (Proc.devRef .tc main_arg16)) = V0 (Proc.devRef .tc main_arg16) := rfl
theorem val0_main_arg17 (V0 : Valuation τ sig (Elt Ideal)) : val0 V0 (no_index (Proc.devRef .tc main_arg17)) = V0 (Proc.devRef .tc main_arg17) := rfl
theorem val0_main_arg18 (V0 : Valuation τ sig (Elt Ideal)) : val0 V0 (no_index (Proc.devRef .tc main_arg18)) = V0 (Proc.devRef .tc main_arg18) := rfl
theorem val0_main_arg19 (V0 : Valuation τ sig (Elt Ideal)) : val0 V0 (no_index (Proc.devRef .tc main_arg19)) = V0 (Proc.devRef .tc main_arg19) := rfl
theorem val0_main_arg20 (V0 : Valuation τ sig (Elt Ideal)) : val0 V0 (no_index (Proc.devRef .tc main_arg20)) = V0 (Proc.devRef .tc main_arg20) := rfl

/-- The contents after the first 1 segment. -/
def val1 (V0 : Valuation τ sig (Elt Ideal)) : Valuation τ sig (Elt Ideal) := after seg0 (val0 V0)
theorem val1_keep (V0 : Valuation τ sig (Elt Ideal)) (r : Ref sig .tc) (h : r ∉ seg0_W) :
    val1 V0 (Proc.devRef .tc r) = val0 V0 (Proc.devRef .tc r) :=
  after_of_writes_sub seg0 _ seg0_writes h
theorem val1_main_arg0 (V0 : Valuation τ sig (Elt Ideal)) : val1 V0 (no_index (Proc.devRef .tc main_arg0)) = V0 (Proc.devRef .tc main_arg0) :=
  (val1_keep V0 main_arg0 (by decide)).trans (val0_main_arg0 V0)
theorem val1_main_arg1 (V0 : Valuation τ sig (Elt Ideal)) : val1 V0 (no_index (Proc.devRef .tc main_arg1)) = V0 (Proc.devRef .tc main_arg1) :=
  (val1_keep V0 main_arg1 (by decide)).trans (val0_main_arg1 V0)
theorem val1_main_arg2 (V0 : Valuation τ sig (Elt Ideal)) : val1 V0 (no_index (Proc.devRef .tc main_arg2)) = V0 (Proc.devRef .tc main_arg2) :=
  (val1_keep V0 main_arg2 (by decide)).trans (val0_main_arg2 V0)
theorem val1_main_arg3 (V0 : Valuation τ sig (Elt Ideal)) : val1 V0 (no_index (Proc.devRef .tc main_arg3)) = V0 (Proc.devRef .tc main_arg3) :=
  (val1_keep V0 main_arg3 (by decide)).trans (val0_main_arg3 V0)
theorem val1_main_arg4 (V0 : Valuation τ sig (Elt Ideal)) : val1 V0 (no_index (Proc.devRef .tc main_arg4)) = V0 (Proc.devRef .tc main_arg4) :=
  (val1_keep V0 main_arg4 (by decide)).trans (val0_main_arg4 V0)
theorem val1_main_arg5 (V0 : Valuation τ sig (Elt Ideal)) : val1 V0 (no_index (Proc.devRef .tc main_arg5)) = V0 (Proc.devRef .tc main_arg5) :=
  (val1_keep V0 main_arg5 (by decide)).trans (val0_main_arg5 V0)
theorem val1_main_arg6 (V0 : Valuation τ sig (Elt Ideal)) : val1 V0 (no_index (Proc.devRef .tc main_arg6)) = V0 (Proc.devRef .tc main_arg6) :=
  (val1_keep V0 main_arg6 (by decide)).trans (val0_main_arg6 V0)
theorem val1_main_arg7 (V0 : Valuation τ sig (Elt Ideal)) : val1 V0 (no_index (Proc.devRef .tc main_arg7)) = V0 (Proc.devRef .tc main_arg7) :=
  (val1_keep V0 main_arg7 (by decide)).trans (val0_main_arg7 V0)
theorem val1_main_arg8 (V0 : Valuation τ sig (Elt Ideal)) : val1 V0 (no_index (Proc.devRef .tc main_arg8)) = V0 (Proc.devRef .tc main_arg8) :=
  (val1_keep V0 main_arg8 (by decide)).trans (val0_main_arg8 V0)
theorem val1_main_arg9 (V0 : Valuation τ sig (Elt Ideal)) : val1 V0 (no_index (Proc.devRef .tc main_arg9)) = V0 (Proc.devRef .tc main_arg9) :=
  (val1_keep V0 main_arg9 (by decide)).trans (val0_main_arg9 V0)
theorem val1_main_arg10 (V0 : Valuation τ sig (Elt Ideal)) : val1 V0 (no_index (Proc.devRef .tc main_arg10)) = V0 (Proc.devRef .tc main_arg10) :=
  (val1_keep V0 main_arg10 (by decide)).trans (val0_main_arg10 V0)
theorem val1_main_arg11 (V0 : Valuation τ sig (Elt Ideal)) : val1 V0 (no_index (Proc.devRef .tc main_arg11)) = V0 (Proc.devRef .tc main_arg11) :=
  (val1_keep V0 main_arg11 (by decide)).trans (val0_main_arg11 V0)
theorem val1_main_arg12 (V0 : Valuation τ sig (Elt Ideal)) : val1 V0 (no_index (Proc.devRef .tc main_arg12)) = V0 (Proc.devRef .tc main_arg12) :=
  (val1_keep V0 main_arg12 (by decide)).trans (val0_main_arg12 V0)
theorem val1_main_arg13 (V0 : Valuation τ sig (Elt Ideal)) : val1 V0 (no_index (Proc.devRef .tc main_arg13)) = V0 (Proc.devRef .tc main_arg13) :=
  (val1_keep V0 main_arg13 (by decide)).trans (val0_main_arg13 V0)
theorem val1_main_arg14 (V0 : Valuation τ sig (Elt Ideal)) : val1 V0 (no_index (Proc.devRef .tc main_arg14)) = V0 (Proc.devRef .tc main_arg14) :=
  (val1_keep V0 main_arg14 (by decide)).trans (val0_main_arg14 V0)
theorem val1_main_arg15 (V0 : Valuation τ sig (Elt Ideal)) : val1 V0 (no_index (Proc.devRef .tc main_arg15)) = V0 (Proc.devRef .tc main_arg15) :=
  (val1_keep V0 main_arg15 (by decide)).trans (val0_main_arg15 V0)
theorem val1_main_arg16 (V0 : Valuation τ sig (Elt Ideal)) : val1 V0 (no_index (Proc.devRef .tc main_arg16)) = V0 (Proc.devRef .tc main_arg16) :=
  (val1_keep V0 main_arg16 (by decide)).trans (val0_main_arg16 V0)
theorem val1_main_arg17 (V0 : Valuation τ sig (Elt Ideal)) : val1 V0 (no_index (Proc.devRef .tc main_arg17)) = V0 (Proc.devRef .tc main_arg17) :=
  (val1_keep V0 main_arg17 (by decide)).trans (val0_main_arg17 V0)
theorem val1_main_arg18 (V0 : Valuation τ sig (Elt Ideal)) : val1 V0 (no_index (Proc.devRef .tc main_arg18)) = V0 (Proc.devRef .tc main_arg18) :=
  (val1_keep V0 main_arg18 (by decide)).trans (val0_main_arg18 V0)
theorem val1_main_arg19 (V0 : Valuation τ sig (Elt Ideal)) : val1 V0 (no_index (Proc.devRef .tc main_arg19)) = V0 (Proc.devRef .tc main_arg19) :=
  (val1_keep V0 main_arg19 (by decide)).trans (val0_main_arg19 V0)
theorem val1_main_arg20 (V0 : Valuation τ sig (Elt Ideal)) : val1 V0 (no_index (Proc.devRef .tc main_arg20)) = V0 (Proc.devRef .tc main_arg20) :=
  (val1_keep V0 main_arg20 (by decide)).trans (val0_main_arg20 V0)
set_option maxRecDepth 8192 in
set_option maxHeartbeats 4000000 in
theorem val1_main_v1 (V0 : Valuation τ sig (Elt Ideal)) : val1 V0 (no_index (Proc.devRef .tc main_v1)) = srcH (V0 (Proc.devRef .tc main_arg1)) := by
  simp only [val1, seg0]
  host_line_results
  simp only [val0_main_arg1]
  rfl
set_option maxRecDepth 8192 in
set_option maxHeartbeats 4000000 in
theorem val1_main_v3 (V0 : Valuation τ sig (Elt Ideal)) : val1 V0 (no_index (Proc.devRef .tc main_v3)) = dstH (V0 (Proc.devRef .tc main_arg1)) := by
  simp only [val1, seg0]
  host_line_results
  simp only [val0_main_arg1]
  rfl

/-- The contents after the first 2 segments. -/
def val2 (V0 : Valuation τ sig (Elt Ideal)) : Valuation τ sig (Elt Ideal) := after seg1 (val1 V0)
theorem val2_keep (V0 : Valuation τ sig (Elt Ideal)) (r : Ref sig .tc) (h : r ∉ seg1_W) :
    val2 V0 (Proc.devRef .tc r) = val1 V0 (Proc.devRef .tc r) :=
  after_of_writes_sub seg1 _ seg1_writes h
theorem val2_main_arg0 (V0 : Valuation τ sig (Elt Ideal)) : val2 V0 (no_index (Proc.devRef .tc main_arg0)) = V0 (Proc.devRef .tc main_arg0) :=
  (val2_keep V0 main_arg0 (by decide)).trans (val1_main_arg0 V0)
theorem val2_main_arg1 (V0 : Valuation τ sig (Elt Ideal)) : val2 V0 (no_index (Proc.devRef .tc main_arg1)) = V0 (Proc.devRef .tc main_arg1) :=
  (val2_keep V0 main_arg1 (by decide)).trans (val1_main_arg1 V0)
theorem val2_main_arg2 (V0 : Valuation τ sig (Elt Ideal)) : val2 V0 (no_index (Proc.devRef .tc main_arg2)) = V0 (Proc.devRef .tc main_arg2) :=
  (val2_keep V0 main_arg2 (by decide)).trans (val1_main_arg2 V0)
theorem val2_main_arg3 (V0 : Valuation τ sig (Elt Ideal)) : val2 V0 (no_index (Proc.devRef .tc main_arg3)) = V0 (Proc.devRef .tc main_arg3) :=
  (val2_keep V0 main_arg3 (by decide)).trans (val1_main_arg3 V0)
theorem val2_main_arg4 (V0 : Valuation τ sig (Elt Ideal)) : val2 V0 (no_index (Proc.devRef .tc main_arg4)) = V0 (Proc.devRef .tc main_arg4) :=
  (val2_keep V0 main_arg4 (by decide)).trans (val1_main_arg4 V0)
theorem val2_main_arg5 (V0 : Valuation τ sig (Elt Ideal)) : val2 V0 (no_index (Proc.devRef .tc main_arg5)) = V0 (Proc.devRef .tc main_arg5) :=
  (val2_keep V0 main_arg5 (by decide)).trans (val1_main_arg5 V0)
theorem val2_main_arg6 (V0 : Valuation τ sig (Elt Ideal)) : val2 V0 (no_index (Proc.devRef .tc main_arg6)) = V0 (Proc.devRef .tc main_arg6) :=
  (val2_keep V0 main_arg6 (by decide)).trans (val1_main_arg6 V0)
theorem val2_main_arg7 (V0 : Valuation τ sig (Elt Ideal)) : val2 V0 (no_index (Proc.devRef .tc main_arg7)) = V0 (Proc.devRef .tc main_arg7) :=
  (val2_keep V0 main_arg7 (by decide)).trans (val1_main_arg7 V0)
theorem val2_main_arg8 (V0 : Valuation τ sig (Elt Ideal)) : val2 V0 (no_index (Proc.devRef .tc main_arg8)) = V0 (Proc.devRef .tc main_arg8) :=
  (val2_keep V0 main_arg8 (by decide)).trans (val1_main_arg8 V0)
theorem val2_main_arg9 (V0 : Valuation τ sig (Elt Ideal)) : val2 V0 (no_index (Proc.devRef .tc main_arg9)) = V0 (Proc.devRef .tc main_arg9) :=
  (val2_keep V0 main_arg9 (by decide)).trans (val1_main_arg9 V0)
theorem val2_main_arg10 (V0 : Valuation τ sig (Elt Ideal)) : val2 V0 (no_index (Proc.devRef .tc main_arg10)) = V0 (Proc.devRef .tc main_arg10) :=
  (val2_keep V0 main_arg10 (by decide)).trans (val1_main_arg10 V0)
theorem val2_main_arg11 (V0 : Valuation τ sig (Elt Ideal)) : val2 V0 (no_index (Proc.devRef .tc main_arg11)) = V0 (Proc.devRef .tc main_arg11) :=
  (val2_keep V0 main_arg11 (by decide)).trans (val1_main_arg11 V0)
theorem val2_main_arg12 (V0 : Valuation τ sig (Elt Ideal)) : val2 V0 (no_index (Proc.devRef .tc main_arg12)) = V0 (Proc.devRef .tc main_arg12) :=
  (val2_keep V0 main_arg12 (by decide)).trans (val1_main_arg12 V0)
theorem val2_main_arg13 (V0 : Valuation τ sig (Elt Ideal)) : val2 V0 (no_index (Proc.devRef .tc main_arg13)) = V0 (Proc.devRef .tc main_arg13) :=
  (val2_keep V0 main_arg13 (by decide)).trans (val1_main_arg13 V0)
theorem val2_main_arg14 (V0 : Valuation τ sig (Elt Ideal)) : val2 V0 (no_index (Proc.devRef .tc main_arg14)) = V0 (Proc.devRef .tc main_arg14) :=
  (val2_keep V0 main_arg14 (by decide)).trans (val1_main_arg14 V0)
theorem val2_main_arg15 (V0 : Valuation τ sig (Elt Ideal)) : val2 V0 (no_index (Proc.devRef .tc main_arg15)) = V0 (Proc.devRef .tc main_arg15) :=
  (val2_keep V0 main_arg15 (by decide)).trans (val1_main_arg15 V0)
theorem val2_main_arg16 (V0 : Valuation τ sig (Elt Ideal)) : val2 V0 (no_index (Proc.devRef .tc main_arg16)) = V0 (Proc.devRef .tc main_arg16) :=
  (val2_keep V0 main_arg16 (by decide)).trans (val1_main_arg16 V0)
theorem val2_main_arg17 (V0 : Valuation τ sig (Elt Ideal)) : val2 V0 (no_index (Proc.devRef .tc main_arg17)) = V0 (Proc.devRef .tc main_arg17) :=
  (val2_keep V0 main_arg17 (by decide)).trans (val1_main_arg17 V0)
theorem val2_main_arg18 (V0 : Valuation τ sig (Elt Ideal)) : val2 V0 (no_index (Proc.devRef .tc main_arg18)) = V0 (Proc.devRef .tc main_arg18) :=
  (val2_keep V0 main_arg18 (by decide)).trans (val1_main_arg18 V0)
theorem val2_main_arg19 (V0 : Valuation τ sig (Elt Ideal)) : val2 V0 (no_index (Proc.devRef .tc main_arg19)) = V0 (Proc.devRef .tc main_arg19) :=
  (val2_keep V0 main_arg19 (by decide)).trans (val1_main_arg19 V0)
theorem val2_main_arg20 (V0 : Valuation τ sig (Elt Ideal)) : val2 V0 (no_index (Proc.devRef .tc main_arg20)) = V0 (Proc.devRef .tc main_arg20) :=
  (val2_keep V0 main_arg20 (by decide)).trans (val1_main_arg20 V0)
theorem val2_main_v1 (V0 : Valuation τ sig (Elt Ideal)) : val2 V0 (no_index (Proc.devRef .tc main_v1)) = srcH (V0 (Proc.devRef .tc main_arg1)) :=
  (val2_keep V0 main_v1 (by decide)).trans (val1_main_v1 V0)
theorem val2_main_v3 (V0 : Valuation τ sig (Elt Ideal)) : val2 V0 (no_index (Proc.devRef .tc main_v3)) = dstH (V0 (Proc.devRef .tc main_arg1)) :=
  (val2_keep V0 main_v3 (by decide)).trans (val1_main_v3 V0)
set_option maxRecDepth 8192 in
set_option maxHeartbeats 4000000 in
theorem val2_main_v26 (V0 : Valuation τ sig (Elt Ideal)) : val2 V0 (no_index (Proc.devRef .tc main_v26)) = encodeH (V0 (Proc.devRef .tc main_arg0)) (V0 (Proc.devRef .tc main_arg3)) (V0 (Proc.devRef .tc main_arg4)) (V0 (Proc.devRef .tc main_arg5)) (V0 (Proc.devRef .tc main_arg6)) := by
  simp only [val2, seg1]
  host_line_results
  simp only [val1_main_arg6, val1_main_arg5, val1_main_arg4, val1_main_arg3, val1_main_arg0]
  rfl

/-- The contents after the first 3 segments. -/
def val3 (V0 : Valuation τ sig (Elt Ideal)) : Valuation τ sig (Elt Ideal) := after seg2 (val2 V0)
theorem val3_keep (V0 : Valuation τ sig (Elt Ideal)) (r : Ref sig .tc) (h : r ∉ seg2_W) :
    val3 V0 (Proc.devRef .tc r) = val2 V0 (Proc.devRef .tc r) :=
  after_of_writes_sub seg2 _ seg2_writes h
theorem val3_main_arg0 (V0 : Valuation τ sig (Elt Ideal)) : val3 V0 (no_index (Proc.devRef .tc main_arg0)) = V0 (Proc.devRef .tc main_arg0) :=
  (val3_keep V0 main_arg0 (by decide)).trans (val2_main_arg0 V0)
theorem val3_main_arg1 (V0 : Valuation τ sig (Elt Ideal)) : val3 V0 (no_index (Proc.devRef .tc main_arg1)) = V0 (Proc.devRef .tc main_arg1) :=
  (val3_keep V0 main_arg1 (by decide)).trans (val2_main_arg1 V0)
theorem val3_main_arg2 (V0 : Valuation τ sig (Elt Ideal)) : val3 V0 (no_index (Proc.devRef .tc main_arg2)) = V0 (Proc.devRef .tc main_arg2) :=
  (val3_keep V0 main_arg2 (by decide)).trans (val2_main_arg2 V0)
theorem val3_main_arg3 (V0 : Valuation τ sig (Elt Ideal)) : val3 V0 (no_index (Proc.devRef .tc main_arg3)) = V0 (Proc.devRef .tc main_arg3) :=
  (val3_keep V0 main_arg3 (by decide)).trans (val2_main_arg3 V0)
theorem val3_main_arg4 (V0 : Valuation τ sig (Elt Ideal)) : val3 V0 (no_index (Proc.devRef .tc main_arg4)) = V0 (Proc.devRef .tc main_arg4) :=
  (val3_keep V0 main_arg4 (by decide)).trans (val2_main_arg4 V0)
theorem val3_main_arg5 (V0 : Valuation τ sig (Elt Ideal)) : val3 V0 (no_index (Proc.devRef .tc main_arg5)) = V0 (Proc.devRef .tc main_arg5) :=
  (val3_keep V0 main_arg5 (by decide)).trans (val2_main_arg5 V0)
theorem val3_main_arg6 (V0 : Valuation τ sig (Elt Ideal)) : val3 V0 (no_index (Proc.devRef .tc main_arg6)) = V0 (Proc.devRef .tc main_arg6) :=
  (val3_keep V0 main_arg6 (by decide)).trans (val2_main_arg6 V0)
theorem val3_main_arg7 (V0 : Valuation τ sig (Elt Ideal)) : val3 V0 (no_index (Proc.devRef .tc main_arg7)) = V0 (Proc.devRef .tc main_arg7) :=
  (val3_keep V0 main_arg7 (by decide)).trans (val2_main_arg7 V0)
theorem val3_main_arg8 (V0 : Valuation τ sig (Elt Ideal)) : val3 V0 (no_index (Proc.devRef .tc main_arg8)) = V0 (Proc.devRef .tc main_arg8) :=
  (val3_keep V0 main_arg8 (by decide)).trans (val2_main_arg8 V0)
theorem val3_main_arg9 (V0 : Valuation τ sig (Elt Ideal)) : val3 V0 (no_index (Proc.devRef .tc main_arg9)) = V0 (Proc.devRef .tc main_arg9) :=
  (val3_keep V0 main_arg9 (by decide)).trans (val2_main_arg9 V0)
theorem val3_main_arg10 (V0 : Valuation τ sig (Elt Ideal)) : val3 V0 (no_index (Proc.devRef .tc main_arg10)) = V0 (Proc.devRef .tc main_arg10) :=
  (val3_keep V0 main_arg10 (by decide)).trans (val2_main_arg10 V0)
theorem val3_main_arg11 (V0 : Valuation τ sig (Elt Ideal)) : val3 V0 (no_index (Proc.devRef .tc main_arg11)) = V0 (Proc.devRef .tc main_arg11) :=
  (val3_keep V0 main_arg11 (by decide)).trans (val2_main_arg11 V0)
theorem val3_main_arg12 (V0 : Valuation τ sig (Elt Ideal)) : val3 V0 (no_index (Proc.devRef .tc main_arg12)) = V0 (Proc.devRef .tc main_arg12) :=
  (val3_keep V0 main_arg12 (by decide)).trans (val2_main_arg12 V0)
theorem val3_main_arg13 (V0 : Valuation τ sig (Elt Ideal)) : val3 V0 (no_index (Proc.devRef .tc main_arg13)) = V0 (Proc.devRef .tc main_arg13) :=
  (val3_keep V0 main_arg13 (by decide)).trans (val2_main_arg13 V0)
theorem val3_main_arg14 (V0 : Valuation τ sig (Elt Ideal)) : val3 V0 (no_index (Proc.devRef .tc main_arg14)) = V0 (Proc.devRef .tc main_arg14) :=
  (val3_keep V0 main_arg14 (by decide)).trans (val2_main_arg14 V0)
theorem val3_main_arg15 (V0 : Valuation τ sig (Elt Ideal)) : val3 V0 (no_index (Proc.devRef .tc main_arg15)) = V0 (Proc.devRef .tc main_arg15) :=
  (val3_keep V0 main_arg15 (by decide)).trans (val2_main_arg15 V0)
theorem val3_main_arg16 (V0 : Valuation τ sig (Elt Ideal)) : val3 V0 (no_index (Proc.devRef .tc main_arg16)) = V0 (Proc.devRef .tc main_arg16) :=
  (val3_keep V0 main_arg16 (by decide)).trans (val2_main_arg16 V0)
theorem val3_main_arg17 (V0 : Valuation τ sig (Elt Ideal)) : val3 V0 (no_index (Proc.devRef .tc main_arg17)) = V0 (Proc.devRef .tc main_arg17) :=
  (val3_keep V0 main_arg17 (by decide)).trans (val2_main_arg17 V0)
theorem val3_main_arg18 (V0 : Valuation τ sig (Elt Ideal)) : val3 V0 (no_index (Proc.devRef .tc main_arg18)) = V0 (Proc.devRef .tc main_arg18) :=
  (val3_keep V0 main_arg18 (by decide)).trans (val2_main_arg18 V0)
theorem val3_main_arg19 (V0 : Valuation τ sig (Elt Ideal)) : val3 V0 (no_index (Proc.devRef .tc main_arg19)) = V0 (Proc.devRef .tc main_arg19) :=
  (val3_keep V0 main_arg19 (by decide)).trans (val2_main_arg19 V0)
theorem val3_main_arg20 (V0 : Valuation τ sig (Elt Ideal)) : val3 V0 (no_index (Proc.devRef .tc main_arg20)) = V0 (Proc.devRef .tc main_arg20) :=
  (val3_keep V0 main_arg20 (by decide)).trans (val2_main_arg20 V0)
theorem val3_main_v1 (V0 : Valuation τ sig (Elt Ideal)) : val3 V0 (no_index (Proc.devRef .tc main_v1)) = srcH (V0 (Proc.devRef .tc main_arg1)) :=
  (val3_keep V0 main_v1 (by decide)).trans (val2_main_v1 V0)
theorem val3_main_v3 (V0 : Valuation τ sig (Elt Ideal)) : val3 V0 (no_index (Proc.devRef .tc main_v3)) = dstH (V0 (Proc.devRef .tc main_arg1)) :=
  (val3_keep V0 main_v3 (by decide)).trans (val2_main_v3 V0)
theorem val3_main_v26 (V0 : Valuation τ sig (Elt Ideal)) : val3 V0 (no_index (Proc.devRef .tc main_v26)) = encodeH (V0 (Proc.devRef .tc main_arg0)) (V0 (Proc.devRef .tc main_arg3)) (V0 (Proc.devRef .tc main_arg4)) (V0 (Proc.devRef .tc main_arg5)) (V0 (Proc.devRef .tc main_arg6)) :=
  (val3_keep V0 main_v26 (by decide)).trans (val2_main_v26 V0)
set_option maxRecDepth 8192 in
set_option maxHeartbeats 4000000 in
theorem val3_main_v38 (V0 : Valuation τ sig (Elt Ideal)) : val3 V0 (no_index (Proc.devRef .tc main_v38)) = invCntOfH (dstH (V0 (Proc.devRef .tc main_arg1))) := by
  simp only [val3, seg2]
  host_line_results
  simp only [val2_main_v3]
  rfl

/-- The contents after the first 4 segments. -/
def val4 (V0 : Valuation τ sig (Elt Ideal)) : Valuation τ sig (Elt Ideal) := after seg3 (val3 V0)
theorem val4_keep (V0 : Valuation τ sig (Elt Ideal)) (r : Ref sig .tc) (h : r ∉ seg3_W) :
    val4 V0 (Proc.devRef .tc r) = val3 V0 (Proc.devRef .tc r) :=
  after_of_writes_sub seg3 _ seg3_writes h
theorem val4_main_arg0 (V0 : Valuation τ sig (Elt Ideal)) : val4 V0 (no_index (Proc.devRef .tc main_arg0)) = V0 (Proc.devRef .tc main_arg0) :=
  (val4_keep V0 main_arg0 (by decide)).trans (val3_main_arg0 V0)
theorem val4_main_arg1 (V0 : Valuation τ sig (Elt Ideal)) : val4 V0 (no_index (Proc.devRef .tc main_arg1)) = V0 (Proc.devRef .tc main_arg1) :=
  (val4_keep V0 main_arg1 (by decide)).trans (val3_main_arg1 V0)
theorem val4_main_arg2 (V0 : Valuation τ sig (Elt Ideal)) : val4 V0 (no_index (Proc.devRef .tc main_arg2)) = V0 (Proc.devRef .tc main_arg2) :=
  (val4_keep V0 main_arg2 (by decide)).trans (val3_main_arg2 V0)
theorem val4_main_arg3 (V0 : Valuation τ sig (Elt Ideal)) : val4 V0 (no_index (Proc.devRef .tc main_arg3)) = V0 (Proc.devRef .tc main_arg3) :=
  (val4_keep V0 main_arg3 (by decide)).trans (val3_main_arg3 V0)
theorem val4_main_arg4 (V0 : Valuation τ sig (Elt Ideal)) : val4 V0 (no_index (Proc.devRef .tc main_arg4)) = V0 (Proc.devRef .tc main_arg4) :=
  (val4_keep V0 main_arg4 (by decide)).trans (val3_main_arg4 V0)
theorem val4_main_arg5 (V0 : Valuation τ sig (Elt Ideal)) : val4 V0 (no_index (Proc.devRef .tc main_arg5)) = V0 (Proc.devRef .tc main_arg5) :=
  (val4_keep V0 main_arg5 (by decide)).trans (val3_main_arg5 V0)
theorem val4_main_arg6 (V0 : Valuation τ sig (Elt Ideal)) : val4 V0 (no_index (Proc.devRef .tc main_arg6)) = V0 (Proc.devRef .tc main_arg6) :=
  (val4_keep V0 main_arg6 (by decide)).trans (val3_main_arg6 V0)
theorem val4_main_arg7 (V0 : Valuation τ sig (Elt Ideal)) : val4 V0 (no_index (Proc.devRef .tc main_arg7)) = V0 (Proc.devRef .tc main_arg7) :=
  (val4_keep V0 main_arg7 (by decide)).trans (val3_main_arg7 V0)
theorem val4_main_arg8 (V0 : Valuation τ sig (Elt Ideal)) : val4 V0 (no_index (Proc.devRef .tc main_arg8)) = V0 (Proc.devRef .tc main_arg8) :=
  (val4_keep V0 main_arg8 (by decide)).trans (val3_main_arg8 V0)
theorem val4_main_arg9 (V0 : Valuation τ sig (Elt Ideal)) : val4 V0 (no_index (Proc.devRef .tc main_arg9)) = V0 (Proc.devRef .tc main_arg9) :=
  (val4_keep V0 main_arg9 (by decide)).trans (val3_main_arg9 V0)
theorem val4_main_arg10 (V0 : Valuation τ sig (Elt Ideal)) : val4 V0 (no_index (Proc.devRef .tc main_arg10)) = V0 (Proc.devRef .tc main_arg10) :=
  (val4_keep V0 main_arg10 (by decide)).trans (val3_main_arg10 V0)
theorem val4_main_arg11 (V0 : Valuation τ sig (Elt Ideal)) : val4 V0 (no_index (Proc.devRef .tc main_arg11)) = V0 (Proc.devRef .tc main_arg11) :=
  (val4_keep V0 main_arg11 (by decide)).trans (val3_main_arg11 V0)
theorem val4_main_arg12 (V0 : Valuation τ sig (Elt Ideal)) : val4 V0 (no_index (Proc.devRef .tc main_arg12)) = V0 (Proc.devRef .tc main_arg12) :=
  (val4_keep V0 main_arg12 (by decide)).trans (val3_main_arg12 V0)
theorem val4_main_arg13 (V0 : Valuation τ sig (Elt Ideal)) : val4 V0 (no_index (Proc.devRef .tc main_arg13)) = V0 (Proc.devRef .tc main_arg13) :=
  (val4_keep V0 main_arg13 (by decide)).trans (val3_main_arg13 V0)
theorem val4_main_arg14 (V0 : Valuation τ sig (Elt Ideal)) : val4 V0 (no_index (Proc.devRef .tc main_arg14)) = V0 (Proc.devRef .tc main_arg14) :=
  (val4_keep V0 main_arg14 (by decide)).trans (val3_main_arg14 V0)
theorem val4_main_arg15 (V0 : Valuation τ sig (Elt Ideal)) : val4 V0 (no_index (Proc.devRef .tc main_arg15)) = V0 (Proc.devRef .tc main_arg15) :=
  (val4_keep V0 main_arg15 (by decide)).trans (val3_main_arg15 V0)
theorem val4_main_arg16 (V0 : Valuation τ sig (Elt Ideal)) : val4 V0 (no_index (Proc.devRef .tc main_arg16)) = V0 (Proc.devRef .tc main_arg16) :=
  (val4_keep V0 main_arg16 (by decide)).trans (val3_main_arg16 V0)
theorem val4_main_arg17 (V0 : Valuation τ sig (Elt Ideal)) : val4 V0 (no_index (Proc.devRef .tc main_arg17)) = V0 (Proc.devRef .tc main_arg17) :=
  (val4_keep V0 main_arg17 (by decide)).trans (val3_main_arg17 V0)
theorem val4_main_arg18 (V0 : Valuation τ sig (Elt Ideal)) : val4 V0 (no_index (Proc.devRef .tc main_arg18)) = V0 (Proc.devRef .tc main_arg18) :=
  (val4_keep V0 main_arg18 (by decide)).trans (val3_main_arg18 V0)
theorem val4_main_arg19 (V0 : Valuation τ sig (Elt Ideal)) : val4 V0 (no_index (Proc.devRef .tc main_arg19)) = V0 (Proc.devRef .tc main_arg19) :=
  (val4_keep V0 main_arg19 (by decide)).trans (val3_main_arg19 V0)
theorem val4_main_arg20 (V0 : Valuation τ sig (Elt Ideal)) : val4 V0 (no_index (Proc.devRef .tc main_arg20)) = V0 (Proc.devRef .tc main_arg20) :=
  (val4_keep V0 main_arg20 (by decide)).trans (val3_main_arg20 V0)
theorem val4_main_v1 (V0 : Valuation τ sig (Elt Ideal)) : val4 V0 (no_index (Proc.devRef .tc main_v1)) = srcH (V0 (Proc.devRef .tc main_arg1)) :=
  (val4_keep V0 main_v1 (by decide)).trans (val3_main_v1 V0)
theorem val4_main_v3 (V0 : Valuation τ sig (Elt Ideal)) : val4 V0 (no_index (Proc.devRef .tc main_v3)) = dstH (V0 (Proc.devRef .tc main_arg1)) :=
  (val4_keep V0 main_v3 (by decide)).trans (val3_main_v3 V0)
theorem val4_main_v26 (V0 : Valuation τ sig (Elt Ideal)) : val4 V0 (no_index (Proc.devRef .tc main_v26)) = encodeH (V0 (Proc.devRef .tc main_arg0)) (V0 (Proc.devRef .tc main_arg3)) (V0 (Proc.devRef .tc main_arg4)) (V0 (Proc.devRef .tc main_arg5)) (V0 (Proc.devRef .tc main_arg6)) :=
  (val4_keep V0 main_v26 (by decide)).trans (val3_main_v26 V0)
theorem val4_main_v38 (V0 : Valuation τ sig (Elt Ideal)) : val4 V0 (no_index (Proc.devRef .tc main_v38)) = invCntOfH (dstH (V0 (Proc.devRef .tc main_arg1))) :=
  (val4_keep V0 main_v38 (by decide)).trans (val3_main_v38 V0)
set_option maxRecDepth 8192 in
set_option maxHeartbeats 4000000 in
theorem val4_main_v46 (V0 : Valuation τ sig (Elt Ideal)) : val4 V0 (no_index (Proc.devRef .tc main_v46)) = gatherCatOfH (encodeH (V0 (Proc.devRef .tc main_arg0)) (V0 (Proc.devRef .tc main_arg3)) (V0 (Proc.devRef .tc main_arg4)) (V0 (Proc.devRef .tc main_arg5)) (V0 (Proc.devRef .tc main_arg6))) (srcH (V0 (Proc.devRef .tc main_arg1))) (V0 (Proc.devRef .tc main_arg2)) := by
  simp only [val4, seg3]
  host_line_results
  simp only [val3_main_arg2, val3_main_v1, val3_main_v26]
  rfl

/-- The contents after the first 5 segments. -/
def val5 (V0 : Valuation τ sig (Elt Ideal)) : Valuation τ sig (Elt Ideal) := after seg4 (val4 V0)
theorem val5_keep (V0 : Valuation τ sig (Elt Ideal)) (r : Ref sig .tc) (h : r ∉ seg4_W) :
    val5 V0 (Proc.devRef .tc r) = val4 V0 (Proc.devRef .tc r) :=
  after_of_writes_sub seg4 _ seg4_writes h
theorem val5_main_arg0 (V0 : Valuation τ sig (Elt Ideal)) : val5 V0 (no_index (Proc.devRef .tc main_arg0)) = V0 (Proc.devRef .tc main_arg0) :=
  (val5_keep V0 main_arg0 (by decide)).trans (val4_main_arg0 V0)
theorem val5_main_arg1 (V0 : Valuation τ sig (Elt Ideal)) : val5 V0 (no_index (Proc.devRef .tc main_arg1)) = V0 (Proc.devRef .tc main_arg1) :=
  (val5_keep V0 main_arg1 (by decide)).trans (val4_main_arg1 V0)
theorem val5_main_arg2 (V0 : Valuation τ sig (Elt Ideal)) : val5 V0 (no_index (Proc.devRef .tc main_arg2)) = V0 (Proc.devRef .tc main_arg2) :=
  (val5_keep V0 main_arg2 (by decide)).trans (val4_main_arg2 V0)
theorem val5_main_arg3 (V0 : Valuation τ sig (Elt Ideal)) : val5 V0 (no_index (Proc.devRef .tc main_arg3)) = V0 (Proc.devRef .tc main_arg3) :=
  (val5_keep V0 main_arg3 (by decide)).trans (val4_main_arg3 V0)
theorem val5_main_arg4 (V0 : Valuation τ sig (Elt Ideal)) : val5 V0 (no_index (Proc.devRef .tc main_arg4)) = V0 (Proc.devRef .tc main_arg4) :=
  (val5_keep V0 main_arg4 (by decide)).trans (val4_main_arg4 V0)
theorem val5_main_arg5 (V0 : Valuation τ sig (Elt Ideal)) : val5 V0 (no_index (Proc.devRef .tc main_arg5)) = V0 (Proc.devRef .tc main_arg5) :=
  (val5_keep V0 main_arg5 (by decide)).trans (val4_main_arg5 V0)
theorem val5_main_arg6 (V0 : Valuation τ sig (Elt Ideal)) : val5 V0 (no_index (Proc.devRef .tc main_arg6)) = V0 (Proc.devRef .tc main_arg6) :=
  (val5_keep V0 main_arg6 (by decide)).trans (val4_main_arg6 V0)
theorem val5_main_arg7 (V0 : Valuation τ sig (Elt Ideal)) : val5 V0 (no_index (Proc.devRef .tc main_arg7)) = V0 (Proc.devRef .tc main_arg7) :=
  (val5_keep V0 main_arg7 (by decide)).trans (val4_main_arg7 V0)
theorem val5_main_arg8 (V0 : Valuation τ sig (Elt Ideal)) : val5 V0 (no_index (Proc.devRef .tc main_arg8)) = V0 (Proc.devRef .tc main_arg8) :=
  (val5_keep V0 main_arg8 (by decide)).trans (val4_main_arg8 V0)
theorem val5_main_arg9 (V0 : Valuation τ sig (Elt Ideal)) : val5 V0 (no_index (Proc.devRef .tc main_arg9)) = V0 (Proc.devRef .tc main_arg9) :=
  (val5_keep V0 main_arg9 (by decide)).trans (val4_main_arg9 V0)
theorem val5_main_arg10 (V0 : Valuation τ sig (Elt Ideal)) : val5 V0 (no_index (Proc.devRef .tc main_arg10)) = V0 (Proc.devRef .tc main_arg10) :=
  (val5_keep V0 main_arg10 (by decide)).trans (val4_main_arg10 V0)
theorem val5_main_arg11 (V0 : Valuation τ sig (Elt Ideal)) : val5 V0 (no_index (Proc.devRef .tc main_arg11)) = V0 (Proc.devRef .tc main_arg11) :=
  (val5_keep V0 main_arg11 (by decide)).trans (val4_main_arg11 V0)
theorem val5_main_arg12 (V0 : Valuation τ sig (Elt Ideal)) : val5 V0 (no_index (Proc.devRef .tc main_arg12)) = V0 (Proc.devRef .tc main_arg12) :=
  (val5_keep V0 main_arg12 (by decide)).trans (val4_main_arg12 V0)
theorem val5_main_arg13 (V0 : Valuation τ sig (Elt Ideal)) : val5 V0 (no_index (Proc.devRef .tc main_arg13)) = V0 (Proc.devRef .tc main_arg13) :=
  (val5_keep V0 main_arg13 (by decide)).trans (val4_main_arg13 V0)
theorem val5_main_arg14 (V0 : Valuation τ sig (Elt Ideal)) : val5 V0 (no_index (Proc.devRef .tc main_arg14)) = V0 (Proc.devRef .tc main_arg14) :=
  (val5_keep V0 main_arg14 (by decide)).trans (val4_main_arg14 V0)
theorem val5_main_arg15 (V0 : Valuation τ sig (Elt Ideal)) : val5 V0 (no_index (Proc.devRef .tc main_arg15)) = V0 (Proc.devRef .tc main_arg15) :=
  (val5_keep V0 main_arg15 (by decide)).trans (val4_main_arg15 V0)
theorem val5_main_arg16 (V0 : Valuation τ sig (Elt Ideal)) : val5 V0 (no_index (Proc.devRef .tc main_arg16)) = V0 (Proc.devRef .tc main_arg16) :=
  (val5_keep V0 main_arg16 (by decide)).trans (val4_main_arg16 V0)
theorem val5_main_arg17 (V0 : Valuation τ sig (Elt Ideal)) : val5 V0 (no_index (Proc.devRef .tc main_arg17)) = V0 (Proc.devRef .tc main_arg17) :=
  (val5_keep V0 main_arg17 (by decide)).trans (val4_main_arg17 V0)
theorem val5_main_arg18 (V0 : Valuation τ sig (Elt Ideal)) : val5 V0 (no_index (Proc.devRef .tc main_arg18)) = V0 (Proc.devRef .tc main_arg18) :=
  (val5_keep V0 main_arg18 (by decide)).trans (val4_main_arg18 V0)
theorem val5_main_arg19 (V0 : Valuation τ sig (Elt Ideal)) : val5 V0 (no_index (Proc.devRef .tc main_arg19)) = V0 (Proc.devRef .tc main_arg19) :=
  (val5_keep V0 main_arg19 (by decide)).trans (val4_main_arg19 V0)
theorem val5_main_arg20 (V0 : Valuation τ sig (Elt Ideal)) : val5 V0 (no_index (Proc.devRef .tc main_arg20)) = V0 (Proc.devRef .tc main_arg20) :=
  (val5_keep V0 main_arg20 (by decide)).trans (val4_main_arg20 V0)
theorem val5_main_v1 (V0 : Valuation τ sig (Elt Ideal)) : val5 V0 (no_index (Proc.devRef .tc main_v1)) = srcH (V0 (Proc.devRef .tc main_arg1)) :=
  (val5_keep V0 main_v1 (by decide)).trans (val4_main_v1 V0)
theorem val5_main_v3 (V0 : Valuation τ sig (Elt Ideal)) : val5 V0 (no_index (Proc.devRef .tc main_v3)) = dstH (V0 (Proc.devRef .tc main_arg1)) :=
  (val5_keep V0 main_v3 (by decide)).trans (val4_main_v3 V0)
theorem val5_main_v26 (V0 : Valuation τ sig (Elt Ideal)) : val5 V0 (no_index (Proc.devRef .tc main_v26)) = encodeH (V0 (Proc.devRef .tc main_arg0)) (V0 (Proc.devRef .tc main_arg3)) (V0 (Proc.devRef .tc main_arg4)) (V0 (Proc.devRef .tc main_arg5)) (V0 (Proc.devRef .tc main_arg6)) :=
  (val5_keep V0 main_v26 (by decide)).trans (val4_main_v26 V0)
theorem val5_main_v38 (V0 : Valuation τ sig (Elt Ideal)) : val5 V0 (no_index (Proc.devRef .tc main_v38)) = invCntOfH (dstH (V0 (Proc.devRef .tc main_arg1))) :=
  (val5_keep V0 main_v38 (by decide)).trans (val4_main_v38 V0)

/-- The contents after the first 6 segments. -/
def val6 (V0 : Valuation τ sig (Elt Ideal)) : Valuation τ sig (Elt Ideal) := after seg5 (val5 V0)
theorem val6_keep (V0 : Valuation τ sig (Elt Ideal)) (r : Ref sig .tc) (h : r ∉ seg5_W) :
    val6 V0 (Proc.devRef .tc r) = val5 V0 (Proc.devRef .tc r) :=
  after_of_writes_sub seg5 _ seg5_writes h
theorem val6_main_arg0 (V0 : Valuation τ sig (Elt Ideal)) : val6 V0 (no_index (Proc.devRef .tc main_arg0)) = V0 (Proc.devRef .tc main_arg0) :=
  (val6_keep V0 main_arg0 (by decide)).trans (val5_main_arg0 V0)
theorem val6_main_arg1 (V0 : Valuation τ sig (Elt Ideal)) : val6 V0 (no_index (Proc.devRef .tc main_arg1)) = V0 (Proc.devRef .tc main_arg1) :=
  (val6_keep V0 main_arg1 (by decide)).trans (val5_main_arg1 V0)
theorem val6_main_arg2 (V0 : Valuation τ sig (Elt Ideal)) : val6 V0 (no_index (Proc.devRef .tc main_arg2)) = V0 (Proc.devRef .tc main_arg2) :=
  (val6_keep V0 main_arg2 (by decide)).trans (val5_main_arg2 V0)
theorem val6_main_arg3 (V0 : Valuation τ sig (Elt Ideal)) : val6 V0 (no_index (Proc.devRef .tc main_arg3)) = V0 (Proc.devRef .tc main_arg3) :=
  (val6_keep V0 main_arg3 (by decide)).trans (val5_main_arg3 V0)
theorem val6_main_arg4 (V0 : Valuation τ sig (Elt Ideal)) : val6 V0 (no_index (Proc.devRef .tc main_arg4)) = V0 (Proc.devRef .tc main_arg4) :=
  (val6_keep V0 main_arg4 (by decide)).trans (val5_main_arg4 V0)
theorem val6_main_arg5 (V0 : Valuation τ sig (Elt Ideal)) : val6 V0 (no_index (Proc.devRef .tc main_arg5)) = V0 (Proc.devRef .tc main_arg5) :=
  (val6_keep V0 main_arg5 (by decide)).trans (val5_main_arg5 V0)
theorem val6_main_arg6 (V0 : Valuation τ sig (Elt Ideal)) : val6 V0 (no_index (Proc.devRef .tc main_arg6)) = V0 (Proc.devRef .tc main_arg6) :=
  (val6_keep V0 main_arg6 (by decide)).trans (val5_main_arg6 V0)
theorem val6_main_arg7 (V0 : Valuation τ sig (Elt Ideal)) : val6 V0 (no_index (Proc.devRef .tc main_arg7)) = V0 (Proc.devRef .tc main_arg7) :=
  (val6_keep V0 main_arg7 (by decide)).trans (val5_main_arg7 V0)
theorem val6_main_arg8 (V0 : Valuation τ sig (Elt Ideal)) : val6 V0 (no_index (Proc.devRef .tc main_arg8)) = V0 (Proc.devRef .tc main_arg8) :=
  (val6_keep V0 main_arg8 (by decide)).trans (val5_main_arg8 V0)
theorem val6_main_arg9 (V0 : Valuation τ sig (Elt Ideal)) : val6 V0 (no_index (Proc.devRef .tc main_arg9)) = V0 (Proc.devRef .tc main_arg9) :=
  (val6_keep V0 main_arg9 (by decide)).trans (val5_main_arg9 V0)
theorem val6_main_arg10 (V0 : Valuation τ sig (Elt Ideal)) : val6 V0 (no_index (Proc.devRef .tc main_arg10)) = V0 (Proc.devRef .tc main_arg10) :=
  (val6_keep V0 main_arg10 (by decide)).trans (val5_main_arg10 V0)
theorem val6_main_arg11 (V0 : Valuation τ sig (Elt Ideal)) : val6 V0 (no_index (Proc.devRef .tc main_arg11)) = V0 (Proc.devRef .tc main_arg11) :=
  (val6_keep V0 main_arg11 (by decide)).trans (val5_main_arg11 V0)
theorem val6_main_arg12 (V0 : Valuation τ sig (Elt Ideal)) : val6 V0 (no_index (Proc.devRef .tc main_arg12)) = V0 (Proc.devRef .tc main_arg12) :=
  (val6_keep V0 main_arg12 (by decide)).trans (val5_main_arg12 V0)
theorem val6_main_arg13 (V0 : Valuation τ sig (Elt Ideal)) : val6 V0 (no_index (Proc.devRef .tc main_arg13)) = V0 (Proc.devRef .tc main_arg13) :=
  (val6_keep V0 main_arg13 (by decide)).trans (val5_main_arg13 V0)
theorem val6_main_arg14 (V0 : Valuation τ sig (Elt Ideal)) : val6 V0 (no_index (Proc.devRef .tc main_arg14)) = V0 (Proc.devRef .tc main_arg14) :=
  (val6_keep V0 main_arg14 (by decide)).trans (val5_main_arg14 V0)
theorem val6_main_arg15 (V0 : Valuation τ sig (Elt Ideal)) : val6 V0 (no_index (Proc.devRef .tc main_arg15)) = V0 (Proc.devRef .tc main_arg15) :=
  (val6_keep V0 main_arg15 (by decide)).trans (val5_main_arg15 V0)
theorem val6_main_arg16 (V0 : Valuation τ sig (Elt Ideal)) : val6 V0 (no_index (Proc.devRef .tc main_arg16)) = V0 (Proc.devRef .tc main_arg16) :=
  (val6_keep V0 main_arg16 (by decide)).trans (val5_main_arg16 V0)
theorem val6_main_arg17 (V0 : Valuation τ sig (Elt Ideal)) : val6 V0 (no_index (Proc.devRef .tc main_arg17)) = V0 (Proc.devRef .tc main_arg17) :=
  (val6_keep V0 main_arg17 (by decide)).trans (val5_main_arg17 V0)
theorem val6_main_arg18 (V0 : Valuation τ sig (Elt Ideal)) : val6 V0 (no_index (Proc.devRef .tc main_arg18)) = V0 (Proc.devRef .tc main_arg18) :=
  (val6_keep V0 main_arg18 (by decide)).trans (val5_main_arg18 V0)
theorem val6_main_arg19 (V0 : Valuation τ sig (Elt Ideal)) : val6 V0 (no_index (Proc.devRef .tc main_arg19)) = V0 (Proc.devRef .tc main_arg19) :=
  (val6_keep V0 main_arg19 (by decide)).trans (val5_main_arg19 V0)
theorem val6_main_arg20 (V0 : Valuation τ sig (Elt Ideal)) : val6 V0 (no_index (Proc.devRef .tc main_arg20)) = V0 (Proc.devRef .tc main_arg20) :=
  (val6_keep V0 main_arg20 (by decide)).trans (val5_main_arg20 V0)
theorem val6_main_v1 (V0 : Valuation τ sig (Elt Ideal)) : val6 V0 (no_index (Proc.devRef .tc main_v1)) = srcH (V0 (Proc.devRef .tc main_arg1)) :=
  (val6_keep V0 main_v1 (by decide)).trans (val5_main_v1 V0)
theorem val6_main_v3 (V0 : Valuation τ sig (Elt Ideal)) : val6 V0 (no_index (Proc.devRef .tc main_v3)) = dstH (V0 (Proc.devRef .tc main_arg1)) :=
  (val6_keep V0 main_v3 (by decide)).trans (val5_main_v3 V0)
theorem val6_main_v26 (V0 : Valuation τ sig (Elt Ideal)) : val6 V0 (no_index (Proc.devRef .tc main_v26)) = encodeH (V0 (Proc.devRef .tc main_arg0)) (V0 (Proc.devRef .tc main_arg3)) (V0 (Proc.devRef .tc main_arg4)) (V0 (Proc.devRef .tc main_arg5)) (V0 (Proc.devRef .tc main_arg6)) :=
  (val6_keep V0 main_v26 (by decide)).trans (val5_main_v26 V0)
theorem val6_main_v38 (V0 : Valuation τ sig (Elt Ideal)) : val6 V0 (no_index (Proc.devRef .tc main_v38)) = invCntOfH (dstH (V0 (Proc.devRef .tc main_arg1))) :=
  (val6_keep V0 main_v38 (by decide)).trans (val5_main_v38 V0)
set_option maxRecDepth 8192 in
set_option maxHeartbeats 4000000 in
theorem val6_main_v63 (V0 : Valuation τ sig (Elt Ideal)) : val6 V0 (no_index (Proc.devRef .tc main_v63)) = edgeH (gatherCatOfH (encodeH (V0 (Proc.devRef .tc main_arg0)) (V0 (Proc.devRef .tc main_arg3)) (V0 (Proc.devRef .tc main_arg4)) (V0 (Proc.devRef .tc main_arg5)) (V0 (Proc.devRef .tc main_arg6))) (srcH (V0 (Proc.devRef .tc main_arg1))) (V0 (Proc.devRef .tc main_arg2))) (sliceW1H ![0, 0, 0] slices_S3x67x32_S1x67x32_0_0_0 (V0 (Proc.devRef .tc main_arg7))) (sliceB1H ![0, 0] slices_S3x32_S1x32_0_0 (V0 (Proc.devRef .tc main_arg8))) (sliceW2H ![0, 0, 0] slices_S3x32x64_S1x32x64_0_0_0 (V0 (Proc.devRef .tc main_arg9))) (slice64H ![0, 0] slices_S3x64_S1x64_0_0 (V0 (Proc.devRef .tc main_arg10))) := by
  simp only [val6, val5, seg5, seg4]
  host_line_results
  simp only [val4_main_arg10, val4_main_arg9, val4_main_arg8, val4_main_arg7, val4_main_v46]
  rfl

/-- The contents after the first 7 segments. -/
def val7 (V0 : Valuation τ sig (Elt Ideal)) : Valuation τ sig (Elt Ideal) := after seg6 (val6 V0)
theorem val7_keep (V0 : Valuation τ sig (Elt Ideal)) (r : Ref sig .tc) (h : r ∉ seg6_W) :
    val7 V0 (Proc.devRef .tc r) = val6 V0 (Proc.devRef .tc r) :=
  after_of_writes_sub seg6 _ seg6_writes h
theorem val7_main_arg0 (V0 : Valuation τ sig (Elt Ideal)) : val7 V0 (no_index (Proc.devRef .tc main_arg0)) = V0 (Proc.devRef .tc main_arg0) :=
  (val7_keep V0 main_arg0 (by decide)).trans (val6_main_arg0 V0)
theorem val7_main_arg1 (V0 : Valuation τ sig (Elt Ideal)) : val7 V0 (no_index (Proc.devRef .tc main_arg1)) = V0 (Proc.devRef .tc main_arg1) :=
  (val7_keep V0 main_arg1 (by decide)).trans (val6_main_arg1 V0)
theorem val7_main_arg2 (V0 : Valuation τ sig (Elt Ideal)) : val7 V0 (no_index (Proc.devRef .tc main_arg2)) = V0 (Proc.devRef .tc main_arg2) :=
  (val7_keep V0 main_arg2 (by decide)).trans (val6_main_arg2 V0)
theorem val7_main_arg3 (V0 : Valuation τ sig (Elt Ideal)) : val7 V0 (no_index (Proc.devRef .tc main_arg3)) = V0 (Proc.devRef .tc main_arg3) :=
  (val7_keep V0 main_arg3 (by decide)).trans (val6_main_arg3 V0)
theorem val7_main_arg4 (V0 : Valuation τ sig (Elt Ideal)) : val7 V0 (no_index (Proc.devRef .tc main_arg4)) = V0 (Proc.devRef .tc main_arg4) :=
  (val7_keep V0 main_arg4 (by decide)).trans (val6_main_arg4 V0)
theorem val7_main_arg5 (V0 : Valuation τ sig (Elt Ideal)) : val7 V0 (no_index (Proc.devRef .tc main_arg5)) = V0 (Proc.devRef .tc main_arg5) :=
  (val7_keep V0 main_arg5 (by decide)).trans (val6_main_arg5 V0)
theorem val7_main_arg6 (V0 : Valuation τ sig (Elt Ideal)) : val7 V0 (no_index (Proc.devRef .tc main_arg6)) = V0 (Proc.devRef .tc main_arg6) :=
  (val7_keep V0 main_arg6 (by decide)).trans (val6_main_arg6 V0)
theorem val7_main_arg7 (V0 : Valuation τ sig (Elt Ideal)) : val7 V0 (no_index (Proc.devRef .tc main_arg7)) = V0 (Proc.devRef .tc main_arg7) :=
  (val7_keep V0 main_arg7 (by decide)).trans (val6_main_arg7 V0)
theorem val7_main_arg8 (V0 : Valuation τ sig (Elt Ideal)) : val7 V0 (no_index (Proc.devRef .tc main_arg8)) = V0 (Proc.devRef .tc main_arg8) :=
  (val7_keep V0 main_arg8 (by decide)).trans (val6_main_arg8 V0)
theorem val7_main_arg9 (V0 : Valuation τ sig (Elt Ideal)) : val7 V0 (no_index (Proc.devRef .tc main_arg9)) = V0 (Proc.devRef .tc main_arg9) :=
  (val7_keep V0 main_arg9 (by decide)).trans (val6_main_arg9 V0)
theorem val7_main_arg10 (V0 : Valuation τ sig (Elt Ideal)) : val7 V0 (no_index (Proc.devRef .tc main_arg10)) = V0 (Proc.devRef .tc main_arg10) :=
  (val7_keep V0 main_arg10 (by decide)).trans (val6_main_arg10 V0)
theorem val7_main_arg11 (V0 : Valuation τ sig (Elt Ideal)) : val7 V0 (no_index (Proc.devRef .tc main_arg11)) = V0 (Proc.devRef .tc main_arg11) :=
  (val7_keep V0 main_arg11 (by decide)).trans (val6_main_arg11 V0)
theorem val7_main_arg12 (V0 : Valuation τ sig (Elt Ideal)) : val7 V0 (no_index (Proc.devRef .tc main_arg12)) = V0 (Proc.devRef .tc main_arg12) :=
  (val7_keep V0 main_arg12 (by decide)).trans (val6_main_arg12 V0)
theorem val7_main_arg13 (V0 : Valuation τ sig (Elt Ideal)) : val7 V0 (no_index (Proc.devRef .tc main_arg13)) = V0 (Proc.devRef .tc main_arg13) :=
  (val7_keep V0 main_arg13 (by decide)).trans (val6_main_arg13 V0)
theorem val7_main_arg14 (V0 : Valuation τ sig (Elt Ideal)) : val7 V0 (no_index (Proc.devRef .tc main_arg14)) = V0 (Proc.devRef .tc main_arg14) :=
  (val7_keep V0 main_arg14 (by decide)).trans (val6_main_arg14 V0)
theorem val7_main_arg15 (V0 : Valuation τ sig (Elt Ideal)) : val7 V0 (no_index (Proc.devRef .tc main_arg15)) = V0 (Proc.devRef .tc main_arg15) :=
  (val7_keep V0 main_arg15 (by decide)).trans (val6_main_arg15 V0)
theorem val7_main_arg16 (V0 : Valuation τ sig (Elt Ideal)) : val7 V0 (no_index (Proc.devRef .tc main_arg16)) = V0 (Proc.devRef .tc main_arg16) :=
  (val7_keep V0 main_arg16 (by decide)).trans (val6_main_arg16 V0)
theorem val7_main_arg17 (V0 : Valuation τ sig (Elt Ideal)) : val7 V0 (no_index (Proc.devRef .tc main_arg17)) = V0 (Proc.devRef .tc main_arg17) :=
  (val7_keep V0 main_arg17 (by decide)).trans (val6_main_arg17 V0)
theorem val7_main_arg18 (V0 : Valuation τ sig (Elt Ideal)) : val7 V0 (no_index (Proc.devRef .tc main_arg18)) = V0 (Proc.devRef .tc main_arg18) :=
  (val7_keep V0 main_arg18 (by decide)).trans (val6_main_arg18 V0)
theorem val7_main_arg19 (V0 : Valuation τ sig (Elt Ideal)) : val7 V0 (no_index (Proc.devRef .tc main_arg19)) = V0 (Proc.devRef .tc main_arg19) :=
  (val7_keep V0 main_arg19 (by decide)).trans (val6_main_arg19 V0)
theorem val7_main_arg20 (V0 : Valuation τ sig (Elt Ideal)) : val7 V0 (no_index (Proc.devRef .tc main_arg20)) = V0 (Proc.devRef .tc main_arg20) :=
  (val7_keep V0 main_arg20 (by decide)).trans (val6_main_arg20 V0)
theorem val7_main_v1 (V0 : Valuation τ sig (Elt Ideal)) : val7 V0 (no_index (Proc.devRef .tc main_v1)) = srcH (V0 (Proc.devRef .tc main_arg1)) :=
  (val7_keep V0 main_v1 (by decide)).trans (val6_main_v1 V0)
theorem val7_main_v3 (V0 : Valuation τ sig (Elt Ideal)) : val7 V0 (no_index (Proc.devRef .tc main_v3)) = dstH (V0 (Proc.devRef .tc main_arg1)) :=
  (val7_keep V0 main_v3 (by decide)).trans (val6_main_v3 V0)
theorem val7_main_v26 (V0 : Valuation τ sig (Elt Ideal)) : val7 V0 (no_index (Proc.devRef .tc main_v26)) = encodeH (V0 (Proc.devRef .tc main_arg0)) (V0 (Proc.devRef .tc main_arg3)) (V0 (Proc.devRef .tc main_arg4)) (V0 (Proc.devRef .tc main_arg5)) (V0 (Proc.devRef .tc main_arg6)) :=
  (val7_keep V0 main_v26 (by decide)).trans (val6_main_v26 V0)
theorem val7_main_v38 (V0 : Valuation τ sig (Elt Ideal)) : val7 V0 (no_index (Proc.devRef .tc main_v38)) = invCntOfH (dstH (V0 (Proc.devRef .tc main_arg1))) :=
  (val7_keep V0 main_v38 (by decide)).trans (val6_main_v38 V0)
set_option maxRecDepth 8192 in
set_option maxHeartbeats 4000000 in
theorem val7_main_v68 (V0 : Valuation τ sig (Elt Ideal)) : val7 V0 (no_index (Proc.devRef .tc main_v68)) = aggOfH (edgeH (gatherCatOfH (encodeH (V0 (Proc.devRef .tc main_arg0)) (V0 (Proc.devRef .tc main_arg3)) (V0 (Proc.devRef .tc main_arg4)) (V0 (Proc.devRef .tc main_arg5)) (V0 (Proc.devRef .tc main_arg6))) (srcH (V0 (Proc.devRef .tc main_arg1))) (V0 (Proc.devRef .tc main_arg2))) (sliceW1H ![0, 0, 0] slices_S3x67x32_S1x67x32_0_0_0 (V0 (Proc.devRef .tc main_arg7))) (sliceB1H ![0, 0] slices_S3x32_S1x32_0_0 (V0 (Proc.devRef .tc main_arg8))) (sliceW2H ![0, 0, 0] slices_S3x32x64_S1x32x64_0_0_0 (V0 (Proc.devRef .tc main_arg9))) (slice64H ![0, 0] slices_S3x64_S1x64_0_0 (V0 (Proc.devRef .tc main_arg10)))) (dstH (V0 (Proc.devRef .tc main_arg1))) (invCntOfH (dstH (V0 (Proc.devRef .tc main_arg1)))) := by
  simp only [val7, seg6]
  host_line_results
  simp only [val6_main_v38, val6_main_v63, val6_main_v3]
  rfl

/-- The contents after the first 8 segments. -/
def val8 (V0 : Valuation τ sig (Elt Ideal)) : Valuation τ sig (Elt Ideal) := after seg7 (val7 V0)
theorem val8_keep (V0 : Valuation τ sig (Elt Ideal)) (r : Ref sig .tc) (h : r ∉ seg7_W) :
    val8 V0 (Proc.devRef .tc r) = val7 V0 (Proc.devRef .tc r) :=
  after_of_writes_sub seg7 _ seg7_writes h
theorem val8_main_arg0 (V0 : Valuation τ sig (Elt Ideal)) : val8 V0 (no_index (Proc.devRef .tc main_arg0)) = V0 (Proc.devRef .tc main_arg0) :=
  (val8_keep V0 main_arg0 (by decide)).trans (val7_main_arg0 V0)
theorem val8_main_arg1 (V0 : Valuation τ sig (Elt Ideal)) : val8 V0 (no_index (Proc.devRef .tc main_arg1)) = V0 (Proc.devRef .tc main_arg1) :=
  (val8_keep V0 main_arg1 (by decide)).trans (val7_main_arg1 V0)
theorem val8_main_arg2 (V0 : Valuation τ sig (Elt Ideal)) : val8 V0 (no_index (Proc.devRef .tc main_arg2)) = V0 (Proc.devRef .tc main_arg2) :=
  (val8_keep V0 main_arg2 (by decide)).trans (val7_main_arg2 V0)
theorem val8_main_arg3 (V0 : Valuation τ sig (Elt Ideal)) : val8 V0 (no_index (Proc.devRef .tc main_arg3)) = V0 (Proc.devRef .tc main_arg3) :=
  (val8_keep V0 main_arg3 (by decide)).trans (val7_main_arg3 V0)
theorem val8_main_arg4 (V0 : Valuation τ sig (Elt Ideal)) : val8 V0 (no_index (Proc.devRef .tc main_arg4)) = V0 (Proc.devRef .tc main_arg4) :=
  (val8_keep V0 main_arg4 (by decide)).trans (val7_main_arg4 V0)
theorem val8_main_arg5 (V0 : Valuation τ sig (Elt Ideal)) : val8 V0 (no_index (Proc.devRef .tc main_arg5)) = V0 (Proc.devRef .tc main_arg5) :=
  (val8_keep V0 main_arg5 (by decide)).trans (val7_main_arg5 V0)
theorem val8_main_arg6 (V0 : Valuation τ sig (Elt Ideal)) : val8 V0 (no_index (Proc.devRef .tc main_arg6)) = V0 (Proc.devRef .tc main_arg6) :=
  (val8_keep V0 main_arg6 (by decide)).trans (val7_main_arg6 V0)
theorem val8_main_arg7 (V0 : Valuation τ sig (Elt Ideal)) : val8 V0 (no_index (Proc.devRef .tc main_arg7)) = V0 (Proc.devRef .tc main_arg7) :=
  (val8_keep V0 main_arg7 (by decide)).trans (val7_main_arg7 V0)
theorem val8_main_arg8 (V0 : Valuation τ sig (Elt Ideal)) : val8 V0 (no_index (Proc.devRef .tc main_arg8)) = V0 (Proc.devRef .tc main_arg8) :=
  (val8_keep V0 main_arg8 (by decide)).trans (val7_main_arg8 V0)
theorem val8_main_arg9 (V0 : Valuation τ sig (Elt Ideal)) : val8 V0 (no_index (Proc.devRef .tc main_arg9)) = V0 (Proc.devRef .tc main_arg9) :=
  (val8_keep V0 main_arg9 (by decide)).trans (val7_main_arg9 V0)
theorem val8_main_arg10 (V0 : Valuation τ sig (Elt Ideal)) : val8 V0 (no_index (Proc.devRef .tc main_arg10)) = V0 (Proc.devRef .tc main_arg10) :=
  (val8_keep V0 main_arg10 (by decide)).trans (val7_main_arg10 V0)
theorem val8_main_arg11 (V0 : Valuation τ sig (Elt Ideal)) : val8 V0 (no_index (Proc.devRef .tc main_arg11)) = V0 (Proc.devRef .tc main_arg11) :=
  (val8_keep V0 main_arg11 (by decide)).trans (val7_main_arg11 V0)
theorem val8_main_arg12 (V0 : Valuation τ sig (Elt Ideal)) : val8 V0 (no_index (Proc.devRef .tc main_arg12)) = V0 (Proc.devRef .tc main_arg12) :=
  (val8_keep V0 main_arg12 (by decide)).trans (val7_main_arg12 V0)
theorem val8_main_arg13 (V0 : Valuation τ sig (Elt Ideal)) : val8 V0 (no_index (Proc.devRef .tc main_arg13)) = V0 (Proc.devRef .tc main_arg13) :=
  (val8_keep V0 main_arg13 (by decide)).trans (val7_main_arg13 V0)
theorem val8_main_arg14 (V0 : Valuation τ sig (Elt Ideal)) : val8 V0 (no_index (Proc.devRef .tc main_arg14)) = V0 (Proc.devRef .tc main_arg14) :=
  (val8_keep V0 main_arg14 (by decide)).trans (val7_main_arg14 V0)
theorem val8_main_arg15 (V0 : Valuation τ sig (Elt Ideal)) : val8 V0 (no_index (Proc.devRef .tc main_arg15)) = V0 (Proc.devRef .tc main_arg15) :=
  (val8_keep V0 main_arg15 (by decide)).trans (val7_main_arg15 V0)
theorem val8_main_arg16 (V0 : Valuation τ sig (Elt Ideal)) : val8 V0 (no_index (Proc.devRef .tc main_arg16)) = V0 (Proc.devRef .tc main_arg16) :=
  (val8_keep V0 main_arg16 (by decide)).trans (val7_main_arg16 V0)
theorem val8_main_arg17 (V0 : Valuation τ sig (Elt Ideal)) : val8 V0 (no_index (Proc.devRef .tc main_arg17)) = V0 (Proc.devRef .tc main_arg17) :=
  (val8_keep V0 main_arg17 (by decide)).trans (val7_main_arg17 V0)
theorem val8_main_arg18 (V0 : Valuation τ sig (Elt Ideal)) : val8 V0 (no_index (Proc.devRef .tc main_arg18)) = V0 (Proc.devRef .tc main_arg18) :=
  (val8_keep V0 main_arg18 (by decide)).trans (val7_main_arg18 V0)
theorem val8_main_arg19 (V0 : Valuation τ sig (Elt Ideal)) : val8 V0 (no_index (Proc.devRef .tc main_arg19)) = V0 (Proc.devRef .tc main_arg19) :=
  (val8_keep V0 main_arg19 (by decide)).trans (val7_main_arg19 V0)
theorem val8_main_arg20 (V0 : Valuation τ sig (Elt Ideal)) : val8 V0 (no_index (Proc.devRef .tc main_arg20)) = V0 (Proc.devRef .tc main_arg20) :=
  (val8_keep V0 main_arg20 (by decide)).trans (val7_main_arg20 V0)
theorem val8_main_v1 (V0 : Valuation τ sig (Elt Ideal)) : val8 V0 (no_index (Proc.devRef .tc main_v1)) = srcH (V0 (Proc.devRef .tc main_arg1)) :=
  (val8_keep V0 main_v1 (by decide)).trans (val7_main_v1 V0)
theorem val8_main_v3 (V0 : Valuation τ sig (Elt Ideal)) : val8 V0 (no_index (Proc.devRef .tc main_v3)) = dstH (V0 (Proc.devRef .tc main_arg1)) :=
  (val8_keep V0 main_v3 (by decide)).trans (val7_main_v3 V0)
theorem val8_main_v38 (V0 : Valuation τ sig (Elt Ideal)) : val8 V0 (no_index (Proc.devRef .tc main_v38)) = invCntOfH (dstH (V0 (Proc.devRef .tc main_arg1))) :=
  (val8_keep V0 main_v38 (by decide)).trans (val7_main_v38 V0)
set_option maxRecDepth 8192 in
set_option maxHeartbeats 4000000 in
theorem val8_main_v91 (V0 : Valuation τ sig (Elt Ideal)) : val8 V0 (no_index (Proc.devRef .tc main_v91)) = nodeH (encodeH (V0 (Proc.devRef .tc main_arg0)) (V0 (Proc.devRef .tc main_arg3)) (V0 (Proc.devRef .tc main_arg4)) (V0 (Proc.devRef .tc main_arg5)) (V0 (Proc.devRef .tc main_arg6))) (aggOfH (edgeH (gatherCatOfH (encodeH (V0 (Proc.devRef .tc main_arg0)) (V0 (Proc.devRef .tc main_arg3)) (V0 (Proc.devRef .tc main_arg4)) (V0 (Proc.devRef .tc main_arg5)) (V0 (Proc.devRef .tc main_arg6))) (srcH (V0 (Proc.devRef .tc main_arg1))) (V0 (Proc.devRef .tc main_arg2))) (sliceW1H ![0, 0, 0] slices_S3x67x32_S1x67x32_0_0_0 (V0 (Proc.devRef .tc main_arg7))) (sliceB1H ![0, 0] slices_S3x32_S1x32_0_0 (V0 (Proc.devRef .tc main_arg8))) (sliceW2H ![0, 0, 0] slices_S3x32x64_S1x32x64_0_0_0 (V0 (Proc.devRef .tc main_arg9))) (slice64H ![0, 0] slices_S3x64_S1x64_0_0 (V0 (Proc.devRef .tc main_arg10)))) (dstH (V0 (Proc.devRef .tc main_arg1))) (invCntOfH (dstH (V0 (Proc.devRef .tc main_arg1))))) (slice64H ![0, 0] slices_S3x64_S1x64_0_0 (V0 (Proc.devRef .tc main_arg11))) (slice64H ![0, 0] slices_S3x64_S1x64_0_0 (V0 (Proc.devRef .tc main_arg12))) := by
  simp only [val8, seg7]
  host_line_results
  simp only [val7_main_arg12, val7_main_arg11, val7_main_v68, val7_main_v26]
  rfl

/-- The contents after the first 9 segments. -/
def val9 (V0 : Valuation τ sig (Elt Ideal)) : Valuation τ sig (Elt Ideal) := after seg8 (val8 V0)
theorem val9_keep (V0 : Valuation τ sig (Elt Ideal)) (r : Ref sig .tc) (h : r ∉ seg8_W) :
    val9 V0 (Proc.devRef .tc r) = val8 V0 (Proc.devRef .tc r) :=
  after_of_writes_sub seg8 _ seg8_writes h
theorem val9_main_arg0 (V0 : Valuation τ sig (Elt Ideal)) : val9 V0 (no_index (Proc.devRef .tc main_arg0)) = V0 (Proc.devRef .tc main_arg0) :=
  (val9_keep V0 main_arg0 (by decide)).trans (val8_main_arg0 V0)
theorem val9_main_arg1 (V0 : Valuation τ sig (Elt Ideal)) : val9 V0 (no_index (Proc.devRef .tc main_arg1)) = V0 (Proc.devRef .tc main_arg1) :=
  (val9_keep V0 main_arg1 (by decide)).trans (val8_main_arg1 V0)
theorem val9_main_arg2 (V0 : Valuation τ sig (Elt Ideal)) : val9 V0 (no_index (Proc.devRef .tc main_arg2)) = V0 (Proc.devRef .tc main_arg2) :=
  (val9_keep V0 main_arg2 (by decide)).trans (val8_main_arg2 V0)
theorem val9_main_arg3 (V0 : Valuation τ sig (Elt Ideal)) : val9 V0 (no_index (Proc.devRef .tc main_arg3)) = V0 (Proc.devRef .tc main_arg3) :=
  (val9_keep V0 main_arg3 (by decide)).trans (val8_main_arg3 V0)
theorem val9_main_arg4 (V0 : Valuation τ sig (Elt Ideal)) : val9 V0 (no_index (Proc.devRef .tc main_arg4)) = V0 (Proc.devRef .tc main_arg4) :=
  (val9_keep V0 main_arg4 (by decide)).trans (val8_main_arg4 V0)
theorem val9_main_arg5 (V0 : Valuation τ sig (Elt Ideal)) : val9 V0 (no_index (Proc.devRef .tc main_arg5)) = V0 (Proc.devRef .tc main_arg5) :=
  (val9_keep V0 main_arg5 (by decide)).trans (val8_main_arg5 V0)
theorem val9_main_arg6 (V0 : Valuation τ sig (Elt Ideal)) : val9 V0 (no_index (Proc.devRef .tc main_arg6)) = V0 (Proc.devRef .tc main_arg6) :=
  (val9_keep V0 main_arg6 (by decide)).trans (val8_main_arg6 V0)
theorem val9_main_arg7 (V0 : Valuation τ sig (Elt Ideal)) : val9 V0 (no_index (Proc.devRef .tc main_arg7)) = V0 (Proc.devRef .tc main_arg7) :=
  (val9_keep V0 main_arg7 (by decide)).trans (val8_main_arg7 V0)
theorem val9_main_arg8 (V0 : Valuation τ sig (Elt Ideal)) : val9 V0 (no_index (Proc.devRef .tc main_arg8)) = V0 (Proc.devRef .tc main_arg8) :=
  (val9_keep V0 main_arg8 (by decide)).trans (val8_main_arg8 V0)
theorem val9_main_arg9 (V0 : Valuation τ sig (Elt Ideal)) : val9 V0 (no_index (Proc.devRef .tc main_arg9)) = V0 (Proc.devRef .tc main_arg9) :=
  (val9_keep V0 main_arg9 (by decide)).trans (val8_main_arg9 V0)
theorem val9_main_arg10 (V0 : Valuation τ sig (Elt Ideal)) : val9 V0 (no_index (Proc.devRef .tc main_arg10)) = V0 (Proc.devRef .tc main_arg10) :=
  (val9_keep V0 main_arg10 (by decide)).trans (val8_main_arg10 V0)
theorem val9_main_arg11 (V0 : Valuation τ sig (Elt Ideal)) : val9 V0 (no_index (Proc.devRef .tc main_arg11)) = V0 (Proc.devRef .tc main_arg11) :=
  (val9_keep V0 main_arg11 (by decide)).trans (val8_main_arg11 V0)
theorem val9_main_arg12 (V0 : Valuation τ sig (Elt Ideal)) : val9 V0 (no_index (Proc.devRef .tc main_arg12)) = V0 (Proc.devRef .tc main_arg12) :=
  (val9_keep V0 main_arg12 (by decide)).trans (val8_main_arg12 V0)
theorem val9_main_arg13 (V0 : Valuation τ sig (Elt Ideal)) : val9 V0 (no_index (Proc.devRef .tc main_arg13)) = V0 (Proc.devRef .tc main_arg13) :=
  (val9_keep V0 main_arg13 (by decide)).trans (val8_main_arg13 V0)
theorem val9_main_arg14 (V0 : Valuation τ sig (Elt Ideal)) : val9 V0 (no_index (Proc.devRef .tc main_arg14)) = V0 (Proc.devRef .tc main_arg14) :=
  (val9_keep V0 main_arg14 (by decide)).trans (val8_main_arg14 V0)
theorem val9_main_arg15 (V0 : Valuation τ sig (Elt Ideal)) : val9 V0 (no_index (Proc.devRef .tc main_arg15)) = V0 (Proc.devRef .tc main_arg15) :=
  (val9_keep V0 main_arg15 (by decide)).trans (val8_main_arg15 V0)
theorem val9_main_arg16 (V0 : Valuation τ sig (Elt Ideal)) : val9 V0 (no_index (Proc.devRef .tc main_arg16)) = V0 (Proc.devRef .tc main_arg16) :=
  (val9_keep V0 main_arg16 (by decide)).trans (val8_main_arg16 V0)
theorem val9_main_arg17 (V0 : Valuation τ sig (Elt Ideal)) : val9 V0 (no_index (Proc.devRef .tc main_arg17)) = V0 (Proc.devRef .tc main_arg17) :=
  (val9_keep V0 main_arg17 (by decide)).trans (val8_main_arg17 V0)
theorem val9_main_arg18 (V0 : Valuation τ sig (Elt Ideal)) : val9 V0 (no_index (Proc.devRef .tc main_arg18)) = V0 (Proc.devRef .tc main_arg18) :=
  (val9_keep V0 main_arg18 (by decide)).trans (val8_main_arg18 V0)
theorem val9_main_arg19 (V0 : Valuation τ sig (Elt Ideal)) : val9 V0 (no_index (Proc.devRef .tc main_arg19)) = V0 (Proc.devRef .tc main_arg19) :=
  (val9_keep V0 main_arg19 (by decide)).trans (val8_main_arg19 V0)
theorem val9_main_arg20 (V0 : Valuation τ sig (Elt Ideal)) : val9 V0 (no_index (Proc.devRef .tc main_arg20)) = V0 (Proc.devRef .tc main_arg20) :=
  (val9_keep V0 main_arg20 (by decide)).trans (val8_main_arg20 V0)
theorem val9_main_v1 (V0 : Valuation τ sig (Elt Ideal)) : val9 V0 (no_index (Proc.devRef .tc main_v1)) = srcH (V0 (Proc.devRef .tc main_arg1)) :=
  (val9_keep V0 main_v1 (by decide)).trans (val8_main_v1 V0)
theorem val9_main_v3 (V0 : Valuation τ sig (Elt Ideal)) : val9 V0 (no_index (Proc.devRef .tc main_v3)) = dstH (V0 (Proc.devRef .tc main_arg1)) :=
  (val9_keep V0 main_v3 (by decide)).trans (val8_main_v3 V0)
theorem val9_main_v38 (V0 : Valuation τ sig (Elt Ideal)) : val9 V0 (no_index (Proc.devRef .tc main_v38)) = invCntOfH (dstH (V0 (Proc.devRef .tc main_arg1))) :=
  (val9_keep V0 main_v38 (by decide)).trans (val8_main_v38 V0)
theorem val9_main_v91 (V0 : Valuation τ sig (Elt Ideal)) : val9 V0 (no_index (Proc.devRef .tc main_v91)) = nodeH (encodeH (V0 (Proc.devRef .tc main_arg0)) (V0 (Proc.devRef .tc main_arg3)) (V0 (Proc.devRef .tc main_arg4)) (V0 (Proc.devRef .tc main_arg5)) (V0 (Proc.devRef .tc main_arg6))) (aggOfH (edgeH (gatherCatOfH (encodeH (V0 (Proc.devRef .tc main_arg0)) (V0 (Proc.devRef .tc main_arg3)) (V0 (Proc.devRef .tc main_arg4)) (V0 (Proc.devRef .tc main_arg5)) (V0 (Proc.devRef .tc main_arg6))) (srcH (V0 (Proc.devRef .tc main_arg1))) (V0 (Proc.devRef .tc main_arg2))) (sliceW1H ![0, 0, 0] slices_S3x67x32_S1x67x32_0_0_0 (V0 (Proc.devRef .tc main_arg7))) (sliceB1H ![0, 0] slices_S3x32_S1x32_0_0 (V0 (Proc.devRef .tc main_arg8))) (sliceW2H ![0, 0, 0] slices_S3x32x64_S1x32x64_0_0_0 (V0 (Proc.devRef .tc main_arg9))) (slice64H ![0, 0] slices_S3x64_S1x64_0_0 (V0 (Proc.devRef .tc main_arg10)))) (dstH (V0 (Proc.devRef .tc main_arg1))) (invCntOfH (dstH (V0 (Proc.devRef .tc main_arg1))))) (slice64H ![0, 0] slices_S3x64_S1x64_0_0 (V0 (Proc.devRef .tc main_arg11))) (slice64H ![0, 0] slices_S3x64_S1x64_0_0 (V0 (Proc.devRef .tc main_arg12))) :=
  (val9_keep V0 main_v91 (by decide)).trans (val8_main_v91 V0)
set_option maxRecDepth 8192 in
set_option maxHeartbeats 4000000 in
theorem val9_main_v99 (V0 : Valuation τ sig (Elt Ideal)) : val9 V0 (no_index (Proc.devRef .tc main_v99)) = gatherCatOfH (nodeH (encodeH (V0 (Proc.devRef .tc main_arg0)) (V0 (Proc.devRef .tc main_arg3)) (V0 (Proc.devRef .tc main_arg4)) (V0 (Proc.devRef .tc main_arg5)) (V0 (Proc.devRef .tc main_arg6))) (aggOfH (edgeH (gatherCatOfH (encodeH (V0 (Proc.devRef .tc main_arg0)) (V0 (Proc.devRef .tc main_arg3)) (V0 (Proc.devRef .tc main_arg4)) (V0 (Proc.devRef .tc main_arg5)) (V0 (Proc.devRef .tc main_arg6))) (srcH (V0 (Proc.devRef .tc main_arg1))) (V0 (Proc.devRef .tc main_arg2))) (sliceW1H ![0, 0, 0] slices_S3x67x32_S1x67x32_0_0_0 (V0 (Proc.devRef .tc main_arg7))) (sliceB1H ![0, 0] slices_S3x32_S1x32_0_0 (V0 (Proc.devRef .tc main_arg8))) (sliceW2H ![0, 0, 0] slices_S3x32x64_S1x32x64_0_0_0 (V0 (Proc.devRef .tc main_arg9))) (slice64H ![0, 0] slices_S3x64_S1x64_0_0 (V0 (Proc.devRef .tc main_arg10)))) (dstH (V0 (Proc.devRef .tc main_arg1))) (invCntOfH (dstH (V0 (Proc.devRef .tc main_arg1))))) (slice64H ![0, 0] slices_S3x64_S1x64_0_0 (V0 (Proc.devRef .tc main_arg11))) (slice64H ![0, 0] slices_S3x64_S1x64_0_0 (V0 (Proc.devRef .tc main_arg12)))) (srcH (V0 (Proc.devRef .tc main_arg1))) (V0 (Proc.devRef .tc main_arg2)) := by
  simp only [val9, seg8]
  host_line_results
  simp only [val8_main_arg2, val8_main_v1, val8_main_v91]
  rfl

/-- The contents after the first 10 segments. -/
def val10 (V0 : Valuation τ sig (Elt Ideal)) : Valuation τ sig (Elt Ideal) := after seg9 (val9 V0)
theorem val10_keep (V0 : Valuation τ sig (Elt Ideal)) (r : Ref sig .tc) (h : r ∉ seg9_W) :
    val10 V0 (Proc.devRef .tc r) = val9 V0 (Proc.devRef .tc r) :=
  after_of_writes_sub seg9 _ seg9_writes h
theorem val10_main_arg0 (V0 : Valuation τ sig (Elt Ideal)) : val10 V0 (no_index (Proc.devRef .tc main_arg0)) = V0 (Proc.devRef .tc main_arg0) :=
  (val10_keep V0 main_arg0 (by decide)).trans (val9_main_arg0 V0)
theorem val10_main_arg1 (V0 : Valuation τ sig (Elt Ideal)) : val10 V0 (no_index (Proc.devRef .tc main_arg1)) = V0 (Proc.devRef .tc main_arg1) :=
  (val10_keep V0 main_arg1 (by decide)).trans (val9_main_arg1 V0)
theorem val10_main_arg2 (V0 : Valuation τ sig (Elt Ideal)) : val10 V0 (no_index (Proc.devRef .tc main_arg2)) = V0 (Proc.devRef .tc main_arg2) :=
  (val10_keep V0 main_arg2 (by decide)).trans (val9_main_arg2 V0)
theorem val10_main_arg3 (V0 : Valuation τ sig (Elt Ideal)) : val10 V0 (no_index (Proc.devRef .tc main_arg3)) = V0 (Proc.devRef .tc main_arg3) :=
  (val10_keep V0 main_arg3 (by decide)).trans (val9_main_arg3 V0)
theorem val10_main_arg4 (V0 : Valuation τ sig (Elt Ideal)) : val10 V0 (no_index (Proc.devRef .tc main_arg4)) = V0 (Proc.devRef .tc main_arg4) :=
  (val10_keep V0 main_arg4 (by decide)).trans (val9_main_arg4 V0)
theorem val10_main_arg5 (V0 : Valuation τ sig (Elt Ideal)) : val10 V0 (no_index (Proc.devRef .tc main_arg5)) = V0 (Proc.devRef .tc main_arg5) :=
  (val10_keep V0 main_arg5 (by decide)).trans (val9_main_arg5 V0)
theorem val10_main_arg6 (V0 : Valuation τ sig (Elt Ideal)) : val10 V0 (no_index (Proc.devRef .tc main_arg6)) = V0 (Proc.devRef .tc main_arg6) :=
  (val10_keep V0 main_arg6 (by decide)).trans (val9_main_arg6 V0)
theorem val10_main_arg7 (V0 : Valuation τ sig (Elt Ideal)) : val10 V0 (no_index (Proc.devRef .tc main_arg7)) = V0 (Proc.devRef .tc main_arg7) :=
  (val10_keep V0 main_arg7 (by decide)).trans (val9_main_arg7 V0)
theorem val10_main_arg8 (V0 : Valuation τ sig (Elt Ideal)) : val10 V0 (no_index (Proc.devRef .tc main_arg8)) = V0 (Proc.devRef .tc main_arg8) :=
  (val10_keep V0 main_arg8 (by decide)).trans (val9_main_arg8 V0)
theorem val10_main_arg9 (V0 : Valuation τ sig (Elt Ideal)) : val10 V0 (no_index (Proc.devRef .tc main_arg9)) = V0 (Proc.devRef .tc main_arg9) :=
  (val10_keep V0 main_arg9 (by decide)).trans (val9_main_arg9 V0)
theorem val10_main_arg10 (V0 : Valuation τ sig (Elt Ideal)) : val10 V0 (no_index (Proc.devRef .tc main_arg10)) = V0 (Proc.devRef .tc main_arg10) :=
  (val10_keep V0 main_arg10 (by decide)).trans (val9_main_arg10 V0)
theorem val10_main_arg11 (V0 : Valuation τ sig (Elt Ideal)) : val10 V0 (no_index (Proc.devRef .tc main_arg11)) = V0 (Proc.devRef .tc main_arg11) :=
  (val10_keep V0 main_arg11 (by decide)).trans (val9_main_arg11 V0)
theorem val10_main_arg12 (V0 : Valuation τ sig (Elt Ideal)) : val10 V0 (no_index (Proc.devRef .tc main_arg12)) = V0 (Proc.devRef .tc main_arg12) :=
  (val10_keep V0 main_arg12 (by decide)).trans (val9_main_arg12 V0)
theorem val10_main_arg13 (V0 : Valuation τ sig (Elt Ideal)) : val10 V0 (no_index (Proc.devRef .tc main_arg13)) = V0 (Proc.devRef .tc main_arg13) :=
  (val10_keep V0 main_arg13 (by decide)).trans (val9_main_arg13 V0)
theorem val10_main_arg14 (V0 : Valuation τ sig (Elt Ideal)) : val10 V0 (no_index (Proc.devRef .tc main_arg14)) = V0 (Proc.devRef .tc main_arg14) :=
  (val10_keep V0 main_arg14 (by decide)).trans (val9_main_arg14 V0)
theorem val10_main_arg15 (V0 : Valuation τ sig (Elt Ideal)) : val10 V0 (no_index (Proc.devRef .tc main_arg15)) = V0 (Proc.devRef .tc main_arg15) :=
  (val10_keep V0 main_arg15 (by decide)).trans (val9_main_arg15 V0)
theorem val10_main_arg16 (V0 : Valuation τ sig (Elt Ideal)) : val10 V0 (no_index (Proc.devRef .tc main_arg16)) = V0 (Proc.devRef .tc main_arg16) :=
  (val10_keep V0 main_arg16 (by decide)).trans (val9_main_arg16 V0)
theorem val10_main_arg17 (V0 : Valuation τ sig (Elt Ideal)) : val10 V0 (no_index (Proc.devRef .tc main_arg17)) = V0 (Proc.devRef .tc main_arg17) :=
  (val10_keep V0 main_arg17 (by decide)).trans (val9_main_arg17 V0)
theorem val10_main_arg18 (V0 : Valuation τ sig (Elt Ideal)) : val10 V0 (no_index (Proc.devRef .tc main_arg18)) = V0 (Proc.devRef .tc main_arg18) :=
  (val10_keep V0 main_arg18 (by decide)).trans (val9_main_arg18 V0)
theorem val10_main_arg19 (V0 : Valuation τ sig (Elt Ideal)) : val10 V0 (no_index (Proc.devRef .tc main_arg19)) = V0 (Proc.devRef .tc main_arg19) :=
  (val10_keep V0 main_arg19 (by decide)).trans (val9_main_arg19 V0)
theorem val10_main_arg20 (V0 : Valuation τ sig (Elt Ideal)) : val10 V0 (no_index (Proc.devRef .tc main_arg20)) = V0 (Proc.devRef .tc main_arg20) :=
  (val10_keep V0 main_arg20 (by decide)).trans (val9_main_arg20 V0)
theorem val10_main_v1 (V0 : Valuation τ sig (Elt Ideal)) : val10 V0 (no_index (Proc.devRef .tc main_v1)) = srcH (V0 (Proc.devRef .tc main_arg1)) :=
  (val10_keep V0 main_v1 (by decide)).trans (val9_main_v1 V0)
theorem val10_main_v3 (V0 : Valuation τ sig (Elt Ideal)) : val10 V0 (no_index (Proc.devRef .tc main_v3)) = dstH (V0 (Proc.devRef .tc main_arg1)) :=
  (val10_keep V0 main_v3 (by decide)).trans (val9_main_v3 V0)
theorem val10_main_v38 (V0 : Valuation τ sig (Elt Ideal)) : val10 V0 (no_index (Proc.devRef .tc main_v38)) = invCntOfH (dstH (V0 (Proc.devRef .tc main_arg1))) :=
  (val10_keep V0 main_v38 (by decide)).trans (val9_main_v38 V0)
theorem val10_main_v91 (V0 : Valuation τ sig (Elt Ideal)) : val10 V0 (no_index (Proc.devRef .tc main_v91)) = nodeH (encodeH (V0 (Proc.devRef .tc main_arg0)) (V0 (Proc.devRef .tc main_arg3)) (V0 (Proc.devRef .tc main_arg4)) (V0 (Proc.devRef .tc main_arg5)) (V0 (Proc.devRef .tc main_arg6))) (aggOfH (edgeH (gatherCatOfH (encodeH (V0 (Proc.devRef .tc main_arg0)) (V0 (Proc.devRef .tc main_arg3)) (V0 (Proc.devRef .tc main_arg4)) (V0 (Proc.devRef .tc main_arg5)) (V0 (Proc.devRef .tc main_arg6))) (srcH (V0 (Proc.devRef .tc main_arg1))) (V0 (Proc.devRef .tc main_arg2))) (sliceW1H ![0, 0, 0] slices_S3x67x32_S1x67x32_0_0_0 (V0 (Proc.devRef .tc main_arg7))) (sliceB1H ![0, 0] slices_S3x32_S1x32_0_0 (V0 (Proc.devRef .tc main_arg8))) (sliceW2H ![0, 0, 0] slices_S3x32x64_S1x32x64_0_0_0 (V0 (Proc.devRef .tc main_arg9))) (slice64H ![0, 0] slices_S3x64_S1x64_0_0 (V0 (Proc.devRef .tc main_arg10)))) (dstH (V0 (Proc.devRef .tc main_arg1))) (invCntOfH (dstH (V0 (Proc.devRef .tc main_arg1))))) (slice64H ![0, 0] slices_S3x64_S1x64_0_0 (V0 (Proc.devRef .tc main_arg11))) (slice64H ![0, 0] slices_S3x64_S1x64_0_0 (V0 (Proc.devRef .tc main_arg12))) :=
  (val10_keep V0 main_v91 (by decide)).trans (val9_main_v91 V0)

/-- The contents after the first 11 segments. -/
def val11 (V0 : Valuation τ sig (Elt Ideal)) : Valuation τ sig (Elt Ideal) := after seg10 (val10 V0)
theorem val11_keep (V0 : Valuation τ sig (Elt Ideal)) (r : Ref sig .tc) (h : r ∉ seg10_W) :
    val11 V0 (Proc.devRef .tc r) = val10 V0 (Proc.devRef .tc r) :=
  after_of_writes_sub seg10 _ seg10_writes h
theorem val11_main_arg0 (V0 : Valuation τ sig (Elt Ideal)) : val11 V0 (no_index (Proc.devRef .tc main_arg0)) = V0 (Proc.devRef .tc main_arg0) :=
  (val11_keep V0 main_arg0 (by decide)).trans (val10_main_arg0 V0)
theorem val11_main_arg1 (V0 : Valuation τ sig (Elt Ideal)) : val11 V0 (no_index (Proc.devRef .tc main_arg1)) = V0 (Proc.devRef .tc main_arg1) :=
  (val11_keep V0 main_arg1 (by decide)).trans (val10_main_arg1 V0)
theorem val11_main_arg2 (V0 : Valuation τ sig (Elt Ideal)) : val11 V0 (no_index (Proc.devRef .tc main_arg2)) = V0 (Proc.devRef .tc main_arg2) :=
  (val11_keep V0 main_arg2 (by decide)).trans (val10_main_arg2 V0)
theorem val11_main_arg3 (V0 : Valuation τ sig (Elt Ideal)) : val11 V0 (no_index (Proc.devRef .tc main_arg3)) = V0 (Proc.devRef .tc main_arg3) :=
  (val11_keep V0 main_arg3 (by decide)).trans (val10_main_arg3 V0)
theorem val11_main_arg4 (V0 : Valuation τ sig (Elt Ideal)) : val11 V0 (no_index (Proc.devRef .tc main_arg4)) = V0 (Proc.devRef .tc main_arg4) :=
  (val11_keep V0 main_arg4 (by decide)).trans (val10_main_arg4 V0)
theorem val11_main_arg5 (V0 : Valuation τ sig (Elt Ideal)) : val11 V0 (no_index (Proc.devRef .tc main_arg5)) = V0 (Proc.devRef .tc main_arg5) :=
  (val11_keep V0 main_arg5 (by decide)).trans (val10_main_arg5 V0)
theorem val11_main_arg6 (V0 : Valuation τ sig (Elt Ideal)) : val11 V0 (no_index (Proc.devRef .tc main_arg6)) = V0 (Proc.devRef .tc main_arg6) :=
  (val11_keep V0 main_arg6 (by decide)).trans (val10_main_arg6 V0)
theorem val11_main_arg7 (V0 : Valuation τ sig (Elt Ideal)) : val11 V0 (no_index (Proc.devRef .tc main_arg7)) = V0 (Proc.devRef .tc main_arg7) :=
  (val11_keep V0 main_arg7 (by decide)).trans (val10_main_arg7 V0)
theorem val11_main_arg8 (V0 : Valuation τ sig (Elt Ideal)) : val11 V0 (no_index (Proc.devRef .tc main_arg8)) = V0 (Proc.devRef .tc main_arg8) :=
  (val11_keep V0 main_arg8 (by decide)).trans (val10_main_arg8 V0)
theorem val11_main_arg9 (V0 : Valuation τ sig (Elt Ideal)) : val11 V0 (no_index (Proc.devRef .tc main_arg9)) = V0 (Proc.devRef .tc main_arg9) :=
  (val11_keep V0 main_arg9 (by decide)).trans (val10_main_arg9 V0)
theorem val11_main_arg10 (V0 : Valuation τ sig (Elt Ideal)) : val11 V0 (no_index (Proc.devRef .tc main_arg10)) = V0 (Proc.devRef .tc main_arg10) :=
  (val11_keep V0 main_arg10 (by decide)).trans (val10_main_arg10 V0)
theorem val11_main_arg11 (V0 : Valuation τ sig (Elt Ideal)) : val11 V0 (no_index (Proc.devRef .tc main_arg11)) = V0 (Proc.devRef .tc main_arg11) :=
  (val11_keep V0 main_arg11 (by decide)).trans (val10_main_arg11 V0)
theorem val11_main_arg12 (V0 : Valuation τ sig (Elt Ideal)) : val11 V0 (no_index (Proc.devRef .tc main_arg12)) = V0 (Proc.devRef .tc main_arg12) :=
  (val11_keep V0 main_arg12 (by decide)).trans (val10_main_arg12 V0)
theorem val11_main_arg13 (V0 : Valuation τ sig (Elt Ideal)) : val11 V0 (no_index (Proc.devRef .tc main_arg13)) = V0 (Proc.devRef .tc main_arg13) :=
  (val11_keep V0 main_arg13 (by decide)).trans (val10_main_arg13 V0)
theorem val11_main_arg14 (V0 : Valuation τ sig (Elt Ideal)) : val11 V0 (no_index (Proc.devRef .tc main_arg14)) = V0 (Proc.devRef .tc main_arg14) :=
  (val11_keep V0 main_arg14 (by decide)).trans (val10_main_arg14 V0)
theorem val11_main_arg15 (V0 : Valuation τ sig (Elt Ideal)) : val11 V0 (no_index (Proc.devRef .tc main_arg15)) = V0 (Proc.devRef .tc main_arg15) :=
  (val11_keep V0 main_arg15 (by decide)).trans (val10_main_arg15 V0)
theorem val11_main_arg16 (V0 : Valuation τ sig (Elt Ideal)) : val11 V0 (no_index (Proc.devRef .tc main_arg16)) = V0 (Proc.devRef .tc main_arg16) :=
  (val11_keep V0 main_arg16 (by decide)).trans (val10_main_arg16 V0)
theorem val11_main_arg17 (V0 : Valuation τ sig (Elt Ideal)) : val11 V0 (no_index (Proc.devRef .tc main_arg17)) = V0 (Proc.devRef .tc main_arg17) :=
  (val11_keep V0 main_arg17 (by decide)).trans (val10_main_arg17 V0)
theorem val11_main_arg18 (V0 : Valuation τ sig (Elt Ideal)) : val11 V0 (no_index (Proc.devRef .tc main_arg18)) = V0 (Proc.devRef .tc main_arg18) :=
  (val11_keep V0 main_arg18 (by decide)).trans (val10_main_arg18 V0)
theorem val11_main_arg19 (V0 : Valuation τ sig (Elt Ideal)) : val11 V0 (no_index (Proc.devRef .tc main_arg19)) = V0 (Proc.devRef .tc main_arg19) :=
  (val11_keep V0 main_arg19 (by decide)).trans (val10_main_arg19 V0)
theorem val11_main_arg20 (V0 : Valuation τ sig (Elt Ideal)) : val11 V0 (no_index (Proc.devRef .tc main_arg20)) = V0 (Proc.devRef .tc main_arg20) :=
  (val11_keep V0 main_arg20 (by decide)).trans (val10_main_arg20 V0)
theorem val11_main_v1 (V0 : Valuation τ sig (Elt Ideal)) : val11 V0 (no_index (Proc.devRef .tc main_v1)) = srcH (V0 (Proc.devRef .tc main_arg1)) :=
  (val11_keep V0 main_v1 (by decide)).trans (val10_main_v1 V0)
theorem val11_main_v3 (V0 : Valuation τ sig (Elt Ideal)) : val11 V0 (no_index (Proc.devRef .tc main_v3)) = dstH (V0 (Proc.devRef .tc main_arg1)) :=
  (val11_keep V0 main_v3 (by decide)).trans (val10_main_v3 V0)
theorem val11_main_v38 (V0 : Valuation τ sig (Elt Ideal)) : val11 V0 (no_index (Proc.devRef .tc main_v38)) = invCntOfH (dstH (V0 (Proc.devRef .tc main_arg1))) :=
  (val11_keep V0 main_v38 (by decide)).trans (val10_main_v38 V0)
theorem val11_main_v91 (V0 : Valuation τ sig (Elt Ideal)) : val11 V0 (no_index (Proc.devRef .tc main_v91)) = nodeH (encodeH (V0 (Proc.devRef .tc main_arg0)) (V0 (Proc.devRef .tc main_arg3)) (V0 (Proc.devRef .tc main_arg4)) (V0 (Proc.devRef .tc main_arg5)) (V0 (Proc.devRef .tc main_arg6))) (aggOfH (edgeH (gatherCatOfH (encodeH (V0 (Proc.devRef .tc main_arg0)) (V0 (Proc.devRef .tc main_arg3)) (V0 (Proc.devRef .tc main_arg4)) (V0 (Proc.devRef .tc main_arg5)) (V0 (Proc.devRef .tc main_arg6))) (srcH (V0 (Proc.devRef .tc main_arg1))) (V0 (Proc.devRef .tc main_arg2))) (sliceW1H ![0, 0, 0] slices_S3x67x32_S1x67x32_0_0_0 (V0 (Proc.devRef .tc main_arg7))) (sliceB1H ![0, 0] slices_S3x32_S1x32_0_0 (V0 (Proc.devRef .tc main_arg8))) (sliceW2H ![0, 0, 0] slices_S3x32x64_S1x32x64_0_0_0 (V0 (Proc.devRef .tc main_arg9))) (slice64H ![0, 0] slices_S3x64_S1x64_0_0 (V0 (Proc.devRef .tc main_arg10)))) (dstH (V0 (Proc.devRef .tc main_arg1))) (invCntOfH (dstH (V0 (Proc.devRef .tc main_arg1))))) (slice64H ![0, 0] slices_S3x64_S1x64_0_0 (V0 (Proc.devRef .tc main_arg11))) (slice64H ![0, 0] slices_S3x64_S1x64_0_0 (V0 (Proc.devRef .tc main_arg12))) :=
  (val11_keep V0 main_v91 (by decide)).trans (val10_main_v91 V0)
set_option maxRecDepth 8192 in
set_option maxHeartbeats 4000000 in
theorem val11_main_v116 (V0 : Valuation τ sig (Elt Ideal)) : val11 V0 (no_index (Proc.devRef .tc main_v116)) = edgeH (gatherCatOfH (nodeH (encodeH (V0 (Proc.devRef .tc main_arg0)) (V0 (Proc.devRef .tc main_arg3)) (V0 (Proc.devRef .tc main_arg4)) (V0 (Proc.devRef .tc main_arg5)) (V0 (Proc.devRef .tc main_arg6))) (aggOfH (edgeH (gatherCatOfH (encodeH (V0 (Proc.devRef .tc main_arg0)) (V0 (Proc.devRef .tc main_arg3)) (V0 (Proc.devRef .tc main_arg4)) (V0 (Proc.devRef .tc main_arg5)) (V0 (Proc.devRef .tc main_arg6))) (srcH (V0 (Proc.devRef .tc main_arg1))) (V0 (Proc.devRef .tc main_arg2))) (sliceW1H ![0, 0, 0] slices_S3x67x32_S1x67x32_0_0_0 (V0 (Proc.devRef .tc main_arg7))) (sliceB1H ![0, 0] slices_S3x32_S1x32_0_0 (V0 (Proc.devRef .tc main_arg8))) (sliceW2H ![0, 0, 0] slices_S3x32x64_S1x32x64_0_0_0 (V0 (Proc.devRef .tc main_arg9))) (slice64H ![0, 0] slices_S3x64_S1x64_0_0 (V0 (Proc.devRef .tc main_arg10)))) (dstH (V0 (Proc.devRef .tc main_arg1))) (invCntOfH (dstH (V0 (Proc.devRef .tc main_arg1))))) (slice64H ![0, 0] slices_S3x64_S1x64_0_0 (V0 (Proc.devRef .tc main_arg11))) (slice64H ![0, 0] slices_S3x64_S1x64_0_0 (V0 (Proc.devRef .tc main_arg12)))) (srcH (V0 (Proc.devRef .tc main_arg1))) (V0 (Proc.devRef .tc main_arg2))) (sliceW1H ![1, 0, 0] slices_S3x67x32_S1x67x32_1_0_0 (V0 (Proc.devRef .tc main_arg7))) (sliceB1H ![1, 0] slices_S3x32_S1x32_1_0 (V0 (Proc.devRef .tc main_arg8))) (sliceW2H ![1, 0, 0] slices_S3x32x64_S1x32x64_1_0_0 (V0 (Proc.devRef .tc main_arg9))) (slice64H ![1, 0] slices_S3x64_S1x64_1_0 (V0 (Proc.devRef .tc main_arg10))) := by
  simp only [val11, val10, seg10, seg9]
  host_line_results
  simp only [val9_main_arg10, val9_main_arg9, val9_main_arg8, val9_main_arg7, val9_main_v99]
  rfl

/-- The contents after the first 12 segments. -/
def val12 (V0 : Valuation τ sig (Elt Ideal)) : Valuation τ sig (Elt Ideal) := after seg11 (val11 V0)
theorem val12_keep (V0 : Valuation τ sig (Elt Ideal)) (r : Ref sig .tc) (h : r ∉ seg11_W) :
    val12 V0 (Proc.devRef .tc r) = val11 V0 (Proc.devRef .tc r) :=
  after_of_writes_sub seg11 _ seg11_writes h
theorem val12_main_arg0 (V0 : Valuation τ sig (Elt Ideal)) : val12 V0 (no_index (Proc.devRef .tc main_arg0)) = V0 (Proc.devRef .tc main_arg0) :=
  (val12_keep V0 main_arg0 (by decide)).trans (val11_main_arg0 V0)
theorem val12_main_arg1 (V0 : Valuation τ sig (Elt Ideal)) : val12 V0 (no_index (Proc.devRef .tc main_arg1)) = V0 (Proc.devRef .tc main_arg1) :=
  (val12_keep V0 main_arg1 (by decide)).trans (val11_main_arg1 V0)
theorem val12_main_arg2 (V0 : Valuation τ sig (Elt Ideal)) : val12 V0 (no_index (Proc.devRef .tc main_arg2)) = V0 (Proc.devRef .tc main_arg2) :=
  (val12_keep V0 main_arg2 (by decide)).trans (val11_main_arg2 V0)
theorem val12_main_arg3 (V0 : Valuation τ sig (Elt Ideal)) : val12 V0 (no_index (Proc.devRef .tc main_arg3)) = V0 (Proc.devRef .tc main_arg3) :=
  (val12_keep V0 main_arg3 (by decide)).trans (val11_main_arg3 V0)
theorem val12_main_arg4 (V0 : Valuation τ sig (Elt Ideal)) : val12 V0 (no_index (Proc.devRef .tc main_arg4)) = V0 (Proc.devRef .tc main_arg4) :=
  (val12_keep V0 main_arg4 (by decide)).trans (val11_main_arg4 V0)
theorem val12_main_arg5 (V0 : Valuation τ sig (Elt Ideal)) : val12 V0 (no_index (Proc.devRef .tc main_arg5)) = V0 (Proc.devRef .tc main_arg5) :=
  (val12_keep V0 main_arg5 (by decide)).trans (val11_main_arg5 V0)
theorem val12_main_arg6 (V0 : Valuation τ sig (Elt Ideal)) : val12 V0 (no_index (Proc.devRef .tc main_arg6)) = V0 (Proc.devRef .tc main_arg6) :=
  (val12_keep V0 main_arg6 (by decide)).trans (val11_main_arg6 V0)
theorem val12_main_arg7 (V0 : Valuation τ sig (Elt Ideal)) : val12 V0 (no_index (Proc.devRef .tc main_arg7)) = V0 (Proc.devRef .tc main_arg7) :=
  (val12_keep V0 main_arg7 (by decide)).trans (val11_main_arg7 V0)
theorem val12_main_arg8 (V0 : Valuation τ sig (Elt Ideal)) : val12 V0 (no_index (Proc.devRef .tc main_arg8)) = V0 (Proc.devRef .tc main_arg8) :=
  (val12_keep V0 main_arg8 (by decide)).trans (val11_main_arg8 V0)
theorem val12_main_arg9 (V0 : Valuation τ sig (Elt Ideal)) : val12 V0 (no_index (Proc.devRef .tc main_arg9)) = V0 (Proc.devRef .tc main_arg9) :=
  (val12_keep V0 main_arg9 (by decide)).trans (val11_main_arg9 V0)
theorem val12_main_arg10 (V0 : Valuation τ sig (Elt Ideal)) : val12 V0 (no_index (Proc.devRef .tc main_arg10)) = V0 (Proc.devRef .tc main_arg10) :=
  (val12_keep V0 main_arg10 (by decide)).trans (val11_main_arg10 V0)
theorem val12_main_arg11 (V0 : Valuation τ sig (Elt Ideal)) : val12 V0 (no_index (Proc.devRef .tc main_arg11)) = V0 (Proc.devRef .tc main_arg11) :=
  (val12_keep V0 main_arg11 (by decide)).trans (val11_main_arg11 V0)
theorem val12_main_arg12 (V0 : Valuation τ sig (Elt Ideal)) : val12 V0 (no_index (Proc.devRef .tc main_arg12)) = V0 (Proc.devRef .tc main_arg12) :=
  (val12_keep V0 main_arg12 (by decide)).trans (val11_main_arg12 V0)
theorem val12_main_arg13 (V0 : Valuation τ sig (Elt Ideal)) : val12 V0 (no_index (Proc.devRef .tc main_arg13)) = V0 (Proc.devRef .tc main_arg13) :=
  (val12_keep V0 main_arg13 (by decide)).trans (val11_main_arg13 V0)
theorem val12_main_arg14 (V0 : Valuation τ sig (Elt Ideal)) : val12 V0 (no_index (Proc.devRef .tc main_arg14)) = V0 (Proc.devRef .tc main_arg14) :=
  (val12_keep V0 main_arg14 (by decide)).trans (val11_main_arg14 V0)
theorem val12_main_arg15 (V0 : Valuation τ sig (Elt Ideal)) : val12 V0 (no_index (Proc.devRef .tc main_arg15)) = V0 (Proc.devRef .tc main_arg15) :=
  (val12_keep V0 main_arg15 (by decide)).trans (val11_main_arg15 V0)
theorem val12_main_arg16 (V0 : Valuation τ sig (Elt Ideal)) : val12 V0 (no_index (Proc.devRef .tc main_arg16)) = V0 (Proc.devRef .tc main_arg16) :=
  (val12_keep V0 main_arg16 (by decide)).trans (val11_main_arg16 V0)
theorem val12_main_arg17 (V0 : Valuation τ sig (Elt Ideal)) : val12 V0 (no_index (Proc.devRef .tc main_arg17)) = V0 (Proc.devRef .tc main_arg17) :=
  (val12_keep V0 main_arg17 (by decide)).trans (val11_main_arg17 V0)
theorem val12_main_arg18 (V0 : Valuation τ sig (Elt Ideal)) : val12 V0 (no_index (Proc.devRef .tc main_arg18)) = V0 (Proc.devRef .tc main_arg18) :=
  (val12_keep V0 main_arg18 (by decide)).trans (val11_main_arg18 V0)
theorem val12_main_arg19 (V0 : Valuation τ sig (Elt Ideal)) : val12 V0 (no_index (Proc.devRef .tc main_arg19)) = V0 (Proc.devRef .tc main_arg19) :=
  (val12_keep V0 main_arg19 (by decide)).trans (val11_main_arg19 V0)
theorem val12_main_arg20 (V0 : Valuation τ sig (Elt Ideal)) : val12 V0 (no_index (Proc.devRef .tc main_arg20)) = V0 (Proc.devRef .tc main_arg20) :=
  (val12_keep V0 main_arg20 (by decide)).trans (val11_main_arg20 V0)
theorem val12_main_v1 (V0 : Valuation τ sig (Elt Ideal)) : val12 V0 (no_index (Proc.devRef .tc main_v1)) = srcH (V0 (Proc.devRef .tc main_arg1)) :=
  (val12_keep V0 main_v1 (by decide)).trans (val11_main_v1 V0)
theorem val12_main_v3 (V0 : Valuation τ sig (Elt Ideal)) : val12 V0 (no_index (Proc.devRef .tc main_v3)) = dstH (V0 (Proc.devRef .tc main_arg1)) :=
  (val12_keep V0 main_v3 (by decide)).trans (val11_main_v3 V0)
theorem val12_main_v38 (V0 : Valuation τ sig (Elt Ideal)) : val12 V0 (no_index (Proc.devRef .tc main_v38)) = invCntOfH (dstH (V0 (Proc.devRef .tc main_arg1))) :=
  (val12_keep V0 main_v38 (by decide)).trans (val11_main_v38 V0)
theorem val12_main_v91 (V0 : Valuation τ sig (Elt Ideal)) : val12 V0 (no_index (Proc.devRef .tc main_v91)) = nodeH (encodeH (V0 (Proc.devRef .tc main_arg0)) (V0 (Proc.devRef .tc main_arg3)) (V0 (Proc.devRef .tc main_arg4)) (V0 (Proc.devRef .tc main_arg5)) (V0 (Proc.devRef .tc main_arg6))) (aggOfH (edgeH (gatherCatOfH (encodeH (V0 (Proc.devRef .tc main_arg0)) (V0 (Proc.devRef .tc main_arg3)) (V0 (Proc.devRef .tc main_arg4)) (V0 (Proc.devRef .tc main_arg5)) (V0 (Proc.devRef .tc main_arg6))) (srcH (V0 (Proc.devRef .tc main_arg1))) (V0 (Proc.devRef .tc main_arg2))) (sliceW1H ![0, 0, 0] slices_S3x67x32_S1x67x32_0_0_0 (V0 (Proc.devRef .tc main_arg7))) (sliceB1H ![0, 0] slices_S3x32_S1x32_0_0 (V0 (Proc.devRef .tc main_arg8))) (sliceW2H ![0, 0, 0] slices_S3x32x64_S1x32x64_0_0_0 (V0 (Proc.devRef .tc main_arg9))) (slice64H ![0, 0] slices_S3x64_S1x64_0_0 (V0 (Proc.devRef .tc main_arg10)))) (dstH (V0 (Proc.devRef .tc main_arg1))) (invCntOfH (dstH (V0 (Proc.devRef .tc main_arg1))))) (slice64H ![0, 0] slices_S3x64_S1x64_0_0 (V0 (Proc.devRef .tc main_arg11))) (slice64H ![0, 0] slices_S3x64_S1x64_0_0 (V0 (Proc.devRef .tc main_arg12))) :=
  (val12_keep V0 main_v91 (by decide)).trans (val11_main_v91 V0)
set_option maxRecDepth 8192 in
set_option maxHeartbeats 4000000 in
theorem val12_main_v121 (V0 : Valuation τ sig (Elt Ideal)) : val12 V0 (no_index (Proc.devRef .tc main_v121)) = aggOfH (edgeH (gatherCatOfH (nodeH (encodeH (V0 (Proc.devRef .tc main_arg0)) (V0 (Proc.devRef .tc main_arg3)) (V0 (Proc.devRef .tc main_arg4)) (V0 (Proc.devRef .tc main_arg5)) (V0 (Proc.devRef .tc main_arg6))) (aggOfH (edgeH (gatherCatOfH (encodeH (V0 (Proc.devRef .tc main_arg0)) (V0 (Proc.devRef .tc main_arg3)) (V0 (Proc.devRef .tc main_arg4)) (V0 (Proc.devRef .tc main_arg5)) (V0 (Proc.devRef .tc main_arg6))) (srcH (V0 (Proc.devRef .tc main_arg1))) (V0 (Proc.devRef .tc main_arg2))) (sliceW1H ![0, 0, 0] slices_S3x67x32_S1x67x32_0_0_0 (V0 (Proc.devRef .tc main_arg7))) (sliceB1H ![0, 0] slices_S3x32_S1x32_0_0 (V0 (Proc.devRef .tc main_arg8))) (sliceW2H ![0, 0, 0] slices_S3x32x64_S1x32x64_0_0_0 (V0 (Proc.devRef .tc main_arg9))) (slice64H ![0, 0] slices_S3x64_S1x64_0_0 (V0 (Proc.devRef .tc main_arg10)))) (dstH (V0 (Proc.devRef .tc main_arg1))) (invCntOfH (dstH (V0 (Proc.devRef .tc main_arg1))))) (slice64H ![0, 0] slices_S3x64_S1x64_0_0 (V0 (Proc.devRef .tc main_arg11))) (slice64H ![0, 0] slices_S3x64_S1x64_0_0 (V0 (Proc.devRef .tc main_arg12)))) (srcH (V0 (Proc.devRef .tc main_arg1))) (V0 (Proc.devRef .tc main_arg2))) (sliceW1H ![1, 0, 0] slices_S3x67x32_S1x67x32_1_0_0 (V0 (Proc.devRef .tc main_arg7))) (sliceB1H ![1, 0] slices_S3x32_S1x32_1_0 (V0 (Proc.devRef .tc main_arg8))) (sliceW2H ![1, 0, 0] slices_S3x32x64_S1x32x64_1_0_0 (V0 (Proc.devRef .tc main_arg9))) (slice64H ![1, 0] slices_S3x64_S1x64_1_0 (V0 (Proc.devRef .tc main_arg10)))) (dstH (V0 (Proc.devRef .tc main_arg1))) (invCntOfH (dstH (V0 (Proc.devRef .tc main_arg1)))) := by
  simp only [val12, seg11]
  host_line_results
  simp only [val11_main_v38, val11_main_v116, val11_main_v3]
  rfl

/-- The contents after the first 13 segments. -/
def val13 (V0 : Valuation τ sig (Elt Ideal)) : Valuation τ sig (Elt Ideal) := after seg12 (val12 V0)
theorem val13_keep (V0 : Valuation τ sig (Elt Ideal)) (r : Ref sig .tc) (h : r ∉ seg12_W) :
    val13 V0 (Proc.devRef .tc r) = val12 V0 (Proc.devRef .tc r) :=
  after_of_writes_sub seg12 _ seg12_writes h
theorem val13_main_arg0 (V0 : Valuation τ sig (Elt Ideal)) : val13 V0 (no_index (Proc.devRef .tc main_arg0)) = V0 (Proc.devRef .tc main_arg0) :=
  (val13_keep V0 main_arg0 (by decide)).trans (val12_main_arg0 V0)
theorem val13_main_arg1 (V0 : Valuation τ sig (Elt Ideal)) : val13 V0 (no_index (Proc.devRef .tc main_arg1)) = V0 (Proc.devRef .tc main_arg1) :=
  (val13_keep V0 main_arg1 (by decide)).trans (val12_main_arg1 V0)
theorem val13_main_arg2 (V0 : Valuation τ sig (Elt Ideal)) : val13 V0 (no_index (Proc.devRef .tc main_arg2)) = V0 (Proc.devRef .tc main_arg2) :=
  (val13_keep V0 main_arg2 (by decide)).trans (val12_main_arg2 V0)
theorem val13_main_arg3 (V0 : Valuation τ sig (Elt Ideal)) : val13 V0 (no_index (Proc.devRef .tc main_arg3)) = V0 (Proc.devRef .tc main_arg3) :=
  (val13_keep V0 main_arg3 (by decide)).trans (val12_main_arg3 V0)
theorem val13_main_arg4 (V0 : Valuation τ sig (Elt Ideal)) : val13 V0 (no_index (Proc.devRef .tc main_arg4)) = V0 (Proc.devRef .tc main_arg4) :=
  (val13_keep V0 main_arg4 (by decide)).trans (val12_main_arg4 V0)
theorem val13_main_arg5 (V0 : Valuation τ sig (Elt Ideal)) : val13 V0 (no_index (Proc.devRef .tc main_arg5)) = V0 (Proc.devRef .tc main_arg5) :=
  (val13_keep V0 main_arg5 (by decide)).trans (val12_main_arg5 V0)
theorem val13_main_arg6 (V0 : Valuation τ sig (Elt Ideal)) : val13 V0 (no_index (Proc.devRef .tc main_arg6)) = V0 (Proc.devRef .tc main_arg6) :=
  (val13_keep V0 main_arg6 (by decide)).trans (val12_main_arg6 V0)
theorem val13_main_arg7 (V0 : Valuation τ sig (Elt Ideal)) : val13 V0 (no_index (Proc.devRef .tc main_arg7)) = V0 (Proc.devRef .tc main_arg7) :=
  (val13_keep V0 main_arg7 (by decide)).trans (val12_main_arg7 V0)
theorem val13_main_arg8 (V0 : Valuation τ sig (Elt Ideal)) : val13 V0 (no_index (Proc.devRef .tc main_arg8)) = V0 (Proc.devRef .tc main_arg8) :=
  (val13_keep V0 main_arg8 (by decide)).trans (val12_main_arg8 V0)
theorem val13_main_arg9 (V0 : Valuation τ sig (Elt Ideal)) : val13 V0 (no_index (Proc.devRef .tc main_arg9)) = V0 (Proc.devRef .tc main_arg9) :=
  (val13_keep V0 main_arg9 (by decide)).trans (val12_main_arg9 V0)
theorem val13_main_arg10 (V0 : Valuation τ sig (Elt Ideal)) : val13 V0 (no_index (Proc.devRef .tc main_arg10)) = V0 (Proc.devRef .tc main_arg10) :=
  (val13_keep V0 main_arg10 (by decide)).trans (val12_main_arg10 V0)
theorem val13_main_arg11 (V0 : Valuation τ sig (Elt Ideal)) : val13 V0 (no_index (Proc.devRef .tc main_arg11)) = V0 (Proc.devRef .tc main_arg11) :=
  (val13_keep V0 main_arg11 (by decide)).trans (val12_main_arg11 V0)
theorem val13_main_arg12 (V0 : Valuation τ sig (Elt Ideal)) : val13 V0 (no_index (Proc.devRef .tc main_arg12)) = V0 (Proc.devRef .tc main_arg12) :=
  (val13_keep V0 main_arg12 (by decide)).trans (val12_main_arg12 V0)
theorem val13_main_arg13 (V0 : Valuation τ sig (Elt Ideal)) : val13 V0 (no_index (Proc.devRef .tc main_arg13)) = V0 (Proc.devRef .tc main_arg13) :=
  (val13_keep V0 main_arg13 (by decide)).trans (val12_main_arg13 V0)
theorem val13_main_arg14 (V0 : Valuation τ sig (Elt Ideal)) : val13 V0 (no_index (Proc.devRef .tc main_arg14)) = V0 (Proc.devRef .tc main_arg14) :=
  (val13_keep V0 main_arg14 (by decide)).trans (val12_main_arg14 V0)
theorem val13_main_arg15 (V0 : Valuation τ sig (Elt Ideal)) : val13 V0 (no_index (Proc.devRef .tc main_arg15)) = V0 (Proc.devRef .tc main_arg15) :=
  (val13_keep V0 main_arg15 (by decide)).trans (val12_main_arg15 V0)
theorem val13_main_arg16 (V0 : Valuation τ sig (Elt Ideal)) : val13 V0 (no_index (Proc.devRef .tc main_arg16)) = V0 (Proc.devRef .tc main_arg16) :=
  (val13_keep V0 main_arg16 (by decide)).trans (val12_main_arg16 V0)
theorem val13_main_arg17 (V0 : Valuation τ sig (Elt Ideal)) : val13 V0 (no_index (Proc.devRef .tc main_arg17)) = V0 (Proc.devRef .tc main_arg17) :=
  (val13_keep V0 main_arg17 (by decide)).trans (val12_main_arg17 V0)
theorem val13_main_arg18 (V0 : Valuation τ sig (Elt Ideal)) : val13 V0 (no_index (Proc.devRef .tc main_arg18)) = V0 (Proc.devRef .tc main_arg18) :=
  (val13_keep V0 main_arg18 (by decide)).trans (val12_main_arg18 V0)
theorem val13_main_arg19 (V0 : Valuation τ sig (Elt Ideal)) : val13 V0 (no_index (Proc.devRef .tc main_arg19)) = V0 (Proc.devRef .tc main_arg19) :=
  (val13_keep V0 main_arg19 (by decide)).trans (val12_main_arg19 V0)
theorem val13_main_arg20 (V0 : Valuation τ sig (Elt Ideal)) : val13 V0 (no_index (Proc.devRef .tc main_arg20)) = V0 (Proc.devRef .tc main_arg20) :=
  (val13_keep V0 main_arg20 (by decide)).trans (val12_main_arg20 V0)
theorem val13_main_v1 (V0 : Valuation τ sig (Elt Ideal)) : val13 V0 (no_index (Proc.devRef .tc main_v1)) = srcH (V0 (Proc.devRef .tc main_arg1)) :=
  (val13_keep V0 main_v1 (by decide)).trans (val12_main_v1 V0)
theorem val13_main_v3 (V0 : Valuation τ sig (Elt Ideal)) : val13 V0 (no_index (Proc.devRef .tc main_v3)) = dstH (V0 (Proc.devRef .tc main_arg1)) :=
  (val13_keep V0 main_v3 (by decide)).trans (val12_main_v3 V0)
theorem val13_main_v38 (V0 : Valuation τ sig (Elt Ideal)) : val13 V0 (no_index (Proc.devRef .tc main_v38)) = invCntOfH (dstH (V0 (Proc.devRef .tc main_arg1))) :=
  (val13_keep V0 main_v38 (by decide)).trans (val12_main_v38 V0)
set_option maxRecDepth 8192 in
set_option maxHeartbeats 4000000 in
theorem val13_main_v144 (V0 : Valuation τ sig (Elt Ideal)) : val13 V0 (no_index (Proc.devRef .tc main_v144)) = nodeH (nodeH (encodeH (V0 (Proc.devRef .tc main_arg0)) (V0 (Proc.devRef .tc main_arg3)) (V0 (Proc.devRef .tc main_arg4)) (V0 (Proc.devRef .tc main_arg5)) (V0 (Proc.devRef .tc main_arg6))) (aggOfH (edgeH (gatherCatOfH (encodeH (V0 (Proc.devRef .tc main_arg0)) (V0 (Proc.devRef .tc main_arg3)) (V0 (Proc.devRef .tc main_arg4)) (V0 (Proc.devRef .tc main_arg5)) (V0 (Proc.devRef .tc main_arg6))) (srcH (V0 (Proc.devRef .tc main_arg1))) (V0 (Proc.devRef .tc main_arg2))) (sliceW1H ![0, 0, 0] slices_S3x67x32_S1x67x32_0_0_0 (V0 (Proc.devRef .tc main_arg7))) (sliceB1H ![0, 0] slices_S3x32_S1x32_0_0 (V0 (Proc.devRef .tc main_arg8))) (sliceW2H ![0, 0, 0] slices_S3x32x64_S1x32x64_0_0_0 (V0 (Proc.devRef .tc main_arg9))) (slice64H ![0, 0] slices_S3x64_S1x64_0_0 (V0 (Proc.devRef .tc main_arg10)))) (dstH (V0 (Proc.devRef .tc main_arg1))) (invCntOfH (dstH (V0 (Proc.devRef .tc main_arg1))))) (slice64H ![0, 0] slices_S3x64_S1x64_0_0 (V0 (Proc.devRef .tc main_arg11))) (slice64H ![0, 0] slices_S3x64_S1x64_0_0 (V0 (Proc.devRef .tc main_arg12)))) (aggOfH (edgeH (gatherCatOfH (nodeH (encodeH (V0 (Proc.devRef .tc main_arg0)) (V0 (Proc.devRef .tc main_arg3)) (V0 (Proc.devRef .tc main_arg4)) (V0 (Proc.devRef .tc main_arg5)) (V0 (Proc.devRef .tc main_arg6))) (aggOfH (edgeH (gatherCatOfH (encodeH (V0 (Proc.devRef .tc main_arg0)) (V0 (Proc.devRef .tc main_arg3)) (V0 (Proc.devRef .tc main_arg4)) (V0 (Proc.devRef .tc main_arg5)) (V0 (Proc.devRef .tc main_arg6))) (srcH (V0 (Proc.devRef .tc main_arg1))) (V0 (Proc.devRef .tc main_arg2))) (sliceW1H ![0, 0, 0] slices_S3x67x32_S1x67x32_0_0_0 (V0 (Proc.devRef .tc main_arg7))) (sliceB1H ![0, 0] slices_S3x32_S1x32_0_0 (V0 (Proc.devRef .tc main_arg8))) (sliceW2H ![0, 0, 0] slices_S3x32x64_S1x32x64_0_0_0 (V0 (Proc.devRef .tc main_arg9))) (slice64H ![0, 0] slices_S3x64_S1x64_0_0 (V0 (Proc.devRef .tc main_arg10)))) (dstH (V0 (Proc.devRef .tc main_arg1))) (invCntOfH (dstH (V0 (Proc.devRef .tc main_arg1))))) (slice64H ![0, 0] slices_S3x64_S1x64_0_0 (V0 (Proc.devRef .tc main_arg11))) (slice64H ![0, 0] slices_S3x64_S1x64_0_0 (V0 (Proc.devRef .tc main_arg12)))) (srcH (V0 (Proc.devRef .tc main_arg1))) (V0 (Proc.devRef .tc main_arg2))) (sliceW1H ![1, 0, 0] slices_S3x67x32_S1x67x32_1_0_0 (V0 (Proc.devRef .tc main_arg7))) (sliceB1H ![1, 0] slices_S3x32_S1x32_1_0 (V0 (Proc.devRef .tc main_arg8))) (sliceW2H ![1, 0, 0] slices_S3x32x64_S1x32x64_1_0_0 (V0 (Proc.devRef .tc main_arg9))) (slice64H ![1, 0] slices_S3x64_S1x64_1_0 (V0 (Proc.devRef .tc main_arg10)))) (dstH (V0 (Proc.devRef .tc main_arg1))) (invCntOfH (dstH (V0 (Proc.devRef .tc main_arg1))))) (slice64H ![1, 0] slices_S3x64_S1x64_1_0 (V0 (Proc.devRef .tc main_arg11))) (slice64H ![1, 0] slices_S3x64_S1x64_1_0 (V0 (Proc.devRef .tc main_arg12))) := by
  simp only [val13, seg12]
  host_line_results
  simp only [val12_main_arg12, val12_main_arg11, val12_main_v121, val12_main_v91]
  rfl

/-- The contents after the first 14 segments. -/
def val14 (V0 : Valuation τ sig (Elt Ideal)) : Valuation τ sig (Elt Ideal) := after seg13 (val13 V0)
theorem val14_keep (V0 : Valuation τ sig (Elt Ideal)) (r : Ref sig .tc) (h : r ∉ seg13_W) :
    val14 V0 (Proc.devRef .tc r) = val13 V0 (Proc.devRef .tc r) :=
  after_of_writes_sub seg13 _ seg13_writes h
theorem val14_main_arg0 (V0 : Valuation τ sig (Elt Ideal)) : val14 V0 (no_index (Proc.devRef .tc main_arg0)) = V0 (Proc.devRef .tc main_arg0) :=
  (val14_keep V0 main_arg0 (by decide)).trans (val13_main_arg0 V0)
theorem val14_main_arg1 (V0 : Valuation τ sig (Elt Ideal)) : val14 V0 (no_index (Proc.devRef .tc main_arg1)) = V0 (Proc.devRef .tc main_arg1) :=
  (val14_keep V0 main_arg1 (by decide)).trans (val13_main_arg1 V0)
theorem val14_main_arg2 (V0 : Valuation τ sig (Elt Ideal)) : val14 V0 (no_index (Proc.devRef .tc main_arg2)) = V0 (Proc.devRef .tc main_arg2) :=
  (val14_keep V0 main_arg2 (by decide)).trans (val13_main_arg2 V0)
theorem val14_main_arg3 (V0 : Valuation τ sig (Elt Ideal)) : val14 V0 (no_index (Proc.devRef .tc main_arg3)) = V0 (Proc.devRef .tc main_arg3) :=
  (val14_keep V0 main_arg3 (by decide)).trans (val13_main_arg3 V0)
theorem val14_main_arg4 (V0 : Valuation τ sig (Elt Ideal)) : val14 V0 (no_index (Proc.devRef .tc main_arg4)) = V0 (Proc.devRef .tc main_arg4) :=
  (val14_keep V0 main_arg4 (by decide)).trans (val13_main_arg4 V0)
theorem val14_main_arg5 (V0 : Valuation τ sig (Elt Ideal)) : val14 V0 (no_index (Proc.devRef .tc main_arg5)) = V0 (Proc.devRef .tc main_arg5) :=
  (val14_keep V0 main_arg5 (by decide)).trans (val13_main_arg5 V0)
theorem val14_main_arg6 (V0 : Valuation τ sig (Elt Ideal)) : val14 V0 (no_index (Proc.devRef .tc main_arg6)) = V0 (Proc.devRef .tc main_arg6) :=
  (val14_keep V0 main_arg6 (by decide)).trans (val13_main_arg6 V0)
theorem val14_main_arg7 (V0 : Valuation τ sig (Elt Ideal)) : val14 V0 (no_index (Proc.devRef .tc main_arg7)) = V0 (Proc.devRef .tc main_arg7) :=
  (val14_keep V0 main_arg7 (by decide)).trans (val13_main_arg7 V0)
theorem val14_main_arg8 (V0 : Valuation τ sig (Elt Ideal)) : val14 V0 (no_index (Proc.devRef .tc main_arg8)) = V0 (Proc.devRef .tc main_arg8) :=
  (val14_keep V0 main_arg8 (by decide)).trans (val13_main_arg8 V0)
theorem val14_main_arg9 (V0 : Valuation τ sig (Elt Ideal)) : val14 V0 (no_index (Proc.devRef .tc main_arg9)) = V0 (Proc.devRef .tc main_arg9) :=
  (val14_keep V0 main_arg9 (by decide)).trans (val13_main_arg9 V0)
theorem val14_main_arg10 (V0 : Valuation τ sig (Elt Ideal)) : val14 V0 (no_index (Proc.devRef .tc main_arg10)) = V0 (Proc.devRef .tc main_arg10) :=
  (val14_keep V0 main_arg10 (by decide)).trans (val13_main_arg10 V0)
theorem val14_main_arg11 (V0 : Valuation τ sig (Elt Ideal)) : val14 V0 (no_index (Proc.devRef .tc main_arg11)) = V0 (Proc.devRef .tc main_arg11) :=
  (val14_keep V0 main_arg11 (by decide)).trans (val13_main_arg11 V0)
theorem val14_main_arg12 (V0 : Valuation τ sig (Elt Ideal)) : val14 V0 (no_index (Proc.devRef .tc main_arg12)) = V0 (Proc.devRef .tc main_arg12) :=
  (val14_keep V0 main_arg12 (by decide)).trans (val13_main_arg12 V0)
theorem val14_main_arg13 (V0 : Valuation τ sig (Elt Ideal)) : val14 V0 (no_index (Proc.devRef .tc main_arg13)) = V0 (Proc.devRef .tc main_arg13) :=
  (val14_keep V0 main_arg13 (by decide)).trans (val13_main_arg13 V0)
theorem val14_main_arg14 (V0 : Valuation τ sig (Elt Ideal)) : val14 V0 (no_index (Proc.devRef .tc main_arg14)) = V0 (Proc.devRef .tc main_arg14) :=
  (val14_keep V0 main_arg14 (by decide)).trans (val13_main_arg14 V0)
theorem val14_main_arg15 (V0 : Valuation τ sig (Elt Ideal)) : val14 V0 (no_index (Proc.devRef .tc main_arg15)) = V0 (Proc.devRef .tc main_arg15) :=
  (val14_keep V0 main_arg15 (by decide)).trans (val13_main_arg15 V0)
theorem val14_main_arg16 (V0 : Valuation τ sig (Elt Ideal)) : val14 V0 (no_index (Proc.devRef .tc main_arg16)) = V0 (Proc.devRef .tc main_arg16) :=
  (val14_keep V0 main_arg16 (by decide)).trans (val13_main_arg16 V0)
theorem val14_main_arg17 (V0 : Valuation τ sig (Elt Ideal)) : val14 V0 (no_index (Proc.devRef .tc main_arg17)) = V0 (Proc.devRef .tc main_arg17) :=
  (val14_keep V0 main_arg17 (by decide)).trans (val13_main_arg17 V0)
theorem val14_main_arg18 (V0 : Valuation τ sig (Elt Ideal)) : val14 V0 (no_index (Proc.devRef .tc main_arg18)) = V0 (Proc.devRef .tc main_arg18) :=
  (val14_keep V0 main_arg18 (by decide)).trans (val13_main_arg18 V0)
theorem val14_main_arg19 (V0 : Valuation τ sig (Elt Ideal)) : val14 V0 (no_index (Proc.devRef .tc main_arg19)) = V0 (Proc.devRef .tc main_arg19) :=
  (val14_keep V0 main_arg19 (by decide)).trans (val13_main_arg19 V0)
theorem val14_main_arg20 (V0 : Valuation τ sig (Elt Ideal)) : val14 V0 (no_index (Proc.devRef .tc main_arg20)) = V0 (Proc.devRef .tc main_arg20) :=
  (val14_keep V0 main_arg20 (by decide)).trans (val13_main_arg20 V0)
theorem val14_main_v3 (V0 : Valuation τ sig (Elt Ideal)) : val14 V0 (no_index (Proc.devRef .tc main_v3)) = dstH (V0 (Proc.devRef .tc main_arg1)) :=
  (val14_keep V0 main_v3 (by decide)).trans (val13_main_v3 V0)
theorem val14_main_v38 (V0 : Valuation τ sig (Elt Ideal)) : val14 V0 (no_index (Proc.devRef .tc main_v38)) = invCntOfH (dstH (V0 (Proc.devRef .tc main_arg1))) :=
  (val14_keep V0 main_v38 (by decide)).trans (val13_main_v38 V0)
theorem val14_main_v144 (V0 : Valuation τ sig (Elt Ideal)) : val14 V0 (no_index (Proc.devRef .tc main_v144)) = nodeH (nodeH (encodeH (V0 (Proc.devRef .tc main_arg0)) (V0 (Proc.devRef .tc main_arg3)) (V0 (Proc.devRef .tc main_arg4)) (V0 (Proc.devRef .tc main_arg5)) (V0 (Proc.devRef .tc main_arg6))) (aggOfH (edgeH (gatherCatOfH (encodeH (V0 (Proc.devRef .tc main_arg0)) (V0 (Proc.devRef .tc main_arg3)) (V0 (Proc.devRef .tc main_arg4)) (V0 (Proc.devRef .tc main_arg5)) (V0 (Proc.devRef .tc main_arg6))) (srcH (V0 (Proc.devRef .tc main_arg1))) (V0 (Proc.devRef .tc main_arg2))) (sliceW1H ![0, 0, 0] slices_S3x67x32_S1x67x32_0_0_0 (V0 (Proc.devRef .tc main_arg7))) (sliceB1H ![0, 0] slices_S3x32_S1x32_0_0 (V0 (Proc.devRef .tc main_arg8))) (sliceW2H ![0, 0, 0] slices_S3x32x64_S1x32x64_0_0_0 (V0 (Proc.devRef .tc main_arg9))) (slice64H ![0, 0] slices_S3x64_S1x64_0_0 (V0 (Proc.devRef .tc main_arg10)))) (dstH (V0 (Proc.devRef .tc main_arg1))) (invCntOfH (dstH (V0 (Proc.devRef .tc main_arg1))))) (slice64H ![0, 0] slices_S3x64_S1x64_0_0 (V0 (Proc.devRef .tc main_arg11))) (slice64H ![0, 0] slices_S3x64_S1x64_0_0 (V0 (Proc.devRef .tc main_arg12)))) (aggOfH (edgeH (gatherCatOfH (nodeH (encodeH (V0 (Proc.devRef .tc main_arg0)) (V0 (Proc.devRef .tc main_arg3)) (V0 (Proc.devRef .tc main_arg4)) (V0 (Proc.devRef .tc main_arg5)) (V0 (Proc.devRef .tc main_arg6))) (aggOfH (edgeH (gatherCatOfH (encodeH (V0 (Proc.devRef .tc main_arg0)) (V0 (Proc.devRef .tc main_arg3)) (V0 (Proc.devRef .tc main_arg4)) (V0 (Proc.devRef .tc main_arg5)) (V0 (Proc.devRef .tc main_arg6))) (srcH (V0 (Proc.devRef .tc main_arg1))) (V0 (Proc.devRef .tc main_arg2))) (sliceW1H ![0, 0, 0] slices_S3x67x32_S1x67x32_0_0_0 (V0 (Proc.devRef .tc main_arg7))) (sliceB1H ![0, 0] slices_S3x32_S1x32_0_0 (V0 (Proc.devRef .tc main_arg8))) (sliceW2H ![0, 0, 0] slices_S3x32x64_S1x32x64_0_0_0 (V0 (Proc.devRef .tc main_arg9))) (slice64H ![0, 0] slices_S3x64_S1x64_0_0 (V0 (Proc.devRef .tc main_arg10)))) (dstH (V0 (Proc.devRef .tc main_arg1))) (invCntOfH (dstH (V0 (Proc.devRef .tc main_arg1))))) (slice64H ![0, 0] slices_S3x64_S1x64_0_0 (V0 (Proc.devRef .tc main_arg11))) (slice64H ![0, 0] slices_S3x64_S1x64_0_0 (V0 (Proc.devRef .tc main_arg12)))) (srcH (V0 (Proc.devRef .tc main_arg1))) (V0 (Proc.devRef .tc main_arg2))) (sliceW1H ![1, 0, 0] slices_S3x67x32_S1x67x32_1_0_0 (V0 (Proc.devRef .tc main_arg7))) (sliceB1H ![1, 0] slices_S3x32_S1x32_1_0 (V0 (Proc.devRef .tc main_arg8))) (sliceW2H ![1, 0, 0] slices_S3x32x64_S1x32x64_1_0_0 (V0 (Proc.devRef .tc main_arg9))) (slice64H ![1, 0] slices_S3x64_S1x64_1_0 (V0 (Proc.devRef .tc main_arg10)))) (dstH (V0 (Proc.devRef .tc main_arg1))) (invCntOfH (dstH (V0 (Proc.devRef .tc main_arg1))))) (slice64H ![1, 0] slices_S3x64_S1x64_1_0 (V0 (Proc.devRef .tc main_arg11))) (slice64H ![1, 0] slices_S3x64_S1x64_1_0 (V0 (Proc.devRef .tc main_arg12))) :=
  (val14_keep V0 main_v144 (by decide)).trans (val13_main_v144 V0)
set_option maxRecDepth 8192 in
set_option maxHeartbeats 4000000 in
theorem val14_main_v152 (V0 : Valuation τ sig (Elt Ideal)) : val14 V0 (no_index (Proc.devRef .tc main_v152)) = gatherCatOfH (nodeH (nodeH (encodeH (V0 (Proc.devRef .tc main_arg0)) (V0 (Proc.devRef .tc main_arg3)) (V0 (Proc.devRef .tc main_arg4)) (V0 (Proc.devRef .tc main_arg5)) (V0 (Proc.devRef .tc main_arg6))) (aggOfH (edgeH (gatherCatOfH (encodeH (V0 (Proc.devRef .tc main_arg0)) (V0 (Proc.devRef .tc main_arg3)) (V0 (Proc.devRef .tc main_arg4)) (V0 (Proc.devRef .tc main_arg5)) (V0 (Proc.devRef .tc main_arg6))) (srcH (V0 (Proc.devRef .tc main_arg1))) (V0 (Proc.devRef .tc main_arg2))) (sliceW1H ![0, 0, 0] slices_S3x67x32_S1x67x32_0_0_0 (V0 (Proc.devRef .tc main_arg7))) (sliceB1H ![0, 0] slices_S3x32_S1x32_0_0 (V0 (Proc.devRef .tc main_arg8))) (sliceW2H ![0, 0, 0] slices_S3x32x64_S1x32x64_0_0_0 (V0 (Proc.devRef .tc main_arg9))) (slice64H ![0, 0] slices_S3x64_S1x64_0_0 (V0 (Proc.devRef .tc main_arg10)))) (dstH (V0 (Proc.devRef .tc main_arg1))) (invCntOfH (dstH (V0 (Proc.devRef .tc main_arg1))))) (slice64H ![0, 0] slices_S3x64_S1x64_0_0 (V0 (Proc.devRef .tc main_arg11))) (slice64H ![0, 0] slices_S3x64_S1x64_0_0 (V0 (Proc.devRef .tc main_arg12)))) (aggOfH (edgeH (gatherCatOfH (nodeH (encodeH (V0 (Proc.devRef .tc main_arg0)) (V0 (Proc.devRef .tc main_arg3)) (V0 (Proc.devRef .tc main_arg4)) (V0 (Proc.devRef .tc main_arg5)) (V0 (Proc.devRef .tc main_arg6))) (aggOfH (edgeH (gatherCatOfH (encodeH (V0 (Proc.devRef .tc main_arg0)) (V0 (Proc.devRef .tc main_arg3)) (V0 (Proc.devRef .tc main_arg4)) (V0 (Proc.devRef .tc main_arg5)) (V0 (Proc.devRef .tc main_arg6))) (srcH (V0 (Proc.devRef .tc main_arg1))) (V0 (Proc.devRef .tc main_arg2))) (sliceW1H ![0, 0, 0] slices_S3x67x32_S1x67x32_0_0_0 (V0 (Proc.devRef .tc main_arg7))) (sliceB1H ![0, 0] slices_S3x32_S1x32_0_0 (V0 (Proc.devRef .tc main_arg8))) (sliceW2H ![0, 0, 0] slices_S3x32x64_S1x32x64_0_0_0 (V0 (Proc.devRef .tc main_arg9))) (slice64H ![0, 0] slices_S3x64_S1x64_0_0 (V0 (Proc.devRef .tc main_arg10)))) (dstH (V0 (Proc.devRef .tc main_arg1))) (invCntOfH (dstH (V0 (Proc.devRef .tc main_arg1))))) (slice64H ![0, 0] slices_S3x64_S1x64_0_0 (V0 (Proc.devRef .tc main_arg11))) (slice64H ![0, 0] slices_S3x64_S1x64_0_0 (V0 (Proc.devRef .tc main_arg12)))) (srcH (V0 (Proc.devRef .tc main_arg1))) (V0 (Proc.devRef .tc main_arg2))) (sliceW1H ![1, 0, 0] slices_S3x67x32_S1x67x32_1_0_0 (V0 (Proc.devRef .tc main_arg7))) (sliceB1H ![1, 0] slices_S3x32_S1x32_1_0 (V0 (Proc.devRef .tc main_arg8))) (sliceW2H ![1, 0, 0] slices_S3x32x64_S1x32x64_1_0_0 (V0 (Proc.devRef .tc main_arg9))) (slice64H ![1, 0] slices_S3x64_S1x64_1_0 (V0 (Proc.devRef .tc main_arg10)))) (dstH (V0 (Proc.devRef .tc main_arg1))) (invCntOfH (dstH (V0 (Proc.devRef .tc main_arg1))))) (slice64H ![1, 0] slices_S3x64_S1x64_1_0 (V0 (Proc.devRef .tc main_arg11))) (slice64H ![1, 0] slices_S3x64_S1x64_1_0 (V0 (Proc.devRef .tc main_arg12)))) (srcH (V0 (Proc.devRef .tc main_arg1))) (V0 (Proc.devRef .tc main_arg2)) := by
  simp only [val14, seg13]
  host_line_results
  simp only [val13_main_arg2, val13_main_v1, val13_main_v144]
  rfl

/-- The contents after the first 15 segments. -/
def val15 (V0 : Valuation τ sig (Elt Ideal)) : Valuation τ sig (Elt Ideal) := after seg14 (val14 V0)
theorem val15_keep (V0 : Valuation τ sig (Elt Ideal)) (r : Ref sig .tc) (h : r ∉ seg14_W) :
    val15 V0 (Proc.devRef .tc r) = val14 V0 (Proc.devRef .tc r) :=
  after_of_writes_sub seg14 _ seg14_writes h
theorem val15_main_arg0 (V0 : Valuation τ sig (Elt Ideal)) : val15 V0 (no_index (Proc.devRef .tc main_arg0)) = V0 (Proc.devRef .tc main_arg0) :=
  (val15_keep V0 main_arg0 (by decide)).trans (val14_main_arg0 V0)
theorem val15_main_arg1 (V0 : Valuation τ sig (Elt Ideal)) : val15 V0 (no_index (Proc.devRef .tc main_arg1)) = V0 (Proc.devRef .tc main_arg1) :=
  (val15_keep V0 main_arg1 (by decide)).trans (val14_main_arg1 V0)
theorem val15_main_arg2 (V0 : Valuation τ sig (Elt Ideal)) : val15 V0 (no_index (Proc.devRef .tc main_arg2)) = V0 (Proc.devRef .tc main_arg2) :=
  (val15_keep V0 main_arg2 (by decide)).trans (val14_main_arg2 V0)
theorem val15_main_arg3 (V0 : Valuation τ sig (Elt Ideal)) : val15 V0 (no_index (Proc.devRef .tc main_arg3)) = V0 (Proc.devRef .tc main_arg3) :=
  (val15_keep V0 main_arg3 (by decide)).trans (val14_main_arg3 V0)
theorem val15_main_arg4 (V0 : Valuation τ sig (Elt Ideal)) : val15 V0 (no_index (Proc.devRef .tc main_arg4)) = V0 (Proc.devRef .tc main_arg4) :=
  (val15_keep V0 main_arg4 (by decide)).trans (val14_main_arg4 V0)
theorem val15_main_arg5 (V0 : Valuation τ sig (Elt Ideal)) : val15 V0 (no_index (Proc.devRef .tc main_arg5)) = V0 (Proc.devRef .tc main_arg5) :=
  (val15_keep V0 main_arg5 (by decide)).trans (val14_main_arg5 V0)
theorem val15_main_arg6 (V0 : Valuation τ sig (Elt Ideal)) : val15 V0 (no_index (Proc.devRef .tc main_arg6)) = V0 (Proc.devRef .tc main_arg6) :=
  (val15_keep V0 main_arg6 (by decide)).trans (val14_main_arg6 V0)
theorem val15_main_arg7 (V0 : Valuation τ sig (Elt Ideal)) : val15 V0 (no_index (Proc.devRef .tc main_arg7)) = V0 (Proc.devRef .tc main_arg7) :=
  (val15_keep V0 main_arg7 (by decide)).trans (val14_main_arg7 V0)
theorem val15_main_arg8 (V0 : Valuation τ sig (Elt Ideal)) : val15 V0 (no_index (Proc.devRef .tc main_arg8)) = V0 (Proc.devRef .tc main_arg8) :=
  (val15_keep V0 main_arg8 (by decide)).trans (val14_main_arg8 V0)
theorem val15_main_arg9 (V0 : Valuation τ sig (Elt Ideal)) : val15 V0 (no_index (Proc.devRef .tc main_arg9)) = V0 (Proc.devRef .tc main_arg9) :=
  (val15_keep V0 main_arg9 (by decide)).trans (val14_main_arg9 V0)
theorem val15_main_arg10 (V0 : Valuation τ sig (Elt Ideal)) : val15 V0 (no_index (Proc.devRef .tc main_arg10)) = V0 (Proc.devRef .tc main_arg10) :=
  (val15_keep V0 main_arg10 (by decide)).trans (val14_main_arg10 V0)
theorem val15_main_arg11 (V0 : Valuation τ sig (Elt Ideal)) : val15 V0 (no_index (Proc.devRef .tc main_arg11)) = V0 (Proc.devRef .tc main_arg11) :=
  (val15_keep V0 main_arg11 (by decide)).trans (val14_main_arg11 V0)
theorem val15_main_arg12 (V0 : Valuation τ sig (Elt Ideal)) : val15 V0 (no_index (Proc.devRef .tc main_arg12)) = V0 (Proc.devRef .tc main_arg12) :=
  (val15_keep V0 main_arg12 (by decide)).trans (val14_main_arg12 V0)
theorem val15_main_arg13 (V0 : Valuation τ sig (Elt Ideal)) : val15 V0 (no_index (Proc.devRef .tc main_arg13)) = V0 (Proc.devRef .tc main_arg13) :=
  (val15_keep V0 main_arg13 (by decide)).trans (val14_main_arg13 V0)
theorem val15_main_arg14 (V0 : Valuation τ sig (Elt Ideal)) : val15 V0 (no_index (Proc.devRef .tc main_arg14)) = V0 (Proc.devRef .tc main_arg14) :=
  (val15_keep V0 main_arg14 (by decide)).trans (val14_main_arg14 V0)
theorem val15_main_arg15 (V0 : Valuation τ sig (Elt Ideal)) : val15 V0 (no_index (Proc.devRef .tc main_arg15)) = V0 (Proc.devRef .tc main_arg15) :=
  (val15_keep V0 main_arg15 (by decide)).trans (val14_main_arg15 V0)
theorem val15_main_arg16 (V0 : Valuation τ sig (Elt Ideal)) : val15 V0 (no_index (Proc.devRef .tc main_arg16)) = V0 (Proc.devRef .tc main_arg16) :=
  (val15_keep V0 main_arg16 (by decide)).trans (val14_main_arg16 V0)
theorem val15_main_arg17 (V0 : Valuation τ sig (Elt Ideal)) : val15 V0 (no_index (Proc.devRef .tc main_arg17)) = V0 (Proc.devRef .tc main_arg17) :=
  (val15_keep V0 main_arg17 (by decide)).trans (val14_main_arg17 V0)
theorem val15_main_arg18 (V0 : Valuation τ sig (Elt Ideal)) : val15 V0 (no_index (Proc.devRef .tc main_arg18)) = V0 (Proc.devRef .tc main_arg18) :=
  (val15_keep V0 main_arg18 (by decide)).trans (val14_main_arg18 V0)
theorem val15_main_arg19 (V0 : Valuation τ sig (Elt Ideal)) : val15 V0 (no_index (Proc.devRef .tc main_arg19)) = V0 (Proc.devRef .tc main_arg19) :=
  (val15_keep V0 main_arg19 (by decide)).trans (val14_main_arg19 V0)
theorem val15_main_arg20 (V0 : Valuation τ sig (Elt Ideal)) : val15 V0 (no_index (Proc.devRef .tc main_arg20)) = V0 (Proc.devRef .tc main_arg20) :=
  (val15_keep V0 main_arg20 (by decide)).trans (val14_main_arg20 V0)
theorem val15_main_v3 (V0 : Valuation τ sig (Elt Ideal)) : val15 V0 (no_index (Proc.devRef .tc main_v3)) = dstH (V0 (Proc.devRef .tc main_arg1)) :=
  (val15_keep V0 main_v3 (by decide)).trans (val14_main_v3 V0)
theorem val15_main_v38 (V0 : Valuation τ sig (Elt Ideal)) : val15 V0 (no_index (Proc.devRef .tc main_v38)) = invCntOfH (dstH (V0 (Proc.devRef .tc main_arg1))) :=
  (val15_keep V0 main_v38 (by decide)).trans (val14_main_v38 V0)
theorem val15_main_v144 (V0 : Valuation τ sig (Elt Ideal)) : val15 V0 (no_index (Proc.devRef .tc main_v144)) = nodeH (nodeH (encodeH (V0 (Proc.devRef .tc main_arg0)) (V0 (Proc.devRef .tc main_arg3)) (V0 (Proc.devRef .tc main_arg4)) (V0 (Proc.devRef .tc main_arg5)) (V0 (Proc.devRef .tc main_arg6))) (aggOfH (edgeH (gatherCatOfH (encodeH (V0 (Proc.devRef .tc main_arg0)) (V0 (Proc.devRef .tc main_arg3)) (V0 (Proc.devRef .tc main_arg4)) (V0 (Proc.devRef .tc main_arg5)) (V0 (Proc.devRef .tc main_arg6))) (srcH (V0 (Proc.devRef .tc main_arg1))) (V0 (Proc.devRef .tc main_arg2))) (sliceW1H ![0, 0, 0] slices_S3x67x32_S1x67x32_0_0_0 (V0 (Proc.devRef .tc main_arg7))) (sliceB1H ![0, 0] slices_S3x32_S1x32_0_0 (V0 (Proc.devRef .tc main_arg8))) (sliceW2H ![0, 0, 0] slices_S3x32x64_S1x32x64_0_0_0 (V0 (Proc.devRef .tc main_arg9))) (slice64H ![0, 0] slices_S3x64_S1x64_0_0 (V0 (Proc.devRef .tc main_arg10)))) (dstH (V0 (Proc.devRef .tc main_arg1))) (invCntOfH (dstH (V0 (Proc.devRef .tc main_arg1))))) (slice64H ![0, 0] slices_S3x64_S1x64_0_0 (V0 (Proc.devRef .tc main_arg11))) (slice64H ![0, 0] slices_S3x64_S1x64_0_0 (V0 (Proc.devRef .tc main_arg12)))) (aggOfH (edgeH (gatherCatOfH (nodeH (encodeH (V0 (Proc.devRef .tc main_arg0)) (V0 (Proc.devRef .tc main_arg3)) (V0 (Proc.devRef .tc main_arg4)) (V0 (Proc.devRef .tc main_arg5)) (V0 (Proc.devRef .tc main_arg6))) (aggOfH (edgeH (gatherCatOfH (encodeH (V0 (Proc.devRef .tc main_arg0)) (V0 (Proc.devRef .tc main_arg3)) (V0 (Proc.devRef .tc main_arg4)) (V0 (Proc.devRef .tc main_arg5)) (V0 (Proc.devRef .tc main_arg6))) (srcH (V0 (Proc.devRef .tc main_arg1))) (V0 (Proc.devRef .tc main_arg2))) (sliceW1H ![0, 0, 0] slices_S3x67x32_S1x67x32_0_0_0 (V0 (Proc.devRef .tc main_arg7))) (sliceB1H ![0, 0] slices_S3x32_S1x32_0_0 (V0 (Proc.devRef .tc main_arg8))) (sliceW2H ![0, 0, 0] slices_S3x32x64_S1x32x64_0_0_0 (V0 (Proc.devRef .tc main_arg9))) (slice64H ![0, 0] slices_S3x64_S1x64_0_0 (V0 (Proc.devRef .tc main_arg10)))) (dstH (V0 (Proc.devRef .tc main_arg1))) (invCntOfH (dstH (V0 (Proc.devRef .tc main_arg1))))) (slice64H ![0, 0] slices_S3x64_S1x64_0_0 (V0 (Proc.devRef .tc main_arg11))) (slice64H ![0, 0] slices_S3x64_S1x64_0_0 (V0 (Proc.devRef .tc main_arg12)))) (srcH (V0 (Proc.devRef .tc main_arg1))) (V0 (Proc.devRef .tc main_arg2))) (sliceW1H ![1, 0, 0] slices_S3x67x32_S1x67x32_1_0_0 (V0 (Proc.devRef .tc main_arg7))) (sliceB1H ![1, 0] slices_S3x32_S1x32_1_0 (V0 (Proc.devRef .tc main_arg8))) (sliceW2H ![1, 0, 0] slices_S3x32x64_S1x32x64_1_0_0 (V0 (Proc.devRef .tc main_arg9))) (slice64H ![1, 0] slices_S3x64_S1x64_1_0 (V0 (Proc.devRef .tc main_arg10)))) (dstH (V0 (Proc.devRef .tc main_arg1))) (invCntOfH (dstH (V0 (Proc.devRef .tc main_arg1))))) (slice64H ![1, 0] slices_S3x64_S1x64_1_0 (V0 (Proc.devRef .tc main_arg11))) (slice64H ![1, 0] slices_S3x64_S1x64_1_0 (V0 (Proc.devRef .tc main_arg12))) :=
  (val15_keep V0 main_v144 (by decide)).trans (val14_main_v144 V0)

/-- The contents after the first 16 segments. -/
def val16 (V0 : Valuation τ sig (Elt Ideal)) : Valuation τ sig (Elt Ideal) := after seg15 (val15 V0)
theorem val16_keep (V0 : Valuation τ sig (Elt Ideal)) (r : Ref sig .tc) (h : r ∉ seg15_W) :
    val16 V0 (Proc.devRef .tc r) = val15 V0 (Proc.devRef .tc r) :=
  after_of_writes_sub seg15 _ seg15_writes h
theorem val16_main_arg0 (V0 : Valuation τ sig (Elt Ideal)) : val16 V0 (no_index (Proc.devRef .tc main_arg0)) = V0 (Proc.devRef .tc main_arg0) :=
  (val16_keep V0 main_arg0 (by decide)).trans (val15_main_arg0 V0)
theorem val16_main_arg1 (V0 : Valuation τ sig (Elt Ideal)) : val16 V0 (no_index (Proc.devRef .tc main_arg1)) = V0 (Proc.devRef .tc main_arg1) :=
  (val16_keep V0 main_arg1 (by decide)).trans (val15_main_arg1 V0)
theorem val16_main_arg2 (V0 : Valuation τ sig (Elt Ideal)) : val16 V0 (no_index (Proc.devRef .tc main_arg2)) = V0 (Proc.devRef .tc main_arg2) :=
  (val16_keep V0 main_arg2 (by decide)).trans (val15_main_arg2 V0)
theorem val16_main_arg3 (V0 : Valuation τ sig (Elt Ideal)) : val16 V0 (no_index (Proc.devRef .tc main_arg3)) = V0 (Proc.devRef .tc main_arg3) :=
  (val16_keep V0 main_arg3 (by decide)).trans (val15_main_arg3 V0)
theorem val16_main_arg4 (V0 : Valuation τ sig (Elt Ideal)) : val16 V0 (no_index (Proc.devRef .tc main_arg4)) = V0 (Proc.devRef .tc main_arg4) :=
  (val16_keep V0 main_arg4 (by decide)).trans (val15_main_arg4 V0)
theorem val16_main_arg5 (V0 : Valuation τ sig (Elt Ideal)) : val16 V0 (no_index (Proc.devRef .tc main_arg5)) = V0 (Proc.devRef .tc main_arg5) :=
  (val16_keep V0 main_arg5 (by decide)).trans (val15_main_arg5 V0)
theorem val16_main_arg6 (V0 : Valuation τ sig (Elt Ideal)) : val16 V0 (no_index (Proc.devRef .tc main_arg6)) = V0 (Proc.devRef .tc main_arg6) :=
  (val16_keep V0 main_arg6 (by decide)).trans (val15_main_arg6 V0)
theorem val16_main_arg7 (V0 : Valuation τ sig (Elt Ideal)) : val16 V0 (no_index (Proc.devRef .tc main_arg7)) = V0 (Proc.devRef .tc main_arg7) :=
  (val16_keep V0 main_arg7 (by decide)).trans (val15_main_arg7 V0)
theorem val16_main_arg8 (V0 : Valuation τ sig (Elt Ideal)) : val16 V0 (no_index (Proc.devRef .tc main_arg8)) = V0 (Proc.devRef .tc main_arg8) :=
  (val16_keep V0 main_arg8 (by decide)).trans (val15_main_arg8 V0)
theorem val16_main_arg9 (V0 : Valuation τ sig (Elt Ideal)) : val16 V0 (no_index (Proc.devRef .tc main_arg9)) = V0 (Proc.devRef .tc main_arg9) :=
  (val16_keep V0 main_arg9 (by decide)).trans (val15_main_arg9 V0)
theorem val16_main_arg10 (V0 : Valuation τ sig (Elt Ideal)) : val16 V0 (no_index (Proc.devRef .tc main_arg10)) = V0 (Proc.devRef .tc main_arg10) :=
  (val16_keep V0 main_arg10 (by decide)).trans (val15_main_arg10 V0)
theorem val16_main_arg11 (V0 : Valuation τ sig (Elt Ideal)) : val16 V0 (no_index (Proc.devRef .tc main_arg11)) = V0 (Proc.devRef .tc main_arg11) :=
  (val16_keep V0 main_arg11 (by decide)).trans (val15_main_arg11 V0)
theorem val16_main_arg12 (V0 : Valuation τ sig (Elt Ideal)) : val16 V0 (no_index (Proc.devRef .tc main_arg12)) = V0 (Proc.devRef .tc main_arg12) :=
  (val16_keep V0 main_arg12 (by decide)).trans (val15_main_arg12 V0)
theorem val16_main_arg13 (V0 : Valuation τ sig (Elt Ideal)) : val16 V0 (no_index (Proc.devRef .tc main_arg13)) = V0 (Proc.devRef .tc main_arg13) :=
  (val16_keep V0 main_arg13 (by decide)).trans (val15_main_arg13 V0)
theorem val16_main_arg14 (V0 : Valuation τ sig (Elt Ideal)) : val16 V0 (no_index (Proc.devRef .tc main_arg14)) = V0 (Proc.devRef .tc main_arg14) :=
  (val16_keep V0 main_arg14 (by decide)).trans (val15_main_arg14 V0)
theorem val16_main_arg15 (V0 : Valuation τ sig (Elt Ideal)) : val16 V0 (no_index (Proc.devRef .tc main_arg15)) = V0 (Proc.devRef .tc main_arg15) :=
  (val16_keep V0 main_arg15 (by decide)).trans (val15_main_arg15 V0)
theorem val16_main_arg16 (V0 : Valuation τ sig (Elt Ideal)) : val16 V0 (no_index (Proc.devRef .tc main_arg16)) = V0 (Proc.devRef .tc main_arg16) :=
  (val16_keep V0 main_arg16 (by decide)).trans (val15_main_arg16 V0)
theorem val16_main_arg17 (V0 : Valuation τ sig (Elt Ideal)) : val16 V0 (no_index (Proc.devRef .tc main_arg17)) = V0 (Proc.devRef .tc main_arg17) :=
  (val16_keep V0 main_arg17 (by decide)).trans (val15_main_arg17 V0)
theorem val16_main_arg18 (V0 : Valuation τ sig (Elt Ideal)) : val16 V0 (no_index (Proc.devRef .tc main_arg18)) = V0 (Proc.devRef .tc main_arg18) :=
  (val16_keep V0 main_arg18 (by decide)).trans (val15_main_arg18 V0)
theorem val16_main_arg19 (V0 : Valuation τ sig (Elt Ideal)) : val16 V0 (no_index (Proc.devRef .tc main_arg19)) = V0 (Proc.devRef .tc main_arg19) :=
  (val16_keep V0 main_arg19 (by decide)).trans (val15_main_arg19 V0)
theorem val16_main_arg20 (V0 : Valuation τ sig (Elt Ideal)) : val16 V0 (no_index (Proc.devRef .tc main_arg20)) = V0 (Proc.devRef .tc main_arg20) :=
  (val16_keep V0 main_arg20 (by decide)).trans (val15_main_arg20 V0)
theorem val16_main_v3 (V0 : Valuation τ sig (Elt Ideal)) : val16 V0 (no_index (Proc.devRef .tc main_v3)) = dstH (V0 (Proc.devRef .tc main_arg1)) :=
  (val16_keep V0 main_v3 (by decide)).trans (val15_main_v3 V0)
theorem val16_main_v38 (V0 : Valuation τ sig (Elt Ideal)) : val16 V0 (no_index (Proc.devRef .tc main_v38)) = invCntOfH (dstH (V0 (Proc.devRef .tc main_arg1))) :=
  (val16_keep V0 main_v38 (by decide)).trans (val15_main_v38 V0)
theorem val16_main_v144 (V0 : Valuation τ sig (Elt Ideal)) : val16 V0 (no_index (Proc.devRef .tc main_v144)) = nodeH (nodeH (encodeH (V0 (Proc.devRef .tc main_arg0)) (V0 (Proc.devRef .tc main_arg3)) (V0 (Proc.devRef .tc main_arg4)) (V0 (Proc.devRef .tc main_arg5)) (V0 (Proc.devRef .tc main_arg6))) (aggOfH (edgeH (gatherCatOfH (encodeH (V0 (Proc.devRef .tc main_arg0)) (V0 (Proc.devRef .tc main_arg3)) (V0 (Proc.devRef .tc main_arg4)) (V0 (Proc.devRef .tc main_arg5)) (V0 (Proc.devRef .tc main_arg6))) (srcH (V0 (Proc.devRef .tc main_arg1))) (V0 (Proc.devRef .tc main_arg2))) (sliceW1H ![0, 0, 0] slices_S3x67x32_S1x67x32_0_0_0 (V0 (Proc.devRef .tc main_arg7))) (sliceB1H ![0, 0] slices_S3x32_S1x32_0_0 (V0 (Proc.devRef .tc main_arg8))) (sliceW2H ![0, 0, 0] slices_S3x32x64_S1x32x64_0_0_0 (V0 (Proc.devRef .tc main_arg9))) (slice64H ![0, 0] slices_S3x64_S1x64_0_0 (V0 (Proc.devRef .tc main_arg10)))) (dstH (V0 (Proc.devRef .tc main_arg1))) (invCntOfH (dstH (V0 (Proc.devRef .tc main_arg1))))) (slice64H ![0, 0] slices_S3x64_S1x64_0_0 (V0 (Proc.devRef .tc main_arg11))) (slice64H ![0, 0] slices_S3x64_S1x64_0_0 (V0 (Proc.devRef .tc main_arg12)))) (aggOfH (edgeH (gatherCatOfH (nodeH (encodeH (V0 (Proc.devRef .tc main_arg0)) (V0 (Proc.devRef .tc main_arg3)) (V0 (Proc.devRef .tc main_arg4)) (V0 (Proc.devRef .tc main_arg5)) (V0 (Proc.devRef .tc main_arg6))) (aggOfH (edgeH (gatherCatOfH (encodeH (V0 (Proc.devRef .tc main_arg0)) (V0 (Proc.devRef .tc main_arg3)) (V0 (Proc.devRef .tc main_arg4)) (V0 (Proc.devRef .tc main_arg5)) (V0 (Proc.devRef .tc main_arg6))) (srcH (V0 (Proc.devRef .tc main_arg1))) (V0 (Proc.devRef .tc main_arg2))) (sliceW1H ![0, 0, 0] slices_S3x67x32_S1x67x32_0_0_0 (V0 (Proc.devRef .tc main_arg7))) (sliceB1H ![0, 0] slices_S3x32_S1x32_0_0 (V0 (Proc.devRef .tc main_arg8))) (sliceW2H ![0, 0, 0] slices_S3x32x64_S1x32x64_0_0_0 (V0 (Proc.devRef .tc main_arg9))) (slice64H ![0, 0] slices_S3x64_S1x64_0_0 (V0 (Proc.devRef .tc main_arg10)))) (dstH (V0 (Proc.devRef .tc main_arg1))) (invCntOfH (dstH (V0 (Proc.devRef .tc main_arg1))))) (slice64H ![0, 0] slices_S3x64_S1x64_0_0 (V0 (Proc.devRef .tc main_arg11))) (slice64H ![0, 0] slices_S3x64_S1x64_0_0 (V0 (Proc.devRef .tc main_arg12)))) (srcH (V0 (Proc.devRef .tc main_arg1))) (V0 (Proc.devRef .tc main_arg2))) (sliceW1H ![1, 0, 0] slices_S3x67x32_S1x67x32_1_0_0 (V0 (Proc.devRef .tc main_arg7))) (sliceB1H ![1, 0] slices_S3x32_S1x32_1_0 (V0 (Proc.devRef .tc main_arg8))) (sliceW2H ![1, 0, 0] slices_S3x32x64_S1x32x64_1_0_0 (V0 (Proc.devRef .tc main_arg9))) (slice64H ![1, 0] slices_S3x64_S1x64_1_0 (V0 (Proc.devRef .tc main_arg10)))) (dstH (V0 (Proc.devRef .tc main_arg1))) (invCntOfH (dstH (V0 (Proc.devRef .tc main_arg1))))) (slice64H ![1, 0] slices_S3x64_S1x64_1_0 (V0 (Proc.devRef .tc main_arg11))) (slice64H ![1, 0] slices_S3x64_S1x64_1_0 (V0 (Proc.devRef .tc main_arg12))) :=
  (val16_keep V0 main_v144 (by decide)).trans (val15_main_v144 V0)
set_option maxRecDepth 8192 in
set_option maxHeartbeats 4000000 in
theorem val16_main_v169 (V0 : Valuation τ sig (Elt Ideal)) : val16 V0 (no_index (Proc.devRef .tc main_v169)) = edgeH (gatherCatOfH (nodeH (nodeH (encodeH (V0 (Proc.devRef .tc main_arg0)) (V0 (Proc.devRef .tc main_arg3)) (V0 (Proc.devRef .tc main_arg4)) (V0 (Proc.devRef .tc main_arg5)) (V0 (Proc.devRef .tc main_arg6))) (aggOfH (edgeH (gatherCatOfH (encodeH (V0 (Proc.devRef .tc main_arg0)) (V0 (Proc.devRef .tc main_arg3)) (V0 (Proc.devRef .tc main_arg4)) (V0 (Proc.devRef .tc main_arg5)) (V0 (Proc.devRef .tc main_arg6))) (srcH (V0 (Proc.devRef .tc main_arg1))) (V0 (Proc.devRef .tc main_arg2))) (sliceW1H ![0, 0, 0] slices_S3x67x32_S1x67x32_0_0_0 (V0 (Proc.devRef .tc main_arg7))) (sliceB1H ![0, 0] slices_S3x32_S1x32_0_0 (V0 (Proc.devRef .tc main_arg8))) (sliceW2H ![0, 0, 0] slices_S3x32x64_S1x32x64_0_0_0 (V0 (Proc.devRef .tc main_arg9))) (slice64H ![0, 0] slices_S3x64_S1x64_0_0 (V0 (Proc.devRef .tc main_arg10)))) (dstH (V0 (Proc.devRef .tc main_arg1))) (invCntOfH (dstH (V0 (Proc.devRef .tc main_arg1))))) (slice64H ![0, 0] slices_S3x64_S1x64_0_0 (V0 (Proc.devRef .tc main_arg11))) (slice64H ![0, 0] slices_S3x64_S1x64_0_0 (V0 (Proc.devRef .tc main_arg12)))) (aggOfH (edgeH (gatherCatOfH (nodeH (encodeH (V0 (Proc.devRef .tc main_arg0)) (V0 (Proc.devRef .tc main_arg3)) (V0 (Proc.devRef .tc main_arg4)) (V0 (Proc.devRef .tc main_arg5)) (V0 (Proc.devRef .tc main_arg6))) (aggOfH (edgeH (gatherCatOfH (encodeH (V0 (Proc.devRef .tc main_arg0)) (V0 (Proc.devRef .tc main_arg3)) (V0 (Proc.devRef .tc main_arg4)) (V0 (Proc.devRef .tc main_arg5)) (V0 (Proc.devRef .tc main_arg6))) (srcH (V0 (Proc.devRef .tc main_arg1))) (V0 (Proc.devRef .tc main_arg2))) (sliceW1H ![0, 0, 0] slices_S3x67x32_S1x67x32_0_0_0 (V0 (Proc.devRef .tc main_arg7))) (sliceB1H ![0, 0] slices_S3x32_S1x32_0_0 (V0 (Proc.devRef .tc main_arg8))) (sliceW2H ![0, 0, 0] slices_S3x32x64_S1x32x64_0_0_0 (V0 (Proc.devRef .tc main_arg9))) (slice64H ![0, 0] slices_S3x64_S1x64_0_0 (V0 (Proc.devRef .tc main_arg10)))) (dstH (V0 (Proc.devRef .tc main_arg1))) (invCntOfH (dstH (V0 (Proc.devRef .tc main_arg1))))) (slice64H ![0, 0] slices_S3x64_S1x64_0_0 (V0 (Proc.devRef .tc main_arg11))) (slice64H ![0, 0] slices_S3x64_S1x64_0_0 (V0 (Proc.devRef .tc main_arg12)))) (srcH (V0 (Proc.devRef .tc main_arg1))) (V0 (Proc.devRef .tc main_arg2))) (sliceW1H ![1, 0, 0] slices_S3x67x32_S1x67x32_1_0_0 (V0 (Proc.devRef .tc main_arg7))) (sliceB1H ![1, 0] slices_S3x32_S1x32_1_0 (V0 (Proc.devRef .tc main_arg8))) (sliceW2H ![1, 0, 0] slices_S3x32x64_S1x32x64_1_0_0 (V0 (Proc.devRef .tc main_arg9))) (slice64H ![1, 0] slices_S3x64_S1x64_1_0 (V0 (Proc.devRef .tc main_arg10)))) (dstH (V0 (Proc.devRef .tc main_arg1))) (invCntOfH (dstH (V0 (Proc.devRef .tc main_arg1))))) (slice64H ![1, 0] slices_S3x64_S1x64_1_0 (V0 (Proc.devRef .tc main_arg11))) (slice64H ![1, 0] slices_S3x64_S1x64_1_0 (V0 (Proc.devRef .tc main_arg12)))) (srcH (V0 (Proc.devRef .tc main_arg1))) (V0 (Proc.devRef .tc main_arg2))) (sliceW1H ![2, 0, 0] slices_S3x67x32_S1x67x32_2_0_0 (V0 (Proc.devRef .tc main_arg7))) (sliceB1H ![2, 0] slices_S3x32_S1x32_2_0 (V0 (Proc.devRef .tc main_arg8))) (sliceW2H ![2, 0, 0] slices_S3x32x64_S1x32x64_2_0_0 (V0 (Proc.devRef .tc main_arg9))) (slice64H ![2, 0] slices_S3x64_S1x64_2_0 (V0 (Proc.devRef .tc main_arg10))) := by
  simp only [val16, val15, seg15, seg14]
  host_line_results
  simp only [val14_main_arg10, val14_main_arg9, val14_main_arg8, val14_main_arg7, val14_main_v152]
  rfl

/-- The contents after the first 17 segments. -/
def val17 (V0 : Valuation τ sig (Elt Ideal)) : Valuation τ sig (Elt Ideal) := after seg16 (val16 V0)
theorem val17_keep (V0 : Valuation τ sig (Elt Ideal)) (r : Ref sig .tc) (h : r ∉ seg16_W) :
    val17 V0 (Proc.devRef .tc r) = val16 V0 (Proc.devRef .tc r) :=
  after_of_writes_sub seg16 _ seg16_writes h
theorem val17_main_arg0 (V0 : Valuation τ sig (Elt Ideal)) : val17 V0 (no_index (Proc.devRef .tc main_arg0)) = V0 (Proc.devRef .tc main_arg0) :=
  (val17_keep V0 main_arg0 (by decide)).trans (val16_main_arg0 V0)
theorem val17_main_arg1 (V0 : Valuation τ sig (Elt Ideal)) : val17 V0 (no_index (Proc.devRef .tc main_arg1)) = V0 (Proc.devRef .tc main_arg1) :=
  (val17_keep V0 main_arg1 (by decide)).trans (val16_main_arg1 V0)
theorem val17_main_arg2 (V0 : Valuation τ sig (Elt Ideal)) : val17 V0 (no_index (Proc.devRef .tc main_arg2)) = V0 (Proc.devRef .tc main_arg2) :=
  (val17_keep V0 main_arg2 (by decide)).trans (val16_main_arg2 V0)
theorem val17_main_arg3 (V0 : Valuation τ sig (Elt Ideal)) : val17 V0 (no_index (Proc.devRef .tc main_arg3)) = V0 (Proc.devRef .tc main_arg3) :=
  (val17_keep V0 main_arg3 (by decide)).trans (val16_main_arg3 V0)
theorem val17_main_arg4 (V0 : Valuation τ sig (Elt Ideal)) : val17 V0 (no_index (Proc.devRef .tc main_arg4)) = V0 (Proc.devRef .tc main_arg4) :=
  (val17_keep V0 main_arg4 (by decide)).trans (val16_main_arg4 V0)
theorem val17_main_arg5 (V0 : Valuation τ sig (Elt Ideal)) : val17 V0 (no_index (Proc.devRef .tc main_arg5)) = V0 (Proc.devRef .tc main_arg5) :=
  (val17_keep V0 main_arg5 (by decide)).trans (val16_main_arg5 V0)
theorem val17_main_arg6 (V0 : Valuation τ sig (Elt Ideal)) : val17 V0 (no_index (Proc.devRef .tc main_arg6)) = V0 (Proc.devRef .tc main_arg6) :=
  (val17_keep V0 main_arg6 (by decide)).trans (val16_main_arg6 V0)
theorem val17_main_arg7 (V0 : Valuation τ sig (Elt Ideal)) : val17 V0 (no_index (Proc.devRef .tc main_arg7)) = V0 (Proc.devRef .tc main_arg7) :=
  (val17_keep V0 main_arg7 (by decide)).trans (val16_main_arg7 V0)
theorem val17_main_arg8 (V0 : Valuation τ sig (Elt Ideal)) : val17 V0 (no_index (Proc.devRef .tc main_arg8)) = V0 (Proc.devRef .tc main_arg8) :=
  (val17_keep V0 main_arg8 (by decide)).trans (val16_main_arg8 V0)
theorem val17_main_arg9 (V0 : Valuation τ sig (Elt Ideal)) : val17 V0 (no_index (Proc.devRef .tc main_arg9)) = V0 (Proc.devRef .tc main_arg9) :=
  (val17_keep V0 main_arg9 (by decide)).trans (val16_main_arg9 V0)
theorem val17_main_arg10 (V0 : Valuation τ sig (Elt Ideal)) : val17 V0 (no_index (Proc.devRef .tc main_arg10)) = V0 (Proc.devRef .tc main_arg10) :=
  (val17_keep V0 main_arg10 (by decide)).trans (val16_main_arg10 V0)
theorem val17_main_arg11 (V0 : Valuation τ sig (Elt Ideal)) : val17 V0 (no_index (Proc.devRef .tc main_arg11)) = V0 (Proc.devRef .tc main_arg11) :=
  (val17_keep V0 main_arg11 (by decide)).trans (val16_main_arg11 V0)
theorem val17_main_arg12 (V0 : Valuation τ sig (Elt Ideal)) : val17 V0 (no_index (Proc.devRef .tc main_arg12)) = V0 (Proc.devRef .tc main_arg12) :=
  (val17_keep V0 main_arg12 (by decide)).trans (val16_main_arg12 V0)
theorem val17_main_arg13 (V0 : Valuation τ sig (Elt Ideal)) : val17 V0 (no_index (Proc.devRef .tc main_arg13)) = V0 (Proc.devRef .tc main_arg13) :=
  (val17_keep V0 main_arg13 (by decide)).trans (val16_main_arg13 V0)
theorem val17_main_arg14 (V0 : Valuation τ sig (Elt Ideal)) : val17 V0 (no_index (Proc.devRef .tc main_arg14)) = V0 (Proc.devRef .tc main_arg14) :=
  (val17_keep V0 main_arg14 (by decide)).trans (val16_main_arg14 V0)
theorem val17_main_arg15 (V0 : Valuation τ sig (Elt Ideal)) : val17 V0 (no_index (Proc.devRef .tc main_arg15)) = V0 (Proc.devRef .tc main_arg15) :=
  (val17_keep V0 main_arg15 (by decide)).trans (val16_main_arg15 V0)
theorem val17_main_arg16 (V0 : Valuation τ sig (Elt Ideal)) : val17 V0 (no_index (Proc.devRef .tc main_arg16)) = V0 (Proc.devRef .tc main_arg16) :=
  (val17_keep V0 main_arg16 (by decide)).trans (val16_main_arg16 V0)
theorem val17_main_arg17 (V0 : Valuation τ sig (Elt Ideal)) : val17 V0 (no_index (Proc.devRef .tc main_arg17)) = V0 (Proc.devRef .tc main_arg17) :=
  (val17_keep V0 main_arg17 (by decide)).trans (val16_main_arg17 V0)
theorem val17_main_arg18 (V0 : Valuation τ sig (Elt Ideal)) : val17 V0 (no_index (Proc.devRef .tc main_arg18)) = V0 (Proc.devRef .tc main_arg18) :=
  (val17_keep V0 main_arg18 (by decide)).trans (val16_main_arg18 V0)
theorem val17_main_arg19 (V0 : Valuation τ sig (Elt Ideal)) : val17 V0 (no_index (Proc.devRef .tc main_arg19)) = V0 (Proc.devRef .tc main_arg19) :=
  (val17_keep V0 main_arg19 (by decide)).trans (val16_main_arg19 V0)
theorem val17_main_arg20 (V0 : Valuation τ sig (Elt Ideal)) : val17 V0 (no_index (Proc.devRef .tc main_arg20)) = V0 (Proc.devRef .tc main_arg20) :=
  (val17_keep V0 main_arg20 (by decide)).trans (val16_main_arg20 V0)
theorem val17_main_v144 (V0 : Valuation τ sig (Elt Ideal)) : val17 V0 (no_index (Proc.devRef .tc main_v144)) = nodeH (nodeH (encodeH (V0 (Proc.devRef .tc main_arg0)) (V0 (Proc.devRef .tc main_arg3)) (V0 (Proc.devRef .tc main_arg4)) (V0 (Proc.devRef .tc main_arg5)) (V0 (Proc.devRef .tc main_arg6))) (aggOfH (edgeH (gatherCatOfH (encodeH (V0 (Proc.devRef .tc main_arg0)) (V0 (Proc.devRef .tc main_arg3)) (V0 (Proc.devRef .tc main_arg4)) (V0 (Proc.devRef .tc main_arg5)) (V0 (Proc.devRef .tc main_arg6))) (srcH (V0 (Proc.devRef .tc main_arg1))) (V0 (Proc.devRef .tc main_arg2))) (sliceW1H ![0, 0, 0] slices_S3x67x32_S1x67x32_0_0_0 (V0 (Proc.devRef .tc main_arg7))) (sliceB1H ![0, 0] slices_S3x32_S1x32_0_0 (V0 (Proc.devRef .tc main_arg8))) (sliceW2H ![0, 0, 0] slices_S3x32x64_S1x32x64_0_0_0 (V0 (Proc.devRef .tc main_arg9))) (slice64H ![0, 0] slices_S3x64_S1x64_0_0 (V0 (Proc.devRef .tc main_arg10)))) (dstH (V0 (Proc.devRef .tc main_arg1))) (invCntOfH (dstH (V0 (Proc.devRef .tc main_arg1))))) (slice64H ![0, 0] slices_S3x64_S1x64_0_0 (V0 (Proc.devRef .tc main_arg11))) (slice64H ![0, 0] slices_S3x64_S1x64_0_0 (V0 (Proc.devRef .tc main_arg12)))) (aggOfH (edgeH (gatherCatOfH (nodeH (encodeH (V0 (Proc.devRef .tc main_arg0)) (V0 (Proc.devRef .tc main_arg3)) (V0 (Proc.devRef .tc main_arg4)) (V0 (Proc.devRef .tc main_arg5)) (V0 (Proc.devRef .tc main_arg6))) (aggOfH (edgeH (gatherCatOfH (encodeH (V0 (Proc.devRef .tc main_arg0)) (V0 (Proc.devRef .tc main_arg3)) (V0 (Proc.devRef .tc main_arg4)) (V0 (Proc.devRef .tc main_arg5)) (V0 (Proc.devRef .tc main_arg6))) (srcH (V0 (Proc.devRef .tc main_arg1))) (V0 (Proc.devRef .tc main_arg2))) (sliceW1H ![0, 0, 0] slices_S3x67x32_S1x67x32_0_0_0 (V0 (Proc.devRef .tc main_arg7))) (sliceB1H ![0, 0] slices_S3x32_S1x32_0_0 (V0 (Proc.devRef .tc main_arg8))) (sliceW2H ![0, 0, 0] slices_S3x32x64_S1x32x64_0_0_0 (V0 (Proc.devRef .tc main_arg9))) (slice64H ![0, 0] slices_S3x64_S1x64_0_0 (V0 (Proc.devRef .tc main_arg10)))) (dstH (V0 (Proc.devRef .tc main_arg1))) (invCntOfH (dstH (V0 (Proc.devRef .tc main_arg1))))) (slice64H ![0, 0] slices_S3x64_S1x64_0_0 (V0 (Proc.devRef .tc main_arg11))) (slice64H ![0, 0] slices_S3x64_S1x64_0_0 (V0 (Proc.devRef .tc main_arg12)))) (srcH (V0 (Proc.devRef .tc main_arg1))) (V0 (Proc.devRef .tc main_arg2))) (sliceW1H ![1, 0, 0] slices_S3x67x32_S1x67x32_1_0_0 (V0 (Proc.devRef .tc main_arg7))) (sliceB1H ![1, 0] slices_S3x32_S1x32_1_0 (V0 (Proc.devRef .tc main_arg8))) (sliceW2H ![1, 0, 0] slices_S3x32x64_S1x32x64_1_0_0 (V0 (Proc.devRef .tc main_arg9))) (slice64H ![1, 0] slices_S3x64_S1x64_1_0 (V0 (Proc.devRef .tc main_arg10)))) (dstH (V0 (Proc.devRef .tc main_arg1))) (invCntOfH (dstH (V0 (Proc.devRef .tc main_arg1))))) (slice64H ![1, 0] slices_S3x64_S1x64_1_0 (V0 (Proc.devRef .tc main_arg11))) (slice64H ![1, 0] slices_S3x64_S1x64_1_0 (V0 (Proc.devRef .tc main_arg12))) :=
  (val17_keep V0 main_v144 (by decide)).trans (val16_main_v144 V0)
set_option maxRecDepth 8192 in
set_option maxHeartbeats 4000000 in
theorem val17_main_v174 (V0 : Valuation τ sig (Elt Ideal)) : val17 V0 (no_index (Proc.devRef .tc main_v174)) = aggOfH (edgeH (gatherCatOfH (nodeH (nodeH (encodeH (V0 (Proc.devRef .tc main_arg0)) (V0 (Proc.devRef .tc main_arg3)) (V0 (Proc.devRef .tc main_arg4)) (V0 (Proc.devRef .tc main_arg5)) (V0 (Proc.devRef .tc main_arg6))) (aggOfH (edgeH (gatherCatOfH (encodeH (V0 (Proc.devRef .tc main_arg0)) (V0 (Proc.devRef .tc main_arg3)) (V0 (Proc.devRef .tc main_arg4)) (V0 (Proc.devRef .tc main_arg5)) (V0 (Proc.devRef .tc main_arg6))) (srcH (V0 (Proc.devRef .tc main_arg1))) (V0 (Proc.devRef .tc main_arg2))) (sliceW1H ![0, 0, 0] slices_S3x67x32_S1x67x32_0_0_0 (V0 (Proc.devRef .tc main_arg7))) (sliceB1H ![0, 0] slices_S3x32_S1x32_0_0 (V0 (Proc.devRef .tc main_arg8))) (sliceW2H ![0, 0, 0] slices_S3x32x64_S1x32x64_0_0_0 (V0 (Proc.devRef .tc main_arg9))) (slice64H ![0, 0] slices_S3x64_S1x64_0_0 (V0 (Proc.devRef .tc main_arg10)))) (dstH (V0 (Proc.devRef .tc main_arg1))) (invCntOfH (dstH (V0 (Proc.devRef .tc main_arg1))))) (slice64H ![0, 0] slices_S3x64_S1x64_0_0 (V0 (Proc.devRef .tc main_arg11))) (slice64H ![0, 0] slices_S3x64_S1x64_0_0 (V0 (Proc.devRef .tc main_arg12)))) (aggOfH (edgeH (gatherCatOfH (nodeH (encodeH (V0 (Proc.devRef .tc main_arg0)) (V0 (Proc.devRef .tc main_arg3)) (V0 (Proc.devRef .tc main_arg4)) (V0 (Proc.devRef .tc main_arg5)) (V0 (Proc.devRef .tc main_arg6))) (aggOfH (edgeH (gatherCatOfH (encodeH (V0 (Proc.devRef .tc main_arg0)) (V0 (Proc.devRef .tc main_arg3)) (V0 (Proc.devRef .tc main_arg4)) (V0 (Proc.devRef .tc main_arg5)) (V0 (Proc.devRef .tc main_arg6))) (srcH (V0 (Proc.devRef .tc main_arg1))) (V0 (Proc.devRef .tc main_arg2))) (sliceW1H ![0, 0, 0] slices_S3x67x32_S1x67x32_0_0_0 (V0 (Proc.devRef .tc main_arg7))) (sliceB1H ![0, 0] slices_S3x32_S1x32_0_0 (V0 (Proc.devRef .tc main_arg8))) (sliceW2H ![0, 0, 0] slices_S3x32x64_S1x32x64_0_0_0 (V0 (Proc.devRef .tc main_arg9))) (slice64H ![0, 0] slices_S3x64_S1x64_0_0 (V0 (Proc.devRef .tc main_arg10)))) (dstH (V0 (Proc.devRef .tc main_arg1))) (invCntOfH (dstH (V0 (Proc.devRef .tc main_arg1))))) (slice64H ![0, 0] slices_S3x64_S1x64_0_0 (V0 (Proc.devRef .tc main_arg11))) (slice64H ![0, 0] slices_S3x64_S1x64_0_0 (V0 (Proc.devRef .tc main_arg12)))) (srcH (V0 (Proc.devRef .tc main_arg1))) (V0 (Proc.devRef .tc main_arg2))) (sliceW1H ![1, 0, 0] slices_S3x67x32_S1x67x32_1_0_0 (V0 (Proc.devRef .tc main_arg7))) (sliceB1H ![1, 0] slices_S3x32_S1x32_1_0 (V0 (Proc.devRef .tc main_arg8))) (sliceW2H ![1, 0, 0] slices_S3x32x64_S1x32x64_1_0_0 (V0 (Proc.devRef .tc main_arg9))) (slice64H ![1, 0] slices_S3x64_S1x64_1_0 (V0 (Proc.devRef .tc main_arg10)))) (dstH (V0 (Proc.devRef .tc main_arg1))) (invCntOfH (dstH (V0 (Proc.devRef .tc main_arg1))))) (slice64H ![1, 0] slices_S3x64_S1x64_1_0 (V0 (Proc.devRef .tc main_arg11))) (slice64H ![1, 0] slices_S3x64_S1x64_1_0 (V0 (Proc.devRef .tc main_arg12)))) (srcH (V0 (Proc.devRef .tc main_arg1))) (V0 (Proc.devRef .tc main_arg2))) (sliceW1H ![2, 0, 0] slices_S3x67x32_S1x67x32_2_0_0 (V0 (Proc.devRef .tc main_arg7))) (sliceB1H ![2, 0] slices_S3x32_S1x32_2_0 (V0 (Proc.devRef .tc main_arg8))) (sliceW2H ![2, 0, 0] slices_S3x32x64_S1x32x64_2_0_0 (V0 (Proc.devRef .tc main_arg9))) (slice64H ![2, 0] slices_S3x64_S1x64_2_0 (V0 (Proc.devRef .tc main_arg10)))) (dstH (V0 (Proc.devRef .tc main_arg1))) (invCntOfH (dstH (V0 (Proc.devRef .tc main_arg1)))) := by
  simp only [val17, seg16]
  host_line_results
  simp only [val16_main_v38, val16_main_v169, val16_main_v3]
  rfl

/-- The contents after the first 18 segments. -/
def val18 (V0 : Valuation τ sig (Elt Ideal)) : Valuation τ sig (Elt Ideal) := after seg17 (val17 V0)
theorem val18_keep (V0 : Valuation τ sig (Elt Ideal)) (r : Ref sig .tc) (h : r ∉ seg17_W) :
    val18 V0 (Proc.devRef .tc r) = val17 V0 (Proc.devRef .tc r) :=
  after_of_writes_sub seg17 _ seg17_writes h
theorem val18_main_arg0 (V0 : Valuation τ sig (Elt Ideal)) : val18 V0 (no_index (Proc.devRef .tc main_arg0)) = V0 (Proc.devRef .tc main_arg0) :=
  (val18_keep V0 main_arg0 (by decide)).trans (val17_main_arg0 V0)
theorem val18_main_arg1 (V0 : Valuation τ sig (Elt Ideal)) : val18 V0 (no_index (Proc.devRef .tc main_arg1)) = V0 (Proc.devRef .tc main_arg1) :=
  (val18_keep V0 main_arg1 (by decide)).trans (val17_main_arg1 V0)
theorem val18_main_arg2 (V0 : Valuation τ sig (Elt Ideal)) : val18 V0 (no_index (Proc.devRef .tc main_arg2)) = V0 (Proc.devRef .tc main_arg2) :=
  (val18_keep V0 main_arg2 (by decide)).trans (val17_main_arg2 V0)
theorem val18_main_arg3 (V0 : Valuation τ sig (Elt Ideal)) : val18 V0 (no_index (Proc.devRef .tc main_arg3)) = V0 (Proc.devRef .tc main_arg3) :=
  (val18_keep V0 main_arg3 (by decide)).trans (val17_main_arg3 V0)
theorem val18_main_arg4 (V0 : Valuation τ sig (Elt Ideal)) : val18 V0 (no_index (Proc.devRef .tc main_arg4)) = V0 (Proc.devRef .tc main_arg4) :=
  (val18_keep V0 main_arg4 (by decide)).trans (val17_main_arg4 V0)
theorem val18_main_arg5 (V0 : Valuation τ sig (Elt Ideal)) : val18 V0 (no_index (Proc.devRef .tc main_arg5)) = V0 (Proc.devRef .tc main_arg5) :=
  (val18_keep V0 main_arg5 (by decide)).trans (val17_main_arg5 V0)
theorem val18_main_arg6 (V0 : Valuation τ sig (Elt Ideal)) : val18 V0 (no_index (Proc.devRef .tc main_arg6)) = V0 (Proc.devRef .tc main_arg6) :=
  (val18_keep V0 main_arg6 (by decide)).trans (val17_main_arg6 V0)
theorem val18_main_arg7 (V0 : Valuation τ sig (Elt Ideal)) : val18 V0 (no_index (Proc.devRef .tc main_arg7)) = V0 (Proc.devRef .tc main_arg7) :=
  (val18_keep V0 main_arg7 (by decide)).trans (val17_main_arg7 V0)
theorem val18_main_arg8 (V0 : Valuation τ sig (Elt Ideal)) : val18 V0 (no_index (Proc.devRef .tc main_arg8)) = V0 (Proc.devRef .tc main_arg8) :=
  (val18_keep V0 main_arg8 (by decide)).trans (val17_main_arg8 V0)
theorem val18_main_arg9 (V0 : Valuation τ sig (Elt Ideal)) : val18 V0 (no_index (Proc.devRef .tc main_arg9)) = V0 (Proc.devRef .tc main_arg9) :=
  (val18_keep V0 main_arg9 (by decide)).trans (val17_main_arg9 V0)
theorem val18_main_arg10 (V0 : Valuation τ sig (Elt Ideal)) : val18 V0 (no_index (Proc.devRef .tc main_arg10)) = V0 (Proc.devRef .tc main_arg10) :=
  (val18_keep V0 main_arg10 (by decide)).trans (val17_main_arg10 V0)
theorem val18_main_arg11 (V0 : Valuation τ sig (Elt Ideal)) : val18 V0 (no_index (Proc.devRef .tc main_arg11)) = V0 (Proc.devRef .tc main_arg11) :=
  (val18_keep V0 main_arg11 (by decide)).trans (val17_main_arg11 V0)
theorem val18_main_arg12 (V0 : Valuation τ sig (Elt Ideal)) : val18 V0 (no_index (Proc.devRef .tc main_arg12)) = V0 (Proc.devRef .tc main_arg12) :=
  (val18_keep V0 main_arg12 (by decide)).trans (val17_main_arg12 V0)
theorem val18_main_arg13 (V0 : Valuation τ sig (Elt Ideal)) : val18 V0 (no_index (Proc.devRef .tc main_arg13)) = V0 (Proc.devRef .tc main_arg13) :=
  (val18_keep V0 main_arg13 (by decide)).trans (val17_main_arg13 V0)
theorem val18_main_arg14 (V0 : Valuation τ sig (Elt Ideal)) : val18 V0 (no_index (Proc.devRef .tc main_arg14)) = V0 (Proc.devRef .tc main_arg14) :=
  (val18_keep V0 main_arg14 (by decide)).trans (val17_main_arg14 V0)
theorem val18_main_arg15 (V0 : Valuation τ sig (Elt Ideal)) : val18 V0 (no_index (Proc.devRef .tc main_arg15)) = V0 (Proc.devRef .tc main_arg15) :=
  (val18_keep V0 main_arg15 (by decide)).trans (val17_main_arg15 V0)
theorem val18_main_arg16 (V0 : Valuation τ sig (Elt Ideal)) : val18 V0 (no_index (Proc.devRef .tc main_arg16)) = V0 (Proc.devRef .tc main_arg16) :=
  (val18_keep V0 main_arg16 (by decide)).trans (val17_main_arg16 V0)
theorem val18_main_arg17 (V0 : Valuation τ sig (Elt Ideal)) : val18 V0 (no_index (Proc.devRef .tc main_arg17)) = V0 (Proc.devRef .tc main_arg17) :=
  (val18_keep V0 main_arg17 (by decide)).trans (val17_main_arg17 V0)
theorem val18_main_arg18 (V0 : Valuation τ sig (Elt Ideal)) : val18 V0 (no_index (Proc.devRef .tc main_arg18)) = V0 (Proc.devRef .tc main_arg18) :=
  (val18_keep V0 main_arg18 (by decide)).trans (val17_main_arg18 V0)
theorem val18_main_arg19 (V0 : Valuation τ sig (Elt Ideal)) : val18 V0 (no_index (Proc.devRef .tc main_arg19)) = V0 (Proc.devRef .tc main_arg19) :=
  (val18_keep V0 main_arg19 (by decide)).trans (val17_main_arg19 V0)
theorem val18_main_arg20 (V0 : Valuation τ sig (Elt Ideal)) : val18 V0 (no_index (Proc.devRef .tc main_arg20)) = V0 (Proc.devRef .tc main_arg20) :=
  (val18_keep V0 main_arg20 (by decide)).trans (val17_main_arg20 V0)
set_option maxRecDepth 8192 in
set_option maxHeartbeats 4000000 in
theorem val18_main_v197 (V0 : Valuation τ sig (Elt Ideal)) : val18 V0 (no_index (Proc.devRef .tc main_v197)) = nodeH (nodeH (nodeH (encodeH (V0 (Proc.devRef .tc main_arg0)) (V0 (Proc.devRef .tc main_arg3)) (V0 (Proc.devRef .tc main_arg4)) (V0 (Proc.devRef .tc main_arg5)) (V0 (Proc.devRef .tc main_arg6))) (aggOfH (edgeH (gatherCatOfH (encodeH (V0 (Proc.devRef .tc main_arg0)) (V0 (Proc.devRef .tc main_arg3)) (V0 (Proc.devRef .tc main_arg4)) (V0 (Proc.devRef .tc main_arg5)) (V0 (Proc.devRef .tc main_arg6))) (srcH (V0 (Proc.devRef .tc main_arg1))) (V0 (Proc.devRef .tc main_arg2))) (sliceW1H ![0, 0, 0] slices_S3x67x32_S1x67x32_0_0_0 (V0 (Proc.devRef .tc main_arg7))) (sliceB1H ![0, 0] slices_S3x32_S1x32_0_0 (V0 (Proc.devRef .tc main_arg8))) (sliceW2H ![0, 0, 0] slices_S3x32x64_S1x32x64_0_0_0 (V0 (Proc.devRef .tc main_arg9))) (slice64H ![0, 0] slices_S3x64_S1x64_0_0 (V0 (Proc.devRef .tc main_arg10)))) (dstH (V0 (Proc.devRef .tc main_arg1))) (invCntOfH (dstH (V0 (Proc.devRef .tc main_arg1))))) (slice64H ![0, 0] slices_S3x64_S1x64_0_0 (V0 (Proc.devRef .tc main_arg11))) (slice64H ![0, 0] slices_S3x64_S1x64_0_0 (V0 (Proc.devRef .tc main_arg12)))) (aggOfH (edgeH (gatherCatOfH (nodeH (encodeH (V0 (Proc.devRef .tc main_arg0)) (V0 (Proc.devRef .tc main_arg3)) (V0 (Proc.devRef .tc main_arg4)) (V0 (Proc.devRef .tc main_arg5)) (V0 (Proc.devRef .tc main_arg6))) (aggOfH (edgeH (gatherCatOfH (encodeH (V0 (Proc.devRef .tc main_arg0)) (V0 (Proc.devRef .tc main_arg3)) (V0 (Proc.devRef .tc main_arg4)) (V0 (Proc.devRef .tc main_arg5)) (V0 (Proc.devRef .tc main_arg6))) (srcH (V0 (Proc.devRef .tc main_arg1))) (V0 (Proc.devRef .tc main_arg2))) (sliceW1H ![0, 0, 0] slices_S3x67x32_S1x67x32_0_0_0 (V0 (Proc.devRef .tc main_arg7))) (sliceB1H ![0, 0] slices_S3x32_S1x32_0_0 (V0 (Proc.devRef .tc main_arg8))) (sliceW2H ![0, 0, 0] slices_S3x32x64_S1x32x64_0_0_0 (V0 (Proc.devRef .tc main_arg9))) (slice64H ![0, 0] slices_S3x64_S1x64_0_0 (V0 (Proc.devRef .tc main_arg10)))) (dstH (V0 (Proc.devRef .tc main_arg1))) (invCntOfH (dstH (V0 (Proc.devRef .tc main_arg1))))) (slice64H ![0, 0] slices_S3x64_S1x64_0_0 (V0 (Proc.devRef .tc main_arg11))) (slice64H ![0, 0] slices_S3x64_S1x64_0_0 (V0 (Proc.devRef .tc main_arg12)))) (srcH (V0 (Proc.devRef .tc main_arg1))) (V0 (Proc.devRef .tc main_arg2))) (sliceW1H ![1, 0, 0] slices_S3x67x32_S1x67x32_1_0_0 (V0 (Proc.devRef .tc main_arg7))) (sliceB1H ![1, 0] slices_S3x32_S1x32_1_0 (V0 (Proc.devRef .tc main_arg8))) (sliceW2H ![1, 0, 0] slices_S3x32x64_S1x32x64_1_0_0 (V0 (Proc.devRef .tc main_arg9))) (slice64H ![1, 0] slices_S3x64_S1x64_1_0 (V0 (Proc.devRef .tc main_arg10)))) (dstH (V0 (Proc.devRef .tc main_arg1))) (invCntOfH (dstH (V0 (Proc.devRef .tc main_arg1))))) (slice64H ![1, 0] slices_S3x64_S1x64_1_0 (V0 (Proc.devRef .tc main_arg11))) (slice64H ![1, 0] slices_S3x64_S1x64_1_0 (V0 (Proc.devRef .tc main_arg12)))) (aggOfH (edgeH (gatherCatOfH (nodeH (nodeH (encodeH (V0 (Proc.devRef .tc main_arg0)) (V0 (Proc.devRef .tc main_arg3)) (V0 (Proc.devRef .tc main_arg4)) (V0 (Proc.devRef .tc main_arg5)) (V0 (Proc.devRef .tc main_arg6))) (aggOfH (edgeH (gatherCatOfH (encodeH (V0 (Proc.devRef .tc main_arg0)) (V0 (Proc.devRef .tc main_arg3)) (V0 (Proc.devRef .tc main_arg4)) (V0 (Proc.devRef .tc main_arg5)) (V0 (Proc.devRef .tc main_arg6))) (srcH (V0 (Proc.devRef .tc main_arg1))) (V0 (Proc.devRef .tc main_arg2))) (sliceW1H ![0, 0, 0] slices_S3x67x32_S1x67x32_0_0_0 (V0 (Proc.devRef .tc main_arg7))) (sliceB1H ![0, 0] slices_S3x32_S1x32_0_0 (V0 (Proc.devRef .tc main_arg8))) (sliceW2H ![0, 0, 0] slices_S3x32x64_S1x32x64_0_0_0 (V0 (Proc.devRef .tc main_arg9))) (slice64H ![0, 0] slices_S3x64_S1x64_0_0 (V0 (Proc.devRef .tc main_arg10)))) (dstH (V0 (Proc.devRef .tc main_arg1))) (invCntOfH (dstH (V0 (Proc.devRef .tc main_arg1))))) (slice64H ![0, 0] slices_S3x64_S1x64_0_0 (V0 (Proc.devRef .tc main_arg11))) (slice64H ![0, 0] slices_S3x64_S1x64_0_0 (V0 (Proc.devRef .tc main_arg12)))) (aggOfH (edgeH (gatherCatOfH (nodeH (encodeH (V0 (Proc.devRef .tc main_arg0)) (V0 (Proc.devRef .tc main_arg3)) (V0 (Proc.devRef .tc main_arg4)) (V0 (Proc.devRef .tc main_arg5)) (V0 (Proc.devRef .tc main_arg6))) (aggOfH (edgeH (gatherCatOfH (encodeH (V0 (Proc.devRef .tc main_arg0)) (V0 (Proc.devRef .tc main_arg3)) (V0 (Proc.devRef .tc main_arg4)) (V0 (Proc.devRef .tc main_arg5)) (V0 (Proc.devRef .tc main_arg6))) (srcH (V0 (Proc.devRef .tc main_arg1))) (V0 (Proc.devRef .tc main_arg2))) (sliceW1H ![0, 0, 0] slices_S3x67x32_S1x67x32_0_0_0 (V0 (Proc.devRef .tc main_arg7))) (sliceB1H ![0, 0] slices_S3x32_S1x32_0_0 (V0 (Proc.devRef .tc main_arg8))) (sliceW2H ![0, 0, 0] slices_S3x32x64_S1x32x64_0_0_0 (V0 (Proc.devRef .tc main_arg9))) (slice64H ![0, 0] slices_S3x64_S1x64_0_0 (V0 (Proc.devRef .tc main_arg10)))) (dstH (V0 (Proc.devRef .tc main_arg1))) (invCntOfH (dstH (V0 (Proc.devRef .tc main_arg1))))) (slice64H ![0, 0] slices_S3x64_S1x64_0_0 (V0 (Proc.devRef .tc main_arg11))) (slice64H ![0, 0] slices_S3x64_S1x64_0_0 (V0 (Proc.devRef .tc main_arg12)))) (srcH (V0 (Proc.devRef .tc main_arg1))) (V0 (Proc.devRef .tc main_arg2))) (sliceW1H ![1, 0, 0] slices_S3x67x32_S1x67x32_1_0_0 (V0 (Proc.devRef .tc main_arg7))) (sliceB1H ![1, 0] slices_S3x32_S1x32_1_0 (V0 (Proc.devRef .tc main_arg8))) (sliceW2H ![1, 0, 0] slices_S3x32x64_S1x32x64_1_0_0 (V0 (Proc.devRef .tc main_arg9))) (slice64H ![1, 0] slices_S3x64_S1x64_1_0 (V0 (Proc.devRef .tc main_arg10)))) (dstH (V0 (Proc.devRef .tc main_arg1))) (invCntOfH (dstH (V0 (Proc.devRef .tc main_arg1))))) (slice64H ![1, 0] slices_S3x64_S1x64_1_0 (V0 (Proc.devRef .tc main_arg11))) (slice64H ![1, 0] slices_S3x64_S1x64_1_0 (V0 (Proc.devRef .tc main_arg12)))) (srcH (V0 (Proc.devRef .tc main_arg1))) (V0 (Proc.devRef .tc main_arg2))) (sliceW1H ![2, 0, 0] slices_S3x67x32_S1x67x32_2_0_0 (V0 (Proc.devRef .tc main_arg7))) (sliceB1H ![2, 0] slices_S3x32_S1x32_2_0 (V0 (Proc.devRef .tc main_arg8))) (sliceW2H ![2, 0, 0] slices_S3x32x64_S1x32x64_2_0_0 (V0 (Proc.devRef .tc main_arg9))) (slice64H ![2, 0] slices_S3x64_S1x64_2_0 (V0 (Proc.devRef .tc main_arg10)))) (dstH (V0 (Proc.devRef .tc main_arg1))) (invCntOfH (dstH (V0 (Proc.devRef .tc main_arg1))))) (slice64H ![2, 0] slices_S3x64_S1x64_2_0 (V0 (Proc.devRef .tc main_arg11))) (slice64H ![2, 0] slices_S3x64_S1x64_2_0 (V0 (Proc.devRef .tc main_arg12))) := by
  simp only [val18, seg17]
  host_line_results
  simp only [val17_main_arg12, val17_main_arg11, val17_main_v174, val17_main_v144]
  rfl

/-- The contents after the first 19 segments. -/
def val19 (V0 : Valuation τ sig (Elt Ideal)) : Valuation τ sig (Elt Ideal) := after seg18 (val18 V0)
theorem val19_keep (V0 : Valuation τ sig (Elt Ideal)) (r : Ref sig .tc) (h : r ∉ seg18_W) :
    val19 V0 (Proc.devRef .tc r) = val18 V0 (Proc.devRef .tc r) :=
  after_of_writes_sub seg18 _ seg18_writes h
theorem val19_main_arg0 (V0 : Valuation τ sig (Elt Ideal)) : val19 V0 (no_index (Proc.devRef .tc main_arg0)) = V0 (Proc.devRef .tc main_arg0) :=
  (val19_keep V0 main_arg0 (by decide)).trans (val18_main_arg0 V0)
theorem val19_main_arg1 (V0 : Valuation τ sig (Elt Ideal)) : val19 V0 (no_index (Proc.devRef .tc main_arg1)) = V0 (Proc.devRef .tc main_arg1) :=
  (val19_keep V0 main_arg1 (by decide)).trans (val18_main_arg1 V0)
theorem val19_main_arg2 (V0 : Valuation τ sig (Elt Ideal)) : val19 V0 (no_index (Proc.devRef .tc main_arg2)) = V0 (Proc.devRef .tc main_arg2) :=
  (val19_keep V0 main_arg2 (by decide)).trans (val18_main_arg2 V0)
theorem val19_main_arg3 (V0 : Valuation τ sig (Elt Ideal)) : val19 V0 (no_index (Proc.devRef .tc main_arg3)) = V0 (Proc.devRef .tc main_arg3) :=
  (val19_keep V0 main_arg3 (by decide)).trans (val18_main_arg3 V0)
theorem val19_main_arg4 (V0 : Valuation τ sig (Elt Ideal)) : val19 V0 (no_index (Proc.devRef .tc main_arg4)) = V0 (Proc.devRef .tc main_arg4) :=
  (val19_keep V0 main_arg4 (by decide)).trans (val18_main_arg4 V0)
theorem val19_main_arg5 (V0 : Valuation τ sig (Elt Ideal)) : val19 V0 (no_index (Proc.devRef .tc main_arg5)) = V0 (Proc.devRef .tc main_arg5) :=
  (val19_keep V0 main_arg5 (by decide)).trans (val18_main_arg5 V0)
theorem val19_main_arg6 (V0 : Valuation τ sig (Elt Ideal)) : val19 V0 (no_index (Proc.devRef .tc main_arg6)) = V0 (Proc.devRef .tc main_arg6) :=
  (val19_keep V0 main_arg6 (by decide)).trans (val18_main_arg6 V0)
theorem val19_main_arg7 (V0 : Valuation τ sig (Elt Ideal)) : val19 V0 (no_index (Proc.devRef .tc main_arg7)) = V0 (Proc.devRef .tc main_arg7) :=
  (val19_keep V0 main_arg7 (by decide)).trans (val18_main_arg7 V0)
theorem val19_main_arg8 (V0 : Valuation τ sig (Elt Ideal)) : val19 V0 (no_index (Proc.devRef .tc main_arg8)) = V0 (Proc.devRef .tc main_arg8) :=
  (val19_keep V0 main_arg8 (by decide)).trans (val18_main_arg8 V0)
theorem val19_main_arg9 (V0 : Valuation τ sig (Elt Ideal)) : val19 V0 (no_index (Proc.devRef .tc main_arg9)) = V0 (Proc.devRef .tc main_arg9) :=
  (val19_keep V0 main_arg9 (by decide)).trans (val18_main_arg9 V0)
theorem val19_main_arg10 (V0 : Valuation τ sig (Elt Ideal)) : val19 V0 (no_index (Proc.devRef .tc main_arg10)) = V0 (Proc.devRef .tc main_arg10) :=
  (val19_keep V0 main_arg10 (by decide)).trans (val18_main_arg10 V0)
theorem val19_main_arg11 (V0 : Valuation τ sig (Elt Ideal)) : val19 V0 (no_index (Proc.devRef .tc main_arg11)) = V0 (Proc.devRef .tc main_arg11) :=
  (val19_keep V0 main_arg11 (by decide)).trans (val18_main_arg11 V0)
theorem val19_main_arg12 (V0 : Valuation τ sig (Elt Ideal)) : val19 V0 (no_index (Proc.devRef .tc main_arg12)) = V0 (Proc.devRef .tc main_arg12) :=
  (val19_keep V0 main_arg12 (by decide)).trans (val18_main_arg12 V0)
theorem val19_main_arg13 (V0 : Valuation τ sig (Elt Ideal)) : val19 V0 (no_index (Proc.devRef .tc main_arg13)) = V0 (Proc.devRef .tc main_arg13) :=
  (val19_keep V0 main_arg13 (by decide)).trans (val18_main_arg13 V0)
theorem val19_main_arg14 (V0 : Valuation τ sig (Elt Ideal)) : val19 V0 (no_index (Proc.devRef .tc main_arg14)) = V0 (Proc.devRef .tc main_arg14) :=
  (val19_keep V0 main_arg14 (by decide)).trans (val18_main_arg14 V0)
theorem val19_main_arg15 (V0 : Valuation τ sig (Elt Ideal)) : val19 V0 (no_index (Proc.devRef .tc main_arg15)) = V0 (Proc.devRef .tc main_arg15) :=
  (val19_keep V0 main_arg15 (by decide)).trans (val18_main_arg15 V0)
theorem val19_main_arg16 (V0 : Valuation τ sig (Elt Ideal)) : val19 V0 (no_index (Proc.devRef .tc main_arg16)) = V0 (Proc.devRef .tc main_arg16) :=
  (val19_keep V0 main_arg16 (by decide)).trans (val18_main_arg16 V0)
theorem val19_main_arg17 (V0 : Valuation τ sig (Elt Ideal)) : val19 V0 (no_index (Proc.devRef .tc main_arg17)) = V0 (Proc.devRef .tc main_arg17) :=
  (val19_keep V0 main_arg17 (by decide)).trans (val18_main_arg17 V0)
theorem val19_main_arg18 (V0 : Valuation τ sig (Elt Ideal)) : val19 V0 (no_index (Proc.devRef .tc main_arg18)) = V0 (Proc.devRef .tc main_arg18) :=
  (val19_keep V0 main_arg18 (by decide)).trans (val18_main_arg18 V0)
theorem val19_main_arg19 (V0 : Valuation τ sig (Elt Ideal)) : val19 V0 (no_index (Proc.devRef .tc main_arg19)) = V0 (Proc.devRef .tc main_arg19) :=
  (val19_keep V0 main_arg19 (by decide)).trans (val18_main_arg19 V0)
theorem val19_main_arg20 (V0 : Valuation τ sig (Elt Ideal)) : val19 V0 (no_index (Proc.devRef .tc main_arg20)) = V0 (Proc.devRef .tc main_arg20) :=
  (val19_keep V0 main_arg20 (by decide)).trans (val18_main_arg20 V0)
theorem val19_main_v197 (V0 : Valuation τ sig (Elt Ideal)) : val19 V0 (no_index (Proc.devRef .tc main_v197)) = nodeH (nodeH (nodeH (encodeH (V0 (Proc.devRef .tc main_arg0)) (V0 (Proc.devRef .tc main_arg3)) (V0 (Proc.devRef .tc main_arg4)) (V0 (Proc.devRef .tc main_arg5)) (V0 (Proc.devRef .tc main_arg6))) (aggOfH (edgeH (gatherCatOfH (encodeH (V0 (Proc.devRef .tc main_arg0)) (V0 (Proc.devRef .tc main_arg3)) (V0 (Proc.devRef .tc main_arg4)) (V0 (Proc.devRef .tc main_arg5)) (V0 (Proc.devRef .tc main_arg6))) (srcH (V0 (Proc.devRef .tc main_arg1))) (V0 (Proc.devRef .tc main_arg2))) (sliceW1H ![0, 0, 0] slices_S3x67x32_S1x67x32_0_0_0 (V0 (Proc.devRef .tc main_arg7))) (sliceB1H ![0, 0] slices_S3x32_S1x32_0_0 (V0 (Proc.devRef .tc main_arg8))) (sliceW2H ![0, 0, 0] slices_S3x32x64_S1x32x64_0_0_0 (V0 (Proc.devRef .tc main_arg9))) (slice64H ![0, 0] slices_S3x64_S1x64_0_0 (V0 (Proc.devRef .tc main_arg10)))) (dstH (V0 (Proc.devRef .tc main_arg1))) (invCntOfH (dstH (V0 (Proc.devRef .tc main_arg1))))) (slice64H ![0, 0] slices_S3x64_S1x64_0_0 (V0 (Proc.devRef .tc main_arg11))) (slice64H ![0, 0] slices_S3x64_S1x64_0_0 (V0 (Proc.devRef .tc main_arg12)))) (aggOfH (edgeH (gatherCatOfH (nodeH (encodeH (V0 (Proc.devRef .tc main_arg0)) (V0 (Proc.devRef .tc main_arg3)) (V0 (Proc.devRef .tc main_arg4)) (V0 (Proc.devRef .tc main_arg5)) (V0 (Proc.devRef .tc main_arg6))) (aggOfH (edgeH (gatherCatOfH (encodeH (V0 (Proc.devRef .tc main_arg0)) (V0 (Proc.devRef .tc main_arg3)) (V0 (Proc.devRef .tc main_arg4)) (V0 (Proc.devRef .tc main_arg5)) (V0 (Proc.devRef .tc main_arg6))) (srcH (V0 (Proc.devRef .tc main_arg1))) (V0 (Proc.devRef .tc main_arg2))) (sliceW1H ![0, 0, 0] slices_S3x67x32_S1x67x32_0_0_0 (V0 (Proc.devRef .tc main_arg7))) (sliceB1H ![0, 0] slices_S3x32_S1x32_0_0 (V0 (Proc.devRef .tc main_arg8))) (sliceW2H ![0, 0, 0] slices_S3x32x64_S1x32x64_0_0_0 (V0 (Proc.devRef .tc main_arg9))) (slice64H ![0, 0] slices_S3x64_S1x64_0_0 (V0 (Proc.devRef .tc main_arg10)))) (dstH (V0 (Proc.devRef .tc main_arg1))) (invCntOfH (dstH (V0 (Proc.devRef .tc main_arg1))))) (slice64H ![0, 0] slices_S3x64_S1x64_0_0 (V0 (Proc.devRef .tc main_arg11))) (slice64H ![0, 0] slices_S3x64_S1x64_0_0 (V0 (Proc.devRef .tc main_arg12)))) (srcH (V0 (Proc.devRef .tc main_arg1))) (V0 (Proc.devRef .tc main_arg2))) (sliceW1H ![1, 0, 0] slices_S3x67x32_S1x67x32_1_0_0 (V0 (Proc.devRef .tc main_arg7))) (sliceB1H ![1, 0] slices_S3x32_S1x32_1_0 (V0 (Proc.devRef .tc main_arg8))) (sliceW2H ![1, 0, 0] slices_S3x32x64_S1x32x64_1_0_0 (V0 (Proc.devRef .tc main_arg9))) (slice64H ![1, 0] slices_S3x64_S1x64_1_0 (V0 (Proc.devRef .tc main_arg10)))) (dstH (V0 (Proc.devRef .tc main_arg1))) (invCntOfH (dstH (V0 (Proc.devRef .tc main_arg1))))) (slice64H ![1, 0] slices_S3x64_S1x64_1_0 (V0 (Proc.devRef .tc main_arg11))) (slice64H ![1, 0] slices_S3x64_S1x64_1_0 (V0 (Proc.devRef .tc main_arg12)))) (aggOfH (edgeH (gatherCatOfH (nodeH (nodeH (encodeH (V0 (Proc.devRef .tc main_arg0)) (V0 (Proc.devRef .tc main_arg3)) (V0 (Proc.devRef .tc main_arg4)) (V0 (Proc.devRef .tc main_arg5)) (V0 (Proc.devRef .tc main_arg6))) (aggOfH (edgeH (gatherCatOfH (encodeH (V0 (Proc.devRef .tc main_arg0)) (V0 (Proc.devRef .tc main_arg3)) (V0 (Proc.devRef .tc main_arg4)) (V0 (Proc.devRef .tc main_arg5)) (V0 (Proc.devRef .tc main_arg6))) (srcH (V0 (Proc.devRef .tc main_arg1))) (V0 (Proc.devRef .tc main_arg2))) (sliceW1H ![0, 0, 0] slices_S3x67x32_S1x67x32_0_0_0 (V0 (Proc.devRef .tc main_arg7))) (sliceB1H ![0, 0] slices_S3x32_S1x32_0_0 (V0 (Proc.devRef .tc main_arg8))) (sliceW2H ![0, 0, 0] slices_S3x32x64_S1x32x64_0_0_0 (V0 (Proc.devRef .tc main_arg9))) (slice64H ![0, 0] slices_S3x64_S1x64_0_0 (V0 (Proc.devRef .tc main_arg10)))) (dstH (V0 (Proc.devRef .tc main_arg1))) (invCntOfH (dstH (V0 (Proc.devRef .tc main_arg1))))) (slice64H ![0, 0] slices_S3x64_S1x64_0_0 (V0 (Proc.devRef .tc main_arg11))) (slice64H ![0, 0] slices_S3x64_S1x64_0_0 (V0 (Proc.devRef .tc main_arg12)))) (aggOfH (edgeH (gatherCatOfH (nodeH (encodeH (V0 (Proc.devRef .tc main_arg0)) (V0 (Proc.devRef .tc main_arg3)) (V0 (Proc.devRef .tc main_arg4)) (V0 (Proc.devRef .tc main_arg5)) (V0 (Proc.devRef .tc main_arg6))) (aggOfH (edgeH (gatherCatOfH (encodeH (V0 (Proc.devRef .tc main_arg0)) (V0 (Proc.devRef .tc main_arg3)) (V0 (Proc.devRef .tc main_arg4)) (V0 (Proc.devRef .tc main_arg5)) (V0 (Proc.devRef .tc main_arg6))) (srcH (V0 (Proc.devRef .tc main_arg1))) (V0 (Proc.devRef .tc main_arg2))) (sliceW1H ![0, 0, 0] slices_S3x67x32_S1x67x32_0_0_0 (V0 (Proc.devRef .tc main_arg7))) (sliceB1H ![0, 0] slices_S3x32_S1x32_0_0 (V0 (Proc.devRef .tc main_arg8))) (sliceW2H ![0, 0, 0] slices_S3x32x64_S1x32x64_0_0_0 (V0 (Proc.devRef .tc main_arg9))) (slice64H ![0, 0] slices_S3x64_S1x64_0_0 (V0 (Proc.devRef .tc main_arg10)))) (dstH (V0 (Proc.devRef .tc main_arg1))) (invCntOfH (dstH (V0 (Proc.devRef .tc main_arg1))))) (slice64H ![0, 0] slices_S3x64_S1x64_0_0 (V0 (Proc.devRef .tc main_arg11))) (slice64H ![0, 0] slices_S3x64_S1x64_0_0 (V0 (Proc.devRef .tc main_arg12)))) (srcH (V0 (Proc.devRef .tc main_arg1))) (V0 (Proc.devRef .tc main_arg2))) (sliceW1H ![1, 0, 0] slices_S3x67x32_S1x67x32_1_0_0 (V0 (Proc.devRef .tc main_arg7))) (sliceB1H ![1, 0] slices_S3x32_S1x32_1_0 (V0 (Proc.devRef .tc main_arg8))) (sliceW2H ![1, 0, 0] slices_S3x32x64_S1x32x64_1_0_0 (V0 (Proc.devRef .tc main_arg9))) (slice64H ![1, 0] slices_S3x64_S1x64_1_0 (V0 (Proc.devRef .tc main_arg10)))) (dstH (V0 (Proc.devRef .tc main_arg1))) (invCntOfH (dstH (V0 (Proc.devRef .tc main_arg1))))) (slice64H ![1, 0] slices_S3x64_S1x64_1_0 (V0 (Proc.devRef .tc main_arg11))) (slice64H ![1, 0] slices_S3x64_S1x64_1_0 (V0 (Proc.devRef .tc main_arg12)))) (srcH (V0 (Proc.devRef .tc main_arg1))) (V0 (Proc.devRef .tc main_arg2))) (sliceW1H ![2, 0, 0] slices_S3x67x32_S1x67x32_2_0_0 (V0 (Proc.devRef .tc main_arg7))) (sliceB1H ![2, 0] slices_S3x32_S1x32_2_0 (V0 (Proc.devRef .tc main_arg8))) (sliceW2H ![2, 0, 0] slices_S3x32x64_S1x32x64_2_0_0 (V0 (Proc.devRef .tc main_arg9))) (slice64H ![2, 0] slices_S3x64_S1x64_2_0 (V0 (Proc.devRef .tc main_arg10)))) (dstH (V0 (Proc.devRef .tc main_arg1))) (invCntOfH (dstH (V0 (Proc.devRef .tc main_arg1))))) (slice64H ![2, 0] slices_S3x64_S1x64_2_0 (V0 (Proc.devRef .tc main_arg11))) (slice64H ![2, 0] slices_S3x64_S1x64_2_0 (V0 (Proc.devRef .tc main_arg12))) :=
  (val19_keep V0 main_v197 (by decide)).trans (val18_main_v197 V0)
set_option maxRecDepth 8192 in
set_option maxHeartbeats 4000000 in
theorem val19_main_v206 (V0 : Valuation τ sig (Elt Ideal)) : val19 V0 (no_index (Proc.devRef .tc main_v206)) = head1H (nodeH (nodeH (nodeH (encodeH (V0 (Proc.devRef .tc main_arg0)) (V0 (Proc.devRef .tc main_arg3)) (V0 (Proc.devRef .tc main_arg4)) (V0 (Proc.devRef .tc main_arg5)) (V0 (Proc.devRef .tc main_arg6))) (aggOfH (edgeH (gatherCatOfH (encodeH (V0 (Proc.devRef .tc main_arg0)) (V0 (Proc.devRef .tc main_arg3)) (V0 (Proc.devRef .tc main_arg4)) (V0 (Proc.devRef .tc main_arg5)) (V0 (Proc.devRef .tc main_arg6))) (srcH (V0 (Proc.devRef .tc main_arg1))) (V0 (Proc.devRef .tc main_arg2))) (sliceW1H ![0, 0, 0] slices_S3x67x32_S1x67x32_0_0_0 (V0 (Proc.devRef .tc main_arg7))) (sliceB1H ![0, 0] slices_S3x32_S1x32_0_0 (V0 (Proc.devRef .tc main_arg8))) (sliceW2H ![0, 0, 0] slices_S3x32x64_S1x32x64_0_0_0 (V0 (Proc.devRef .tc main_arg9))) (slice64H ![0, 0] slices_S3x64_S1x64_0_0 (V0 (Proc.devRef .tc main_arg10)))) (dstH (V0 (Proc.devRef .tc main_arg1))) (invCntOfH (dstH (V0 (Proc.devRef .tc main_arg1))))) (slice64H ![0, 0] slices_S3x64_S1x64_0_0 (V0 (Proc.devRef .tc main_arg11))) (slice64H ![0, 0] slices_S3x64_S1x64_0_0 (V0 (Proc.devRef .tc main_arg12)))) (aggOfH (edgeH (gatherCatOfH (nodeH (encodeH (V0 (Proc.devRef .tc main_arg0)) (V0 (Proc.devRef .tc main_arg3)) (V0 (Proc.devRef .tc main_arg4)) (V0 (Proc.devRef .tc main_arg5)) (V0 (Proc.devRef .tc main_arg6))) (aggOfH (edgeH (gatherCatOfH (encodeH (V0 (Proc.devRef .tc main_arg0)) (V0 (Proc.devRef .tc main_arg3)) (V0 (Proc.devRef .tc main_arg4)) (V0 (Proc.devRef .tc main_arg5)) (V0 (Proc.devRef .tc main_arg6))) (srcH (V0 (Proc.devRef .tc main_arg1))) (V0 (Proc.devRef .tc main_arg2))) (sliceW1H ![0, 0, 0] slices_S3x67x32_S1x67x32_0_0_0 (V0 (Proc.devRef .tc main_arg7))) (sliceB1H ![0, 0] slices_S3x32_S1x32_0_0 (V0 (Proc.devRef .tc main_arg8))) (sliceW2H ![0, 0, 0] slices_S3x32x64_S1x32x64_0_0_0 (V0 (Proc.devRef .tc main_arg9))) (slice64H ![0, 0] slices_S3x64_S1x64_0_0 (V0 (Proc.devRef .tc main_arg10)))) (dstH (V0 (Proc.devRef .tc main_arg1))) (invCntOfH (dstH (V0 (Proc.devRef .tc main_arg1))))) (slice64H ![0, 0] slices_S3x64_S1x64_0_0 (V0 (Proc.devRef .tc main_arg11))) (slice64H ![0, 0] slices_S3x64_S1x64_0_0 (V0 (Proc.devRef .tc main_arg12)))) (srcH (V0 (Proc.devRef .tc main_arg1))) (V0 (Proc.devRef .tc main_arg2))) (sliceW1H ![1, 0, 0] slices_S3x67x32_S1x67x32_1_0_0 (V0 (Proc.devRef .tc main_arg7))) (sliceB1H ![1, 0] slices_S3x32_S1x32_1_0 (V0 (Proc.devRef .tc main_arg8))) (sliceW2H ![1, 0, 0] slices_S3x32x64_S1x32x64_1_0_0 (V0 (Proc.devRef .tc main_arg9))) (slice64H ![1, 0] slices_S3x64_S1x64_1_0 (V0 (Proc.devRef .tc main_arg10)))) (dstH (V0 (Proc.devRef .tc main_arg1))) (invCntOfH (dstH (V0 (Proc.devRef .tc main_arg1))))) (slice64H ![1, 0] slices_S3x64_S1x64_1_0 (V0 (Proc.devRef .tc main_arg11))) (slice64H ![1, 0] slices_S3x64_S1x64_1_0 (V0 (Proc.devRef .tc main_arg12)))) (aggOfH (edgeH (gatherCatOfH (nodeH (nodeH (encodeH (V0 (Proc.devRef .tc main_arg0)) (V0 (Proc.devRef .tc main_arg3)) (V0 (Proc.devRef .tc main_arg4)) (V0 (Proc.devRef .tc main_arg5)) (V0 (Proc.devRef .tc main_arg6))) (aggOfH (edgeH (gatherCatOfH (encodeH (V0 (Proc.devRef .tc main_arg0)) (V0 (Proc.devRef .tc main_arg3)) (V0 (Proc.devRef .tc main_arg4)) (V0 (Proc.devRef .tc main_arg5)) (V0 (Proc.devRef .tc main_arg6))) (srcH (V0 (Proc.devRef .tc main_arg1))) (V0 (Proc.devRef .tc main_arg2))) (sliceW1H ![0, 0, 0] slices_S3x67x32_S1x67x32_0_0_0 (V0 (Proc.devRef .tc main_arg7))) (sliceB1H ![0, 0] slices_S3x32_S1x32_0_0 (V0 (Proc.devRef .tc main_arg8))) (sliceW2H ![0, 0, 0] slices_S3x32x64_S1x32x64_0_0_0 (V0 (Proc.devRef .tc main_arg9))) (slice64H ![0, 0] slices_S3x64_S1x64_0_0 (V0 (Proc.devRef .tc main_arg10)))) (dstH (V0 (Proc.devRef .tc main_arg1))) (invCntOfH (dstH (V0 (Proc.devRef .tc main_arg1))))) (slice64H ![0, 0] slices_S3x64_S1x64_0_0 (V0 (Proc.devRef .tc main_arg11))) (slice64H ![0, 0] slices_S3x64_S1x64_0_0 (V0 (Proc.devRef .tc main_arg12)))) (aggOfH (edgeH (gatherCatOfH (nodeH (encodeH (V0 (Proc.devRef .tc main_arg0)) (V0 (Proc.devRef .tc main_arg3)) (V0 (Proc.devRef .tc main_arg4)) (V0 (Proc.devRef .tc main_arg5)) (V0 (Proc.devRef .tc main_arg6))) (aggOfH (edgeH (gatherCatOfH (encodeH (V0 (Proc.devRef .tc main_arg0)) (V0 (Proc.devRef .tc main_arg3)) (V0 (Proc.devRef .tc main_arg4)) (V0 (Proc.devRef .tc main_arg5)) (V0 (Proc.devRef .tc main_arg6))) (srcH (V0 (Proc.devRef .tc main_arg1))) (V0 (Proc.devRef .tc main_arg2))) (sliceW1H ![0, 0, 0] slices_S3x67x32_S1x67x32_0_0_0 (V0 (Proc.devRef .tc main_arg7))) (sliceB1H ![0, 0] slices_S3x32_S1x32_0_0 (V0 (Proc.devRef .tc main_arg8))) (sliceW2H ![0, 0, 0] slices_S3x32x64_S1x32x64_0_0_0 (V0 (Proc.devRef .tc main_arg9))) (slice64H ![0, 0] slices_S3x64_S1x64_0_0 (V0 (Proc.devRef .tc main_arg10)))) (dstH (V0 (Proc.devRef .tc main_arg1))) (invCntOfH (dstH (V0 (Proc.devRef .tc main_arg1))))) (slice64H ![0, 0] slices_S3x64_S1x64_0_0 (V0 (Proc.devRef .tc main_arg11))) (slice64H ![0, 0] slices_S3x64_S1x64_0_0 (V0 (Proc.devRef .tc main_arg12)))) (srcH (V0 (Proc.devRef .tc main_arg1))) (V0 (Proc.devRef .tc main_arg2))) (sliceW1H ![1, 0, 0] slices_S3x67x32_S1x67x32_1_0_0 (V0 (Proc.devRef .tc main_arg7))) (sliceB1H ![1, 0] slices_S3x32_S1x32_1_0 (V0 (Proc.devRef .tc main_arg8))) (sliceW2H ![1, 0, 0] slices_S3x32x64_S1x32x64_1_0_0 (V0 (Proc.devRef .tc main_arg9))) (slice64H ![1, 0] slices_S3x64_S1x64_1_0 (V0 (Proc.devRef .tc main_arg10)))) (dstH (V0 (Proc.devRef .tc main_arg1))) (invCntOfH (dstH (V0 (Proc.devRef .tc main_arg1))))) (slice64H ![1, 0] slices_S3x64_S1x64_1_0 (V0 (Proc.devRef .tc main_arg11))) (slice64H ![1, 0] slices_S3x64_S1x64_1_0 (V0 (Proc.devRef .tc main_arg12)))) (srcH (V0 (Proc.devRef .tc main_arg1))) (V0 (Proc.devRef .tc main_arg2))) (sliceW1H ![2, 0, 0] slices_S3x67x32_S1x67x32_2_0_0 (V0 (Proc.devRef .tc main_arg7))) (sliceB1H ![2, 0] slices_S3x32_S1x32_2_0 (V0 (Proc.devRef .tc main_arg8))) (sliceW2H ![2, 0, 0] slices_S3x32x64_S1x32x64_2_0_0 (V0 (Proc.devRef .tc main_arg9))) (slice64H ![2, 0] slices_S3x64_S1x64_2_0 (V0 (Proc.devRef .tc main_arg10)))) (dstH (V0 (Proc.devRef .tc main_arg1))) (invCntOfH (dstH (V0 (Proc.devRef .tc main_arg1))))) (slice64H ![2, 0] slices_S3x64_S1x64_2_0 (V0 (Proc.devRef .tc main_arg11))) (slice64H ![2, 0] slices_S3x64_S1x64_2_0 (V0 (Proc.devRef .tc main_arg12)))) (V0 (Proc.devRef .tc main_arg13)) (V0 (Proc.devRef .tc main_arg14)) (V0 (Proc.devRef .tc main_arg15)) (V0 (Proc.devRef .tc main_arg16)) := by
  simp only [val19, seg18]
  host_line_results
  simp only [val18_main_arg16, val18_main_arg15, val18_main_arg14, val18_main_arg13, val18_main_v197]
  rfl

/-- The contents after the first 20 segments. -/
def val20 (V0 : Valuation τ sig (Elt Ideal)) : Valuation τ sig (Elt Ideal) := after seg19 (val19 V0)
theorem val20_keep (V0 : Valuation τ sig (Elt Ideal)) (r : Ref sig .tc) (h : r ∉ seg19_W) :
    val20 V0 (Proc.devRef .tc r) = val19 V0 (Proc.devRef .tc r) :=
  after_of_writes_sub seg19 _ seg19_writes h
theorem val20_main_arg0 (V0 : Valuation τ sig (Elt Ideal)) : val20 V0 (no_index (Proc.devRef .tc main_arg0)) = V0 (Proc.devRef .tc main_arg0) :=
  (val20_keep V0 main_arg0 (by decide)).trans (val19_main_arg0 V0)
theorem val20_main_arg1 (V0 : Valuation τ sig (Elt Ideal)) : val20 V0 (no_index (Proc.devRef .tc main_arg1)) = V0 (Proc.devRef .tc main_arg1) :=
  (val20_keep V0 main_arg1 (by decide)).trans (val19_main_arg1 V0)
theorem val20_main_arg2 (V0 : Valuation τ sig (Elt Ideal)) : val20 V0 (no_index (Proc.devRef .tc main_arg2)) = V0 (Proc.devRef .tc main_arg2) :=
  (val20_keep V0 main_arg2 (by decide)).trans (val19_main_arg2 V0)
theorem val20_main_arg3 (V0 : Valuation τ sig (Elt Ideal)) : val20 V0 (no_index (Proc.devRef .tc main_arg3)) = V0 (Proc.devRef .tc main_arg3) :=
  (val20_keep V0 main_arg3 (by decide)).trans (val19_main_arg3 V0)
theorem val20_main_arg4 (V0 : Valuation τ sig (Elt Ideal)) : val20 V0 (no_index (Proc.devRef .tc main_arg4)) = V0 (Proc.devRef .tc main_arg4) :=
  (val20_keep V0 main_arg4 (by decide)).trans (val19_main_arg4 V0)
theorem val20_main_arg5 (V0 : Valuation τ sig (Elt Ideal)) : val20 V0 (no_index (Proc.devRef .tc main_arg5)) = V0 (Proc.devRef .tc main_arg5) :=
  (val20_keep V0 main_arg5 (by decide)).trans (val19_main_arg5 V0)
theorem val20_main_arg6 (V0 : Valuation τ sig (Elt Ideal)) : val20 V0 (no_index (Proc.devRef .tc main_arg6)) = V0 (Proc.devRef .tc main_arg6) :=
  (val20_keep V0 main_arg6 (by decide)).trans (val19_main_arg6 V0)
theorem val20_main_arg7 (V0 : Valuation τ sig (Elt Ideal)) : val20 V0 (no_index (Proc.devRef .tc main_arg7)) = V0 (Proc.devRef .tc main_arg7) :=
  (val20_keep V0 main_arg7 (by decide)).trans (val19_main_arg7 V0)
theorem val20_main_arg8 (V0 : Valuation τ sig (Elt Ideal)) : val20 V0 (no_index (Proc.devRef .tc main_arg8)) = V0 (Proc.devRef .tc main_arg8) :=
  (val20_keep V0 main_arg8 (by decide)).trans (val19_main_arg8 V0)
theorem val20_main_arg9 (V0 : Valuation τ sig (Elt Ideal)) : val20 V0 (no_index (Proc.devRef .tc main_arg9)) = V0 (Proc.devRef .tc main_arg9) :=
  (val20_keep V0 main_arg9 (by decide)).trans (val19_main_arg9 V0)
theorem val20_main_arg10 (V0 : Valuation τ sig (Elt Ideal)) : val20 V0 (no_index (Proc.devRef .tc main_arg10)) = V0 (Proc.devRef .tc main_arg10) :=
  (val20_keep V0 main_arg10 (by decide)).trans (val19_main_arg10 V0)
theorem val20_main_arg11 (V0 : Valuation τ sig (Elt Ideal)) : val20 V0 (no_index (Proc.devRef .tc main_arg11)) = V0 (Proc.devRef .tc main_arg11) :=
  (val20_keep V0 main_arg11 (by decide)).trans (val19_main_arg11 V0)
theorem val20_main_arg12 (V0 : Valuation τ sig (Elt Ideal)) : val20 V0 (no_index (Proc.devRef .tc main_arg12)) = V0 (Proc.devRef .tc main_arg12) :=
  (val20_keep V0 main_arg12 (by decide)).trans (val19_main_arg12 V0)
theorem val20_main_arg13 (V0 : Valuation τ sig (Elt Ideal)) : val20 V0 (no_index (Proc.devRef .tc main_arg13)) = V0 (Proc.devRef .tc main_arg13) :=
  (val20_keep V0 main_arg13 (by decide)).trans (val19_main_arg13 V0)
theorem val20_main_arg14 (V0 : Valuation τ sig (Elt Ideal)) : val20 V0 (no_index (Proc.devRef .tc main_arg14)) = V0 (Proc.devRef .tc main_arg14) :=
  (val20_keep V0 main_arg14 (by decide)).trans (val19_main_arg14 V0)
theorem val20_main_arg15 (V0 : Valuation τ sig (Elt Ideal)) : val20 V0 (no_index (Proc.devRef .tc main_arg15)) = V0 (Proc.devRef .tc main_arg15) :=
  (val20_keep V0 main_arg15 (by decide)).trans (val19_main_arg15 V0)
theorem val20_main_arg16 (V0 : Valuation τ sig (Elt Ideal)) : val20 V0 (no_index (Proc.devRef .tc main_arg16)) = V0 (Proc.devRef .tc main_arg16) :=
  (val20_keep V0 main_arg16 (by decide)).trans (val19_main_arg16 V0)
theorem val20_main_arg17 (V0 : Valuation τ sig (Elt Ideal)) : val20 V0 (no_index (Proc.devRef .tc main_arg17)) = V0 (Proc.devRef .tc main_arg17) :=
  (val20_keep V0 main_arg17 (by decide)).trans (val19_main_arg17 V0)
theorem val20_main_arg18 (V0 : Valuation τ sig (Elt Ideal)) : val20 V0 (no_index (Proc.devRef .tc main_arg18)) = V0 (Proc.devRef .tc main_arg18) :=
  (val20_keep V0 main_arg18 (by decide)).trans (val19_main_arg18 V0)
theorem val20_main_arg19 (V0 : Valuation τ sig (Elt Ideal)) : val20 V0 (no_index (Proc.devRef .tc main_arg19)) = V0 (Proc.devRef .tc main_arg19) :=
  (val20_keep V0 main_arg19 (by decide)).trans (val19_main_arg19 V0)
theorem val20_main_arg20 (V0 : Valuation τ sig (Elt Ideal)) : val20 V0 (no_index (Proc.devRef .tc main_arg20)) = V0 (Proc.devRef .tc main_arg20) :=
  (val20_keep V0 main_arg20 (by decide)).trans (val19_main_arg20 V0)
theorem val20_main_v206 (V0 : Valuation τ sig (Elt Ideal)) : val20 V0 (no_index (Proc.devRef .tc main_v206)) = head1H (nodeH (nodeH (nodeH (encodeH (V0 (Proc.devRef .tc main_arg0)) (V0 (Proc.devRef .tc main_arg3)) (V0 (Proc.devRef .tc main_arg4)) (V0 (Proc.devRef .tc main_arg5)) (V0 (Proc.devRef .tc main_arg6))) (aggOfH (edgeH (gatherCatOfH (encodeH (V0 (Proc.devRef .tc main_arg0)) (V0 (Proc.devRef .tc main_arg3)) (V0 (Proc.devRef .tc main_arg4)) (V0 (Proc.devRef .tc main_arg5)) (V0 (Proc.devRef .tc main_arg6))) (srcH (V0 (Proc.devRef .tc main_arg1))) (V0 (Proc.devRef .tc main_arg2))) (sliceW1H ![0, 0, 0] slices_S3x67x32_S1x67x32_0_0_0 (V0 (Proc.devRef .tc main_arg7))) (sliceB1H ![0, 0] slices_S3x32_S1x32_0_0 (V0 (Proc.devRef .tc main_arg8))) (sliceW2H ![0, 0, 0] slices_S3x32x64_S1x32x64_0_0_0 (V0 (Proc.devRef .tc main_arg9))) (slice64H ![0, 0] slices_S3x64_S1x64_0_0 (V0 (Proc.devRef .tc main_arg10)))) (dstH (V0 (Proc.devRef .tc main_arg1))) (invCntOfH (dstH (V0 (Proc.devRef .tc main_arg1))))) (slice64H ![0, 0] slices_S3x64_S1x64_0_0 (V0 (Proc.devRef .tc main_arg11))) (slice64H ![0, 0] slices_S3x64_S1x64_0_0 (V0 (Proc.devRef .tc main_arg12)))) (aggOfH (edgeH (gatherCatOfH (nodeH (encodeH (V0 (Proc.devRef .tc main_arg0)) (V0 (Proc.devRef .tc main_arg3)) (V0 (Proc.devRef .tc main_arg4)) (V0 (Proc.devRef .tc main_arg5)) (V0 (Proc.devRef .tc main_arg6))) (aggOfH (edgeH (gatherCatOfH (encodeH (V0 (Proc.devRef .tc main_arg0)) (V0 (Proc.devRef .tc main_arg3)) (V0 (Proc.devRef .tc main_arg4)) (V0 (Proc.devRef .tc main_arg5)) (V0 (Proc.devRef .tc main_arg6))) (srcH (V0 (Proc.devRef .tc main_arg1))) (V0 (Proc.devRef .tc main_arg2))) (sliceW1H ![0, 0, 0] slices_S3x67x32_S1x67x32_0_0_0 (V0 (Proc.devRef .tc main_arg7))) (sliceB1H ![0, 0] slices_S3x32_S1x32_0_0 (V0 (Proc.devRef .tc main_arg8))) (sliceW2H ![0, 0, 0] slices_S3x32x64_S1x32x64_0_0_0 (V0 (Proc.devRef .tc main_arg9))) (slice64H ![0, 0] slices_S3x64_S1x64_0_0 (V0 (Proc.devRef .tc main_arg10)))) (dstH (V0 (Proc.devRef .tc main_arg1))) (invCntOfH (dstH (V0 (Proc.devRef .tc main_arg1))))) (slice64H ![0, 0] slices_S3x64_S1x64_0_0 (V0 (Proc.devRef .tc main_arg11))) (slice64H ![0, 0] slices_S3x64_S1x64_0_0 (V0 (Proc.devRef .tc main_arg12)))) (srcH (V0 (Proc.devRef .tc main_arg1))) (V0 (Proc.devRef .tc main_arg2))) (sliceW1H ![1, 0, 0] slices_S3x67x32_S1x67x32_1_0_0 (V0 (Proc.devRef .tc main_arg7))) (sliceB1H ![1, 0] slices_S3x32_S1x32_1_0 (V0 (Proc.devRef .tc main_arg8))) (sliceW2H ![1, 0, 0] slices_S3x32x64_S1x32x64_1_0_0 (V0 (Proc.devRef .tc main_arg9))) (slice64H ![1, 0] slices_S3x64_S1x64_1_0 (V0 (Proc.devRef .tc main_arg10)))) (dstH (V0 (Proc.devRef .tc main_arg1))) (invCntOfH (dstH (V0 (Proc.devRef .tc main_arg1))))) (slice64H ![1, 0] slices_S3x64_S1x64_1_0 (V0 (Proc.devRef .tc main_arg11))) (slice64H ![1, 0] slices_S3x64_S1x64_1_0 (V0 (Proc.devRef .tc main_arg12)))) (aggOfH (edgeH (gatherCatOfH (nodeH (nodeH (encodeH (V0 (Proc.devRef .tc main_arg0)) (V0 (Proc.devRef .tc main_arg3)) (V0 (Proc.devRef .tc main_arg4)) (V0 (Proc.devRef .tc main_arg5)) (V0 (Proc.devRef .tc main_arg6))) (aggOfH (edgeH (gatherCatOfH (encodeH (V0 (Proc.devRef .tc main_arg0)) (V0 (Proc.devRef .tc main_arg3)) (V0 (Proc.devRef .tc main_arg4)) (V0 (Proc.devRef .tc main_arg5)) (V0 (Proc.devRef .tc main_arg6))) (srcH (V0 (Proc.devRef .tc main_arg1))) (V0 (Proc.devRef .tc main_arg2))) (sliceW1H ![0, 0, 0] slices_S3x67x32_S1x67x32_0_0_0 (V0 (Proc.devRef .tc main_arg7))) (sliceB1H ![0, 0] slices_S3x32_S1x32_0_0 (V0 (Proc.devRef .tc main_arg8))) (sliceW2H ![0, 0, 0] slices_S3x32x64_S1x32x64_0_0_0 (V0 (Proc.devRef .tc main_arg9))) (slice64H ![0, 0] slices_S3x64_S1x64_0_0 (V0 (Proc.devRef .tc main_arg10)))) (dstH (V0 (Proc.devRef .tc main_arg1))) (invCntOfH (dstH (V0 (Proc.devRef .tc main_arg1))))) (slice64H ![0, 0] slices_S3x64_S1x64_0_0 (V0 (Proc.devRef .tc main_arg11))) (slice64H ![0, 0] slices_S3x64_S1x64_0_0 (V0 (Proc.devRef .tc main_arg12)))) (aggOfH (edgeH (gatherCatOfH (nodeH (encodeH (V0 (Proc.devRef .tc main_arg0)) (V0 (Proc.devRef .tc main_arg3)) (V0 (Proc.devRef .tc main_arg4)) (V0 (Proc.devRef .tc main_arg5)) (V0 (Proc.devRef .tc main_arg6))) (aggOfH (edgeH (gatherCatOfH (encodeH (V0 (Proc.devRef .tc main_arg0)) (V0 (Proc.devRef .tc main_arg3)) (V0 (Proc.devRef .tc main_arg4)) (V0 (Proc.devRef .tc main_arg5)) (V0 (Proc.devRef .tc main_arg6))) (srcH (V0 (Proc.devRef .tc main_arg1))) (V0 (Proc.devRef .tc main_arg2))) (sliceW1H ![0, 0, 0] slices_S3x67x32_S1x67x32_0_0_0 (V0 (Proc.devRef .tc main_arg7))) (sliceB1H ![0, 0] slices_S3x32_S1x32_0_0 (V0 (Proc.devRef .tc main_arg8))) (sliceW2H ![0, 0, 0] slices_S3x32x64_S1x32x64_0_0_0 (V0 (Proc.devRef .tc main_arg9))) (slice64H ![0, 0] slices_S3x64_S1x64_0_0 (V0 (Proc.devRef .tc main_arg10)))) (dstH (V0 (Proc.devRef .tc main_arg1))) (invCntOfH (dstH (V0 (Proc.devRef .tc main_arg1))))) (slice64H ![0, 0] slices_S3x64_S1x64_0_0 (V0 (Proc.devRef .tc main_arg11))) (slice64H ![0, 0] slices_S3x64_S1x64_0_0 (V0 (Proc.devRef .tc main_arg12)))) (srcH (V0 (Proc.devRef .tc main_arg1))) (V0 (Proc.devRef .tc main_arg2))) (sliceW1H ![1, 0, 0] slices_S3x67x32_S1x67x32_1_0_0 (V0 (Proc.devRef .tc main_arg7))) (sliceB1H ![1, 0] slices_S3x32_S1x32_1_0 (V0 (Proc.devRef .tc main_arg8))) (sliceW2H ![1, 0, 0] slices_S3x32x64_S1x32x64_1_0_0 (V0 (Proc.devRef .tc main_arg9))) (slice64H ![1, 0] slices_S3x64_S1x64_1_0 (V0 (Proc.devRef .tc main_arg10)))) (dstH (V0 (Proc.devRef .tc main_arg1))) (invCntOfH (dstH (V0 (Proc.devRef .tc main_arg1))))) (slice64H ![1, 0] slices_S3x64_S1x64_1_0 (V0 (Proc.devRef .tc main_arg11))) (slice64H ![1, 0] slices_S3x64_S1x64_1_0 (V0 (Proc.devRef .tc main_arg12)))) (srcH (V0 (Proc.devRef .tc main_arg1))) (V0 (Proc.devRef .tc main_arg2))) (sliceW1H ![2, 0, 0] slices_S3x67x32_S1x67x32_2_0_0 (V0 (Proc.devRef .tc main_arg7))) (sliceB1H ![2, 0] slices_S3x32_S1x32_2_0 (V0 (Proc.devRef .tc main_arg8))) (sliceW2H ![2, 0, 0] slices_S3x32x64_S1x32x64_2_0_0 (V0 (Proc.devRef .tc main_arg9))) (slice64H ![2, 0] slices_S3x64_S1x64_2_0 (V0 (Proc.devRef .tc main_arg10)))) (dstH (V0 (Proc.devRef .tc main_arg1))) (invCntOfH (dstH (V0 (Proc.devRef .tc main_arg1))))) (slice64H ![2, 0] slices_S3x64_S1x64_2_0 (V0 (Proc.devRef .tc main_arg11))) (slice64H ![2, 0] slices_S3x64_S1x64_2_0 (V0 (Proc.devRef .tc main_arg12)))) (V0 (Proc.devRef .tc main_arg13)) (V0 (Proc.devRef .tc main_arg14)) (V0 (Proc.devRef .tc main_arg15)) (V0 (Proc.devRef .tc main_arg16)) :=
  (val20_keep V0 main_v206 (by decide)).trans (val19_main_v206 V0)

/-- The contents after the first 21 segments. -/
def val21 (V0 : Valuation τ sig (Elt Ideal)) : Valuation τ sig (Elt Ideal) := after seg20 (val20 V0)
theorem val21_keep (V0 : Valuation τ sig (Elt Ideal)) (r : Ref sig .tc) (h : r ∉ seg20_W) :
    val21 V0 (Proc.devRef .tc r) = val20 V0 (Proc.devRef .tc r) :=
  after_of_writes_sub seg20 _ seg20_writes h
theorem val21_main_arg0 (V0 : Valuation τ sig (Elt Ideal)) : val21 V0 (no_index (Proc.devRef .tc main_arg0)) = V0 (Proc.devRef .tc main_arg0) :=
  (val21_keep V0 main_arg0 (by decide)).trans (val20_main_arg0 V0)
theorem val21_main_arg1 (V0 : Valuation τ sig (Elt Ideal)) : val21 V0 (no_index (Proc.devRef .tc main_arg1)) = V0 (Proc.devRef .tc main_arg1) :=
  (val21_keep V0 main_arg1 (by decide)).trans (val20_main_arg1 V0)
theorem val21_main_arg2 (V0 : Valuation τ sig (Elt Ideal)) : val21 V0 (no_index (Proc.devRef .tc main_arg2)) = V0 (Proc.devRef .tc main_arg2) :=
  (val21_keep V0 main_arg2 (by decide)).trans (val20_main_arg2 V0)
theorem val21_main_arg3 (V0 : Valuation τ sig (Elt Ideal)) : val21 V0 (no_index (Proc.devRef .tc main_arg3)) = V0 (Proc.devRef .tc main_arg3) :=
  (val21_keep V0 main_arg3 (by decide)).trans (val20_main_arg3 V0)
theorem val21_main_arg4 (V0 : Valuation τ sig (Elt Ideal)) : val21 V0 (no_index (Proc.devRef .tc main_arg4)) = V0 (Proc.devRef .tc main_arg4) :=
  (val21_keep V0 main_arg4 (by decide)).trans (val20_main_arg4 V0)
theorem val21_main_arg5 (V0 : Valuation τ sig (Elt Ideal)) : val21 V0 (no_index (Proc.devRef .tc main_arg5)) = V0 (Proc.devRef .tc main_arg5) :=
  (val21_keep V0 main_arg5 (by decide)).trans (val20_main_arg5 V0)
theorem val21_main_arg6 (V0 : Valuation τ sig (Elt Ideal)) : val21 V0 (no_index (Proc.devRef .tc main_arg6)) = V0 (Proc.devRef .tc main_arg6) :=
  (val21_keep V0 main_arg6 (by decide)).trans (val20_main_arg6 V0)
theorem val21_main_arg7 (V0 : Valuation τ sig (Elt Ideal)) : val21 V0 (no_index (Proc.devRef .tc main_arg7)) = V0 (Proc.devRef .tc main_arg7) :=
  (val21_keep V0 main_arg7 (by decide)).trans (val20_main_arg7 V0)
theorem val21_main_arg8 (V0 : Valuation τ sig (Elt Ideal)) : val21 V0 (no_index (Proc.devRef .tc main_arg8)) = V0 (Proc.devRef .tc main_arg8) :=
  (val21_keep V0 main_arg8 (by decide)).trans (val20_main_arg8 V0)
theorem val21_main_arg9 (V0 : Valuation τ sig (Elt Ideal)) : val21 V0 (no_index (Proc.devRef .tc main_arg9)) = V0 (Proc.devRef .tc main_arg9) :=
  (val21_keep V0 main_arg9 (by decide)).trans (val20_main_arg9 V0)
theorem val21_main_arg10 (V0 : Valuation τ sig (Elt Ideal)) : val21 V0 (no_index (Proc.devRef .tc main_arg10)) = V0 (Proc.devRef .tc main_arg10) :=
  (val21_keep V0 main_arg10 (by decide)).trans (val20_main_arg10 V0)
theorem val21_main_arg11 (V0 : Valuation τ sig (Elt Ideal)) : val21 V0 (no_index (Proc.devRef .tc main_arg11)) = V0 (Proc.devRef .tc main_arg11) :=
  (val21_keep V0 main_arg11 (by decide)).trans (val20_main_arg11 V0)
theorem val21_main_arg12 (V0 : Valuation τ sig (Elt Ideal)) : val21 V0 (no_index (Proc.devRef .tc main_arg12)) = V0 (Proc.devRef .tc main_arg12) :=
  (val21_keep V0 main_arg12 (by decide)).trans (val20_main_arg12 V0)
theorem val21_main_arg13 (V0 : Valuation τ sig (Elt Ideal)) : val21 V0 (no_index (Proc.devRef .tc main_arg13)) = V0 (Proc.devRef .tc main_arg13) :=
  (val21_keep V0 main_arg13 (by decide)).trans (val20_main_arg13 V0)
theorem val21_main_arg14 (V0 : Valuation τ sig (Elt Ideal)) : val21 V0 (no_index (Proc.devRef .tc main_arg14)) = V0 (Proc.devRef .tc main_arg14) :=
  (val21_keep V0 main_arg14 (by decide)).trans (val20_main_arg14 V0)
theorem val21_main_arg15 (V0 : Valuation τ sig (Elt Ideal)) : val21 V0 (no_index (Proc.devRef .tc main_arg15)) = V0 (Proc.devRef .tc main_arg15) :=
  (val21_keep V0 main_arg15 (by decide)).trans (val20_main_arg15 V0)
theorem val21_main_arg16 (V0 : Valuation τ sig (Elt Ideal)) : val21 V0 (no_index (Proc.devRef .tc main_arg16)) = V0 (Proc.devRef .tc main_arg16) :=
  (val21_keep V0 main_arg16 (by decide)).trans (val20_main_arg16 V0)
theorem val21_main_arg17 (V0 : Valuation τ sig (Elt Ideal)) : val21 V0 (no_index (Proc.devRef .tc main_arg17)) = V0 (Proc.devRef .tc main_arg17) :=
  (val21_keep V0 main_arg17 (by decide)).trans (val20_main_arg17 V0)
theorem val21_main_arg18 (V0 : Valuation τ sig (Elt Ideal)) : val21 V0 (no_index (Proc.devRef .tc main_arg18)) = V0 (Proc.devRef .tc main_arg18) :=
  (val21_keep V0 main_arg18 (by decide)).trans (val20_main_arg18 V0)
theorem val21_main_arg19 (V0 : Valuation τ sig (Elt Ideal)) : val21 V0 (no_index (Proc.devRef .tc main_arg19)) = V0 (Proc.devRef .tc main_arg19) :=
  (val21_keep V0 main_arg19 (by decide)).trans (val20_main_arg19 V0)
theorem val21_main_arg20 (V0 : Valuation τ sig (Elt Ideal)) : val21 V0 (no_index (Proc.devRef .tc main_arg20)) = V0 (Proc.devRef .tc main_arg20) :=
  (val21_keep V0 main_arg20 (by decide)).trans (val20_main_arg20 V0)
theorem val21_main_v206 (V0 : Valuation τ sig (Elt Ideal)) : val21 V0 (no_index (Proc.devRef .tc main_v206)) = head1H (nodeH (nodeH (nodeH (encodeH (V0 (Proc.devRef .tc main_arg0)) (V0 (Proc.devRef .tc main_arg3)) (V0 (Proc.devRef .tc main_arg4)) (V0 (Proc.devRef .tc main_arg5)) (V0 (Proc.devRef .tc main_arg6))) (aggOfH (edgeH (gatherCatOfH (encodeH (V0 (Proc.devRef .tc main_arg0)) (V0 (Proc.devRef .tc main_arg3)) (V0 (Proc.devRef .tc main_arg4)) (V0 (Proc.devRef .tc main_arg5)) (V0 (Proc.devRef .tc main_arg6))) (srcH (V0 (Proc.devRef .tc main_arg1))) (V0 (Proc.devRef .tc main_arg2))) (sliceW1H ![0, 0, 0] slices_S3x67x32_S1x67x32_0_0_0 (V0 (Proc.devRef .tc main_arg7))) (sliceB1H ![0, 0] slices_S3x32_S1x32_0_0 (V0 (Proc.devRef .tc main_arg8))) (sliceW2H ![0, 0, 0] slices_S3x32x64_S1x32x64_0_0_0 (V0 (Proc.devRef .tc main_arg9))) (slice64H ![0, 0] slices_S3x64_S1x64_0_0 (V0 (Proc.devRef .tc main_arg10)))) (dstH (V0 (Proc.devRef .tc main_arg1))) (invCntOfH (dstH (V0 (Proc.devRef .tc main_arg1))))) (slice64H ![0, 0] slices_S3x64_S1x64_0_0 (V0 (Proc.devRef .tc main_arg11))) (slice64H ![0, 0] slices_S3x64_S1x64_0_0 (V0 (Proc.devRef .tc main_arg12)))) (aggOfH (edgeH (gatherCatOfH (nodeH (encodeH (V0 (Proc.devRef .tc main_arg0)) (V0 (Proc.devRef .tc main_arg3)) (V0 (Proc.devRef .tc main_arg4)) (V0 (Proc.devRef .tc main_arg5)) (V0 (Proc.devRef .tc main_arg6))) (aggOfH (edgeH (gatherCatOfH (encodeH (V0 (Proc.devRef .tc main_arg0)) (V0 (Proc.devRef .tc main_arg3)) (V0 (Proc.devRef .tc main_arg4)) (V0 (Proc.devRef .tc main_arg5)) (V0 (Proc.devRef .tc main_arg6))) (srcH (V0 (Proc.devRef .tc main_arg1))) (V0 (Proc.devRef .tc main_arg2))) (sliceW1H ![0, 0, 0] slices_S3x67x32_S1x67x32_0_0_0 (V0 (Proc.devRef .tc main_arg7))) (sliceB1H ![0, 0] slices_S3x32_S1x32_0_0 (V0 (Proc.devRef .tc main_arg8))) (sliceW2H ![0, 0, 0] slices_S3x32x64_S1x32x64_0_0_0 (V0 (Proc.devRef .tc main_arg9))) (slice64H ![0, 0] slices_S3x64_S1x64_0_0 (V0 (Proc.devRef .tc main_arg10)))) (dstH (V0 (Proc.devRef .tc main_arg1))) (invCntOfH (dstH (V0 (Proc.devRef .tc main_arg1))))) (slice64H ![0, 0] slices_S3x64_S1x64_0_0 (V0 (Proc.devRef .tc main_arg11))) (slice64H ![0, 0] slices_S3x64_S1x64_0_0 (V0 (Proc.devRef .tc main_arg12)))) (srcH (V0 (Proc.devRef .tc main_arg1))) (V0 (Proc.devRef .tc main_arg2))) (sliceW1H ![1, 0, 0] slices_S3x67x32_S1x67x32_1_0_0 (V0 (Proc.devRef .tc main_arg7))) (sliceB1H ![1, 0] slices_S3x32_S1x32_1_0 (V0 (Proc.devRef .tc main_arg8))) (sliceW2H ![1, 0, 0] slices_S3x32x64_S1x32x64_1_0_0 (V0 (Proc.devRef .tc main_arg9))) (slice64H ![1, 0] slices_S3x64_S1x64_1_0 (V0 (Proc.devRef .tc main_arg10)))) (dstH (V0 (Proc.devRef .tc main_arg1))) (invCntOfH (dstH (V0 (Proc.devRef .tc main_arg1))))) (slice64H ![1, 0] slices_S3x64_S1x64_1_0 (V0 (Proc.devRef .tc main_arg11))) (slice64H ![1, 0] slices_S3x64_S1x64_1_0 (V0 (Proc.devRef .tc main_arg12)))) (aggOfH (edgeH (gatherCatOfH (nodeH (nodeH (encodeH (V0 (Proc.devRef .tc main_arg0)) (V0 (Proc.devRef .tc main_arg3)) (V0 (Proc.devRef .tc main_arg4)) (V0 (Proc.devRef .tc main_arg5)) (V0 (Proc.devRef .tc main_arg6))) (aggOfH (edgeH (gatherCatOfH (encodeH (V0 (Proc.devRef .tc main_arg0)) (V0 (Proc.devRef .tc main_arg3)) (V0 (Proc.devRef .tc main_arg4)) (V0 (Proc.devRef .tc main_arg5)) (V0 (Proc.devRef .tc main_arg6))) (srcH (V0 (Proc.devRef .tc main_arg1))) (V0 (Proc.devRef .tc main_arg2))) (sliceW1H ![0, 0, 0] slices_S3x67x32_S1x67x32_0_0_0 (V0 (Proc.devRef .tc main_arg7))) (sliceB1H ![0, 0] slices_S3x32_S1x32_0_0 (V0 (Proc.devRef .tc main_arg8))) (sliceW2H ![0, 0, 0] slices_S3x32x64_S1x32x64_0_0_0 (V0 (Proc.devRef .tc main_arg9))) (slice64H ![0, 0] slices_S3x64_S1x64_0_0 (V0 (Proc.devRef .tc main_arg10)))) (dstH (V0 (Proc.devRef .tc main_arg1))) (invCntOfH (dstH (V0 (Proc.devRef .tc main_arg1))))) (slice64H ![0, 0] slices_S3x64_S1x64_0_0 (V0 (Proc.devRef .tc main_arg11))) (slice64H ![0, 0] slices_S3x64_S1x64_0_0 (V0 (Proc.devRef .tc main_arg12)))) (aggOfH (edgeH (gatherCatOfH (nodeH (encodeH (V0 (Proc.devRef .tc main_arg0)) (V0 (Proc.devRef .tc main_arg3)) (V0 (Proc.devRef .tc main_arg4)) (V0 (Proc.devRef .tc main_arg5)) (V0 (Proc.devRef .tc main_arg6))) (aggOfH (edgeH (gatherCatOfH (encodeH (V0 (Proc.devRef .tc main_arg0)) (V0 (Proc.devRef .tc main_arg3)) (V0 (Proc.devRef .tc main_arg4)) (V0 (Proc.devRef .tc main_arg5)) (V0 (Proc.devRef .tc main_arg6))) (srcH (V0 (Proc.devRef .tc main_arg1))) (V0 (Proc.devRef .tc main_arg2))) (sliceW1H ![0, 0, 0] slices_S3x67x32_S1x67x32_0_0_0 (V0 (Proc.devRef .tc main_arg7))) (sliceB1H ![0, 0] slices_S3x32_S1x32_0_0 (V0 (Proc.devRef .tc main_arg8))) (sliceW2H ![0, 0, 0] slices_S3x32x64_S1x32x64_0_0_0 (V0 (Proc.devRef .tc main_arg9))) (slice64H ![0, 0] slices_S3x64_S1x64_0_0 (V0 (Proc.devRef .tc main_arg10)))) (dstH (V0 (Proc.devRef .tc main_arg1))) (invCntOfH (dstH (V0 (Proc.devRef .tc main_arg1))))) (slice64H ![0, 0] slices_S3x64_S1x64_0_0 (V0 (Proc.devRef .tc main_arg11))) (slice64H ![0, 0] slices_S3x64_S1x64_0_0 (V0 (Proc.devRef .tc main_arg12)))) (srcH (V0 (Proc.devRef .tc main_arg1))) (V0 (Proc.devRef .tc main_arg2))) (sliceW1H ![1, 0, 0] slices_S3x67x32_S1x67x32_1_0_0 (V0 (Proc.devRef .tc main_arg7))) (sliceB1H ![1, 0] slices_S3x32_S1x32_1_0 (V0 (Proc.devRef .tc main_arg8))) (sliceW2H ![1, 0, 0] slices_S3x32x64_S1x32x64_1_0_0 (V0 (Proc.devRef .tc main_arg9))) (slice64H ![1, 0] slices_S3x64_S1x64_1_0 (V0 (Proc.devRef .tc main_arg10)))) (dstH (V0 (Proc.devRef .tc main_arg1))) (invCntOfH (dstH (V0 (Proc.devRef .tc main_arg1))))) (slice64H ![1, 0] slices_S3x64_S1x64_1_0 (V0 (Proc.devRef .tc main_arg11))) (slice64H ![1, 0] slices_S3x64_S1x64_1_0 (V0 (Proc.devRef .tc main_arg12)))) (srcH (V0 (Proc.devRef .tc main_arg1))) (V0 (Proc.devRef .tc main_arg2))) (sliceW1H ![2, 0, 0] slices_S3x67x32_S1x67x32_2_0_0 (V0 (Proc.devRef .tc main_arg7))) (sliceB1H ![2, 0] slices_S3x32_S1x32_2_0 (V0 (Proc.devRef .tc main_arg8))) (sliceW2H ![2, 0, 0] slices_S3x32x64_S1x32x64_2_0_0 (V0 (Proc.devRef .tc main_arg9))) (slice64H ![2, 0] slices_S3x64_S1x64_2_0 (V0 (Proc.devRef .tc main_arg10)))) (dstH (V0 (Proc.devRef .tc main_arg1))) (invCntOfH (dstH (V0 (Proc.devRef .tc main_arg1))))) (slice64H ![2, 0] slices_S3x64_S1x64_2_0 (V0 (Proc.devRef .tc main_arg11))) (slice64H ![2, 0] slices_S3x64_S1x64_2_0 (V0 (Proc.devRef .tc main_arg12)))) (V0 (Proc.devRef .tc main_arg13)) (V0 (Proc.devRef .tc main_arg14)) (V0 (Proc.devRef .tc main_arg15)) (V0 (Proc.devRef .tc main_arg16)) :=
  (val21_keep V0 main_v206 (by decide)).trans (val20_main_v206 V0)
set_option maxRecDepth 8192 in
set_option maxHeartbeats 4000000 in
theorem val21_main_v215 (V0 : Valuation τ sig (Elt Ideal)) : val21 V0 (no_index (Proc.devRef .tc main_v215)) = head2H (nodeH (nodeH (nodeH (encodeH (V0 (Proc.devRef .tc main_arg0)) (V0 (Proc.devRef .tc main_arg3)) (V0 (Proc.devRef .tc main_arg4)) (V0 (Proc.devRef .tc main_arg5)) (V0 (Proc.devRef .tc main_arg6))) (aggOfH (edgeH (gatherCatOfH (encodeH (V0 (Proc.devRef .tc main_arg0)) (V0 (Proc.devRef .tc main_arg3)) (V0 (Proc.devRef .tc main_arg4)) (V0 (Proc.devRef .tc main_arg5)) (V0 (Proc.devRef .tc main_arg6))) (srcH (V0 (Proc.devRef .tc main_arg1))) (V0 (Proc.devRef .tc main_arg2))) (sliceW1H ![0, 0, 0] slices_S3x67x32_S1x67x32_0_0_0 (V0 (Proc.devRef .tc main_arg7))) (sliceB1H ![0, 0] slices_S3x32_S1x32_0_0 (V0 (Proc.devRef .tc main_arg8))) (sliceW2H ![0, 0, 0] slices_S3x32x64_S1x32x64_0_0_0 (V0 (Proc.devRef .tc main_arg9))) (slice64H ![0, 0] slices_S3x64_S1x64_0_0 (V0 (Proc.devRef .tc main_arg10)))) (dstH (V0 (Proc.devRef .tc main_arg1))) (invCntOfH (dstH (V0 (Proc.devRef .tc main_arg1))))) (slice64H ![0, 0] slices_S3x64_S1x64_0_0 (V0 (Proc.devRef .tc main_arg11))) (slice64H ![0, 0] slices_S3x64_S1x64_0_0 (V0 (Proc.devRef .tc main_arg12)))) (aggOfH (edgeH (gatherCatOfH (nodeH (encodeH (V0 (Proc.devRef .tc main_arg0)) (V0 (Proc.devRef .tc main_arg3)) (V0 (Proc.devRef .tc main_arg4)) (V0 (Proc.devRef .tc main_arg5)) (V0 (Proc.devRef .tc main_arg6))) (aggOfH (edgeH (gatherCatOfH (encodeH (V0 (Proc.devRef .tc main_arg0)) (V0 (Proc.devRef .tc main_arg3)) (V0 (Proc.devRef .tc main_arg4)) (V0 (Proc.devRef .tc main_arg5)) (V0 (Proc.devRef .tc main_arg6))) (srcH (V0 (Proc.devRef .tc main_arg1))) (V0 (Proc.devRef .tc main_arg2))) (sliceW1H ![0, 0, 0] slices_S3x67x32_S1x67x32_0_0_0 (V0 (Proc.devRef .tc main_arg7))) (sliceB1H ![0, 0] slices_S3x32_S1x32_0_0 (V0 (Proc.devRef .tc main_arg8))) (sliceW2H ![0, 0, 0] slices_S3x32x64_S1x32x64_0_0_0 (V0 (Proc.devRef .tc main_arg9))) (slice64H ![0, 0] slices_S3x64_S1x64_0_0 (V0 (Proc.devRef .tc main_arg10)))) (dstH (V0 (Proc.devRef .tc main_arg1))) (invCntOfH (dstH (V0 (Proc.devRef .tc main_arg1))))) (slice64H ![0, 0] slices_S3x64_S1x64_0_0 (V0 (Proc.devRef .tc main_arg11))) (slice64H ![0, 0] slices_S3x64_S1x64_0_0 (V0 (Proc.devRef .tc main_arg12)))) (srcH (V0 (Proc.devRef .tc main_arg1))) (V0 (Proc.devRef .tc main_arg2))) (sliceW1H ![1, 0, 0] slices_S3x67x32_S1x67x32_1_0_0 (V0 (Proc.devRef .tc main_arg7))) (sliceB1H ![1, 0] slices_S3x32_S1x32_1_0 (V0 (Proc.devRef .tc main_arg8))) (sliceW2H ![1, 0, 0] slices_S3x32x64_S1x32x64_1_0_0 (V0 (Proc.devRef .tc main_arg9))) (slice64H ![1, 0] slices_S3x64_S1x64_1_0 (V0 (Proc.devRef .tc main_arg10)))) (dstH (V0 (Proc.devRef .tc main_arg1))) (invCntOfH (dstH (V0 (Proc.devRef .tc main_arg1))))) (slice64H ![1, 0] slices_S3x64_S1x64_1_0 (V0 (Proc.devRef .tc main_arg11))) (slice64H ![1, 0] slices_S3x64_S1x64_1_0 (V0 (Proc.devRef .tc main_arg12)))) (aggOfH (edgeH (gatherCatOfH (nodeH (nodeH (encodeH (V0 (Proc.devRef .tc main_arg0)) (V0 (Proc.devRef .tc main_arg3)) (V0 (Proc.devRef .tc main_arg4)) (V0 (Proc.devRef .tc main_arg5)) (V0 (Proc.devRef .tc main_arg6))) (aggOfH (edgeH (gatherCatOfH (encodeH (V0 (Proc.devRef .tc main_arg0)) (V0 (Proc.devRef .tc main_arg3)) (V0 (Proc.devRef .tc main_arg4)) (V0 (Proc.devRef .tc main_arg5)) (V0 (Proc.devRef .tc main_arg6))) (srcH (V0 (Proc.devRef .tc main_arg1))) (V0 (Proc.devRef .tc main_arg2))) (sliceW1H ![0, 0, 0] slices_S3x67x32_S1x67x32_0_0_0 (V0 (Proc.devRef .tc main_arg7))) (sliceB1H ![0, 0] slices_S3x32_S1x32_0_0 (V0 (Proc.devRef .tc main_arg8))) (sliceW2H ![0, 0, 0] slices_S3x32x64_S1x32x64_0_0_0 (V0 (Proc.devRef .tc main_arg9))) (slice64H ![0, 0] slices_S3x64_S1x64_0_0 (V0 (Proc.devRef .tc main_arg10)))) (dstH (V0 (Proc.devRef .tc main_arg1))) (invCntOfH (dstH (V0 (Proc.devRef .tc main_arg1))))) (slice64H ![0, 0] slices_S3x64_S1x64_0_0 (V0 (Proc.devRef .tc main_arg11))) (slice64H ![0, 0] slices_S3x64_S1x64_0_0 (V0 (Proc.devRef .tc main_arg12)))) (aggOfH (edgeH (gatherCatOfH (nodeH (encodeH (V0 (Proc.devRef .tc main_arg0)) (V0 (Proc.devRef .tc main_arg3)) (V0 (Proc.devRef .tc main_arg4)) (V0 (Proc.devRef .tc main_arg5)) (V0 (Proc.devRef .tc main_arg6))) (aggOfH (edgeH (gatherCatOfH (encodeH (V0 (Proc.devRef .tc main_arg0)) (V0 (Proc.devRef .tc main_arg3)) (V0 (Proc.devRef .tc main_arg4)) (V0 (Proc.devRef .tc main_arg5)) (V0 (Proc.devRef .tc main_arg6))) (srcH (V0 (Proc.devRef .tc main_arg1))) (V0 (Proc.devRef .tc main_arg2))) (sliceW1H ![0, 0, 0] slices_S3x67x32_S1x67x32_0_0_0 (V0 (Proc.devRef .tc main_arg7))) (sliceB1H ![0, 0] slices_S3x32_S1x32_0_0 (V0 (Proc.devRef .tc main_arg8))) (sliceW2H ![0, 0, 0] slices_S3x32x64_S1x32x64_0_0_0 (V0 (Proc.devRef .tc main_arg9))) (slice64H ![0, 0] slices_S3x64_S1x64_0_0 (V0 (Proc.devRef .tc main_arg10)))) (dstH (V0 (Proc.devRef .tc main_arg1))) (invCntOfH (dstH (V0 (Proc.devRef .tc main_arg1))))) (slice64H ![0, 0] slices_S3x64_S1x64_0_0 (V0 (Proc.devRef .tc main_arg11))) (slice64H ![0, 0] slices_S3x64_S1x64_0_0 (V0 (Proc.devRef .tc main_arg12)))) (srcH (V0 (Proc.devRef .tc main_arg1))) (V0 (Proc.devRef .tc main_arg2))) (sliceW1H ![1, 0, 0] slices_S3x67x32_S1x67x32_1_0_0 (V0 (Proc.devRef .tc main_arg7))) (sliceB1H ![1, 0] slices_S3x32_S1x32_1_0 (V0 (Proc.devRef .tc main_arg8))) (sliceW2H ![1, 0, 0] slices_S3x32x64_S1x32x64_1_0_0 (V0 (Proc.devRef .tc main_arg9))) (slice64H ![1, 0] slices_S3x64_S1x64_1_0 (V0 (Proc.devRef .tc main_arg10)))) (dstH (V0 (Proc.devRef .tc main_arg1))) (invCntOfH (dstH (V0 (Proc.devRef .tc main_arg1))))) (slice64H ![1, 0] slices_S3x64_S1x64_1_0 (V0 (Proc.devRef .tc main_arg11))) (slice64H ![1, 0] slices_S3x64_S1x64_1_0 (V0 (Proc.devRef .tc main_arg12)))) (srcH (V0 (Proc.devRef .tc main_arg1))) (V0 (Proc.devRef .tc main_arg2))) (sliceW1H ![2, 0, 0] slices_S3x67x32_S1x67x32_2_0_0 (V0 (Proc.devRef .tc main_arg7))) (sliceB1H ![2, 0] slices_S3x32_S1x32_2_0 (V0 (Proc.devRef .tc main_arg8))) (sliceW2H ![2, 0, 0] slices_S3x32x64_S1x32x64_2_0_0 (V0 (Proc.devRef .tc main_arg9))) (slice64H ![2, 0] slices_S3x64_S1x64_2_0 (V0 (Proc.devRef .tc main_arg10)))) (dstH (V0 (Proc.devRef .tc main_arg1))) (invCntOfH (dstH (V0 (Proc.devRef .tc main_arg1))))) (slice64H ![2, 0] slices_S3x64_S1x64_2_0 (V0 (Proc.devRef .tc main_arg11))) (slice64H ![2, 0] slices_S3x64_S1x64_2_0 (V0 (Proc.devRef .tc main_arg12)))) (V0 (Proc.devRef .tc main_arg17)) (V0 (Proc.devRef .tc main_arg18)) (V0 (Proc.devRef .tc main_arg19)) (V0 (Proc.devRef .tc main_arg20)) := by
  simp only [val21, val20, seg20, seg19]
  host_line_results
  simp only [val19_main_arg20, val19_main_arg19, val19_main_arg18, val19_main_arg17, val19_main_v197]
  rfl

/-- The contents after all the operations. -/
theorem after_ops (V0 : Valuation τ sig (Elt Ideal)) : after ops V0 = val21 V0 := by
  simp only [ops, pops0, pops1, pops2, pops3, pops4, after_app]
  rfl

end Cert.ReferenceIdeal.RefValue

end
-- ==== Proof.RefRun.lean ====
/-
  The run of the reference program.

  Every weakly fair execution of the reference program terminates; at its end the two result buffers hold the depth and the
  velocity heads of the network composed over the contents the argument buffers had at launch, and the argument buffers
  hold what they held.
-/
import proofs.«104585_j29386166239380_1_alg».proof.Proof.RefRunVals

noncomputable section

namespace Cert.ReferenceIdeal.RefValue

open Idealize.ShloMosaic Idealize.ShloMosaic.TcCoe Idealize.SL.Sem Idealize.ShloMosaic.StableHlo
open Cert.ReferenceIdeal Cert.ReferenceIdeal.Facts₀ Cert.ReferenceIdeal.Facts

open Cert.RefStages

/-- The stages composed along the program are the network: the definitions unfolded. -/
theorem comp_main_v206 (V0 : Valuation τ sig (Elt Ideal)) : head1H (nodeH (nodeH (nodeH (encodeH (V0 (Proc.devRef .tc main_arg0)) (V0 (Proc.devRef .tc main_arg3)) (V0 (Proc.devRef .tc main_arg4)) (V0 (Proc.devRef .tc main_arg5)) (V0 (Proc.devRef .tc main_arg6))) (aggOfH (edgeH (gatherCatOfH (encodeH (V0 (Proc.devRef .tc main_arg0)) (V0 (Proc.devRef .tc main_arg3)) (V0 (Proc.devRef .tc main_arg4)) (V0 (Proc.devRef .tc main_arg5)) (V0 (Proc.devRef .tc main_arg6))) (srcH (V0 (Proc.devRef .tc main_arg1))) (V0 (Proc.devRef .tc main_arg2))) (sliceW1H ![0, 0, 0] slices_S3x67x32_S1x67x32_0_0_0 (V0 (Proc.devRef .tc main_arg7))) (sliceB1H ![0, 0] slices_S3x32_S1x32_0_0 (V0 (Proc.devRef .tc main_arg8))) (sliceW2H ![0, 0, 0] slices_S3x32x64_S1x32x64_0_0_0 (V0 (Proc.devRef .tc main_arg9))) (slice64H ![0, 0] slices_S3x64_S1x64_0_0 (V0 (Proc.devRef .tc main_arg10)))) (dstH (V0 (Proc.devRef .tc main_arg1))) (invCntOfH (dstH (V0 (Proc.devRef .tc main_arg1))))) (slice64H ![0, 0] slices_S3x64_S1x64_0_0 (V0 (Proc.devRef .tc main_arg11))) (slice64H ![0, 0] slices_S3x64_S1x64_0_0 (V0 (Proc.devRef .tc main_arg12)))) (aggOfH (edgeH (gatherCatOfH (nodeH (encodeH (V0 (Proc.devRef .tc main_arg0)) (V0 (Proc.devRef .tc main_arg3)) (V0 (Proc.devRef .tc main_arg4)) (V0 (Proc.devRef .tc main_arg5)) (V0 (Proc.devRef .tc main_arg6))) (aggOfH (edgeH (gatherCatOfH (encodeH (V0 (Proc.devRef .tc main_arg0)) (V0 (Proc.devRef .tc main_arg3)) (V0 (Proc.devRef .tc main_arg4)) (V0 (Proc.devRef .tc main_arg5)) (V0 (Proc.devRef .tc main_arg6))) (srcH (V0 (Proc.devRef .tc main_arg1))) (V0 (Proc.devRef .tc main_arg2))) (sliceW1H ![0, 0, 0] slices_S3x67x32_S1x67x32_0_0_0 (V0 (Proc.devRef .tc main_arg7))) (sliceB1H ![0, 0] slices_S3x32_S1x32_0_0 (V0 (Proc.devRef .tc main_arg8))) (sliceW2H ![0, 0, 0] slices_S3x32x64_S1x32x64_0_0_0 (V0 (Proc.devRef .tc main_arg9))) (slice64H ![0, 0] slices_S3x64_S1x64_0_0 (V0 (Proc.devRef .tc main_arg10)))) (dstH (V0 (Proc.devRef .tc main_arg1))) (invCntOfH (dstH (V0 (Proc.devRef .tc main_arg1))))) (slice64H ![0, 0] slices_S3x64_S1x64_0_0 (V0 (Proc.devRef .tc main_arg11))) (slice64H ![0, 0] slices_S3x64_S1x64_0_0 (V0 (Proc.devRef .tc main_arg12)))) (srcH (V0 (Proc.devRef .tc main_arg1))) (V0 (Proc.devRef .tc main_arg2))) (sliceW1H ![1, 0, 0] slices_S3x67x32_S1x67x32_1_0_0 (V0 (Proc.devRef .tc main_arg7))) (sliceB1H ![1, 0] slices_S3x32_S1x32_1_0 (V0 (Proc.devRef .tc main_arg8))) (sliceW2H ![1, 0, 0] slices_S3x32x64_S1x32x64_1_0_0 (V0 (Proc.devRef .tc main_arg9))) (slice64H ![1, 0] slices_S3x64_S1x64_1_0 (V0 (Proc.devRef .tc main_arg10)))) (dstH (V0 (Proc.devRef .tc main_arg1))) (invCntOfH (dstH (V0 (Proc.devRef .tc main_arg1))))) (slice64H ![1, 0] slices_S3x64_S1x64_1_0 (V0 (Proc.devRef .tc main_arg11))) (slice64H ![1, 0] slices_S3x64_S1x64_1_0 (V0 (Proc.devRef .tc main_arg12)))) (aggOfH (edgeH (gatherCatOfH (nodeH (nodeH (encodeH (V0 (Proc.devRef .tc main_arg0)) (V0 (Proc.devRef .tc main_arg3)) (V0 (Proc.devRef .tc main_arg4)) (V0 (Proc.devRef .tc main_arg5)) (V0 (Proc.devRef .tc main_arg6))) (aggOfH (edgeH (gatherCatOfH (encodeH (V0 (Proc.devRef .tc main_arg0)) (V0 (Proc.devRef .tc main_arg3)) (V0 (Proc.devRef .tc main_arg4)) (V0 (Proc.devRef .tc main_arg5)) (V0 (Proc.devRef .tc main_arg6))) (srcH (V0 (Proc.devRef .tc main_arg1))) (V0 (Proc.devRef .tc main_arg2))) (sliceW1H ![0, 0, 0] slices_S3x67x32_S1x67x32_0_0_0 (V0 (Proc.devRef .tc main_arg7))) (sliceB1H ![0, 0] slices_S3x32_S1x32_0_0 (V0 (Proc.devRef .tc main_arg8))) (sliceW2H ![0, 0, 0] slices_S3x32x64_S1x32x64_0_0_0 (V0 (Proc.devRef .tc main_arg9))) (slice64H ![0, 0] slices_S3x64_S1x64_0_0 (V0 (Proc.devRef .tc main_arg10)))) (dstH (V0 (Proc.devRef .tc main_arg1))) (invCntOfH (dstH (V0 (Proc.devRef .tc main_arg1))))) (slice64H ![0, 0] slices_S3x64_S1x64_0_0 (V0 (Proc.devRef .tc main_arg11))) (slice64H ![0, 0] slices_S3x64_S1x64_0_0 (V0 (Proc.devRef .tc main_arg12)))) (aggOfH (edgeH (gatherCatOfH (nodeH (encodeH (V0 (Proc.devRef .tc main_arg0)) (V0 (Proc.devRef .tc main_arg3)) (V0 (Proc.devRef .tc main_arg4)) (V0 (Proc.devRef .tc main_arg5)) (V0 (Proc.devRef .tc main_arg6))) (aggOfH (edgeH (gatherCatOfH (encodeH (V0 (Proc.devRef .tc main_arg0)) (V0 (Proc.devRef .tc main_arg3)) (V0 (Proc.devRef .tc main_arg4)) (V0 (Proc.devRef .tc main_arg5)) (V0 (Proc.devRef .tc main_arg6))) (srcH (V0 (Proc.devRef .tc main_arg1))) (V0 (Proc.devRef .tc main_arg2))) (sliceW1H ![0, 0, 0] slices_S3x67x32_S1x67x32_0_0_0 (V0 (Proc.devRef .tc main_arg7))) (sliceB1H ![0, 0] slices_S3x32_S1x32_0_0 (V0 (Proc.devRef .tc main_arg8))) (sliceW2H ![0, 0, 0] slices_S3x32x64_S1x32x64_0_0_0 (V0 (Proc.devRef .tc main_arg9))) (slice64H ![0, 0] slices_S3x64_S1x64_0_0 (V0 (Proc.devRef .tc main_arg10)))) (dstH (V0 (Proc.devRef .tc main_arg1))) (invCntOfH (dstH (V0 (Proc.devRef .tc main_arg1))))) (slice64H ![0, 0] slices_S3x64_S1x64_0_0 (V0 (Proc.devRef .tc main_arg11))) (slice64H ![0, 0] slices_S3x64_S1x64_0_0 (V0 (Proc.devRef .tc main_arg12)))) (srcH (V0 (Proc.devRef .tc main_arg1))) (V0 (Proc.devRef .tc main_arg2))) (sliceW1H ![1, 0, 0] slices_S3x67x32_S1x67x32_1_0_0 (V0 (Proc.devRef .tc main_arg7))) (sliceB1H ![1, 0] slices_S3x32_S1x32_1_0 (V0 (Proc.devRef .tc main_arg8))) (sliceW2H ![1, 0, 0] slices_S3x32x64_S1x32x64_1_0_0 (V0 (Proc.devRef .tc main_arg9))) (slice64H ![1, 0] slices_S3x64_S1x64_1_0 (V0 (Proc.devRef .tc main_arg10)))) (dstH (V0 (Proc.devRef .tc main_arg1))) (invCntOfH (dstH (V0 (Proc.devRef .tc main_arg1))))) (slice64H ![1, 0] slices_S3x64_S1x64_1_0 (V0 (Proc.devRef .tc main_arg11))) (slice64H ![1, 0] slices_S3x64_S1x64_1_0 (V0 (Proc.devRef .tc main_arg12)))) (srcH (V0 (Proc.devRef .tc main_arg1))) (V0 (Proc.devRef .tc main_arg2))) (sliceW1H ![2, 0, 0] slices_S3x67x32_S1x67x32_2_0_0 (V0 (Proc.devRef .tc main_arg7))) (sliceB1H ![2, 0] slices_S3x32_S1x32_2_0 (V0 (Proc.devRef .tc main_arg8))) (sliceW2H ![2, 0, 0] slices_S3x32x64_S1x32x64_2_0_0 (V0 (Proc.devRef .tc main_arg9))) (slice64H ![2, 0] slices_S3x64_S1x64_2_0 (V0 (Proc.devRef .tc main_arg10)))) (dstH (V0 (Proc.devRef .tc main_arg1))) (invCntOfH (dstH (V0 (Proc.devRef .tc main_arg1))))) (slice64H ![2, 0] slices_S3x64_S1x64_2_0 (V0 (Proc.devRef .tc main_arg11))) (slice64H ![2, 0] slices_S3x64_S1x64_2_0 (V0 (Proc.devRef .tc main_arg12)))) (V0 (Proc.devRef .tc main_arg13)) (V0 (Proc.devRef .tc main_arg14)) (V0 (Proc.devRef .tc main_arg15)) (V0 (Proc.devRef .tc main_arg16)) = depthH (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) (V0 (Proc.devRef .tc main_arg18)) (V0 (Proc.devRef .tc main_arg19)) (V0 (Proc.devRef .tc main_arg20)) := rfl

/-- The stages composed along the program are the network: the definitions unfolded. -/
theorem comp_main_v215 (V0 : Valuation τ sig (Elt Ideal)) : head2H (nodeH (nodeH (nodeH (encodeH (V0 (Proc.devRef .tc main_arg0)) (V0 (Proc.devRef .tc main_arg3)) (V0 (Proc.devRef .tc main_arg4)) (V0 (Proc.devRef .tc main_arg5)) (V0 (Proc.devRef .tc main_arg6))) (aggOfH (edgeH (gatherCatOfH (encodeH (V0 (Proc.devRef .tc main_arg0)) (V0 (Proc.devRef .tc main_arg3)) (V0 (Proc.devRef .tc main_arg4)) (V0 (Proc.devRef .tc main_arg5)) (V0 (Proc.devRef .tc main_arg6))) (srcH (V0 (Proc.devRef .tc main_arg1))) (V0 (Proc.devRef .tc main_arg2))) (sliceW1H ![0, 0, 0] slices_S3x67x32_S1x67x32_0_0_0 (V0 (Proc.devRef .tc main_arg7))) (sliceB1H ![0, 0] slices_S3x32_S1x32_0_0 (V0 (Proc.devRef .tc main_arg8))) (sliceW2H ![0, 0, 0] slices_S3x32x64_S1x32x64_0_0_0 (V0 (Proc.devRef .tc main_arg9))) (slice64H ![0, 0] slices_S3x64_S1x64_0_0 (V0 (Proc.devRef .tc main_arg10)))) (dstH (V0 (Proc.devRef .tc main_arg1))) (invCntOfH (dstH (V0 (Proc.devRef .tc main_arg1))))) (slice64H ![0, 0] slices_S3x64_S1x64_0_0 (V0 (Proc.devRef .tc main_arg11))) (slice64H ![0, 0] slices_S3x64_S1x64_0_0 (V0 (Proc.devRef .tc main_arg12)))) (aggOfH (edgeH (gatherCatOfH (nodeH (encodeH (V0 (Proc.devRef .tc main_arg0)) (V0 (Proc.devRef .tc main_arg3)) (V0 (Proc.devRef .tc main_arg4)) (V0 (Proc.devRef .tc main_arg5)) (V0 (Proc.devRef .tc main_arg6))) (aggOfH (edgeH (gatherCatOfH (encodeH (V0 (Proc.devRef .tc main_arg0)) (V0 (Proc.devRef .tc main_arg3)) (V0 (Proc.devRef .tc main_arg4)) (V0 (Proc.devRef .tc main_arg5)) (V0 (Proc.devRef .tc main_arg6))) (srcH (V0 (Proc.devRef .tc main_arg1))) (V0 (Proc.devRef .tc main_arg2))) (sliceW1H ![0, 0, 0] slices_S3x67x32_S1x67x32_0_0_0 (V0 (Proc.devRef .tc main_arg7))) (sliceB1H ![0, 0] slices_S3x32_S1x32_0_0 (V0 (Proc.devRef .tc main_arg8))) (sliceW2H ![0, 0, 0] slices_S3x32x64_S1x32x64_0_0_0 (V0 (Proc.devRef .tc main_arg9))) (slice64H ![0, 0] slices_S3x64_S1x64_0_0 (V0 (Proc.devRef .tc main_arg10)))) (dstH (V0 (Proc.devRef .tc main_arg1))) (invCntOfH (dstH (V0 (Proc.devRef .tc main_arg1))))) (slice64H ![0, 0] slices_S3x64_S1x64_0_0 (V0 (Proc.devRef .tc main_arg11))) (slice64H ![0, 0] slices_S3x64_S1x64_0_0 (V0 (Proc.devRef .tc main_arg12)))) (srcH (V0 (Proc.devRef .tc main_arg1))) (V0 (Proc.devRef .tc main_arg2))) (sliceW1H ![1, 0, 0] slices_S3x67x32_S1x67x32_1_0_0 (V0 (Proc.devRef .tc main_arg7))) (sliceB1H ![1, 0] slices_S3x32_S1x32_1_0 (V0 (Proc.devRef .tc main_arg8))) (sliceW2H ![1, 0, 0] slices_S3x32x64_S1x32x64_1_0_0 (V0 (Proc.devRef .tc main_arg9))) (slice64H ![1, 0] slices_S3x64_S1x64_1_0 (V0 (Proc.devRef .tc main_arg10)))) (dstH (V0 (Proc.devRef .tc main_arg1))) (invCntOfH (dstH (V0 (Proc.devRef .tc main_arg1))))) (slice64H ![1, 0] slices_S3x64_S1x64_1_0 (V0 (Proc.devRef .tc main_arg11))) (slice64H ![1, 0] slices_S3x64_S1x64_1_0 (V0 (Proc.devRef .tc main_arg12)))) (aggOfH (edgeH (gatherCatOfH (nodeH (nodeH (encodeH (V0 (Proc.devRef .tc main_arg0)) (V0 (Proc.devRef .tc main_arg3)) (V0 (Proc.devRef .tc main_arg4)) (V0 (Proc.devRef .tc main_arg5)) (V0 (Proc.devRef .tc main_arg6))) (aggOfH (edgeH (gatherCatOfH (encodeH (V0 (Proc.devRef .tc main_arg0)) (V0 (Proc.devRef .tc main_arg3)) (V0 (Proc.devRef .tc main_arg4)) (V0 (Proc.devRef .tc main_arg5)) (V0 (Proc.devRef .tc main_arg6))) (srcH (V0 (Proc.devRef .tc main_arg1))) (V0 (Proc.devRef .tc main_arg2))) (sliceW1H ![0, 0, 0] slices_S3x67x32_S1x67x32_0_0_0 (V0 (Proc.devRef .tc main_arg7))) (sliceB1H ![0, 0] slices_S3x32_S1x32_0_0 (V0 (Proc.devRef .tc main_arg8))) (sliceW2H ![0, 0, 0] slices_S3x32x64_S1x32x64_0_0_0 (V0 (Proc.devRef .tc main_arg9))) (slice64H ![0, 0] slices_S3x64_S1x64_0_0 (V0 (Proc.devRef .tc main_arg10)))) (dstH (V0 (Proc.devRef .tc main_arg1))) (invCntOfH (dstH (V0 (Proc.devRef .tc main_arg1))))) (slice64H ![0, 0] slices_S3x64_S1x64_0_0 (V0 (Proc.devRef .tc main_arg11))) (slice64H ![0, 0] slices_S3x64_S1x64_0_0 (V0 (Proc.devRef .tc main_arg12)))) (aggOfH (edgeH (gatherCatOfH (nodeH (encodeH (V0 (Proc.devRef .tc main_arg0)) (V0 (Proc.devRef .tc main_arg3)) (V0 (Proc.devRef .tc main_arg4)) (V0 (Proc.devRef .tc main_arg5)) (V0 (Proc.devRef .tc main_arg6))) (aggOfH (edgeH (gatherCatOfH (encodeH (V0 (Proc.devRef .tc main_arg0)) (V0 (Proc.devRef .tc main_arg3)) (V0 (Proc.devRef .tc main_arg4)) (V0 (Proc.devRef .tc main_arg5)) (V0 (Proc.devRef .tc main_arg6))) (srcH (V0 (Proc.devRef .tc main_arg1))) (V0 (Proc.devRef .tc main_arg2))) (sliceW1H ![0, 0, 0] slices_S3x67x32_S1x67x32_0_0_0 (V0 (Proc.devRef .tc main_arg7))) (sliceB1H ![0, 0] slices_S3x32_S1x32_0_0 (V0 (Proc.devRef .tc main_arg8))) (sliceW2H ![0, 0, 0] slices_S3x32x64_S1x32x64_0_0_0 (V0 (Proc.devRef .tc main_arg9))) (slice64H ![0, 0] slices_S3x64_S1x64_0_0 (V0 (Proc.devRef .tc main_arg10)))) (dstH (V0 (Proc.devRef .tc main_arg1))) (invCntOfH (dstH (V0 (Proc.devRef .tc main_arg1))))) (slice64H ![0, 0] slices_S3x64_S1x64_0_0 (V0 (Proc.devRef .tc main_arg11))) (slice64H ![0, 0] slices_S3x64_S1x64_0_0 (V0 (Proc.devRef .tc main_arg12)))) (srcH (V0 (Proc.devRef .tc main_arg1))) (V0 (Proc.devRef .tc main_arg2))) (sliceW1H ![1, 0, 0] slices_S3x67x32_S1x67x32_1_0_0 (V0 (Proc.devRef .tc main_arg7))) (sliceB1H ![1, 0] slices_S3x32_S1x32_1_0 (V0 (Proc.devRef .tc main_arg8))) (sliceW2H ![1, 0, 0] slices_S3x32x64_S1x32x64_1_0_0 (V0 (Proc.devRef .tc main_arg9))) (slice64H ![1, 0] slices_S3x64_S1x64_1_0 (V0 (Proc.devRef .tc main_arg10)))) (dstH (V0 (Proc.devRef .tc main_arg1))) (invCntOfH (dstH (V0 (Proc.devRef .tc main_arg1))))) (slice64H ![1, 0] slices_S3x64_S1x64_1_0 (V0 (Proc.devRef .tc main_arg11))) (slice64H ![1, 0] slices_S3x64_S1x64_1_0 (V0 (Proc.devRef .tc main_arg12)))) (srcH (V0 (Proc.devRef .tc main_arg1))) (V0 (Proc.devRef .tc main_arg2))) (sliceW1H ![2, 0, 0] slices_S3x67x32_S1x67x32_2_0_0 (V0 (Proc.devRef .tc main_arg7))) (sliceB1H ![2, 0] slices_S3x32_S1x32_2_0 (V0 (Proc.devRef .tc main_arg8))) (sliceW2H ![2, 0, 0] slices_S3x32x64_S1x32x64_2_0_0 (V0 (Proc.devRef .tc main_arg9))) (slice64H ![2, 0] slices_S3x64_S1x64_2_0 (V0 (Proc.devRef .tc main_arg10)))) (dstH (V0 (Proc.devRef .tc main_arg1))) (invCntOfH (dstH (V0 (Proc.devRef .tc main_arg1))))) (slice64H ![2, 0] slices_S3x64_S1x64_2_0 (V0 (Proc.devRef .tc main_arg11))) (slice64H ![2, 0] slices_S3x64_S1x64_2_0 (V0 (Proc.devRef .tc main_arg12)))) (V0 (Proc.devRef .tc main_arg17)) (V0 (Proc.devRef .tc main_arg18)) (V0 (Proc.devRef .tc main_arg19)) (V0 (Proc.devRef .tc main_arg20)) = velocityH (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) (V0 (Proc.devRef .tc main_arg18)) (V0 (Proc.devRef .tc main_arg19)) (V0 (Proc.devRef .tc main_arg20)) := rfl

/-- On every device, from any memory with zero counters: every weakly fair execution of the entry function terminates with the two
    results at the network of the argument arrays and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v206) = depthH (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20))
      ∧ r.2.mem ((c.tc : Thread nD τ).loc main_v215) = velocityH (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20) :=
  (θ_run (defs (F := Ideal)) _ _).mono (fun _ h c => ⟨(h c main_v206).trans ((congrFun (after_ops _) _).trans ((val21_main_v206 _).trans (comp_main_v206 _))),
      (h c main_v215).trans ((congrFun (after_ops _) _).trans ((val21_main_v215 _).trans (comp_main_v215 _))),
      (h c main_arg0).trans ((congrFun (after_ops _) _).trans (val21_main_arg0 _)),
      (h c main_arg1).trans ((congrFun (after_ops _) _).trans (val21_main_arg1 _)),
      (h c main_arg2).trans ((congrFun (after_ops _) _).trans (val21_main_arg2 _)),
      (h c main_arg3).trans ((congrFun (after_ops _) _).trans (val21_main_arg3 _)),
      (h c main_arg4).trans ((congrFun (after_ops _) _).trans (val21_main_arg4 _)),
      (h c main_arg5).trans ((congrFun (after_ops _) _).trans (val21_main_arg5 _)),
      (h c main_arg6).trans ((congrFun (after_ops _) _).trans (val21_main_arg6 _)),
      (h c main_arg7).trans ((congrFun (after_ops _) _).trans (val21_main_arg7 _)),
      (h c main_arg8).trans ((congrFun (after_ops _) _).trans (val21_main_arg8 _)),
      (h c main_arg9).trans ((congrFun (after_ops _) _).trans (val21_main_arg9 _)),
      (h c main_arg10).trans ((congrFun (after_ops _) _).trans (val21_main_arg10 _)),
      (h c main_arg11).trans ((congrFun (after_ops _) _).trans (val21_main_arg11 _)),
      (h c main_arg12).trans ((congrFun (after_ops _) _).trans (val21_main_arg12 _)),
      (h c main_arg13).trans ((congrFun (after_ops _) _).trans (val21_main_arg13 _)),
      (h c main_arg14).trans ((congrFun (after_ops _) _).trans (val21_main_arg14 _)),
      (h c main_arg15).trans ((congrFun (after_ops _) _).trans (val21_main_arg15 _)),
      (h c main_arg16).trans ((congrFun (after_ops _) _).trans (val21_main_arg16 _)),
      (h c main_arg17).trans ((congrFun (after_ops _) _).trans (val21_main_arg17 _)),
      (h c main_arg18).trans ((congrFun (after_ops _) _).trans (val21_main_arg18 _)),
      (h c main_arg19).trans ((congrFun (after_ops _) _).trans (val21_main_arg19 _)),
      (h c main_arg20).trans ((congrFun (after_ops _) _).trans (val21_main_arg20 _))⟩)
    (run_seq scopedRefs_eq scopedSems_eq (defs (F := Ideal)) (main (F := Ideal)) (fun _ => ops) main_eq (fun _ => ops_sub) m ρ (fun _ => ops_fresh))

end Cert.ReferenceIdeal.RefValue

end
-- ==== Proof.lean ====
/-
  The certificate of a three-layer message-passing network over a graph of 50000 nodes and 800000 edges.

  Both programs compute, from the node features, the edge list, the edge features and the parameters: an encoder
  `relu (layernorm (x · W + b))`; three times, for every edge the row of its source node laid beside the edge's features, a
  two-layer network `relu (· W₁ + b₁) · W₂ + b₂` on those rows, the sum of the results over the edges that end in each node
  times the reciprocal of that node's in-degree (zero where no edge ends), and `layernorm (h + aggregate)`; and two
  two-layer output heads.  The kernel program computes the encoder, the per-edge network, the node update and the heads
  block of rows by block of rows in eight regions, the reference computes them on whole arrays; the gathers, the
  concatenation, the sums over edges and the in-degrees are the same host operations in both.

  At the extended reals a matrix unit's product into a zero accumulator and the host's product are the same sums, a
  change of float format is the identity, and each dense stage acts row by row: so a stage computed block by block is the
  stage of the whole array (Region0 … Region7), the kernel program's two results are the network `netDepthK` /
  `netVelocityK` of its argument arrays (the values carried through its eight regions: KerFold, KerFoldClosed), the reference's are
  `depthH` / `velocityH` of its own (RefRun), and these are one function (HostLayers, Network, KerNetwork).  No
  finiteness of the inputs is used: the two sides apply the same operations in the same order.
-/
import proofs.«104585_j29386166239380_1_alg».proof.Defs
import proofs.«104585_j29386166239380_1_alg».proof.Proof.Gen.Kernel
import proofs.«104585_j29386166239380_1_alg».proof.Proof.Gen.Kernel.Frame
import proofs.«104585_j29386166239380_1_alg».proof.Proof.Gen.KernelIdeal
import proofs.«104585_j29386166239380_1_alg».proof.Proof.Gen.KernelIdeal.Frame
import proofs.«104585_j29386166239380_1_alg».proof.Proof.Gen.ReferenceIdeal
import proofs.«104585_j29386166239380_1_alg».proof.Proof.Gen.Pre_finite_inputs
import proofs.«104585_j29386166239380_1_alg».proof.Proof.KerRun
import proofs.«104585_j29386166239380_1_alg».proof.Proof.KerFoldClosed
import proofs.«104585_j29386166239380_1_alg».proof.Proof.KerNetwork
import proofs.«104585_j29386166239380_1_alg».proof.Proof.RefRun
import Idealize.ShloMosaic.Adequacy
import Idealize.ShloMosaic.Init

set_option maxRecDepth 16384

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the results dropped. -/
theorem frame_referenceIdeal : Cert.frame_ReferenceIdeal := fun m ρ _ =>
  (θ_run Cert.ReferenceIdeal.defs _ _).mono (fun _ h c => (h c).2.2) (Cert.ReferenceIdeal.RefValue.run m ρ)

/-- The kernel program's run: its two results are the reference's two functions of its own argument arrays, and the
    argument arrays end as launched. -/
theorem kernel_run (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v0_0) = Cert.RefStages.depthH (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))
      ∧ r.2.mem ((c.tc : Thread Cert.KernelIdeal.nD Cert.KernelIdeal.τ).loc Cert.KernelIdeal.main_v0_1) = Cert.RefStages.velocityH (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)) :=
  (θ_run Cert.KernelIdeal.defs _ _).mono (fun r h c =>
    ⟨((h c _ (Cert.KernelIdeal.Gen.mem_uc Cert.KernelIdeal.main_v0_0 (by decide))).trans (Cert.KernelIdeal.FoldValue.kernel_depth m ρ c)).trans
        (Cert.KerNetwork.netDepthK_eq_depthH _ _ _ _ _ _ _ _ _ _ _ _ _ _ _ _ _ _ _ _ _),
      ((h c _ (Cert.KernelIdeal.Gen.mem_uc Cert.KernelIdeal.main_v0_1 (by decide))).trans (Cert.KernelIdeal.FoldValue.kernel_velocity m ρ c)).trans
        (Cert.KerNetwork.netVelocityK_eq_velocityH _ _ _ _ _ _ _ _ _ _ _ _ _ _ _ _ _ _ _ _ _),
      (h c _ (Cert.KernelIdeal.Gen.mem_uc Cert.KernelIdeal.main_arg0 (by decide))).trans (Cert.KernelIdeal.Gen.W16_main_arg0 m ρ c),
      (h c _ (Cert.KernelIdeal.Gen.mem_uc Cert.KernelIdeal.main_arg1 (by decide))).trans (Cert.KernelIdeal.Gen.W16_main_arg1 m ρ c),
      (h c _ (Cert.KernelIdeal.Gen.mem_uc Cert.KernelIdeal.main_arg2 (by decide))).trans (Cert.KernelIdeal.Gen.W16_main_arg2 m ρ c),
      (h c _ (Cert.KernelIdeal.Gen.mem_uc Cert.KernelIdeal.main_arg3 (by decide))).trans (Cert.KernelIdeal.Gen.W16_main_arg3 m ρ c),
      (h c _ (Cert.KernelIdeal.Gen.mem_uc Cert.KernelIdeal.main_arg4 (by decide))).trans (Cert.KernelIdeal.Gen.W16_main_arg4 m ρ c),
      (h c _ (Cert.KernelIdeal.Gen.mem_uc Cert.KernelIdeal.main_arg5 (by decide))).trans (Cert.KernelIdeal.Gen.W16_main_arg5 m ρ c),
      (h c _ (Cert.KernelIdeal.Gen.mem_uc Cert.KernelIdeal.main_arg6 (by decide))).trans (Cert.KernelIdeal.Gen.W16_main_arg6 m ρ c),
      (h c _ (Cert.KernelIdeal.Gen.mem_uc Cert.KernelIdeal.main_arg7 (by decide))).trans (Cert.KernelIdeal.Gen.W16_main_arg7 m ρ c),
      (h c _ (Cert.KernelIdeal.Gen.mem_uc Cert.KernelIdeal.main_arg8 (by decide))).trans (Cert.KernelIdeal.Gen.W16_main_arg8 m ρ c),
      (h c _ (Cert.KernelIdeal.Gen.mem_uc Cert.KernelIdeal.main_arg9 (by decide))).trans (Cert.KernelIdeal.Gen.W16_main_arg9 m ρ c),
      (h c _ (Cert.KernelIdeal.Gen.mem_uc Cert.KernelIdeal.main_arg10 (by decide))).trans (Cert.KernelIdeal.Gen.W16_main_arg10 m ρ c),
      (h c _ (Cert.KernelIdeal.Gen.mem_uc Cert.KernelIdeal.main_arg11 (by decide))).trans (Cert.KernelIdeal.Gen.W16_main_arg11 m ρ c),
      (h c _ (Cert.KernelIdeal.Gen.mem_uc Cert.KernelIdeal.main_arg12 (by decide))).trans (Cert.KernelIdeal.Gen.W16_main_arg12 m ρ c),
      (h c _ (Cert.KernelIdeal.Gen.mem_uc Cert.KernelIdeal.main_arg13 (by decide))).trans (Cert.KernelIdeal.Gen.W16_main_arg13 m ρ c),
      (h c _ (Cert.KernelIdeal.Gen.mem_uc Cert.KernelIdeal.main_arg14 (by decide))).trans (Cert.KernelIdeal.Gen.W16_main_arg14 m ρ c),
      (h c _ (Cert.KernelIdeal.Gen.mem_uc Cert.KernelIdeal.main_arg15 (by decide))).trans (Cert.KernelIdeal.Gen.W16_main_arg15 m ρ c),
      (h c _ (Cert.KernelIdeal.Gen.mem_uc Cert.KernelIdeal.main_arg16 (by decide))).trans (Cert.KernelIdeal.Gen.W16_main_arg16 m ρ c),
      (h c _ (Cert.KernelIdeal.Gen.mem_uc Cert.KernelIdeal.main_arg17 (by decide))).trans (Cert.KernelIdeal.Gen.W16_main_arg17 m ρ c),
      (h c _ (Cert.KernelIdeal.Gen.mem_uc Cert.KernelIdeal.main_arg18 (by decide))).trans (Cert.KernelIdeal.Gen.W16_main_arg18 m ρ c),
      (h c _ (Cert.KernelIdeal.Gen.mem_uc Cert.KernelIdeal.main_arg19 (by decide))).trans (Cert.KernelIdeal.Gen.W16_main_arg19 m ρ c),
      (h c _ (Cert.KernelIdeal.Gen.mem_uc Cert.KernelIdeal.main_arg20 (by decide))).trans (Cert.KernelIdeal.Gen.W16_main_arg20 m ρ c)⟩)
    (Cert.KernelIdeal.RunValue.run_W16 (F := Ideal) m ρ)

/-- From memories agreeing on the arguments both programs run, and end with equal results: the reference's run posts the
    same two functions of its argument arrays, which are the kernel program's. -/
theorem algebraic : Cert.algebraic_KernelIdeal_ReferenceIdeal := by
  intro m ρ m' ρ' _ hagree
  refine ⟨_, _, kernel_run m ρ, ?_⟩
  refine (θ_run Cert.ReferenceIdeal.defs _ _).mono (fun r h c => ?_) (Cert.ReferenceIdeal.RefValue.run m' ρ')
  obtain ⟨e0, e1, e2, e3, e4, e5, e6, e7, e8, e9, e10, e11, e12, e13, e14, e15, e16, e17, e18, e19, e20⟩ := hagree c
  refine ⟨(h c).1.trans ?_, (h c).2.1.trans ?_, (h c).2.2⟩
  · rw [e0, e1, e2, e3, e4, e5, e6, e7, e8, e9, e10, e11, e12, e13, e14, e15, e16, e17, e18, e19, e20]
  · rw [e0, e1, e2, e3, e4, e5, e6, e7, e8, e9, e10, e11, e12, e13, e14, e15, e16, e17, e18, e19, e20]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
